-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x512 : Shape := ⟨2, ![64, 512]⟩
abbrev S512x1024 : Shape := ⟨2, ![512, 1024]⟩
abbrev S1024x512 : Shape := ⟨2, ![1024, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_arg5 : FVec F S512x1024 .f32) (main_arg6 : FVec F S1024x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  main_v33

def fn {F : FTy → Type} [FloatOps F] (main_arg0 : FVec F S64x512 .f32) (main_arg1 : FVec F S512x1024 .f32) (main_arg2 : FVec F S1024x512 .f32) (main_arg3 : FVec F S512x1024 .f32) (main_arg4 : FVec F S1024x512 .f32) (main_arg5 : FVec F S512x1024 .f32) (main_arg6 : FVec F S1024x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Pre_finite_inputs_ReferenceIdeal.lean ====
abbrev S64x512 : Shape := ⟨2, ![64, 512]⟩
abbrev S512x16384 : Shape := ⟨2, ![512, 16384]⟩
abbrev S16384x512 : Shape := ⟨2, ![16384, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_arg4 : FVec F S16384x512 .f32) (main_arg5 : FVec F S512x16384 .f32) (main_arg6 : FVec F S16384x512 .f32) (main_v13 : IVec S_ 1) (main_v16 : IVec S512x16384 1) : IVec S_ 1 :=
  let main_c_5 : IVec S_ 1 := constantI S_ 1 1#1
  let main_v17 : IVec S_ 1 := (fun x v => Host.reduce IntOp.andi x v reducesTo_S512x16384_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S512x16384 .f32 := Host.absf main_arg5
  let main_cst_8 : FVec F S_ .f32 := constant S_ .f32 0x7F800000#32
  let main_v25 : FVec F S512x16384 .f32 := broadcastInDim S512x16384 ![] bcast_S_S512x16384 main_cst_8
  let main_v26 : IVec S512x16384 1 := cmpf .olt main_v24 main_v25
  let main_c_9 : IVec S_ 1 := constantI S_ 1 1#1
  let main_v27 : IVec S_ 1 := (fun x v => Host.reduce IntOp.andi x v reducesTo_S512x16384_S_d0_1 h_S_) main_v26 main_c_9
  let main_v28 : IVec S_ 1 := andi main_v23 main_v27
  let main_v29 : FVec F S16384x512 .f32 := Host.absf main_arg6
  let main_cst_10 : FVec F S_ .f32 := constant S_ .f32 0x7F800000#32
  let main_v30 : FVec F S16384x512 .f32 := broadcastInDim S16384x512 ![] bcast_S_S16384x512 main_cst_10
  let main_v31 : IVec S16384x512 1 := cmpf .olt main_v29 main_v30
  let main_c_11 : IVec S_ 1 := constantI S_ 1 1#1
  let main_v32 : IVec S_ 1 := (fun x v => Host.reduce IntOp.andi x v reducesTo_S16384x512_S_d0_1 h_S_) main_v31 main_c_11
  let main_v33 : IVec S_ 1 := andi main_v28 main_v32
  main_v33

def fn {F : FTy → Type} [FloatOps F] (main_arg0 : FVec F S64x512 .f32) (main_arg1 : FVec F S512x16384 .f32) (main_arg2 : FVec F S16384x512 .f32) (main_arg3 : FVec F S512x16384 .f32) (main_arg4 : FVec F S16384x512 .f32) (main_arg5 : FVec F S512x16384 .f32) (main_arg6 : FVec F S16384x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x16384 .f32 := Host.absf main_arg3
  let main_cst_4 : FVec F S_ .f32 := constant S_ .f32 0x7F800000#32
  let main_v15 : FVec F S512x16384 .f32 := broadcastInDim S512x16384 ![] bcast_S_S512x16384 main_cst_4
  let main_v16 : IVec S512x16384 1 := cmpf .olt main_v14 main_v15
  fn_part1 (F := F) main_arg4 main_arg5 main_arg6 main_v13 main_v16
-- ==== Kernel.lean ====
abbrev S64x512 : Shape := ⟨2, ![64, 512]⟩
abbrev S512x1024 : Shape := ⟨2, ![512, 1024]⟩
abbrev S1024x512 : Shape := ⟨2, ![1024, 512]⟩
abbrev S4x16x512 : Shape := ⟨3, ![4, 16, 512]⟩
abbrev S72x16x512 : Shape := ⟨3, ![72, 16, 512]⟩
abbrev S72 : Shape := ⟨1, ![72]⟩
abbrev S_ : Shape := ⟨0, ![]⟩
abbrev S16x512 : Shape := ⟨2, ![16, 512]⟩
abbrev S16x1024 : Shape := ⟨2, ![16, 1024]⟩
abbrev S1x16x512 : Shape := ⟨3, ![1, 16, 512]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S4x16x512, .f32⟩
  | .local _ .vmem, ⟨9, _⟩ => ⟨S72x16x512, .f32⟩
  | _, _ => ⟨S64x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 152 → Bool
  | ⟨i, _⟩ => dmaSemScopedAt i

abbrev sig : RefSig :=
  { ofTc nBuf bufTy 1 152 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_8 : BitVec 32 := 1#32
  let v21 : BitVec 32 := Scalar.muli v7 c1_i32_8
  let v22 : BitVec 32 := Scalar.addi c0_i32 v21
  v22.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_10 : BitVec 32 := 1#32
  let v23 : BitVec 32 := Scalar.muli v10 c1_i32_10
  let v24 : BitVec 32 := Scalar.addi c0_i32_11 v23
  v24.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_13 : BitVec 32 := 1#32
  let v25 : BitVec 32 := Scalar.muli v13 c1_i32_13
  let v26 : BitVec 32 := Scalar.addi c0_i32_14 v25
  v26.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_16 : BitVec 32 := 1#32
  let v27 : BitVec 32 := Scalar.muli v15 c1_i32_16
  let v28 : BitVec 32 := Scalar.addi c0_i32_17 v27
  v28.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_19 : BitVec 32 := 1#32
  let v29 : BitVec 32 := Scalar.muli v17 c1_i32_19
  let v30 : BitVec 32 := Scalar.addi c0_i32_20 v29
  v30.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_22 : BitVec 32 := 1#32
  let v31 : BitVec 32 := Scalar.muli v19 c1_i32_22
  let v32 : BitVec 32 := Scalar.addi c0_i32_23 v31
  v32.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_38 : BitVec 32 := 1#32
  let v46 : BitVec 32 := Scalar.muli v15 c1_i32_38
  let v47 : BitVec 32 := Scalar.addi c0_i32_39 v46
  v47.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_48 : BitVec 32 := 1#32
  let v56 : BitVec 32 := Scalar.muli v17 c1_i32_48
  let v57 : BitVec 32 := Scalar.addi c0_i32_49 v56
  v57.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_58 : BitVec 32 := 1#32
  let v66 : BitVec 32 := Scalar.muli v19 c1_i32_58
  let v67 : BitVec 32 := Scalar.addi c0_i32_59 v66
  v67.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_77 : BitVec 32 := 1#32
  let v89 : BitVec 32 := Scalar.muli v15 c1_i32_77
  let v90 : BitVec 32 := Scalar.addi c0_i32_78 v89
  v90.toNat
def k0_dev11 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_87 : BitVec 32 := 1#32
  let v99 : BitVec 32 := Scalar.muli v17 c1_i32_87
  let v100 : BitVec 32 := Scalar.addi c0_i32_88 v99
  v100.toNat
def k0_dev12 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_97 : BitVec 32 := 1#32
  let v109 : BitVec 32 := Scalar.muli v19 c1_i32_97
  let v110 : BitVec 32 := Scalar.addi c0_i32_98 v109
  v110.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_117 : BitVec 32 := 1#32
  let v132 : BitVec 32 := Scalar.muli v15 c1_i32_117
  let v133 : BitVec 32 := Scalar.addi c0_i32_118 v132
  v133.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_126 : BitVec 32 := 1#32
  let v142 : BitVec 32 := Scalar.muli v17 c1_i32_126
  let v143 : BitVec 32 := Scalar.addi c0_i32_127 v142
  v143.toNat
def k0_dev15 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_136 : BitVec 32 := 1#32
  let v152 : BitVec 32 := Scalar.muli v19 c1_i32_136
  let v153 : BitVec 32 := Scalar.addi c0_i32_137 v152
  v153.toNat
def k0_dev16 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_155 : BitVec 32 := 1#32
  let v175 : BitVec 32 := Scalar.muli v15 c1_i32_155
  let v176 : BitVec 32 := Scalar.addi c0_i32_156 v175
  v176.toNat
def k0_dev17 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_164 : BitVec 32 := 1#32
  let v185 : BitVec 32 := Scalar.muli v17 c1_i32_164
  let v186 : BitVec 32 := Scalar.addi c0_i32_165 v185
  v186.toNat
def k0_dev18 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_173 : BitVec 32 := 1#32
  let v195 : BitVec 32 := Scalar.muli v19 c1_i32_173
  let v196 : BitVec 32 := Scalar.addi c0_i32_174 v195
  v196.toNat
def k0_dev19 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_254 : BitVec 32 := 1#32
  let v261 : BitVec 32 := Scalar.muli v7 c1_i32_254
  let v262 : BitVec 32 := Scalar.addi c0_i32_255 v261
  v262.toNat
def k0_dev20 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_263 : BitVec 32 := 1#32
  let v271 : BitVec 32 := Scalar.muli v10 c1_i32_263
  let v272 : BitVec 32 := Scalar.addi c0_i32_264 v271
  v272.toNat
def k0_dev21 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_273 : BitVec 32 := 1#32
  let v281 : BitVec 32 := Scalar.muli v13 c1_i32_273
  let v282 : BitVec 32 := Scalar.addi c0_i32_274 v281
  v282.toNat
def k0_dev22 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_352 : BitVec 32 := 1#32
  let v347 : BitVec 32 := Scalar.muli v7 c1_i32_352
  let v348 : BitVec 32 := Scalar.addi c0_i32_353 v347
  v348.toNat
def k0_dev23 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_362 : BitVec 32 := 1#32
  let v357 : BitVec 32 := Scalar.muli v10 c1_i32_362
  let v358 : BitVec 32 := Scalar.addi c0_i32_363 v357
  v358.toNat
def k0_dev24 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_372 : BitVec 32 := 1#32
  let v367 : BitVec 32 := Scalar.muli v13 c1_i32_372
  let v368 : BitVec 32 := Scalar.addi c0_i32_373 v367
  v368.toNat
def k0_dev25 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_450 : BitVec 32 := 1#32
  let v433 : BitVec 32 := Scalar.muli v7 c1_i32_450
  let v434 : BitVec 32 := Scalar.addi c0_i32_451 v433
  v434.toNat
def k0_dev26 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_459 : BitVec 32 := 1#32
  let v443 : BitVec 32 := Scalar.muli v10 c1_i32_459
  let v444 : BitVec 32 := Scalar.addi c0_i32_460 v443
  v444.toNat
def k0_dev27 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_468 : BitVec 32 := 1#32
  let v453 : BitVec 32 := Scalar.muli v13 c1_i32_468
  let v454 : BitVec 32 := Scalar.addi c0_i32_469 v453
  v454.toNat
def k0_dev28 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_546 : BitVec 32 := 1#32
  let v519 : BitVec 32 := Scalar.muli v7 c1_i32_546
  let v520 : BitVec 32 := Scalar.addi c0_i32_547 v519
  v520.toNat
def k0_dev29 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_555 : BitVec 32 := 1#32
  let v529 : BitVec 32 := Scalar.muli v10 c1_i32_555
  let v530 : BitVec 32 := Scalar.addi c0_i32_556 v529
  v530.toNat
def k0_dev30 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_564 : BitVec 32 := 1#32
  let v539 : BitVec 32 := Scalar.muli v13 c1_i32_564
  let v540 : BitVec 32 := Scalar.addi c0_i32_565 v539
  v540.toNat
def k0_dev31 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_655 : BitVec 32 := 1#32
  let v618 : BitVec 32 := Scalar.muli v15 c1_i32_655
  let v619 : BitVec 32 := Scalar.addi c0_i32_656 v618
  v619.toNat
def k0_dev32 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_664 : BitVec 32 := 1#32
  let v628 : BitVec 32 := Scalar.muli v17 c1_i32_664
  let v629 : BitVec 32 := Scalar.addi c0_i32_665 v628
  v629.toNat
def k0_dev33 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_673 : BitVec 32 := 1#32
  let v638 : BitVec 32 := Scalar.muli v19 c1_i32_673
  let v639 : BitVec 32 := Scalar.addi c0_i32_674 v638
  v639.toNat
def k0_dev34 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_765 : BitVec 32 := 1#32
  let v717 : BitVec 32 := Scalar.muli v15 c1_i32_765
  let v718 : BitVec 32 := Scalar.addi c0_i32_766 v717
  v718.toNat
def k0_dev35 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_774 : BitVec 32 := 1#32
  let v727 : BitVec 32 := Scalar.muli v17 c1_i32_774
  let v728 : BitVec 32 := Scalar.addi c0_i32_775 v727
  v728.toNat
def k0_dev36 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_783 : BitVec 32 := 1#32
  let v737 : BitVec 32 := Scalar.muli v19 c1_i32_783
  let v738 : BitVec 32 := Scalar.addi c0_i32_784 v737
  v738.toNat
def k0_dev37 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_874 : BitVec 32 := 1#32
  let v816 : BitVec 32 := Scalar.muli v15 c1_i32_874
  let v817 : BitVec 32 := Scalar.addi c0_i32_875 v816
  v817.toNat
def k0_dev38 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_883 : BitVec 32 := 1#32
  let v826 : BitVec 32 := Scalar.muli v17 c1_i32_883
  let v827 : BitVec 32 := Scalar.addi c0_i32_884 v826
  v827.toNat
def k0_dev39 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_892 : BitVec 32 := 1#32
  let v836 : BitVec 32 := Scalar.muli v19 c1_i32_892
  let v837 : BitVec 32 := Scalar.addi c0_i32_893 v836
  v837.toNat
def k0_dev40 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_983 : BitVec 32 := 1#32
  let v915 : BitVec 32 := Scalar.muli v15 c1_i32_983
  let v916 : BitVec 32 := Scalar.addi c0_i32_984 v915
  v916.toNat
def k0_dev41 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_992 : BitVec 32 := 1#32
  let v925 : BitVec 32 := Scalar.muli v17 c1_i32_992
  let v926 : BitVec 32 := Scalar.addi c0_i32_993 v925
  v926.toNat
def k0_dev42 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_1001 : BitVec 32 := 1#32
  let v935 : BitVec 32 := Scalar.muli v19 c1_i32_1001
  let v936 : BitVec 32 := Scalar.addi c0_i32_1002 v935
  v936.toNat
def k0_dev43 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_1079 : BitVec 32 := 1#32
  let v1001 : BitVec 32 := Scalar.muli v7 c1_i32_1079
  let v1002 : BitVec 32 := Scalar.addi c0_i32_1080 v1001
  v1002.toNat
def k0_dev44 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_1088 : BitVec 32 := 1#32
  let v1011 : BitVec 32 := Scalar.muli v10 c1_i32_1088
  let v1012 : BitVec 32 := Scalar.addi c0_i32_1089 v1011
  v1012.toNat
def k0_dev45 (d0 : Dev nD) : Nat :=
  let c0_i32_1098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_1097 : BitVec 32 := 1#32
  let v1021 : BitVec 32 := Scalar.muli v13 c1_i32_1097
  let v1022 : BitVec 32 := Scalar.addi c0_i32_1098 v1021
  v1022.toNat
def k0_dev46 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_1175 : BitVec 32 := 1#32
  let v1087 : BitVec 32 := Scalar.muli v7 c1_i32_1175
  let v1088 : BitVec 32 := Scalar.addi c0_i32_1176 v1087
  v1088.toNat
def k0_dev47 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_1184 : BitVec 32 := 1#32
  let v1097 : BitVec 32 := Scalar.muli v10 c1_i32_1184
  let v1098 : BitVec 32 := Scalar.addi c0_i32_1185 v1097
  v1098.toNat
def k0_dev48 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_1193 : BitVec 32 := 1#32
  let v1107 : BitVec 32 := Scalar.muli v13 c1_i32_1193
  let v1108 : BitVec 32 := Scalar.addi c0_i32_1194 v1107
  v1108.toNat
def k0_dev49 (d0 : Dev nD) : Nat :=
  let c0_i32_1273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_1272 : BitVec 32 := 1#32
  let v1173 : BitVec 32 := Scalar.muli v7 c1_i32_1272
  let v1174 : BitVec 32 := Scalar.addi c0_i32_1273 v1173
  v1174.toNat
def k0_dev50 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_1281 : BitVec 32 := 1#32
  let v1183 : BitVec 32 := Scalar.muli v10 c1_i32_1281
  let v1184 : BitVec 32 := Scalar.addi c0_i32_1282 v1183
  v1184.toNat
def k0_dev51 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_1290 : BitVec 32 := 1#32
  let v1193 : BitVec 32 := Scalar.muli v13 c1_i32_1290
  let v1194 : BitVec 32 := Scalar.addi c0_i32_1291 v1193
  v1194.toNat
def k0_dev52 (d0 : Dev nD) : Nat :=
  let c0_i32_1369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_1368 : BitVec 32 := 1#32
  let v1259 : BitVec 32 := Scalar.muli v7 c1_i32_1368
  let v1260 : BitVec 32 := Scalar.addi c0_i32_1369 v1259
  v1260.toNat
def k0_dev53 (d0 : Dev nD) : Nat :=
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_1377 : BitVec 32 := 1#32
  let v1269 : BitVec 32 := Scalar.muli v10 c1_i32_1377
  let v1270 : BitVec 32 := Scalar.addi c0_i32_1378 v1269
  v1270.toNat
def k0_dev54 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_1386 : BitVec 32 := 1#32
  let v1279 : BitVec 32 := Scalar.muli v13 c1_i32_1386
  let v1280 : BitVec 32 := Scalar.addi c0_i32_1387 v1279
  v1280.toNat
def k0_dev55 (d0 : Dev nD) : Nat :=
  let c0_i32_1478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_1477 : BitVec 32 := 1#32
  let v1358 : BitVec 32 := Scalar.muli v15 c1_i32_1477
  let v1359 : BitVec 32 := Scalar.addi c0_i32_1478 v1358
  v1359.toNat
def k0_dev56 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_1486 : BitVec 32 := 1#32
  let v1368 : BitVec 32 := Scalar.muli v17 c1_i32_1486
  let v1369 : BitVec 32 := Scalar.addi c0_i32_1487 v1368
  v1369.toNat
def k0_dev57 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_1495 : BitVec 32 := 1#32
  let v1378 : BitVec 32 := Scalar.muli v19 c1_i32_1495
  let v1379 : BitVec 32 := Scalar.addi c0_i32_1496 v1378
  v1379.toNat
def k0_dev58 (d0 : Dev nD) : Nat :=
  let c0_i32_1587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_1586 : BitVec 32 := 1#32
  let v1457 : BitVec 32 := Scalar.muli v15 c1_i32_1586
  let v1458 : BitVec 32 := Scalar.addi c0_i32_1587 v1457
  v1458.toNat
def k0_dev59 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_1595 : BitVec 32 := 1#32
  let v1467 : BitVec 32 := Scalar.muli v17 c1_i32_1595
  let v1468 : BitVec 32 := Scalar.addi c0_i32_1596 v1467
  v1468.toNat
def k0_dev60 (d0 : Dev nD) : Nat :=
  let c0_i32_1605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_1604 : BitVec 32 := 1#32
  let v1477 : BitVec 32 := Scalar.muli v19 c1_i32_1604
  let v1478 : BitVec 32 := Scalar.addi c0_i32_1605 v1477
  v1478.toNat
def k0_dev61 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_1695 : BitVec 32 := 1#32
  let v1556 : BitVec 32 := Scalar.muli v15 c1_i32_1695
  let v1557 : BitVec 32 := Scalar.addi c0_i32_1696 v1556
  v1557.toNat
def k0_dev62 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_1704 : BitVec 32 := 1#32
  let v1566 : BitVec 32 := Scalar.muli v17 c1_i32_1704
  let v1567 : BitVec 32 := Scalar.addi c0_i32_1705 v1566
  v1567.toNat
def k0_dev63 (d0 : Dev nD) : Nat :=
  let c0_i32_1714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_1713 : BitVec 32 := 1#32
  let v1576 : BitVec 32 := Scalar.muli v19 c1_i32_1713
  let v1577 : BitVec 32 := Scalar.addi c0_i32_1714 v1576
  v1577.toNat
def k0_dev64 (d0 : Dev nD) : Nat :=
  let c0_i32_1805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v14 : BitVec 32 := Scalar.addi v2 c4_i32
  let c15_i32 : BitVec 32 := 15#32
  let v15 : BitVec 32 := Scalar.andi v14 c15_i32
  let c1_i32_1804 : BitVec 32 := 1#32
  let v1655 : BitVec 32 := Scalar.muli v15 c1_i32_1804
  let v1656 : BitVec 32 := Scalar.addi c0_i32_1805 v1655
  v1656.toNat
def k0_dev65 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c15_i32_5 : BitVec 32 := 15#32
  let v17 : BitVec 32 := Scalar.andi v16 c15_i32_5
  let c1_i32_1813 : BitVec 32 := 1#32
  let v1665 : BitVec 32 := Scalar.muli v17 c1_i32_1813
  let v1666 : BitVec 32 := Scalar.addi c0_i32_1814 v1665
  v1666.toNat
def k0_dev66 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v18 : BitVec 32 := Scalar.addi v2 c12_i32
  let c15_i32_6 : BitVec 32 := 15#32
  let v19 : BitVec 32 := Scalar.andi v18 c15_i32_6
  let c1_i32_1822 : BitVec 32 := 1#32
  let v1675 : BitVec 32 := Scalar.muli v19 c1_i32_1822
  let v1676 : BitVec 32 := Scalar.addi c0_i32_1823 v1675
  v1676.toNat
def k0_dev67 (d0 : Dev nD) : Nat :=
  let c0_i32_1902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_1901 : BitVec 32 := 1#32
  let v1741 : BitVec 32 := Scalar.muli v7 c1_i32_1901
  let v1742 : BitVec 32 := Scalar.addi c0_i32_1902 v1741
  v1742.toNat
def k0_dev68 (d0 : Dev nD) : Nat :=
  let c0_i32_1911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_1910 : BitVec 32 := 1#32
  let v1751 : BitVec 32 := Scalar.muli v10 c1_i32_1910
  let v1752 : BitVec 32 := Scalar.addi c0_i32_1911 v1751
  v1752.toNat
def k0_dev69 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_1919 : BitVec 32 := 1#32
  let v1761 : BitVec 32 := Scalar.muli v13 c1_i32_1919
  let v1762 : BitVec 32 := Scalar.addi c0_i32_1920 v1761
  v1762.toNat
def k0_dev70 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_1997 : BitVec 32 := 1#32
  let v1827 : BitVec 32 := Scalar.muli v7 c1_i32_1997
  let v1828 : BitVec 32 := Scalar.addi c0_i32_1998 v1827
  v1828.toNat
def k0_dev71 (d0 : Dev nD) : Nat :=
  let c0_i32_2007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_2006 : BitVec 32 := 1#32
  let v1837 : BitVec 32 := Scalar.muli v10 c1_i32_2006
  let v1838 : BitVec 32 := Scalar.addi c0_i32_2007 v1837
  v1838.toNat
def k0_dev72 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_2015 : BitVec 32 := 1#32
  let v1847 : BitVec 32 := Scalar.muli v13 c1_i32_2015
  let v1848 : BitVec 32 := Scalar.addi c0_i32_2016 v1847
  v1848.toNat
def k0_dev73 (d0 : Dev nD) : Nat :=
  let c0_i32_2094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_2093 : BitVec 32 := 1#32
  let v1913 : BitVec 32 := Scalar.muli v7 c1_i32_2093
  let v1914 : BitVec 32 := Scalar.addi c0_i32_2094 v1913
  v1914.toNat
def k0_dev74 (d0 : Dev nD) : Nat :=
  let c0_i32_2103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_2102 : BitVec 32 := 1#32
  let v1923 : BitVec 32 := Scalar.muli v10 c1_i32_2102
  let v1924 : BitVec 32 := Scalar.addi c0_i32_2103 v1923
  v1924.toNat
def k0_dev75 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_2111 : BitVec 32 := 1#32
  let v1933 : BitVec 32 := Scalar.muli v13 c1_i32_2111
  let v1934 : BitVec 32 := Scalar.addi c0_i32_2112 v1933
  v1934.toNat
def k0_dev76 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v5 : BitVec 32 := Scalar.addi v3 c1_i32_0
  let c3_i32_1 : BitVec 32 := 3#32
  let v6 : BitVec 32 := Scalar.andi v5 c3_i32_1
  let v7 : BitVec 32 := Scalar.addi v4 v6
  let c1_i32_2189 : BitVec 32 := 1#32
  let v1999 : BitVec 32 := Scalar.muli v7 c1_i32_2189
  let v2000 : BitVec 32 := Scalar.addi c0_i32_2190 v1999
  v2000.toNat
def k0_dev77 (d0 : Dev nD) : Nat :=
  let c0_i32_2199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v8 : BitVec 32 := Scalar.addi v3 c2_i32
  let c3_i32_2 : BitVec 32 := 3#32
  let v9 : BitVec 32 := Scalar.andi v8 c3_i32_2
  let v10 : BitVec 32 := Scalar.addi v4 v9
  let c1_i32_2198 : BitVec 32 := 1#32
  let v2009 : BitVec 32 := Scalar.muli v10 c1_i32_2198
  let v2010 : BitVec 32 := Scalar.addi c0_i32_2199 v2009
  v2010.toNat
def k0_dev78 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v11 : BitVec 32 := Scalar.addi v3 c3_i32_3
  let c3_i32_4 : BitVec 32 := 3#32
  let v12 : BitVec 32 := Scalar.andi v11 c3_i32_4
  let v13 : BitVec 32 := Scalar.addi v4 v12
  let c1_i32_2207 : BitVec 32 := 1#32
  let v2019 : BitVec 32 := Scalar.muli v13 c1_i32_2207
  let v2020 : BitVec 32 := Scalar.addi c0_i32_2208 v2019
  v2020.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  hamt_6 : (6#32 : BitVec 32).msb = false
  inb_S64x512_S16x512_0_0 : ∀ a, (![0, 0] : Fin 2 → Nat) a + S16x512.size a ≤ S64x512.size a
  h_S16x512 : 0 < S16x512.numel
  shapeCasts_S16x512_S16x512 : S16x512.ShapeCasts S16x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S4x16x512_S1x16x512_0_0_0 : ∀ a, (![0, 0, 0] : Fin 3 → Nat) a + S1x16x512.size a ≤ S4x16x512.size a
  h_S1x16x512 : 0 < S1x16x512.numel
  shapeCasts_S1x16x512_S16x512 : S1x16x512.ShapeCasts S16x512
  shapeCasts_S16x512_S1x16x512 : S16x512.ShapeCasts S1x16x512
  inb_S72_S1_2 : ∀ a, (![2] : Fin 1 → Nat) a + S1.size a ≤ S72.size a
  squeezes_S1_S_ : S1.Squeezes S_
  inb_S72x16x512_S1x16x512_2_0_0 : ∀ a, (![2, 0, 0] : Fin 3 → Nat) a + S1x16x512.size a ≤ S72x16x512.size a
  squeezes_S1x16x512_S16x512 : S1x16x512.Squeezes S16x512
  inb_S72_S1_1 : ∀ a, (![1] : Fin 1 → Nat) a + S1.size a ≤ S72.size a
  inb_S72x16x512_S1x16x512_1_0_0 : ∀ a, (![1, 0, 0] : Fin 3 → Nat) a + S1x16x512.size a ≤ S72x16x512.size a
  inb_S72_S1_0 : ∀ a, (![0] : Fin 1 → Nat) a + S1.size a ≤ S72.size a
  inb_S72x16x512_S1x16x512_0_0_0 : ∀ a, (![0, 0, 0] : Fin 3 → Nat) a + S1x16x512.size a ≤ S72x16x512.size a
  inb_S64x512_S16x512_16_0 : ∀ a, (![16, 0] : Fin 2 → Nat) a + S16x512.size a ≤ S64x512.size a
  inb_S4x16x512_S1x16x512_1_0_0 : ∀ a, (![1, 0, 0] : Fin 3 → Nat) a + S1x16x512.size a ≤ S4x16x512.size a
  inb_S72_S1_5 : ∀ a, (![5] : Fin 1 → Nat) a + S1.size a ≤ S72.size a
  inb_S72x16x512_S1x16x512_5_0_0 : ∀ a, (![5, 0, 0] : Fin 3 → Nat) a + S1x16x512.size a ≤ S72x16x512.size a
  inb_S72_S1_4 : ∀ a, (![4] : Fin 1 → Nat) a + S1.size a ≤ S72.size a
  inb_S72x16x512_S1x16x512_4_0_0 : ∀ a, (![4, 0, 0] : Fin 3 → Nat) a + S1x16x512.size a ≤ S72x16x512.size a
  inb_S72_S1_3 : ∀ a, (![3] : Fin 1 → Nat) a + S1.size a ≤ S72.size a
  inb_S72x16x512_S1x16x512_3_0_0 : ∀ a, (![3, 0, 0] : Fin 3 → Nat) a + S1x16x512.size a ≤ S72x16x512.size a
  inb_S64x512_S16x512_32_0 : ∀ a, (![32, 0] : Fin 2 → Nat) a + S16x512.size a ≤ S64x512.size a
  inb_S4x16x512_S1x16x512_2_0_0 : ∀ a, (![2, 0, 0] : Fin 3 → Nat) a + S1x16x512.size a ≤ S4x16x512.size a
  inb_S72_S1_8 : ∀ a, (![8] : Fin 1 → Nat) a + S1.size a ≤ S72.size a
  inb_S72x16x512_S1x16x512_8_0_0 : ∀ a, (![8, 0, 0] : Fin 3 → Nat) a + S1x16x512.size a ≤ S72x16x512.size a
  inb_S72_S1_7 : ∀ a, (![7] : Fin 1 → Nat) a + S1.size a ≤ S72.size a
  inb_S72x16x512_S1x16x512_7_0_0 : ∀ a, (![7, 0, 0] : Fin 3 → Nat) a + S1x16x512.size a ≤ S72x16x512.size a
  inb_S72_S1_6 : ∀ a, (![6] : Fin 1 → Nat) a + S1.size a ≤ S72.size a
  inb_S72x16x512_S1x16x512_6_0_0 : ∀ a, (![6, 0, 0] : Fin 3 → Nat) a + S1x16x512.size a ≤ S72x16x512.size a
  inb_S64x512_S16x512_48_0 : ∀ a, (![48, 0] : Fin 2 → Nat) a + S16x512.size a ≤ S64x512.size a
  inb_S4x16x512_S1x16x512_3_0_0 : ∀ a, (![3, 0, 0] : Fin 3 → Nat) a + S1x16x512.size a ≤ S4x16x512.size a
  inb_S72_S1_11 : ∀ a, (![11] : Fin 1 → Nat) a + S1.size a ≤ S72.size a
  inb_S72x16x512_S1x16x512_11_0_0 : ∀ a, (![11, 0, 0] : Fin 3 → Nat) a + S1x16x512.size a ≤ S72x16x512.size a
  inb_S72_S1_10 : ∀ a, (![10] : Fin 1 → Nat) a + S1.size a ≤ S72.size a
  inb_S72x16x512_S1x16x512_10_0_0 : ∀ a, (![10, 0, 0] : Fin 3 → Nat) a + S1x16x512.size a ≤ S72x16x512.size a
  inb_S72_S1_9 : ∀ a, (![9] : Fin 1 → Nat) a + S1.size a ≤ S72.size a
  inb_S72x16x512_S1x16x512_9_0_0 : ∀ a, (![9, 0, 0] : Fin 3 → Nat) a + S1x16x512.size a ≤ S72x16x512.size a
  inb_S72_S1_14 : ∀ a, (![14] : Fin 1 → Nat) a + S1.size a ≤ S72.size a
  inb_S72x16x512_S1x16x512_14_0_0 : ∀ a, (![14, 0, 0] : Fin 3 → Nat) a + S1x16x512.size a ≤ S72x16x512.size a
  inb_S72_S1_13 : ∀ a, (![13] : Fin 1 → Nat) a + S1.size a ≤ S72.size a
  inb_S72x16x512_S1x16x512_13_0_0 : ∀ a, (![13, 0, 0] : Fin 3 → Nat) a + S1x16x512.size a ≤ S72x16x512.size a
  inb_S72_S1_12 : ∀ a, (![12] : Fin 1 → Nat) a + S1.size a ≤ S72.size a
  inb_S72x16x512_S1x16x512_12_0_0 : ∀ a, (![12, 0, 0] : Fin 3 → Nat) a + S1x16x512.size a ≤ S72x16x512.size a
  inb_S72_S1_17 : ∀ a, (![17] : Fin 1 → Nat) a + S1.size a ≤ S72.size a
  inb_S72x16x512_S1x16x512_17_0_0 : ∀ a, (![17, 0, 0] : Fin 3 → Nat) a + S1x16x512.size a ≤ S72x16x512.size a
  inb_S72_S1_16 : ∀ a, (![16] : Fin 1 → Nat) a + S1.size a ≤ S72.size a
  inb_S72x16x512_S1x16x512_16_0_0 : ∀ a, (![16, 0, 0] : Fin 3 → Nat) a + S1x16x512.size a ≤ S72x16x512.size a
  inb_S72_S1_15 : ∀ a, (![15] : Fin 1 → Nat) a + S1.size a ≤ S72.size a
  inb_S72x16x512_S1x16x512_15_0_0 : ∀ a, (![15, 0, 0] : Fin 3 → Nat) a + S1x16x512.size a ≤ S72x16x512.size a
  inb_S72_S1_20 : ∀ a, (![20] : Fin 1 → Nat) a + S1.size a ≤ S72.size a
  inb_S72x16x512_S1x16x512_20_0_0 : ∀ a, (![20, 0, 0] : Fin 3 → Nat) a + S1x16x512.size a ≤ S72x16x512.size a
  inb_S72_S1_19 : ∀ a, (![19] : Fin 1 → Nat) a + S1.size a ≤ S72.size a
  inb_S72x16x512_S1x16x512_19_0_0 : ∀ a, (![19, 0, 0] : Fin 3 → Nat) a + S1x16x512.size a ≤ S72x16x512.size a
  inb_S72_S1_18 : ∀ a, (![18] : Fin 1 → Nat) a + S1.size a ≤ S72.size a
  inb_S72x16x512_S1x16x512_18_0_0 : ∀ a, (![18, 0, 0] : Fin 3 → Nat) a + S1x16x512.size a ≤ S72x16x512.size a
  inb_S72_S1_23 : ∀ a, (![23] : Fin 1 → Nat) a + S1.size a ≤ S72.size a
  inb_S72x16x512_S1x16x512_23_0_0 : ∀ a, (![23, 0, 0] : Fin 3 → Nat) a + S1x16x512.size a ≤ S72x16x512.size a
  inb_S72_S1_22 : ∀ a, (![22] : Fin 1 → Nat) a + S1.size a ≤ S72.size a
  inb_S72x16x512_S1x16x512_22_0_0 : ∀ a, (![22, 0, 0] : Fin 3 → Nat) a + S1x16x512.size a ≤ S72x16x512.size a
  inb_S72_S1_21 : ∀ a, (![21] : Fin 1 → Nat) a + S1.size a ≤ S72.size a
  inb_S72x16x512_S1x16x512_21_0_0 : ∀ a, (![21, 0, 0] : Fin 3 → Nat) a + S1x16x512.size a ≤ S72x16x512.size a
  inb_S72_S1_26 : ∀ a, (![26] : Fin 1 → Nat) a + S1.size a ≤ S72.size a
  inb_S72x16x512_S1x16x512_26_0_0 : ∀ a, (![26, 0, 0] : Fin 3 → Nat) a + S1x16x512.size a ≤ S72x16x512.size a
  inb_S72_S1_25 : ∀ a, (![25] : Fin 1 → Nat) a + S1.size a ≤ S72.size a
  inb_S72x16x512_S1x16x512_25_0_0 : ∀ a, (![25, 0, 0] : Fin 3 → Nat) a + S1x16x512.size a ≤ S72x16x512.size a
  inb_S72_S1_24 : ∀ a, (![24] : Fin 1 → Nat) a + S1.size a ≤ S72.size a
  inb_S72x16x512_S1x16x512_24_0_0 : ∀ a, (![24, 0, 0] : Fin 3 → Nat) a + S1x16x512.size a ≤ S72x16x512.size a
  inb_S72_S1_29 : ∀ a, (![29] : Fin 1 → Nat) a + S1.size a ≤ S72.size a
  inb_S72x16x512_S1x16x512_29_0_0 : ∀ a, (![29, 0, 0] : Fin 3 → Nat) a + S1x16x512.size a ≤ S72x16x512.size a
  inb_S72_S1_28 : ∀ a, (![28] : Fin 1 → Nat) a + S1.size a ≤ S72.size a
  inb_S72x16x512_S1x16x512_28_0_0 : ∀ a, (![28, 0, 0] : Fin 3 → Nat) a + S1x16x512.size a ≤ S72x16x512.size a
  inb_S72_S1_27 : ∀ a, (![27] : Fin 1 → Nat) a + S1.size a ≤ S72.size a
  inb_S72x16x512_S1x16x512_27_0_0 : ∀ a, (![27, 0, 0] : Fin 3 → Nat) a + S1x16x512.size a ≤ S72x16x512.size a
  inb_S72_S1_32 : ∀ a, (![32] : Fin 1 → Nat) a + S1.size a ≤ S72.size a
  inb_S72x16x512_S1x16x512_32_0_0 : ∀ a, (![32, 0, 0] : Fin 3 → Nat) a + S1x16x512.size a ≤ S72x16x512.size a
  inb_S72_S1_31 : ∀ a, (![31] : Fin 1 → Nat) a + S1.size a ≤ S72.size a
  inb_S72x16x512_S1x16x512_31_0_0 : ∀ a, (![31, 0, 0] : Fin 3 → Nat) a + S1x16x512.size a ≤ S72x16x512.size a
  inb_S72_S1_30 : ∀ a, (![30] : Fin 1 → Nat) a + S1.size a ≤ S72.size a
  inb_S72x16x512_S1x16x512_30_0_0 : ∀ a, (![30, 0, 0] : Fin 3 → Nat) a + S1x16x512.size a ≤ S72x16x512.size a
  inb_S72_S1_35 : ∀ a, (![35] : Fin 1 → Nat) a + S1.size a ≤ S72.size a
  inb_S72x16x512_S1x16x512_35_0_0 : ∀ a, (![35, 0, 0] : Fin 3 → Nat) a + S1x16x512.size a ≤ S72x16x512.size a
  inb_S72_S1_34 : ∀ a, (![34] : Fin 1 → Nat) a + S1.size a ≤ S72.size a
  inb_S72x16x512_S1x16x512_34_0_0 : ∀ a, (![34, 0, 0] : Fin 3 → Nat) a + S1x16x512.size a ≤ S72x16x512.size a
  inb_S72_S1_33 : ∀ a, (![33] : Fin 1 → Nat) a + S1.size a ≤ S72.size a
  inb_S72x16x512_S1x16x512_33_0_0 : ∀ a, (![33, 0, 0] : Fin 3 → Nat) a + S1x16x512.size a ≤ S72x16x512.size a
  inb_S72_S1_38 : ∀ a, (![38] : Fin 1 → Nat) a + S1.size a ≤ S72.size a
  inb_S72x16x512_S1x16x512_38_0_0 : ∀ a, (![38, 0, 0] : Fin 3 → Nat) a + S1x16x512.size a ≤ S72x16x512.size a
  inb_S72_S1_37 : ∀ a, (![37] : Fin 1 → Nat) a + S1.size a ≤ S72.size a
  inb_S72x16x512_S1x16x512_37_0_0 : ∀ a, (![37, 0, 0] : Fin 3 → Nat) a + S1x16x512.size a ≤ S72x16x512.size a
  inb_S72_S1_36 : ∀ a, (![36] : Fin 1 → Nat) a + S1.size a ≤ S72.size a
  inb_S72x16x512_S1x16x512_36_0_0 : ∀ a, (![36, 0, 0] : Fin 3 → Nat) a + S1x16x512.size a ≤ S72x16x512.size a
  inb_S72_S1_41 : ∀ a, (![41] : Fin 1 → Nat) a + S1.size a ≤ S72.size a
  inb_S72x16x512_S1x16x512_41_0_0 : ∀ a, (![41, 0, 0] : Fin 3 → Nat) a + S1x16x512.size a ≤ S72x16x512.size a
  inb_S72_S1_40 : ∀ a, (![40] : Fin 1 → Nat) a + S1.size a ≤ S72.size a
  inb_S72x16x512_S1x16x512_40_0_0 : ∀ a, (![40, 0, 0] : Fin 3 → Nat) a + S1x16x512.size a ≤ S72x16x512.size a
  inb_S72_S1_39 : ∀ a, (![39] : Fin 1 → Nat) a + S1.size a ≤ S72.size a
  inb_S72x16x512_S1x16x512_39_0_0 : ∀ a, (![39, 0, 0] : Fin 3 → Nat) a + S1x16x512.size a ≤ S72x16x512.size a
  inb_S72_S1_44 : ∀ a, (![44] : Fin 1 → Nat) a + S1.size a ≤ S72.size a
  inb_S72x16x512_S1x16x512_44_0_0 : ∀ a, (![44, 0, 0] : Fin 3 → Nat) a + S1x16x512.size a ≤ S72x16x512.size a
  inb_S72_S1_43 : ∀ a, (![43] : Fin 1 → Nat) a + S1.size a ≤ S72.size a
  inb_S72x16x512_S1x16x512_43_0_0 : ∀ a, (![43, 0, 0] : Fin 3 → Nat) a + S1x16x512.size a ≤ S72x16x512.size a
  inb_S72_S1_42 : ∀ a, (![42] : Fin 1 → Nat) a + S1.size a ≤ S72.size a
  inb_S72x16x512_S1x16x512_42_0_0 : ∀ a, (![42, 0, 0] : Fin 3 → Nat) a + S1x16x512.size a ≤ S72x16x512.size a
  inb_S72_S1_47 : ∀ a, (![47] : Fin 1 → Nat) a + S1.size a ≤ S72.size a
  inb_S72x16x512_S1x16x512_47_0_0 : ∀ a, (![47, 0, 0] : Fin 3 → Nat) a + S1x16x512.size a ≤ S72x16x512.size a
  inb_S72_S1_46 : ∀ a, (![46] : Fin 1 → Nat) a + S1.size a ≤ S72.size a
  inb_S72x16x512_S1x16x512_46_0_0 : ∀ a, (![46, 0, 0] : Fin 3 → Nat) a + S1x16x512.size a ≤ S72x16x512.size a
  inb_S72_S1_45 : ∀ a, (![45] : Fin 1 → Nat) a + S1.size a ≤ S72.size a
  inb_S72x16x512_S1x16x512_45_0_0 : ∀ a, (![45, 0, 0] : Fin 3 → Nat) a + S1x16x512.size a ≤ S72x16x512.size a
  inb_S72_S1_50 : ∀ a, (![50] : Fin 1 → Nat) a + S1.size a ≤ S72.size a
  inb_S72x16x512_S1x16x512_50_0_0 : ∀ a, (![50, 0, 0] : Fin 3 → Nat) a + S1x16x512.size a ≤ S72x16x512.size a
  inb_S72_S1_49 : ∀ a, (![49] : Fin 1 → Nat) a + S1.size a ≤ S72.size a
  inb_S72x16x512_S1x16x512_49_0_0 : ∀ a, (![49, 0, 0] : Fin 3 → Nat) a + S1x16x512.size a ≤ S72x16x512.size a
  inb_S72_S1_48 : ∀ a, (![48] : Fin 1 → Nat) a + S1.size a ≤ S72.size a
  inb_S72x16x512_S1x16x512_48_0_0 : ∀ a, (![48, 0, 0] : Fin 3 → Nat) a + S1x16x512.size a ≤ S72x16x512.size a
  inb_S72_S1_53 : ∀ a, (![53] : Fin 1 → Nat) a + S1.size a ≤ S72.size a
  inb_S72x16x512_S1x16x512_53_0_0 : ∀ a, (![53, 0, 0] : Fin 3 → Nat) a + S1x16x512.size a ≤ S72x16x512.size a
  inb_S72_S1_52 : ∀ a, (![52] : Fin 1 → Nat) a + S1.size a ≤ S72.size a
  inb_S72x16x512_S1x16x512_52_0_0 : ∀ a, (![52, 0, 0] : Fin 3 → Nat) a + S1x16x512.size a ≤ S72x16x512.size a
  inb_S72_S1_51 : ∀ a, (![51] : Fin 1 → Nat) a + S1.size a ≤ S72.size a
  inb_S72x16x512_S1x16x512_51_0_0 : ∀ a, (![51, 0, 0] : Fin 3 → Nat) a + S1x16x512.size a ≤ S72x16x512.size a
  inb_S72_S1_56 : ∀ a, (![56] : Fin 1 → Nat) a + S1.size a ≤ S72.size a
  inb_S72x16x512_S1x16x512_56_0_0 : ∀ a, (![56, 0, 0] : Fin 3 → Nat) a + S1x16x512.size a ≤ S72x16x512.size a
  inb_S72_S1_55 : ∀ a, (![55] : Fin 1 → Nat) a + S1.size a ≤ S72.size a
  inb_S72x16x512_S1x16x512_55_0_0 : ∀ a, (![55, 0, 0] : Fin 3 → Nat) a + S1x16x512.size a ≤ S72x16x512.size a
  inb_S72_S1_54 : ∀ a, (![54] : Fin 1 → Nat) a + S1.size a ≤ S72.size a
  inb_S72x16x512_S1x16x512_54_0_0 : ∀ a, (![54, 0, 0] : Fin 3 → Nat) a + S1x16x512.size a ≤ S72x16x512.size a
  inb_S72_S1_59 : ∀ a, (![59] : Fin 1 → Nat) a + S1.size a ≤ S72.size a
  inb_S72x16x512_S1x16x512_59_0_0 : ∀ a, (![59, 0, 0] : Fin 3 → Nat) a + S1x16x512.size a ≤ S72x16x512.size a
  inb_S72_S1_58 : ∀ a, (![58] : Fin 1 → Nat) a + S1.size a ≤ S72.size a
  inb_S72x16x512_S1x16x512_58_0_0 : ∀ a, (![58, 0, 0] : Fin 3 → Nat) a + S1x16x512.size a ≤ S72x16x512.size a
  inb_S72_S1_57 : ∀ a, (![57] : Fin 1 → Nat) a + S1.size a ≤ S72.size a
  inb_S72x16x512_S1x16x512_57_0_0 : ∀ a, (![57, 0, 0] : Fin 3 → Nat) a + S1x16x512.size a ≤ S72x16x512.size a
  inb_S72_S1_62 : ∀ a, (![62] : Fin 1 → Nat) a + S1.size a ≤ S72.size a
  inb_S72x16x512_S1x16x512_62_0_0 : ∀ a, (![62, 0, 0] : Fin 3 → Nat) a + S1x16x512.size a ≤ S72x16x512.size a
  inb_S72_S1_61 : ∀ a, (![61] : Fin 1 → Nat) a + S1.size a ≤ S72.size a
  inb_S72x16x512_S1x16x512_61_0_0 : ∀ a, (![61, 0, 0] : Fin 3 → Nat) a + S1x16x512.size a ≤ S72x16x512.size a
  inb_S72_S1_60 : ∀ a, (![60] : Fin 1 → Nat) a + S1.size a ≤ S72.size a
  inb_S72x16x512_S1x16x512_60_0_0 : ∀ a, (![60, 0, 0] : Fin 3 → Nat) a + S1x16x512.size a ≤ S72x16x512.size a
  inb_S72_S1_65 : ∀ a, (![65] : Fin 1 → Nat) a + S1.size a ≤ S72.size a
  inb_S72x16x512_S1x16x512_65_0_0 : ∀ a, (![65, 0, 0] : Fin 3 → Nat) a + S1x16x512.size a ≤ S72x16x512.size a
  inb_S72_S1_64 : ∀ a, (![64] : Fin 1 → Nat) a + S1.size a ≤ S72.size a
  inb_S72x16x512_S1x16x512_64_0_0 : ∀ a, (![64, 0, 0] : Fin 3 → Nat) a + S1x16x512.size a ≤ S72x16x512.size a
  inb_S72_S1_63 : ∀ a, (![63] : Fin 1 → Nat) a + S1.size a ≤ S72.size a
  inb_S72x16x512_S1x16x512_63_0_0 : ∀ a, (![63, 0, 0] : Fin 3 → Nat) a + S1x16x512.size a ≤ S72x16x512.size a
  inb_S72_S1_68 : ∀ a, (![68] : Fin 1 → Nat) a + S1.size a ≤ S72.size a
  inb_S72x16x512_S1x16x512_68_0_0 : ∀ a, (![68, 0, 0] : Fin 3 → Nat) a + S1x16x512.size a ≤ S72x16x512.size a
  inb_S72_S1_67 : ∀ a, (![67] : Fin 1 → Nat) a + S1.size a ≤ S72.size a
  inb_S72x16x512_S1x16x512_67_0_0 : ∀ a, (![67, 0, 0] : Fin 3 → Nat) a + S1x16x512.size a ≤ S72x16x512.size a
  inb_S72_S1_66 : ∀ a, (![66] : Fin 1 → Nat) a + S1.size a ≤ S72.size a
  inb_S72x16x512_S1x16x512_66_0_0 : ∀ a, (![66, 0, 0] : Fin 3 → Nat) a + S1x16x512.size a ≤ S72x16x512.size a
  inb_S72_S1_71 : ∀ a, (![71] : Fin 1 → Nat) a + S1.size a ≤ S72.size a
  inb_S72x16x512_S1x16x512_71_0_0 : ∀ a, (![71, 0, 0] : Fin 3 → Nat) a + S1x16x512.size a ≤ S72x16x512.size a
  inb_S72_S1_70 : ∀ a, (![70] : Fin 1 → Nat) a + S1.size a ≤ S72.size a
  inb_S72x16x512_S1x16x512_70_0_0 : ∀ a, (![70, 0, 0] : Fin 3 → Nat) a + S1x16x512.size a ≤ S72x16x512.size a
  inb_S72_S1_69 : ∀ a, (![69] : Fin 1 → Nat) a + S1.size a ≤ S72.size a
  inb_S72x16x512_S1x16x512_69_0_0 : ∀ a, (![69, 0, 0] : Fin 3 → Nat) a + S1x16x512.size a ≤ S72x16x512.size a
  dot_S16x512_S512x1024_S16x1024_1_0_0_1_n_n_wf : DotDims.WF S16x512 S512x1024 S16x1024 [1] [0] [0] [1] [] []
  dot_S16x1024_S1024x512_S16x512_1_0_0_1_n_n_wf : DotDims.WF S16x1024 S1024x512 S16x512 [1] [0] [0] [1] [] []
  hcc0_scratch2 : 8 + S72.numel ≤ 152
  hcc0_scratch3 : 80 + S72.numel ≤ 152
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch2 : DmaSems sig S72 := SemArray.consecutive 8 S72 hcc0_scratch2
abbrev cc0_scratch3 : DmaSems sig S72 := SemArray.consecutive 80 S72 hcc0_scratch3
def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512 : Shape := ⟨2, ![64, 512]⟩
abbrev S512x16384 : Shape := ⟨2, ![512, 16384]⟩
abbrev S16384x512 : Shape := ⟨2, ![16384, 512]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x16384, .f32⟩
  | .hbm, ⟨2, _⟩ => ⟨S16384x512, .f32⟩
  | .hbm, ⟨3, _⟩ => ⟨S512x16384, .f32⟩
  | .hbm, ⟨4, _⟩ => ⟨S16384x512, .f32⟩
  | .hbm, ⟨5, _⟩ => ⟨S512x16384, .f32⟩
  | .hbm, ⟨6, _⟩ => ⟨S16384x512, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x512, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x512, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S64x16384 : S_.BroadcastsInDim S64x16384 (![] : Fin 0 → Fin S64x16384.rank)
  dot_S64x512_S512x16384_S64x16384_1_0_0_1_n_n_wf : DotDims.WF S64x512 S512x16384 S64x16384 [1] [0] [0] [1] [] []
  dot_S64x16384_S16384x512_S64x512_1_0_0_1_n_n_wf : DotDims.WF S64x16384 S16384x512 S64x512 [1] [0] [0] [1] [] []

variable [Facts₀]

def dot_S64x512_S512x16384_S64x16384_1_0_0_1_n_n : DotDims S64x512 S512x16384 S64x16384 where
  lhsContracting := [1]
  rhsContracting := [0]
  lhsNonContracting := [0]
  rhsNonContracting := [1]
  lhsBatch := []
  rhsBatch := []
  wf := dot_S64x512_S512x16384_S64x16384_1_0_0_1_n_n_wf
def dot_S64x16384_S16384x512_S64x512_1_0_0_1_n_n : DotDims S64x16384 S16384x512 S64x512 where
  lhsContracting := [1]
  rhsContracting := [0]
  lhsNonContracting := [0]
  rhsNonContracting := [1]
  lhsBatch := []
  rhsBatch := []
  wf := dot_S64x16384_S16384x512_S64x512_1_0_0_1_n_n_wf

class Facts : Prop extends Facts₀ where

variable [Facts]
-- ==== Proof.RefFrame.lean ====
/-
  The reference's frame: every weakly fair execution of the host program terminates without a fault and leaves its seven
  argument arrays as they were. It is the program's run, read operation by operation, with the result's value dropped.
-/
import proofs.«900461_g7700000000000462_dist_mlpseq_tp1d_rep_rep_b64_d512_h1024_v7x_i16_f32_1_alg».proof.Defs
import proofs.«900461_g7700000000000462_dist_mlpseq_tp1d_rep_rep_b64_d512_h1024_v7x_i16_f32_1_alg».proof.Proof.Gen.ReferenceIdeal.Run

noncomputable section

namespace Cert.Proof.RefClaims

open Idealize.ShloMosaic Idealize.SL.Sem

theorem frame_ri [Cert.ReferenceIdeal.Facts] [Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Peers.lean ====
/-
  The mesh's neighbours. Sixteen devices sit in four planes of four: device `c` has position `c % 4` inside its
  plane and its plane starts at `c - c % 4`. A device exchanges data with the three other devices of its plane
  (same plane, position shifted by `o = 1, 2, 3` modulo 4) and with the three devices at its position in the other
  planes (`c + 4·o` modulo 16). Both shifts are invertible: the device shifted by `o` sees the original one at
  shift `4 - o`. The printed device chains of the barrier signals and of the seventy-two copies are these shifts.
-/
import proofs.«900461_g7700000000000462_dist_mlpseq_tp1d_rep_rep_b64_d512_h1024_v7x_i16_f32_1_alg».proof.Proof.Gen.KernelIdeal

noncomputable section

namespace Cert.KernelIdeal.Hand

open Cert.KernelIdeal Cert.KernelIdeal.Gen
open Idealize.ShloMosaic

/-- The device at the same position, `o` planes further (modulo the four planes). -/
def zp (o : Nat) (c : Dev nD) : Dev nD := ⟨(c.val + 4 * o) % 16, Nat.mod_lt _ (by decide)⟩
/-- The device of the same plane, `o` positions further (modulo the four positions). -/
def pp (o : Nat) (c : Dev nD) : Dev nD := ⟨(c.val - c.val % 4) + (c.val % 4 + o) % 4, by have := c.isLt; have h : nD = 16 := rfl; omega⟩

/-- The six neighbours in the order the barrier signals name them: the plane's three, then the three of the other planes. -/
def peer (j : Fin 6) (c : Dev nD) : Dev nD :=
  match j with
  | 0 => pp 1 c | 1 => pp 2 c | 2 => pp 3 c | 3 => zp 1 c | 4 => zp 2 c | 5 => zp 3 c

/-- Seen from neighbour `j`, the device is neighbour `back j`. -/
def back (j : Fin 6) : Fin 6 :=
  match j with
  | 0 => 2 | 1 => 1 | 2 => 0 | 3 => 5 | 4 => 4 | 5 => 3

theorem back_back (j : Fin 6) : back (back j) = j := by revert j; decide
theorem peer_back (j : Fin 6) (c : Dev nD) : peer (back j) (peer j c) = c := by revert j c; decide
theorem peer_ne (j : Fin 6) (c : Dev nD) : peer j c ≠ c := by revert j c; decide
theorem peer_inj (c : Dev nD) : ∀ j j' : Fin 6, peer j c = peer j' c → j = j' := by revert c; decide

/-- Round `0` of a layer's exchange goes across the planes, round `1` inside the plane; the copy with peer slot `ps`
    is addressed to shift `3 - ps`. As a neighbour number: -/
def sendTo (rnd : Fin 2) (ps : Fin 3) : Fin 6 :=
  match rnd, ps with
  | 0, 0 => 5 | 0, 1 => 4 | 0, 2 => 3 | 1, 0 => 2 | 1, 1 => 1 | 1, 2 => 0
/-- and the copy that lands in the device's own slot `ps` comes from shift `ps + 1`. -/
def recvFrom (rnd : Fin 2) (ps : Fin 3) : Fin 6 :=
  match rnd, ps with
  | 0, 0 => 3 | 0, 1 => 4 | 0, 2 => 5 | 1, 0 => 0 | 1, 1 => 1 | 1, 2 => 2

theorem back_sendTo (rnd : Fin 2) (ps : Fin 3) : back (sendTo rnd ps) = recvFrom rnd ps := by revert rnd ps; decide
theorem back_recvFrom (rnd : Fin 2) (ps : Fin 3) : back (recvFrom rnd ps) = sendTo rnd ps := by revert rnd ps; decide

/-! ## The printed device chains -/

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = peer 5 c := by revert c; decide
theorem dev7_eq (c : Dev nD) : (⟨k0_dev7 c, k0_dev7_lt c⟩ : Dev nD) = peer 3 c := by revert c; decide
theorem dev8_eq (c : Dev nD) : (⟨k0_dev8 c, k0_dev8_lt c⟩ : Dev nD) = peer 4 c := by revert c; decide
theorem dev9_eq (c : Dev nD) : (⟨k0_dev9 c, k0_dev9_lt c⟩ : Dev nD) = peer 5 c := by revert c; decide
theorem dev10_eq (c : Dev nD) : (⟨k0_dev10 c, k0_dev10_lt c⟩ : Dev nD) = peer 3 c := by revert c; decide
theorem dev11_eq (c : Dev nD) : (⟨k0_dev11 c, k0_dev11_lt c⟩ : Dev nD) = peer 4 c := by revert c; decide
theorem dev12_eq (c : Dev nD) : (⟨k0_dev12 c, k0_dev12_lt c⟩ : Dev nD) = peer 5 c := by revert c; decide
theorem dev13_eq (c : Dev nD) : (⟨k0_dev13 c, k0_dev13_lt c⟩ : Dev nD) = peer 3 c := by revert c; decide
theorem dev14_eq (c : Dev nD) : (⟨k0_dev14 c, k0_dev14_lt c⟩ : Dev nD) = peer 4 c := by revert c; decide
theorem dev15_eq (c : Dev nD) : (⟨k0_dev15 c, k0_dev15_lt c⟩ : Dev nD) = peer 5 c := by revert c; decide
theorem dev16_eq (c : Dev nD) : (⟨k0_dev16 c, k0_dev16_lt c⟩ : Dev nD) = peer 3 c := by revert c; decide
theorem dev17_eq (c : Dev nD) : (⟨k0_dev17 c, k0_dev17_lt c⟩ : Dev nD) = peer 4 c := by revert c; decide
theorem dev18_eq (c : Dev nD) : (⟨k0_dev18 c, k0_dev18_lt c⟩ : Dev nD) = peer 5 c := by revert c; decide
theorem dev19_eq (c : Dev nD) : (⟨k0_dev19 c, k0_dev19_lt c⟩ : Dev nD) = peer 0 c := by revert c; decide
theorem dev20_eq (c : Dev nD) : (⟨k0_dev20 c, k0_dev20_lt c⟩ : Dev nD) = peer 1 c := by revert c; decide
theorem dev21_eq (c : Dev nD) : (⟨k0_dev21 c, k0_dev21_lt c⟩ : Dev nD) = peer 2 c := by revert c; decide
theorem dev22_eq (c : Dev nD) : (⟨k0_dev22 c, k0_dev22_lt c⟩ : Dev nD) = peer 0 c := by revert c; decide
theorem dev23_eq (c : Dev nD) : (⟨k0_dev23 c, k0_dev23_lt c⟩ : Dev nD) = peer 1 c := by revert c; decide
theorem dev24_eq (c : Dev nD) : (⟨k0_dev24 c, k0_dev24_lt c⟩ : Dev nD) = peer 2 c := by revert c; decide
theorem dev25_eq (c : Dev nD) : (⟨k0_dev25 c, k0_dev25_lt c⟩ : Dev nD) = peer 0 c := by revert c; decide
theorem dev26_eq (c : Dev nD) : (⟨k0_dev26 c, k0_dev26_lt c⟩ : Dev nD) = peer 1 c := by revert c; decide
theorem dev27_eq (c : Dev nD) : (⟨k0_dev27 c, k0_dev27_lt c⟩ : Dev nD) = peer 2 c := by revert c; decide
theorem dev28_eq (c : Dev nD) : (⟨k0_dev28 c, k0_dev28_lt c⟩ : Dev nD) = peer 0 c := by revert c; decide
theorem dev29_eq (c : Dev nD) : (⟨k0_dev29 c, k0_dev29_lt c⟩ : Dev nD) = peer 1 c := by revert c; decide
theorem dev30_eq (c : Dev nD) : (⟨k0_dev30 c, k0_dev30_lt c⟩ : Dev nD) = peer 2 c := by revert c; decide
theorem dev31_eq (c : Dev nD) : (⟨k0_dev31 c, k0_dev31_lt c⟩ : Dev nD) = peer 3 c := by revert c; decide
theorem dev32_eq (c : Dev nD) : (⟨k0_dev32 c, k0_dev32_lt c⟩ : Dev nD) = peer 4 c := by revert c; decide
theorem dev33_eq (c : Dev nD) : (⟨k0_dev33 c, k0_dev33_lt c⟩ : Dev nD) = peer 5 c := by revert c; decide
theorem dev34_eq (c : Dev nD) : (⟨k0_dev34 c, k0_dev34_lt c⟩ : Dev nD) = peer 3 c := by revert c; decide
theorem dev35_eq (c : Dev nD) : (⟨k0_dev35 c, k0_dev35_lt c⟩ : Dev nD) = peer 4 c := by revert c; decide
theorem dev36_eq (c : Dev nD) : (⟨k0_dev36 c, k0_dev36_lt c⟩ : Dev nD) = peer 5 c := by revert c; decide
theorem dev37_eq (c : Dev nD) : (⟨k0_dev37 c, k0_dev37_lt c⟩ : Dev nD) = peer 3 c := by revert c; decide
theorem dev38_eq (c : Dev nD) : (⟨k0_dev38 c, k0_dev38_lt c⟩ : Dev nD) = peer 4 c := by revert c; decide
theorem dev39_eq (c : Dev nD) : (⟨k0_dev39 c, k0_dev39_lt c⟩ : Dev nD) = peer 5 c := by revert c; decide
theorem dev40_eq (c : Dev nD) : (⟨k0_dev40 c, k0_dev40_lt c⟩ : Dev nD) = peer 3 c := by revert c; decide
theorem dev41_eq (c : Dev nD) : (⟨k0_dev41 c, k0_dev41_lt c⟩ : Dev nD) = peer 4 c := by revert c; decide
theorem dev42_eq (c : Dev nD) : (⟨k0_dev42 c, k0_dev42_lt c⟩ : Dev nD) = peer 5 c := by revert c; decide
theorem dev43_eq (c : Dev nD) : (⟨k0_dev43 c, k0_dev43_lt c⟩ : Dev nD) = peer 0 c := by revert c; decide
theorem dev44_eq (c : Dev nD) : (⟨k0_dev44 c, k0_dev44_lt c⟩ : Dev nD) = peer 1 c := by revert c; decide
theorem dev45_eq (c : Dev nD) : (⟨k0_dev45 c, k0_dev45_lt c⟩ : Dev nD) = peer 2 c := by revert c; decide
theorem dev46_eq (c : Dev nD) : (⟨k0_dev46 c, k0_dev46_lt c⟩ : Dev nD) = peer 0 c := by revert c; decide
theorem dev47_eq (c : Dev nD) : (⟨k0_dev47 c, k0_dev47_lt c⟩ : Dev nD) = peer 1 c := by revert c; decide
theorem dev48_eq (c : Dev nD) : (⟨k0_dev48 c, k0_dev48_lt c⟩ : Dev nD) = peer 2 c := by revert c; decide
theorem dev49_eq (c : Dev nD) : (⟨k0_dev49 c, k0_dev49_lt c⟩ : Dev nD) = peer 0 c := by revert c; decide
theorem dev50_eq (c : Dev nD) : (⟨k0_dev50 c, k0_dev50_lt c⟩ : Dev nD) = peer 1 c := by revert c; decide
theorem dev51_eq (c : Dev nD) : (⟨k0_dev51 c, k0_dev51_lt c⟩ : Dev nD) = peer 2 c := by revert c; decide
theorem dev52_eq (c : Dev nD) : (⟨k0_dev52 c, k0_dev52_lt c⟩ : Dev nD) = peer 0 c := by revert c; decide
theorem dev53_eq (c : Dev nD) : (⟨k0_dev53 c, k0_dev53_lt c⟩ : Dev nD) = peer 1 c := by revert c; decide
theorem dev54_eq (c : Dev nD) : (⟨k0_dev54 c, k0_dev54_lt c⟩ : Dev nD) = peer 2 c := by revert c; decide
theorem dev55_eq (c : Dev nD) : (⟨k0_dev55 c, k0_dev55_lt c⟩ : Dev nD) = peer 3 c := by revert c; decide
theorem dev56_eq (c : Dev nD) : (⟨k0_dev56 c, k0_dev56_lt c⟩ : Dev nD) = peer 4 c := by revert c; decide
theorem dev57_eq (c : Dev nD) : (⟨k0_dev57 c, k0_dev57_lt c⟩ : Dev nD) = peer 5 c := by revert c; decide
theorem dev58_eq (c : Dev nD) : (⟨k0_dev58 c, k0_dev58_lt c⟩ : Dev nD) = peer 3 c := by revert c; decide
theorem dev59_eq (c : Dev nD) : (⟨k0_dev59 c, k0_dev59_lt c⟩ : Dev nD) = peer 4 c := by revert c; decide
theorem dev60_eq (c : Dev nD) : (⟨k0_dev60 c, k0_dev60_lt c⟩ : Dev nD) = peer 5 c := by revert c; decide
theorem dev61_eq (c : Dev nD) : (⟨k0_dev61 c, k0_dev61_lt c⟩ : Dev nD) = peer 3 c := by revert c; decide
theorem dev62_eq (c : Dev nD) : (⟨k0_dev62 c, k0_dev62_lt c⟩ : Dev nD) = peer 4 c := by revert c; decide
theorem dev63_eq (c : Dev nD) : (⟨k0_dev63 c, k0_dev63_lt c⟩ : Dev nD) = peer 5 c := by revert c; decide
theorem dev64_eq (c : Dev nD) : (⟨k0_dev64 c, k0_dev64_lt c⟩ : Dev nD) = peer 3 c := by revert c; decide
theorem dev65_eq (c : Dev nD) : (⟨k0_dev65 c, k0_dev65_lt c⟩ : Dev nD) = peer 4 c := by revert c; decide
theorem dev66_eq (c : Dev nD) : (⟨k0_dev66 c, k0_dev66_lt c⟩ : Dev nD) = peer 5 c := by revert c; decide
theorem dev67_eq (c : Dev nD) : (⟨k0_dev67 c, k0_dev67_lt c⟩ : Dev nD) = peer 0 c := by revert c; decide
theorem dev68_eq (c : Dev nD) : (⟨k0_dev68 c, k0_dev68_lt c⟩ : Dev nD) = peer 1 c := by revert c; decide
theorem dev69_eq (c : Dev nD) : (⟨k0_dev69 c, k0_dev69_lt c⟩ : Dev nD) = peer 2 c := by revert c; decide
theorem dev70_eq (c : Dev nD) : (⟨k0_dev70 c, k0_dev70_lt c⟩ : Dev nD) = peer 0 c := by revert c; decide
theorem dev71_eq (c : Dev nD) : (⟨k0_dev71 c, k0_dev71_lt c⟩ : Dev nD) = peer 1 c := by revert c; decide
theorem dev72_eq (c : Dev nD) : (⟨k0_dev72 c, k0_dev72_lt c⟩ : Dev nD) = peer 2 c := by revert c; decide
theorem dev73_eq (c : Dev nD) : (⟨k0_dev73 c, k0_dev73_lt c⟩ : Dev nD) = peer 0 c := by revert c; decide
theorem dev74_eq (c : Dev nD) : (⟨k0_dev74 c, k0_dev74_lt c⟩ : Dev nD) = peer 1 c := by revert c; decide
theorem dev75_eq (c : Dev nD) : (⟨k0_dev75 c, k0_dev75_lt c⟩ : Dev nD) = peer 2 c := by revert c; decide
theorem dev76_eq (c : Dev nD) : (⟨k0_dev76 c, k0_dev76_lt c⟩ : Dev nD) = peer 0 c := by revert c; decide
theorem dev77_eq (c : Dev nD) : (⟨k0_dev77 c, k0_dev77_lt c⟩ : Dev nD) = peer 1 c := by revert c; decide
theorem dev78_eq (c : Dev nD) : (⟨k0_dev78 c, k0_dev78_lt c⟩ : Dev nD) = peer 2 c := by revert c; decide

end Cert.KernelIdeal.Hand

end
-- ==== Proof.Spec.lean ====
/-
  What each device holds at each stage, as pure terms of the devices' argument blocks.

  A layer on device `c` and row tile `g` (16 of the 64 rows): the device multiplies the tile by its 1024 columns of
  the first weight, clamps at zero, and multiplies by its 1024 rows of the second weight: a partial sum of the layer's
  output over the device's 1024 hidden units. The partial sums are then added across the sixteen devices in two steps:
  first over the four devices at the same position of the four planes (own value first, then the shifts 1, 2, 3),
  then over the four devices of the plane (again own first, then shifts 1, 2, 3). The result is the next layer's input.
-/
import proofs.«900461_g7700000000000462_dist_mlpseq_tp1d_rep_rep_b64_d512_h1024_v7x_i16_f32_1_alg».proof.Proof.Peers
import Idealize.ShloMosaic.Lib.ValueIdx

noncomputable section

namespace Cert.KernelIdeal.Hand

open Cert.KernelIdeal Cert.KernelIdeal.Gen
open Idealize.ShloMosaic

variable {F : FTy → Type} [FloatOps F]

/-- A tile's share of one layer on one device: `max(x · Win, 0) · Wout` with zero accumulators. -/
def mlp (x : FVec F S16x512 .f32) (wi : Vec F S512x1024 .f32) (wo : Vec F S1024x512 .f32) : FVec F S16x512 .f32 :=
  matmul dot_S16x1024_S1024x512_S16x512_1_0_0_1_n_n none
    (maximumf
      (matmul dot_S16x512_S512x1024_S16x1024_1_0_0_1_n_n none x (shapeCast S512x1024 wi shapeCasts_S512x1024_S512x1024)
        (constant S16x1024 .f32 0x00000000#32))
      (broadcast S16x1024 (Scalar.ofBits .f32 0x00000000#32)))
    (shapeCast S1024x512 wo shapeCasts_S1024x512_S1024x512) (constant S16x512 .f32 0x00000000#32)

/-- Own value plus the values at shifts 1, 2, 3, added in that order. -/
def sum4 (a b c d : FVec F S16x512 .f32) : FVec F S16x512 .f32 := addf (addf (addf a b) c) d

/-- A value per device and row tile. -/
abbrev Tiles (F : FTy → Type) : Type := Dev nD → Fin 4 → FVec F S16x512 .f32

/-- The sum over the four devices at one position of the four planes. -/
def acrossPlanes (v : Tiles F) : Tiles F := fun c g => sum4 (v c g) (v (zp 1 c) g) (v (zp 2 c) g) (v (zp 3 c) g)
/-- The sum over the four devices of a plane. -/
def insidePlane (v : Tiles F) : Tiles F := fun c g => sum4 (v c g) (v (pp 1 c) g) (v (pp 2 c) g) (v (pp 3 c) g)

/-- The devices' argument blocks. -/
structure Blocks (F : FTy → Type) where
  x : Dev nD → Vec F S64x512 .f32
  wi : Fin 3 → Dev nD → Vec F S512x1024 .f32
  wo : Fin 3 → Dev nD → Vec F S1024x512 .f32

/-- Rows `16·g … 16·g + 15` of a device's copy of the input. -/
def xTile (B : Blocks F) : Tiles F := fun c g y => B.x c (ValueIdx.ix2 ⟨16 * g.val + (y 0).val, by have h0 : (y 0).val < 16 := (y 0).isLt; have := g.isLt; show _ < 64; omega⟩ (y 1))

/-- A layer's partial sums from its input tiles. -/
def partials (B : Blocks F) (l : Fin 3) (xin : Tiles F) : Tiles F := fun c g => mlp (xin c g) (B.wi l c) (B.wo l c)
/-- A layer: the partial sums added over all sixteen devices, planes first. -/
def layer (B : Blocks F) (l : Fin 3) (xin : Tiles F) : Tiles F := insidePlane (acrossPlanes (partials B l xin))

def x1 (B : Blocks F) : Tiles F := layer B 0 (xTile B)
def x2 (B : Blocks F) : Tiles F := layer B 1 (x1 B)
def x3 (B : Blocks F) : Tiles F := layer B 2 (x2 B)

/-- The result array a device ends with: the four row tiles of the third layer's output. -/
def result (B : Blocks F) (c : Dev nD) : Vec F S64x512 .f32 := fun i =>
  x3 B c ⟨(i 0).val / 16, by have := (i 0).isLt; show _ < 4; have h : (i 0).val < 64 := this; omega⟩
    (ValueIdx.ix2 ⟨(i 0).val % 16, Nat.mod_lt _ (by decide)⟩ (i 1))

end Cert.KernelIdeal.Hand

end
-- ==== Proof.Sched.lean ====
/-
  The exchange protocol, cell by cell.

  Every device owns one barrier cell (the runtime's barrier semaphore) and, for each of the seventy-two copies it makes,
  a departure cell (credited on the device itself once the copy's source has been read) and an arrival cell (credited
  on the device once the matching neighbour's copy has landed in the device's landing slot of the same number). Each
  cell lives one round.
  * Barrier: six unit duties, one per neighbour. Neighbour `j`'s signal tells the device that this neighbour is inside
    the kernel and hands it the twelve landing slots of that neighbour which the device will write (one per layer and
    row tile, in the round and at the peer slot that address this neighbour).
  * Arrival of slot `s`: one duty, paid by the neighbour whose copy number `s` is addressed to the device; it hands the
    device its landing slot `s` holding what that neighbour sent: the neighbour's partial sum of the layer (first round)
    or its sum across the planes (second round) for the slot's row tile.
  * Departure of slot `s`: one duty, paid by the device's own copy; it returns the share of the source tile the copy read.
-/
import proofs.«900461_g7700000000000462_dist_mlpseq_tp1d_rep_rep_b64_d512_h1024_v7x_i16_f32_1_alg».proof.Proof.Spec
import proofs.«900461_g7700000000000462_dist_mlpseq_tp1d_rep_rep_b64_d512_h1024_v7x_i16_f32_1_alg».proof.Proof.Gen.KernelIdeal.Skeleton
import proofs.«900461_g7700000000000462_dist_mlpseq_tp1d_rep_rep_b64_d512_h1024_v7x_i16_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's (duties numbered by neighbour) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slot numbers -/

/-- Slot `((layer·2 + round)·4 + tile)·3 + peer slot`. -/
def slotIx (l : Fin 3) (rnd : Fin 2) (g : Fin 4) (ps : Fin 3) : Fin 72 :=
  ⟨((l.val * 2 + rnd.val) * 4 + g.val) * 3 + ps.val, by have := l.isLt; have := rnd.isLt; have := g.isLt; have := ps.isLt; omega⟩
def lOf (s : Fin 72) : Fin 3 := ⟨s.val / 24, by have := s.isLt; omega⟩
def rndOf (s : Fin 72) : Fin 2 := ⟨s.val / 12 % 2, Nat.mod_lt _ (by decide)⟩
def gOf (s : Fin 72) : Fin 4 := ⟨s.val / 3 % 4, Nat.mod_lt _ (by decide)⟩
def psOf (s : Fin 72) : Fin 3 := ⟨s.val % 3, Nat.mod_lt _ (by decide)⟩

theorem slotIx_of (s : Fin 72) : slotIx (lOf s) (rndOf s) (gOf s) (psOf s) = s := by revert s; decide
theorem lOf_slotIx (l : Fin 3) (rnd : Fin 2) (g : Fin 4) (ps : Fin 3) : lOf (slotIx l rnd g ps) = l := by revert l rnd g ps; decide
theorem rndOf_slotIx (l : Fin 3) (rnd : Fin 2) (g : Fin 4) (ps : Fin 3) : rndOf (slotIx l rnd g ps) = rnd := by revert l rnd g ps; decide
theorem gOf_slotIx (l : Fin 3) (rnd : Fin 2) (g : Fin 4) (ps : Fin 3) : gOf (slotIx l rnd g ps) = g := by revert l rnd g ps; decide
theorem psOf_slotIx (l : Fin 3) (rnd : Fin 2) (g : Fin 4) (ps : Fin 3) : psOf (slotIx l rnd g ps) = ps := by revert l rnd g ps; decide

/-- The round and peer slot of the copies addressed to neighbour `j`. -/
def rndTo (j : Fin 6) : Fin 2 := match j with | 0 => 1 | 1 => 1 | 2 => 1 | 3 => 0 | 4 => 0 | 5 => 0
def psTo (j : Fin 6) : Fin 3 := match j with | 0 => 2 | 1 => 1 | 2 => 0 | 3 => 2 | 4 => 1 | 5 => 0
theorem sendTo_to (j : Fin 6) : sendTo (rndTo j) (psTo j) = j := by revert j; decide
theorem rndTo_sendTo (rnd : Fin 2) (ps : Fin 3) : rndTo (sendTo rnd ps) = rnd := by revert rnd ps; decide
theorem psTo_sendTo (rnd : Fin 2) (ps : Fin 3) : psTo (sendTo rnd ps) = ps := by revert rnd ps; decide

/-! ## The memrefs and cells -/

theorem acc_inb (g : Fin 4) : ∀ a, (![g.val, 0, 0] : Fin 3 → Nat) a + S1x16x512.size a ≤ S4x16x512.size a := by revert g; decide
theorem slot_inb (s : Fin 72) : ∀ a, (![s.val, 0, 0] : Fin 3 → Nat) a + S1x16x512.size a ≤ S72x16x512.size a := by revert s; decide
theorem sem_inb (s : Fin 72) : ∀ a, (![s.val] : Fin 1 → Nat) a + S1.size a ≤ S72.size a := by revert s; decide

/-- Row tile `g` of the accumulator scratch, as the copies' source. -/
abbrev accM (g : Fin 4) : Memref sig .tc .vmem S16x512 .f32 :=
  ((Memref.whole cc0_scratch0 : Memref sig .tc .vmem S4x16x512 .f32).slice (Rect.unit (s := S4x16x512) ![g.val, 0, 0] S1x16x512.size (acc_inb g)) (fun _ => rfl)).squeeze S16x512 squeezes_S1x16x512_S16x512
/-- Landing slot `s` of the receive scratch, as a copy's destination. -/
abbrev slotM (s : Fin 72) : Memref sig .tc .vmem S16x512 .f32 :=
  ((Memref.whole cc0_scratch1 : Memref sig .tc .vmem S72x16x512 .f32).slice (Rect.unit (s := S72x16x512) ![s.val, 0, 0] S1x16x512.size (slot_inb s)) (fun _ => rfl)).squeeze S16x512 squeezes_S1x16x512_S16x512

abbrev barS : Sem sig := (SemArray.scalar (sig.barrier 0 rfl) : Sems sig S_).sem
abbrev sendS (s : Fin 72) : DmaSem sig := ((cc0_scratch2.slice (Rect.unit (s := S72) ![s.val] S1.size (sem_inb s))).squeeze S_ squeezes_S1_S_).sem
abbrev recvS (s : Fin 72) : DmaSem sig := ((cc0_scratch3.slice (Rect.unit (s := S72) ![s.val] S1.size (sem_inb s))).squeeze S_ squeezes_S1_S_).sem

abbrev barCell (c : Dev nD) : GSem nD τ sig := ((c : Thread nD τ), .reg barS)
abbrev sendCell (c : Dev nD) (s : Fin 72) : GSem nD τ sig := ((c : Thread nD τ), .dma (sendS s))
abbrev recvCell (c : Dev nD) (s : Fin 72) : GSem nD τ sig := ((c : Thread nD τ), .dma (recvS s))

theorem sendS_val (s : Fin 72) : (sendS s).val = 8 + s.val := by revert s; decide
theorem recvS_val (s : Fin 72) : (recvS s).val = 80 + s.val := by revert s; decide

/-- The units one copy of a 16 × 512 tile credits. -/
abbrev Ncp : ℕ := (slotM 0).view.dmaCredit
theorem Ncp_pos : 0 < Ncp := View.dmaCredit_pos _ (by decide)

/-! ## Contents -/

variable (B : Blocks F)

/-- A layer's input tiles. -/
def xin : Fin 3 → Tiles F
  | 0 => xTile B
  | 1 => x1 B
  | 2 => x2 B

/-- What a device's copies of layer `l` and round `rnd` carry: its partial sums, then its sums across the planes. -/
def sentV (l : Fin 3) (rnd : Fin 2) : Tiles F :=
  match rnd with
  | 0 => partials B l (xin B l)
  | 1 => acrossPlanes (partials B l (xin B l))

/-- Landing slot `s` of device `c`, held by its own elements at contents `f`. -/
@[reducible] def slotPts (c : Dev nD) (s : Fin 72) (f : Buf (Elt F) ((slotM s).view.loc (c : Thread nD τ))) : sProp 𝕄 :=
  (slotM s).view.loc (c : Thread nD τ) ↦[(slotM s).view.set]{fullShare} f
/-- Row tile `g` of device `c`'s accumulator, held by its own elements at share `q` and contents `f`. -/
@[reducible] def accPts (c : Dev nD) (g : Fin 4) (q : PosShare TreeShare) (f : Buf (Elt F) ((accM g).view.loc (c : Thread nD τ))) : sProp 𝕄 :=
  (accM g).view.loc (c : Thread nD τ) ↦[(accM g).view.set]{q} f

/-- Landing slot `s` of device `c` holding the tile `V`. -/
def slotAt (c : Dev nD) (s : Fin 72) (V : FVec F S16x512 .f32) : sProp 𝕄 :=
  owns (c : Thread nD τ) (slotM s) fullShare V
/-- Row tile `g` of device `c`'s accumulator holding the tile `V`, at share `q`. -/
def accAt (c : Dev nD) (g : Fin 4) (q : PosShare TreeShare) (V : FVec F S16x512 .f32) : sProp 𝕄 :=
  owns (c : Thread nD τ) (accM g) q V

/-- The three shares under which a source tile is lent to its three copies, by peer slot. -/
def shareOf (ps : Fin 3) : PosShare TreeShare :=
  match ps with
  | 0 => fullShare.left
  | 1 => fullShare.right.left
  | 2 => fullShare.right.right

/-! ## The payloads -/

/-- Neighbour `j`'s signal: the twelve landing slots of that neighbour the device will write. -/
def barPay (c : Dev nD) (j : Fin 6) : sProp 𝕄 :=
  bigSep (Finset.univ : Finset (Fin 3 × Fin 4)) fun lg => iprop(∃ f, slotPts (peer j c) (slotIx lg.1 (rndTo j) lg.2 (psTo j)) f)
/-- A landing: the device's slot `s` holding what the sending neighbour's copy carried. -/
def recvPay (c : Dev nD) (s : Fin 72) : sProp 𝕄 :=
  slotAt c s (sentV B (lOf s) (rndOf s) (peer (recvFrom (rndOf s) (psOf s)) c) (gOf s))
/-- A departure read out: the source tile's share back. -/
def sendPay (c : Dev nD) (s : Fin 72) : sProp 𝕄 :=
  accAt c (gOf s) (shareOf (psOf s)) (sentV B (lOf s) (rndOf s) c (gOf s))

set_option synthInstance.maxHeartbeats 400000 in
instance barPay_storable (c : Dev nD) (j : Fin 6) : BI.Storable (upEmb : UEmb _ 𝕄) (barPay (F := F) c j) := by
  unfold barPay slotPts; infer_instance
instance recvPay_storable (c : Dev nD) (s : Fin 72) : BI.Storable (upEmb : UEmb _ 𝕄) (recvPay B c s) := by
  unfold recvPay slotAt; infer_instance
instance sendPay_storable (c : Dev nD) (s : Fin 72) : BI.Storable (upEmb : UEmb _ 𝕄) (sendPay B c s) := by
  unfold sendPay accAt; infer_instance

/-! ## The schedule -/

/-- Which of the exchange's cells a semaphore is. -/
inductive CellKind | bar | send (s : Fin 72) | recv (s : Fin 72) | other
  deriving DecidableEq

def kindOf : SemLoc sig → CellKind
  | .reg s => if s = barS then .bar else .other
  | .dma q => if h : 8 ≤ q.val ∧ q.val < 80 then .send ⟨q.val - 8, by omega⟩
      else if h : 80 ≤ q.val ∧ q.val < 152 then .recv ⟨q.val - 80, by omega⟩ else .other

theorem kindOf_bar : kindOf (.reg barS : SemLoc sig) = .bar := by decide
theorem kindOf_send (s : Fin 72) : kindOf (.dma (sendS s) : SemLoc sig) = .send s := by revert s; decide
theorem kindOf_recv (s : Fin 72) : kindOf (.dma (recvS s) : SemLoc sig) = .recv s := by revert s; decide

def exRd : Rounds.Schedule (GSem nD τ sig) (Fin 6) 𝕄 where
  duties g r :=
    if g.1.2 = .tc ∧ r = 0 then
      match kindOf g.2 with
      | .bar => Finset.univ
      | .send _ | .recv _ => {0}
      | .other => ∅
    else ∅
  unitless _ := False
  amount g _ _ := match kindOf g.2 with
    | .send _ | .recv _ => Ncp
    | _ => 1
  payload g _ d := match kindOf g.2 with
    | .bar => barPay g.1.1 d
    | .recv s => recvPay B g.1.1 s
    | .send s => sendPay B g.1.1 s
    | .other => iprop(emp)
  amount_pos g _ _ _ := by
    cases kindOf g.2 <;> first | exact Nat.one_pos | exact Ncp_pos

instance exRd_payload_storable (g : GSem nD τ sig) (r : ℕ) (d : Fin 6) :
    BI.Storable (upEmb : UEmb _ 𝕄) ((exRd (F := F) B).payload g r d) := by
  show BI.Storable upEmb (match kindOf g.2 with
    | .bar => barPay g.1.1 d
    | .recv s => recvPay B g.1.1 s
    | .send s => sendPay B g.1.1 s
    | .other => iprop(emp))
  split <;> infer_instance

/-! ## The tables, computed -/

section Tables
variable (c : Dev nD) (s : Fin 72)

theorem duties_bar : (exRd (F := F) B).duties (barCell c) 0 = Finset.univ := by
  simp only [exRd, kindOf_bar, and_self, if_true]
theorem duties_send : (exRd (F := F) B).duties (sendCell c s) 0 = {0} := by
  simp only [exRd, kindOf_send, and_self, if_true]
theorem duties_recv : (exRd (F := F) B).duties (recvCell c s) 0 = {0} := by
  simp only [exRd, kindOf_recv, and_self, if_true]
theorem duties_later (g : GSem nD τ sig) : ∀ r, 1 ≤ r → (exRd (F := F) B).duties g r = ∅ := fun r hr => by
  simp only [exRd]; rw [if_neg fun h => by omega]

theorem amount_bar (r : ℕ) (d : Fin 6) : (exRd (F := F) B).amount (barCell c) r d = 1 := by simp only [exRd, kindOf_bar]
theorem amount_send (r : ℕ) (d : Fin 6) : (exRd (F := F) B).amount (sendCell c s) r d = Ncp := by simp only [exRd, kindOf_send]
theorem amount_recv (r : ℕ) (d : Fin 6) : (exRd (F := F) B).amount (recvCell c s) r d = Ncp := by simp only [exRd, kindOf_recv]

theorem expect_bar : (exRd (F := F) B).expect (barCell c) 0 = 6 := by
  unfold Schedule.expect Schedule.amountOf
  rw [duties_bar, Finset.sum_congr rfl fun d _ => amount_bar B c 0 d, Finset.sum_const, Finset.card_univ, Fintype.card_fin, smul_eq_mul]
theorem expect_send : (exRd (F := F) B).expect (sendCell c s) 0 = Ncp := by
  unfold Schedule.expect Schedule.amountOf; rw [duties_send, Finset.sum_singleton, amount_send]
theorem expect_recv : (exRd (F := F) B).expect (recvCell c s) 0 = Ncp := by
  unfold Schedule.expect Schedule.amountOf; rw [duties_recv, Finset.sum_singleton, amount_recv]

theorem payload_bar (r : ℕ) (d : Fin 6) : (exRd (F := F) B).payload (barCell c) r d = barPay c d := by simp only [exRd, kindOf_bar]
theorem payload_send (r : ℕ) (d : Fin 6) : (exRd (F := F) B).payload (sendCell c s) r d = sendPay B c s := by simp only [exRd, kindOf_send]
theorem payload_recv (r : ℕ) (d : Fin 6) : (exRd (F := F) B).payload (recvCell c s) r d = recvPay B c s := by simp only [exRd, kindOf_recv]

/-- A wait for a whole round with no duty taken yet gets the round's payloads. -/
theorem rest_bar : bigSep ((exRd (F := F) B).duties (barCell c) 0 \ ∅) (fun d => (exRd (F := F) B).payload (barCell c) 0 d)
    = bigSep (Finset.univ : Finset (Fin 6)) (fun d => barPay (F := F) c d) := by
  rw [Finset.sdiff_empty, duties_bar]; exact bigSep_congr fun d _ => payload_bar B c 0 d
theorem rest_send : bigSep ((exRd (F := F) B).duties (sendCell c s) 0 \ ∅) (fun d => (exRd (F := F) B).payload (sendCell c s) 0 d) = sendPay B c s := by
  rw [Finset.sdiff_empty, duties_send, bigSep_singleton, payload_send]
theorem rest_recv : bigSep ((exRd (F := F) B).duties (recvCell c s) 0 \ ∅) (fun d => (exRd (F := F) B).payload (recvCell c s) 0 d) = recvPay B c s := by
  rw [Finset.sdiff_empty, duties_recv, bigSep_singleton, payload_recv]

end Tables

end Cert.KernelIdeal.Hand

end
-- ==== Proof.Levels.lean ====
/-
  Who still owes what, and why no wait can block for ever.

  A device pays, in program order, six barrier units (one to each neighbour) and then the arrival credits of its
  seventy-two copies, issue group by issue group (a group is the three copies of one layer, round and row tile). Cells
  are ranked: the windows' staging cells and the departure cells lowest, the barrier cells above them, and the arrival
  cells of issue group `K` at rank `2 + K`. A device waits on a cell only while everything it still owes ranks higher:
  at its barrier wait it owes arrival credits only; when it waits for the arrivals of group `K` it has issued every
  group up to `K`, so what it still owes belongs to later groups.
-/
import proofs.«900461_g7700000000000462_dist_mlpseq_tp1d_rep_rep_b64_d512_h1024_v7x_i16_f32_1_alg».proof.Proof.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The neighbour a device's copy number `s` is addressed to. -/
def dest (c : Dev nD) (s : Fin 72) : Dev nD := peer (sendTo (rndOf s) (psOf s)) c

/-- The slot of the `i`-th copy in program order: groups in slot order, inside a group the peer slots 2, 1, 0. -/
def progSlot (i : ℕ) : Fin 72 := ⟨(3 * (i / 3) + (2 - i % 3)) % 72, Nat.mod_lt _ (by decide)⟩

/-- The `k`-th unit a device pays, in program order: the six barrier signals, then the seventy-two arrival credits. -/
def tallyK (c : Dev nD) (k : ℕ) : CellTallies nD τ sig Unit :=
  if h : k < 6 then tallyAt (barCell (peer ⟨k, h⟩ c)) () 1
  else tallyAt (recvCell (dest c (progSlot (k - 6))) (progSlot (k - 6))) () Ncp

/-- What is still owed when `n` payments remain, summed so that the next payment is the last summand. -/
def owedRev (c : Dev nD) : ℕ → CellTallies nD τ sig Unit
  | 0 => 0
  | n + 1 => owedRev c n + tallyK c (77 - n)

/-- Everything a device owes at launch. -/
def O₀ (c : Dev nD) : CellTallies nD τ sig Unit := owedRev c 78

theorem owedRev_pos {c : Dev nD} {n : ℕ} {g : GSem nD τ sig} {u : Unit} (h : 0 < owedRev c n g u) :
    ∃ k, 78 - n ≤ k ∧ k < 78 ∧ 0 < tallyK c k g u := by
  induction n with
  | zero => exact absurd h (Nat.lt_irrefl 0)
  | succ n ih =>
    unfold owedRev at h
    rw [Pi.add_apply, Finsupp.add_apply] at h
    rcases Nat.add_pos_iff_pos_or_pos.mp h with h1 | h2
    · obtain ⟨k, hk1, hk2, hk3⟩ := ih h1
      exact ⟨k, by omega, hk2, hk3⟩
    · by_cases hn : n ≤ 77
      · exact ⟨77 - n, by omega, by omega, h2⟩
      · have : 77 - n = 0 := by omega
        exact ⟨0, by omega, by omega, this ▸ h2⟩

/-- A positive entry of the `k`-th payment names its cell. -/
theorem tallyK_pos {c : Dev nD} {k : ℕ} {g : GSem nD τ sig} {u : Unit} (h : 0 < tallyK c k g u) :
    (∃ hk : k < 6, g = barCell (peer ⟨k, hk⟩ c)) ∨ (6 ≤ k ∧ g = recvCell (dest c (progSlot (k - 6))) (progSlot (k - 6))) := by
  unfold tallyK at h
  split at h
  · rename_i hk
    rw [tallyAt_apply] at h
    by_cases hg : g = barCell (peer ⟨k, hk⟩ c) ∧ u = ()
    · exact Or.inl ⟨hk, hg.1⟩
    · rw [if_neg hg] at h; exact absurd h (Nat.lt_irrefl 0)
  · rename_i hk
    rw [tallyAt_apply] at h
    by_cases hg : g = recvCell (dest c (progSlot (k - 6))) (progSlot (k - 6)) ∧ u = ()
    · exact Or.inr ⟨by omega, hg.1⟩
    · rw [if_neg hg] at h; exact absurd h (Nat.lt_irrefl 0)

/-! ## The ranks -/

def L (g : GSem nD τ sig) : Finset Unit := if g.1.2 = .tc then {()} else ∅
def lv (g : GSem nD τ sig) (_ : Unit) : ℕ :=
  match kindOf g.2 with
  | .bar => 1
  | .recv s => 2 + s.val / 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [kindOf_bar]
theorem lv_recv (c : Dev nD) (s : Fin 72) (u : Unit) : lv (recvCell c s) u = 2 + s.val / 3 := by unfold lv; rw [kindOf_recv]
theorem lv_send (c : Dev nD) (s : Fin 72) (u : Unit) : lv (sendCell c s) u = 0 := by unfold lv; rw [kindOf_send]

/-- Every cell a device may still owe is a barrier or an arrival cell: rank at least one. -/
theorem owed_rank {c : Dev nD} {n : ℕ} {g : GSem nD τ sig} {u : Unit} (h : 0 < owedRev c n g u) : () ∈ L g ∧ 1 ≤ lv g u := by
  obtain ⟨k, _, _, hk⟩ := owedRev_pos h
  rcases tallyK_pos hk with ⟨hk6, rfl⟩ | ⟨_, rfl⟩
  · exact ⟨by rw [L_tc]; exact Finset.mem_singleton_self _, by rw [lv_bar]⟩
  · exact ⟨by rw [L_tc]; exact Finset.mem_singleton_self _, by rw [lv_recv]; omega⟩

/-- A wait on a cell of rank zero (a staging cell, a departure cell) is always allowed. -/
theorem mayWait_low (c : Dev nD) (sm : SemLoc sig) (h0 : lv ((c : Thread nD τ), sm) () = 0) (n : ℕ) :
    (levAts L lv : sProp 𝕄) ⊢ MayWait (c : Thread nD τ) sm () (owedRev c n) :=
  MayOwe.of_cut (L := L) (lev := lv) 0 (fun p hp => by rw [Finset.mem_singleton.mp hp, L_tc]; exact Finset.mem_singleton_self _)
    (fun g u hg => (owed_rank hg).1)
    (fun p hp => by rw [Finset.mem_singleton.mp hp]; exact Nat.le_of_eq h0)
    (fun g u hg => (owed_rank hg).2)

/-- At its barrier wait a device has paid its six signals: what it owes are arrival credits. -/
theorem mayWait_bar (c : Dev nD) :
    (levAts L lv : sProp 𝕄) ⊢ MayWait (c : Thread nD τ) (.reg barS) () (owedRev c 72) :=
  MayOwe.of_cut (L := L) (lev := lv) 1 (fun p hp => by rw [Finset.mem_singleton.mp hp, L_tc]; exact Finset.mem_singleton_self _)
    (fun g u hg => (owed_rank hg).1)
    (fun p hp => by rw [Finset.mem_singleton.mp hp]; exact Nat.le_of_eq (lv_bar c ()))
    (fun g u hg => by
      obtain ⟨k, hk1, hk2, hk⟩ := owedRev_pos hg
      rcases tallyK_pos hk with ⟨hk6, _⟩ | ⟨_, rfl⟩
      · omega
      · rw [lv_recv]; omega)

/-- Waiting for an arrival of slot `s` with `n` payments left, all of them for later issue groups. -/
theorem mayWait_recv (c : Dev nD) (s : Fin 72) (n : ℕ) (hn : n ≤ 72) (h : ∀ i, 72 - n ≤ i → i < 72 → s.val / 3 < (progSlot i).val / 3) :
    (levAts L lv : sProp 𝕄) ⊢ MayWait (c : Thread nD τ) (.dma (recvS s)) () (owedRev c n) :=
  MayOwe.of_cut (L := L) (lev := lv) (2 + s.val / 3) (fun p hp => by rw [Finset.mem_singleton.mp hp, L_tc]; exact Finset.mem_singleton_self _)
    (fun g u hg => (owed_rank hg).1)
    (fun p hp => by rw [Finset.mem_singleton.mp hp]; exact Nat.le_of_eq (lv_recv c s ()))
    (fun g u hg => by
      obtain ⟨k, hk1, hk2, hk⟩ := owedRev_pos hg
      rcases tallyK_pos hk with ⟨hk6, _⟩ | ⟨hk6, rfl⟩
      · omega
      · rw [lv_recv]; have := h (k - 6) (by omega) (by omega); omega)

end Cert.KernelIdeal.Hand

end
-- ==== Proof.Steps.lean ====
/-
  The kernel's remote statements as rules over the exchange's schedule: a barrier signal, the barrier wait, a copy into a
  neighbour's landing slot, and the two waits of a copy (its departure and the matching arrival).
-/
import proofs.«900461_g7700000000000462_dist_mlpseq_tp1d_rep_rep_b64_d512_h1024_v7x_i16_f32_1_alg».proof.Proof.Levels

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (B : Blocks F)

section Steps

variable {α : Type} {Q : α → sProp (MT nD τ sig Unit (Elt F) ℕ UU ℕ)} (c : Dev nD)

/-- The signal to neighbour `j`: it pays that neighbour's barrier duty numbered by the device as the neighbour sees it,
    with the twelve landing slots of the device's own buffer that this neighbour will write. -/
theorem wp_barsig (j : Fin 6) (n : Dev nD) (hn : n = peer j c) {k' : ℕ} (hk' : 1 = k')
    {k : PUnit → Prog (TpuEff nD τ sig (Elt F) Λ₀ .tc) α} {κ : ℕ}
    {O₁ : CellTallies nD τ sig Unit} (O : CellTallies nD τ sig Unit) (hO : O₁ = O + tallyAt (barCell (peer j c)) () k') {W : Waits sig Unit} :
    iprop(cellInv ER (exRd B) κ (barCell (peer j c)) ∗ owes (c : Thread nD τ) O₁ W ∗ dutyTok ER (barCell (peer j c)) 0 (back j)
        ∗ barPay (F := F) (peer j c) (back j) ∗ reached ER (barCell (peer j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n : Dev nD) : Thread nD τ) barS k') k) Q) := by
  subst hn
  iintro ⟨#HI, HO, Htok, Hpay, #Hr⟩ Hk
  iapply (Rounds.wp_signal 𝒱₀ ER (exRd B) (c : Thread nD τ) none (dst := ((peer j c : Dev nD) : Thread nD τ)) (κ := κ)
      (r := 0) (d := back j) (by rw [duties_bar]; exact Finset.mem_univ _) ((amount_bar B _ 0 (back j)).trans hk') () O hO)
    $$ [HO Htok Hpay]
  · isplitr; · iexact HI
    isplitl [HO]; · iexact HO
    isplitl [Htok]; · iexact Htok
    isplitl [Hpay]; · rw [payload_bar]; iexact Hpay
    iexact Hr
  iexact Hk

/-- The wait for the six neighbours' signals: with them come, from each neighbour, the landing slots of that neighbour the
    device will write. -/
theorem wp_barwait {k : PUnit → Prog (TpuEff nD τ sig (Elt F) Λ₀ .tc) α} {κ : ℕ}
    {O : CellTallies nD τ sig Unit} {W : Waits sig Unit} :
    iprop(cellInv ER (exRd B) κ (barCell c) ∗ cred (tallyAt (barCell c) () 6) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ bigSep (Finset.univ : Finset (Fin 6)) (fun d => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 6) k) Q) := by
  iintro ⟨#HI, Hc, HO, #Hmw, Hat⟩ Hk
  iapply (Rounds.wp_wait_rest_token 𝒱₀ ER (exRd B) (c : Thread nD τ) none (κ := κ) (k' := 6)
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_bar B c)) $$ Hpay
  isplitl [HO]; · iexact HO
  isplitl [Hat]; · iexact Hat
  isplitl [Hr]; · iexact Hr
  iexact Hp

/-- A copy of row tile `g` into slot `s` of the neighbour its number addresses. It pays that neighbour's arrival duty with
    the slot rewritten to the tile, and the device's own departure duty with the share of the tile it reads. The addressee
    is a variable `n` equal to the neighbour, as the program names it by its device chain. -/
theorem wp_copy (s : Fin 72) (n : Dev nD) (hn : n = dest c s)
    {hsc : (slotM s : Memref sig (Dev.tc n : Thread nD τ).2.kind .vmem S16x512 .f32).view.ref.isScScratch = false}
    {hsrc : (accM (gOf s)).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α} {κ₁ κ₂ : ℕ}
    (fs : Buf (Elt F) ((accM (gOf s)).view.loc (c : Thread nD τ)))
    (fd : Buf (Elt F) ((slotM s).view.loc ((dest c s : Dev nD) : Thread nD τ)))
    (hv : (accM (gOf s)).view.read (Elt F) fs = sentV B (lOf s) (rndOf s) c (gOf s))
    {O₁ : CellTallies nD τ sig Unit} (O : CellTallies nD τ sig Unit) (hO : O₁ = O + tallyAt (recvCell (dest c s) s) () Ncp) {W : Waits sig Unit} :
    iprop(cellInv ER (exRd B) κ₁ (sendCell c s) ∗ cellInv ER (exRd B) κ₂ (recvCell (dest c s) s)
        ∗ accPts c (gOf s) (shareOf (psOf s)) fs ∗ slotPts (dest c s) s fd
        ∗ owes (c : Thread nD τ) O₁ W
        ∗ dutyTok ER (sendCell c s) 0 (0 : Fin 6) ∗ reached ER (sendCell c s) 0
        ∗ dutyTok ER (recvCell (dest c s) s) 0 (0 : Fin 6) ∗ reached ER (recvCell (dest c s) s) 0)
      ⊢ iprop(((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM (gOf s)) (.remote (Dev.tc n : Thread nD τ) (slotM s) (.dma (sendS s)) hsc) (.dma (recvS s)) hsrc hdst hsem) k) Q) := by
  subst hn
  unfold slotPts accPts
  iintro ⟨#HI1, #HI2, Hs, Hd, HO, Ht1, #Hr1, Ht2, #Hr2⟩ Hk
  iapply (Rounds.wp_send_pointsTo 𝒱₀ ER (exRd B) (c : Thread nD τ) none (κ₁ := κ₁) (κ₂ := κ₂)
      (src := accM (gOf s)) (dst := slotM s) (c' := ((dest c s : Dev nD) : Thread nD τ)) (q := shareOf (psOf s))
      (r₁ := 0) (r₂ := 0) (d₁ := 0) (d₂ := 0) (fs := fs) (fd := fd)
      (by rw [duties_send]; exact Finset.mem_singleton_self _) (by rw [duties_recv]; exact Finset.mem_singleton_self _)
      () () Ncp rfl (amount_send B c s 0 0) (amount_recv B _ s 0 0) O hO (W := W)
      (by
        rw [payload_send]; unfold sendPay accAt owns
        iintro H; iexists fs
        isplitr; · ipureintro; exact hv
        iexact H)
      (by
        rw [payload_recv]; unfold recvPay slotAt owns
        rw [show peer (recvFrom (rndOf s) (psOf s)) (dest c s) = c from by
          unfold dest; rw [← back_sendTo]; exact peer_back _ c]
        iintro H
        iexists ((slotM s).view.write (Elt F) fd ((accM (gOf s)).view.read (Elt F) fs) Finset.univ)
        isplitr; · ipureintro; rw [View.read_write_univ]; exact hv
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The wait on the departure cell of copy `s`: the share of the source tile the copy read comes back. -/
theorem wp_sendwait (s : Fin 72) {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (sendCell c s) ∗ cred (tallyAt (sendCell c s) () Ncp) ∗ owes (c : Thread nD τ) O W
        ∗ MayWait (c : Thread nD τ) (.dma (sendS s)) () O ∗ atPos ER (sendCell c s) 0 ∅ 0)
      ⊢ iprop(((owes (c : Thread nD τ) O (insert (SemLoc.dma (sendS s), ()) W) ∗ atPos ER (sendCell c s) 1 ∅ 0 ∗ reached ER (sendCell c s) 1
              ∗ sendPay B c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  rw [← hd]
  iintro ⟨#HI, Hc, HO, #Hmw, Hat⟩ Hk
  iapply (Rounds.wp_wait_rest_token 𝒱₀ ER (exRd B) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_send])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_send B c s)) $$ Hpay
  isplitl [HO]; · iexact HO
  isplitl [Hat]; · iexact Hat
  isplitl [Hr]; · iexact Hr
  iexact Hp

/-- The wait on the arrival cell of slot `s`: the slot comes holding what the sending neighbour's copy carried. -/
theorem wp_recvwait (s : Fin 72) {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (recvCell c s) ∗ cred (tallyAt (recvCell c s) () Ncp) ∗ owes (c : Thread nD τ) O W
        ∗ MayWait (c : Thread nD τ) (.dma (recvS s)) () O ∗ atPos ER (recvCell c s) 0 ∅ 0)
      ⊢ iprop(((owes (c : Thread nD τ) O (insert (SemLoc.dma (recvS s), ()) W) ∗ atPos ER (recvCell c s) 1 ∅ 0 ∗ reached ER (recvCell c s) 1
              ∗ recvPay B c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  rw [← hd]
  iintro ⟨#HI, Hc, HO, #Hmw, Hat⟩ Hk
  iapply (Rounds.wp_wait_rest_token 𝒱₀ ER (exRd B) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_recv])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_recv B c s)) $$ Hpay
  isplitl [HO]; · iexact HO
  isplitl [Hat]; · iexact Hat
  isplitl [Hr]; · iexact Hr
  iexact Hp

end Steps

end Cert.KernelIdeal.Hand

end
-- ==== Proof.Inv.lean ====
/-
  The exchange's ghost state on one device, and the proof data of the one grid point.

  A device starts its body holding: the invariants of its own cells, of its six neighbours' barrier cells and of the
  seventy-two arrival cells its copies credit; its position at round 0 of each of its own cells; the one-shot tokens of
  the duties it pays (six barrier duties, seventy-two arrivals on its neighbours, its own seventy-two departures); the
  credit for what will be paid into its own barrier and arrival cells; and the two scratch buffers. It ends holding the
  scratch buffers again and every own copy cell closed at zero.
-/
import proofs.«900461_g7700000000000462_dist_mlpseq_tp1d_rep_rep_b64_d512_h1024_v7x_i16_f32_1_alg».proof.Proof.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The devices' argument blocks as the windows stage them: each window is its whole array. -/
def blocksOf : Blocks F where
  x c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg3))
    | 2 => (win0_5.blk (0 : Fin 1)).view.read (Elt F) (m ((c : Thread nD τ).loc main_arg5))
  wo l c := match l with
    | 0 => (win0_2.blk (0 : Fin 1)).view.read (Elt F) (m ((c : Thread nD τ).loc main_arg2))
    | 1 => (win0_4.blk (0 : Fin 1)).view.read (Elt F) (m ((c : Thread nD τ).loc main_arg4))
    | 2 => (win0_6.blk (0 : Fin 1)).view.read (Elt F) (m ((c : Thread nD τ).loc main_arg6))

local notation "Bm" => blocksOf m

/-! ## The ghost state -/

/-- The invariants device `c`'s body opens, under the names the launch allocated them at (`K` for a device's barrier
    cell, `KS` and `KR` for its departure and arrival cells). -/
def invs (K : Dev nD → ℕ) (KS KR : Dev nD → Fin 72 → ℕ) (c : Dev nD) : sProp 𝕄 :=
  iprop(cellInv ER (exRd Bm) (K c) (barCell c)
    ∗ (bigSep Finset.univ fun s : Fin 72 => cellInv ER (exRd Bm) (KS c s) (sendCell c s))
    ∗ (bigSep Finset.univ fun s : Fin 72 => cellInv ER (exRd Bm) (KR c s) (recvCell c s))
    ∗ (bigSep Finset.univ fun j : Fin 6 => cellInv ER (exRd Bm) (K (peer j c)) (barCell (peer j c)))
    ∗ (bigSep Finset.univ fun s : Fin 72 => cellInv ER (exRd Bm) (KR (dest c s) s) (recvCell (dest c s) s)))

instance invs_persistent (K : Dev nD → ℕ) (KS KR : Dev nD → Fin 72 → ℕ) (c : Dev nD) : BI.Persistent (invs m K KS KR c) := by
  unfold invs; infer_instance

/-- Round 0 of every cell the device pays into is reached (every cell opens at round 0). -/
def reachedAll (c : Dev nD) : sProp 𝕄 :=
  iprop((bigSep Finset.univ fun j : Fin 6 => reached ER (barCell (peer j c)) 0)
    ∗ (bigSep Finset.univ fun s : Fin 72 => reached ER (recvCell (dest c s) s) 0)
    ∗ (bigSep Finset.univ fun s : Fin 72 => reached ER (sendCell c s) 0))

instance reachedAll_persistent (c : Dev nD) : BI.Persistent (reachedAll (F := F) c) := by unfold reachedAll; infer_instance

/-- The device's positions: round 0 of each of its own cells, nothing consumed. -/
def positions (c : Dev nD) : sProp 𝕄 :=
  iprop(atPos ER (barCell c) 0 ∅ 0
    ∗ (bigSep Finset.univ fun s : Fin 72 => atPos ER (sendCell c s) 0 ∅ 0)
    ∗ (bigSep Finset.univ fun s : Fin 72 => atPos ER (recvCell c s) 0 ∅ 0))

/-- The tokens of the duties the device pays. -/
def payToks (c : Dev nD) : sProp 𝕄 :=
  iprop((bigSep Finset.univ fun j : Fin 6 => dutyTok ER (barCell (peer j c)) 0 (back j))
    ∗ (bigSep Finset.univ fun s : Fin 72 => dutyTok ER (recvCell (dest c s) s) 0 (0 : Fin 6))
    ∗ (bigSep Finset.univ fun s : Fin 72 => dutyTok ER (sendCell c s) 0 (0 : Fin 6)))

def ghost (K : Dev nD → ℕ) (KS KR : Dev nD → Fin 72 → ℕ) (c : Dev nD) : sProp 𝕄 :=
  iprop(invs m K KS KR c ∗ reachedAll c ∗ positions c ∗ payToks c)

/-- What the launch hands the body beside the buffers: the ghost state at some names, the credit for its own barrier
    cell (six units) and arrival cells (a copy's units each), and the ranks. -/
def start (c : Dev nD) : sProp 𝕄 :=
  iprop((∃ K KS KR, ghost m K KS KR c) ∗ cred (tallyAt (barCell c) () 6)
    ∗ (bigSep Finset.univ fun s : Fin 72 => cred (tallyAt (recvCell c s) () Ncp)) ∗ levAts L lv)

/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: the scratch buffers back, every own copy cell closed at zero. -/
def Φ₁ (c : Dev nD) : sProp 𝕄 :=
  iprop(scratch (F := F) c ∗ (bigSep Finset.univ fun s : Fin 72 => semVal (sendCell c s) 0)
    ∗ (bigSep Finset.univ fun s : Fin 72 => semVal (recvCell c s) 0))

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The result window's staging buffer after the body: the four row tiles of the third layer's output. -/
def outAt (c : Dev nD) : (cc0_stg7_0 : Ref sig .tc).ty.Contents (Elt F) := result Bm c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (Bm).x c
    | ⟨1, _⟩ => (Bm).wi 0 c
    | ⟨2, _⟩ => (Bm).wo 0 c
    | ⟨3, _⟩ => (Bm).wi 1 c
    | ⟨4, _⟩ => (Bm).wo 1 c
    | ⟨5, _⟩ => (Bm).wi 2 c
    | ⟨6, _⟩ => (Bm).wo 2 c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Hand

end
-- ==== Proof.LaunchSems.lean ====
/-
  The kernel's own semaphores at launch. The seventy-two departure cells and the seventy-two arrival cells are the
  kernel's scoped semaphores, pairwise distinct and none of them a staging semaphore of a window; the barrier cell is
  the one semaphore of a device that is not scoped.
-/
import proofs.«900461_g7700000000000462_dist_mlpseq_tp1d_rep_rep_b64_d512_h1024_v7x_i16_f32_1_alg».proof.Proof.Inv

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells are distinct -/

theorem reg_ne_dma (a : Sem sig) (b : DmaSem sig) : (SemLoc.reg a : SemLoc sig) ≠ .dma b := fun h => by cases h

theorem send_inj {s s' : Fin 72} (h : (SemLoc.dma (sendS s) : SemLoc sig) = .dma (sendS s')) : s = s' := by
  have h1 := congrArg Fin.val (SemLoc.dma.inj h)
  rw [sendS_val, sendS_val] at h1
  exact Fin.ext (by omega)

theorem recv_inj {s s' : Fin 72} (h : (SemLoc.dma (recvS s) : SemLoc sig) = .dma (recvS s')) : s = s' := by
  have h1 := congrArg Fin.val (SemLoc.dma.inj h)
  rw [recvS_val, recvS_val] at h1
  exact Fin.ext (by omega)

theorem send_ne_recv (s s' : Fin 72) : (SemLoc.dma (sendS s) : SemLoc sig) ≠ .dma (recvS s') := fun h => by
  have h1 := congrArg Fin.val (SemLoc.dma.inj h)
  rw [sendS_val, recvS_val] at h1
  have := s.isLt
  omega

/-- A window's staging semaphore is one of the first eight. -/
theorem stage_sem_lt : ∀ (w : Fin cfg0.W) (s : Fin (cfg0.spec w).nbuf), ((cfg0.spec w).sem s).val < 8 := by decide

/-! ## The kernel's own cells -/

/-- The kernel's own cells: the departure cells, then the arrival cells. -/
abbrev osem : Fin 72 ⊕ Fin 72 → SemLoc sig := Sum.elim (fun s => .dma (sendS s)) (fun s => .dma (recvS s))

theorem ownSemFacts : Pipeline.OwnSemFacts cfg0.spec osem where
  isScoped := by decide
  inj := by
    rintro (s | s) (s' | s') h
    · exact congrArg Sum.inl (send_inj h)
    · exact absurd h (send_ne_recv s s')
    · exact absurd h.symm (send_ne_recv s' s)
    · exact congrArg Sum.inr (recv_inj h)
  disj := by
    rintro (s | s) w b h
    · have h1 := congrArg Fin.val (SemLoc.dma.inj h)
      rw [sendS_val] at h1
      have := stage_sem_lt w b
      omega
    · have h1 := congrArg Fin.val (SemLoc.dma.inj h)
      rw [recvS_val] at h1
      have := stage_sem_lt w b
      omega

omit [FloatOps F] in
/-- The kernel's own cells at zero: the departure cells and the arrival cells. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 72 => semVal (sendCell c s) 0) ∗ (bigSep Finset.univ fun s : Fin 72 => semVal (recvCell c s) 0)) := by
  unfold Pipeline.ownSems0; rw [bigSep_univ_sum]; rfl

omit [FloatOps F] in
set_option maxRecDepth 8000 in
/-- The barrier semaphore is the one semaphore of a device that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.KernelIdeal.Hand

end
-- ==== Proof.LaunchFund.lean ====
/-
  The exchange's launch element. Every device has one barrier cell, seventy-two departure cells and seventy-two arrival
  cells; a barrier cell's round has six duties and so six tokens, a copy cell's round one. The launch element is the
  rounds library's for these cells and tokens beside the pipeline library's own; funding it deals every device the
  round states of its own cells, that round 0 of each is reached, its positions there, and its own cells' tokens.
-/
import proofs.«900461_g7700000000000462_dist_mlpseq_tp1d_rep_rep_b64_d512_h1024_v7x_i16_f32_1_alg».proof.Proof.LaunchSems

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "Bm" => blocksOf m

/-! ## The cells and the tokens -/

/-- A device's cells: its barrier cell, its departure cells, its arrival cells. -/
abbrev Kx : Type := Unit ⊕ Fin 72 ⊕ Fin 72
abbrev csem : Kx → SemLoc sig := Sum.elim (fun _ => .reg barS) (Sum.elim (fun s => .dma (sendS s)) (fun s => .dma (recvS s)))
abbrev kcell (ck : Dev nD × Kx) : GSem nD τ sig := ((ck.1 : Thread nD τ), csem ck.2)

theorem csem_injective : Function.Injective csem := by
  rintro (u | s | s) (u' | s' | s') h
  · rfl
  · exact absurd h (reg_ne_dma _ _)
  · exact absurd h (reg_ne_dma _ _)
  · exact absurd h.symm (reg_ne_dma _ _)
  · exact congrArg (fun x => Sum.inr (Sum.inl x)) (send_inj h)
  · exact absurd h (send_ne_recv s s')
  · exact absurd h.symm (reg_ne_dma _ _)
  · exact absurd h.symm (send_ne_recv s' s)
  · exact congrArg (fun x => Sum.inr (Sum.inr x)) (recv_inj h)

theorem kcell_injective : Function.Injective (kcell : Dev nD × Kx → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- The exchange's cells, of all devices. -/
def exCells : Finset (GSem nD τ sig) := Finset.univ.map ⟨kcell, kcell_injective⟩

/-- A device's own cells' tokens as minted: the barrier cell's six, each departure cell's one, each arrival cell's one. -/
abbrev Tx : Type := Fin 6 ⊕ Fin 72 ⊕ Fin 72
abbrev tokOf (ct : Dev nD × Tx) : GSem nD τ sig × ℕ × Fin 6 := match ct.2 with
  | .inl j => (barCell ct.1, 0, j)
  | .inr (.inl s) => (sendCell ct.1 s, 0, 0)
  | .inr (.inr s) => (recvCell ct.1 s, 0, 0)

theorem tokOf_injective : Function.Injective (tokOf : Dev nD × Tx → GSem nD τ sig × ℕ × Fin 6) := by
  rintro ⟨c, t⟩ ⟨c', t'⟩ h
  have h1 : c = c' := by
    have := congrArg (fun x : GSem nD τ sig × ℕ × Fin 6 => x.1.1.1) h
    rcases t with j | s | s <;> rcases t' with j' | s' | s' <;> exact this
  subst h1
  have hs : (tokOf (c, t)).1.2 = (tokOf (c, t')).1.2 := congrArg (fun x : GSem nD τ sig × ℕ × Fin 6 => x.1.2) h
  have hd : (tokOf (c, t)).2.2 = (tokOf (c, t')).2.2 := congrArg (fun x : GSem nD τ sig × ℕ × Fin 6 => x.2.2) h
  rcases t with j | s | s <;> rcases t' with j' | s' | s'
  · have : j = j' := hd
    subst this; rfl
  · exact absurd hs (reg_ne_dma _ _)
  · exact absurd hs (reg_ne_dma _ _)
  · exact absurd hs.symm (reg_ne_dma _ _)
  · have : s = s' := send_inj hs
    subst this; rfl
  · exact absurd hs (send_ne_recv s s')
  · exact absurd hs.symm (reg_ne_dma _ _)
  · exact absurd hs.symm (send_ne_recv s' s)
  · have : s = s' := recv_inj hs
    subst this; rfl

/-- The exchange's tokens, of all devices. -/
def exToks : Finset (GSem nD τ sig × ℕ × Fin 6) := Finset.univ.map ⟨tokOf, tokOf_injective⟩

/-- The launch element: the pipeline library's for the staging cells, the exchange's for its own. -/
def u₀ : UU :=
  (initOf (Pipeline.cells cfgs cellOf_inj) (Pipeline.launchToks cfgs cellOf_inj), initOf exCells exToks)

/-! ## What funding deals a device -/

/-- One assertion per cell, over a device's cells. -/
def overCells (Φ : GSem nD τ sig → sProp 𝕄) (c : Dev nD) : sProp 𝕄 :=
  iprop(Φ (barCell c) ∗ (bigSep Finset.univ fun s : Fin 72 => Φ (sendCell c s)) ∗ (bigSep Finset.univ fun s : Fin 72 => Φ (recvCell c s)))

instance overCells_persistent (Φ : GSem nD τ sig → sProp 𝕄) [∀ g, BI.Persistent (Φ g)] (c : Dev nD) : BI.Persistent (overCells Φ c) := by
  unfold overCells; infer_instance

omit [FloatOps F] in
theorem bigSep_exCells (Φ : GSem nD τ sig → sProp 𝕄) : bigSep exCells Φ = bigSep Finset.univ (overCells Φ) := by
  unfold exCells; rw [bigSep_map, bigSep_univ_prod]
  refine bigSep_congr fun c _ => ?_
  rw [bigSep_univ_sum, bigSep_univ_sum, bigSep_univ_of_subsingleton ()]; rfl

/-- The tokens of a device's own cells. -/
def toks (c : Dev nD) : sProp 𝕄 :=
  iprop((bigSep Finset.univ fun j : Fin 6 => dutyTok ER (barCell c) 0 j)
    ∗ (bigSep Finset.univ fun s : Fin 72 => dutyTok ER (sendCell c s) 0 (0 : Fin 6))
    ∗ (bigSep Finset.univ fun s : Fin 72 => dutyTok ER (recvCell c s) 0 (0 : Fin 6)))

omit [FloatOps F] in
theorem bigSep_exToks : bigSep exToks (fun x => (dutyTok ER x.1 x.2.1 x.2.2 : sProp 𝕄)) = bigSep Finset.univ fun c : Dev nD => toks c := by
  unfold exToks; rw [bigSep_map, bigSep_univ_prod]
  refine bigSep_congr fun c _ => ?_
  unfold toks; rw [bigSep_univ_sum, bigSep_univ_sum]; rfl

/-- What the launch element deals device `c`: the round states of its own cells, round 0 of each reached, its positions,
    and its own cells' tokens. -/
def G (c : Dev nD) : sProp 𝕄 :=
  iprop(overCells (fun g => roundState ER (exRd Bm) g 0) c ∗ overCells (fun g => reached ER g 0) c
    ∗ overCells (fun g => atPos ER g 0 ∅ 0) c ∗ toks c)

theorem fund_ex : BI.own (ER (initOf exCells exToks)) ⊢ (|==> bigSep Finset.univ (G m) : sProp 𝕄) := by
  iintro HX
  imod (Rounds.fund ER (exRd Bm) exCells exToks) $$ HX with ⟨Hst, Hr, Hat, Htok⟩
  imodintro
  ihave Hst' := (Entails.of_eq (bigSep_exCells fun g => roundState ER (exRd Bm) g 0)) $$ Hst
  ihave Hr' := (Entails.of_eq (bigSep_exCells (F := F) fun g => reached ER g 0)) $$ Hr
  ihave Hat' := (Entails.of_eq (bigSep_exCells (F := F) fun g => atPos ER g 0 ∅ 0)) $$ Hat
  ihave Htok' := (Entails.of_eq (bigSep_exToks (F := F))) $$ Htok
  unfold G; simp only [bigSep_sep']
  isplitl [Hst']; · iexact Hst'
  isplitl [Hr']; · iexact Hr'
  isplitl [Hat']; · iexact Hat'
  iexact Htok'

/-- The launch element splits into the pipeline library's and the funded exchange. -/
theorem u₀_split : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ex m) $$ HX with HG
  imodintro
  isplitl [HP] <;> iassumption

end Cert.KernelIdeal.Hand

end
-- ==== Proof.LaunchGlob.lean ====
/-
  The global step of the launch. Each device turns the counters and round states of its own cells into the cells'
  invariants; the invariants and the reached-round facts of all devices are then on record for everybody, and the tokens
  change hands: a device's barrier duty `d` is paid by its neighbour `peer d c`, so the token of duty `back j` of the
  barrier cell of `peer j c` goes to `c`; the arrival duty of slot `s` of device `dest c s` is paid by `c` (for a fixed
  slot, `c ↦ dest c s` is a shift of the devices, hence a bijection); a departure duty is paid by the device itself.
-/
import proofs.«900461_g7700000000000462_dist_mlpseq_tp1d_rep_rep_b64_d512_h1024_v7x_i16_f32_1_alg».proof.Proof.LaunchFund

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "Bm" => blocksOf m

/-! ## One assertion per cell of a device -/

omit [FloatOps F] in
theorem overCells_mono {Φ Ψ : GSem nD τ sig → sProp 𝕄} (h : ∀ g, Φ g ⊢ Ψ g) (c : Dev nD) : overCells Φ c ⊢ overCells Ψ c := by
  unfold overCells
  exact sep_mono (h _) (sep_mono (bigSep_mono fun s _ => h _) (bigSep_mono fun s _ => h _))

omit [FloatOps F] in
theorem overCells_sep_intro (Φ Ψ : GSem nD τ sig → sProp 𝕄) (c : Dev nD) :
    iprop(overCells Φ c ∗ overCells Ψ c) ⊢ overCells (fun g => iprop(Φ g ∗ Ψ g)) c := by
  unfold overCells
  rw [bigSep_sep', bigSep_sep']
  iintro ⟨⟨H1, H2, H3⟩, K1, K2, K3⟩
  isplitl [H1 K1]
  · isplitl [H1] <;> iassumption
  isplitl [H2 K2]
  · isplitl [H2] <;> iassumption
  · isplitl [H3] <;> iassumption

omit [FloatOps F] in
theorem overCells_fupd (Φ : GSem nD τ sig → sProp 𝕄) (c : Dev nD) :
    overCells (fun g => iprop(|={Set.univ}=> Φ g)) c ⊢ |={Set.univ}=> overCells Φ c := by
  unfold overCells
  iintro ⟨H1, H2, H3⟩
  imod H1 with H1
  imod (bigSep_fupd Finset.univ fun s : Fin 72 => Φ (sendCell c s)) $$ H2 with H2
  imod (bigSep_fupd Finset.univ fun s : Fin 72 => Φ (recvCell c s)) $$ H3 with H3
  imodintro
  isplitl [H1]; · iexact H1
  isplitl [H2] <;> iassumption

omit [FloatOps F] in
theorem overCells_bar (Φ : GSem nD τ sig → sProp 𝕄) (c : Dev nD) : overCells Φ c ⊢ Φ (barCell c) := by
  unfold overCells; iintro ⟨H, -⟩; iexact H
omit [FloatOps F] in
theorem overCells_send (Φ : GSem nD τ sig → sProp 𝕄) (c : Dev nD) (s : Fin 72) : overCells Φ c ⊢ Φ (sendCell c s) :=
  (show overCells Φ c ⊢ bigSep Finset.univ fun s : Fin 72 => Φ (sendCell c s) from by unfold overCells; iintro ⟨-, H, -⟩; iexact H).trans
    (bigSep_elim (Φ := fun s : Fin 72 => Φ (sendCell c s)) (Finset.mem_univ s))
omit [FloatOps F] in
theorem overCells_recv (Φ : GSem nD τ sig → sProp 𝕄) (c : Dev nD) (s : Fin 72) : overCells Φ c ⊢ Φ (recvCell c s) :=
  (show overCells Φ c ⊢ bigSep Finset.univ fun s : Fin 72 => Φ (recvCell c s) from by unfold overCells; iintro ⟨-, -, H⟩; iexact H).trans
    (bigSep_elim (Φ := fun s : Fin 72 => Φ (recvCell c s)) (Finset.mem_univ s))

/-! ## A device allocates its cells' invariants -/

omit [FloatOps F] in
theorem sems_over (c : Dev nD) :
    iprop(((bigSep Finset.univ fun s : Fin 72 => semVal (sendCell c s) 0) ∗ (bigSep Finset.univ fun s : Fin 72 => semVal (recvCell c s) 0))
        ∗ semVal (barCell c) 0)
      ⊢ (overCells (fun g => semVal g 0) c : sProp 𝕄) := by
  unfold overCells
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(overCells (fun g => iprop(∃ κ : ℕ, cellInv ER (exRd Bm) κ g)) c
          ∗ overCells (fun g => reached ER g 0) c ∗ overCells (fun g => atPos ER g 0 ∅ 0) c ∗ toks c) := by
  rw [ownSems0_eq, unscopedSems0_eq]
  unfold G
  iintro ⟨Hos, Hus, Hst, Hr, Hat, Htok⟩
  ihave Hv := (sems_over (F := F) c) $$ [Hos Hus]
  · isplitl [Hos] <;> iassumption
  ihave Hb := (overCells_sep_intro (fun g => semVal g 0) (fun g => roundState ER (exRd Bm) g 0) c) $$ [Hv Hst]
  · isplitl [Hv] <;> iassumption
  imod ((overCells_mono (Φ := fun g => iprop(semVal g 0 ∗ roundState ER (exRd Bm) g 0))
      (Ψ := fun g => iprop(|={Set.univ}=> ∃ κ : ℕ, cellInv ER (exRd Bm) κ g))
      (fun g => (Rounds.body_intro ER (exRd Bm) g).trans inv_alloc) c).trans
      (overCells_fupd (fun g => iprop(∃ κ : ℕ, cellInv ER (exRd Bm) κ g)) c)) $$ Hb with Hinv
  imodintro
  isplitl [Hinv]; · iexact Hinv
  isplitl [Hr]; · iexact Hr
  isplitl [Hat]; · iexact Hat
  iexact Htok

/-! ## What is on record for every device -/

/-- Every cell's invariant at chosen names, and round 0 of every cell reached. -/
def records (K : Dev nD → ℕ) (KS KR : Dev nD → Fin 72 → ℕ) : sProp 𝕄 :=
  iprop((bigSep Finset.univ fun c : Dev nD => cellInv ER (exRd Bm) (K c) (barCell c))
    ∗ (bigSep Finset.univ fun c : Dev nD => bigSep Finset.univ fun s : Fin 72 => cellInv ER (exRd Bm) (KS c s) (sendCell c s))
    ∗ (bigSep Finset.univ fun c : Dev nD => bigSep Finset.univ fun s : Fin 72 => cellInv ER (exRd Bm) (KR c s) (recvCell c s))
    ∗ (bigSep Finset.univ fun c : Dev nD => overCells (fun g => reached ER g 0) c))

instance records_persistent (K : Dev nD → ℕ) (KS KR : Dev nD → Fin 72 → ℕ) : BI.Persistent (records m K KS KR) := by
  unfold records; infer_instance

section Records
variable (K : Dev nD → ℕ) (KS KR : Dev nD → Fin 72 → ℕ)

theorem rec_bar (c : Dev nD) : records m K KS KR ⊢ cellInv ER (exRd Bm) (K c) (barCell c) :=
  (show records m K KS KR ⊢ bigSep Finset.univ fun c : Dev nD => cellInv ER (exRd Bm) (K c) (barCell c) from by
    unfold records; iintro ⟨H, -⟩; iexact H).trans
    (bigSep_elim (Φ := fun c : Dev nD => cellInv ER (exRd Bm) (K c) (barCell c)) (Finset.mem_univ c))
theorem rec_send (c : Dev nD) : records m K KS KR ⊢ bigSep Finset.univ fun s : Fin 72 => cellInv ER (exRd Bm) (KS c s) (sendCell c s) :=
  (show records m K KS KR ⊢ bigSep Finset.univ fun c : Dev nD => bigSep Finset.univ fun s : Fin 72 => cellInv ER (exRd Bm) (KS c s) (sendCell c s) from by
    unfold records; iintro ⟨-, H, -⟩; iexact H).trans
    (bigSep_elim (Φ := fun c : Dev nD => bigSep Finset.univ fun s : Fin 72 => cellInv ER (exRd Bm) (KS c s) (sendCell c s)) (Finset.mem_univ c))
theorem rec_recv (c : Dev nD) : records m K KS KR ⊢ bigSep Finset.univ fun s : Fin 72 => cellInv ER (exRd Bm) (KR c s) (recvCell c s) :=
  (show records m K KS KR ⊢ bigSep Finset.univ fun c : Dev nD => bigSep Finset.univ fun s : Fin 72 => cellInv ER (exRd Bm) (KR c s) (recvCell c s) from by
    unfold records; iintro ⟨-, -, H, -⟩; iexact H).trans
    (bigSep_elim (Φ := fun c : Dev nD => bigSep Finset.univ fun s : Fin 72 => cellInv ER (exRd Bm) (KR c s) (recvCell c s)) (Finset.mem_univ c))
theorem rec_recv1 (c : Dev nD) (s : Fin 72) : records m K KS KR ⊢ cellInv ER (exRd Bm) (KR c s) (recvCell c s) :=
  (rec_recv m K KS KR c).trans (bigSep_elim (Φ := fun s : Fin 72 => cellInv ER (exRd Bm) (KR c s) (recvCell c s)) (Finset.mem_univ s))
theorem rec_reached (c : Dev nD) : records m K KS KR ⊢ overCells (fun g => reached ER g 0) c :=
  (show records m K KS KR ⊢ bigSep Finset.univ fun c : Dev nD => overCells (fun g => reached ER g 0) c from by
    unfold records; iintro ⟨-, -, -, H⟩; iexact H).trans
    (bigSep_elim (Φ := fun c : Dev nD => overCells (fun g => reached ER g 0) c) (Finset.mem_univ c))

end Records

/-- What the global step makes of a device's deal. -/
def G' (c : Dev nD) : sProp 𝕄 := iprop(∃ K KS KR, ghost m K KS KR c)

theorem ghost_intro (K : Dev nD → ℕ) (KS KR : Dev nD → Fin 72 → ℕ) (c : Dev nD) :
    iprop(records m K KS KR ∗ (positions c ∗ payToks c)) ⊢ G' m c := by
  unfold G' ghost
  iintro ⟨#HR, Hpos, Htok⟩
  iexists K; iexists KS; iexists KR
  isplitr
  · unfold invs
    isplitr; · iapply (rec_bar m K KS KR c); iexact HR
    isplitr; · iapply (rec_send m K KS KR c); iexact HR
    isplitr; · iapply (rec_recv m K KS KR c); iexact HR
    isplitr
    · iapply (bigSep_intro_persistent (R := records m K KS KR) (Φ := fun j : Fin 6 => cellInv ER (exRd Bm) (K (peer j c)) (barCell (peer j c)))
        fun j _ => rec_bar m K KS KR (peer j c))
      iexact HR
    · iapply (bigSep_intro_persistent (R := records m K KS KR) (Φ := fun s : Fin 72 => cellInv ER (exRd Bm) (KR (dest c s) s) (recvCell (dest c s) s))
        fun s _ => rec_recv1 m K KS KR (dest c s) s)
      iexact HR
  isplitr
  · unfold reachedAll
    isplitr
    · iapply (bigSep_intro_persistent (R := records m K KS KR) (Φ := fun j : Fin 6 => reached ER (barCell (peer j c)) 0)
        fun j _ => (rec_reached m K KS KR (peer j c)).trans (overCells_bar (fun g => reached ER g 0) (peer j c)))
      iexact HR
    isplitr
    · iapply (bigSep_intro_persistent (R := records m K KS KR) (Φ := fun s : Fin 72 => reached ER (recvCell (dest c s) s) 0)
        fun s _ => (rec_reached m K KS KR (dest c s)).trans (overCells_recv (fun g => reached ER g 0) (dest c s) s))
      iexact HR
    · iapply (bigSep_intro_persistent (R := records m K KS KR) (Φ := fun s : Fin 72 => reached ER (sendCell c s) 0)
        fun s _ => (rec_reached m K KS KR c).trans (overCells_send (fun g => reached ER g 0) c s))
      iexact HR
  isplitl [Hpos]; · iexact Hpos
  iexact Htok

/-! ## The tokens change hands -/

/-- Shifting to neighbour `j` is a bijection of the devices; shifting back undoes it. -/
def peerEquiv (j : Fin 6) : Dev nD ≃ Dev nD where
  toFun := peer j
  invFun := peer (back j)
  left_inv := peer_back j
  right_inv c := by have h := peer_back (back j) c; rw [back_back] at h; exact h

def backEquiv : Fin 6 ≃ Fin 6 := ⟨back, back, back_back, back_back⟩

omit [FloatOps F] in
theorem bar_around :
    (bigSep Finset.univ fun c : Dev nD => bigSep Finset.univ fun j : Fin 6 => (dutyTok ER (barCell (peer j c)) 0 (back j) : sProp 𝕄))
      = bigSep Finset.univ fun c : Dev nD => bigSep Finset.univ fun j : Fin 6 => (dutyTok ER (barCell c) 0 j : sProp 𝕄) :=
  calc (bigSep Finset.univ fun c : Dev nD => bigSep Finset.univ fun j : Fin 6 => (dutyTok ER (barCell (peer j c)) 0 (back j) : sProp 𝕄))
      = bigSep Finset.univ fun j : Fin 6 => bigSep Finset.univ fun c : Dev nD => (dutyTok ER (barCell (peer j c)) 0 (back j) : sProp 𝕄) :=
        bigSep_univ_comm fun (c : Dev nD) (j : Fin 6) => (dutyTok ER (barCell (peer j c)) 0 (back j) : sProp 𝕄)
    _ = bigSep Finset.univ fun j : Fin 6 => bigSep Finset.univ fun c : Dev nD => (dutyTok ER (barCell c) 0 (back j) : sProp 𝕄) :=
        bigSep_congr fun j _ => (bigSep_univ_equiv (peerEquiv j) fun c : Dev nD => (dutyTok ER (barCell c) 0 (back j) : sProp 𝕄)).symm
    _ = bigSep Finset.univ fun j : Fin 6 => bigSep Finset.univ fun c : Dev nD => (dutyTok ER (barCell c) 0 j : sProp 𝕄) :=
        (bigSep_univ_equiv backEquiv fun j : Fin 6 => bigSep Finset.univ fun c : Dev nD => (dutyTok ER (barCell c) 0 j : sProp 𝕄)).symm
    _ = bigSep Finset.univ fun c : Dev nD => bigSep Finset.univ fun j : Fin 6 => (dutyTok ER (barCell c) 0 j : sProp 𝕄) :=
        bigSep_univ_comm fun (j : Fin 6) (c : Dev nD) => (dutyTok ER (barCell c) 0 j : sProp 𝕄)

omit [FloatOps F] in
theorem recv_around :
    (bigSep Finset.univ fun c : Dev nD => bigSep Finset.univ fun s : Fin 72 => (dutyTok ER (recvCell (dest c s) s) 0 (0 : Fin 6) : sProp 𝕄))
      = bigSep Finset.univ fun c : Dev nD => bigSep Finset.univ fun s : Fin 72 => (dutyTok ER (recvCell c s) 0 (0 : Fin 6) : sProp 𝕄) :=
  calc (bigSep Finset.univ fun c : Dev nD => bigSep Finset.univ fun s : Fin 72 => (dutyTok ER (recvCell (dest c s) s) 0 (0 : Fin 6) : sProp 𝕄))
      = bigSep Finset.univ fun s : Fin 72 => bigSep Finset.univ fun c : Dev nD => (dutyTok ER (recvCell (dest c s) s) 0 (0 : Fin 6) : sProp 𝕄) :=
        bigSep_univ_comm fun (c : Dev nD) (s : Fin 72) => (dutyTok ER (recvCell (dest c s) s) 0 (0 : Fin 6) : sProp 𝕄)
    _ = bigSep Finset.univ fun s : Fin 72 => bigSep Finset.univ fun c : Dev nD => (dutyTok ER (recvCell c s) 0 (0 : Fin 6) : sProp 𝕄) :=
        bigSep_congr fun s _ => (bigSep_univ_equiv (peerEquiv (sendTo (rndOf s) (psOf s))) fun c : Dev nD => (dutyTok ER (recvCell c s) 0 (0 : Fin 6) : sProp 𝕄)).symm
    _ = bigSep Finset.univ fun c : Dev nD => bigSep Finset.univ fun s : Fin 72 => (dutyTok ER (recvCell c s) 0 (0 : Fin 6) : sProp 𝕄) :=
        bigSep_univ_comm fun (s : Fin 72) (c : Dev nD) => (dutyTok ER (recvCell c s) 0 (0 : Fin 6) : sProp 𝕄)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  ihave H1' := (Entails.of_eq (bar_around (F := F)).symm) $$ H1
  ihave H3' := (Entails.of_eq (recv_around (F := F)).symm) $$ H3
  isplitl [H1']; · iexact H1'
  isplitl [H3'] <;> iassumption

/-! ## The regrouping -/

theorem names_intro :
    (bigSep Finset.univ fun c : Dev nD => overCells (fun g => iprop(∃ κ : ℕ, cellInv ER (exRd Bm) κ g)) c : sProp 𝕄)
      ⊢ iprop(∃ (K : Dev nD → ℕ) (KS KR : Dev nD → Fin 72 → ℕ),
          (bigSep Finset.univ fun c : Dev nD => cellInv ER (exRd Bm) (K c) (barCell c))
          ∗ (bigSep Finset.univ fun c : Dev nD => bigSep Finset.univ fun s : Fin 72 => cellInv ER (exRd Bm) (KS c s) (sendCell c s))
          ∗ (bigSep Finset.univ fun c : Dev nD => bigSep Finset.univ fun s : Fin 72 => cellInv ER (exRd Bm) (KR c s) (recvCell c s))) := by
  unfold overCells
  rw [bigSep_sep', bigSep_sep']
  iintro ⟨HB, HS, HV⟩
  ihave HB' := (bigSep_exists_pi Finset.univ (fun (c : Dev nD) (κ : ℕ) => (cellInv ER (exRd Bm) κ (barCell c) : sProp 𝕄))) $$ HB
  icases HB' with ⟨%K, HB⟩
  ihave HS1 := (Entails.of_eq (bigSep_univ_prod (fun cs : Dev nD × Fin 72 => iprop(∃ κ : ℕ, cellInv ER (exRd Bm) κ (sendCell cs.1 cs.2)))).symm) $$ HS
  ihave HS' := (bigSep_exists_pi Finset.univ (fun (cs : Dev nD × Fin 72) (κ : ℕ) => (cellInv ER (exRd Bm) κ (sendCell cs.1 cs.2) : sProp 𝕄))) $$ HS1
  icases HS' with ⟨%KS, HS⟩
  ihave HS2 := (Entails.of_eq (bigSep_univ_prod (fun cs : Dev nD × Fin 72 => (cellInv ER (exRd Bm) (KS cs) (sendCell cs.1 cs.2) : sProp 𝕄)))) $$ HS
  ihave HV1 := (Entails.of_eq (bigSep_univ_prod (fun cs : Dev nD × Fin 72 => iprop(∃ κ : ℕ, cellInv ER (exRd Bm) κ (recvCell cs.1 cs.2)))).symm) $$ HV
  ihave HV' := (bigSep_exists_pi Finset.univ (fun (cs : Dev nD × Fin 72) (κ : ℕ) => (cellInv ER (exRd Bm) κ (recvCell cs.1 cs.2) : sProp 𝕄))) $$ HV1
  icases HV' with ⟨%KR, HV⟩
  ihave HV2 := (Entails.of_eq (bigSep_univ_prod (fun cs : Dev nD × Fin 72 => (cellInv ER (exRd Bm) (KR cs) (recvCell cs.1 cs.2) : sProp 𝕄)))) $$ HV
  iexists K; iexists (fun c s => KS (c, s)); iexists (fun c s => KR (c, s))
  isplitl [HB]; · iexact HB
  isplitl [HS2] <;> iassumption

omit [FloatOps F] in
theorem positions_eq (c : Dev nD) : (overCells (fun g => atPos ER g 0 ∅ 0) c : sProp 𝕄) = positions c := by
  unfold overCells positions; rfl

omit [FloatOps F] in
theorem positions_intro :
    (bigSep Finset.univ fun c : Dev nD => (overCells (fun g => atPos ER g 0 ∅ 0) c : sProp 𝕄)) ⊢ bigSep Finset.univ fun c : Dev nD => (positions c : sProp 𝕄) :=
  bigSep_mono fun c _ => Entails.of_eq (positions_eq c)

theorem regroup :
    (bigSep Finset.univ fun c : Dev nD => iprop(overCells (fun g => iprop(∃ κ : ℕ, cellInv ER (exRd Bm) κ g)) c
          ∗ overCells (fun g => reached ER g 0) c ∗ overCells (fun g => atPos ER g 0 ∅ 0) c ∗ toks c) : sProp 𝕄)
      ⊢ bigSep Finset.univ (G' m) := by
  rw [bigSep_sep', bigSep_sep', bigSep_sep']
  iintro ⟨HI, #HR, Hat, Htok⟩
  ihave HK := (names_intro m) $$ HI
  icases HK with ⟨%K, %KS, %KR, #HB, #HS, #HV⟩
  ihave Htk := (toks_around (F := F)) $$ Htok
  iapply (bigSep_with_persistent (R := records m K KS KR) (Φ := fun c : Dev nD => iprop(positions c ∗ payToks c)) fun c _ => ghost_intro m K KS KR c)
  isplitr
  · unfold records
    isplitr; · iexact HB
    isplitr; · iexact HS
    isplitr; · iexact HV
    iexact HR
  · iapply (Entails.of_eq (bigSep_sep' Finset.univ (fun c : Dev nD => (positions c : sProp 𝕄)) payToks).symm)
    isplitl [Hat]
    · iapply (positions_intro (F := F))
      iexact Hat
    · iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand

end
-- ==== Proof.LaunchCred.lean ====
/-
  The launch credit. What all devices together owe a device's cells comes back to it as credit: its barrier cell is owed
  one unit by each of its six neighbours, and its arrival cell of slot `s` is owed one copy's units by the one device
  whose copy number `s` is addressed to it. A device's payments are the seventy-eight of `tallyK`; summed over the
  devices, the `k`-th payment credits every device's own cell of that kind once, since the addressee map is a shift of
  the devices.
-/
import proofs.«900461_g7700000000000462_dist_mlpseq_tp1d_rep_rep_b64_d512_h1024_v7x_i16_f32_1_alg».proof.Proof.LaunchGlob
import Mathlib.Algebra.BigOperators.Intervals
import Mathlib.Algebra.BigOperators.Fin

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's payments as a sum -/

omit [FloatOps F] in
theorem owedRev_sum (c : Dev nD) (n : ℕ) : owedRev c n = ∑ i ∈ Finset.range n, tallyK c (77 - i) := by
  induction n with
  | zero => rw [Finset.sum_range_zero]; rfl
  | succ n ih =>
    rw [Finset.sum_range_succ, ← ih]; rfl

omit [FloatOps F] in
theorem O₀_sum (c : Dev nD) : O₀ c = ∑ k ∈ Finset.range 78, tallyK c k := by
  unfold O₀; rw [owedRev_sum]; exact Finset.sum_range_reflect (fun k => tallyK c k) 78

/-- The order of the slots in the program is a permutation of the slots (it reverses each group of three). -/
def progEquiv : Fin 72 ≃ Fin 72 where
  toFun i := progSlot i.val
  invFun i := progSlot i.val
  left_inv := by intro i; revert i; decide
  right_inv := by intro i; revert i; decide

/-! ## The credit of one payment, summed over the devices -/

/-- The cell of a device that the `k`-th payments of all devices credit, and by how much. -/
def paidAt (c : Dev nD) (k : ℕ) : CellTallies nD τ sig Unit :=
  if k < 6 then tallyAt (barCell c) () 1 else tallyAt (recvCell c (progSlot (k - 6))) () Ncp

omit [FloatOps F] in
theorem cred_of_payment (c : Dev nD) (k : ℕ) :
    (Pipeline.launchCred (fun d => tallyK d k) c : sProp 𝕄) ⊢ cred (paidAt c k) := by
  unfold paidAt
  by_cases h : k < 6
  · rw [if_pos h, show (fun d : Dev nD => tallyK d k)
        = fun d : Dev nD => tallyAt (((peer ⟨k, h⟩ d : Dev nD) : Thread nD τ), SemLoc.reg barS) () 1 from
      funext fun d => by unfold tallyK; rw [dif_pos h]]
    exact Pipeline.launchCred_tallyAt (SemLoc.reg barS) (peer ⟨k, h⟩) (peer (back ⟨k, h⟩))
      (peerEquiv ⟨k, h⟩).right_inv (peerEquiv ⟨k, h⟩).left_inv () 1 c
  · rw [if_neg h, show (fun d : Dev nD => tallyK d k)
        = fun d : Dev nD => tallyAt (((dest d (progSlot (k - 6)) : Dev nD) : Thread nD τ), SemLoc.dma (recvS (progSlot (k - 6)))) () Ncp from
      funext fun d => by unfold tallyK; rw [dif_neg h]]
    exact Pipeline.launchCred_tallyAt (SemLoc.dma (recvS (progSlot (k - 6)))) (fun d => dest d (progSlot (k - 6)))
      (peer (back (sendTo (rndOf (progSlot (k - 6))) (psOf (progSlot (k - 6))))))
      (peerEquiv (sendTo (rndOf (progSlot (k - 6))) (psOf (progSlot (k - 6))))).right_inv
      (peerEquiv (sendTo (rndOf (progSlot (k - 6))) (psOf (progSlot (k - 6))))).left_inv () Ncp c

/-! ## Their sum -/

omit [FloatOps F] in
theorem tally_units (g : GSem nD τ sig) (n : ℕ) :
    (∑ _k ∈ Finset.range (n + 1), (tallyAt g () 1 : CellTallies nD τ sig Unit)) = tallyAt g () (n + 1) := by
  induction n with
  | zero => exact Finset.sum_range_one _
  | succ n ih => rw [Finset.sum_range_succ, ih, tallyAt_add]

omit [FloatOps F] in
theorem paid_sum (c : Dev nD) :
    (∑ k ∈ Finset.range 78, paidAt c k) = tallyAt (barCell c) () 6 + ∑ s : Fin 72, (tallyAt (recvCell c s) () Ncp : CellTallies nD τ sig Unit) := by
  have h1 : (∑ k ∈ Finset.range 6, paidAt c k) = tallyAt (barCell c) () 6 := by
    rw [Finset.sum_congr rfl fun k hk => show paidAt c k = tallyAt (barCell c) () 1 from by
      unfold paidAt; rw [if_pos (Finset.mem_range.mp hk)]]
    exact tally_units (barCell c) 5
  have h2 : (∑ i ∈ Finset.range 72, paidAt c (6 + i)) = ∑ s : Fin 72, (tallyAt (recvCell c s) () Ncp : CellTallies nD τ sig Unit) := by
    rw [Finset.sum_congr rfl fun i _ => show paidAt c (6 + i) = tallyAt (recvCell c (progSlot i)) () Ncp from by
      unfold paidAt; rw [if_neg (by omega), Nat.add_sub_cancel_left]]
    rw [Finset.sum_range fun i => (tallyAt (recvCell c (progSlot i)) () Ncp : CellTallies nD τ sig Unit)]
    exact Equiv.sum_comp progEquiv fun s : Fin 72 => (tallyAt (recvCell c s) () Ncp : CellTallies nD τ sig Unit)
  rw [show (78 : ℕ) = 6 + 72 from rfl, Finset.sum_range_add, h1, h2]

omit [FloatOps F] in
/-- The launch credit of a device: six units on its barrier cell, a copy's units on each of its arrival cells. -/
theorem creds (c : Dev nD) :
    (Pipeline.launchCred O₀ c : sProp 𝕄)
      ⊢ iprop(cred (tallyAt (barCell c) () 6) ∗ bigSep Finset.univ fun s : Fin 72 => cred (tallyAt (recvCell c s) () Ncp)) := by
  rw [show (O₀ : Dev nD → CellTallies nD τ sig Unit) = fun d => ∑ k ∈ Finset.range 78, tallyK d k from funext O₀_sum,
    Pipeline.launchCred_sum]
  refine (bigSep_mono fun k _ => cred_of_payment c k).trans ?_
  refine (Entails.of_eq (Pipeline.cred_finsetSum (Finset.range 78) (paidAt c)).symm).trans ?_
  rw [paid_sum c]
  refine (cred_add _ _).1.trans (sep_mono .rfl (Entails.of_eq ?_))
  exact Pipeline.cred_finsetSum Finset.univ fun s : Fin 72 => (tallyAt (recvCell c s) () Ncp : CellTallies nD τ sig Unit)

end Cert.KernelIdeal.Hand

end
-- ==== Proof.Launch.lean ====
/-
  The launch. From a memory with every counter at zero, the sixteen devices' runs of @main — each the one kernel
  region — terminate, and every final state has each window's array at what the proof data says, provided one device's
  body meets its obligation: the launch funds the exchange's cells, records their invariants, deals every device the
  tokens of the duties it pays and the credit for what its own cells are owed, and hands the body the two scratch
  buffers; at the end the body returns them with its copy cells closed at zero.
-/
import proofs.«900461_g7700000000000462_dist_mlpseq_tp1d_rep_rep_b64_d512_h1024_v7x_i16_f32_1_alg».proof.Proof.LaunchCred

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "Bm" => blocksOf m

/-! ## The theorem's side conditions -/

theorem share_eq (c : Dev nD) (w : Fin cfg0.W) : (dats m ρ 0 c).share w = fullShare := by unfold Dat.share; split <;> rfl

/-- What the launch hands a device beside the buffers: its ghost state, its credit, the ranks. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- Entering the one grid point: the scoped buffers that are no staging buffer are the two scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- Leaving it: the scratch buffers go back, and the kernel's own cells at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  iintro ⟨Hr, HzS, HzV⟩
  isplitr; · iempintro
  isplitl [HzS HzV]
  · isplitl [HzS] <;> iassumption
  iexact Hr

omit [FloatOps F] in
/-- A window's staging cell has rank zero. -/
theorem lv_stage (c : Dev nD) (w : Fin cfg0.W) (s : Fin (cfg0.win w).nbuf) :
    lv ((c : Thread nD τ), SemLoc.dma ((cfg0.win w).sem s)) () = 0 := by
  have h : ∀ (w : Fin cfg0.W) (s : Fin (cfg0.win w).nbuf), kindOf (SemLoc.dma ((cfg0.win w).sem s) : SemLoc sig) = CellKind.other := by decide
  unfold lv; rw [h w s]

/-- The pipeline's waits on its staging cells are allowed: those cells rank below everything a device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage c w s) 78
    · exact mayWait_low c _ (lv_stage c w s) 0

/-! ## The run -/

/-- Every window's array of every device at what the proof data says it holds after the grid. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of sixteen devices, for any float values, from any memory with zero counters: if every device's
    body meets its obligation, every weakly fair execution of @main — the sixteen kernels handshaking on the barrier
    semaphore, then exchanging their partial sums — terminates, and every final state has each window's array of each
    device at the proof data's final contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := u₀_split m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

end Cert.KernelIdeal.Hand

end
-- ==== Proof.Final.lean ====
/-
  The run with every array named: each device's result array ends at the third layer's output (`result` of the
  devices' argument blocks) and its seven argument arrays end as they were.
-/
import proofs.«900461_g7700000000000462_dist_mlpseq_tp1d_rep_rep_b64_d512_h1024_v7x_i16_f32_1_alg».proof.Proof.Launch

noncomputable section

namespace Cert.KernelIdeal.Hand

open Cert.KernelIdeal Cert.KernelIdeal.Gen

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- An argument array is never written; the result array after the one write-back holds what the body left in the result
    window's staging buffer; and each window's block is its whole array. -/
theorem final_in (c : Dev nD) (w : Fin cfg0.W) (hw : (cfg0.win w).isOut = false) :
    (dats m ρ 0 c).arrAt w cfg0.N = m ((cfg0.win w).arr.view.loc (c : Thread nD τ)) :=
  (dats (F := F) m ρ 0 c).arrAt_in w hw _

theorem final_out (c : Dev nD) : (dats m ρ 0 c).arrAt (7 : Fin 8) cfg0.N = result (blocksOf m) c := by
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  refine (Memref.write_access_unit_zero_univ (Elt F) main_v1 (funext fun a => by fin_cases a <;> rfl) _ _ _).trans ?_
  rfl

theorem blocks_x (c : Dev nD) : (blocksOf m).x c = m ((c : Thread nD τ).loc main_arg0) := by
  show (win0_0.blk (0 : Fin 1)).view.read (Elt F) (m ((c : Thread nD τ).loc main_arg0)) = _
  exact Memref.read_access_unit_zero (Elt F) main_arg0 (funext fun a => by fin_cases a <;> rfl) _ _
theorem blocks_wi0 (c : Dev nD) : (blocksOf m).wi 0 c = m ((c : Thread nD τ).loc main_arg1) := by
  show (win0_1.blk (0 : Fin 1)).view.read (Elt F) (m ((c : Thread nD τ).loc main_arg1)) = _
  exact Memref.read_access_unit_zero (Elt F) main_arg1 (funext fun a => by fin_cases a <;> rfl) _ _
theorem blocks_wo0 (c : Dev nD) : (blocksOf m).wo 0 c = m ((c : Thread nD τ).loc main_arg2) := by
  show (win0_2.blk (0 : Fin 1)).view.read (Elt F) (m ((c : Thread nD τ).loc main_arg2)) = _
  exact Memref.read_access_unit_zero (Elt F) main_arg2 (funext fun a => by fin_cases a <;> rfl) _ _
theorem blocks_wi1 (c : Dev nD) : (blocksOf m).wi 1 c = m ((c : Thread nD τ).loc main_arg3) := by
  show (win0_3.blk (0 : Fin 1)).view.read (Elt F) (m ((c : Thread nD τ).loc main_arg3)) = _
  exact Memref.read_access_unit_zero (Elt F) main_arg3 (funext fun a => by fin_cases a <;> rfl) _ _
theorem blocks_wo1 (c : Dev nD) : (blocksOf m).wo 1 c = m ((c : Thread nD τ).loc main_arg4) := by
  show (win0_4.blk (0 : Fin 1)).view.read (Elt F) (m ((c : Thread nD τ).loc main_arg4)) = _
  exact Memref.read_access_unit_zero (Elt F) main_arg4 (funext fun a => by fin_cases a <;> rfl) _ _
theorem blocks_wi2 (c : Dev nD) : (blocksOf m).wi 2 c = m ((c : Thread nD τ).loc main_arg5) := by
  show (win0_5.blk (0 : Fin 1)).view.read (Elt F) (m ((c : Thread nD τ).loc main_arg5)) = _
  exact Memref.read_access_unit_zero (Elt F) main_arg5 (funext fun a => by fin_cases a <;> rfl) _ _
theorem blocks_wo2 (c : Dev nD) : (blocksOf m).wo 2 c = m ((c : Thread nD τ).loc main_arg6) := by
  show (win0_6.blk (0 : Fin 1)).view.read (Elt F) (m ((c : Thread nD τ).loc main_arg6)) = _
  exact Memref.read_access_unit_zero (Elt F) main_arg6 (funext fun a => by fin_cases a <;> rfl) _ _

/-- The run, every array named. -/
theorem run_named (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = result (blocksOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 7).trans (final_out m ρ c),
      (h c 0).trans (final_in m ρ c 0 rfl), (h c 1).trans (final_in m ρ c 1 rfl), (h c 2).trans (final_in m ρ c 2 rfl),
      (h c 3).trans (final_in m ρ c 3 rfl), (h c 4).trans (final_in m ρ c 4 rfl), (h c 5).trans (final_in m ρ c 5 rfl),
      (h c 6).trans (final_in m ρ c 6 rfl)⟩)
    (run_main m ρ hbody)

end Cert.KernelIdeal.Hand

end
-- ==== Proof.Slots.lean ====
/-
  The landing buffer is its seventy-two slots, and the accumulator its four row tiles: an element belongs to the slot, or the
  tile, its first coordinate names. So a whole buffer held at some contents is each of its slots held at some contents, and
  conversely.
-/
import proofs.«900461_g7700000000000462_dist_mlpseq_tp1d_rep_rep_b64_d512_h1024_v7x_i16_f32_1_alg».proof.Proof.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An element of the landing buffer belongs to slot `s` exactly when its first coordinate is `s`. -/
theorem mem_slot (s : Fin 72) (i : S72x16x512.Idx) : i ∈ (slotM s).view.set ↔ (i 0).val = s.val := by
  simp only [Memref.view_squeeze, Memref.view_slice, Memref.view_whole, View.set_reshape, View.set_slice, View.emb_whole,
    Finset.map_refl, Rect.mem_set_unit]
  constructor
  · intro h; have := h 0; simp only [Matrix.cons_val_zero] at this; omega
  · intro h a
    fin_cases a
    · simp only [Matrix.cons_val_zero]; show s.val ≤ (i 0).val ∧ (i 0).val < s.val + 1; omega
    · exact ⟨Nat.zero_le _, lt_of_lt_of_le (i 1).isLt (le_of_eq rfl)⟩
    · exact ⟨Nat.zero_le _, lt_of_lt_of_le (i 2).isLt (le_of_eq rfl)⟩

/-- The same for the accumulator's row tiles. -/
theorem mem_acc (g : Fin 4) (i : S4x16x512.Idx) : i ∈ (accM g).view.set ↔ (i 0).val = g.val := by
  simp only [Memref.view_squeeze, Memref.view_slice, Memref.view_whole, View.set_reshape, View.set_slice, View.emb_whole,
    Finset.map_refl, Rect.mem_set_unit]
  constructor
  · intro h; have := h 0; simp only [Matrix.cons_val_zero] at this; omega
  · intro h a
    fin_cases a
    · simp only [Matrix.cons_val_zero]; show g.val ≤ (i 0).val ∧ (i 0).val < g.val + 1; omega
    · exact ⟨Nat.zero_le _, lt_of_lt_of_le (i 1).isLt (le_of_eq rfl)⟩
    · exact ⟨Nat.zero_le _, lt_of_lt_of_le (i 2).isLt (le_of_eq rfl)⟩

/-- The landing slot a device hands neighbour `j` for layer and tile `lg`: the one this neighbour's copies of that layer and
    tile write, in the round and at the peer slot that address the device. -/
def handed (j : Fin 6) (lg : Fin 3 × Fin 4) : Fin 72 := slotIx lg.1 (rndTo (back j)) lg.2 (psTo (back j))

/-- Every slot is handed to exactly one neighbour. -/
def handedEquiv : Fin 6 × (Fin 3 × Fin 4) ≃ Fin 72 where
  toFun x := handed x.1 x.2
  invFun s := (back (sendTo (rndOf s) (psOf s)), (lOf s, gOf s))
  left_inv := by intro x; revert x; decide
  right_inv := by intro s; revert s; decide

theorem slots_cover : (Finset.univ : Finset S72x16x512.Idx) = (Finset.univ : Finset (Fin 72)).biUnion fun s => (slotM s).view.set := by
  ext i
  constructor
  · intro _; exact Finset.mem_biUnion.mpr ⟨⟨(i 0).val, (i 0).isLt⟩, Finset.mem_univ _, (mem_slot _ i).mpr rfl⟩
  · intro _; exact Finset.mem_univ _
theorem slots_disjoint (s s' : Fin 72) (h : s ≠ s') : Disjoint (slotM s).view.set (slotM s').view.set :=
  Finset.disjoint_left.mpr fun i hi hi' => h (Fin.ext (by rw [mem_slot] at hi hi'; omega))

/-- The whole landing buffer at contents `f` is each of its slots at `f`. -/
theorem slots_eq (c : Dev nD) (f : Buf (Elt F) ((c : Thread nD τ).loc cc0_scratch1)) :
    ((((c : Thread nD τ).loc cc0_scratch1) ↦{fullShare} f) : sProp 𝕄) = bigSep (Finset.univ : Finset (Fin 72)) fun s => slotPts c s f := by
  show (((c : Thread nD τ).loc cc0_scratch1) ↦[(Finset.univ : Finset S72x16x512.Idx)]{fullShare} f) = _
  rw [slots_cover]
  exact pointsTo_biUnion _ _ fun s _ s' _ h => slots_disjoint s s' h

theorem slots_split_at (c : Dev nD) (f : Buf (Elt F) ((c : Thread nD τ).loc cc0_scratch1)) :
    ((((c : Thread nD τ).loc cc0_scratch1) ↦{fullShare} f) : sProp 𝕄)
      ⊢ bigSep Finset.univ fun j : Fin 6 => barPay (F := F) (peer j c) (back j) :=
  (Entails.of_eq (slots_eq c f)).trans
    ((Entails.of_eq ((bigSep_univ_equiv handedEquiv (fun s => slotPts (F := F) c s f)).trans
      (bigSep_univ_prod (fun x : Fin 6 × (Fin 3 × Fin 4) => slotPts (F := F) c (handedEquiv x) f)))).trans
      (bigSep_mono fun j _ => by
        unfold barPay
        rw [peer_back]
        refine bigSep_mono fun lg _ => (show (slotPts (F := F) c (handedEquiv (j, lg)) f : sProp 𝕄)
          ⊢ iprop(∃ f', slotPts (F := F) c (handedEquiv (j, lg)) f') from ?_)
        iintro H; iexists f; iexact H))

/-- A device entering the kernel splits its landing buffer into what it hands each of its six neighbours. -/
theorem slots_split (c : Dev nD) :
    (iprop(∃ f : Buf (Elt F) ((c : Thread nD τ).loc cc0_scratch1), ((c : Thread nD τ).loc cc0_scratch1) ↦{fullShare} f) : sProp 𝕄)
      ⊢ bigSep Finset.univ fun j : Fin 6 => barPay (F := F) (peer j c) (back j) := by
  iintro ⟨%f, H⟩
  iapply (slots_split_at c f) $$ H

end Cert.KernelIdeal.Hand

end
-- ==== Proof.Elems.lean ====
/-
  Taking one cell's resources out of a family indexed by slot or by neighbour, and a family over the seventy-two slots as
  its seventy-two members.
-/
import proofs.«900461_g7700000000000462_dist_mlpseq_tp1d_rep_rep_b64_d512_h1024_v7x_i16_f32_1_alg».proof.Proof.Slots
import proofs.«900461_g7700000000000462_dist_mlpseq_tp1d_rep_rep_b64_d512_h1024_v7x_i16_f32_1_alg».proof.Proof.Inv

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "Bm" => blocksOf m

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem bigSep_fin72 (Φ : Fin 72 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] (by decide) (by decide) Φ

section Elems
variable (K : Dev nD → ℕ) (KS KR : Dev nD → Fin 72 → ℕ) (c : Dev nD)
theorem invS_at (s : Fin 72) : (bigSep Finset.univ fun s : Fin 72 => (cellInv ER (exRd Bm) (KS c s) (sendCell c s) : sProp 𝕄)) ⊢ cellInv ER (exRd Bm) (KS c s) (sendCell c s) :=
  bigSep_elim (Finset.mem_univ s)
theorem invR_at (s : Fin 72) : (bigSep Finset.univ fun s : Fin 72 => (cellInv ER (exRd Bm) (KR c s) (recvCell c s) : sProp 𝕄)) ⊢ cellInv ER (exRd Bm) (KR c s) (recvCell c s) :=
  bigSep_elim (Finset.mem_univ s)
theorem invBN_at (j : Fin 6) : (bigSep Finset.univ fun j : Fin 6 => (cellInv ER (exRd Bm) (K (peer j c)) (barCell (peer j c)) : sProp 𝕄)) ⊢ cellInv ER (exRd Bm) (K (peer j c)) (barCell (peer j c)) :=
  bigSep_elim (Finset.mem_univ j)
theorem invRD_at (s : Fin 72) : (bigSep Finset.univ fun s : Fin 72 => (cellInv ER (exRd Bm) (KR (dest c s) s) (recvCell (dest c s) s) : sProp 𝕄)) ⊢ cellInv ER (exRd Bm) (KR (dest c s) s) (recvCell (dest c s) s) :=
  bigSep_elim (Finset.mem_univ s)
omit [FloatOps F] in
theorem rB_at (j : Fin 6) : (bigSep Finset.univ fun j : Fin 6 => (reached ER (barCell (peer j c)) 0 : sProp 𝕄)) ⊢ reached ER (barCell (peer j c)) 0 :=
  bigSep_elim (Finset.mem_univ j)
omit [FloatOps F] in
theorem rR_at (s : Fin 72) : (bigSep Finset.univ fun s : Fin 72 => (reached ER (recvCell (dest c s) s) 0 : sProp 𝕄)) ⊢ reached ER (recvCell (dest c s) s) 0 :=
  bigSep_elim (Finset.mem_univ s)
omit [FloatOps F] in
theorem rS_at (s : Fin 72) : (bigSep Finset.univ fun s : Fin 72 => (reached ER (sendCell c s) 0 : sProp 𝕄)) ⊢ reached ER (sendCell c s) 0 :=
  bigSep_elim (Finset.mem_univ s)
end Elems

/-- The slot a device writes on neighbour `d` for layer and tile `lg`. -/
def written (d : Fin 6) (lg : Fin 3 × Fin 4) : Fin 72 := slotIx lg.1 (rndTo d) lg.2 (psTo d)

/-- Every copy is addressed to exactly one neighbour. -/
def writtenEquiv : Fin 6 × (Fin 3 × Fin 4) ≃ Fin 72 where
  toFun x := written x.1 x.2
  invFun s := (sendTo (rndOf s) (psOf s), (lOf s, gOf s))
  left_inv := by intro x; revert x; decide
  right_inv := by intro s; revert s; decide

theorem dest_written (c : Dev nD) (x : Fin 6 × (Fin 3 × Fin 4)) : dest c (writtenEquiv x) = peer x.1 c := by
  revert x c; decide

/-- What the six neighbours' signals hand a device, slot by slot: for each of its copies, the landing slot it writes. -/
theorem got_eq (c : Dev nD) :
    (bigSep (Finset.univ : Finset (Fin 6)) (fun d => barPay (F := F) c d))
      = bigSep (Finset.univ : Finset (Fin 72)) (fun s => iprop(∃ f, slotPts (F := F) (dest c s) s f)) := by
  rw [bigSep_univ_equiv writtenEquiv (fun s => iprop(∃ f, slotPts (F := F) (dest c s) s f)), bigSep_univ_prod]
  refine bigSep_congr fun d _ => ?_
  unfold barPay
  refine bigSep_congr fun lg _ => ?_
  rw [dest_written c (d, lg)]
  rfl

end Cert.KernelIdeal.Hand

end
-- ==== Proof.Steps2.lean ====
/-
  The copy's rule over tiles and slots held at named values.
-/
import proofs.«900461_g7700000000000462_dist_mlpseq_tp1d_rep_rep_b64_d512_h1024_v7x_i16_f32_1_alg».proof.Proof.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

variable {α : Type} {Q : α → sProp (MT nD τ sig Unit (Elt F) ℕ UU ℕ)} (c : Dev nD)

/-- A copy of a row tile held (at the copy's share) at the value the schedule says the copy carries, into a landing slot of
    the addressed neighbour held at some contents. -/
theorem wp_copy' (s : Fin 72) (n : Dev nD) (hn : n = dest c s)
    {hsc : (slotM s : Memref sig (Dev.tc n : Thread nD τ).2.kind .vmem S16x512 .f32).view.ref.isScScratch = false}
    {hsrc : (accM (gOf s)).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α} {κ₁ κ₂ : ℕ}
    {O₁ : CellTallies nD τ sig Unit} (O : CellTallies nD τ sig Unit) (hO : O₁ = O + tallyAt (recvCell (dest c s) s) () Ncp) {W : Waits sig Unit} :
    iprop(cellInv ER (exRd B) κ₁ (sendCell c s) ∗ cellInv ER (exRd B) κ₂ (recvCell (dest c s) s)
        ∗ accAt c (gOf s) (shareOf (psOf s)) (sentV B (lOf s) (rndOf s) c (gOf s)) ∗ (∃ fd, slotPts (F := F) (dest c s) s fd)
        ∗ owes (c : Thread nD τ) O₁ W
        ∗ dutyTok ER (sendCell c s) 0 (0 : Fin 6) ∗ reached ER (sendCell c s) 0
        ∗ dutyTok ER (recvCell (dest c s) s) 0 (0 : Fin 6) ∗ reached ER (recvCell (dest c s) s) 0)
      ⊢ iprop(((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM (gOf s)) (.remote (Dev.tc n : Thread nD τ) (slotM s) (.dma (sendS s)) hsc) (.dma (recvS s)) hsrc hdst hsem) k) Q) := by
  unfold accAt owns
  iintro ⟨#HI1, #HI2, ⟨%fs, %hv, Hs⟩, ⟨%fd, Hd⟩, HO, Ht1, #Hr1, Ht2, #Hr2⟩ Hk
  iapply (wp_copy B c s n hn fs fd hv O hO) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The copy's rule with the slot's layer, round, tile and peer slot spelt out. -/
theorem wp_copyAt (s : Fin 72) (l : Fin 3) (rnd : Fin 2) (g : Fin 4) (ps : Fin 3)
    (hl : lOf s = l) (hr : rndOf s = rnd) (hg : gOf s = g) (hp : psOf s = ps) (n : Dev nD) (hn : n = dest c s)
    {hsc : (slotM s : Memref sig (Dev.tc n : Thread nD τ).2.kind .vmem S16x512 .f32).view.ref.isScScratch = false}
    {hsrc : (accM g).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α} {κ₁ κ₂ : ℕ}
    {O₁ : CellTallies nD τ sig Unit} (O : CellTallies nD τ sig Unit) (hO : O₁ = O + tallyAt (recvCell (dest c s) s) () Ncp) {W : Waits sig Unit} :
    iprop(cellInv ER (exRd B) κ₁ (sendCell c s) ∗ cellInv ER (exRd B) κ₂ (recvCell (dest c s) s)
        ∗ accAt c g (shareOf ps) (sentV B l rnd c g) ∗ (∃ fd, slotPts (F := F) (dest c s) s fd)
        ∗ owes (c : Thread nD τ) O₁ W
        ∗ dutyTok ER (sendCell c s) 0 (0 : Fin 6) ∗ reached ER (sendCell c s) 0
        ∗ dutyTok ER (recvCell (dest c s) s) 0 (0 : Fin 6) ∗ reached ER (recvCell (dest c s) s) 0)
      ⊢ iprop(((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM g) (.remote (Dev.tc n : Thread nD τ) (slotM s) (.dma (sendS s)) hsc) (.dma (recvS s)) hsrc hdst hsem) k) Q) := by
  subst hl hr hg hp
  exact wp_copy' B c s n hn O hO

/-- The departure wait's rule, the returned share spelt out. -/
theorem wp_sendwaitAt (s : Fin 72) (l : Fin 3) (rnd : Fin 2) (g : Fin 4) (ps : Fin 3)
    (hl : lOf s = l) (hr : rndOf s = rnd) (hg : gOf s = g) (hp : psOf s = ps)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (sendCell c s) ∗ cred (tallyAt (sendCell c s) () Ncp) ∗ owes (c : Thread nD τ) O W
        ∗ MayWait (c : Thread nD τ) (.dma (sendS s)) () O ∗ atPos ER (sendCell c s) 0 ∅ 0)
      ⊢ iprop(((owes (c : Thread nD τ) O (insert (SemLoc.dma (sendS s), ()) W) ∗ atPos ER (sendCell c s) 1 ∅ 0 ∗ reached ER (sendCell c s) 1
              ∗ accAt c g (shareOf ps) (sentV B l rnd c g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  subst hl hr hg hp
  exact wp_sendwait B c s hd

/-- The arrival wait's rule, the landed tile spelt out: it is what neighbour `j` sent. -/
theorem wp_recvwaitAt (s : Fin 72) (l : Fin 3) (rnd : Fin 2) (g : Fin 4) (j : Fin 6)
    (hl : lOf s = l) (hr : rndOf s = rnd) (hg : gOf s = g) (hj : recvFrom (rndOf s) (psOf s) = j)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (recvCell c s) ∗ cred (tallyAt (recvCell c s) () Ncp) ∗ owes (c : Thread nD τ) O W
        ∗ MayWait (c : Thread nD τ) (.dma (recvS s)) () O ∗ atPos ER (recvCell c s) 0 ∅ 0)
      ⊢ iprop(((owes (c : Thread nD τ) O (insert (SemLoc.dma (recvS s), ()) W) ∗ atPos ER (recvCell c s) 1 ∅ 0 ∗ reached ER (recvCell c s) 1
              ∗ slotAt c s (sentV B l rnd (peer j c) g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  subst hl hr hg hj
  exact wp_recvwait B c s hd

end Cert.KernelIdeal.Hand

end
-- ==== Proof.Exit.lean ====
/-
  Leaving the kernel: every copy cell of the device has been consumed to the end of its one round, so it can be closed and
  its counter taken out at zero.
-/
import proofs.«900461_g7700000000000462_dist_mlpseq_tp1d_rep_rep_b64_d512_h1024_v7x_i16_f32_1_alg».proof.Proof.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

theorem close_send (KS : Dev nD → Fin 72 → ℕ) (c : Dev nD) :
    iprop((bigSep Finset.univ fun s : Fin 72 => cellInv ER (exRd B) (KS c s) (sendCell c s))
        ∗ bigSep Finset.univ fun s : Fin 72 => atPos ER (sendCell c s) 1 ∅ 0)
      ⊢ (|={Set.univ}=> bigSep Finset.univ fun s : Fin 72 => semVal (sendCell c s) 0 : sProp 𝕄) := by
  rw [← bigSep_sep']
  exact (bigSep_mono fun s _ => Rounds.cell_close ER (exRd B) (Set.mem_univ _) (fun h => h) (R := 1) (duties_later B (sendCell c s))).trans
    (bigSep_fupd _ _)

theorem close_recv (KR : Dev nD → Fin 72 → ℕ) (c : Dev nD) :
    iprop((bigSep Finset.univ fun s : Fin 72 => cellInv ER (exRd B) (KR c s) (recvCell c s))
        ∗ bigSep Finset.univ fun s : Fin 72 => atPos ER (recvCell c s) 1 ∅ 0)
      ⊢ (|={Set.univ}=> bigSep Finset.univ fun s : Fin 72 => semVal (recvCell c s) 0 : sProp 𝕄) := by
  rw [← bigSep_sep']
  exact (bigSep_mono fun s _ => Rounds.cell_close ER (exRd B) (Set.mem_univ _) (fun h => h) (R := 1) (duties_later B (recvCell c s))).trans
    (bigSep_fupd _ _)

end Cert.KernelIdeal.Hand

end
-- ==== Proof.Values.lean ====
/-
  The vectors the body stores, as values of the specification: a shape cast there and back is the identity, so a tile stored
  as a 1 × 16 × 512 vector and read back as 16 × 512 is the tile; the sum stored by a wait-and-add step is the four tiles
  added in order; the vector stored by a layer's compute step is the layer's partial sum of the tile it read.
-/
import proofs.«900461_g7700000000000462_dist_mlpseq_tp1d_rep_rep_b64_d512_h1024_v7x_i16_f32_1_alg».proof.Proof.Spec
import Idealize.ShloMosaic.Lib.Pipeline.Value

noncomputable section

namespace Cert.KernelIdeal.Hand

open Cert.KernelIdeal Cert.KernelIdeal.Gen
open Idealize.ShloMosaic

variable {F : FTy → Type} [FloatOps F]

abbrev sc (v : Vec F S1x16x512 .f32) : FVec F S16x512 .f32 := shapeCast S16x512 v shapeCasts_S1x16x512_S16x512

theorem cast_round (X : FVec F S16x512 .f32) :
    shapeCast S16x512 (shapeCast S1x16x512 X shapeCasts_S16x512_S1x16x512) shapeCasts_S1x16x512_S16x512 = X :=
  shapeCast_shapeCast X _ _

/-- The wait-and-add step's store: own tile plus the three landed tiles, in slot order. -/
theorem sum_payload (va v0 v1 v2 : Vec F S1x16x512 .f32) (A B C D : FVec F S16x512 .f32)
    (ha : sc va = A) (h0 : sc v0 = B) (h1 : sc v1 = C) (h2 : sc v2 = D) :
    shapeCast S16x512 (shapeCast S1x16x512 (addf (addf (addf (sc va) (sc v0)) (sc v1)) (sc v2)) shapeCasts_S16x512_S1x16x512)
      shapeCasts_S1x16x512_S16x512 = sum4 A B C D := by
  rw [cast_round, ha, h0, h1, h2]; rfl

/-- The first layer's compute step: the tile of the staged input through the layer. -/
theorem mlp_payload0 (vx : Vec F S16x512 .f32) (wi : Vec F S512x1024 .f32) (wo : Vec F S1024x512 .f32) (X : FVec F S16x512 .f32)
    (hx : shapeCast S16x512 vx shapeCasts_S16x512_S16x512 = X) :
    shapeCast S16x512 (shapeCast S1x16x512 (mlp (shapeCast S16x512 vx shapeCasts_S16x512_S16x512) wi wo) shapeCasts_S16x512_S1x16x512)
      shapeCasts_S1x16x512_S16x512 = mlp X wi wo := by
  rw [cast_round, hx]

/-- A later layer's compute step: the accumulator's tile through the layer. -/
theorem mlp_payload1 (vx : Vec F S1x16x512 .f32) (wi : Vec F S512x1024 .f32) (wo : Vec F S1024x512 .f32) (X : FVec F S16x512 .f32)
    (hx : sc vx = X) :
    shapeCast S16x512 (shapeCast S1x16x512 (mlp (sc vx) wi wo) shapeCasts_S16x512_S1x16x512)
      shapeCasts_S1x16x512_S16x512 = mlp X wi wo := by
  rw [cast_round, hx]

end Cert.KernelIdeal.Hand

end
-- ==== Proof.Glue.lean ====
/-
  Small facts the body's steps use: a tile or slot held at a value is held at any equal value; the program-order slot of a
  copy lies in the copy's issue group; a wait for an arrival is allowed once the arrival's issue group has been issued.
-/
import proofs.«900461_g7700000000000462_dist_mlpseq_tp1d_rep_rep_b64_d512_h1024_v7x_i16_f32_1_alg».proof.Proof.Levels
import proofs.«900461_g7700000000000462_dist_mlpseq_tp1d_rep_rep_b64_d512_h1024_v7x_i16_f32_1_alg».proof.Proof.Values

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem accAt_congr (c : Dev nD) (g : Fin 4) (q : PosShare TreeShare) {V V' : FVec F S16x512 .f32} (h : V = V') :
    (accAt c g q V : sProp 𝕄) ⊢ accAt c g q V' := by subst h; exact .rfl
omit [FloatOps F] in
theorem slotAt_congr (c : Dev nD) (s : Fin 72) {V V' : FVec F S16x512 .f32} (h : V = V') :
    (slotAt c s V : sProp 𝕄) ⊢ slotAt c s V' := by subst h; exact .rfl

theorem progSlot_div (i : ℕ) (hi : i < 72) : (progSlot i).val / 3 = i / 3 := by
  unfold progSlot
  show (3 * (i / 3) + (2 - i % 3)) % 72 / 3 = i / 3
  omega

theorem mayWait_recv' (c : Dev nD) (s : Fin 72) (n : ℕ) (hn : n ≤ 72) (hK : s.val / 3 < (72 - n) / 3) :
    (levAts L lv : sProp 𝕄) ⊢ MayWait (c : Thread nD τ) (.dma (recvS s)) () (owedRev c n) :=
  mayWait_recv c s n hn fun i h1 h2 => by
    rw [progSlot_div i h2]
    have := Nat.div_le_div_right (c := 3) h1
    omega

end Cert.KernelIdeal.Hand

end
-- ==== Proof.Local.lean ====
/-
  The body's local statements as rules. The accumulator scratch is its four row tiles and the landing scratch its
  seventy-two slots: a whole buffer held at some contents is each part held at some contents, and back; a tile held at
  the full share is the tile held at the three shares its three copies borrow. A load of a tile or of a slot reads, shape
  cast, what the part is owned at; a store of a tile leaves the part owned at the stored vector. The staged input is read
  row tile by row tile, and the staged result is written so.
-/
import proofs.«900461_g7700000000000462_dist_mlpseq_tp1d_rep_rep_b64_d512_h1024_v7x_i16_f32_1_alg».proof.Proof.Steps
import proofs.«900461_g7700000000000462_dist_mlpseq_tp1d_rep_rep_b64_d512_h1024_v7x_i16_f32_1_alg».proof.Proof.Slots
import Idealize.ShloMosaic.Lib.StableHlo.CollectiveRules
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The accumulator is its four row tiles, the landing buffer its seventy-two slots -/

theorem acc_cover : (Finset.univ : Finset S4x16x512.Idx) = (Finset.univ : Finset (Fin 4)).biUnion fun g => (accM g).view.set := by
  ext i
  constructor
  · intro _; exact Finset.mem_biUnion.mpr ⟨⟨(i 0).val, (i 0).isLt⟩, Finset.mem_univ _, (mem_acc _ i).mpr rfl⟩
  · intro _; exact Finset.mem_univ _
theorem acc_disjoint (g g' : Fin 4) (h : g ≠ g') : Disjoint (accM g).view.set (accM g').view.set :=
  Finset.disjoint_left.mpr fun i hi hi' => h (Fin.ext (by rw [mem_acc] at hi hi'; omega))

omit [FloatOps F] in
/-- The whole accumulator at contents `f` is each of its row tiles at `f`. -/
theorem acc_eq (c : Dev nD) (f : Buf (Elt F) ((c : Thread nD τ).loc cc0_scratch0)) :
    ((((c : Thread nD τ).loc cc0_scratch0) ↦{fullShare} f) : sProp 𝕄) = bigSep (Finset.univ : Finset (Fin 4)) fun g => accPts c g fullShare f := by
  show (((c : Thread nD τ).loc cc0_scratch0) ↦[(Finset.univ : Finset S4x16x512.Idx)]{fullShare} f) = _
  rw [acc_cover]
  exact pointsTo_biUnion _ _ fun g _ g' _ h => acc_disjoint g g' h

omit [FloatOps F] in
theorem acc_pts_intro (c : Dev nD) (g : Fin 4) (q : PosShare TreeShare) (f : Buf (Elt F) ((c : Thread nD τ).loc cc0_scratch0)) :
    (accPts c g q f : sProp 𝕄) ⊢ iprop(∃ V, accAt c g q V) := by
  iintro H
  iexists ((accM g).view.read (Elt F) f)
  unfold accAt
  iapply (owns_intro (c : Thread nD τ) (accM g) q f)
  iexact H
omit [FloatOps F] in
theorem acc_pts_elim (c : Dev nD) (g : Fin 4) (q : PosShare TreeShare) :
    (iprop(∃ V, accAt c g q V) : sProp 𝕄) ⊢ iprop(∃ f : Buf (Elt F) ((c : Thread nD τ).loc cc0_scratch0), accPts c g q f) := by
  unfold accAt owns
  iintro ⟨%V, %f, -, H⟩
  iexists f
  iexact H
omit [FloatOps F] in
theorem slot_pts_elim (c : Dev nD) (s : Fin 72) :
    (iprop(∃ V, slotAt c s V) : sProp 𝕄) ⊢ iprop(∃ f : Buf (Elt F) ((c : Thread nD τ).loc cc0_scratch1), slotPts c s f) := by
  unfold slotAt owns
  iintro ⟨%V, %f, -, H⟩
  iexists f
  iexact H

omit [FloatOps F] in
theorem acc_pts_elim_all (c : Dev nD) :
    (bigSep Finset.univ fun g : Fin 4 => iprop(∃ V, accAt c g fullShare V) : sProp 𝕄)
      ⊢ bigSep Finset.univ fun g : Fin 4 => iprop(∃ f : Buf (Elt F) ((c : Thread nD τ).loc cc0_scratch0), accPts c g fullShare f) :=
  bigSep_mono fun g _ => acc_pts_elim c g fullShare
omit [FloatOps F] in
theorem slot_pts_elim_all (c : Dev nD) :
    (bigSep Finset.univ fun s : Fin 72 => iprop(∃ V, slotAt c s V) : sProp 𝕄)
      ⊢ bigSep Finset.univ fun s : Fin 72 => iprop(∃ f : Buf (Elt F) ((c : Thread nD τ).loc cc0_scratch1), slotPts c s f) :=
  bigSep_mono fun s _ => slot_pts_elim c s

omit [FloatOps F] in
/-- A device entering the kernel splits its accumulator into its four row tiles, each at some contents. -/
theorem acc_split (c : Dev nD) :
    (iprop(∃ f : Buf (Elt F) ((c : Thread nD τ).loc cc0_scratch0), ((c : Thread nD τ).loc cc0_scratch0) ↦{fullShare} f) : sProp 𝕄)
      ⊢ bigSep Finset.univ fun g : Fin 4 => iprop(∃ V, accAt c g fullShare V) := by
  iintro ⟨%f, H⟩
  iapply ((Entails.of_eq (acc_eq c f)).trans (bigSep_mono fun g _ => acc_pts_intro c g fullShare f)) $$ H

/-- Four row tiles, each at some contents, are the whole accumulator at some contents. -/
theorem acc_join (c : Dev nD) :
    (bigSep Finset.univ fun g : Fin 4 => iprop(∃ V, accAt c g fullShare V) : sProp 𝕄)
      ⊢ iprop(∃ f : Buf (Elt F) ((c : Thread nD τ).loc cc0_scratch0), ((c : Thread nD τ).loc cc0_scratch0) ↦{fullShare} f) := by
  iintro H
  ihave H1 := (acc_pts_elim_all (F := F) c) $$ H
  ihave H2 := (bigSep_exists_pi Finset.univ (fun (g : Fin 4) (f : Buf (Elt F) ((c : Thread nD τ).loc cc0_scratch0)) => (accPts c g fullShare f : sProp 𝕄))) $$ H1
  icases H2 with ⟨%fs, H2⟩
  ihave H3 := (pointsTo_biUnion_join (Finset.univ : Finset (Fin 4)) (fun g => (accM g).view.set) fs (fs 0)
    fun g _ g' _ h => acc_disjoint g g' h) $$ H2
  icases H3 with ⟨%f, -, H3⟩
  iexists f
  iapply (Entails.of_eq (show ((((c : Thread nD τ).loc cc0_scratch0) ↦[(Finset.univ : Finset (Fin 4)).biUnion fun g => (accM g).view.set]{fullShare} f) : sProp 𝕄)
      = (((c : Thread nD τ).loc cc0_scratch0) ↦{fullShare} f) from by rw [← acc_cover]))
  iexact H3

/-- Seventy-two slots, each at some contents, are the whole landing buffer at some contents. -/
theorem slots_join (c : Dev nD) :
    (bigSep Finset.univ fun s : Fin 72 => iprop(∃ V, slotAt c s V) : sProp 𝕄)
      ⊢ iprop(∃ f : Buf (Elt F) ((c : Thread nD τ).loc cc0_scratch1), ((c : Thread nD τ).loc cc0_scratch1) ↦{fullShare} f) := by
  iintro H
  ihave H1 := (slot_pts_elim_all (F := F) c) $$ H
  ihave H2 := (bigSep_exists_pi Finset.univ (fun (s : Fin 72) (f : Buf (Elt F) ((c : Thread nD τ).loc cc0_scratch1)) => (slotPts c s f : sProp 𝕄))) $$ H1
  icases H2 with ⟨%fs, H2⟩
  ihave H3 := (pointsTo_biUnion_join (Finset.univ : Finset (Fin 72)) (fun s => (slotM s).view.set) fs (fs 0)
    fun s _ s' _ h => slots_disjoint s s' h) $$ H2
  icases H3 with ⟨%f, -, H3⟩
  iexists f
  iapply (Entails.of_eq (show ((((c : Thread nD τ).loc cc0_scratch1) ↦[(Finset.univ : Finset (Fin 72)).biUnion fun s => (slotM s).view.set]{fullShare} f) : sProp 𝕄)
      = (((c : Thread nD τ).loc cc0_scratch1) ↦{fullShare} f) from by rw [← slots_cover]))
  iexact H3

/-! ## The three shares of a row tile -/

omit [FloatOps F] in
/-- A row tile held whole is the tile held at the three shares its three copies borrow, at the same contents. -/
theorem acc_shares (c : Dev nD) (g : Fin 4) (V : FVec F S16x512 .f32) :
    (accAt c g fullShare V : sProp 𝕄) ⊣⊢ iprop(accAt c g (shareOf 0) V ∗ accAt c g (shareOf 1) V ∗ accAt c g (shareOf 2) V) := by
  unfold accAt
  have h1 := owns_share (Val := Elt F) (Ix := Unit) (Name := ℕ) (U := UU) (Lvl := ℕ) (c : Thread nD τ) (accM g) (PosShare.mem_left_op_right fullShare) V
  have h2 := owns_share (Val := Elt F) (Ix := Unit) (Name := ℕ) (U := UU) (Lvl := ℕ) (c : Thread nD τ) (accM g) (PosShare.mem_left_op_right fullShare.right) V
  exact ⟨h1.1.trans (sep_mono .rfl h2.1), (sep_mono .rfl h2.2).trans h1.2⟩

/-! ## Loads and stores of a row tile and of a landing slot -/

/-- The rectangle of row tile `g` in the accumulator, and of slot `s` in the landing buffer. -/
abbrev accR (g : Fin 4) : Rect S4x16x512 := Rect.unit (s := S4x16x512) ![g.val, 0, 0] S1x16x512.size (acc_inb g)
abbrev slotR (s : Fin 72) : Rect S72x16x512 := Rect.unit (s := S72x16x512) ![s.val, 0, 0] S1x16x512.size (slot_inb s)

/-- What a load or a store at a tile's rectangle touches is the tile. -/
theorem acc_setOn (g : Fin 4) :
    (Memref.whole cc0_scratch0 : Memref sig .tc .vmem S4x16x512 .f32).view.setOn (accR g).toLoadRect.set ⊆ (accM g).view.set := by
  intro i hi
  simp only [Memref.view_squeeze, Memref.view_slice, View.set_reshape, View.set_slice]
  exact hi
theorem slot_setOn (s : Fin 72) :
    (Memref.whole cc0_scratch1 : Memref sig .tc .vmem S72x16x512 .f32).view.setOn (slotR s).toLoadRect.set ⊆ (slotM s).view.set := by
  intro i hi
  simp only [Memref.view_squeeze, Memref.view_slice, View.set_reshape, View.set_slice]
  exact hi

section Rules

variable {α : Type} {Q : α → sProp (MT nD τ sig Unit (Elt F) ℕ UU ℕ)} (c : Dev nD)

/-- A load of row tile `g` of the accumulator, held at any share: the vector read is, shape cast, what the tile holds. -/
theorem wp_load_acc (g : Fin 4) (q : PosShare TreeShare) (V : FVec F S16x512 .f32)
    {hl : (Memref.whole cc0_scratch0 : Memref sig .tc .vmem S4x16x512 .f32).view.LoadsAt (accR g).toLoadRect}
    {k : Vec F S1x16x512 .f32 → Prog (TpuEff nD τ sig (Elt F) Λ₀ .tc) α} :
    accAt c g q V
      ⊢ iprop((∀ v : Vec F S1x16x512 .f32, ⌜shapeCast S16x512 v shapeCasts_S1x16x512_S16x512 = V⌝ -∗ accAt c g q V
              -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_scratch0) (accR g).toLoadRect hl) k) Q) := by
  unfold accAt owns
  iintro ⟨%f, %hf, H⟩ Hk
  iapply (wp_load 𝒱₀ (c : Thread nD τ) none Set.univ (m := (Memref.whole cc0_scratch0 : Memref sig .tc .vmem S4x16x512 .f32))
    (r := (accR g).toLoadRect) (S := (accM g).view.set) (q := q) (f := f) (acc_setOn g)) $$ H
  iintro H
  have hv : shapeCast S16x512 ((Memref.whole cc0_scratch0 : Memref sig .tc .vmem S4x16x512 .f32).view.readAt (Elt F) (accR g).toLoadRect f)
      shapeCasts_S1x16x512_S16x512 = V := hf
  iapply Hk $$ %_ %hv
  iexists f
  isplitr; · ipureintro; exact hf
  iexact H

/-- What a tile reads after a store through its rectangle: the stored vector, shape cast. -/
theorem acc_read_write (g : Fin 4) (f : Buf (Elt F) ((Memref.whole cc0_scratch0 : Memref sig .tc .vmem S4x16x512 .f32).view.loc (c : Thread nD τ)))
    (w : Vec F S1x16x512 .f32) :
    (accM g).view.read (Elt F) (((Memref.whole cc0_scratch0 : Memref sig .tc .vmem S4x16x512 .f32).access (accR g)).write (Elt F) f w Finset.univ)
      = shapeCast S16x512 w shapeCasts_S1x16x512_S16x512 := by
  show shapeCast S16x512 (((Memref.whole cc0_scratch0 : Memref sig .tc .vmem S4x16x512 .f32).access (accR g)).read (Elt F)
    (((Memref.whole cc0_scratch0 : Memref sig .tc .vmem S4x16x512 .f32).access (accR g)).write (Elt F) f w Finset.univ)) shapeCasts_S1x16x512_S16x512 = _
  rw [View.read_write_univ]

theorem acc_store_setOn (g : Fin 4) :
    ((Memref.whole cc0_scratch0 : Memref sig .tc .vmem S4x16x512 .f32).access (accR g)).setOn Finset.univ ⊆ (accM g).view.set := by
  intro i hi
  simp only [Memref.view_squeeze, Memref.view_slice, View.set_reshape]
  exact hi

/-- A store of a vector into row tile `g` of the accumulator, held whole: the tile then holds the vector, shape cast. -/
theorem wp_store_acc (g : Fin 4) (V : FVec F S16x512 .f32) (w : Vec F S1x16x512 .f32)
    {hx : ((Memref.whole cc0_scratch0 : Memref sig .tc .vmem S4x16x512 .f32).access (accR g)).Stores Finset.univ}
    {hm : (Finset.univ : Finset (accR g).shape.Idx) = Finset.univ ∨ ∀ a, (accR g).stride a = 1}
    {k : PUnit → Prog (TpuEff nD τ sig (Elt F) Λ₀ .tc) α} :
    accAt c g fullShare V
      ⊢ iprop((accAt c g fullShare (shapeCast S16x512 w shapeCasts_S1x16x512_S16x512)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch0) (accR g) w Finset.univ hx hm) k) Q) := by
  unfold accAt owns
  iintro ⟨%f, -, H⟩ Hk
  iapply (wp_store 𝒱₀ (c : Thread nD τ) none Set.univ (m := (Memref.whole cc0_scratch0 : Memref sig .tc .vmem S4x16x512 .f32))
    (r := accR g) (w := w) (Mk := Finset.univ) (S := (accM g).view.set) (f := f) (acc_store_setOn g)) $$ H
  iintro H
  iapply Hk
  iexists (((Memref.whole cc0_scratch0 : Memref sig .tc .vmem S4x16x512 .f32).access (accR g)).write (Elt F) f w Finset.univ)
  isplitr; · ipureintro; exact acc_read_write c g f w
  iexact H

/-- A load of landing slot `s`: the vector read is, shape cast, what the slot holds. -/
theorem wp_load_slot (s : Fin 72) (V : FVec F S16x512 .f32)
    {hl : (Memref.whole cc0_scratch1 : Memref sig .tc .vmem S72x16x512 .f32).view.LoadsAt (slotR s).toLoadRect}
    {k : Vec F S1x16x512 .f32 → Prog (TpuEff nD τ sig (Elt F) Λ₀ .tc) α} :
    slotAt c s V
      ⊢ iprop((∀ v : Vec F S1x16x512 .f32, ⌜shapeCast S16x512 v shapeCasts_S1x16x512_S16x512 = V⌝ -∗ slotAt c s V
              -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_scratch1) (slotR s).toLoadRect hl) k) Q) := by
  unfold slotAt owns
  iintro ⟨%f, %hf, H⟩ Hk
  iapply (wp_load 𝒱₀ (c : Thread nD τ) none Set.univ (m := (Memref.whole cc0_scratch1 : Memref sig .tc .vmem S72x16x512 .f32))
    (r := (slotR s).toLoadRect) (S := (slotM s).view.set) (q := fullShare) (f := f) (slot_setOn s)) $$ H
  iintro H
  have hv : shapeCast S16x512 ((Memref.whole cc0_scratch1 : Memref sig .tc .vmem S72x16x512 .f32).view.readAt (Elt F) (slotR s).toLoadRect f)
      shapeCasts_S1x16x512_S16x512 = V := hf
  iapply Hk $$ %_ %hv
  iexists f
  isplitr; · ipureintro; exact hf
  iexact H

/-! ## The staged input and the staged result, row tile by row tile -/

/-- The rectangle of rows `16·g … 16·g + 15` of a 64 × 512 array. -/
abbrev rowR (g : Fin 4) (inb : ∀ a, (![16 * g.val, 0] : Fin 2 → Nat) a + S16x512.size a ≤ S64x512.size a) : Rect S64x512 :=
  Rect.unit (s := S64x512) ![16 * g.val, 0] S16x512.size inb

/-- Rows `16·g … 16·g + 15` of an array. -/
def rowsOf (X : Vec F S64x512 .f32) (g : Fin 4) : Vec F S16x512 .f32 :=
  fun y => X (ValueIdx.ix2 ⟨16 * g.val + (y 0).val, by
    have := (y 0).isLt; have := g.isLt; have h16 : S16x512.size 0 = 16 := rfl; show _ < 64; omega⟩ (y 1))

/-- An array with its rows `16·g … 16·g + 15` replaced by a tile. -/
def putRows (Y : Vec F S64x512 .f32) (g : Fin 4) (w : Vec F S16x512 .f32) : Vec F S64x512 .f32 :=
  fun i => if (i 0).val / 16 = g.val then w (ValueIdx.ix2 ⟨(i 0).val % 16, Nat.mod_lt _ (by decide)⟩ (i 1)) else Y i

theorem putRows_of_eq (Y : Vec F S64x512 .f32) (g : Fin 4) (w : Vec F S16x512 .f32) (i : S64x512.Idx) (h : (i 0).val / 16 = g.val) :
    putRows Y g w i = w (ValueIdx.ix2 ⟨(i 0).val % 16, Nat.mod_lt _ (by decide)⟩ (i 1)) := by unfold putRows; rw [if_pos h]
theorem putRows_of_ne (Y : Vec F S64x512 .f32) (g : Fin 4) (w : Vec F S16x512 .f32) (i : S64x512.Idx) (h : (i 0).val / 16 ≠ g.val) :
    putRows Y g w i = Y i := by unfold putRows; rw [if_neg h]

/-- The rows of a device's copy of the input are its input tile. -/
theorem rowsOf_x (B : Blocks F) (c : Dev nD) (g : Fin 4) : rowsOf (B.x c) g = xTile B c g := rfl

/-- A load at a row tile's rectangle of the staged input reads the tile's rows. -/
theorem read_rows (g : Fin 4) (inb : ∀ a, (![16 * g.val, 0] : Fin 2 → Nat) a + S16x512.size a ≤ S64x512.size a) (X : Vec F S64x512 .f32) :
    (Memref.whole cc0_stg0_0 : Memref sig .tc .vmem S64x512 .f32).view.readAt (Elt F) (rowR g inb).toLoadRect X = rowsOf X g := by
  funext y
  show X ((rowR g inb).toLoadRect.idx y) = X _
  refine congrArg X (funext fun a => Fin.ext ?_)
  fin_cases a
  · show 16 * g.val + 1 * (y 0).val = 16 * g.val + (y 0).val
    rw [Nat.one_mul]
  · show 0 + 1 * (y 1).val = (y 1).val
    rw [Nat.one_mul, Nat.zero_add]

/-- A load of row tile `g` of the staged input: it reads the tile's rows. -/
theorem wp_load_x (g : Fin 4) (q : PosShare TreeShare) (X : Vec F S64x512 .f32)
    {inb : ∀ a, (![16 * g.val, 0] : Fin 2 → Nat) a + S16x512.size a ≤ S64x512.size a}
    {hl : (Memref.whole cc0_stg0_0 : Memref sig .tc .vmem S64x512 .f32).view.LoadsAt (rowR g inb).toLoadRect}
    {k : Vec F S16x512 .f32 → Prog (TpuEff nD τ sig (Elt F) Λ₀ .tc) α} :
    ((((c : Thread nD τ).loc cc0_stg0_0) ↦{q} X) : sProp 𝕄)
      ⊢ iprop((∀ v : Vec F S16x512 .f32, ⌜v = rowsOf X g⌝ -∗ (((c : Thread nD τ).loc cc0_stg0_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg0_0) (rowR g inb).toLoadRect hl) k) Q) := by
  iintro H Hk
  iapply (wp_load 𝒱₀ (c : Thread nD τ) none Set.univ (m := (Memref.whole cc0_stg0_0 : Memref sig .tc .vmem S64x512 .f32))
    (r := (rowR g inb).toLoadRect) (S := Finset.univ) (q := q) (f := X) (Finset.subset_univ _)) $$ H
  iintro H
  iapply Hk $$ %_ %(read_rows g inb X) H

/-- A load of row tile `g` of the staged result, whatever it reads. -/
theorem wp_load_out (g : Fin 4) (q : PosShare TreeShare) (Y : Vec F S64x512 .f32)
    {inb : ∀ a, (![16 * g.val, 0] : Fin 2 → Nat) a + S16x512.size a ≤ S64x512.size a}
    {hl : (Memref.whole cc0_stg7_0 : Memref sig .tc .vmem S64x512 .f32).view.LoadsAt (rowR g inb).toLoadRect}
    {k : Vec F S16x512 .f32 → Prog (TpuEff nD τ sig (Elt F) Λ₀ .tc) α} :
    ((((c : Thread nD τ).loc cc0_stg7_0) ↦{q} Y) : sProp 𝕄)
      ⊢ iprop((∀ v : Vec F S16x512 .f32, (((c : Thread nD τ).loc cc0_stg7_0) ↦{q} Y) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg7_0) (rowR g inb).toLoadRect hl) k) Q) := by
  iintro H Hk
  iapply (wp_load 𝒱₀ (c : Thread nD τ) none Set.univ (m := (Memref.whole cc0_stg7_0 : Memref sig .tc .vmem S64x512 .f32))
    (r := (rowR g inb).toLoadRect) (S := Finset.univ) (q := q) (f := Y) (Finset.subset_univ _)) $$ H
  iintro H
  iapply Hk $$ %_ H

/-- An element of a row tile's rectangle has its first coordinate in the tile. -/
theorem mem_rowR (g : Fin 4) (inb : ∀ a, (![16 * g.val, 0] : Fin 2 → Nat) a + S16x512.size a ≤ S64x512.size a) (i : S64x512.Idx) :
    i ∈ (rowR g inb).set ↔ (i 0).val / 16 = g.val := by
  rw [Rect.mem_set_unit]
  constructor
  · intro h; have := h 0; simp only [Matrix.cons_val_zero] at this
    have h16 : S16x512.size 0 = 16 := rfl
    omega
  · intro h a
    fin_cases a
    · simp only [Matrix.cons_val_zero]
      show 16 * g.val ≤ (i 0).val ∧ (i 0).val < 16 * g.val + 16
      omega
    · exact ⟨Nat.zero_le _, lt_of_lt_of_le (i 1).isLt (le_of_eq rfl)⟩

/-- A store at a row tile's rectangle of the staged result replaces the tile's rows. -/
theorem write_rows (g : Fin 4) (inb : ∀ a, (![16 * g.val, 0] : Fin 2 → Nat) a + S16x512.size a ≤ S64x512.size a)
    (Y : Vec F S64x512 .f32) (w : Vec F S16x512 .f32) :
    ((Memref.whole cc0_stg7_0 : Memref sig .tc .vmem S64x512 .f32).access (rowR g inb)).write (Elt F) Y w Finset.univ = putRows Y g w := by
  funext i
  by_cases hi : (i 0).val / 16 = g.val
  · have hx : ((Memref.whole cc0_stg7_0 : Memref sig .tc .vmem S64x512 .f32).access (rowR g inb)).emb
        (ValueIdx.ix2 ⟨(i 0).val % 16, Nat.mod_lt _ (by decide)⟩ (i 1)) = i := by
      funext a
      refine Fin.ext ?_
      fin_cases a
      · show 16 * g.val + 1 * ((i 0).val % 16) = (i 0).val
        omega
      · show 0 + 1 * (i 1).val = (i 1).val
        omega
    rw [putRows_of_eq Y g w i hi]
    conv_lhs => rw [← hx]
    rw [View.write_emb_of_mem _ _ (Finset.mem_univ _)]
    rfl
  · rw [putRows_of_ne Y g w i hi]
    refine View.write_of_not_mem _ _ _ (fun hm => hi ?_)
    rw [View.setOn_univ, View.set_slice] at hm
    obtain ⟨x, hx, rfl⟩ := Finset.mem_map.mp hm
    exact (mem_rowR g inb x).mp hx

/-- A store of a tile into rows `16·g … 16·g + 15` of the staged result. -/
theorem wp_store_out (g : Fin 4) (Y : Vec F S64x512 .f32) (w : Vec F S16x512 .f32)
    {inb : ∀ a, (![16 * g.val, 0] : Fin 2 → Nat) a + S16x512.size a ≤ S64x512.size a}
    {hx : ((Memref.whole cc0_stg7_0 : Memref sig .tc .vmem S64x512 .f32).access (rowR g inb)).Stores Finset.univ}
    {hm : (Finset.univ : Finset (rowR g inb).shape.Idx) = Finset.univ ∨ ∀ a, (rowR g inb).stride a = 1}
    {k : PUnit → Prog (TpuEff nD τ sig (Elt F) Λ₀ .tc) α} :
    ((((c : Thread nD τ).loc cc0_stg7_0) ↦{fullShare} Y) : sProp 𝕄)
      ⊢ iprop(((((c : Thread nD τ).loc cc0_stg7_0) ↦{fullShare} putRows Y g w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg7_0) (rowR g inb) w Finset.univ hx hm) k) Q) := by
  iintro H Hk
  iapply (wp_store 𝒱₀ (c : Thread nD τ) none Set.univ (m := (Memref.whole cc0_stg7_0 : Memref sig .tc .vmem S64x512 .f32))
    (r := rowR g inb) (w := w) (Mk := Finset.univ) (S := Finset.univ) (f := Y) (Finset.subset_univ _)) $$ H
  iintro H
  iapply Hk
  rw [write_rows g inb Y w]
  iexact H

/-- After the four stores of the third layer's output tiles the staged result is the result array. -/
theorem putRows_result (B : Blocks F) (Y : Vec F S64x512 .f32) :
    putRows (putRows (putRows (putRows Y 0 (x3 B c 0)) 1 (x3 B c 1)) 2 (x3 B c 2)) 3 (x3 B c 3) = result B c := by
  funext i
  have h64 : (i 0).val < 64 := (i 0).isLt
  have hres : ∀ g : Fin 4, (i 0).val / 16 = g.val →
      result B c i = x3 B c g (ValueIdx.ix2 ⟨(i 0).val % 16, Nat.mod_lt _ (by decide)⟩ (i 1)) := fun g hg => by
    have e : (⟨(i 0).val / 16, by omega⟩ : Fin 4) = g := Fin.ext hg
    show x3 B c ⟨(i 0).val / 16, _⟩ _ = _
    rw [e]
  have h4 : (i 0).val / 16 = 0 ∨ (i 0).val / 16 = 1 ∨ (i 0).val / 16 = 2 ∨ (i 0).val / 16 = 3 := by omega
  rcases h4 with h | h | h | h
  · rw [putRows_of_ne _ 3 _ i (by rw [h]; decide), putRows_of_ne _ 2 _ i (by rw [h]; decide), putRows_of_ne _ 1 _ i (by rw [h]; decide),
      putRows_of_eq _ 0 _ i h, hres 0 h]
  · rw [putRows_of_ne _ 3 _ i (by rw [h]; decide), putRows_of_ne _ 2 _ i (by rw [h]; decide), putRows_of_eq _ 1 _ i h, hres 1 h]
  · rw [putRows_of_ne _ 3 _ i (by rw [h]; decide), putRows_of_eq _ 2 _ i h, hres 2 h]
  · rw [putRows_of_eq _ 3 _ i h, hres 3 h]

/-! ## The weight windows, loaded whole -/

/-- A load of the whole staged window 1: it reads the window's contents. -/
theorem wp_load_w1 (q : PosShare TreeShare) (X : Vec F S512x1024 .f32) {inb : ∀ a, (![0, 0] : Fin 2 → Nat) a + S512x1024.size a ≤ S512x1024.size a}
    {hl : (Memref.whole cc0_stg1_0 : Memref sig .tc .vmem S512x1024 .f32).view.LoadsAt (Rect.unit (s := S512x1024) ![0, 0] S512x1024.size inb).toLoadRect}
    {k : Vec F S512x1024 .f32 → Prog (TpuEff nD τ sig (Elt F) Λ₀ .tc) α} :
    ((((c : Thread nD τ).loc cc0_stg1_0) ↦{q} X) : sProp 𝕄)
      ⊢ iprop((∀ v : Vec F S512x1024 .f32, ⌜v = X⌝ -∗ (((c : Thread nD τ).loc cc0_stg1_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg1_0) (Rect.unit (s := S512x1024) ![0, 0] S512x1024.size inb).toLoadRect hl) k) Q) := by
  iintro H Hk
  iapply (wp_load 𝒱₀ (c : Thread nD τ) none Set.univ (m := (Memref.whole cc0_stg1_0 : Memref sig .tc .vmem S512x1024 .f32))
    (r := (Rect.unit (s := S512x1024) ![0, 0] S512x1024.size inb).toLoadRect) (S := Finset.univ) (q := q) (f := X) (Finset.subset_univ _)) $$ H
  iintro H
  have hv : (Memref.whole cc0_stg1_0 : Memref sig .tc .vmem S512x1024 .f32).view.readAt (Elt F) (Rect.unit (s := S512x1024) ![0, 0] S512x1024.size inb).toLoadRect X = X :=
    Memref.readAt_unit_zero (Elt F) cc0_stg1_0 (funext fun a => by fin_cases a <;> rfl) inb X
  iapply Hk $$ %_ %hv H

/-- A load of the whole staged window 2: it reads the window's contents. -/
theorem wp_load_w2 (q : PosShare TreeShare) (X : Vec F S1024x512 .f32) {inb : ∀ a, (![0, 0] : Fin 2 → Nat) a + S1024x512.size a ≤ S1024x512.size a}
    {hl : (Memref.whole cc0_stg2_0 : Memref sig .tc .vmem S1024x512 .f32).view.LoadsAt (Rect.unit (s := S1024x512) ![0, 0] S1024x512.size inb).toLoadRect}
    {k : Vec F S1024x512 .f32 → Prog (TpuEff nD τ sig (Elt F) Λ₀ .tc) α} :
    ((((c : Thread nD τ).loc cc0_stg2_0) ↦{q} X) : sProp 𝕄)
      ⊢ iprop((∀ v : Vec F S1024x512 .f32, ⌜v = X⌝ -∗ (((c : Thread nD τ).loc cc0_stg2_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg2_0) (Rect.unit (s := S1024x512) ![0, 0] S1024x512.size inb).toLoadRect hl) k) Q) := by
  iintro H Hk
  iapply (wp_load 𝒱₀ (c : Thread nD τ) none Set.univ (m := (Memref.whole cc0_stg2_0 : Memref sig .tc .vmem S1024x512 .f32))
    (r := (Rect.unit (s := S1024x512) ![0, 0] S1024x512.size inb).toLoadRect) (S := Finset.univ) (q := q) (f := X) (Finset.subset_univ _)) $$ H
  iintro H
  have hv : (Memref.whole cc0_stg2_0 : Memref sig .tc .vmem S1024x512 .f32).view.readAt (Elt F) (Rect.unit (s := S1024x512) ![0, 0] S1024x512.size inb).toLoadRect X = X :=
    Memref.readAt_unit_zero (Elt F) cc0_stg2_0 (funext fun a => by fin_cases a <;> rfl) inb X
  iapply Hk $$ %_ %hv H

/-- A load of the whole staged window 3: it reads the window's contents. -/
theorem wp_load_w3 (q : PosShare TreeShare) (X : Vec F S512x1024 .f32) {inb : ∀ a, (![0, 0] : Fin 2 → Nat) a + S512x1024.size a ≤ S512x1024.size a}
    {hl : (Memref.whole cc0_stg3_0 : Memref sig .tc .vmem S512x1024 .f32).view.LoadsAt (Rect.unit (s := S512x1024) ![0, 0] S512x1024.size inb).toLoadRect}
    {k : Vec F S512x1024 .f32 → Prog (TpuEff nD τ sig (Elt F) Λ₀ .tc) α} :
    ((((c : Thread nD τ).loc cc0_stg3_0) ↦{q} X) : sProp 𝕄)
      ⊢ iprop((∀ v : Vec F S512x1024 .f32, ⌜v = X⌝ -∗ (((c : Thread nD τ).loc cc0_stg3_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg3_0) (Rect.unit (s := S512x1024) ![0, 0] S512x1024.size inb).toLoadRect hl) k) Q) := by
  iintro H Hk
  iapply (wp_load 𝒱₀ (c : Thread nD τ) none Set.univ (m := (Memref.whole cc0_stg3_0 : Memref sig .tc .vmem S512x1024 .f32))
    (r := (Rect.unit (s := S512x1024) ![0, 0] S512x1024.size inb).toLoadRect) (S := Finset.univ) (q := q) (f := X) (Finset.subset_univ _)) $$ H
  iintro H
  have hv : (Memref.whole cc0_stg3_0 : Memref sig .tc .vmem S512x1024 .f32).view.readAt (Elt F) (Rect.unit (s := S512x1024) ![0, 0] S512x1024.size inb).toLoadRect X = X :=
    Memref.readAt_unit_zero (Elt F) cc0_stg3_0 (funext fun a => by fin_cases a <;> rfl) inb X
  iapply Hk $$ %_ %hv H

/-- A load of the whole staged window 4: it reads the window's contents. -/
theorem wp_load_w4 (q : PosShare TreeShare) (X : Vec F S1024x512 .f32) {inb : ∀ a, (![0, 0] : Fin 2 → Nat) a + S1024x512.size a ≤ S1024x512.size a}
    {hl : (Memref.whole cc0_stg4_0 : Memref sig .tc .vmem S1024x512 .f32).view.LoadsAt (Rect.unit (s := S1024x512) ![0, 0] S1024x512.size inb).toLoadRect}
    {k : Vec F S1024x512 .f32 → Prog (TpuEff nD τ sig (Elt F) Λ₀ .tc) α} :
    ((((c : Thread nD τ).loc cc0_stg4_0) ↦{q} X) : sProp 𝕄)
      ⊢ iprop((∀ v : Vec F S1024x512 .f32, ⌜v = X⌝ -∗ (((c : Thread nD τ).loc cc0_stg4_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg4_0) (Rect.unit (s := S1024x512) ![0, 0] S1024x512.size inb).toLoadRect hl) k) Q) := by
  iintro H Hk
  iapply (wp_load 𝒱₀ (c : Thread nD τ) none Set.univ (m := (Memref.whole cc0_stg4_0 : Memref sig .tc .vmem S1024x512 .f32))
    (r := (Rect.unit (s := S1024x512) ![0, 0] S1024x512.size inb).toLoadRect) (S := Finset.univ) (q := q) (f := X) (Finset.subset_univ _)) $$ H
  iintro H
  have hv : (Memref.whole cc0_stg4_0 : Memref sig .tc .vmem S1024x512 .f32).view.readAt (Elt F) (Rect.unit (s := S1024x512) ![0, 0] S1024x512.size inb).toLoadRect X = X :=
    Memref.readAt_unit_zero (Elt F) cc0_stg4_0 (funext fun a => by fin_cases a <;> rfl) inb X
  iapply Hk $$ %_ %hv H

/-- A load of the whole staged window 5: it reads the window's contents. -/
theorem wp_load_w5 (q : PosShare TreeShare) (X : Vec F S512x1024 .f32) {inb : ∀ a, (![0, 0] : Fin 2 → Nat) a + S512x1024.size a ≤ S512x1024.size a}
    {hl : (Memref.whole cc0_stg5_0 : Memref sig .tc .vmem S512x1024 .f32).view.LoadsAt (Rect.unit (s := S512x1024) ![0, 0] S512x1024.size inb).toLoadRect}
    {k : Vec F S512x1024 .f32 → Prog (TpuEff nD τ sig (Elt F) Λ₀ .tc) α} :
    ((((c : Thread nD τ).loc cc0_stg5_0) ↦{q} X) : sProp 𝕄)
      ⊢ iprop((∀ v : Vec F S512x1024 .f32, ⌜v = X⌝ -∗ (((c : Thread nD τ).loc cc0_stg5_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg5_0) (Rect.unit (s := S512x1024) ![0, 0] S512x1024.size inb).toLoadRect hl) k) Q) := by
  iintro H Hk
  iapply (wp_load 𝒱₀ (c : Thread nD τ) none Set.univ (m := (Memref.whole cc0_stg5_0 : Memref sig .tc .vmem S512x1024 .f32))
    (r := (Rect.unit (s := S512x1024) ![0, 0] S512x1024.size inb).toLoadRect) (S := Finset.univ) (q := q) (f := X) (Finset.subset_univ _)) $$ H
  iintro H
  have hv : (Memref.whole cc0_stg5_0 : Memref sig .tc .vmem S512x1024 .f32).view.readAt (Elt F) (Rect.unit (s := S512x1024) ![0, 0] S512x1024.size inb).toLoadRect X = X :=
    Memref.readAt_unit_zero (Elt F) cc0_stg5_0 (funext fun a => by fin_cases a <;> rfl) inb X
  iapply Hk $$ %_ %hv H

/-- A load of the whole staged window 6: it reads the window's contents. -/
theorem wp_load_w6 (q : PosShare TreeShare) (X : Vec F S1024x512 .f32) {inb : ∀ a, (![0, 0] : Fin 2 → Nat) a + S1024x512.size a ≤ S1024x512.size a}
    {hl : (Memref.whole cc0_stg6_0 : Memref sig .tc .vmem S1024x512 .f32).view.LoadsAt (Rect.unit (s := S1024x512) ![0, 0] S1024x512.size inb).toLoadRect}
    {k : Vec F S1024x512 .f32 → Prog (TpuEff nD τ sig (Elt F) Λ₀ .tc) α} :
    ((((c : Thread nD τ).loc cc0_stg6_0) ↦{q} X) : sProp 𝕄)
      ⊢ iprop((∀ v : Vec F S1024x512 .f32, ⌜v = X⌝ -∗ (((c : Thread nD τ).loc cc0_stg6_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg6_0) (Rect.unit (s := S1024x512) ![0, 0] S1024x512.size inb).toLoadRect hl) k) Q) := by
  iintro H Hk
  iapply (wp_load 𝒱₀ (c : Thread nD τ) none Set.univ (m := (Memref.whole cc0_stg6_0 : Memref sig .tc .vmem S1024x512 .f32))
    (r := (Rect.unit (s := S1024x512) ![0, 0] S1024x512.size inb).toLoadRect) (S := Finset.univ) (q := q) (f := X) (Finset.subset_univ _)) $$ H
  iintro H
  have hv : (Memref.whole cc0_stg6_0 : Memref sig .tc .vmem S1024x512 .f32).view.readAt (Elt F) (Rect.unit (s := S1024x512) ![0, 0] S1024x512.size inb).toLoadRect X = X :=
    Memref.readAt_unit_zero (Elt F) cc0_stg6_0 (funext fun a => by fin_cases a <;> rfl) inb X
  iapply Hk $$ %_ %hv H

/-! ## Shape casts of a loaded vector -/

/-- A cast to the vector's own shape is the vector. -/
theorem cast_id_16x512 (v : FVec F S16x512 .f32) : shapeCast S16x512 v shapeCasts_S16x512_S16x512 = v := shapeCast_self v _
theorem cast_id_512x1024 (v : FVec F S512x1024 .f32) : shapeCast S512x1024 v shapeCasts_S512x1024_S512x1024 = v := shapeCast_self v _
theorem cast_id_1024x512 (v : FVec F S1024x512 .f32) : shapeCast S1024x512 v shapeCasts_S1024x512_S1024x512 = v := shapeCast_self v _

end Rules

end Cert.KernelIdeal.Hand

end
-- ==== Proof.ExitAll.lean ====
/-
  Leaving the one grid point. A device that holds its four accumulator tiles and its seventy-two landing slots, each at
  some contents, and has consumed every one of its copy cells to the end of its round, closes those cells and takes
  their counters out at zero: with the two scratch buffers whole again, that is what the point hands back.
-/
import proofs.«900461_g7700000000000462_dist_mlpseq_tp1d_rep_rep_b64_d512_h1024_v7x_i16_f32_1_alg».proof.Proof.Inv
import proofs.«900461_g7700000000000462_dist_mlpseq_tp1d_rep_rep_b64_d512_h1024_v7x_i16_f32_1_alg».proof.Proof.Exit
import proofs.«900461_g7700000000000462_dist_mlpseq_tp1d_rep_rep_b64_d512_h1024_v7x_i16_f32_1_alg».proof.Proof.Local

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Blocks F)

omit [FloatOps F] in
theorem tile_some (c : Dev nD) (g : Fin 4) (V : FVec F S16x512 .f32) : (accAt c g fullShare V : sProp 𝕄) ⊢ iprop(∃ V, accAt c g fullShare V) := by
  iintro H; iexists V; iexact H
omit [FloatOps F] in
theorem slot_some (c : Dev nD) (s : Fin 72) (V : FVec F S16x512 .f32) : (slotAt c s V : sProp 𝕄) ⊢ iprop(∃ V, slotAt c s V) := by
  iintro H; iexists V; iexact H

omit [FloatOps F] in
theorem tiles_some (c : Dev nD) (Vg : Fin 4 → FVec F S16x512 .f32) :
    (bigSep Finset.univ fun g : Fin 4 => accAt c g fullShare (Vg g) : sProp 𝕄) ⊢ bigSep Finset.univ fun g : Fin 4 => iprop(∃ V, accAt c g fullShare V) :=
  bigSep_mono fun g _ => tile_some c g (Vg g)
omit [FloatOps F] in
theorem slots_some (c : Dev nD) (Vs : Fin 72 → FVec F S16x512 .f32) :
    (bigSep Finset.univ fun s : Fin 72 => slotAt c s (Vs s) : sProp 𝕄) ⊢ bigSep Finset.univ fun s : Fin 72 => iprop(∃ V, slotAt c s V) :=
  bigSep_mono fun s _ => slot_some c s (Vs s)

/-- The tiles and the slots at some contents, the copy cells consumed: what the point hands back. -/
theorem phi1_intro_some (KS KR : Dev nD → Fin 72 → ℕ) (c : Dev nD) :
    iprop((bigSep Finset.univ fun g : Fin 4 => iprop(∃ V, accAt c g fullShare V))
        ∗ (bigSep Finset.univ fun s : Fin 72 => iprop(∃ V, slotAt c s V))
        ∗ (bigSep Finset.univ fun s : Fin 72 => cellInv ER (exRd B) (KS c s) (sendCell c s))
        ∗ (bigSep Finset.univ fun s : Fin 72 => atPos ER (sendCell c s) 1 ∅ 0)
        ∗ (bigSep Finset.univ fun s : Fin 72 => cellInv ER (exRd B) (KR c s) (recvCell c s))
        ∗ (bigSep Finset.univ fun s : Fin 72 => atPos ER (recvCell c s) 1 ∅ 0))
      ⊢ (|={Set.univ}=> Φ₁ (F := F) c : sProp 𝕄) := by
  iintro ⟨Ha, Hs, HIS, HPS, HIR, HPR⟩
  imod (close_send B KS c) $$ [HIS HPS] with HzS
  · isplitl [HIS] <;> iassumption
  imod (close_recv B KR c) $$ [HIR HPR] with HzR
  · isplitl [HIR] <;> iassumption
  imodintro
  unfold Φ₁ scratch
  isplitl [Ha Hs]
  · isplitl [Ha]
    · iapply (acc_join c); iexact Ha
    · iapply (slots_join c); iexact Hs
  isplitl [HzS] <;> iassumption

/-- The same from the tiles and the slots at named contents. -/
theorem phi1_intro (KS KR : Dev nD → Fin 72 → ℕ) (c : Dev nD) (Vg : Fin 4 → FVec F S16x512 .f32) (Vs : Fin 72 → FVec F S16x512 .f32) :
    iprop((bigSep Finset.univ fun g : Fin 4 => accAt c g fullShare (Vg g))
        ∗ (bigSep Finset.univ fun s : Fin 72 => slotAt c s (Vs s))
        ∗ (bigSep Finset.univ fun s : Fin 72 => cellInv ER (exRd B) (KS c s) (sendCell c s))
        ∗ (bigSep Finset.univ fun s : Fin 72 => atPos ER (sendCell c s) 1 ∅ 0)
        ∗ (bigSep Finset.univ fun s : Fin 72 => cellInv ER (exRd B) (KR c s) (recvCell c s))
        ∗ (bigSep Finset.univ fun s : Fin 72 => atPos ER (recvCell c s) 1 ∅ 0))
      ⊢ (|={Set.univ}=> Φ₁ (F := F) c : sProp 𝕄) := by
  iintro ⟨Ha, Hs, Hrest⟩
  iapply (phi1_intro_some B KS KR c)
  isplitl [Ha]; · iapply (tiles_some c Vg); iexact Ha
  isplitl [Hs]; · iapply (slots_some c Vs); iexact Hs
  iexact Hrest

end Cert.KernelIdeal.Hand

end
-- ==== Proof.Steps3.lean ====
/-
  The copy's and the waits' rules in the form the body's chain uses: the families of cell invariants and of reached rounds
  are taken whole, and every premise is handed over one after the other.
-/
import proofs.«900461_g7700000000000462_dist_mlpseq_tp1d_rep_rep_b64_d512_h1024_v7x_i16_f32_1_alg».proof.Proof.Steps2
import proofs.«900461_g7700000000000462_dist_mlpseq_tp1d_rep_rep_b64_d512_h1024_v7x_i16_f32_1_alg».proof.Proof.Glue
import proofs.«900461_g7700000000000462_dist_mlpseq_tp1d_rep_rep_b64_d512_h1024_v7x_i16_f32_1_alg».proof.Proof.Local

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

variable {α : Type} {Q : α → sProp (MT nD τ sig Unit (Elt F) ℕ UU ℕ)} (c : Dev nD) (KS KR : Dev nD → Fin 72 → ℕ)

theorem famS_at (s : Fin 72) : (bigSep Finset.univ fun s : Fin 72 => (cellInv ER (exRd B) (KS c s) (sendCell c s) : sProp 𝕄)) ⊢ cellInv ER (exRd B) (KS c s) (sendCell c s) :=
  bigSep_elim (Finset.mem_univ s)
theorem famR_at (s : Fin 72) : (bigSep Finset.univ fun s : Fin 72 => (cellInv ER (exRd B) (KR c s) (recvCell c s) : sProp 𝕄)) ⊢ cellInv ER (exRd B) (KR c s) (recvCell c s) :=
  bigSep_elim (Finset.mem_univ s)
theorem famRD_at (s : Fin 72) : (bigSep Finset.univ fun s : Fin 72 => (cellInv ER (exRd B) (KR (dest c s) s) (recvCell (dest c s) s) : sProp 𝕄)) ⊢ cellInv ER (exRd B) (KR (dest c s) s) (recvCell (dest c s) s) :=
  bigSep_elim (Finset.mem_univ s)
omit [FloatOps F] in
theorem famrR_at (s : Fin 72) : (bigSep Finset.univ fun s : Fin 72 => (reached ER (recvCell (dest c s) s) 0 : sProp 𝕄)) ⊢ reached ER (recvCell (dest c s) s) 0 :=
  bigSep_elim (Finset.mem_univ s)
omit [FloatOps F] in
theorem famrS_at (s : Fin 72) : (bigSep Finset.univ fun s : Fin 72 => (reached ER (sendCell c s) 0 : sProp 𝕄)) ⊢ reached ER (sendCell c s) 0 :=
  bigSep_elim (Finset.mem_univ s)

/-- A copy, premise by premise. -/
theorem wp_copyC (s : Fin 72) (l : Fin 3) (rnd : Fin 2) (g : Fin 4) (ps : Fin 3)
    (hl : lOf s = l) (hr : rndOf s = rnd) (hg : gOf s = g) (hp : psOf s = ps) (n : Dev nD) (hn : n = dest c s)
    {hsc : (slotM s : Memref sig (Dev.tc n : Thread nD τ).2.kind .vmem S16x512 .f32).view.ref.isScScratch = false}
    {hsrc : (accM g).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α}
    {O₁ : CellTallies nD τ sig Unit} (O : CellTallies nD τ sig Unit) (hO : O₁ = O + tallyAt (recvCell (dest c s) s) () Ncp) {W : Waits sig Unit} :
    (bigSep Finset.univ fun s : Fin 72 => (cellInv ER (exRd B) (KS c s) (sendCell c s) : sProp 𝕄))
      ⊢ iprop((bigSep Finset.univ fun s : Fin 72 => cellInv ER (exRd B) (KR (dest c s) s) (recvCell (dest c s) s))
          -∗ accAt c g (shareOf ps) (sentV B l rnd c g) -∗ (∃ fd, slotPts (F := F) (dest c s) s fd)
          -∗ owes (c : Thread nD τ) O₁ W
          -∗ dutyTok ER (sendCell c s) 0 (0 : Fin 6) -∗ (bigSep Finset.univ fun s : Fin 72 => reached ER (sendCell c s) 0)
          -∗ dutyTok ER (recvCell (dest c s) s) 0 (0 : Fin 6) -∗ (bigSep Finset.univ fun s : Fin 72 => reached ER (recvCell (dest c s) s) 0)
          -∗ ((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM g) (.remote (Dev.tc n : Thread nD τ) (slotM s) (.dma (sendS s)) hsc) (.dma (recvS s)) hsrc hdst hsem) k) Q) := by
  iintro #HIS #HIRD Hq Hd HO HtS #HrS HtR #HrR Hk
  iapply (wp_copyAt B c s l rnd g ps hl hr hg hp n hn (κ₁ := KS c s) (κ₂ := KR (dest c s) s) O hO) $$ [Hq Hd HO HtS HtR]
  · isplitr; · iapply (famS_at B c KS s); iexact HIS
    isplitr; · iapply (famRD_at B c KR s); iexact HIRD
    isplitl [Hq]; · iexact Hq
    isplitl [Hd]; · iexact Hd
    isplitl [HO]; · iexact HO
    isplitl [HtS]; · iexact HtS
    isplitr; · iapply (famrS_at (F := F) c s); iexact HrS
    isplitl [HtR]; · iexact HtR
    iapply (famrR_at (F := F) c s); iexact HrR
  iexact Hk

/-- The departure wait, premise by premise. -/
theorem wp_sendwaitC (s : Fin 72) (l : Fin 3) (rnd : Fin 2) (g : Fin 4) (ps : Fin 3)
    (hl : lOf s = l) (hr : rndOf s = rnd) (hg : gOf s = g) (hp : psOf s = ps) (n : ℕ)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {W : Waits sig Unit} :
    (bigSep Finset.univ fun s : Fin 72 => (cellInv ER (exRd B) (KS c s) (sendCell c s) : sProp 𝕄))
      ⊢ iprop(cred (tallyAt (sendCell c s) () Ncp) -∗ owes (c : Thread nD τ) (owedRev c n) W -∗ levAts L lv -∗ atPos ER (sendCell c s) 0 ∅ 0
          -∗ ((owes (c : Thread nD τ) (owedRev c n) (insert (SemLoc.dma (sendS s), ()) W) ∗ atPos ER (sendCell c s) 1 ∅ 0
              ∗ accAt c g (shareOf ps) (sentV B l rnd c g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  iintro #HIS Hc HO #Hlev Hat Hk
  iapply (wp_sendwaitAt B c s l rnd g ps hl hr hg hp hd (κ := KS c s) (O := owedRev c n)) $$ [Hc HO Hat]
  · isplitr; · iapply (famS_at B c KS s); iexact HIS
    isplitl [Hc]; · iexact Hc
    isplitl [HO]; · iexact HO
    isplitr; · iapply (mayWait_low (F := F) c (.dma (sendS s)) (lv_send c s ()) n); iexact Hlev
    iexact Hat
  iintro ⟨HO, Hat, -, Hsh⟩
  iapply Hk
  isplitl [HO]; · iexact HO
  isplitl [Hat]; · iexact Hat
  iexact Hsh

/-- The arrival wait, premise by premise: allowed once the slot's issue group has been issued. -/
theorem wp_recvwaitC (s : Fin 72) (l : Fin 3) (rnd : Fin 2) (g : Fin 4) (j : Fin 6)
    (hl : lOf s = l) (hr : rndOf s = rnd) (hg : gOf s = g) (hj : recvFrom (rndOf s) (psOf s) = j)
    (n : ℕ) (hn : n ≤ 72) (hK : s.val / 3 < (72 - n) / 3)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {W : Waits sig Unit} :
    (bigSep Finset.univ fun s : Fin 72 => (cellInv ER (exRd B) (KR c s) (recvCell c s) : sProp 𝕄))
      ⊢ iprop(cred (tallyAt (recvCell c s) () Ncp) -∗ owes (c : Thread nD τ) (owedRev c n) W -∗ levAts L lv -∗ atPos ER (recvCell c s) 0 ∅ 0
          -∗ ((owes (c : Thread nD τ) (owedRev c n) (insert (SemLoc.dma (recvS s), ()) W) ∗ atPos ER (recvCell c s) 1 ∅ 0
              ∗ slotAt c s (sentV B l rnd (peer j c) g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  iintro #HIR Hc HO #Hlev Hat Hk
  iapply (wp_recvwaitAt B c s l rnd g j hl hr hg hj hd (κ := KR c s) (O := owedRev c n)) $$ [Hc HO Hat]
  · isplitr; · iapply (famR_at B c KR s); iexact HIR
    isplitl [Hc]; · iexact Hc
    isplitl [HO]; · iexact HO
    isplitr; · iapply (mayWait_recv' (F := F) c s n hn hK); iexact Hlev
    iexact Hat
  iintro ⟨HO, Hat, -, Hsl⟩
  iapply Hk
  isplitl [HO]; · iexact HO
  isplitl [Hat]; · iexact Hat
  iexact Hsl

/-- The three shares of a tile back together. -/
theorem acc_join3 (g : Fin 4) (V : FVec F S16x512 .f32) :
    (accAt c g (shareOf 0) V : sProp 𝕄) ⊢ iprop(accAt c g (shareOf 1) V -∗ accAt c g (shareOf 2) V -∗ accAt c g fullShare V) := by
  iintro H0 H1 H2
  iapply (acc_shares (F := F) c g V).2
  isplitl [H0]; · iexact H0
  isplitl [H1]; · iexact H1
  iexact H2

end Cert.KernelIdeal.Hand

end
-- ==== Proof.Body.lean ====
/-
  One device's body, stepped statement by statement from the exchange's ghost state.
-/
import proofs.«900461_g7700000000000462_dist_mlpseq_tp1d_rep_rep_b64_d512_h1024_v7x_i16_f32_1_alg».proof.Proof.Inv
import proofs.«900461_g7700000000000462_dist_mlpseq_tp1d_rep_rep_b64_d512_h1024_v7x_i16_f32_1_alg».proof.Proof.Slots
import proofs.«900461_g7700000000000462_dist_mlpseq_tp1d_rep_rep_b64_d512_h1024_v7x_i16_f32_1_alg».proof.Proof.Elems
import proofs.«900461_g7700000000000462_dist_mlpseq_tp1d_rep_rep_b64_d512_h1024_v7x_i16_f32_1_alg».proof.Proof.Steps2
import proofs.«900461_g7700000000000462_dist_mlpseq_tp1d_rep_rep_b64_d512_h1024_v7x_i16_f32_1_alg».proof.Proof.Exit
import proofs.«900461_g7700000000000462_dist_mlpseq_tp1d_rep_rep_b64_d512_h1024_v7x_i16_f32_1_alg».proof.Proof.Glue
import proofs.«900461_g7700000000000462_dist_mlpseq_tp1d_rep_rep_b64_d512_h1024_v7x_i16_f32_1_alg».proof.Proof.Local
import proofs.«900461_g7700000000000462_dist_mlpseq_tp1d_rep_rep_b64_d512_h1024_v7x_i16_f32_1_alg».proof.Proof.ExitAll
import proofs.«900461_g7700000000000462_dist_mlpseq_tp1d_rep_rep_b64_d512_h1024_v7x_i16_f32_1_alg».proof.Proof.Steps3

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "Bm" => blocksOf m

set_option allowUnsafeReducibility true in
attribute [local reducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 mlp sum4

theorem owesAt_intro (c : Dev nD) (W' : Waits sig Unit) :
    (owes (c : Thread nD τ) (0 : CellTallies nD τ sig Unit) W' : sProp 𝕄) ⊢ (dats m ρ 0 c).owesAt () t₀.succ := by
  unfold Dat.owesAt Pipeline.owesWithin
  rw [show (dats m ρ 0 c).owed t₀.succ = 0 from rfl]
  iintro H
  iexists W'
  isplitr; · ipureintro; exact fun _ _ => Or.inl trivial
  iexact H

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem out_congr (c : Dev nD) {Y Y' : Vec F S64x512 .f32} (h : Y = Y') :
    ((((c : Thread nD τ).loc cc0_stg7_0) ↦{fullShare} Y) : sProp 𝕄) ⊢ (((c : Thread nD τ).loc cc0_stg7_0) ↦{fullShare} Y') := by
  subst h; exact .rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD → ℕ) (KS KR : Dev nD → Fin 72 → ℕ) (c : Dev nD) : sProp 𝕄 :=
  iprop((ghost m K KS KR c ∗ cred (tallyAt (barCell c) () 6)
      ∗ (bigSep Finset.univ fun s : Fin 72 => cred (tallyAt (recvCell c s) () Ncp)) ∗ levAts L lv ∗ scratch c)
    ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

def bodyPost (c : Dev nD) : sProp 𝕄 :=
  iprop(Φ₁ c ∗ (dats m ρ 0 c).owesAt () t₀.succ
    ∗ stg c cc0_stg0_0 ((Bm).x c) ∗ stg c cc0_stg1_0 ((Bm).wi 0 c) ∗ stg c cc0_stg2_0 ((Bm).wo 0 c)
    ∗ stg c cc0_stg3_0 ((Bm).wi 1 c) ∗ stg c cc0_stg4_0 ((Bm).wo 1 c) ∗ stg c cc0_stg5_0 ((Bm).wi 2 c)
    ∗ stg c cc0_stg6_0 ((Bm).wo 2 c) ∗ stg c cc0_stg7_0 (outAt m c))

set_option maxHeartbeats 0 in
/-- The body from its ghost state. -/
theorem sound_body (K : Dev nD → ℕ) (KS KR : Dev nD → Fin 72 → ℕ) (c : Dev nD) (Kt : PUnit → sProp 𝕄) :
    iprop(bodyPre m ρ K KS KR c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part87_eq_skeleton]; unfold k0_part87_skel
  simp only [k0_part1_eq_skeleton]; unfold k0_part1_skel
  simp only [semSignalWord, semWaitWord, Prog.lift, Prog.bind_op, Prog.bind_ret, Prog.pure_eq_ret, wp_deviceId]
  unfold bodyPre ghost invs reachedAll positions payToks
  iintro ⟨⟨⟨⟨⟨#HIbar, #HIS, #HIR, #HIBN, #HIRD⟩, ⟨#HrB, #HrR, #HrS⟩, ⟨HatB, HatS, HatR⟩, ⟨HtB, HtR, HtS⟩⟩, HcB, HcR, #Hlev, Hscr⟩,
    Ho, Hx0, Hx1, Hx2, Hx3, Hx4, Hx5, Hx6, Hx7⟩, Hk⟩
  unfold Dat.owesAt Pipeline.owesWithin scratch
  icases Ho with ⟨%W, %hW, HO⟩
  icases Hscr with ⟨Hacc, Hrcv⟩
  rw [show (dats m ρ 0 c).owed t₀.castSucc = O₀ c from rfl]
  simp only [dev1_eq c, dev2_eq c, dev3_eq c]
  -- the landing buffer, split into what each neighbour gets
  ihave Hgive := (slots_split (F := F) c) $$ Hrcv
  ihave Hgive := (Entails.of_eq (bigSep_fin6 _)) $$ Hgive
  icases Hgive with ⟨Hg0, Hg1, Hg2, Hg3, Hg4, Hg5⟩
  ihave HtB := (Entails.of_eq (bigSep_fin6 _)) $$ HtB
  icases HtB with ⟨Ht0, Ht1, Ht2, Ht3, Ht4, Ht5⟩
  -- the six signals
  iapply (wp_barsig (Bm) c 0 (peer 0 c) rfl (k' := (1#32).toNat) (by decide) (O := owedRev c 77) rfl) $$ [HO Ht0 Hg0]
  · isplitr; · iapply (invBN_at m K c 0); iexact HIBN
    isplitl [HO]; · iexact HO
    isplitl [Ht0]; · iexact Ht0
    isplitl [Hg0]; · iexact Hg0
    iapply (rB_at (F := F) c 0); iexact HrB
  iintro HO
  iapply (wp_barsig (Bm) c 1 (peer 1 c) rfl (k' := (1#32).toNat) (by decide) (O := owedRev c 76) rfl) $$ [HO Ht1 Hg1]
  · isplitr; · iapply (invBN_at m K c 1); iexact HIBN
    isplitl [HO]; · iexact HO
    isplitl [Ht1]; · iexact Ht1
    isplitl [Hg1]; · iexact Hg1
    iapply (rB_at (F := F) c 1); iexact HrB
  iintro HO
  iapply (wp_barsig (Bm) c 2 (peer 2 c) rfl (k' := (1#32).toNat) (by decide) (O := owedRev c 75) rfl) $$ [HO Ht2 Hg2]
  · isplitr; · iapply (invBN_at m K c 2); iexact HIBN
    isplitl [HO]; · iexact HO
    isplitl [Ht2]; · iexact Ht2
    isplitl [Hg2]; · iexact Hg2
    iapply (rB_at (F := F) c 2); iexact HrB
  iintro HO
  -- the rest of the signals are in the next printed part
  simp only [k0_part2_eq_skeleton]; unfold k0_part2_skel
  simp only [semSignalWord, semWaitWord, Prog.lift, Prog.bind_op, Prog.bind_ret, Prog.pure_eq_ret, Prog.bind_assoc, dev4_eq c, dev5_eq c, dev6_eq c]
  iapply (wp_barsig (Bm) c 3 (peer 3 c) rfl (k' := (1#32).toNat) (by decide) (O := owedRev c 74) rfl) $$ [HO Ht3 Hg3]
  · isplitr; · iapply (invBN_at m K c 3); iexact HIBN
    isplitl [HO]; · iexact HO
    isplitl [Ht3]; · iexact Ht3
    isplitl [Hg3]; · iexact Hg3
    iapply (rB_at (F := F) c 3); iexact HrB
  iintro HO
  iapply (wp_barsig (Bm) c 4 (peer 4 c) rfl (k' := (1#32).toNat) (by decide) (O := owedRev c 73) rfl) $$ [HO Ht4 Hg4]
  · isplitr; · iapply (invBN_at m K c 4); iexact HIBN
    isplitl [HO]; · iexact HO
    isplitl [Ht4]; · iexact Ht4
    isplitl [Hg4]; · iexact Hg4
    iapply (rB_at (F := F) c 4); iexact HrB
  iintro HO
  iapply (wp_barsig (Bm) c 5 (peer 5 c) rfl (k' := (1#32).toNat) (by decide) (O := owedRev c 72) rfl) $$ [HO Ht5 Hg5]
  · isplitr; · iapply (invBN_at m K c 5); iexact HIBN
    isplitl [HO]; · iexact HO
    isplitl [Ht5]; · iexact Ht5
    isplitl [Hg5]; · iexact Hg5
    iapply (rB_at (F := F) c 5); iexact HrB
  iintro HO
  -- the wait for the six neighbours
  iapply (wp_barwait (Bm) c (κ := K c) (O := owedRev c 72) (W := W)) $$ [HcB HO HatB]
  · isplitr; · iexact HIbar
    isplitl [HcB]; · iexact HcB
    isplitl [HO]; · iexact HO
    isplitr; · iapply (mayWait_bar (F := F) c); iexact Hlev
    iexact HatB
  iintro ⟨HO, HatB, #HrB1, Hgot⟩
  -- the staged windows hold the device's argument blocks
  icases Hx0 with ⟨%d0, %g0, %hg0, Hx0⟩
  have e0 : g0 = (Bm).x c := by rw [hg0]; unfold Dat.before; rw [if_pos (by decide : (cfg0.win (0 : Fin 8)).fetch t₀ = true)]; rfl
  subst e0
  icases Hx1 with ⟨%d1, %g1, %hg1, Hx1⟩
  have e1 : g1 = (Bm).wi 0 c := by rw [hg1]; unfold Dat.before; rw [if_pos (by decide : (cfg0.win (1 : Fin 8)).fetch t₀ = true)]; rfl
  subst e1
  icases Hx2 with ⟨%d2, %g2, %hg2, Hx2⟩
  have e2 : g2 = (Bm).wo 0 c := by rw [hg2]; unfold Dat.before; rw [if_pos (by decide : (cfg0.win (2 : Fin 8)).fetch t₀ = true)]; rfl
  subst e2
  icases Hx3 with ⟨%d3, %g3, %hg3, Hx3⟩
  have e3 : g3 = (Bm).wi 1 c := by rw [hg3]; unfold Dat.before; rw [if_pos (by decide : (cfg0.win (3 : Fin 8)).fetch t₀ = true)]; rfl
  subst e3
  icases Hx4 with ⟨%d4, %g4, %hg4, Hx4⟩
  have e4 : g4 = (Bm).wo 1 c := by rw [hg4]; unfold Dat.before; rw [if_pos (by decide : (cfg0.win (4 : Fin 8)).fetch t₀ = true)]; rfl
  subst e4
  icases Hx5 with ⟨%d5, %g5, %hg5, Hx5⟩
  have e5 : g5 = (Bm).wi 2 c := by rw [hg5]; unfold Dat.before; rw [if_pos (by decide : (cfg0.win (5 : Fin 8)).fetch t₀ = true)]; rfl
  subst e5
  icases Hx6 with ⟨%d6, %g6, %hg6, Hx6⟩
  have e6 : g6 = (Bm).wo 2 c := by rw [hg6]; unfold Dat.before; rw [if_pos (by decide : (cfg0.win (6 : Fin 8)).fetch t₀ = true)]; rfl
  subst e6
  icases Hx7 with ⟨%d7, %g7, %hg7, Hx7⟩
  -- the families over the seventy-two slots, member by member
  ihave Hgot := (Entails.of_eq ((got_eq (F := F) c).trans (bigSep_fin72 _))) $$ Hgot
  icases Hgot with ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63, Hd64, Hd65, Hd66, Hd67, Hd68, Hd69, Hd70, Hd71⟩
  ihave HatS := (Entails.of_eq (bigSep_fin72 _)) $$ HatS
  icases HatS with ⟨HaS0, HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29, HaS30, HaS31, HaS32, HaS33, HaS34, HaS35, HaS36, HaS37, HaS38, HaS39, HaS40, HaS41, HaS42, HaS43, HaS44, HaS45, HaS46, HaS47, HaS48, HaS49, HaS50, HaS51, HaS52, HaS53, HaS54, HaS55, HaS56, HaS57, HaS58, HaS59, HaS60, HaS61, HaS62, HaS63, HaS64, HaS65, HaS66, HaS67, HaS68, HaS69, HaS70, HaS71⟩
  ihave HatR := (Entails.of_eq (bigSep_fin72 _)) $$ HatR
  icases HatR with ⟨HaR0, HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29, HaR30, HaR31, HaR32, HaR33, HaR34, HaR35, HaR36, HaR37, HaR38, HaR39, HaR40, HaR41, HaR42, HaR43, HaR44, HaR45, HaR46, HaR47, HaR48, HaR49, HaR50, HaR51, HaR52, HaR53, HaR54, HaR55, HaR56, HaR57, HaR58, HaR59, HaR60, HaR61, HaR62, HaR63, HaR64, HaR65, HaR66, HaR67, HaR68, HaR69, HaR70, HaR71⟩
  ihave HtR := (Entails.of_eq (bigSep_fin72 _)) $$ HtR
  icases HtR with ⟨HtR0, HtR1, HtR2, HtR3, HtR4, HtR5, HtR6, HtR7, HtR8, HtR9, HtR10, HtR11, HtR12, HtR13, HtR14, HtR15, HtR16, HtR17, HtR18, HtR19, HtR20, HtR21, HtR22, HtR23, HtR24, HtR25, HtR26, HtR27, HtR28, HtR29, HtR30, HtR31, HtR32, HtR33, HtR34, HtR35, HtR36, HtR37, HtR38, HtR39, HtR40, HtR41, HtR42, HtR43, HtR44, HtR45, HtR46, HtR47, HtR48, HtR49, HtR50, HtR51, HtR52, HtR53, HtR54, HtR55, HtR56, HtR57, HtR58, HtR59, HtR60, HtR61, HtR62, HtR63, HtR64, HtR65, HtR66, HtR67, HtR68, HtR69, HtR70, HtR71⟩
  ihave HtS := (Entails.of_eq (bigSep_fin72 _)) $$ HtS
  icases HtS with ⟨HtS0, HtS1, HtS2, HtS3, HtS4, HtS5, HtS6, HtS7, HtS8, HtS9, HtS10, HtS11, HtS12, HtS13, HtS14, HtS15, HtS16, HtS17, HtS18, HtS19, HtS20, HtS21, HtS22, HtS23, HtS24, HtS25, HtS26, HtS27, HtS28, HtS29, HtS30, HtS31, HtS32, HtS33, HtS34, HtS35, HtS36, HtS37, HtS38, HtS39, HtS40, HtS41, HtS42, HtS43, HtS44, HtS45, HtS46, HtS47, HtS48, HtS49, HtS50, HtS51, HtS52, HtS53, HtS54, HtS55, HtS56, HtS57, HtS58, HtS59, HtS60, HtS61, HtS62, HtS63, HtS64, HtS65, HtS66, HtS67, HtS68, HtS69, HtS70, HtS71⟩
  ihave HcR := (Entails.of_eq (bigSep_fin72 _)) $$ HcR
  icases HcR with ⟨HcR0, HcR1, HcR2, HcR3, HcR4, HcR5, HcR6, HcR7, HcR8, HcR9, HcR10, HcR11, HcR12, HcR13, HcR14, HcR15, HcR16, HcR17, HcR18, HcR19, HcR20, HcR21, HcR22, HcR23, HcR24, HcR25, HcR26, HcR27, HcR28, HcR29, HcR30, HcR31, HcR32, HcR33, HcR34, HcR35, HcR36, HcR37, HcR38, HcR39, HcR40, HcR41, HcR42, HcR43, HcR44, HcR45, HcR46, HcR47, HcR48, HcR49, HcR50, HcR51, HcR52, HcR53, HcR54, HcR55, HcR56, HcR57, HcR58, HcR59, HcR60, HcR61, HcR62, HcR63, HcR64, HcR65, HcR66, HcR67, HcR68, HcR69, HcR70, HcR71⟩
  -- the accumulator's four row tiles
  ihave Htl := (acc_split (F := F) c) $$ Hacc
  ihave Htl := (Entails.of_eq (bigSep_fin4 _)) $$ Htl
  icases Htl with ⟨⟨%V0, Hac0⟩, ⟨%V1, Hac1⟩, ⟨%V2, Hac2⟩, ⟨%V3, Hac3⟩⟩
  iapply (wp_load_x c 0 fullShare ((Bm).x c)) $$ Hx0
  iintro %v1 %hv1 Hx0
  subst hv1
  iapply (wp_load_w1 c fullShare _) $$ Hx1
  iintro %v2 %hv2 Hx1
  subst hv2
  iapply (wp_load_w2 c fullShare _) $$ Hx2
  iintro %v3 %hv3 Hx2
  subst hv3
  iapply (wp_load_acc c 0 fullShare _) $$ Hac0
  iintro %v4 %hv4 Hac0
  iapply (wp_store_acc c 0 _ _) $$ Hac0
  iintro Hac0
  ihave Hac0 := (accAt_congr c 0 fullShare (show _ = sentV (Bm) 0 0 c 0 from mlp_payload0 (rowsOf ((Bm).x c) 0) ((Bm).wi 0 c) ((Bm).wo 0 c) _ (cast_id_16x512 _))) $$ Hac0
  -- k0_part3
  simp only [k0_part3_eq_skeleton]; unfold k0_part3_skel
  simp only [Prog.lift, Prog.bind_op, Prog.bind_ret, Prog.pure_eq_ret, Prog.bind_assoc, dev7_eq c, dev8_eq c, dev9_eq c]
  -- issue group 0: layer 0, round 0, tile 0
  ihave Hsp := (acc_shares (F := F) c 0 (sentV (Bm) 0 0 c 0)).1 $$ Hac0
  icases Hsp with ⟨Hq0_0, Hq0_1, Hq0_2⟩
  iapply (wp_copyC (Bm) c KS KR 2 0 0 0 2 rfl rfl rfl rfl ⟨k0_dev7 c, k0_dev7_lt c⟩ (dev7_eq c) (O₁ := owedRev c 72) (O := owedRev c 71) rfl) $$ HIS HIRD Hq0_2 Hd2 HO HtS2 HrS HtR2 HrR
  iintro ⟨Hcs2, HO⟩
  iapply (wp_copyC (Bm) c KS KR 1 0 0 0 1 rfl rfl rfl rfl ⟨k0_dev8 c, k0_dev8_lt c⟩ (dev8_eq c) (O₁ := owedRev c 71) (O := owedRev c 70) rfl) $$ HIS HIRD Hq0_1 Hd1 HO HtS1 HrS HtR1 HrR
  iintro ⟨Hcs1, HO⟩
  iapply (wp_copyC (Bm) c KS KR 0 0 0 0 0 rfl rfl rfl rfl ⟨k0_dev9 c, k0_dev9_lt c⟩ (dev9_eq c) (O₁ := owedRev c 70) (O := owedRev c 69) rfl) $$ HIS HIRD Hq0_0 Hd0 HO HtS0 HrS HtR0 HrR
  iintro ⟨Hcs0, HO⟩
  iapply (wp_load_x c 1 fullShare ((Bm).x c)) $$ Hx0
  iintro %v5 %hv5 Hx0
  subst hv5
  iapply (wp_load_w1 c fullShare _) $$ Hx1
  iintro %v6 %hv6 Hx1
  subst hv6
  -- k0_part4
  simp only [k0_part4_eq_skeleton]; unfold k0_part4_skel
  simp only [Prog.lift, Prog.bind_op, Prog.bind_ret, Prog.pure_eq_ret, Prog.bind_assoc, dev10_eq c, dev11_eq c]
  iapply (wp_load_w2 c fullShare _) $$ Hx2
  iintro %v7 %hv7 Hx2
  subst hv7
  iapply (wp_load_acc c 1 fullShare _) $$ Hac1
  iintro %v8 %hv8 Hac1
  iapply (wp_store_acc c 1 _ _) $$ Hac1
  iintro Hac1
  ihave Hac1 := (accAt_congr c 1 fullShare (show _ = sentV (Bm) 0 0 c 1 from mlp_payload0 (rowsOf ((Bm).x c) 1) ((Bm).wi 0 c) ((Bm).wo 0 c) _ (cast_id_16x512 _))) $$ Hac1
  -- issue group 1: layer 0, round 0, tile 1
  ihave Hsp := (acc_shares (F := F) c 1 (sentV (Bm) 0 0 c 1)).1 $$ Hac1
  icases Hsp with ⟨Hq1_0, Hq1_1, Hq1_2⟩
  iapply (wp_copyC (Bm) c KS KR 5 0 0 1 2 rfl rfl rfl rfl ⟨k0_dev10 c, k0_dev10_lt c⟩ (dev10_eq c) (O₁ := owedRev c 69) (O := owedRev c 68) rfl) $$ HIS HIRD Hq1_2 Hd5 HO HtS5 HrS HtR5 HrR
  iintro ⟨Hcs5, HO⟩
  iapply (wp_copyC (Bm) c KS KR 4 0 0 1 1 rfl rfl rfl rfl ⟨k0_dev11 c, k0_dev11_lt c⟩ (dev11_eq c) (O₁ := owedRev c 68) (O := owedRev c 67) rfl) $$ HIS HIRD Hq1_1 Hd4 HO HtS4 HrS HtR4 HrR
  iintro ⟨Hcs4, HO⟩
  -- k0_part5
  simp only [k0_part5_eq_skeleton]; unfold k0_part5_skel
  simp only [Prog.lift, Prog.bind_op, Prog.bind_ret, Prog.pure_eq_ret, Prog.bind_assoc, dev12_eq c]
  iapply (wp_copyC (Bm) c KS KR 3 0 0 1 0 rfl rfl rfl rfl ⟨k0_dev12 c, k0_dev12_lt c⟩ (dev12_eq c) (O₁ := owedRev c 67) (O := owedRev c 66) rfl) $$ HIS HIRD Hq1_0 Hd3 HO HtS3 HrS HtR3 HrR
  iintro ⟨Hcs3, HO⟩
  iapply (wp_load_x c 2 fullShare ((Bm).x c)) $$ Hx0
  iintro %v9 %hv9 Hx0
  subst hv9
  iapply (wp_load_w1 c fullShare _) $$ Hx1
  iintro %v10 %hv10 Hx1
  subst hv10
  iapply (wp_load_w2 c fullShare _) $$ Hx2
  iintro %v11 %hv11 Hx2
  subst hv11
  iapply (wp_load_acc c 2 fullShare _) $$ Hac2
  iintro %v12 %hv12 Hac2
  iapply (wp_store_acc c 2 _ _) $$ Hac2
  iintro Hac2
  ihave Hac2 := (accAt_congr c 2 fullShare (show _ = sentV (Bm) 0 0 c 2 from mlp_payload0 (rowsOf ((Bm).x c) 2) ((Bm).wi 0 c) ((Bm).wo 0 c) _ (cast_id_16x512 _))) $$ Hac2
  -- k0_part6
  simp only [k0_part6_eq_skeleton]; unfold k0_part6_skel
  simp only [Prog.lift, Prog.bind_op, Prog.bind_ret, Prog.pure_eq_ret, Prog.bind_assoc, dev13_eq c, dev14_eq c, dev15_eq c]
  -- issue group 2: layer 0, round 0, tile 2
  ihave Hsp := (acc_shares (F := F) c 2 (sentV (Bm) 0 0 c 2)).1 $$ Hac2
  icases Hsp with ⟨Hq2_0, Hq2_1, Hq2_2⟩
  iapply (wp_copyC (Bm) c KS KR 8 0 0 2 2 rfl rfl rfl rfl ⟨k0_dev13 c, k0_dev13_lt c⟩ (dev13_eq c) (O₁ := owedRev c 66) (O := owedRev c 65) rfl) $$ HIS HIRD Hq2_2 Hd8 HO HtS8 HrS HtR8 HrR
  iintro ⟨Hcs8, HO⟩
  iapply (wp_copyC (Bm) c KS KR 7 0 0 2 1 rfl rfl rfl rfl ⟨k0_dev14 c, k0_dev14_lt c⟩ (dev14_eq c) (O₁ := owedRev c 65) (O := owedRev c 64) rfl) $$ HIS HIRD Hq2_1 Hd7 HO HtS7 HrS HtR7 HrR
  iintro ⟨Hcs7, HO⟩
  iapply (wp_copyC (Bm) c KS KR 6 0 0 2 0 rfl rfl rfl rfl ⟨k0_dev15 c, k0_dev15_lt c⟩ (dev15_eq c) (O₁ := owedRev c 64) (O := owedRev c 63) rfl) $$ HIS HIRD Hq2_0 Hd6 HO HtS6 HrS HtR6 HrR
  iintro ⟨Hcs6, HO⟩
  iapply (wp_load_x c 3 fullShare ((Bm).x c)) $$ Hx0
  iintro %v13 %hv13 Hx0
  subst hv13
  iapply (wp_load_w1 c fullShare _) $$ Hx1
  iintro %v14 %hv14 Hx1
  subst hv14
  iapply (wp_load_w2 c fullShare _) $$ Hx2
  iintro %v15 %hv15 Hx2
  subst hv15
  -- k0_part7
  simp only [k0_part7_eq_skeleton]; unfold k0_part7_skel
  simp only [Prog.lift, Prog.bind_op, Prog.bind_ret, Prog.pure_eq_ret, Prog.bind_assoc, dev16_eq c, dev17_eq c]
  iapply (wp_load_acc c 3 fullShare _) $$ Hac3
  iintro %v16 %hv16 Hac3
  iapply (wp_store_acc c 3 _ _) $$ Hac3
  iintro Hac3
  ihave Hac3 := (accAt_congr c 3 fullShare (show _ = sentV (Bm) 0 0 c 3 from mlp_payload0 (rowsOf ((Bm).x c) 3) ((Bm).wi 0 c) ((Bm).wo 0 c) _ (cast_id_16x512 _))) $$ Hac3
  -- issue group 3: layer 0, round 0, tile 3
  ihave Hsp := (acc_shares (F := F) c 3 (sentV (Bm) 0 0 c 3)).1 $$ Hac3
  icases Hsp with ⟨Hq3_0, Hq3_1, Hq3_2⟩
  iapply (wp_copyC (Bm) c KS KR 11 0 0 3 2 rfl rfl rfl rfl ⟨k0_dev16 c, k0_dev16_lt c⟩ (dev16_eq c) (O₁ := owedRev c 63) (O := owedRev c 62) rfl) $$ HIS HIRD Hq3_2 Hd11 HO HtS11 HrS HtR11 HrR
  iintro ⟨Hcs11, HO⟩
  iapply (wp_copyC (Bm) c KS KR 10 0 0 3 1 rfl rfl rfl rfl ⟨k0_dev17 c, k0_dev17_lt c⟩ (dev17_eq c) (O₁ := owedRev c 62) (O := owedRev c 61) rfl) $$ HIS HIRD Hq3_1 Hd10 HO HtS10 HrS HtR10 HrR
  iintro ⟨Hcs10, HO⟩
  -- k0_part8
  simp only [k0_part8_eq_skeleton]; unfold k0_part8_skel
  simp only [Prog.lift, Prog.bind_op, Prog.bind_ret, Prog.pure_eq_ret, Prog.bind_assoc, dev18_eq c]
  iapply (wp_copyC (Bm) c KS KR 9 0 0 3 0 rfl rfl rfl rfl ⟨k0_dev18 c, k0_dev18_lt c⟩ (dev18_eq c) (O₁ := owedRev c 61) (O := owedRev c 60) rfl) $$ HIS HIRD Hq3_0 Hd9 HO HtS9 HrS HtR9 HrR
  iintro ⟨Hcs9, HO⟩
  iapply (wp_sendwaitC (Bm) c KS 2 0 0 0 2 rfl rfl rfl rfl 60 (src := slotM 2) (dst := accM 0) rfl) $$ HIS Hcs2 HO Hlev HaS2
  iintro ⟨HO, HaS2, Hsh2⟩
  iapply (wp_recvwaitC (Bm) c KR 2 0 0 0 5 rfl rfl rfl rfl 60 (by decide) (by decide) (src := accM 0) (dst := slotM 2) rfl) $$ HIR HcR2 HO Hlev HaR2
  iintro ⟨HO, HaR2, Hsl2⟩
  -- k0_part9
  simp only [k0_part9_eq_skeleton]; unfold k0_part9_skel
  simp only [Prog.lift, Prog.bind_op, Prog.bind_ret, Prog.pure_eq_ret, Prog.bind_assoc]
  iapply (wp_sendwaitC (Bm) c KS 1 0 0 0 1 rfl rfl rfl rfl 60 (src := slotM 1) (dst := accM 0) rfl) $$ HIS Hcs1 HO Hlev HaS1
  iintro ⟨HO, HaS1, Hsh1⟩
  iapply (wp_recvwaitC (Bm) c KR 1 0 0 0 4 rfl rfl rfl rfl 60 (by decide) (by decide) (src := accM 0) (dst := slotM 1) rfl) $$ HIR HcR1 HO Hlev HaR1
  iintro ⟨HO, HaR1, Hsl1⟩
  iapply (wp_sendwaitC (Bm) c KS 0 0 0 0 0 rfl rfl rfl rfl 60 (src := slotM 0) (dst := accM 0) rfl) $$ HIS Hcs0 HO Hlev HaS0
  iintro ⟨HO, HaS0, Hsh0⟩
  iapply (wp_recvwaitC (Bm) c KR 0 0 0 0 3 rfl rfl rfl rfl 60 (by decide) (by decide) (src := accM 0) (dst := slotM 0) rfl) $$ HIR HcR0 HO Hlev HaR0
  iintro ⟨HO, HaR0, Hsl0⟩
  ihave Hac0 := (acc_join3 (F := F) c 0 (sentV (Bm) 0 0 c 0)) $$ Hsh0 Hsh1 Hsh2
  -- k0_part10
  simp only [k0_part10_eq_skeleton]; unfold k0_part10_skel
  simp only [Prog.lift, Prog.bind_op, Prog.bind_ret, Prog.pure_eq_ret, Prog.bind_assoc, dev19_eq c]
  iapply (wp_load_acc c 0 fullShare _) $$ Hac0
  iintro %v17 %hv17 Hac0
  iapply (wp_load_slot c 0 _) $$ Hsl0
  iintro %v18 %hv18 Hsl0
  iapply (wp_load_slot c 1 _) $$ Hsl1
  iintro %v19 %hv19 Hsl1
  iapply (wp_load_slot c 2 _) $$ Hsl2
  iintro %v20 %hv20 Hsl2
  iapply (wp_load_acc c 0 fullShare _) $$ Hac0
  iintro %v21 %hv21 Hac0
  iapply (wp_store_acc c 0 _ _) $$ Hac0
  iintro Hac0
  ihave Hac0 := (accAt_congr c 0 fullShare (show _ = sentV (Bm) 0 1 c 0 from sum_payload _ _ _ _ _ _ _ _ hv17 hv18 hv19 hv20)) $$ Hac0
  -- issue group 4: layer 0, round 1, tile 0
  ihave Hsp := (acc_shares (F := F) c 0 (sentV (Bm) 0 1 c 0)).1 $$ Hac0
  icases Hsp with ⟨Hq0_0, Hq0_1, Hq0_2⟩
  iapply (wp_copyC (Bm) c KS KR 14 0 1 0 2 rfl rfl rfl rfl ⟨k0_dev19 c, k0_dev19_lt c⟩ (dev19_eq c) (O₁ := owedRev c 60) (O := owedRev c 59) rfl) $$ HIS HIRD Hq0_2 Hd14 HO HtS14 HrS HtR14 HrR
  iintro ⟨Hcs14, HO⟩
  -- k0_part11
  simp only [k0_part11_eq_skeleton]; unfold k0_part11_skel
  simp only [Prog.lift, Prog.bind_op, Prog.bind_ret, Prog.pure_eq_ret, Prog.bind_assoc, dev20_eq c, dev21_eq c]
  iapply (wp_copyC (Bm) c KS KR 13 0 1 0 1 rfl rfl rfl rfl ⟨k0_dev20 c, k0_dev20_lt c⟩ (dev20_eq c) (O₁ := owedRev c 59) (O := owedRev c 58) rfl) $$ HIS HIRD Hq0_1 Hd13 HO HtS13 HrS HtR13 HrR
  iintro ⟨Hcs13, HO⟩
  iapply (wp_copyC (Bm) c KS KR 12 0 1 0 0 rfl rfl rfl rfl ⟨k0_dev21 c, k0_dev21_lt c⟩ (dev21_eq c) (O₁ := owedRev c 58) (O := owedRev c 57) rfl) $$ HIS HIRD Hq0_0 Hd12 HO HtS12 HrS HtR12 HrR
  iintro ⟨Hcs12, HO⟩
  iapply (wp_sendwaitC (Bm) c KS 5 0 0 1 2 rfl rfl rfl rfl 57 (src := slotM 5) (dst := accM 1) rfl) $$ HIS Hcs5 HO Hlev HaS5
  iintro ⟨HO, HaS5, Hsh5⟩
  -- k0_part12
  simp only [k0_part12_eq_skeleton]; unfold k0_part12_skel
  simp only [Prog.lift, Prog.bind_op, Prog.bind_ret, Prog.pure_eq_ret, Prog.bind_assoc]
  iapply (wp_recvwaitC (Bm) c KR 5 0 0 1 5 rfl rfl rfl rfl 57 (by decide) (by decide) (src := accM 1) (dst := slotM 5) rfl) $$ HIR HcR5 HO Hlev HaR5
  iintro ⟨HO, HaR5, Hsl5⟩
  iapply (wp_sendwaitC (Bm) c KS 4 0 0 1 1 rfl rfl rfl rfl 57 (src := slotM 4) (dst := accM 1) rfl) $$ HIS Hcs4 HO Hlev HaS4
  iintro ⟨HO, HaS4, Hsh4⟩
  iapply (wp_recvwaitC (Bm) c KR 4 0 0 1 4 rfl rfl rfl rfl 57 (by decide) (by decide) (src := accM 1) (dst := slotM 4) rfl) $$ HIR HcR4 HO Hlev HaR4
  iintro ⟨HO, HaR4, Hsl4⟩
  iapply (wp_sendwaitC (Bm) c KS 3 0 0 1 0 rfl rfl rfl rfl 57 (src := slotM 3) (dst := accM 1) rfl) $$ HIS Hcs3 HO Hlev HaS3
  iintro ⟨HO, HaS3, Hsh3⟩
  -- k0_part13
  simp only [k0_part13_eq_skeleton]; unfold k0_part13_skel
  simp only [Prog.lift, Prog.bind_op, Prog.bind_ret, Prog.pure_eq_ret, Prog.bind_assoc]
  iapply (wp_recvwaitC (Bm) c KR 3 0 0 1 3 rfl rfl rfl rfl 57 (by decide) (by decide) (src := accM 1) (dst := slotM 3) rfl) $$ HIR HcR3 HO Hlev HaR3
  iintro ⟨HO, HaR3, Hsl3⟩
  ihave Hac1 := (acc_join3 (F := F) c 1 (sentV (Bm) 0 0 c 1)) $$ Hsh3 Hsh4 Hsh5
  iapply (wp_load_acc c 1 fullShare _) $$ Hac1
  iintro %v22 %hv22 Hac1
  iapply (wp_load_slot c 3 _) $$ Hsl3
  iintro %v23 %hv23 Hsl3
  iapply (wp_load_slot c 4 _) $$ Hsl4
  iintro %v24 %hv24 Hsl4
  iapply (wp_load_slot c 5 _) $$ Hsl5
  iintro %v25 %hv25 Hsl5
  iapply (wp_load_acc c 1 fullShare _) $$ Hac1
  iintro %v26 %hv26 Hac1
  iapply (wp_store_acc c 1 _ _) $$ Hac1
  iintro Hac1
  ihave Hac1 := (accAt_congr c 1 fullShare (show _ = sentV (Bm) 0 1 c 1 from sum_payload _ _ _ _ _ _ _ _ hv22 hv23 hv24 hv25)) $$ Hac1
  -- k0_part14
  simp only [k0_part14_eq_skeleton]; unfold k0_part14_skel
  simp only [Prog.lift, Prog.bind_op, Prog.bind_ret, Prog.pure_eq_ret, Prog.bind_assoc, dev22_eq c, dev23_eq c, dev24_eq c]
  -- issue group 5: layer 0, round 1, tile 1
  ihave Hsp := (acc_shares (F := F) c 1 (sentV (Bm) 0 1 c 1)).1 $$ Hac1
  icases Hsp with ⟨Hq1_0, Hq1_1, Hq1_2⟩
  iapply (wp_copyC (Bm) c KS KR 17 0 1 1 2 rfl rfl rfl rfl ⟨k0_dev22 c, k0_dev22_lt c⟩ (dev22_eq c) (O₁ := owedRev c 57) (O := owedRev c 56) rfl) $$ HIS HIRD Hq1_2 Hd17 HO HtS17 HrS HtR17 HrR
  iintro ⟨Hcs17, HO⟩
  iapply (wp_copyC (Bm) c KS KR 16 0 1 1 1 rfl rfl rfl rfl ⟨k0_dev23 c, k0_dev23_lt c⟩ (dev23_eq c) (O₁ := owedRev c 56) (O := owedRev c 55) rfl) $$ HIS HIRD Hq1_1 Hd16 HO HtS16 HrS HtR16 HrR
  iintro ⟨Hcs16, HO⟩
  iapply (wp_copyC (Bm) c KS KR 15 0 1 1 0 rfl rfl rfl rfl ⟨k0_dev24 c, k0_dev24_lt c⟩ (dev24_eq c) (O₁ := owedRev c 55) (O := owedRev c 54) rfl) $$ HIS HIRD Hq1_0 Hd15 HO HtS15 HrS HtR15 HrR
  iintro ⟨Hcs15, HO⟩
  -- k0_part15
  simp only [k0_part15_eq_skeleton]; unfold k0_part15_skel
  simp only [Prog.lift, Prog.bind_op, Prog.bind_ret, Prog.pure_eq_ret, Prog.bind_assoc]
  iapply (wp_sendwaitC (Bm) c KS 8 0 0 2 2 rfl rfl rfl rfl 54 (src := slotM 8) (dst := accM 2) rfl) $$ HIS Hcs8 HO Hlev HaS8
  iintro ⟨HO, HaS8, Hsh8⟩
  iapply (wp_recvwaitC (Bm) c KR 8 0 0 2 5 rfl rfl rfl rfl 54 (by decide) (by decide) (src := accM 2) (dst := slotM 8) rfl) $$ HIR HcR8 HO Hlev HaR8
  iintro ⟨HO, HaR8, Hsl8⟩
  iapply (wp_sendwaitC (Bm) c KS 7 0 0 2 1 rfl rfl rfl rfl 54 (src := slotM 7) (dst := accM 2) rfl) $$ HIS Hcs7 HO Hlev HaS7
  iintro ⟨HO, HaS7, Hsh7⟩
  iapply (wp_recvwaitC (Bm) c KR 7 0 0 2 4 rfl rfl rfl rfl 54 (by decide) (by decide) (src := accM 2) (dst := slotM 7) rfl) $$ HIR HcR7 HO Hlev HaR7
  iintro ⟨HO, HaR7, Hsl7⟩
  -- k0_part16
  simp only [k0_part16_eq_skeleton]; unfold k0_part16_skel
  simp only [Prog.lift, Prog.bind_op, Prog.bind_ret, Prog.pure_eq_ret, Prog.bind_assoc]
  iapply (wp_sendwaitC (Bm) c KS 6 0 0 2 0 rfl rfl rfl rfl 54 (src := slotM 6) (dst := accM 2) rfl) $$ HIS Hcs6 HO Hlev HaS6
  iintro ⟨HO, HaS6, Hsh6⟩
  iapply (wp_recvwaitC (Bm) c KR 6 0 0 2 3 rfl rfl rfl rfl 54 (by decide) (by decide) (src := accM 2) (dst := slotM 6) rfl) $$ HIR HcR6 HO Hlev HaR6
  iintro ⟨HO, HaR6, Hsl6⟩
  ihave Hac2 := (acc_join3 (F := F) c 2 (sentV (Bm) 0 0 c 2)) $$ Hsh6 Hsh7 Hsh8
  iapply (wp_load_acc c 2 fullShare _) $$ Hac2
  iintro %v27 %hv27 Hac2
  iapply (wp_load_slot c 6 _) $$ Hsl6
  iintro %v28 %hv28 Hsl6
  iapply (wp_load_slot c 7 _) $$ Hsl7
  iintro %v29 %hv29 Hsl7
  iapply (wp_load_slot c 8 _) $$ Hsl8
  iintro %v30 %hv30 Hsl8
  iapply (wp_load_acc c 2 fullShare _) $$ Hac2
  iintro %v31 %hv31 Hac2
  -- k0_part17
  simp only [k0_part17_eq_skeleton]; unfold k0_part17_skel
  simp only [Prog.lift, Prog.bind_op, Prog.bind_ret, Prog.pure_eq_ret, Prog.bind_assoc, dev25_eq c, dev26_eq c]
  iapply (wp_store_acc c 2 _ _) $$ Hac2
  iintro Hac2
  ihave Hac2 := (accAt_congr c 2 fullShare (show _ = sentV (Bm) 0 1 c 2 from sum_payload _ _ _ _ _ _ _ _ hv27 hv28 hv29 hv30)) $$ Hac2
  -- issue group 6: layer 0, round 1, tile 2
  ihave Hsp := (acc_shares (F := F) c 2 (sentV (Bm) 0 1 c 2)).1 $$ Hac2
  icases Hsp with ⟨Hq2_0, Hq2_1, Hq2_2⟩
  iapply (wp_copyC (Bm) c KS KR 20 0 1 2 2 rfl rfl rfl rfl ⟨k0_dev25 c, k0_dev25_lt c⟩ (dev25_eq c) (O₁ := owedRev c 54) (O := owedRev c 53) rfl) $$ HIS HIRD Hq2_2 Hd20 HO HtS20 HrS HtR20 HrR
  iintro ⟨Hcs20, HO⟩
  iapply (wp_copyC (Bm) c KS KR 19 0 1 2 1 rfl rfl rfl rfl ⟨k0_dev26 c, k0_dev26_lt c⟩ (dev26_eq c) (O₁ := owedRev c 53) (O := owedRev c 52) rfl) $$ HIS HIRD Hq2_1 Hd19 HO HtS19 HrS HtR19 HrR
  iintro ⟨Hcs19, HO⟩
  -- k0_part18
  simp only [k0_part18_eq_skeleton]; unfold k0_part18_skel
  simp only [Prog.lift, Prog.bind_op, Prog.bind_ret, Prog.pure_eq_ret, Prog.bind_assoc, dev27_eq c]
  iapply (wp_copyC (Bm) c KS KR 18 0 1 2 0 rfl rfl rfl rfl ⟨k0_dev27 c, k0_dev27_lt c⟩ (dev27_eq c) (O₁ := owedRev c 52) (O := owedRev c 51) rfl) $$ HIS HIRD Hq2_0 Hd18 HO HtS18 HrS HtR18 HrR
  iintro ⟨Hcs18, HO⟩
  iapply (wp_sendwaitC (Bm) c KS 11 0 0 3 2 rfl rfl rfl rfl 51 (src := slotM 11) (dst := accM 3) rfl) $$ HIS Hcs11 HO Hlev HaS11
  iintro ⟨HO, HaS11, Hsh11⟩
  iapply (wp_recvwaitC (Bm) c KR 11 0 0 3 5 rfl rfl rfl rfl 51 (by decide) (by decide) (src := accM 3) (dst := slotM 11) rfl) $$ HIR HcR11 HO Hlev HaR11
  iintro ⟨HO, HaR11, Hsl11⟩
  iapply (wp_sendwaitC (Bm) c KS 10 0 0 3 1 rfl rfl rfl rfl 51 (src := slotM 10) (dst := accM 3) rfl) $$ HIS Hcs10 HO Hlev HaS10
  iintro ⟨HO, HaS10, Hsh10⟩
  -- k0_part19
  simp only [k0_part19_eq_skeleton]; unfold k0_part19_skel
  simp only [Prog.lift, Prog.bind_op, Prog.bind_ret, Prog.pure_eq_ret, Prog.bind_assoc]
  iapply (wp_recvwaitC (Bm) c KR 10 0 0 3 4 rfl rfl rfl rfl 51 (by decide) (by decide) (src := accM 3) (dst := slotM 10) rfl) $$ HIR HcR10 HO Hlev HaR10
  iintro ⟨HO, HaR10, Hsl10⟩
  iapply (wp_sendwaitC (Bm) c KS 9 0 0 3 0 rfl rfl rfl rfl 51 (src := slotM 9) (dst := accM 3) rfl) $$ HIS Hcs9 HO Hlev HaS9
  iintro ⟨HO, HaS9, Hsh9⟩
  iapply (wp_recvwaitC (Bm) c KR 9 0 0 3 3 rfl rfl rfl rfl 51 (by decide) (by decide) (src := accM 3) (dst := slotM 9) rfl) $$ HIR HcR9 HO Hlev HaR9
  iintro ⟨HO, HaR9, Hsl9⟩
  ihave Hac3 := (acc_join3 (F := F) c 3 (sentV (Bm) 0 0 c 3)) $$ Hsh9 Hsh10 Hsh11
  iapply (wp_load_acc c 3 fullShare _) $$ Hac3
  iintro %v32 %hv32 Hac3
  iapply (wp_load_slot c 9 _) $$ Hsl9
  iintro %v33 %hv33 Hsl9
  -- k0_part20
  simp only [k0_part20_eq_skeleton]; unfold k0_part20_skel
  simp only [Prog.lift, Prog.bind_op, Prog.bind_ret, Prog.pure_eq_ret, Prog.bind_assoc, dev28_eq c]
  iapply (wp_load_slot c 10 _) $$ Hsl10
  iintro %v34 %hv34 Hsl10
  iapply (wp_load_slot c 11 _) $$ Hsl11
  iintro %v35 %hv35 Hsl11
  iapply (wp_load_acc c 3 fullShare _) $$ Hac3
  iintro %v36 %hv36 Hac3
  iapply (wp_store_acc c 3 _ _) $$ Hac3
  iintro Hac3
  ihave Hac3 := (accAt_congr c 3 fullShare (show _ = sentV (Bm) 0 1 c 3 from sum_payload _ _ _ _ _ _ _ _ hv32 hv33 hv34 hv35)) $$ Hac3
  -- issue group 7: layer 0, round 1, tile 3
  ihave Hsp := (acc_shares (F := F) c 3 (sentV (Bm) 0 1 c 3)).1 $$ Hac3
  icases Hsp with ⟨Hq3_0, Hq3_1, Hq3_2⟩
  iapply (wp_copyC (Bm) c KS KR 23 0 1 3 2 rfl rfl rfl rfl ⟨k0_dev28 c, k0_dev28_lt c⟩ (dev28_eq c) (O₁ := owedRev c 51) (O := owedRev c 50) rfl) $$ HIS HIRD Hq3_2 Hd23 HO HtS23 HrS HtR23 HrR
  iintro ⟨Hcs23, HO⟩
  -- k0_part21
  simp only [k0_part21_eq_skeleton]; unfold k0_part21_skel
  simp only [Prog.lift, Prog.bind_op, Prog.bind_ret, Prog.pure_eq_ret, Prog.bind_assoc, dev29_eq c, dev30_eq c]
  iapply (wp_copyC (Bm) c KS KR 22 0 1 3 1 rfl rfl rfl rfl ⟨k0_dev29 c, k0_dev29_lt c⟩ (dev29_eq c) (O₁ := owedRev c 50) (O := owedRev c 49) rfl) $$ HIS HIRD Hq3_1 Hd22 HO HtS22 HrS HtR22 HrR
  iintro ⟨Hcs22, HO⟩
  iapply (wp_copyC (Bm) c KS KR 21 0 1 3 0 rfl rfl rfl rfl ⟨k0_dev30 c, k0_dev30_lt c⟩ (dev30_eq c) (O₁ := owedRev c 49) (O := owedRev c 48) rfl) $$ HIS HIRD Hq3_0 Hd21 HO HtS21 HrS HtR21 HrR
  iintro ⟨Hcs21, HO⟩
  iapply (wp_sendwaitC (Bm) c KS 14 0 1 0 2 rfl rfl rfl rfl 48 (src := slotM 14) (dst := accM 0) rfl) $$ HIS Hcs14 HO Hlev HaS14
  iintro ⟨HO, HaS14, Hsh14⟩
  iapply (wp_recvwaitC (Bm) c KR 14 0 1 0 2 rfl rfl rfl rfl 48 (by decide) (by decide) (src := accM 0) (dst := slotM 14) rfl) $$ HIR HcR14 HO Hlev HaR14
  iintro ⟨HO, HaR14, Hsl14⟩
  -- k0_part22
  simp only [k0_part22_eq_skeleton]; unfold k0_part22_skel
  simp only [Prog.lift, Prog.bind_op, Prog.bind_ret, Prog.pure_eq_ret, Prog.bind_assoc]
  iapply (wp_sendwaitC (Bm) c KS 13 0 1 0 1 rfl rfl rfl rfl 48 (src := slotM 13) (dst := accM 0) rfl) $$ HIS Hcs13 HO Hlev HaS13
  iintro ⟨HO, HaS13, Hsh13⟩
  iapply (wp_recvwaitC (Bm) c KR 13 0 1 0 1 rfl rfl rfl rfl 48 (by decide) (by decide) (src := accM 0) (dst := slotM 13) rfl) $$ HIR HcR13 HO Hlev HaR13
  iintro ⟨HO, HaR13, Hsl13⟩
  iapply (wp_sendwaitC (Bm) c KS 12 0 1 0 0 rfl rfl rfl rfl 48 (src := slotM 12) (dst := accM 0) rfl) $$ HIS Hcs12 HO Hlev HaS12
  iintro ⟨HO, HaS12, Hsh12⟩
  -- k0_part23
  simp only [k0_part23_eq_skeleton]; unfold k0_part23_skel
  simp only [Prog.lift, Prog.bind_op, Prog.bind_ret, Prog.pure_eq_ret, Prog.bind_assoc]
  iapply (wp_recvwaitC (Bm) c KR 12 0 1 0 0 rfl rfl rfl rfl 48 (by decide) (by decide) (src := accM 0) (dst := slotM 12) rfl) $$ HIR HcR12 HO Hlev HaR12
  iintro ⟨HO, HaR12, Hsl12⟩
  ihave Hac0 := (acc_join3 (F := F) c 0 (sentV (Bm) 0 1 c 0)) $$ Hsh12 Hsh13 Hsh14
  iapply (wp_load_acc c 0 fullShare _) $$ Hac0
  iintro %v37 %hv37 Hac0
  iapply (wp_load_slot c 12 _) $$ Hsl12
  iintro %v38 %hv38 Hsl12
  iapply (wp_load_slot c 13 _) $$ Hsl13
  iintro %v39 %hv39 Hsl13
  iapply (wp_load_slot c 14 _) $$ Hsl14
  iintro %v40 %hv40 Hsl14
  iapply (wp_load_acc c 0 fullShare _) $$ Hac0
  iintro %v41 %hv41 Hac0
  iapply (wp_store_acc c 0 _ _) $$ Hac0
  iintro Hac0
  ihave Hac0 := (accAt_congr c 0 fullShare (show _ = xin (Bm) 1 c 0 from sum_payload _ _ _ _ _ _ _ _ hv37 hv38 hv39 hv40)) $$ Hac0
  iapply (wp_load_acc c 0 fullShare _) $$ Hac0
  iintro %v42 %hv42 Hac0
  iapply (wp_load_w3 c fullShare _) $$ Hx3
  iintro %v43 %hv43 Hx3
  subst hv43
  iapply (wp_load_w4 c fullShare _) $$ Hx4
  iintro %v44 %hv44 Hx4
  subst hv44
  -- k0_part24
  simp only [k0_part24_eq_skeleton]; unfold k0_part24_skel
  simp only [Prog.lift, Prog.bind_op, Prog.bind_ret, Prog.pure_eq_ret, Prog.bind_assoc, dev31_eq c, dev32_eq c]
  iapply (wp_load_acc c 0 fullShare _) $$ Hac0
  iintro %v45 %hv45 Hac0
  iapply (wp_store_acc c 0 _ _) $$ Hac0
  iintro Hac0
  ihave Hac0 := (accAt_congr c 0 fullShare (show _ = sentV (Bm) 1 0 c 0 from mlp_payload1 v42 ((Bm).wi 1 c) ((Bm).wo 1 c) _ hv42)) $$ Hac0
  -- issue group 8: layer 1, round 0, tile 0
  ihave Hsp := (acc_shares (F := F) c 0 (sentV (Bm) 1 0 c 0)).1 $$ Hac0
  icases Hsp with ⟨Hq0_0, Hq0_1, Hq0_2⟩
  iapply (wp_copyC (Bm) c KS KR 26 1 0 0 2 rfl rfl rfl rfl ⟨k0_dev31 c, k0_dev31_lt c⟩ (dev31_eq c) (O₁ := owedRev c 48) (O := owedRev c 47) rfl) $$ HIS HIRD Hq0_2 Hd26 HO HtS26 HrS HtR26 HrR
  iintro ⟨Hcs26, HO⟩
  iapply (wp_copyC (Bm) c KS KR 25 1 0 0 1 rfl rfl rfl rfl ⟨k0_dev32 c, k0_dev32_lt c⟩ (dev32_eq c) (O₁ := owedRev c 47) (O := owedRev c 46) rfl) $$ HIS HIRD Hq0_1 Hd25 HO HtS25 HrS HtR25 HrR
  iintro ⟨Hcs25, HO⟩
  -- k0_part25
  simp only [k0_part25_eq_skeleton]; unfold k0_part25_skel
  simp only [Prog.lift, Prog.bind_op, Prog.bind_ret, Prog.pure_eq_ret, Prog.bind_assoc, dev33_eq c]
  iapply (wp_copyC (Bm) c KS KR 24 1 0 0 0 rfl rfl rfl rfl ⟨k0_dev33 c, k0_dev33_lt c⟩ (dev33_eq c) (O₁ := owedRev c 46) (O := owedRev c 45) rfl) $$ HIS HIRD Hq0_0 Hd24 HO HtS24 HrS HtR24 HrR
  iintro ⟨Hcs24, HO⟩
  iapply (wp_sendwaitC (Bm) c KS 17 0 1 1 2 rfl rfl rfl rfl 45 (src := slotM 17) (dst := accM 1) rfl) $$ HIS Hcs17 HO Hlev HaS17
  iintro ⟨HO, HaS17, Hsh17⟩
  iapply (wp_recvwaitC (Bm) c KR 17 0 1 1 2 rfl rfl rfl rfl 45 (by decide) (by decide) (src := accM 1) (dst := slotM 17) rfl) $$ HIR HcR17 HO Hlev HaR17
  iintro ⟨HO, HaR17, Hsl17⟩
  iapply (wp_sendwaitC (Bm) c KS 16 0 1 1 1 rfl rfl rfl rfl 45 (src := slotM 16) (dst := accM 1) rfl) $$ HIS Hcs16 HO Hlev HaS16
  iintro ⟨HO, HaS16, Hsh16⟩
  -- k0_part26
  simp only [k0_part26_eq_skeleton]; unfold k0_part26_skel
  simp only [Prog.lift, Prog.bind_op, Prog.bind_ret, Prog.pure_eq_ret, Prog.bind_assoc]
  iapply (wp_recvwaitC (Bm) c KR 16 0 1 1 1 rfl rfl rfl rfl 45 (by decide) (by decide) (src := accM 1) (dst := slotM 16) rfl) $$ HIR HcR16 HO Hlev HaR16
  iintro ⟨HO, HaR16, Hsl16⟩
  iapply (wp_sendwaitC (Bm) c KS 15 0 1 1 0 rfl rfl rfl rfl 45 (src := slotM 15) (dst := accM 1) rfl) $$ HIS Hcs15 HO Hlev HaS15
  iintro ⟨HO, HaS15, Hsh15⟩
  iapply (wp_recvwaitC (Bm) c KR 15 0 1 1 0 rfl rfl rfl rfl 45 (by decide) (by decide) (src := accM 1) (dst := slotM 15) rfl) $$ HIR HcR15 HO Hlev HaR15
  iintro ⟨HO, HaR15, Hsl15⟩
  ihave Hac1 := (acc_join3 (F := F) c 1 (sentV (Bm) 0 1 c 1)) $$ Hsh15 Hsh16 Hsh17
  iapply (wp_load_acc c 1 fullShare _) $$ Hac1
  iintro %v46 %hv46 Hac1
  -- k0_part27
  simp only [k0_part27_eq_skeleton]; unfold k0_part27_skel
  simp only [Prog.lift, Prog.bind_op, Prog.bind_ret, Prog.pure_eq_ret, Prog.bind_assoc]
  iapply (wp_load_slot c 15 _) $$ Hsl15
  iintro %v47 %hv47 Hsl15
  iapply (wp_load_slot c 16 _) $$ Hsl16
  iintro %v48 %hv48 Hsl16
  iapply (wp_load_slot c 17 _) $$ Hsl17
  iintro %v49 %hv49 Hsl17
  iapply (wp_load_acc c 1 fullShare _) $$ Hac1
  iintro %v50 %hv50 Hac1
  iapply (wp_store_acc c 1 _ _) $$ Hac1
  iintro Hac1
  ihave Hac1 := (accAt_congr c 1 fullShare (show _ = xin (Bm) 1 c 1 from sum_payload _ _ _ _ _ _ _ _ hv46 hv47 hv48 hv49)) $$ Hac1
  iapply (wp_load_acc c 1 fullShare _) $$ Hac1
  iintro %v51 %hv51 Hac1
  iapply (wp_load_w3 c fullShare _) $$ Hx3
  iintro %v52 %hv52 Hx3
  subst hv52
  iapply (wp_load_w4 c fullShare _) $$ Hx4
  iintro %v53 %hv53 Hx4
  subst hv53
  iapply (wp_load_acc c 1 fullShare _) $$ Hac1
  iintro %v54 %hv54 Hac1
  iapply (wp_store_acc c 1 _ _) $$ Hac1
  iintro Hac1
  ihave Hac1 := (accAt_congr c 1 fullShare (show _ = sentV (Bm) 1 0 c 1 from mlp_payload1 v51 ((Bm).wi 1 c) ((Bm).wo 1 c) _ hv51)) $$ Hac1
  -- k0_part28
  simp only [k0_part28_eq_skeleton]; unfold k0_part28_skel
  simp only [Prog.lift, Prog.bind_op, Prog.bind_ret, Prog.pure_eq_ret, Prog.bind_assoc, dev34_eq c, dev35_eq c, dev36_eq c]
  -- issue group 9: layer 1, round 0, tile 1
  ihave Hsp := (acc_shares (F := F) c 1 (sentV (Bm) 1 0 c 1)).1 $$ Hac1
  icases Hsp with ⟨Hq1_0, Hq1_1, Hq1_2⟩
  iapply (wp_copyC (Bm) c KS KR 29 1 0 1 2 rfl rfl rfl rfl ⟨k0_dev34 c, k0_dev34_lt c⟩ (dev34_eq c) (O₁ := owedRev c 45) (O := owedRev c 44) rfl) $$ HIS HIRD Hq1_2 Hd29 HO HtS29 HrS HtR29 HrR
  iintro ⟨Hcs29, HO⟩
  iapply (wp_copyC (Bm) c KS KR 28 1 0 1 1 rfl rfl rfl rfl ⟨k0_dev35 c, k0_dev35_lt c⟩ (dev35_eq c) (O₁ := owedRev c 44) (O := owedRev c 43) rfl) $$ HIS HIRD Hq1_1 Hd28 HO HtS28 HrS HtR28 HrR
  iintro ⟨Hcs28, HO⟩
  iapply (wp_copyC (Bm) c KS KR 27 1 0 1 0 rfl rfl rfl rfl ⟨k0_dev36 c, k0_dev36_lt c⟩ (dev36_eq c) (O₁ := owedRev c 43) (O := owedRev c 42) rfl) $$ HIS HIRD Hq1_0 Hd27 HO HtS27 HrS HtR27 HrR
  iintro ⟨Hcs27, HO⟩
  -- k0_part29
  simp only [k0_part29_eq_skeleton]; unfold k0_part29_skel
  simp only [Prog.lift, Prog.bind_op, Prog.bind_ret, Prog.pure_eq_ret, Prog.bind_assoc]
  iapply (wp_sendwaitC (Bm) c KS 20 0 1 2 2 rfl rfl rfl rfl 42 (src := slotM 20) (dst := accM 2) rfl) $$ HIS Hcs20 HO Hlev HaS20
  iintro ⟨HO, HaS20, Hsh20⟩
  iapply (wp_recvwaitC (Bm) c KR 20 0 1 2 2 rfl rfl rfl rfl 42 (by decide) (by decide) (src := accM 2) (dst := slotM 20) rfl) $$ HIR HcR20 HO Hlev HaR20
  iintro ⟨HO, HaR20, Hsl20⟩
  iapply (wp_sendwaitC (Bm) c KS 19 0 1 2 1 rfl rfl rfl rfl 42 (src := slotM 19) (dst := accM 2) rfl) $$ HIS Hcs19 HO Hlev HaS19
  iintro ⟨HO, HaS19, Hsh19⟩
  -- k0_part30
  simp only [k0_part30_eq_skeleton]; unfold k0_part30_skel
  simp only [Prog.lift, Prog.bind_op, Prog.bind_ret, Prog.pure_eq_ret, Prog.bind_assoc]
  iapply (wp_recvwaitC (Bm) c KR 19 0 1 2 1 rfl rfl rfl rfl 42 (by decide) (by decide) (src := accM 2) (dst := slotM 19) rfl) $$ HIR HcR19 HO Hlev HaR19
  iintro ⟨HO, HaR19, Hsl19⟩
  iapply (wp_sendwaitC (Bm) c KS 18 0 1 2 0 rfl rfl rfl rfl 42 (src := slotM 18) (dst := accM 2) rfl) $$ HIS Hcs18 HO Hlev HaS18
  iintro ⟨HO, HaS18, Hsh18⟩
  iapply (wp_recvwaitC (Bm) c KR 18 0 1 2 0 rfl rfl rfl rfl 42 (by decide) (by decide) (src := accM 2) (dst := slotM 18) rfl) $$ HIR HcR18 HO Hlev HaR18
  iintro ⟨HO, HaR18, Hsl18⟩
  ihave Hac2 := (acc_join3 (F := F) c 2 (sentV (Bm) 0 1 c 2)) $$ Hsh18 Hsh19 Hsh20
  iapply (wp_load_acc c 2 fullShare _) $$ Hac2
  iintro %v55 %hv55 Hac2
  iapply (wp_load_slot c 18 _) $$ Hsl18
  iintro %v56 %hv56 Hsl18
  iapply (wp_load_slot c 19 _) $$ Hsl19
  iintro %v57 %hv57 Hsl19
  iapply (wp_load_slot c 20 _) $$ Hsl20
  iintro %v58 %hv58 Hsl20
  -- k0_part31
  simp only [k0_part31_eq_skeleton]; unfold k0_part31_skel
  simp only [Prog.lift, Prog.bind_op, Prog.bind_ret, Prog.pure_eq_ret, Prog.bind_assoc, dev37_eq c]
  iapply (wp_load_acc c 2 fullShare _) $$ Hac2
  iintro %v59 %hv59 Hac2
  iapply (wp_store_acc c 2 _ _) $$ Hac2
  iintro Hac2
  ihave Hac2 := (accAt_congr c 2 fullShare (show _ = xin (Bm) 1 c 2 from sum_payload _ _ _ _ _ _ _ _ hv55 hv56 hv57 hv58)) $$ Hac2
  iapply (wp_load_acc c 2 fullShare _) $$ Hac2
  iintro %v60 %hv60 Hac2
  iapply (wp_load_w3 c fullShare _) $$ Hx3
  iintro %v61 %hv61 Hx3
  subst hv61
  iapply (wp_load_w4 c fullShare _) $$ Hx4
  iintro %v62 %hv62 Hx4
  subst hv62
  iapply (wp_load_acc c 2 fullShare _) $$ Hac2
  iintro %v63 %hv63 Hac2
  iapply (wp_store_acc c 2 _ _) $$ Hac2
  iintro Hac2
  ihave Hac2 := (accAt_congr c 2 fullShare (show _ = sentV (Bm) 1 0 c 2 from mlp_payload1 v60 ((Bm).wi 1 c) ((Bm).wo 1 c) _ hv60)) $$ Hac2
  -- issue group 10: layer 1, round 0, tile 2
  ihave Hsp := (acc_shares (F := F) c 2 (sentV (Bm) 1 0 c 2)).1 $$ Hac2
  icases Hsp with ⟨Hq2_0, Hq2_1, Hq2_2⟩
  iapply (wp_copyC (Bm) c KS KR 32 1 0 2 2 rfl rfl rfl rfl ⟨k0_dev37 c, k0_dev37_lt c⟩ (dev37_eq c) (O₁ := owedRev c 42) (O := owedRev c 41) rfl) $$ HIS HIRD Hq2_2 Hd32 HO HtS32 HrS HtR32 HrR
  iintro ⟨Hcs32, HO⟩
  -- k0_part32
  simp only [k0_part32_eq_skeleton]; unfold k0_part32_skel
  simp only [Prog.lift, Prog.bind_op, Prog.bind_ret, Prog.pure_eq_ret, Prog.bind_assoc, dev38_eq c, dev39_eq c]
  iapply (wp_copyC (Bm) c KS KR 31 1 0 2 1 rfl rfl rfl rfl ⟨k0_dev38 c, k0_dev38_lt c⟩ (dev38_eq c) (O₁ := owedRev c 41) (O := owedRev c 40) rfl) $$ HIS HIRD Hq2_1 Hd31 HO HtS31 HrS HtR31 HrR
  iintro ⟨Hcs31, HO⟩
  iapply (wp_copyC (Bm) c KS KR 30 1 0 2 0 rfl rfl rfl rfl ⟨k0_dev39 c, k0_dev39_lt c⟩ (dev39_eq c) (O₁ := owedRev c 40) (O := owedRev c 39) rfl) $$ HIS HIRD Hq2_0 Hd30 HO HtS30 HrS HtR30 HrR
  iintro ⟨Hcs30, HO⟩
  iapply (wp_sendwaitC (Bm) c KS 23 0 1 3 2 rfl rfl rfl rfl 39 (src := slotM 23) (dst := accM 3) rfl) $$ HIS Hcs23 HO Hlev HaS23
  iintro ⟨HO, HaS23, Hsh23⟩
  -- k0_part33
  simp only [k0_part33_eq_skeleton]; unfold k0_part33_skel
  simp only [Prog.lift, Prog.bind_op, Prog.bind_ret, Prog.pure_eq_ret, Prog.bind_assoc]
  iapply (wp_recvwaitC (Bm) c KR 23 0 1 3 2 rfl rfl rfl rfl 39 (by decide) (by decide) (src := accM 3) (dst := slotM 23) rfl) $$ HIR HcR23 HO Hlev HaR23
  iintro ⟨HO, HaR23, Hsl23⟩
  iapply (wp_sendwaitC (Bm) c KS 22 0 1 3 1 rfl rfl rfl rfl 39 (src := slotM 22) (dst := accM 3) rfl) $$ HIS Hcs22 HO Hlev HaS22
  iintro ⟨HO, HaS22, Hsh22⟩
  iapply (wp_recvwaitC (Bm) c KR 22 0 1 3 1 rfl rfl rfl rfl 39 (by decide) (by decide) (src := accM 3) (dst := slotM 22) rfl) $$ HIR HcR22 HO Hlev HaR22
  iintro ⟨HO, HaR22, Hsl22⟩
  -- k0_part34
  simp only [k0_part34_eq_skeleton]; unfold k0_part34_skel
  simp only [Prog.lift, Prog.bind_op, Prog.bind_ret, Prog.pure_eq_ret, Prog.bind_assoc]
  iapply (wp_sendwaitC (Bm) c KS 21 0 1 3 0 rfl rfl rfl rfl 39 (src := slotM 21) (dst := accM 3) rfl) $$ HIS Hcs21 HO Hlev HaS21
  iintro ⟨HO, HaS21, Hsh21⟩
  iapply (wp_recvwaitC (Bm) c KR 21 0 1 3 0 rfl rfl rfl rfl 39 (by decide) (by decide) (src := accM 3) (dst := slotM 21) rfl) $$ HIR HcR21 HO Hlev HaR21
  iintro ⟨HO, HaR21, Hsl21⟩
  ihave Hac3 := (acc_join3 (F := F) c 3 (sentV (Bm) 0 1 c 3)) $$ Hsh21 Hsh22 Hsh23
  iapply (wp_load_acc c 3 fullShare _) $$ Hac3
  iintro %v64 %hv64 Hac3
  iapply (wp_load_slot c 21 _) $$ Hsl21
  iintro %v65 %hv65 Hsl21
  iapply (wp_load_slot c 22 _) $$ Hsl22
  iintro %v66 %hv66 Hsl22
  iapply (wp_load_slot c 23 _) $$ Hsl23
  iintro %v67 %hv67 Hsl23
  iapply (wp_load_acc c 3 fullShare _) $$ Hac3
  iintro %v68 %hv68 Hac3
  iapply (wp_store_acc c 3 _ _) $$ Hac3
  iintro Hac3
  ihave Hac3 := (accAt_congr c 3 fullShare (show _ = xin (Bm) 1 c 3 from sum_payload _ _ _ _ _ _ _ _ hv64 hv65 hv66 hv67)) $$ Hac3
  iapply (wp_load_acc c 3 fullShare _) $$ Hac3
  iintro %v69 %hv69 Hac3
  -- k0_part35
  simp only [k0_part35_eq_skeleton]; unfold k0_part35_skel
  simp only [Prog.lift, Prog.bind_op, Prog.bind_ret, Prog.pure_eq_ret, Prog.bind_assoc, dev40_eq c]
  iapply (wp_load_w3 c fullShare _) $$ Hx3
  iintro %v70 %hv70 Hx3
  subst hv70
  iapply (wp_load_w4 c fullShare _) $$ Hx4
  iintro %v71 %hv71 Hx4
  subst hv71
  iapply (wp_load_acc c 3 fullShare _) $$ Hac3
  iintro %v72 %hv72 Hac3
  iapply (wp_store_acc c 3 _ _) $$ Hac3
  iintro Hac3
  ihave Hac3 := (accAt_congr c 3 fullShare (show _ = sentV (Bm) 1 0 c 3 from mlp_payload1 v69 ((Bm).wi 1 c) ((Bm).wo 1 c) _ hv69)) $$ Hac3
  -- issue group 11: layer 1, round 0, tile 3
  ihave Hsp := (acc_shares (F := F) c 3 (sentV (Bm) 1 0 c 3)).1 $$ Hac3
  icases Hsp with ⟨Hq3_0, Hq3_1, Hq3_2⟩
  iapply (wp_copyC (Bm) c KS KR 35 1 0 3 2 rfl rfl rfl rfl ⟨k0_dev40 c, k0_dev40_lt c⟩ (dev40_eq c) (O₁ := owedRev c 39) (O := owedRev c 38) rfl) $$ HIS HIRD Hq3_2 Hd35 HO HtS35 HrS HtR35 HrR
  iintro ⟨Hcs35, HO⟩
  -- k0_part36
  simp only [k0_part36_eq_skeleton]; unfold k0_part36_skel
  simp only [Prog.lift, Prog.bind_op, Prog.bind_ret, Prog.pure_eq_ret, Prog.bind_assoc, dev41_eq c, dev42_eq c]
  iapply (wp_copyC (Bm) c KS KR 34 1 0 3 1 rfl rfl rfl rfl ⟨k0_dev41 c, k0_dev41_lt c⟩ (dev41_eq c) (O₁ := owedRev c 38) (O := owedRev c 37) rfl) $$ HIS HIRD Hq3_1 Hd34 HO HtS34 HrS HtR34 HrR
  iintro ⟨Hcs34, HO⟩
  iapply (wp_copyC (Bm) c KS KR 33 1 0 3 0 rfl rfl rfl rfl ⟨k0_dev42 c, k0_dev42_lt c⟩ (dev42_eq c) (O₁ := owedRev c 37) (O := owedRev c 36) rfl) $$ HIS HIRD Hq3_0 Hd33 HO HtS33 HrS HtR33 HrR
  iintro ⟨Hcs33, HO⟩
  iapply (wp_sendwaitC (Bm) c KS 26 1 0 0 2 rfl rfl rfl rfl 36 (src := slotM 26) (dst := accM 0) rfl) $$ HIS Hcs26 HO Hlev HaS26
  iintro ⟨HO, HaS26, Hsh26⟩
  iapply (wp_recvwaitC (Bm) c KR 26 1 0 0 5 rfl rfl rfl rfl 36 (by decide) (by decide) (src := accM 0) (dst := slotM 26) rfl) $$ HIR HcR26 HO Hlev HaR26
  iintro ⟨HO, HaR26, Hsl26⟩
  -- k0_part37
  simp only [k0_part37_eq_skeleton]; unfold k0_part37_skel
  simp only [Prog.lift, Prog.bind_op, Prog.bind_ret, Prog.pure_eq_ret, Prog.bind_assoc]
  iapply (wp_sendwaitC (Bm) c KS 25 1 0 0 1 rfl rfl rfl rfl 36 (src := slotM 25) (dst := accM 0) rfl) $$ HIS Hcs25 HO Hlev HaS25
  iintro ⟨HO, HaS25, Hsh25⟩
  iapply (wp_recvwaitC (Bm) c KR 25 1 0 0 4 rfl rfl rfl rfl 36 (by decide) (by decide) (src := accM 0) (dst := slotM 25) rfl) $$ HIR HcR25 HO Hlev HaR25
  iintro ⟨HO, HaR25, Hsl25⟩
  iapply (wp_sendwaitC (Bm) c KS 24 1 0 0 0 rfl rfl rfl rfl 36 (src := slotM 24) (dst := accM 0) rfl) $$ HIS Hcs24 HO Hlev HaS24
  iintro ⟨HO, HaS24, Hsh24⟩
  -- k0_part38
  simp only [k0_part38_eq_skeleton]; unfold k0_part38_skel
  simp only [Prog.lift, Prog.bind_op, Prog.bind_ret, Prog.pure_eq_ret, Prog.bind_assoc, dev43_eq c]
  iapply (wp_recvwaitC (Bm) c KR 24 1 0 0 3 rfl rfl rfl rfl 36 (by decide) (by decide) (src := accM 0) (dst := slotM 24) rfl) $$ HIR HcR24 HO Hlev HaR24
  iintro ⟨HO, HaR24, Hsl24⟩
  ihave Hac0 := (acc_join3 (F := F) c 0 (sentV (Bm) 1 0 c 0)) $$ Hsh24 Hsh25 Hsh26
  iapply (wp_load_acc c 0 fullShare _) $$ Hac0
  iintro %v73 %hv73 Hac0
  iapply (wp_load_slot c 24 _) $$ Hsl24
  iintro %v74 %hv74 Hsl24
  iapply (wp_load_slot c 25 _) $$ Hsl25
  iintro %v75 %hv75 Hsl25
  iapply (wp_load_slot c 26 _) $$ Hsl26
  iintro %v76 %hv76 Hsl26
  iapply (wp_load_acc c 0 fullShare _) $$ Hac0
  iintro %v77 %hv77 Hac0
  iapply (wp_store_acc c 0 _ _) $$ Hac0
  iintro Hac0
  ihave Hac0 := (accAt_congr c 0 fullShare (show _ = sentV (Bm) 1 1 c 0 from sum_payload _ _ _ _ _ _ _ _ hv73 hv74 hv75 hv76)) $$ Hac0
  -- issue group 12: layer 1, round 1, tile 0
  ihave Hsp := (acc_shares (F := F) c 0 (sentV (Bm) 1 1 c 0)).1 $$ Hac0
  icases Hsp with ⟨Hq0_0, Hq0_1, Hq0_2⟩
  iapply (wp_copyC (Bm) c KS KR 38 1 1 0 2 rfl rfl rfl rfl ⟨k0_dev43 c, k0_dev43_lt c⟩ (dev43_eq c) (O₁ := owedRev c 36) (O := owedRev c 35) rfl) $$ HIS HIRD Hq0_2 Hd38 HO HtS38 HrS HtR38 HrR
  iintro ⟨Hcs38, HO⟩
  -- k0_part39
  simp only [k0_part39_eq_skeleton]; unfold k0_part39_skel
  simp only [Prog.lift, Prog.bind_op, Prog.bind_ret, Prog.pure_eq_ret, Prog.bind_assoc, dev44_eq c, dev45_eq c]
  iapply (wp_copyC (Bm) c KS KR 37 1 1 0 1 rfl rfl rfl rfl ⟨k0_dev44 c, k0_dev44_lt c⟩ (dev44_eq c) (O₁ := owedRev c 35) (O := owedRev c 34) rfl) $$ HIS HIRD Hq0_1 Hd37 HO HtS37 HrS HtR37 HrR
  iintro ⟨Hcs37, HO⟩
  iapply (wp_copyC (Bm) c KS KR 36 1 1 0 0 rfl rfl rfl rfl ⟨k0_dev45 c, k0_dev45_lt c⟩ (dev45_eq c) (O₁ := owedRev c 34) (O := owedRev c 33) rfl) $$ HIS HIRD Hq0_0 Hd36 HO HtS36 HrS HtR36 HrR
  iintro ⟨Hcs36, HO⟩
  iapply (wp_sendwaitC (Bm) c KS 29 1 0 1 2 rfl rfl rfl rfl 33 (src := slotM 29) (dst := accM 1) rfl) $$ HIS Hcs29 HO Hlev HaS29
  iintro ⟨HO, HaS29, Hsh29⟩
  -- k0_part40
  simp only [k0_part40_eq_skeleton]; unfold k0_part40_skel
  simp only [Prog.lift, Prog.bind_op, Prog.bind_ret, Prog.pure_eq_ret, Prog.bind_assoc]
  iapply (wp_recvwaitC (Bm) c KR 29 1 0 1 5 rfl rfl rfl rfl 33 (by decide) (by decide) (src := accM 1) (dst := slotM 29) rfl) $$ HIR HcR29 HO Hlev HaR29
  iintro ⟨HO, HaR29, Hsl29⟩
  iapply (wp_sendwaitC (Bm) c KS 28 1 0 1 1 rfl rfl rfl rfl 33 (src := slotM 28) (dst := accM 1) rfl) $$ HIS Hcs28 HO Hlev HaS28
  iintro ⟨HO, HaS28, Hsh28⟩
  iapply (wp_recvwaitC (Bm) c KR 28 1 0 1 4 rfl rfl rfl rfl 33 (by decide) (by decide) (src := accM 1) (dst := slotM 28) rfl) $$ HIR HcR28 HO Hlev HaR28
  iintro ⟨HO, HaR28, Hsl28⟩
  -- k0_part41
  simp only [k0_part41_eq_skeleton]; unfold k0_part41_skel
  simp only [Prog.lift, Prog.bind_op, Prog.bind_ret, Prog.pure_eq_ret, Prog.bind_assoc]
  iapply (wp_sendwaitC (Bm) c KS 27 1 0 1 0 rfl rfl rfl rfl 33 (src := slotM 27) (dst := accM 1) rfl) $$ HIS Hcs27 HO Hlev HaS27
  iintro ⟨HO, HaS27, Hsh27⟩
  iapply (wp_recvwaitC (Bm) c KR 27 1 0 1 3 rfl rfl rfl rfl 33 (by decide) (by decide) (src := accM 1) (dst := slotM 27) rfl) $$ HIR HcR27 HO Hlev HaR27
  iintro ⟨HO, HaR27, Hsl27⟩
  ihave Hac1 := (acc_join3 (F := F) c 1 (sentV (Bm) 1 0 c 1)) $$ Hsh27 Hsh28 Hsh29
  iapply (wp_load_acc c 1 fullShare _) $$ Hac1
  iintro %v78 %hv78 Hac1
  iapply (wp_load_slot c 27 _) $$ Hsl27
  iintro %v79 %hv79 Hsl27
  iapply (wp_load_slot c 28 _) $$ Hsl28
  iintro %v80 %hv80 Hsl28
  iapply (wp_load_slot c 29 _) $$ Hsl29
  iintro %v81 %hv81 Hsl29
  iapply (wp_load_acc c 1 fullShare _) $$ Hac1
  iintro %v82 %hv82 Hac1
  iapply (wp_store_acc c 1 _ _) $$ Hac1
  iintro Hac1
  ihave Hac1 := (accAt_congr c 1 fullShare (show _ = sentV (Bm) 1 1 c 1 from sum_payload _ _ _ _ _ _ _ _ hv78 hv79 hv80 hv81)) $$ Hac1
  -- k0_part42
  simp only [k0_part42_eq_skeleton]; unfold k0_part42_skel
  simp only [Prog.lift, Prog.bind_op, Prog.bind_ret, Prog.pure_eq_ret, Prog.bind_assoc, dev46_eq c, dev47_eq c, dev48_eq c]
  -- issue group 13: layer 1, round 1, tile 1
  ihave Hsp := (acc_shares (F := F) c 1 (sentV (Bm) 1 1 c 1)).1 $$ Hac1
  icases Hsp with ⟨Hq1_0, Hq1_1, Hq1_2⟩
  iapply (wp_copyC (Bm) c KS KR 41 1 1 1 2 rfl rfl rfl rfl ⟨k0_dev46 c, k0_dev46_lt c⟩ (dev46_eq c) (O₁ := owedRev c 33) (O := owedRev c 32) rfl) $$ HIS HIRD Hq1_2 Hd41 HO HtS41 HrS HtR41 HrR
  iintro ⟨Hcs41, HO⟩
  iapply (wp_copyC (Bm) c KS KR 40 1 1 1 1 rfl rfl rfl rfl ⟨k0_dev47 c, k0_dev47_lt c⟩ (dev47_eq c) (O₁ := owedRev c 32) (O := owedRev c 31) rfl) $$ HIS HIRD Hq1_1 Hd40 HO HtS40 HrS HtR40 HrR
  iintro ⟨Hcs40, HO⟩
  iapply (wp_copyC (Bm) c KS KR 39 1 1 1 0 rfl rfl rfl rfl ⟨k0_dev48 c, k0_dev48_lt c⟩ (dev48_eq c) (O₁ := owedRev c 31) (O := owedRev c 30) rfl) $$ HIS HIRD Hq1_0 Hd39 HO HtS39 HrS HtR39 HrR
  iintro ⟨Hcs39, HO⟩
  -- k0_part43
  simp only [k0_part43_eq_skeleton]; unfold k0_part43_skel
  simp only [Prog.lift, Prog.bind_op, Prog.bind_ret, Prog.pure_eq_ret, Prog.bind_assoc]
  iapply (wp_sendwaitC (Bm) c KS 32 1 0 2 2 rfl rfl rfl rfl 30 (src := slotM 32) (dst := accM 2) rfl) $$ HIS Hcs32 HO Hlev HaS32
  iintro ⟨HO, HaS32, Hsh32⟩
  iapply (wp_recvwaitC (Bm) c KR 32 1 0 2 5 rfl rfl rfl rfl 30 (by decide) (by decide) (src := accM 2) (dst := slotM 32) rfl) $$ HIR HcR32 HO Hlev HaR32
  iintro ⟨HO, HaR32, Hsl32⟩
  iapply (wp_sendwaitC (Bm) c KS 31 1 0 2 1 rfl rfl rfl rfl 30 (src := slotM 31) (dst := accM 2) rfl) $$ HIS Hcs31 HO Hlev HaS31
  iintro ⟨HO, HaS31, Hsh31⟩
  -- k0_part44
  simp only [k0_part44_eq_skeleton]; unfold k0_part44_skel
  simp only [Prog.lift, Prog.bind_op, Prog.bind_ret, Prog.pure_eq_ret, Prog.bind_assoc]
  iapply (wp_recvwaitC (Bm) c KR 31 1 0 2 4 rfl rfl rfl rfl 30 (by decide) (by decide) (src := accM 2) (dst := slotM 31) rfl) $$ HIR HcR31 HO Hlev HaR31
  iintro ⟨HO, HaR31, Hsl31⟩
  iapply (wp_sendwaitC (Bm) c KS 30 1 0 2 0 rfl rfl rfl rfl 30 (src := slotM 30) (dst := accM 2) rfl) $$ HIS Hcs30 HO Hlev HaS30
  iintro ⟨HO, HaS30, Hsh30⟩
  iapply (wp_recvwaitC (Bm) c KR 30 1 0 2 3 rfl rfl rfl rfl 30 (by decide) (by decide) (src := accM 2) (dst := slotM 30) rfl) $$ HIR HcR30 HO Hlev HaR30
  iintro ⟨HO, HaR30, Hsl30⟩
  ihave Hac2 := (acc_join3 (F := F) c 2 (sentV (Bm) 1 0 c 2)) $$ Hsh30 Hsh31 Hsh32
  iapply (wp_load_acc c 2 fullShare _) $$ Hac2
  iintro %v83 %hv83 Hac2
  iapply (wp_load_slot c 30 _) $$ Hsl30
  iintro %v84 %hv84 Hsl30
  iapply (wp_load_slot c 31 _) $$ Hsl31
  iintro %v85 %hv85 Hsl31
  -- k0_part45
  simp only [k0_part45_eq_skeleton]; unfold k0_part45_skel
  simp only [Prog.lift, Prog.bind_op, Prog.bind_ret, Prog.pure_eq_ret, Prog.bind_assoc, dev49_eq c, dev50_eq c]
  iapply (wp_load_slot c 32 _) $$ Hsl32
  iintro %v86 %hv86 Hsl32
  iapply (wp_load_acc c 2 fullShare _) $$ Hac2
  iintro %v87 %hv87 Hac2
  iapply (wp_store_acc c 2 _ _) $$ Hac2
  iintro Hac2
  ihave Hac2 := (accAt_congr c 2 fullShare (show _ = sentV (Bm) 1 1 c 2 from sum_payload _ _ _ _ _ _ _ _ hv83 hv84 hv85 hv86)) $$ Hac2
  -- issue group 14: layer 1, round 1, tile 2
  ihave Hsp := (acc_shares (F := F) c 2 (sentV (Bm) 1 1 c 2)).1 $$ Hac2
  icases Hsp with ⟨Hq2_0, Hq2_1, Hq2_2⟩
  iapply (wp_copyC (Bm) c KS KR 44 1 1 2 2 rfl rfl rfl rfl ⟨k0_dev49 c, k0_dev49_lt c⟩ (dev49_eq c) (O₁ := owedRev c 30) (O := owedRev c 29) rfl) $$ HIS HIRD Hq2_2 Hd44 HO HtS44 HrS HtR44 HrR
  iintro ⟨Hcs44, HO⟩
  iapply (wp_copyC (Bm) c KS KR 43 1 1 2 1 rfl rfl rfl rfl ⟨k0_dev50 c, k0_dev50_lt c⟩ (dev50_eq c) (O₁ := owedRev c 29) (O := owedRev c 28) rfl) $$ HIS HIRD Hq2_1 Hd43 HO HtS43 HrS HtR43 HrR
  iintro ⟨Hcs43, HO⟩
  -- k0_part46
  simp only [k0_part46_eq_skeleton]; unfold k0_part46_skel
  simp only [Prog.lift, Prog.bind_op, Prog.bind_ret, Prog.pure_eq_ret, Prog.bind_assoc, dev51_eq c]
  iapply (wp_copyC (Bm) c KS KR 42 1 1 2 0 rfl rfl rfl rfl ⟨k0_dev51 c, k0_dev51_lt c⟩ (dev51_eq c) (O₁ := owedRev c 28) (O := owedRev c 27) rfl) $$ HIS HIRD Hq2_0 Hd42 HO HtS42 HrS HtR42 HrR
  iintro ⟨Hcs42, HO⟩
  iapply (wp_sendwaitC (Bm) c KS 35 1 0 3 2 rfl rfl rfl rfl 27 (src := slotM 35) (dst := accM 3) rfl) $$ HIS Hcs35 HO Hlev HaS35
  iintro ⟨HO, HaS35, Hsh35⟩
  iapply (wp_recvwaitC (Bm) c KR 35 1 0 3 5 rfl rfl rfl rfl 27 (by decide) (by decide) (src := accM 3) (dst := slotM 35) rfl) $$ HIR HcR35 HO Hlev HaR35
  iintro ⟨HO, HaR35, Hsl35⟩
  -- k0_part47
  simp only [k0_part47_eq_skeleton]; unfold k0_part47_skel
  simp only [Prog.lift, Prog.bind_op, Prog.bind_ret, Prog.pure_eq_ret, Prog.bind_assoc]
  iapply (wp_sendwaitC (Bm) c KS 34 1 0 3 1 rfl rfl rfl rfl 27 (src := slotM 34) (dst := accM 3) rfl) $$ HIS Hcs34 HO Hlev HaS34
  iintro ⟨HO, HaS34, Hsh34⟩
  iapply (wp_recvwaitC (Bm) c KR 34 1 0 3 4 rfl rfl rfl rfl 27 (by decide) (by decide) (src := accM 3) (dst := slotM 34) rfl) $$ HIR HcR34 HO Hlev HaR34
  iintro ⟨HO, HaR34, Hsl34⟩
  iapply (wp_sendwaitC (Bm) c KS 33 1 0 3 0 rfl rfl rfl rfl 27 (src := slotM 33) (dst := accM 3) rfl) $$ HIS Hcs33 HO Hlev HaS33
  iintro ⟨HO, HaS33, Hsh33⟩
  -- k0_part48
  simp only [k0_part48_eq_skeleton]; unfold k0_part48_skel
  simp only [Prog.lift, Prog.bind_op, Prog.bind_ret, Prog.pure_eq_ret, Prog.bind_assoc, dev52_eq c]
  iapply (wp_recvwaitC (Bm) c KR 33 1 0 3 3 rfl rfl rfl rfl 27 (by decide) (by decide) (src := accM 3) (dst := slotM 33) rfl) $$ HIR HcR33 HO Hlev HaR33
  iintro ⟨HO, HaR33, Hsl33⟩
  ihave Hac3 := (acc_join3 (F := F) c 3 (sentV (Bm) 1 0 c 3)) $$ Hsh33 Hsh34 Hsh35
  iapply (wp_load_acc c 3 fullShare _) $$ Hac3
  iintro %v88 %hv88 Hac3
  iapply (wp_load_slot c 33 _) $$ Hsl33
  iintro %v89 %hv89 Hsl33
  iapply (wp_load_slot c 34 _) $$ Hsl34
  iintro %v90 %hv90 Hsl34
  iapply (wp_load_slot c 35 _) $$ Hsl35
  iintro %v91 %hv91 Hsl35
  iapply (wp_load_acc c 3 fullShare _) $$ Hac3
  iintro %v92 %hv92 Hac3
  iapply (wp_store_acc c 3 _ _) $$ Hac3
  iintro Hac3
  ihave Hac3 := (accAt_congr c 3 fullShare (show _ = sentV (Bm) 1 1 c 3 from sum_payload _ _ _ _ _ _ _ _ hv88 hv89 hv90 hv91)) $$ Hac3
  -- issue group 15: layer 1, round 1, tile 3
  ihave Hsp := (acc_shares (F := F) c 3 (sentV (Bm) 1 1 c 3)).1 $$ Hac3
  icases Hsp with ⟨Hq3_0, Hq3_1, Hq3_2⟩
  iapply (wp_copyC (Bm) c KS KR 47 1 1 3 2 rfl rfl rfl rfl ⟨k0_dev52 c, k0_dev52_lt c⟩ (dev52_eq c) (O₁ := owedRev c 27) (O := owedRev c 26) rfl) $$ HIS HIRD Hq3_2 Hd47 HO HtS47 HrS HtR47 HrR
  iintro ⟨Hcs47, HO⟩
  -- k0_part49
  simp only [k0_part49_eq_skeleton]; unfold k0_part49_skel
  simp only [Prog.lift, Prog.bind_op, Prog.bind_ret, Prog.pure_eq_ret, Prog.bind_assoc, dev53_eq c, dev54_eq c]
  iapply (wp_copyC (Bm) c KS KR 46 1 1 3 1 rfl rfl rfl rfl ⟨k0_dev53 c, k0_dev53_lt c⟩ (dev53_eq c) (O₁ := owedRev c 26) (O := owedRev c 25) rfl) $$ HIS HIRD Hq3_1 Hd46 HO HtS46 HrS HtR46 HrR
  iintro ⟨Hcs46, HO⟩
  iapply (wp_copyC (Bm) c KS KR 45 1 1 3 0 rfl rfl rfl rfl ⟨k0_dev54 c, k0_dev54_lt c⟩ (dev54_eq c) (O₁ := owedRev c 25) (O := owedRev c 24) rfl) $$ HIS HIRD Hq3_0 Hd45 HO HtS45 HrS HtR45 HrR
  iintro ⟨Hcs45, HO⟩
  iapply (wp_sendwaitC (Bm) c KS 38 1 1 0 2 rfl rfl rfl rfl 24 (src := slotM 38) (dst := accM 0) rfl) $$ HIS Hcs38 HO Hlev HaS38
  iintro ⟨HO, HaS38, Hsh38⟩
  -- k0_part50
  simp only [k0_part50_eq_skeleton]; unfold k0_part50_skel
  simp only [Prog.lift, Prog.bind_op, Prog.bind_ret, Prog.pure_eq_ret, Prog.bind_assoc]
  iapply (wp_recvwaitC (Bm) c KR 38 1 1 0 2 rfl rfl rfl rfl 24 (by decide) (by decide) (src := accM 0) (dst := slotM 38) rfl) $$ HIR HcR38 HO Hlev HaR38
  iintro ⟨HO, HaR38, Hsl38⟩
  iapply (wp_sendwaitC (Bm) c KS 37 1 1 0 1 rfl rfl rfl rfl 24 (src := slotM 37) (dst := accM 0) rfl) $$ HIS Hcs37 HO Hlev HaS37
  iintro ⟨HO, HaS37, Hsh37⟩
  iapply (wp_recvwaitC (Bm) c KR 37 1 1 0 1 rfl rfl rfl rfl 24 (by decide) (by decide) (src := accM 0) (dst := slotM 37) rfl) $$ HIR HcR37 HO Hlev HaR37
  iintro ⟨HO, HaR37, Hsl37⟩
  -- k0_part51
  simp only [k0_part51_eq_skeleton]; unfold k0_part51_skel
  simp only [Prog.lift, Prog.bind_op, Prog.bind_ret, Prog.pure_eq_ret, Prog.bind_assoc]
  iapply (wp_sendwaitC (Bm) c KS 36 1 1 0 0 rfl rfl rfl rfl 24 (src := slotM 36) (dst := accM 0) rfl) $$ HIS Hcs36 HO Hlev HaS36
  iintro ⟨HO, HaS36, Hsh36⟩
  iapply (wp_recvwaitC (Bm) c KR 36 1 1 0 0 rfl rfl rfl rfl 24 (by decide) (by decide) (src := accM 0) (dst := slotM 36) rfl) $$ HIR HcR36 HO Hlev HaR36
  iintro ⟨HO, HaR36, Hsl36⟩
  ihave Hac0 := (acc_join3 (F := F) c 0 (sentV (Bm) 1 1 c 0)) $$ Hsh36 Hsh37 Hsh38
  iapply (wp_load_acc c 0 fullShare _) $$ Hac0
  iintro %v93 %hv93 Hac0
  iapply (wp_load_slot c 36 _) $$ Hsl36
  iintro %v94 %hv94 Hsl36
  iapply (wp_load_slot c 37 _) $$ Hsl37
  iintro %v95 %hv95 Hsl37
  iapply (wp_load_slot c 38 _) $$ Hsl38
  iintro %v96 %hv96 Hsl38
  iapply (wp_load_acc c 0 fullShare _) $$ Hac0
  iintro %v97 %hv97 Hac0
  iapply (wp_store_acc c 0 _ _) $$ Hac0
  iintro Hac0
  ihave Hac0 := (accAt_congr c 0 fullShare (show _ = xin (Bm) 2 c 0 from sum_payload _ _ _ _ _ _ _ _ hv93 hv94 hv95 hv96)) $$ Hac0
  iapply (wp_load_acc c 0 fullShare _) $$ Hac0
  iintro %v98 %hv98 Hac0
  iapply (wp_load_w5 c fullShare _) $$ Hx5
  iintro %v99 %hv99 Hx5
  subst hv99
  -- k0_part52
  simp only [k0_part52_eq_skeleton]; unfold k0_part52_skel
  simp only [Prog.lift, Prog.bind_op, Prog.bind_ret, Prog.pure_eq_ret, Prog.bind_assoc, dev55_eq c, dev56_eq c]
  iapply (wp_load_w6 c fullShare _) $$ Hx6
  iintro %v100 %hv100 Hx6
  subst hv100
  iapply (wp_load_acc c 0 fullShare _) $$ Hac0
  iintro %v101 %hv101 Hac0
  iapply (wp_store_acc c 0 _ _) $$ Hac0
  iintro Hac0
  ihave Hac0 := (accAt_congr c 0 fullShare (show _ = sentV (Bm) 2 0 c 0 from mlp_payload1 v98 ((Bm).wi 2 c) ((Bm).wo 2 c) _ hv98)) $$ Hac0
  -- issue group 16: layer 2, round 0, tile 0
  ihave Hsp := (acc_shares (F := F) c 0 (sentV (Bm) 2 0 c 0)).1 $$ Hac0
  icases Hsp with ⟨Hq0_0, Hq0_1, Hq0_2⟩
  iapply (wp_copyC (Bm) c KS KR 50 2 0 0 2 rfl rfl rfl rfl ⟨k0_dev55 c, k0_dev55_lt c⟩ (dev55_eq c) (O₁ := owedRev c 24) (O := owedRev c 23) rfl) $$ HIS HIRD Hq0_2 Hd50 HO HtS50 HrS HtR50 HrR
  iintro ⟨Hcs50, HO⟩
  iapply (wp_copyC (Bm) c KS KR 49 2 0 0 1 rfl rfl rfl rfl ⟨k0_dev56 c, k0_dev56_lt c⟩ (dev56_eq c) (O₁ := owedRev c 23) (O := owedRev c 22) rfl) $$ HIS HIRD Hq0_1 Hd49 HO HtS49 HrS HtR49 HrR
  iintro ⟨Hcs49, HO⟩
  -- k0_part53
  simp only [k0_part53_eq_skeleton]; unfold k0_part53_skel
  simp only [Prog.lift, Prog.bind_op, Prog.bind_ret, Prog.pure_eq_ret, Prog.bind_assoc, dev57_eq c]
  iapply (wp_copyC (Bm) c KS KR 48 2 0 0 0 rfl rfl rfl rfl ⟨k0_dev57 c, k0_dev57_lt c⟩ (dev57_eq c) (O₁ := owedRev c 22) (O := owedRev c 21) rfl) $$ HIS HIRD Hq0_0 Hd48 HO HtS48 HrS HtR48 HrR
  iintro ⟨Hcs48, HO⟩
  iapply (wp_sendwaitC (Bm) c KS 41 1 1 1 2 rfl rfl rfl rfl 21 (src := slotM 41) (dst := accM 1) rfl) $$ HIS Hcs41 HO Hlev HaS41
  iintro ⟨HO, HaS41, Hsh41⟩
  iapply (wp_recvwaitC (Bm) c KR 41 1 1 1 2 rfl rfl rfl rfl 21 (by decide) (by decide) (src := accM 1) (dst := slotM 41) rfl) $$ HIR HcR41 HO Hlev HaR41
  iintro ⟨HO, HaR41, Hsl41⟩
  -- k0_part54
  simp only [k0_part54_eq_skeleton]; unfold k0_part54_skel
  simp only [Prog.lift, Prog.bind_op, Prog.bind_ret, Prog.pure_eq_ret, Prog.bind_assoc]
  iapply (wp_sendwaitC (Bm) c KS 40 1 1 1 1 rfl rfl rfl rfl 21 (src := slotM 40) (dst := accM 1) rfl) $$ HIS Hcs40 HO Hlev HaS40
  iintro ⟨HO, HaS40, Hsh40⟩
  iapply (wp_recvwaitC (Bm) c KR 40 1 1 1 1 rfl rfl rfl rfl 21 (by decide) (by decide) (src := accM 1) (dst := slotM 40) rfl) $$ HIR HcR40 HO Hlev HaR40
  iintro ⟨HO, HaR40, Hsl40⟩
  iapply (wp_sendwaitC (Bm) c KS 39 1 1 1 0 rfl rfl rfl rfl 21 (src := slotM 39) (dst := accM 1) rfl) $$ HIS Hcs39 HO Hlev HaS39
  iintro ⟨HO, HaS39, Hsh39⟩
  -- k0_part55
  simp only [k0_part55_eq_skeleton]; unfold k0_part55_skel
  simp only [Prog.lift, Prog.bind_op, Prog.bind_ret, Prog.pure_eq_ret, Prog.bind_assoc]
  iapply (wp_recvwaitC (Bm) c KR 39 1 1 1 0 rfl rfl rfl rfl 21 (by decide) (by decide) (src := accM 1) (dst := slotM 39) rfl) $$ HIR HcR39 HO Hlev HaR39
  iintro ⟨HO, HaR39, Hsl39⟩
  ihave Hac1 := (acc_join3 (F := F) c 1 (sentV (Bm) 1 1 c 1)) $$ Hsh39 Hsh40 Hsh41
  iapply (wp_load_acc c 1 fullShare _) $$ Hac1
  iintro %v102 %hv102 Hac1
  iapply (wp_load_slot c 39 _) $$ Hsl39
  iintro %v103 %hv103 Hsl39
  iapply (wp_load_slot c 40 _) $$ Hsl40
  iintro %v104 %hv104 Hsl40
  iapply (wp_load_slot c 41 _) $$ Hsl41
  iintro %v105 %hv105 Hsl41
  iapply (wp_load_acc c 1 fullShare _) $$ Hac1
  iintro %v106 %hv106 Hac1
  iapply (wp_store_acc c 1 _ _) $$ Hac1
  iintro Hac1
  ihave Hac1 := (accAt_congr c 1 fullShare (show _ = xin (Bm) 2 c 1 from sum_payload _ _ _ _ _ _ _ _ hv102 hv103 hv104 hv105)) $$ Hac1
  iapply (wp_load_acc c 1 fullShare _) $$ Hac1
  iintro %v107 %hv107 Hac1
  iapply (wp_load_w5 c fullShare _) $$ Hx5
  iintro %v108 %hv108 Hx5
  subst hv108
  iapply (wp_load_w6 c fullShare _) $$ Hx6
  iintro %v109 %hv109 Hx6
  subst hv109
  iapply (wp_load_acc c 1 fullShare _) $$ Hac1
  iintro %v110 %hv110 Hac1
  -- k0_part56
  simp only [k0_part56_eq_skeleton]; unfold k0_part56_skel
  simp only [Prog.lift, Prog.bind_op, Prog.bind_ret, Prog.pure_eq_ret, Prog.bind_assoc, dev58_eq c, dev59_eq c]
  iapply (wp_store_acc c 1 _ _) $$ Hac1
  iintro Hac1
  ihave Hac1 := (accAt_congr c 1 fullShare (show _ = sentV (Bm) 2 0 c 1 from mlp_payload1 v107 ((Bm).wi 2 c) ((Bm).wo 2 c) _ hv107)) $$ Hac1
  -- issue group 17: layer 2, round 0, tile 1
  ihave Hsp := (acc_shares (F := F) c 1 (sentV (Bm) 2 0 c 1)).1 $$ Hac1
  icases Hsp with ⟨Hq1_0, Hq1_1, Hq1_2⟩
  iapply (wp_copyC (Bm) c KS KR 53 2 0 1 2 rfl rfl rfl rfl ⟨k0_dev58 c, k0_dev58_lt c⟩ (dev58_eq c) (O₁ := owedRev c 21) (O := owedRev c 20) rfl) $$ HIS HIRD Hq1_2 Hd53 HO HtS53 HrS HtR53 HrR
  iintro ⟨Hcs53, HO⟩
  iapply (wp_copyC (Bm) c KS KR 52 2 0 1 1 rfl rfl rfl rfl ⟨k0_dev59 c, k0_dev59_lt c⟩ (dev59_eq c) (O₁ := owedRev c 20) (O := owedRev c 19) rfl) $$ HIS HIRD Hq1_1 Hd52 HO HtS52 HrS HtR52 HrR
  iintro ⟨Hcs52, HO⟩
  -- k0_part57
  simp only [k0_part57_eq_skeleton]; unfold k0_part57_skel
  simp only [Prog.lift, Prog.bind_op, Prog.bind_ret, Prog.pure_eq_ret, Prog.bind_assoc, dev60_eq c]
  iapply (wp_copyC (Bm) c KS KR 51 2 0 1 0 rfl rfl rfl rfl ⟨k0_dev60 c, k0_dev60_lt c⟩ (dev60_eq c) (O₁ := owedRev c 19) (O := owedRev c 18) rfl) $$ HIS HIRD Hq1_0 Hd51 HO HtS51 HrS HtR51 HrR
  iintro ⟨Hcs51, HO⟩
  iapply (wp_sendwaitC (Bm) c KS 44 1 1 2 2 rfl rfl rfl rfl 18 (src := slotM 44) (dst := accM 2) rfl) $$ HIS Hcs44 HO Hlev HaS44
  iintro ⟨HO, HaS44, Hsh44⟩
  iapply (wp_recvwaitC (Bm) c KR 44 1 1 2 2 rfl rfl rfl rfl 18 (by decide) (by decide) (src := accM 2) (dst := slotM 44) rfl) $$ HIR HcR44 HO Hlev HaR44
  iintro ⟨HO, HaR44, Hsl44⟩
  iapply (wp_sendwaitC (Bm) c KS 43 1 1 2 1 rfl rfl rfl rfl 18 (src := slotM 43) (dst := accM 2) rfl) $$ HIS Hcs43 HO Hlev HaS43
  iintro ⟨HO, HaS43, Hsh43⟩
  -- k0_part58
  simp only [k0_part58_eq_skeleton]; unfold k0_part58_skel
  simp only [Prog.lift, Prog.bind_op, Prog.bind_ret, Prog.pure_eq_ret, Prog.bind_assoc]
  iapply (wp_recvwaitC (Bm) c KR 43 1 1 2 1 rfl rfl rfl rfl 18 (by decide) (by decide) (src := accM 2) (dst := slotM 43) rfl) $$ HIR HcR43 HO Hlev HaR43
  iintro ⟨HO, HaR43, Hsl43⟩
  iapply (wp_sendwaitC (Bm) c KS 42 1 1 2 0 rfl rfl rfl rfl 18 (src := slotM 42) (dst := accM 2) rfl) $$ HIS Hcs42 HO Hlev HaS42
  iintro ⟨HO, HaS42, Hsh42⟩
  iapply (wp_recvwaitC (Bm) c KR 42 1 1 2 0 rfl rfl rfl rfl 18 (by decide) (by decide) (src := accM 2) (dst := slotM 42) rfl) $$ HIR HcR42 HO Hlev HaR42
  iintro ⟨HO, HaR42, Hsl42⟩
  ihave Hac2 := (acc_join3 (F := F) c 2 (sentV (Bm) 1 1 c 2)) $$ Hsh42 Hsh43 Hsh44
  iapply (wp_load_acc c 2 fullShare _) $$ Hac2
  iintro %v111 %hv111 Hac2
  iapply (wp_load_slot c 42 _) $$ Hsl42
  iintro %v112 %hv112 Hsl42
  -- k0_part59
  simp only [k0_part59_eq_skeleton]; unfold k0_part59_skel
  simp only [Prog.lift, Prog.bind_op, Prog.bind_ret, Prog.pure_eq_ret, Prog.bind_assoc]
  iapply (wp_load_slot c 43 _) $$ Hsl43
  iintro %v113 %hv113 Hsl43
  iapply (wp_load_slot c 44 _) $$ Hsl44
  iintro %v114 %hv114 Hsl44
  iapply (wp_load_acc c 2 fullShare _) $$ Hac2
  iintro %v115 %hv115 Hac2
  iapply (wp_store_acc c 2 _ _) $$ Hac2
  iintro Hac2
  ihave Hac2 := (accAt_congr c 2 fullShare (show _ = xin (Bm) 2 c 2 from sum_payload _ _ _ _ _ _ _ _ hv111 hv112 hv113 hv114)) $$ Hac2
  iapply (wp_load_acc c 2 fullShare _) $$ Hac2
  iintro %v116 %hv116 Hac2
  iapply (wp_load_w5 c fullShare _) $$ Hx5
  iintro %v117 %hv117 Hx5
  subst hv117
  iapply (wp_load_w6 c fullShare _) $$ Hx6
  iintro %v118 %hv118 Hx6
  subst hv118
  iapply (wp_load_acc c 2 fullShare _) $$ Hac2
  iintro %v119 %hv119 Hac2
  iapply (wp_store_acc c 2 _ _) $$ Hac2
  iintro Hac2
  ihave Hac2 := (accAt_congr c 2 fullShare (show _ = sentV (Bm) 2 0 c 2 from mlp_payload1 v116 ((Bm).wi 2 c) ((Bm).wo 2 c) _ hv116)) $$ Hac2
  -- k0_part60
  simp only [k0_part60_eq_skeleton]; unfold k0_part60_skel
  simp only [Prog.lift, Prog.bind_op, Prog.bind_ret, Prog.pure_eq_ret, Prog.bind_assoc, dev61_eq c, dev62_eq c, dev63_eq c]
  -- issue group 18: layer 2, round 0, tile 2
  ihave Hsp := (acc_shares (F := F) c 2 (sentV (Bm) 2 0 c 2)).1 $$ Hac2
  icases Hsp with ⟨Hq2_0, Hq2_1, Hq2_2⟩
  iapply (wp_copyC (Bm) c KS KR 56 2 0 2 2 rfl rfl rfl rfl ⟨k0_dev61 c, k0_dev61_lt c⟩ (dev61_eq c) (O₁ := owedRev c 18) (O := owedRev c 17) rfl) $$ HIS HIRD Hq2_2 Hd56 HO HtS56 HrS HtR56 HrR
  iintro ⟨Hcs56, HO⟩
  iapply (wp_copyC (Bm) c KS KR 55 2 0 2 1 rfl rfl rfl rfl ⟨k0_dev62 c, k0_dev62_lt c⟩ (dev62_eq c) (O₁ := owedRev c 17) (O := owedRev c 16) rfl) $$ HIS HIRD Hq2_1 Hd55 HO HtS55 HrS HtR55 HrR
  iintro ⟨Hcs55, HO⟩
  iapply (wp_copyC (Bm) c KS KR 54 2 0 2 0 rfl rfl rfl rfl ⟨k0_dev63 c, k0_dev63_lt c⟩ (dev63_eq c) (O₁ := owedRev c 16) (O := owedRev c 15) rfl) $$ HIS HIRD Hq2_0 Hd54 HO HtS54 HrS HtR54 HrR
  iintro ⟨Hcs54, HO⟩
  -- k0_part61
  simp only [k0_part61_eq_skeleton]; unfold k0_part61_skel
  simp only [Prog.lift, Prog.bind_op, Prog.bind_ret, Prog.pure_eq_ret, Prog.bind_assoc]
  iapply (wp_sendwaitC (Bm) c KS 47 1 1 3 2 rfl rfl rfl rfl 15 (src := slotM 47) (dst := accM 3) rfl) $$ HIS Hcs47 HO Hlev HaS47
  iintro ⟨HO, HaS47, Hsh47⟩
  iapply (wp_recvwaitC (Bm) c KR 47 1 1 3 2 rfl rfl rfl rfl 15 (by decide) (by decide) (src := accM 3) (dst := slotM 47) rfl) $$ HIR HcR47 HO Hlev HaR47
  iintro ⟨HO, HaR47, Hsl47⟩
  iapply (wp_sendwaitC (Bm) c KS 46 1 1 3 1 rfl rfl rfl rfl 15 (src := slotM 46) (dst := accM 3) rfl) $$ HIS Hcs46 HO Hlev HaS46
  iintro ⟨HO, HaS46, Hsh46⟩
  -- k0_part62
  simp only [k0_part62_eq_skeleton]; unfold k0_part62_skel
  simp only [Prog.lift, Prog.bind_op, Prog.bind_ret, Prog.pure_eq_ret, Prog.bind_assoc]
  iapply (wp_recvwaitC (Bm) c KR 46 1 1 3 1 rfl rfl rfl rfl 15 (by decide) (by decide) (src := accM 3) (dst := slotM 46) rfl) $$ HIR HcR46 HO Hlev HaR46
  iintro ⟨HO, HaR46, Hsl46⟩
  iapply (wp_sendwaitC (Bm) c KS 45 1 1 3 0 rfl rfl rfl rfl 15 (src := slotM 45) (dst := accM 3) rfl) $$ HIS Hcs45 HO Hlev HaS45
  iintro ⟨HO, HaS45, Hsh45⟩
  iapply (wp_recvwaitC (Bm) c KR 45 1 1 3 0 rfl rfl rfl rfl 15 (by decide) (by decide) (src := accM 3) (dst := slotM 45) rfl) $$ HIR HcR45 HO Hlev HaR45
  iintro ⟨HO, HaR45, Hsl45⟩
  ihave Hac3 := (acc_join3 (F := F) c 3 (sentV (Bm) 1 1 c 3)) $$ Hsh45 Hsh46 Hsh47
  iapply (wp_load_acc c 3 fullShare _) $$ Hac3
  iintro %v120 %hv120 Hac3
  iapply (wp_load_slot c 45 _) $$ Hsl45
  iintro %v121 %hv121 Hsl45
  iapply (wp_load_slot c 46 _) $$ Hsl46
  iintro %v122 %hv122 Hsl46
  iapply (wp_load_slot c 47 _) $$ Hsl47
  iintro %v123 %hv123 Hsl47
  -- k0_part63
  simp only [k0_part63_eq_skeleton]; unfold k0_part63_skel
  simp only [Prog.lift, Prog.bind_op, Prog.bind_ret, Prog.pure_eq_ret, Prog.bind_assoc, dev64_eq c]
  iapply (wp_load_acc c 3 fullShare _) $$ Hac3
  iintro %v124 %hv124 Hac3
  iapply (wp_store_acc c 3 _ _) $$ Hac3
  iintro Hac3
  ihave Hac3 := (accAt_congr c 3 fullShare (show _ = xin (Bm) 2 c 3 from sum_payload _ _ _ _ _ _ _ _ hv120 hv121 hv122 hv123)) $$ Hac3
  iapply (wp_load_acc c 3 fullShare _) $$ Hac3
  iintro %v125 %hv125 Hac3
  iapply (wp_load_w5 c fullShare _) $$ Hx5
  iintro %v126 %hv126 Hx5
  subst hv126
  iapply (wp_load_w6 c fullShare _) $$ Hx6
  iintro %v127 %hv127 Hx6
  subst hv127
  iapply (wp_load_acc c 3 fullShare _) $$ Hac3
  iintro %v128 %hv128 Hac3
  iapply (wp_store_acc c 3 _ _) $$ Hac3
  iintro Hac3
  ihave Hac3 := (accAt_congr c 3 fullShare (show _ = sentV (Bm) 2 0 c 3 from mlp_payload1 v125 ((Bm).wi 2 c) ((Bm).wo 2 c) _ hv125)) $$ Hac3
  -- issue group 19: layer 2, round 0, tile 3
  ihave Hsp := (acc_shares (F := F) c 3 (sentV (Bm) 2 0 c 3)).1 $$ Hac3
  icases Hsp with ⟨Hq3_0, Hq3_1, Hq3_2⟩
  iapply (wp_copyC (Bm) c KS KR 59 2 0 3 2 rfl rfl rfl rfl ⟨k0_dev64 c, k0_dev64_lt c⟩ (dev64_eq c) (O₁ := owedRev c 15) (O := owedRev c 14) rfl) $$ HIS HIRD Hq3_2 Hd59 HO HtS59 HrS HtR59 HrR
  iintro ⟨Hcs59, HO⟩
  -- k0_part64
  simp only [k0_part64_eq_skeleton]; unfold k0_part64_skel
  simp only [Prog.lift, Prog.bind_op, Prog.bind_ret, Prog.pure_eq_ret, Prog.bind_assoc, dev65_eq c, dev66_eq c]
  iapply (wp_copyC (Bm) c KS KR 58 2 0 3 1 rfl rfl rfl rfl ⟨k0_dev65 c, k0_dev65_lt c⟩ (dev65_eq c) (O₁ := owedRev c 14) (O := owedRev c 13) rfl) $$ HIS HIRD Hq3_1 Hd58 HO HtS58 HrS HtR58 HrR
  iintro ⟨Hcs58, HO⟩
  iapply (wp_copyC (Bm) c KS KR 57 2 0 3 0 rfl rfl rfl rfl ⟨k0_dev66 c, k0_dev66_lt c⟩ (dev66_eq c) (O₁ := owedRev c 13) (O := owedRev c 12) rfl) $$ HIS HIRD Hq3_0 Hd57 HO HtS57 HrS HtR57 HrR
  iintro ⟨Hcs57, HO⟩
  iapply (wp_sendwaitC (Bm) c KS 50 2 0 0 2 rfl rfl rfl rfl 12 (src := slotM 50) (dst := accM 0) rfl) $$ HIS Hcs50 HO Hlev HaS50
  iintro ⟨HO, HaS50, Hsh50⟩
  -- k0_part65
  simp only [k0_part65_eq_skeleton]; unfold k0_part65_skel
  simp only [Prog.lift, Prog.bind_op, Prog.bind_ret, Prog.pure_eq_ret, Prog.bind_assoc]
  iapply (wp_recvwaitC (Bm) c KR 50 2 0 0 5 rfl rfl rfl rfl 12 (by decide) (by decide) (src := accM 0) (dst := slotM 50) rfl) $$ HIR HcR50 HO Hlev HaR50
  iintro ⟨HO, HaR50, Hsl50⟩
  iapply (wp_sendwaitC (Bm) c KS 49 2 0 0 1 rfl rfl rfl rfl 12 (src := slotM 49) (dst := accM 0) rfl) $$ HIS Hcs49 HO Hlev HaS49
  iintro ⟨HO, HaS49, Hsh49⟩
  iapply (wp_recvwaitC (Bm) c KR 49 2 0 0 4 rfl rfl rfl rfl 12 (by decide) (by decide) (src := accM 0) (dst := slotM 49) rfl) $$ HIR HcR49 HO Hlev HaR49
  iintro ⟨HO, HaR49, Hsl49⟩
  -- k0_part66
  simp only [k0_part66_eq_skeleton]; unfold k0_part66_skel
  simp only [Prog.lift, Prog.bind_op, Prog.bind_ret, Prog.pure_eq_ret, Prog.bind_assoc]
  iapply (wp_sendwaitC (Bm) c KS 48 2 0 0 0 rfl rfl rfl rfl 12 (src := slotM 48) (dst := accM 0) rfl) $$ HIS Hcs48 HO Hlev HaS48
  iintro ⟨HO, HaS48, Hsh48⟩
  iapply (wp_recvwaitC (Bm) c KR 48 2 0 0 3 rfl rfl rfl rfl 12 (by decide) (by decide) (src := accM 0) (dst := slotM 48) rfl) $$ HIR HcR48 HO Hlev HaR48
  iintro ⟨HO, HaR48, Hsl48⟩
  ihave Hac0 := (acc_join3 (F := F) c 0 (sentV (Bm) 2 0 c 0)) $$ Hsh48 Hsh49 Hsh50
  iapply (wp_load_acc c 0 fullShare _) $$ Hac0
  iintro %v129 %hv129 Hac0
  iapply (wp_load_slot c 48 _) $$ Hsl48
  iintro %v130 %hv130 Hsl48
  iapply (wp_load_slot c 49 _) $$ Hsl49
  iintro %v131 %hv131 Hsl49
  iapply (wp_load_slot c 50 _) $$ Hsl50
  iintro %v132 %hv132 Hsl50
  iapply (wp_load_acc c 0 fullShare _) $$ Hac0
  iintro %v133 %hv133 Hac0
  iapply (wp_store_acc c 0 _ _) $$ Hac0
  iintro Hac0
  ihave Hac0 := (accAt_congr c 0 fullShare (show _ = sentV (Bm) 2 1 c 0 from sum_payload _ _ _ _ _ _ _ _ hv129 hv130 hv131 hv132)) $$ Hac0
  -- k0_part67
  simp only [k0_part67_eq_skeleton]; unfold k0_part67_skel
  simp only [Prog.lift, Prog.bind_op, Prog.bind_ret, Prog.pure_eq_ret, Prog.bind_assoc, dev67_eq c, dev68_eq c, dev69_eq c]
  -- issue group 20: layer 2, round 1, tile 0
  ihave Hsp := (acc_shares (F := F) c 0 (sentV (Bm) 2 1 c 0)).1 $$ Hac0
  icases Hsp with ⟨Hq0_0, Hq0_1, Hq0_2⟩
  iapply (wp_copyC (Bm) c KS KR 62 2 1 0 2 rfl rfl rfl rfl ⟨k0_dev67 c, k0_dev67_lt c⟩ (dev67_eq c) (O₁ := owedRev c 12) (O := owedRev c 11) rfl) $$ HIS HIRD Hq0_2 Hd62 HO HtS62 HrS HtR62 HrR
  iintro ⟨Hcs62, HO⟩
  iapply (wp_copyC (Bm) c KS KR 61 2 1 0 1 rfl rfl rfl rfl ⟨k0_dev68 c, k0_dev68_lt c⟩ (dev68_eq c) (O₁ := owedRev c 11) (O := owedRev c 10) rfl) $$ HIS HIRD Hq0_1 Hd61 HO HtS61 HrS HtR61 HrR
  iintro ⟨Hcs61, HO⟩
  iapply (wp_copyC (Bm) c KS KR 60 2 1 0 0 rfl rfl rfl rfl ⟨k0_dev69 c, k0_dev69_lt c⟩ (dev69_eq c) (O₁ := owedRev c 10) (O := owedRev c 9) rfl) $$ HIS HIRD Hq0_0 Hd60 HO HtS60 HrS HtR60 HrR
  iintro ⟨Hcs60, HO⟩
  -- k0_part68
  simp only [k0_part68_eq_skeleton]; unfold k0_part68_skel
  simp only [Prog.lift, Prog.bind_op, Prog.bind_ret, Prog.pure_eq_ret, Prog.bind_assoc]
  iapply (wp_sendwaitC (Bm) c KS 53 2 0 1 2 rfl rfl rfl rfl 9 (src := slotM 53) (dst := accM 1) rfl) $$ HIS Hcs53 HO Hlev HaS53
  iintro ⟨HO, HaS53, Hsh53⟩
  iapply (wp_recvwaitC (Bm) c KR 53 2 0 1 5 rfl rfl rfl rfl 9 (by decide) (by decide) (src := accM 1) (dst := slotM 53) rfl) $$ HIR HcR53 HO Hlev HaR53
  iintro ⟨HO, HaR53, Hsl53⟩
  iapply (wp_sendwaitC (Bm) c KS 52 2 0 1 1 rfl rfl rfl rfl 9 (src := slotM 52) (dst := accM 1) rfl) $$ HIS Hcs52 HO Hlev HaS52
  iintro ⟨HO, HaS52, Hsh52⟩
  -- k0_part69
  simp only [k0_part69_eq_skeleton]; unfold k0_part69_skel
  simp only [Prog.lift, Prog.bind_op, Prog.bind_ret, Prog.pure_eq_ret, Prog.bind_assoc]
  iapply (wp_recvwaitC (Bm) c KR 52 2 0 1 4 rfl rfl rfl rfl 9 (by decide) (by decide) (src := accM 1) (dst := slotM 52) rfl) $$ HIR HcR52 HO Hlev HaR52
  iintro ⟨HO, HaR52, Hsl52⟩
  iapply (wp_sendwaitC (Bm) c KS 51 2 0 1 0 rfl rfl rfl rfl 9 (src := slotM 51) (dst := accM 1) rfl) $$ HIS Hcs51 HO Hlev HaS51
  iintro ⟨HO, HaS51, Hsh51⟩
  iapply (wp_recvwaitC (Bm) c KR 51 2 0 1 3 rfl rfl rfl rfl 9 (by decide) (by decide) (src := accM 1) (dst := slotM 51) rfl) $$ HIR HcR51 HO Hlev HaR51
  iintro ⟨HO, HaR51, Hsl51⟩
  ihave Hac1 := (acc_join3 (F := F) c 1 (sentV (Bm) 2 0 c 1)) $$ Hsh51 Hsh52 Hsh53
  iapply (wp_load_acc c 1 fullShare _) $$ Hac1
  iintro %v134 %hv134 Hac1
  iapply (wp_load_slot c 51 _) $$ Hsl51
  iintro %v135 %hv135 Hsl51
  iapply (wp_load_slot c 52 _) $$ Hsl52
  iintro %v136 %hv136 Hsl52
  iapply (wp_load_slot c 53 _) $$ Hsl53
  iintro %v137 %hv137 Hsl53
  -- k0_part70
  simp only [k0_part70_eq_skeleton]; unfold k0_part70_skel
  simp only [Prog.lift, Prog.bind_op, Prog.bind_ret, Prog.pure_eq_ret, Prog.bind_assoc, dev70_eq c, dev71_eq c]
  iapply (wp_load_acc c 1 fullShare _) $$ Hac1
  iintro %v138 %hv138 Hac1
  iapply (wp_store_acc c 1 _ _) $$ Hac1
  iintro Hac1
  ihave Hac1 := (accAt_congr c 1 fullShare (show _ = sentV (Bm) 2 1 c 1 from sum_payload _ _ _ _ _ _ _ _ hv134 hv135 hv136 hv137)) $$ Hac1
  -- issue group 21: layer 2, round 1, tile 1
  ihave Hsp := (acc_shares (F := F) c 1 (sentV (Bm) 2 1 c 1)).1 $$ Hac1
  icases Hsp with ⟨Hq1_0, Hq1_1, Hq1_2⟩
  iapply (wp_copyC (Bm) c KS KR 65 2 1 1 2 rfl rfl rfl rfl ⟨k0_dev70 c, k0_dev70_lt c⟩ (dev70_eq c) (O₁ := owedRev c 9) (O := owedRev c 8) rfl) $$ HIS HIRD Hq1_2 Hd65 HO HtS65 HrS HtR65 HrR
  iintro ⟨Hcs65, HO⟩
  iapply (wp_copyC (Bm) c KS KR 64 2 1 1 1 rfl rfl rfl rfl ⟨k0_dev71 c, k0_dev71_lt c⟩ (dev71_eq c) (O₁ := owedRev c 8) (O := owedRev c 7) rfl) $$ HIS HIRD Hq1_1 Hd64 HO HtS64 HrS HtR64 HrR
  iintro ⟨Hcs64, HO⟩
  -- k0_part71
  simp only [k0_part71_eq_skeleton]; unfold k0_part71_skel
  simp only [Prog.lift, Prog.bind_op, Prog.bind_ret, Prog.pure_eq_ret, Prog.bind_assoc, dev72_eq c]
  iapply (wp_copyC (Bm) c KS KR 63 2 1 1 0 rfl rfl rfl rfl ⟨k0_dev72 c, k0_dev72_lt c⟩ (dev72_eq c) (O₁ := owedRev c 7) (O := owedRev c 6) rfl) $$ HIS HIRD Hq1_0 Hd63 HO HtS63 HrS HtR63 HrR
  iintro ⟨Hcs63, HO⟩
  iapply (wp_sendwaitC (Bm) c KS 56 2 0 2 2 rfl rfl rfl rfl 6 (src := slotM 56) (dst := accM 2) rfl) $$ HIS Hcs56 HO Hlev HaS56
  iintro ⟨HO, HaS56, Hsh56⟩
  iapply (wp_recvwaitC (Bm) c KR 56 2 0 2 5 rfl rfl rfl rfl 6 (by decide) (by decide) (src := accM 2) (dst := slotM 56) rfl) $$ HIR HcR56 HO Hlev HaR56
  iintro ⟨HO, HaR56, Hsl56⟩
  -- k0_part72
  simp only [k0_part72_eq_skeleton]; unfold k0_part72_skel
  simp only [Prog.lift, Prog.bind_op, Prog.bind_ret, Prog.pure_eq_ret, Prog.bind_assoc]
  iapply (wp_sendwaitC (Bm) c KS 55 2 0 2 1 rfl rfl rfl rfl 6 (src := slotM 55) (dst := accM 2) rfl) $$ HIS Hcs55 HO Hlev HaS55
  iintro ⟨HO, HaS55, Hsh55⟩
  iapply (wp_recvwaitC (Bm) c KR 55 2 0 2 4 rfl rfl rfl rfl 6 (by decide) (by decide) (src := accM 2) (dst := slotM 55) rfl) $$ HIR HcR55 HO Hlev HaR55
  iintro ⟨HO, HaR55, Hsl55⟩
  iapply (wp_sendwaitC (Bm) c KS 54 2 0 2 0 rfl rfl rfl rfl 6 (src := slotM 54) (dst := accM 2) rfl) $$ HIS Hcs54 HO Hlev HaS54
  iintro ⟨HO, HaS54, Hsh54⟩
  iapply (wp_recvwaitC (Bm) c KR 54 2 0 2 3 rfl rfl rfl rfl 6 (by decide) (by decide) (src := accM 2) (dst := slotM 54) rfl) $$ HIR HcR54 HO Hlev HaR54
  iintro ⟨HO, HaR54, Hsl54⟩
  ihave Hac2 := (acc_join3 (F := F) c 2 (sentV (Bm) 2 0 c 2)) $$ Hsh54 Hsh55 Hsh56
  -- k0_part73
  simp only [k0_part73_eq_skeleton]; unfold k0_part73_skel
  simp only [Prog.lift, Prog.bind_op, Prog.bind_ret, Prog.pure_eq_ret, Prog.bind_assoc, dev73_eq c]
  iapply (wp_load_acc c 2 fullShare _) $$ Hac2
  iintro %v139 %hv139 Hac2
  iapply (wp_load_slot c 54 _) $$ Hsl54
  iintro %v140 %hv140 Hsl54
  iapply (wp_load_slot c 55 _) $$ Hsl55
  iintro %v141 %hv141 Hsl55
  iapply (wp_load_slot c 56 _) $$ Hsl56
  iintro %v142 %hv142 Hsl56
  iapply (wp_load_acc c 2 fullShare _) $$ Hac2
  iintro %v143 %hv143 Hac2
  iapply (wp_store_acc c 2 _ _) $$ Hac2
  iintro Hac2
  ihave Hac2 := (accAt_congr c 2 fullShare (show _ = sentV (Bm) 2 1 c 2 from sum_payload _ _ _ _ _ _ _ _ hv139 hv140 hv141 hv142)) $$ Hac2
  -- issue group 22: layer 2, round 1, tile 2
  ihave Hsp := (acc_shares (F := F) c 2 (sentV (Bm) 2 1 c 2)).1 $$ Hac2
  icases Hsp with ⟨Hq2_0, Hq2_1, Hq2_2⟩
  iapply (wp_copyC (Bm) c KS KR 68 2 1 2 2 rfl rfl rfl rfl ⟨k0_dev73 c, k0_dev73_lt c⟩ (dev73_eq c) (O₁ := owedRev c 6) (O := owedRev c 5) rfl) $$ HIS HIRD Hq2_2 Hd68 HO HtS68 HrS HtR68 HrR
  iintro ⟨Hcs68, HO⟩
  -- k0_part74
  simp only [k0_part74_eq_skeleton]; unfold k0_part74_skel
  simp only [Prog.lift, Prog.bind_op, Prog.bind_ret, Prog.pure_eq_ret, Prog.bind_assoc, dev74_eq c, dev75_eq c]
  iapply (wp_copyC (Bm) c KS KR 67 2 1 2 1 rfl rfl rfl rfl ⟨k0_dev74 c, k0_dev74_lt c⟩ (dev74_eq c) (O₁ := owedRev c 5) (O := owedRev c 4) rfl) $$ HIS HIRD Hq2_1 Hd67 HO HtS67 HrS HtR67 HrR
  iintro ⟨Hcs67, HO⟩
  iapply (wp_copyC (Bm) c KS KR 66 2 1 2 0 rfl rfl rfl rfl ⟨k0_dev75 c, k0_dev75_lt c⟩ (dev75_eq c) (O₁ := owedRev c 4) (O := owedRev c 3) rfl) $$ HIS HIRD Hq2_0 Hd66 HO HtS66 HrS HtR66 HrR
  iintro ⟨Hcs66, HO⟩
  iapply (wp_sendwaitC (Bm) c KS 59 2 0 3 2 rfl rfl rfl rfl 3 (src := slotM 59) (dst := accM 3) rfl) $$ HIS Hcs59 HO Hlev HaS59
  iintro ⟨HO, HaS59, Hsh59⟩
  -- k0_part75
  simp only [k0_part75_eq_skeleton]; unfold k0_part75_skel
  simp only [Prog.lift, Prog.bind_op, Prog.bind_ret, Prog.pure_eq_ret, Prog.bind_assoc]
  iapply (wp_recvwaitC (Bm) c KR 59 2 0 3 5 rfl rfl rfl rfl 3 (by decide) (by decide) (src := accM 3) (dst := slotM 59) rfl) $$ HIR HcR59 HO Hlev HaR59
  iintro ⟨HO, HaR59, Hsl59⟩
  iapply (wp_sendwaitC (Bm) c KS 58 2 0 3 1 rfl rfl rfl rfl 3 (src := slotM 58) (dst := accM 3) rfl) $$ HIS Hcs58 HO Hlev HaS58
  iintro ⟨HO, HaS58, Hsh58⟩
  iapply (wp_recvwaitC (Bm) c KR 58 2 0 3 4 rfl rfl rfl rfl 3 (by decide) (by decide) (src := accM 3) (dst := slotM 58) rfl) $$ HIR HcR58 HO Hlev HaR58
  iintro ⟨HO, HaR58, Hsl58⟩
  iapply (wp_sendwaitC (Bm) c KS 57 2 0 3 0 rfl rfl rfl rfl 3 (src := slotM 57) (dst := accM 3) rfl) $$ HIS Hcs57 HO Hlev HaS57
  iintro ⟨HO, HaS57, Hsh57⟩
  -- k0_part76
  simp only [k0_part76_eq_skeleton]; unfold k0_part76_skel
  simp only [Prog.lift, Prog.bind_op, Prog.bind_ret, Prog.pure_eq_ret, Prog.bind_assoc]
  iapply (wp_recvwaitC (Bm) c KR 57 2 0 3 3 rfl rfl rfl rfl 3 (by decide) (by decide) (src := accM 3) (dst := slotM 57) rfl) $$ HIR HcR57 HO Hlev HaR57
  iintro ⟨HO, HaR57, Hsl57⟩
  ihave Hac3 := (acc_join3 (F := F) c 3 (sentV (Bm) 2 0 c 3)) $$ Hsh57 Hsh58 Hsh59
  iapply (wp_load_acc c 3 fullShare _) $$ Hac3
  iintro %v144 %hv144 Hac3
  iapply (wp_load_slot c 57 _) $$ Hsl57
  iintro %v145 %hv145 Hsl57
  iapply (wp_load_slot c 58 _) $$ Hsl58
  iintro %v146 %hv146 Hsl58
  iapply (wp_load_slot c 59 _) $$ Hsl59
  iintro %v147 %hv147 Hsl59
  iapply (wp_load_acc c 3 fullShare _) $$ Hac3
  iintro %v148 %hv148 Hac3
  iapply (wp_store_acc c 3 _ _) $$ Hac3
  iintro Hac3
  ihave Hac3 := (accAt_congr c 3 fullShare (show _ = sentV (Bm) 2 1 c 3 from sum_payload _ _ _ _ _ _ _ _ hv144 hv145 hv146 hv147)) $$ Hac3
  -- k0_part77
  simp only [k0_part77_eq_skeleton]; unfold k0_part77_skel
  simp only [Prog.lift, Prog.bind_op, Prog.bind_ret, Prog.pure_eq_ret, Prog.bind_assoc, dev76_eq c, dev77_eq c, dev78_eq c]
  -- issue group 23: layer 2, round 1, tile 3
  ihave Hsp := (acc_shares (F := F) c 3 (sentV (Bm) 2 1 c 3)).1 $$ Hac3
  icases Hsp with ⟨Hq3_0, Hq3_1, Hq3_2⟩
  iapply (wp_copyC (Bm) c KS KR 71 2 1 3 2 rfl rfl rfl rfl ⟨k0_dev76 c, k0_dev76_lt c⟩ (dev76_eq c) (O₁ := owedRev c 3) (O := owedRev c 2) rfl) $$ HIS HIRD Hq3_2 Hd71 HO HtS71 HrS HtR71 HrR
  iintro ⟨Hcs71, HO⟩
  iapply (wp_copyC (Bm) c KS KR 70 2 1 3 1 rfl rfl rfl rfl ⟨k0_dev77 c, k0_dev77_lt c⟩ (dev77_eq c) (O₁ := owedRev c 2) (O := owedRev c 1) rfl) $$ HIS HIRD Hq3_1 Hd70 HO HtS70 HrS HtR70 HrR
  iintro ⟨Hcs70, HO⟩
  iapply (wp_copyC (Bm) c KS KR 69 2 1 3 0 rfl rfl rfl rfl ⟨k0_dev78 c, k0_dev78_lt c⟩ (dev78_eq c) (O₁ := owedRev c 1) (O := owedRev c 0) rfl) $$ HIS HIRD Hq3_0 Hd69 HO HtS69 HrS HtR69 HrR
  iintro ⟨Hcs69, HO⟩
  -- k0_part78
  simp only [k0_part78_eq_skeleton]; unfold k0_part78_skel
  simp only [Prog.lift, Prog.bind_op, Prog.bind_ret, Prog.pure_eq_ret, Prog.bind_assoc]
  iapply (wp_sendwaitC (Bm) c KS 62 2 1 0 2 rfl rfl rfl rfl 0 (src := slotM 62) (dst := accM 0) rfl) $$ HIS Hcs62 HO Hlev HaS62
  iintro ⟨HO, HaS62, Hsh62⟩
  iapply (wp_recvwaitC (Bm) c KR 62 2 1 0 2 rfl rfl rfl rfl 0 (by decide) (by decide) (src := accM 0) (dst := slotM 62) rfl) $$ HIR HcR62 HO Hlev HaR62
  iintro ⟨HO, HaR62, Hsl62⟩
  iapply (wp_sendwaitC (Bm) c KS 61 2 1 0 1 rfl rfl rfl rfl 0 (src := slotM 61) (dst := accM 0) rfl) $$ HIS Hcs61 HO Hlev HaS61
  iintro ⟨HO, HaS61, Hsh61⟩
  iapply (wp_recvwaitC (Bm) c KR 61 2 1 0 1 rfl rfl rfl rfl 0 (by decide) (by decide) (src := accM 0) (dst := slotM 61) rfl) $$ HIR HcR61 HO Hlev HaR61
  iintro ⟨HO, HaR61, Hsl61⟩
  -- k0_part79
  simp only [k0_part79_eq_skeleton]; unfold k0_part79_skel
  simp only [Prog.lift, Prog.bind_op, Prog.bind_ret, Prog.pure_eq_ret, Prog.bind_assoc]
  iapply (wp_sendwaitC (Bm) c KS 60 2 1 0 0 rfl rfl rfl rfl 0 (src := slotM 60) (dst := accM 0) rfl) $$ HIS Hcs60 HO Hlev HaS60
  iintro ⟨HO, HaS60, Hsh60⟩
  iapply (wp_recvwaitC (Bm) c KR 60 2 1 0 0 rfl rfl rfl rfl 0 (by decide) (by decide) (src := accM 0) (dst := slotM 60) rfl) $$ HIR HcR60 HO Hlev HaR60
  iintro ⟨HO, HaR60, Hsl60⟩
  ihave Hac0 := (acc_join3 (F := F) c 0 (sentV (Bm) 2 1 c 0)) $$ Hsh60 Hsh61 Hsh62
  iapply (wp_load_acc c 0 fullShare _) $$ Hac0
  iintro %v149 %hv149 Hac0
  iapply (wp_load_slot c 60 _) $$ Hsl60
  iintro %v150 %hv150 Hsl60
  iapply (wp_load_slot c 61 _) $$ Hsl61
  iintro %v151 %hv151 Hsl61
  iapply (wp_load_slot c 62 _) $$ Hsl62
  iintro %v152 %hv152 Hsl62
  iapply (wp_load_acc c 0 fullShare _) $$ Hac0
  iintro %v153 %hv153 Hac0
  -- k0_part80
  simp only [k0_part80_eq_skeleton]; unfold k0_part80_skel
  simp only [Prog.lift, Prog.bind_op, Prog.bind_ret, Prog.pure_eq_ret, Prog.bind_assoc]
  iapply (wp_store_acc c 0 _ _) $$ Hac0
  iintro Hac0
  ihave Hac0 := (accAt_congr c 0 fullShare (show _ = x3 (Bm) c 0 from sum_payload _ _ _ _ _ _ _ _ hv149 hv150 hv151 hv152)) $$ Hac0
  iapply (wp_load_acc c 0 fullShare _) $$ Hac0
  iintro %v154 %hv154 Hac0
  iapply (wp_load_out c 0 fullShare _) $$ Hx7
  iintro %v155 Hx7
  iapply (wp_store_out c 0 _ _) $$ Hx7
  iintro Hx7
  ihave Hx7 := (out_congr c (congrArg (putRows _ 0) (show shapeCast S16x512 v154 shapeCasts_S1x16x512_S16x512 = x3 (Bm) c 0 from hv154))) $$ Hx7
  iapply (wp_sendwaitC (Bm) c KS 65 2 1 1 2 rfl rfl rfl rfl 0 (src := slotM 65) (dst := accM 1) rfl) $$ HIS Hcs65 HO Hlev HaS65
  iintro ⟨HO, HaS65, Hsh65⟩
  iapply (wp_recvwaitC (Bm) c KR 65 2 1 1 2 rfl rfl rfl rfl 0 (by decide) (by decide) (src := accM 1) (dst := slotM 65) rfl) $$ HIR HcR65 HO Hlev HaR65
  iintro ⟨HO, HaR65, Hsl65⟩
  -- k0_part81
  simp only [k0_part81_eq_skeleton]; unfold k0_part81_skel
  simp only [Prog.lift, Prog.bind_op, Prog.bind_ret, Prog.pure_eq_ret, Prog.bind_assoc]
  iapply (wp_sendwaitC (Bm) c KS 64 2 1 1 1 rfl rfl rfl rfl 0 (src := slotM 64) (dst := accM 1) rfl) $$ HIS Hcs64 HO Hlev HaS64
  iintro ⟨HO, HaS64, Hsh64⟩
  iapply (wp_recvwaitC (Bm) c KR 64 2 1 1 1 rfl rfl rfl rfl 0 (by decide) (by decide) (src := accM 1) (dst := slotM 64) rfl) $$ HIR HcR64 HO Hlev HaR64
  iintro ⟨HO, HaR64, Hsl64⟩
  iapply (wp_sendwaitC (Bm) c KS 63 2 1 1 0 rfl rfl rfl rfl 0 (src := slotM 63) (dst := accM 1) rfl) $$ HIS Hcs63 HO Hlev HaS63
  iintro ⟨HO, HaS63, Hsh63⟩
  iapply (wp_recvwaitC (Bm) c KR 63 2 1 1 0 rfl rfl rfl rfl 0 (by decide) (by decide) (src := accM 1) (dst := slotM 63) rfl) $$ HIR HcR63 HO Hlev HaR63
  iintro ⟨HO, HaR63, Hsl63⟩
  ihave Hac1 := (acc_join3 (F := F) c 1 (sentV (Bm) 2 1 c 1)) $$ Hsh63 Hsh64 Hsh65
  -- k0_part82
  simp only [k0_part82_eq_skeleton]; unfold k0_part82_skel
  simp only [Prog.lift, Prog.bind_op, Prog.bind_ret, Prog.pure_eq_ret, Prog.bind_assoc]
  iapply (wp_load_acc c 1 fullShare _) $$ Hac1
  iintro %v156 %hv156 Hac1
  iapply (wp_load_slot c 63 _) $$ Hsl63
  iintro %v157 %hv157 Hsl63
  iapply (wp_load_slot c 64 _) $$ Hsl64
  iintro %v158 %hv158 Hsl64
  iapply (wp_load_slot c 65 _) $$ Hsl65
  iintro %v159 %hv159 Hsl65
  iapply (wp_load_acc c 1 fullShare _) $$ Hac1
  iintro %v160 %hv160 Hac1
  iapply (wp_store_acc c 1 _ _) $$ Hac1
  iintro Hac1
  ihave Hac1 := (accAt_congr c 1 fullShare (show _ = x3 (Bm) c 1 from sum_payload _ _ _ _ _ _ _ _ hv156 hv157 hv158 hv159)) $$ Hac1
  iapply (wp_load_acc c 1 fullShare _) $$ Hac1
  iintro %v161 %hv161 Hac1
  iapply (wp_load_out c 1 fullShare _) $$ Hx7
  iintro %v162 Hx7
  iapply (wp_store_out c 1 _ _) $$ Hx7
  iintro Hx7
  ihave Hx7 := (out_congr c (congrArg (putRows _ 1) (show shapeCast S16x512 v161 shapeCasts_S1x16x512_S16x512 = x3 (Bm) c 1 from hv161))) $$ Hx7
  iapply (wp_sendwaitC (Bm) c KS 68 2 1 2 2 rfl rfl rfl rfl 0 (src := slotM 68) (dst := accM 2) rfl) $$ HIS Hcs68 HO Hlev HaS68
  iintro ⟨HO, HaS68, Hsh68⟩
  -- k0_part83
  simp only [k0_part83_eq_skeleton]; unfold k0_part83_skel
  simp only [Prog.lift, Prog.bind_op, Prog.bind_ret, Prog.pure_eq_ret, Prog.bind_assoc]
  iapply (wp_recvwaitC (Bm) c KR 68 2 1 2 2 rfl rfl rfl rfl 0 (by decide) (by decide) (src := accM 2) (dst := slotM 68) rfl) $$ HIR HcR68 HO Hlev HaR68
  iintro ⟨HO, HaR68, Hsl68⟩
  iapply (wp_sendwaitC (Bm) c KS 67 2 1 2 1 rfl rfl rfl rfl 0 (src := slotM 67) (dst := accM 2) rfl) $$ HIS Hcs67 HO Hlev HaS67
  iintro ⟨HO, HaS67, Hsh67⟩
  iapply (wp_recvwaitC (Bm) c KR 67 2 1 2 1 rfl rfl rfl rfl 0 (by decide) (by decide) (src := accM 2) (dst := slotM 67) rfl) $$ HIR HcR67 HO Hlev HaR67
  iintro ⟨HO, HaR67, Hsl67⟩
  -- k0_part84
  simp only [k0_part84_eq_skeleton]; unfold k0_part84_skel
  simp only [Prog.lift, Prog.bind_op, Prog.bind_ret, Prog.pure_eq_ret, Prog.bind_assoc]
  iapply (wp_sendwaitC (Bm) c KS 66 2 1 2 0 rfl rfl rfl rfl 0 (src := slotM 66) (dst := accM 2) rfl) $$ HIS Hcs66 HO Hlev HaS66
  iintro ⟨HO, HaS66, Hsh66⟩
  iapply (wp_recvwaitC (Bm) c KR 66 2 1 2 0 rfl rfl rfl rfl 0 (by decide) (by decide) (src := accM 2) (dst := slotM 66) rfl) $$ HIR HcR66 HO Hlev HaR66
  iintro ⟨HO, HaR66, Hsl66⟩
  ihave Hac2 := (acc_join3 (F := F) c 2 (sentV (Bm) 2 1 c 2)) $$ Hsh66 Hsh67 Hsh68
  iapply (wp_load_acc c 2 fullShare _) $$ Hac2
  iintro %v163 %hv163 Hac2
  iapply (wp_load_slot c 66 _) $$ Hsl66
  iintro %v164 %hv164 Hsl66
  iapply (wp_load_slot c 67 _) $$ Hsl67
  iintro %v165 %hv165 Hsl67
  iapply (wp_load_slot c 68 _) $$ Hsl68
  iintro %v166 %hv166 Hsl68
  iapply (wp_load_acc c 2 fullShare _) $$ Hac2
  iintro %v167 %hv167 Hac2
  iapply (wp_store_acc c 2 _ _) $$ Hac2
  iintro Hac2
  ihave Hac2 := (accAt_congr c 2 fullShare (show _ = x3 (Bm) c 2 from sum_payload _ _ _ _ _ _ _ _ hv163 hv164 hv165 hv166)) $$ Hac2
  iapply (wp_load_acc c 2 fullShare _) $$ Hac2
  iintro %v168 %hv168 Hac2
  iapply (wp_load_out c 2 fullShare _) $$ Hx7
  iintro %v169 Hx7
  iapply (wp_store_out c 2 _ _) $$ Hx7
  iintro Hx7
  ihave Hx7 := (out_congr c (congrArg (putRows _ 2) (show shapeCast S16x512 v168 shapeCasts_S1x16x512_S16x512 = x3 (Bm) c 2 from hv168))) $$ Hx7
  -- k0_part85
  simp only [k0_part85_eq_skeleton]; unfold k0_part85_skel
  simp only [Prog.lift, Prog.bind_op, Prog.bind_ret, Prog.pure_eq_ret, Prog.bind_assoc]
  iapply (wp_sendwaitC (Bm) c KS 71 2 1 3 2 rfl rfl rfl rfl 0 (src := slotM 71) (dst := accM 3) rfl) $$ HIS Hcs71 HO Hlev HaS71
  iintro ⟨HO, HaS71, Hsh71⟩
  iapply (wp_recvwaitC (Bm) c KR 71 2 1 3 2 rfl rfl rfl rfl 0 (by decide) (by decide) (src := accM 3) (dst := slotM 71) rfl) $$ HIR HcR71 HO Hlev HaR71
  iintro ⟨HO, HaR71, Hsl71⟩
  iapply (wp_sendwaitC (Bm) c KS 70 2 1 3 1 rfl rfl rfl rfl 0 (src := slotM 70) (dst := accM 3) rfl) $$ HIS Hcs70 HO Hlev HaS70
  iintro ⟨HO, HaS70, Hsh70⟩
  -- k0_part86
  simp only [k0_part86_eq_skeleton]; unfold k0_part86_skel
  simp only [Prog.lift, Prog.bind_op, Prog.bind_ret, Prog.pure_eq_ret, Prog.bind_assoc]
  iapply (wp_recvwaitC (Bm) c KR 70 2 1 3 1 rfl rfl rfl rfl 0 (by decide) (by decide) (src := accM 3) (dst := slotM 70) rfl) $$ HIR HcR70 HO Hlev HaR70
  iintro ⟨HO, HaR70, Hsl70⟩
  iapply (wp_sendwaitC (Bm) c KS 69 2 1 3 0 rfl rfl rfl rfl 0 (src := slotM 69) (dst := accM 3) rfl) $$ HIS Hcs69 HO Hlev HaS69
  iintro ⟨HO, HaS69, Hsh69⟩
  iapply (wp_recvwaitC (Bm) c KR 69 2 1 3 0 rfl rfl rfl rfl 0 (by decide) (by decide) (src := accM 3) (dst := slotM 69) rfl) $$ HIR HcR69 HO Hlev HaR69
  iintro ⟨HO, HaR69, Hsl69⟩
  ihave Hac3 := (acc_join3 (F := F) c 3 (sentV (Bm) 2 1 c 3)) $$ Hsh69 Hsh70 Hsh71
  iapply (wp_load_acc c 3 fullShare _) $$ Hac3
  iintro %v170 %hv170 Hac3
  iapply (wp_load_slot c 69 _) $$ Hsl69
  iintro %v171 %hv171 Hsl69
  iapply (wp_load_slot c 70 _) $$ Hsl70
  iintro %v172 %hv172 Hsl70
  iapply (wp_load_slot c 71 _) $$ Hsl71
  iintro %v173 %hv173 Hsl71
  iapply (wp_load_acc c 3 fullShare _) $$ Hac3
  iintro %v174 %hv174 Hac3
  iapply (wp_store_acc c 3 _ _) $$ Hac3
  iintro Hac3
  ihave Hac3 := (accAt_congr c 3 fullShare (show _ = x3 (Bm) c 3 from sum_payload _ _ _ _ _ _ _ _ hv170 hv171 hv172 hv173)) $$ Hac3
  iapply (wp_load_acc c 3 fullShare _) $$ Hac3
  iintro %v175 %hv175 Hac3
  iapply (wp_load_out c 3 fullShare _) $$ Hx7
  iintro %v176 Hx7
  iapply (wp_store_out c 3 _ _) $$ Hx7
  iintro Hx7
  ihave Hx7 := (out_congr c (congrArg (putRows _ 3) (show shapeCast S16x512 v175 shapeCasts_S1x16x512_S16x512 = x3 (Bm) c 3 from hv175))) $$ Hx7
  -- leaving: every copy cell closes at zero and the scratch buffers come back whole
  imod (phi1_intro_some (Bm) KS KR c) $$ [Hac0 Hac1 Hac2 Hac3 Hsl0 Hsl1 Hsl2 Hsl3 Hsl4 Hsl5 Hsl6 Hsl7 Hsl8 Hsl9 Hsl10 Hsl11 Hsl12 Hsl13 Hsl14 Hsl15 Hsl16 Hsl17 Hsl18 Hsl19 Hsl20 Hsl21 Hsl22 Hsl23 Hsl24 Hsl25 Hsl26 Hsl27 Hsl28 Hsl29 Hsl30 Hsl31 Hsl32 Hsl33 Hsl34 Hsl35 Hsl36 Hsl37 Hsl38 Hsl39 Hsl40 Hsl41 Hsl42 Hsl43 Hsl44 Hsl45 Hsl46 Hsl47 Hsl48 Hsl49 Hsl50 Hsl51 Hsl52 Hsl53 Hsl54 Hsl55 Hsl56 Hsl57 Hsl58 Hsl59 Hsl60 Hsl61 Hsl62 Hsl63 Hsl64 Hsl65 Hsl66 Hsl67 Hsl68 Hsl69 Hsl70 Hsl71 HaS0 HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30 HaS31 HaS32 HaS33 HaS34 HaS35 HaS36 HaS37 HaS38 HaS39 HaS40 HaS41 HaS42 HaS43 HaS44 HaS45 HaS46 HaS47 HaS48 HaS49 HaS50 HaS51 HaS52 HaS53 HaS54 HaS55 HaS56 HaS57 HaS58 HaS59 HaS60 HaS61 HaS62 HaS63 HaS64 HaS65 HaS66 HaS67 HaS68 HaS69 HaS70 HaS71 HaR0 HaR1 HaR2 HaR3 HaR4 HaR5 HaR6 HaR7 HaR8 HaR9 HaR10 HaR11 HaR12 HaR13 HaR14 HaR15 HaR16 HaR17 HaR18 HaR19 HaR20 HaR21 HaR22 HaR23 HaR24 HaR25 HaR26 HaR27 HaR28 HaR29 HaR30 HaR31 HaR32 HaR33 HaR34 HaR35 HaR36 HaR37 HaR38 HaR39 HaR40 HaR41 HaR42 HaR43 HaR44 HaR45 HaR46 HaR47 HaR48 HaR49 HaR50 HaR51 HaR52 HaR53 HaR54 HaR55 HaR56 HaR57 HaR58 HaR59 HaR60 HaR61 HaR62 HaR63 HaR64 HaR65 HaR66 HaR67 HaR68 HaR69 HaR70 HaR71] with HΦ
  · isplitl [Hac0 Hac1 Hac2 Hac3]
    · iapply (Entails.of_eq (bigSep_fin4 _).symm)
      isplitl [Hac0]; · iexists _; iexact Hac0
      isplitl [Hac1]; · iexists _; iexact Hac1
      isplitl [Hac2]; · iexists _; iexact Hac2
      iexists _; iexact Hac3
    isplitl [Hsl0 Hsl1 Hsl2 Hsl3 Hsl4 Hsl5 Hsl6 Hsl7 Hsl8 Hsl9 Hsl10 Hsl11 Hsl12 Hsl13 Hsl14 Hsl15 Hsl16 Hsl17 Hsl18 Hsl19 Hsl20 Hsl21 Hsl22 Hsl23 Hsl24 Hsl25 Hsl26 Hsl27 Hsl28 Hsl29 Hsl30 Hsl31 Hsl32 Hsl33 Hsl34 Hsl35 Hsl36 Hsl37 Hsl38 Hsl39 Hsl40 Hsl41 Hsl42 Hsl43 Hsl44 Hsl45 Hsl46 Hsl47 Hsl48 Hsl49 Hsl50 Hsl51 Hsl52 Hsl53 Hsl54 Hsl55 Hsl56 Hsl57 Hsl58 Hsl59 Hsl60 Hsl61 Hsl62 Hsl63 Hsl64 Hsl65 Hsl66 Hsl67 Hsl68 Hsl69 Hsl70 Hsl71]
    · iapply (Entails.of_eq (bigSep_fin72 _).symm)
      isplitl [Hsl0]; · iexists _; iexact Hsl0
      isplitl [Hsl1]; · iexists _; iexact Hsl1
      isplitl [Hsl2]; · iexists _; iexact Hsl2
      isplitl [Hsl3]; · iexists _; iexact Hsl3
      isplitl [Hsl4]; · iexists _; iexact Hsl4
      isplitl [Hsl5]; · iexists _; iexact Hsl5
      isplitl [Hsl6]; · iexists _; iexact Hsl6
      isplitl [Hsl7]; · iexists _; iexact Hsl7
      isplitl [Hsl8]; · iexists _; iexact Hsl8
      isplitl [Hsl9]; · iexists _; iexact Hsl9
      isplitl [Hsl10]; · iexists _; iexact Hsl10
      isplitl [Hsl11]; · iexists _; iexact Hsl11
      isplitl [Hsl12]; · iexists _; iexact Hsl12
      isplitl [Hsl13]; · iexists _; iexact Hsl13
      isplitl [Hsl14]; · iexists _; iexact Hsl14
      isplitl [Hsl15]; · iexists _; iexact Hsl15
      isplitl [Hsl16]; · iexists _; iexact Hsl16
      isplitl [Hsl17]; · iexists _; iexact Hsl17
      isplitl [Hsl18]; · iexists _; iexact Hsl18
      isplitl [Hsl19]; · iexists _; iexact Hsl19
      isplitl [Hsl20]; · iexists _; iexact Hsl20
      isplitl [Hsl21]; · iexists _; iexact Hsl21
      isplitl [Hsl22]; · iexists _; iexact Hsl22
      isplitl [Hsl23]; · iexists _; iexact Hsl23
      isplitl [Hsl24]; · iexists _; iexact Hsl24
      isplitl [Hsl25]; · iexists _; iexact Hsl25
      isplitl [Hsl26]; · iexists _; iexact Hsl26
      isplitl [Hsl27]; · iexists _; iexact Hsl27
      isplitl [Hsl28]; · iexists _; iexact Hsl28
      isplitl [Hsl29]; · iexists _; iexact Hsl29
      isplitl [Hsl30]; · iexists _; iexact Hsl30
      isplitl [Hsl31]; · iexists _; iexact Hsl31
      isplitl [Hsl32]; · iexists _; iexact Hsl32
      isplitl [Hsl33]; · iexists _; iexact Hsl33
      isplitl [Hsl34]; · iexists _; iexact Hsl34
      isplitl [Hsl35]; · iexists _; iexact Hsl35
      isplitl [Hsl36]; · iexists _; iexact Hsl36
      isplitl [Hsl37]; · iexists _; iexact Hsl37
      isplitl [Hsl38]; · iexists _; iexact Hsl38
      isplitl [Hsl39]; · iexists _; iexact Hsl39
      isplitl [Hsl40]; · iexists _; iexact Hsl40
      isplitl [Hsl41]; · iexists _; iexact Hsl41
      isplitl [Hsl42]; · iexists _; iexact Hsl42
      isplitl [Hsl43]; · iexists _; iexact Hsl43
      isplitl [Hsl44]; · iexists _; iexact Hsl44
      isplitl [Hsl45]; · iexists _; iexact Hsl45
      isplitl [Hsl46]; · iexists _; iexact Hsl46
      isplitl [Hsl47]; · iexists _; iexact Hsl47
      isplitl [Hsl48]; · iexists _; iexact Hsl48
      isplitl [Hsl49]; · iexists _; iexact Hsl49
      isplitl [Hsl50]; · iexists _; iexact Hsl50
      isplitl [Hsl51]; · iexists _; iexact Hsl51
      isplitl [Hsl52]; · iexists _; iexact Hsl52
      isplitl [Hsl53]; · iexists _; iexact Hsl53
      isplitl [Hsl54]; · iexists _; iexact Hsl54
      isplitl [Hsl55]; · iexists _; iexact Hsl55
      isplitl [Hsl56]; · iexists _; iexact Hsl56
      isplitl [Hsl57]; · iexists _; iexact Hsl57
      isplitl [Hsl58]; · iexists _; iexact Hsl58
      isplitl [Hsl59]; · iexists _; iexact Hsl59
      isplitl [Hsl60]; · iexists _; iexact Hsl60
      isplitl [Hsl61]; · iexists _; iexact Hsl61
      isplitl [Hsl62]; · iexists _; iexact Hsl62
      isplitl [Hsl63]; · iexists _; iexact Hsl63
      isplitl [Hsl64]; · iexists _; iexact Hsl64
      isplitl [Hsl65]; · iexists _; iexact Hsl65
      isplitl [Hsl66]; · iexists _; iexact Hsl66
      isplitl [Hsl67]; · iexists _; iexact Hsl67
      isplitl [Hsl68]; · iexists _; iexact Hsl68
      isplitl [Hsl69]; · iexists _; iexact Hsl69
      isplitl [Hsl70]; · iexists _; iexact Hsl70
      iexists _; iexact Hsl71
    isplitr; · iexact HIS
    isplitl [HaS0 HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30 HaS31 HaS32 HaS33 HaS34 HaS35 HaS36 HaS37 HaS38 HaS39 HaS40 HaS41 HaS42 HaS43 HaS44 HaS45 HaS46 HaS47 HaS48 HaS49 HaS50 HaS51 HaS52 HaS53 HaS54 HaS55 HaS56 HaS57 HaS58 HaS59 HaS60 HaS61 HaS62 HaS63 HaS64 HaS65 HaS66 HaS67 HaS68 HaS69 HaS70 HaS71]
    · iapply (Entails.of_eq (bigSep_fin72 _).symm)
      isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      isplitl [HaS6]; · iexact HaS6
      isplitl [HaS7]; · iexact HaS7
      isplitl [HaS8]; · iexact HaS8
      isplitl [HaS9]; · iexact HaS9
      isplitl [HaS10]; · iexact HaS10
      isplitl [HaS11]; · iexact HaS11
      isplitl [HaS12]; · iexact HaS12
      isplitl [HaS13]; · iexact HaS13
      isplitl [HaS14]; · iexact HaS14
      isplitl [HaS15]; · iexact HaS15
      isplitl [HaS16]; · iexact HaS16
      isplitl [HaS17]; · iexact HaS17
      isplitl [HaS18]; · iexact HaS18
      isplitl [HaS19]; · iexact HaS19
      isplitl [HaS20]; · iexact HaS20
      isplitl [HaS21]; · iexact HaS21
      isplitl [HaS22]; · iexact HaS22
      isplitl [HaS23]; · iexact HaS23
      isplitl [HaS24]; · iexact HaS24
      isplitl [HaS25]; · iexact HaS25
      isplitl [HaS26]; · iexact HaS26
      isplitl [HaS27]; · iexact HaS27
      isplitl [HaS28]; · iexact HaS28
      isplitl [HaS29]; · iexact HaS29
      isplitl [HaS30]; · iexact HaS30
      isplitl [HaS31]; · iexact HaS31
      isplitl [HaS32]; · iexact HaS32
      isplitl [HaS33]; · iexact HaS33
      isplitl [HaS34]; · iexact HaS34
      isplitl [HaS35]; · iexact HaS35
      isplitl [HaS36]; · iexact HaS36
      isplitl [HaS37]; · iexact HaS37
      isplitl [HaS38]; · iexact HaS38
      isplitl [HaS39]; · iexact HaS39
      isplitl [HaS40]; · iexact HaS40
      isplitl [HaS41]; · iexact HaS41
      isplitl [HaS42]; · iexact HaS42
      isplitl [HaS43]; · iexact HaS43
      isplitl [HaS44]; · iexact HaS44
      isplitl [HaS45]; · iexact HaS45
      isplitl [HaS46]; · iexact HaS46
      isplitl [HaS47]; · iexact HaS47
      isplitl [HaS48]; · iexact HaS48
      isplitl [HaS49]; · iexact HaS49
      isplitl [HaS50]; · iexact HaS50
      isplitl [HaS51]; · iexact HaS51
      isplitl [HaS52]; · iexact HaS52
      isplitl [HaS53]; · iexact HaS53
      isplitl [HaS54]; · iexact HaS54
      isplitl [HaS55]; · iexact HaS55
      isplitl [HaS56]; · iexact HaS56
      isplitl [HaS57]; · iexact HaS57
      isplitl [HaS58]; · iexact HaS58
      isplitl [HaS59]; · iexact HaS59
      isplitl [HaS60]; · iexact HaS60
      isplitl [HaS61]; · iexact HaS61
      isplitl [HaS62]; · iexact HaS62
      isplitl [HaS63]; · iexact HaS63
      isplitl [HaS64]; · iexact HaS64
      isplitl [HaS65]; · iexact HaS65
      isplitl [HaS66]; · iexact HaS66
      isplitl [HaS67]; · iexact HaS67
      isplitl [HaS68]; · iexact HaS68
      isplitl [HaS69]; · iexact HaS69
      isplitl [HaS70]; · iexact HaS70
      iexact HaS71
    isplitr; · iexact HIR
    iapply (Entails.of_eq (bigSep_fin72 _).symm)
    isplitl [HaR0]; · iexact HaR0
    isplitl [HaR1]; · iexact HaR1
    isplitl [HaR2]; · iexact HaR2
    isplitl [HaR3]; · iexact HaR3
    isplitl [HaR4]; · iexact HaR4
    isplitl [HaR5]; · iexact HaR5
    isplitl [HaR6]; · iexact HaR6
    isplitl [HaR7]; · iexact HaR7
    isplitl [HaR8]; · iexact HaR8
    isplitl [HaR9]; · iexact HaR9
    isplitl [HaR10]; · iexact HaR10
    isplitl [HaR11]; · iexact HaR11
    isplitl [HaR12]; · iexact HaR12
    isplitl [HaR13]; · iexact HaR13
    isplitl [HaR14]; · iexact HaR14
    isplitl [HaR15]; · iexact HaR15
    isplitl [HaR16]; · iexact HaR16
    isplitl [HaR17]; · iexact HaR17
    isplitl [HaR18]; · iexact HaR18
    isplitl [HaR19]; · iexact HaR19
    isplitl [HaR20]; · iexact HaR20
    isplitl [HaR21]; · iexact HaR21
    isplitl [HaR22]; · iexact HaR22
    isplitl [HaR23]; · iexact HaR23
    isplitl [HaR24]; · iexact HaR24
    isplitl [HaR25]; · iexact HaR25
    isplitl [HaR26]; · iexact HaR26
    isplitl [HaR27]; · iexact HaR27
    isplitl [HaR28]; · iexact HaR28
    isplitl [HaR29]; · iexact HaR29
    isplitl [HaR30]; · iexact HaR30
    isplitl [HaR31]; · iexact HaR31
    isplitl [HaR32]; · iexact HaR32
    isplitl [HaR33]; · iexact HaR33
    isplitl [HaR34]; · iexact HaR34
    isplitl [HaR35]; · iexact HaR35
    isplitl [HaR36]; · iexact HaR36
    isplitl [HaR37]; · iexact HaR37
    isplitl [HaR38]; · iexact HaR38
    isplitl [HaR39]; · iexact HaR39
    isplitl [HaR40]; · iexact HaR40
    isplitl [HaR41]; · iexact HaR41
    isplitl [HaR42]; · iexact HaR42
    isplitl [HaR43]; · iexact HaR43
    isplitl [HaR44]; · iexact HaR44
    isplitl [HaR45]; · iexact HaR45
    isplitl [HaR46]; · iexact HaR46
    isplitl [HaR47]; · iexact HaR47
    isplitl [HaR48]; · iexact HaR48
    isplitl [HaR49]; · iexact HaR49
    isplitl [HaR50]; · iexact HaR50
    isplitl [HaR51]; · iexact HaR51
    isplitl [HaR52]; · iexact HaR52
    isplitl [HaR53]; · iexact HaR53
    isplitl [HaR54]; · iexact HaR54
    isplitl [HaR55]; · iexact HaR55
    isplitl [HaR56]; · iexact HaR56
    isplitl [HaR57]; · iexact HaR57
    isplitl [HaR58]; · iexact HaR58
    isplitl [HaR59]; · iexact HaR59
    isplitl [HaR60]; · iexact HaR60
    isplitl [HaR61]; · iexact HaR61
    isplitl [HaR62]; · iexact HaR62
    isplitl [HaR63]; · iexact HaR63
    isplitl [HaR64]; · iexact HaR64
    isplitl [HaR65]; · iexact HaR65
    isplitl [HaR66]; · iexact HaR66
    isplitl [HaR67]; · iexact HaR67
    isplitl [HaR68]; · iexact HaR68
    isplitl [HaR69]; · iexact HaR69
    isplitl [HaR70]; · iexact HaR70
    iexact HaR71
  rw [putRows_result c (Bm) g7, wp_ret, show owedRev c 0 = (0 : CellTallies nD τ sig Unit) from rfl]; imodintro
  iapply Hk
  unfold bodyPost
  isplitl [HΦ]; · iexact HΦ
  isplitl [HO]; · iapply (owesAt_intro m ρ c _) $$ HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  iexists _; isplitr; · (ipureintro; rfl)
  iexact Hx7

def bodyPre' (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

set_option maxRecDepth 100000 in
/-- The library's body obligation on device `c`. -/
theorem body_obligation' (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3) (fun _ => bodyPost m ρ c)
  unfold bodyPre' Φ₀ start
  iintro ⟨⟨⟨⟨%K, %KS, %KR, Hg⟩, Hrest⟩, Hscr⟩, Ho, Hx⟩
  iapply (sound_body m ρ K KS KR c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    iexact Hx
  · iintro H; iexact H

end Cert.KernelIdeal.Hand

end
-- ==== Proof.BodyObl.lean ====
/-
  The body obligation of the one grid point on every device.
-/
import proofs.«900461_g7700000000000462_dist_mlpseq_tp1d_rep_rep_b64_d512_h1024_v7x_i16_f32_1_alg».proof.Proof.Body

noncomputable section

namespace Cert.KernelIdeal.Hand

open Cert.KernelIdeal Cert.KernelIdeal.Gen
open Idealize.ShloMosaic Idealize.ShloMosaic.TcCoe
open Idealize.ShloMosaic.Pipeline (Dat Cfg Window BodyObligation cellOf)

variable {F : FTy → Type} [FloatOps F]
variable (m : (ℓ : Loc nD τ sig) → Buf (Elt F) ℓ) (ρ : Dev nD → PrngReg)

theorem body_obligation (c : Dev nD) : BodyObligation (dats (F := F) m ρ 0 c) (defs₀ (F := F)) 𝒱₀ () Set.univ :=
  body_obligation' m ρ c

end Cert.KernelIdeal.Hand

end
-- ==== Proof.ValueSixteen.lean ====
/-
  The two rounds of additions reach every device exactly once. From a device `c`, a shift of `b` positions inside the
  plane followed by a shift of `a` planes, for `a, b = 0, 1, 2, 3`, lands on each of the sixteen devices once: the
  position of the target fixes `b` and its plane fixes `a`. Addition of extended reals is commutative and associative,
  so the sum of the sixteen partial values in the order the two rounds take them is the sum over all devices.
-/
import proofs.«900461_g7700000000000462_dist_mlpseq_tp1d_rep_rep_b64_d512_h1024_v7x_i16_f32_1_alg».proof.Proof.Spec

noncomputable section

open scoped BigOperators

namespace Cert.KernelIdeal.Hand

open Cert.KernelIdeal Cert.KernelIdeal.Gen
open Idealize.ShloMosaic

theorem zp_zero (c : Dev nD) : zp 0 c = c := by revert c; decide
theorem pp_zero (c : Dev nD) : pp 0 c = c := by revert c; decide

/-- The device reached from `c` by `p.1` positions inside the plane and then `p.2` planes. -/
def reach (c : Dev nD) (p : Fin 4 × Fin 4) : Dev nD := zp p.2.val (pp p.1.val c)
/-- The two shifts that lead from `c` to `d`: the difference of the positions and the difference of the planes, modulo 4. -/
def shifts (c d : Dev nD) : Fin 4 × Fin 4 :=
  (⟨(d.val % 4 + 4 - c.val % 4) % 4, Nat.mod_lt _ (by decide)⟩, ⟨(d.val / 4 + 4 - c.val / 4) % 4, Nat.mod_lt _ (by decide)⟩)

theorem shifts_reach : ∀ (c : Dev nD) (p : Fin 4 × Fin 4), shifts c (reach c p) = p := by decide
theorem reach_shifts : ∀ (c d : Dev nD), reach c (shifts c d) = d := by decide

/-- The sixteen pairs of shifts and the sixteen devices correspond one to one. -/
def reachEquiv (c : Dev nD) : Fin 4 × Fin 4 ≃ Dev nD where
  toFun := reach c
  invFun := shifts c
  left_inv := shifts_reach c
  right_inv := reach_shifts c

/-- Sixteen values, one per device, added in the order of the two rounds — inside each group of four the own value first,
    then the shifts 1, 2, 3 — make the sum over all devices, in any commutative monoid. -/
theorem sum_sixteen {M : Type*} [AddCommMonoid M] (f : Dev nD → M) (c : Dev nD) :
    (((f c + f (zp 1 c) + f (zp 2 c) + f (zp 3 c))
      + (f (pp 1 c) + f (zp 1 (pp 1 c)) + f (zp 2 (pp 1 c)) + f (zp 3 (pp 1 c))))
      + (f (pp 2 c) + f (zp 1 (pp 2 c)) + f (zp 2 (pp 2 c)) + f (zp 3 (pp 2 c))))
      + (f (pp 3 c) + f (zp 1 (pp 3 c)) + f (zp 2 (pp 3 c)) + f (zp 3 (pp 3 c)))
      = ∑ d : Dev nD, f d := by
  rw [← Equiv.sum_comp (reachEquiv c) f, Fintype.sum_prod_type, Fin.sum_univ_four]
  simp only [Fin.sum_univ_four]
  show _ = (f (zp 0 (pp 0 c)) + f (zp 1 (pp 0 c)) + f (zp 2 (pp 0 c)) + f (zp 3 (pp 0 c)))
      + (f (zp 0 (pp 1 c)) + f (zp 1 (pp 1 c)) + f (zp 2 (pp 1 c)) + f (zp 3 (pp 1 c)))
      + (f (zp 0 (pp 2 c)) + f (zp 1 (pp 2 c)) + f (zp 2 (pp 2 c)) + f (zp 3 (pp 2 c)))
      + (f (zp 0 (pp 3 c)) + f (zp 1 (pp 3 c)) + f (zp 2 (pp 3 c)) + f (zp 3 (pp 3 c)))
  simp only [zp_zero, pp_zero]

/-- The two rounds of a layer's exchange, read at one element: the sum of that element over all sixteen devices. -/
theorem inside_across_apply (v : Tiles Ideal) (c : Dev nD) (g : Fin 4) (i : S16x512.Idx) :
    insidePlane (acrossPlanes v) c g i = ∑ d : Dev nD, v d g i :=
  sum_sixteen (fun d => v d g i) c

end Cert.KernelIdeal.Hand

end
-- ==== Proof.ValueMlp.lean ====
/-
  A device's share of one layer, read at one element. At the extended reals a matrix product into a zero accumulator
  is the plain sum of products over the inner positions, so the share `max(x · Win, 0) · Wout` of a 16-row tile, at row
  `r` and column `q`, is the sum over the device's 1024 hidden units `h` of `max(∑ₖ x[r,k] · Win[k,h], 0) · Wout[h,q]`.
-/
import proofs.«900461_g7700000000000462_dist_mlpseq_tp1d_rep_rep_b64_d512_h1024_v7x_i16_f32_1_alg».proof.Proof.Spec
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The first product: a 16×512 tile by the device's 512×1024 columns -/

theorem first_lhs0 (i : S16x1024.Idx) (q : dot_S16x512_S512x1024_S16x1024_1_0_0_1_n_n.contr.Idx) : (dot_S16x512_S512x1024_S16x1024_1_0_0_1_n_n.lhsIdx i q 0).val = (i 0).val := by
  unfold DotDims.lhsIdx
  rw [dif_neg (show ¬(0 : Fin S16x512.rank) ∈ dot_S16x512_S512x1024_S16x1024_1_0_0_1_n_n.lhsBatch by decide), dif_pos (show (0 : Fin S16x512.rank) ∈ dot_S16x512_S512x1024_S16x1024_1_0_0_1_n_n.lhsNonContracting by decide)]
  rfl
theorem first_lhs1 (i : S16x1024.Idx) (q : dot_S16x512_S512x1024_S16x1024_1_0_0_1_n_n.contr.Idx) : (dot_S16x512_S512x1024_S16x1024_1_0_0_1_n_n.lhsIdx i q 1).val = (q ⟨0, by decide⟩).val :=
  dot_S16x512_S512x1024_S16x1024_1_0_0_1_n_n.lhsIdx_val_of_single rfl i q
theorem first_rhs0 (i : S16x1024.Idx) (q : dot_S16x512_S512x1024_S16x1024_1_0_0_1_n_n.contr.Idx) : (dot_S16x512_S512x1024_S16x1024_1_0_0_1_n_n.rhsIdx i q 0).val = (q ⟨0, by decide⟩).val :=
  dot_S16x512_S512x1024_S16x1024_1_0_0_1_n_n.rhsIdx_val_of_single rfl i q
theorem first_rhs1 (i : S16x1024.Idx) (q : dot_S16x512_S512x1024_S16x1024_1_0_0_1_n_n.contr.Idx) : (dot_S16x512_S512x1024_S16x1024_1_0_0_1_n_n.rhsIdx i q 1).val = (i 1).val := by
  unfold DotDims.rhsIdx
  rw [dif_neg (show ¬(1 : Fin S512x1024.rank) ∈ dot_S16x512_S512x1024_S16x1024_1_0_0_1_n_n.rhsBatch by decide), dif_pos (show (1 : Fin S512x1024.rank) ∈ dot_S16x512_S512x1024_S16x1024_1_0_0_1_n_n.rhsNonContracting by decide)]
  rfl

/-- The product of a 16×512 by a 512×1024 array into a zero accumulator, at row `r` and column `n`: the sum over the 512 inner positions. -/
theorem first_apply (a : FVec Ideal S16x512 .f32) (b : FVec Ideal S512x1024 .f32) (r : Fin 16) (n : Fin 1024) :
    matmul dot_S16x512_S512x1024_S16x1024_1_0_0_1_n_n none a b (constant (F := Ideal) S16x1024 .f32 0x00000000#32) (ix2 r n) = ∑ k : Fin 512, a (ix2 r k) * b (ix2 k n) := by
  simp only [matmul]
  rw [Ideal.matmul_constant_zero_apply, ← Equiv.sum_comp (contrEquiv1 dot_S16x512_S512x1024_S16x1024_1_0_0_1_n_n 512 rfl rfl).symm]
  refine Finset.sum_congr rfl fun k _ => ?_
  have hk := contrEquiv1_symm_val dot_S16x512_S512x1024_S16x1024_1_0_0_1_n_n 512 rfl rfl k
  have el : dot_S16x512_S512x1024_S16x1024_1_0_0_1_n_n.lhsIdx (ix2 r n) ((contrEquiv1 dot_S16x512_S512x1024_S16x1024_1_0_0_1_n_n 512 rfl rfl).symm k) = ix2 r k := funext fun a => Fin.ext (by
    match a with
    | ⟨0, _⟩ => exact first_lhs0 _ _
    | ⟨1, _⟩ => exact (first_lhs1 _ _).trans hk)
  have er : dot_S16x512_S512x1024_S16x1024_1_0_0_1_n_n.rhsIdx (ix2 r n) ((contrEquiv1 dot_S16x512_S512x1024_S16x1024_1_0_0_1_n_n 512 rfl rfl).symm k) = ix2 k n := funext fun a => Fin.ext (by
    match a with
    | ⟨0, _⟩ => exact (first_rhs0 _ _).trans hk
    | ⟨1, _⟩ => exact first_rhs1 _ _)
  rw [el, er]

/-! ## The second product: the 16×1024 hidden tile by the device's 1024×512 rows -/

theorem second_lhs0 (i : S16x512.Idx) (q : dot_S16x1024_S1024x512_S16x512_1_0_0_1_n_n.contr.Idx) : (dot_S16x1024_S1024x512_S16x512_1_0_0_1_n_n.lhsIdx i q 0).val = (i 0).val := by
  unfold DotDims.lhsIdx
  rw [dif_neg (show ¬(0 : Fin S16x1024.rank) ∈ dot_S16x1024_S1024x512_S16x512_1_0_0_1_n_n.lhsBatch by decide), dif_pos (show (0 : Fin S16x1024.rank) ∈ dot_S16x1024_S1024x512_S16x512_1_0_0_1_n_n.lhsNonContracting by decide)]
  rfl
theorem second_lhs1 (i : S16x512.Idx) (q : dot_S16x1024_S1024x512_S16x512_1_0_0_1_n_n.contr.Idx) : (dot_S16x1024_S1024x512_S16x512_1_0_0_1_n_n.lhsIdx i q 1).val = (q ⟨0, by decide⟩).val :=
  dot_S16x1024_S1024x512_S16x512_1_0_0_1_n_n.lhsIdx_val_of_single rfl i q
theorem second_rhs0 (i : S16x512.Idx) (q : dot_S16x1024_S1024x512_S16x512_1_0_0_1_n_n.contr.Idx) : (dot_S16x1024_S1024x512_S16x512_1_0_0_1_n_n.rhsIdx i q 0).val = (q ⟨0, by decide⟩).val :=
  dot_S16x1024_S1024x512_S16x512_1_0_0_1_n_n.rhsIdx_val_of_single rfl i q
theorem second_rhs1 (i : S16x512.Idx) (q : dot_S16x1024_S1024x512_S16x512_1_0_0_1_n_n.contr.Idx) : (dot_S16x1024_S1024x512_S16x512_1_0_0_1_n_n.rhsIdx i q 1).val = (i 1).val := by
  unfold DotDims.rhsIdx
  rw [dif_neg (show ¬(1 : Fin S1024x512.rank) ∈ dot_S16x1024_S1024x512_S16x512_1_0_0_1_n_n.rhsBatch by decide), dif_pos (show (1 : Fin S1024x512.rank) ∈ dot_S16x1024_S1024x512_S16x512_1_0_0_1_n_n.rhsNonContracting by decide)]
  rfl

/-- The product of a 16×1024 by a 1024×512 array into a zero accumulator, at row `r` and column `n`: the sum over the 1024 inner positions. -/
theorem second_apply (a : FVec Ideal S16x1024 .f32) (b : FVec Ideal S1024x512 .f32) (r : Fin 16) (n : Fin 512) :
    matmul dot_S16x1024_S1024x512_S16x512_1_0_0_1_n_n none a b (constant (F := Ideal) S16x512 .f32 0x00000000#32) (ix2 r n) = ∑ k : Fin 1024, a (ix2 r k) * b (ix2 k n) := by
  simp only [matmul]
  rw [Ideal.matmul_constant_zero_apply, ← Equiv.sum_comp (contrEquiv1 dot_S16x1024_S1024x512_S16x512_1_0_0_1_n_n 1024 rfl rfl).symm]
  refine Finset.sum_congr rfl fun k _ => ?_
  have hk := contrEquiv1_symm_val dot_S16x1024_S1024x512_S16x512_1_0_0_1_n_n 1024 rfl rfl k
  have el : dot_S16x1024_S1024x512_S16x512_1_0_0_1_n_n.lhsIdx (ix2 r n) ((contrEquiv1 dot_S16x1024_S1024x512_S16x512_1_0_0_1_n_n 1024 rfl rfl).symm k) = ix2 r k := funext fun a => Fin.ext (by
    match a with
    | ⟨0, _⟩ => exact second_lhs0 _ _
    | ⟨1, _⟩ => exact (second_lhs1 _ _).trans hk)
  have er : dot_S16x1024_S1024x512_S16x512_1_0_0_1_n_n.rhsIdx (ix2 r n) ((contrEquiv1 dot_S16x1024_S1024x512_S16x512_1_0_0_1_n_n 1024 rfl rfl).symm k) = ix2 k n := funext fun a => Fin.ext (by
    match a with
    | ⟨0, _⟩ => exact (second_rhs0 _ _).trans hk
    | ⟨1, _⟩ => exact second_rhs1 _ _)
  rw [el, er]

/-! ## The share -/

/-- A device's share of a layer at row `r` of the tile and column `q`. -/
theorem mlp_apply (x : FVec Ideal S16x512 .f32) (wi : Vec Ideal S512x1024 .f32) (wo : Vec Ideal S1024x512 .f32)
    (r : Fin 16) (q : Fin 512) :
    mlp x wi wo (ix2 r q) = ∑ h : Fin 1024, max (∑ k : Fin 512, x (ix2 r k) * wi (ix2 k h)) 0 * wo (ix2 h q) := by
  unfold mlp
  rw [shapeCast_self, shapeCast_self, second_apply]
  refine Finset.sum_congr rfl fun h _ => ?_
  rw [maximumf_apply, first_apply, broadcast_apply]
  show max _ (Ideal.ofBits .f32 0x00000000#32) * _ = _
  rw [Ideal.ofBits_zero_f32]

end Cert.KernelIdeal.Hand

end
-- ==== Proof.ValueWhole.lean ====
/-
  One layer over the whole arrays, index by index, and how a device's blocks of the two weights sit in them.
  The layer's output at row `a` and column `q` is the sum over all 16384 hidden units `h` of
  `max(∑ₖ X[a,k] · Win[k,h], 0) · Wout[h,q]`. Device `d` holds columns `1024·d … 1024·d + 1023` of `Win` and the same
  rows of `Wout`: its hidden unit `h` is unit `1024·d + h` of the whole.
-/
import Idealize.ShloMosaic.Lib.ValueIdx
import Idealize.ShloMosaic.Lib.Layout

noncomputable section

open scoped BigOperators

namespace Cert.KernelIdeal.Hand

open Idealize.ShloMosaic Idealize.ShloMosaic.ValueIdx

/-- Row `r` of row tile `g` is row `16·g + r` of the 64 rows. -/
def row (g : Fin 4) (r : Fin 16) : Fin 64 := ⟨16 * g.val + r.val, by have := g.isLt; have := r.isLt; omega⟩

/-- Hidden unit `h` of device `d` is unit `1024·d + h` of the 16384. -/
def hidden (d : Fin 16) (h : Fin 1024) : Fin 16384 := ⟨d.val * 1024 + h.val, by have := d.isLt; have := h.isLt; omega⟩

/-- One layer over the whole arrays: `max(X · Win, 0) · Wout`, element by element. -/
def wholeLayer (X : (⟨2, ![64, 512]⟩ : Shape).Idx → EReal) (Wi : (⟨2, ![512, 16384]⟩ : Shape).Idx → EReal)
    (Wo : (⟨2, ![16384, 512]⟩ : Shape).Idx → EReal) : (⟨2, ![64, 512]⟩ : Shape).Idx → EReal :=
  fun i => ∑ h : Fin 16384, max (∑ k : Fin 512, X (ix2 (i 0) k) * Wi (ix2 k h)) 0 * Wo (ix2 h (i 1))

theorem wholeLayer_apply (X : (⟨2, ![64, 512]⟩ : Shape).Idx → EReal) (Wi : (⟨2, ![512, 16384]⟩ : Shape).Idx → EReal)
    (Wo : (⟨2, ![16384, 512]⟩ : Shape).Idx → EReal) (a : Fin 64) (q : Fin 512) :
    wholeLayer X Wi Wo (ix2 a q) = ∑ h : Fin 16384, max (∑ k : Fin 512, X (ix2 a k) * Wi (ix2 k h)) 0 * Wo (ix2 h q) := rfl

/-- The first weight is cut along its columns: the device's entry `(k, h)` is the whole's entry `(k, 1024·d + h)`. -/
theorem blockCols_apply (Wi : (⟨2, ![512, 16384]⟩ : Shape).Idx → EReal) (d : Fin 16)
    (hT : Layout.Tiles ⟨2, ![512, 1024]⟩ ⟨2, ![512, 16384]⟩ 1 16) (k : Fin 512) (h : Fin 1024) :
    Layout.block ⟨2, ![512, 1024]⟩ ⟨2, ![512, 16384]⟩ 1 16 d Wi hT (ix2 k h) = Wi (ix2 k (hidden d h)) := by
  show Wi (hT.idx d (ix2 k h)) = _
  refine congrArg Wi (funext fun a => Fin.ext ?_)
  match a with
  | ⟨0, _⟩ => rfl
  | ⟨1, _⟩ => rfl

/-- The second weight is cut along its rows: the device's entry `(h, q)` is the whole's entry `(1024·d + h, q)`. -/
theorem blockRows_apply (Wo : (⟨2, ![16384, 512]⟩ : Shape).Idx → EReal) (d : Fin 16)
    (hT : Layout.Tiles ⟨2, ![1024, 512]⟩ ⟨2, ![16384, 512]⟩ 0 16) (h : Fin 1024) (q : Fin 512) :
    Layout.block ⟨2, ![1024, 512]⟩ ⟨2, ![16384, 512]⟩ 0 16 d Wo hT (ix2 h q) = Wo (ix2 (hidden d h) q) := by
  show Wo (hT.idx d (ix2 h q)) = _
  refine congrArg Wo (funext fun a => Fin.ext ?_)
  match a with
  | ⟨0, _⟩ => rfl
  | ⟨1, _⟩ => rfl

end Cert.KernelIdeal.Hand

end
-- ==== Proof.LibBlockSum.lean ====
/-
  A sum over the 16384 hidden units taken in sixteen consecutive blocks of 1024: the index `1024·c + j` of unit `j`
  of block `c` runs over every unit exactly once, so the double sum over blocks and positions is the single sum.
-/
import Idealize.ShloMosaic.Lib.ValueIdx

open scoped BigOperators

namespace Cert.Hand.BlockSum

/-- Unit `j` of block `c` is unit `1024·c + j`; unit `k` is unit `k % 1024` of block `k / 1024`. -/
def blockEquiv : Fin 16 × Fin 1024 ≃ Fin 16384 where
  toFun p := ⟨p.1.val * 1024 + p.2.val, by have := p.1.isLt; have := p.2.isLt; omega⟩
  invFun k := (⟨k.val / 1024, by have := k.isLt; omega⟩, ⟨k.val % 1024, Nat.mod_lt _ (by decide)⟩)
  left_inv p := by
    rcases p with ⟨a, b⟩
    refine Prod.ext (Fin.ext ?_) (Fin.ext ?_)
    · show (a.val * 1024 + b.val) / 1024 = a.val
      have := b.isLt; omega
    · show (a.val * 1024 + b.val) % 1024 = b.val
      have := b.isLt; omega
  right_inv k := Fin.ext (by
    show k.val / 1024 * 1024 + k.val % 1024 = k.val
    omega)

/-- The sum over all 16384 units is the sum over the sixteen blocks of the sums over each block's 1024 units. -/
theorem sum_blocks {M : Type*} [AddCommMonoid M] (f : Fin 16384 → M) :
    ∑ c : Fin 16, ∑ j : Fin 1024, f ⟨c.val * 1024 + j.val, by have := c.isLt; have := j.isLt; omega⟩ = ∑ k : Fin 16384, f k := by
  rw [← Equiv.sum_comp blockEquiv f, Fintype.sum_prod_type]
  rfl

end Cert.Hand.BlockSum
-- ==== Proof.ValueLayer.lean ====
/-
  One layer on the sixteen devices is one layer over the whole arrays. Every device ends a layer with the sum, over all
  sixteen devices `d`, of `d`'s share; `d`'s share at row `r` of tile `g` and column `q` is the sum over its 1024
  hidden units; unit `h` of device `d` is unit `1024·d + h` of the 16384, the first product and the clamp at zero
  are taken column by column, and the sixteen blocks of 1024 make up the 16384 once each. So the double sum is the whole
  layer's single sum, on every device alike.
-/
import proofs.«900461_g7700000000000462_dist_mlpseq_tp1d_rep_rep_b64_d512_h1024_v7x_i16_f32_1_alg».proof.Proof.ValueSixteen
import proofs.«900461_g7700000000000462_dist_mlpseq_tp1d_rep_rep_b64_d512_h1024_v7x_i16_f32_1_alg».proof.Proof.ValueMlp
import proofs.«900461_g7700000000000462_dist_mlpseq_tp1d_rep_rep_b64_d512_h1024_v7x_i16_f32_1_alg».proof.Proof.ValueWhole
import proofs.«900461_g7700000000000462_dist_mlpseq_tp1d_rep_rep_b64_d512_h1024_v7x_i16_f32_1_alg».proof.Proof.LibBlockSum

noncomputable section

open scoped BigOperators

namespace Cert.KernelIdeal.Hand

open Cert.KernelIdeal Cert.KernelIdeal.Gen
open Idealize.ShloMosaic Idealize.ShloMosaic.ValueIdx

/-- If every device's input tile `g` is rows `16·g …` of one array `X`, and the devices hold the blocks of `Win`
    and `Wout`, then every device's output tile `g` of the layer is rows `16·g …` of the whole layer of `X`. -/
theorem layer_apply (B : Blocks Ideal) (l : Fin 3) (xin : Tiles Ideal)
    (X : (⟨2, ![64, 512]⟩ : Shape).Idx → EReal) (Wi : (⟨2, ![512, 16384]⟩ : Shape).Idx → EReal)
    (Wo : (⟨2, ![16384, 512]⟩ : Shape).Idx → EReal)
    (hxin : ∀ (c : Dev nD) (g : Fin 4) (r : Fin 16) (k : Fin 512), xin c g (ix2 r k) = X (ix2 (row g r) k))
    (hwi : ∀ c : Dev nD, B.wi l c = Layout.block ⟨2, ![512, 1024]⟩ ⟨2, ![512, 16384]⟩ 1 16 c Wi)
    (hwo : ∀ c : Dev nD, B.wo l c = Layout.block ⟨2, ![1024, 512]⟩ ⟨2, ![16384, 512]⟩ 0 16 c Wo)
    (c : Dev nD) (g : Fin 4) (r : Fin 16) (q : Fin 512) :
    layer B l xin c g (ix2 r q) = wholeLayer X Wi Wo (ix2 (row g r) q) := by
  unfold layer
  rw [inside_across_apply, wholeLayer_apply, ← Cert.Hand.BlockSum.sum_blocks]
  refine Finset.sum_congr rfl fun d _ => ?_
  show mlp (xin d g) (B.wi l d) (B.wo l d) (ix2 r q) = _
  rw [mlp_apply, hwi d, hwo d]
  refine Finset.sum_congr rfl fun h _ => ?_
  rw [blockRows_apply]
  have e : (∑ k : Fin 512, xin d g (ix2 r k) * Layout.block ⟨2, ![512, 1024]⟩ ⟨2, ![512, 16384]⟩ 1 16 d Wi (by decide) (ix2 k h))
      = ∑ k : Fin 512, X (ix2 (row g r) k) * Wi (ix2 k (hidden d h)) :=
    Finset.sum_congr rfl fun k _ => by rw [hxin, blockCols_apply]
  rw [e]
  rfl

end Cert.KernelIdeal.Hand

end
-- ==== Proof.ValueRef.lean ====
/-
  The reference is three whole layers. Each layer of the reference is a product, a clamp at zero against a broadcast zero
  and a second product; at the extended reals the host's products are plain sums of products, so one layer read at an
  element is the whole layer's sum, and the reference's result is the third layer of the second of the first.
-/
import proofs.«900461_g7700000000000462_dist_mlpseq_tp1d_rep_rep_b64_d512_h1024_v7x_i16_f32_1_alg».proof.Proof.Gen.ReferenceIdeal.Read
import proofs.«900461_g7700000000000462_dist_mlpseq_tp1d_rep_rep_b64_d512_h1024_v7x_i16_f32_1_alg».proof.Proof.ValueWhole

noncomputable section

open scoped BigOperators

namespace Cert.ReferenceIdeal.Hand

open Cert.ReferenceIdeal Cert.ReferenceIdeal.Gen Cert.ReferenceIdeal.Read
open Idealize.ShloMosaic Idealize.ShloMosaic.ValueIdx
open Cert.KernelIdeal.Hand (wholeLayer wholeLayer_apply)

/-- One layer of the reference — the first product, the clamp, the second product — is the whole layer. -/
theorem stage_eq_wholeLayer (x : (⟨S64x512, .f32⟩ : BufTy).Contents (Elt Ideal)) (Wi : (⟨S512x16384, .f32⟩ : BufTy).Contents (Elt Ideal)) (Wo : (⟨S16384x512, .f32⟩ : BufTy).Contents (Elt Ideal)) :
    val_main_v3 (F := Ideal) x Wi Wo = wholeLayer x Wi Wo := by
  funext i
  obtain ⟨a, q, rfl⟩ : ∃ (a : Fin 64) (q : Fin 512), i = ix2 a q := ⟨i 0, i 1, eq_ix2 i⟩
  rw [val_main_v3_apply, wholeLayer_apply]
  refine Finset.sum_congr rfl fun h _ => ?_
  rw [val_main_v2_apply, val_main_v0_apply, val_main_v1_apply, val_main_cst_apply]
  have e1 : ∀ k : Fin 512, lidx_main_v0 (lidx_main_v3 (ix2 a q) h) k = ix2 a k := fun k => funext fun b => by
    match b with
    | ⟨0, _⟩ => rfl
    | ⟨1, _⟩ => rfl
  have e2 : ∀ k : Fin 512, ridx_main_v0 (lidx_main_v3 (ix2 a q) h) k = ix2 k h := fun k => funext fun b => by
    match b with
    | ⟨0, _⟩ => rfl
    | ⟨1, _⟩ => rfl
  have e3 : ridx_main_v3 (ix2 a q) h = ix2 h q := funext fun b => by
    match b with
    | ⟨0, _⟩ => rfl
    | ⟨1, _⟩ => rfl
  have e : (∑ k : Fin 512, x (lidx_main_v0 (lidx_main_v3 (ix2 a q) h) k) * Wi (ridx_main_v0 (lidx_main_v3 (ix2 a q) h) k))
      = ∑ k : Fin 512, x (ix2 a k) * Wi (ix2 k h) := Finset.sum_congr rfl fun k _ => by rw [e1 k, e2 k]
  rw [e, e3]
  show max _ (Ideal.ofBits .f32 0x00000000#32) * _ = _
  rw [Ideal.ofBits_zero_f32]

/-- The reference's last stage is the third whole layer of the second of the first. -/
theorem last_stage_eq (X : (⟨S64x512, .f32⟩ : BufTy).Contents (Elt Ideal)) (Wi0 : (⟨S512x16384, .f32⟩ : BufTy).Contents (Elt Ideal)) (Wo0 : (⟨S16384x512, .f32⟩ : BufTy).Contents (Elt Ideal))
    (Wi1 : (⟨S512x16384, .f32⟩ : BufTy).Contents (Elt Ideal)) (Wo1 : (⟨S16384x512, .f32⟩ : BufTy).Contents (Elt Ideal)) (Wi2 : (⟨S512x16384, .f32⟩ : BufTy).Contents (Elt Ideal)) (Wo2 : (⟨S16384x512, .f32⟩ : BufTy).Contents (Elt Ideal)) :
    val_main_v11 (F := Ideal) X Wi0 Wo0 Wi1 Wo1 Wi2 Wo2
      = wholeLayer (wholeLayer (wholeLayer X Wi0 Wo0) Wi1 Wo1) Wi2 Wo2 := by
  show val_main_v3 (F := Ideal) (val_main_v3 (F := Ideal) (val_main_v3 (F := Ideal) X Wi0 Wo0) Wi1 Wo1) Wi2 Wo2 = _
  rw [stage_eq_wholeLayer, stage_eq_wholeLayer, stage_eq_wholeLayer]

/-- The term the reference's run ends with, spelled out, is the same. -/
theorem run_term_eq (X : (⟨S64x512, .f32⟩ : BufTy).Contents (Elt Ideal)) (Wi0 : (⟨S512x16384, .f32⟩ : BufTy).Contents (Elt Ideal)) (Wo0 : (⟨S16384x512, .f32⟩ : BufTy).Contents (Elt Ideal))
    (Wi1 : (⟨S512x16384, .f32⟩ : BufTy).Contents (Elt Ideal)) (Wo1 : (⟨S16384x512, .f32⟩ : BufTy).Contents (Elt Ideal)) (Wi2 : (⟨S512x16384, .f32⟩ : BufTy).Contents (Elt Ideal)) (Wo2 : (⟨S16384x512, .f32⟩ : BufTy).Contents (Elt Ideal)) :
    Host.dotGeneral (F := Ideal) (φ₁ := .f32) (φ₂ := .f32) dot_S64x16384_S16384x512_S64x512_1_0_0_1_n_n none (maximumf (Host.dotGeneral (F := Ideal) (φ₁ := .f32) (φ₂ := .f32) dot_S64x512_S512x16384_S64x16384_1_0_0_1_n_n none (Host.dotGeneral (F := Ideal) (φ₁ := .f32) (φ₂ := .f32) dot_S64x16384_S16384x512_S64x512_1_0_0_1_n_n none (maximumf (Host.dotGeneral (F := Ideal) (φ₁ := .f32) (φ₂ := .f32) dot_S64x512_S512x16384_S64x16384_1_0_0_1_n_n none (Host.dotGeneral (F := Ideal) (φ₁ := .f32) (φ₂ := .f32) dot_S64x16384_S16384x512_S64x512_1_0_0_1_n_n none (maximumf (Host.dotGeneral (F := Ideal) (φ₁ := .f32) (φ₂ := .f32) dot_S64x512_S512x16384_S64x16384_1_0_0_1_n_n none X Wi0) (broadcastInDim S64x16384 ![] bcast_S_S64x16384 (constant (F := Ideal) S_ .f32 0x00000000#32))) Wo0) Wi1) (broadcastInDim S64x16384 ![] bcast_S_S64x16384 (constant (F := Ideal) S_ .f32 0x00000000#32))) Wo1) Wi2) (broadcastInDim S64x16384 ![] bcast_S_S64x16384 (constant (F := Ideal) S_ .f32 0x00000000#32))) Wo2
      = wholeLayer (wholeLayer (wholeLayer X Wi0 Wo0) Wi1 Wo1) Wi2 Wo2 :=
  (val_main_v11_eq (F := Ideal) X Wi0 Wo0 Wi1 Wo1 Wi2 Wo2).trans (last_stage_eq X Wi0 Wo0 Wi1 Wo1 Wi2 Wo2)

end Cert.ReferenceIdeal.Hand

end
-- ==== Proof.Value.lean ====
/-
  The value bridge: every device's result array is the reference's result. The devices' copies of the input are rows of
  one array, so by the layer lemma the first layer's output tiles are rows of the first whole layer on every device; they
  are the second layer's input tiles, and so on through the three layers; the four row tiles of the third layer's output
  make up the 64 rows. The reference's result is the same three whole layers.
-/
import proofs.«900461_g7700000000000462_dist_mlpseq_tp1d_rep_rep_b64_d512_h1024_v7x_i16_f32_1_alg».proof.Proof.ValueLayer
import proofs.«900461_g7700000000000462_dist_mlpseq_tp1d_rep_rep_b64_d512_h1024_v7x_i16_f32_1_alg».proof.Proof.ValueRef

noncomputable section

open scoped BigOperators

namespace Cert.KernelIdeal.Hand

open Cert.KernelIdeal Cert.KernelIdeal.Gen
open Idealize.ShloMosaic Idealize.ShloMosaic.ValueIdx

/-- A device's input tile `g` is rows `16·g …` of its copy of the input. -/
theorem xTile_apply (B : Blocks Ideal) (X : (⟨2, ![64, 512]⟩ : Shape).Idx → EReal) (hx : ∀ c : Dev nD, B.x c = X)
    (c : Dev nD) (g : Fin 4) (r : Fin 16) (k : Fin 512) : xTile B c g (ix2 r k) = X (ix2 (row g r) k) := by
  rw [← hx c]
  rfl

section Layers

variable (X : (⟨Cert.ReferenceIdeal.S64x512, .f32⟩ : BufTy).Contents (Elt Ideal))
    (Wi0 Wi1 Wi2 : (⟨Cert.ReferenceIdeal.S512x16384, .f32⟩ : BufTy).Contents (Elt Ideal))
    (Wo0 Wo1 Wo2 : (⟨Cert.ReferenceIdeal.S16384x512, .f32⟩ : BufTy).Contents (Elt Ideal))
    (B : Blocks Ideal) (hx : ∀ c : Dev nD, B.x c = X)
    (hwi : ∀ c : Dev nD, B.wi 0 c = Layout.block ⟨2, ![512, 1024]⟩ ⟨2, ![512, 16384]⟩ 1 16 c Wi0
      ∧ B.wi 1 c = Layout.block ⟨2, ![512, 1024]⟩ ⟨2, ![512, 16384]⟩ 1 16 c Wi1
      ∧ B.wi 2 c = Layout.block ⟨2, ![512, 1024]⟩ ⟨2, ![512, 16384]⟩ 1 16 c Wi2)
    (hwo : ∀ c : Dev nD, B.wo 0 c = Layout.block ⟨2, ![1024, 512]⟩ ⟨2, ![16384, 512]⟩ 0 16 c Wo0
      ∧ B.wo 1 c = Layout.block ⟨2, ![1024, 512]⟩ ⟨2, ![16384, 512]⟩ 0 16 c Wo1
      ∧ B.wo 2 c = Layout.block ⟨2, ![1024, 512]⟩ ⟨2, ![16384, 512]⟩ 0 16 c Wo2)
include hx hwi hwo

/-- After the first layer every device's tile `g` is rows `16·g …` of the first whole layer. -/
theorem x1_apply (c : Dev nD) (g : Fin 4) (r : Fin 16) (q : Fin 512) :
    x1 B c g (ix2 r q) = wholeLayer X Wi0 Wo0 (ix2 (row g r) q) :=
  layer_apply B 0 (xTile B) X Wi0 Wo0 (xTile_apply B X hx) (fun c => (hwi c).1) (fun c => (hwo c).1) c g r q

/-- After the second layer, of the second whole layer of the first. -/
theorem x2_apply (c : Dev nD) (g : Fin 4) (r : Fin 16) (q : Fin 512) :
    x2 B c g (ix2 r q) = wholeLayer (wholeLayer X Wi0 Wo0) Wi1 Wo1 (ix2 (row g r) q) :=
  layer_apply B 1 (x1 B) (wholeLayer X Wi0 Wo0) Wi1 Wo1 (x1_apply X Wi0 Wi1 Wi2 Wo0 Wo1 Wo2 B hx hwi hwo) (fun c => (hwi c).2.1) (fun c => (hwo c).2.1) c g r q

/-- After the third layer, of the third whole layer of the second of the first. -/
theorem x3_apply (c : Dev nD) (g : Fin 4) (r : Fin 16) (q : Fin 512) :
    x3 B c g (ix2 r q) = wholeLayer (wholeLayer (wholeLayer X Wi0 Wo0) Wi1 Wo1) Wi2 Wo2 (ix2 (row g r) q) :=
  layer_apply B 2 (x2 B) (wholeLayer (wholeLayer X Wi0 Wo0) Wi1 Wo1) Wi2 Wo2 (x2_apply X Wi0 Wi1 Wi2 Wo0 Wo1 Wo2 B hx hwi hwo) (fun c => (hwi c).2.2) (fun c => (hwo c).2.2) c g r q

/-- A device's result array is the three whole layers of the input. -/
theorem result_eq_whole (c : Dev nD) :
    result B c = wholeLayer (wholeLayer (wholeLayer X Wi0 Wo0) Wi1 Wo1) Wi2 Wo2 := by
  funext i
  have hg : (i 0).val / 16 < 4 := by have : (i 0).val < 64 := (i 0).isLt; omega
  have h3 := x3_apply X Wi0 Wi1 Wi2 Wo0 Wo1 Wo2 B hx hwi hwo c ⟨(i 0).val / 16, hg⟩ ⟨(i 0).val % 16, Nat.mod_lt _ (by decide)⟩ (i 1)
  refine (show result B c i = x3 B c ⟨(i 0).val / 16, hg⟩ (ix2 ⟨(i 0).val % 16, Nat.mod_lt _ (by decide)⟩ (i 1)) from rfl).trans
    (h3.trans (congrArg _ (funext fun a => ?_)))
  match a with
  | ⟨0, _⟩ => exact Fin.ext (by show 16 * ((i 0).val / 16) + (i 0).val % 16 = (i 0).val; omega)
  | ⟨1, _⟩ => rfl

/-- THE VALUE BRIDGE, against the reference's last stage: every device's result array is the reference's result. -/
theorem result_eq_stage (c : Dev nD) :
    result B c = Cert.ReferenceIdeal.Read.val_main_v11 (F := Ideal) X Wi0 Wo0 Wi1 Wo1 Wi2 Wo2 :=
  (result_eq_whole X Wi0 Wi1 Wi2 Wo0 Wo1 Wo2 B hx hwi hwo c).trans (Cert.ReferenceIdeal.Hand.last_stage_eq X Wi0 Wo0 Wi1 Wo1 Wi2 Wo2).symm

/-- THE VALUE BRIDGE, against the term the reference's run ends with, spelled out. -/
theorem result_eq_reference (c : Dev nD) :
    result B c = Host.dotGeneral (F := Ideal) (φ₁ := .f32) (φ₂ := .f32) Cert.ReferenceIdeal.dot_S64x16384_S16384x512_S64x512_1_0_0_1_n_n none (maximumf (Host.dotGeneral (F := Ideal) (φ₁ := .f32) (φ₂ := .f32) Cert.ReferenceIdeal.dot_S64x512_S512x16384_S64x16384_1_0_0_1_n_n none (Host.dotGeneral (F := Ideal) (φ₁ := .f32) (φ₂ := .f32) Cert.ReferenceIdeal.dot_S64x16384_S16384x512_S64x512_1_0_0_1_n_n none (maximumf (Host.dotGeneral (F := Ideal) (φ₁ := .f32) (φ₂ := .f32) Cert.ReferenceIdeal.dot_S64x512_S512x16384_S64x16384_1_0_0_1_n_n none (Host.dotGeneral (F := Ideal) (φ₁ := .f32) (φ₂ := .f32) Cert.ReferenceIdeal.dot_S64x16384_S16384x512_S64x512_1_0_0_1_n_n none (maximumf (Host.dotGeneral (F := Ideal) (φ₁ := .f32) (φ₂ := .f32) Cert.ReferenceIdeal.dot_S64x512_S512x16384_S64x16384_1_0_0_1_n_n none X Wi0) (broadcastInDim Cert.ReferenceIdeal.S64x16384 ![] Cert.ReferenceIdeal.Gen.bcast_S_S64x16384 (constant (F := Ideal) Cert.ReferenceIdeal.S_ .f32 0x00000000#32))) Wo0) Wi1) (broadcastInDim Cert.ReferenceIdeal.S64x16384 ![] Cert.ReferenceIdeal.Gen.bcast_S_S64x16384 (constant (F := Ideal) Cert.ReferenceIdeal.S_ .f32 0x00000000#32))) Wo1) Wi2) (broadcastInDim Cert.ReferenceIdeal.S64x16384 ![] Cert.ReferenceIdeal.Gen.bcast_S_S64x16384 (constant (F := Ideal) Cert.ReferenceIdeal.S_ .f32 0x00000000#32))) Wo2 :=
  (result_eq_whole X Wi0 Wi1 Wi2 Wo0 Wo1 Wo2 B hx hwi hwo c).trans (Cert.ReferenceIdeal.Hand.run_term_eq X Wi0 Wo0 Wi1 Wo1 Wi2 Wo2).symm

end Layers

end Cert.KernelIdeal.Hand

end
-- ==== Proof.Bits.Peers.lean ====
/-
  The mesh's neighbours. Sixteen devices sit in four planes of four: device `c` has position `c % 4` inside its
  plane and its plane starts at `c - c % 4`. A device exchanges data with the three other devices of its plane
  (same plane, position shifted by `o = 1, 2, 3` modulo 4) and with the three devices at its position in the other
  planes (`c + 4·o` modulo 16). Both shifts are invertible: the device shifted by `o` sees the original one at
  shift `4 - o`. The printed device chains of the barrier signals and of the seventy-two copies are these shifts.
-/
import proofs.«900461_g7700000000000462_dist_mlpseq_tp1d_rep_rep_b64_d512_h1024_v7x_i16_f32_1_alg».proof.Proof.Gen.Kernel

noncomputable section

namespace Cert.Kernel.Hand

open Cert.Kernel Cert.Kernel.Gen
open Idealize.ShloMosaic

/-- The device at the same position, `o` planes further (modulo the four planes). -/
def zp (o : Nat) (c : Dev nD) : Dev nD := ⟨(c.val + 4 * o) % 16, Nat.mod_lt _ (by decide)⟩
/-- The device of the same plane, `o` positions further (modulo the four positions). -/
def pp (o : Nat) (c : Dev nD) : Dev nD := ⟨(c.val - c.val % 4) + (c.val % 4 + o) % 4, by have := c.isLt; have h : nD = 16 := rfl; omega⟩

/-- The six neighbours in the order the barrier signals name them: the plane's three, then the three of the other planes. -/
def peer (j : Fin 6) (c : Dev nD) : Dev nD :=
  match j with
  | 0 => pp 1 c | 1 => pp 2 c | 2 => pp 3 c | 3 => zp 1 c | 4 => zp 2 c | 5 => zp 3 c

/-- Seen from neighbour `j`, the device is neighbour `back j`. -/
def back (j : Fin 6) : Fin 6 :=
  match j with
  | 0 => 2 | 1 => 1 | 2 => 0 | 3 => 5 | 4 => 4 | 5 => 3

theorem back_back (j : Fin 6) : back (back j) = j := by revert j; decide
theorem peer_back (j : Fin 6) (c : Dev nD) : peer (back j) (peer j c) = c := by revert j c; decide
theorem peer_ne (j : Fin 6) (c : Dev nD) : peer j c ≠ c := by revert j c; decide
theorem peer_inj (c : Dev nD) : ∀ j j' : Fin 6, peer j c = peer j' c → j = j' := by revert c; decide

/-- Round `0` of a layer's exchange goes across the planes, round `1` inside the plane; the copy with peer slot `ps`
    is addressed to shift `3 - ps`. As a neighbour number: -/
def sendTo (rnd : Fin 2) (ps : Fin 3) : Fin 6 :=
  match rnd, ps with
  | 0, 0 => 5 | 0, 1 => 4 | 0, 2 => 3 | 1, 0 => 2 | 1, 1 => 1 | 1, 2 => 0
/-- and the copy that lands in the device's own slot `ps` comes from shift `ps + 1`. -/
def recvFrom (rnd : Fin 2) (ps : Fin 3) : Fin 6 :=
  match rnd, ps with
  | 0, 0 => 3 | 0, 1 => 4 | 0, 2 => 5 | 1, 0 => 0 | 1, 1 => 1 | 1, 2 => 2

theorem back_sendTo (rnd : Fin 2) (ps : Fin 3) : back (sendTo rnd ps) = recvFrom rnd ps := by revert rnd ps; decide
theorem back_recvFrom (rnd : Fin 2) (ps : Fin 3) : back (recvFrom rnd ps) = sendTo rnd ps := by revert rnd ps; decide

/-! ## The printed device chains -/

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 3 c := by revert c; decide
theorem dev5_eq (c : Dev nD) : (⟨k0_dev5 c, k0_dev5_lt c⟩ : Dev nD) = peer 4 c := by revert c; decide
theorem dev6_eq (c : Dev nD) : (⟨k0_dev6 c, k0_dev6_lt c⟩ : Dev nD) = peer 5 c := by revert c; decide
theorem dev7_eq (c : Dev nD) : (⟨k0_dev7 c, k0_dev7_lt c⟩ : Dev nD) = peer 3 c := by revert c; decide
theorem dev8_eq (c : Dev nD) : (⟨k0_dev8 c, k0_dev8_lt c⟩ : Dev nD) = peer 4 c := by revert c; decide
theorem dev9_eq (c : Dev nD) : (⟨k0_dev9 c, k0_dev9_lt c⟩ : Dev nD) = peer 5 c := by revert c; decide
theorem dev10_eq (c : Dev nD) : (⟨k0_dev10 c, k0_dev10_lt c⟩ : Dev nD) = peer 3 c := by revert c; decide
theorem dev11_eq (c : Dev nD) : (⟨k0_dev11 c, k0_dev11_lt c⟩ : Dev nD) = peer 4 c := by revert c; decide
theorem dev12_eq (c : Dev nD) : (⟨k0_dev12 c, k0_dev12_lt c⟩ : Dev nD) = peer 5 c := by revert c; decide
theorem dev13_eq (c : Dev nD) : (⟨k0_dev13 c, k0_dev13_lt c⟩ : Dev nD) = peer 3 c := by revert c; decide
theorem dev14_eq (c : Dev nD) : (⟨k0_dev14 c, k0_dev14_lt c⟩ : Dev nD) = peer 4 c := by revert c; decide
theorem dev15_eq (c : Dev nD) : (⟨k0_dev15 c, k0_dev15_lt c⟩ : Dev nD) = peer 5 c := by revert c; decide
theorem dev16_eq (c : Dev nD) : (⟨k0_dev16 c, k0_dev16_lt c⟩ : Dev nD) = peer 3 c := by revert c; decide
theorem dev17_eq (c : Dev nD) : (⟨k0_dev17 c, k0_dev17_lt c⟩ : Dev nD) = peer 4 c := by revert c; decide
theorem dev18_eq (c : Dev nD) : (⟨k0_dev18 c, k0_dev18_lt c⟩ : Dev nD) = peer 5 c := by revert c; decide
theorem dev19_eq (c : Dev nD) : (⟨k0_dev19 c, k0_dev19_lt c⟩ : Dev nD) = peer 0 c := by revert c; decide
theorem dev20_eq (c : Dev nD) : (⟨k0_dev20 c, k0_dev20_lt c⟩ : Dev nD) = peer 1 c := by revert c; decide
theorem dev21_eq (c : Dev nD) : (⟨k0_dev21 c, k0_dev21_lt c⟩ : Dev nD) = peer 2 c := by revert c; decide
theorem dev22_eq (c : Dev nD) : (⟨k0_dev22 c, k0_dev22_lt c⟩ : Dev nD) = peer 0 c := by revert c; decide
theorem dev23_eq (c : Dev nD) : (⟨k0_dev23 c, k0_dev23_lt c⟩ : Dev nD) = peer 1 c := by revert c; decide
theorem dev24_eq (c : Dev nD) : (⟨k0_dev24 c, k0_dev24_lt c⟩ : Dev nD) = peer 2 c := by revert c; decide
theorem dev25_eq (c : Dev nD) : (⟨k0_dev25 c, k0_dev25_lt c⟩ : Dev nD) = peer 0 c := by revert c; decide
theorem dev26_eq (c : Dev nD) : (⟨k0_dev26 c, k0_dev26_lt c⟩ : Dev nD) = peer 1 c := by revert c; decide
theorem dev27_eq (c : Dev nD) : (⟨k0_dev27 c, k0_dev27_lt c⟩ : Dev nD) = peer 2 c := by revert c; decide
theorem dev28_eq (c : Dev nD) : (⟨k0_dev28 c, k0_dev28_lt c⟩ : Dev nD) = peer 0 c := by revert c; decide
theorem dev29_eq (c : Dev nD) : (⟨k0_dev29 c, k0_dev29_lt c⟩ : Dev nD) = peer 1 c := by revert c; decide
theorem dev30_eq (c : Dev nD) : (⟨k0_dev30 c, k0_dev30_lt c⟩ : Dev nD) = peer 2 c := by revert c; decide
theorem dev31_eq (c : Dev nD) : (⟨k0_dev31 c, k0_dev31_lt c⟩ : Dev nD) = peer 3 c := by revert c; decide
theorem dev32_eq (c : Dev nD) : (⟨k0_dev32 c, k0_dev32_lt c⟩ : Dev nD) = peer 4 c := by revert c; decide
theorem dev33_eq (c : Dev nD) : (⟨k0_dev33 c, k0_dev33_lt c⟩ : Dev nD) = peer 5 c := by revert c; decide
theorem dev34_eq (c : Dev nD) : (⟨k0_dev34 c, k0_dev34_lt c⟩ : Dev nD) = peer 3 c := by revert c; decide
theorem dev35_eq (c : Dev nD) : (⟨k0_dev35 c, k0_dev35_lt c⟩ : Dev nD) = peer 4 c := by revert c; decide
theorem dev36_eq (c : Dev nD) : (⟨k0_dev36 c, k0_dev36_lt c⟩ : Dev nD) = peer 5 c := by revert c; decide
theorem dev37_eq (c : Dev nD) : (⟨k0_dev37 c, k0_dev37_lt c⟩ : Dev nD) = peer 3 c := by revert c; decide
theorem dev38_eq (c : Dev nD) : (⟨k0_dev38 c, k0_dev38_lt c⟩ : Dev nD) = peer 4 c := by revert c; decide
theorem dev39_eq (c : Dev nD) : (⟨k0_dev39 c, k0_dev39_lt c⟩ : Dev nD) = peer 5 c := by revert c; decide
theorem dev40_eq (c : Dev nD) : (⟨k0_dev40 c, k0_dev40_lt c⟩ : Dev nD) = peer 3 c := by revert c; decide
theorem dev41_eq (c : Dev nD) : (⟨k0_dev41 c, k0_dev41_lt c⟩ : Dev nD) = peer 4 c := by revert c; decide
theorem dev42_eq (c : Dev nD) : (⟨k0_dev42 c, k0_dev42_lt c⟩ : Dev nD) = peer 5 c := by revert c; decide
theorem dev43_eq (c : Dev nD) : (⟨k0_dev43 c, k0_dev43_lt c⟩ : Dev nD) = peer 0 c := by revert c; decide
theorem dev44_eq (c : Dev nD) : (⟨k0_dev44 c, k0_dev44_lt c⟩ : Dev nD) = peer 1 c := by revert c; decide
theorem dev45_eq (c : Dev nD) : (⟨k0_dev45 c, k0_dev45_lt c⟩ : Dev nD) = peer 2 c := by revert c; decide
theorem dev46_eq (c : Dev nD) : (⟨k0_dev46 c, k0_dev46_lt c⟩ : Dev nD) = peer 0 c := by revert c; decide
theorem dev47_eq (c : Dev nD) : (⟨k0_dev47 c, k0_dev47_lt c⟩ : Dev nD) = peer 1 c := by revert c; decide
theorem dev48_eq (c : Dev nD) : (⟨k0_dev48 c, k0_dev48_lt c⟩ : Dev nD) = peer 2 c := by revert c; decide
theorem dev49_eq (c : Dev nD) : (⟨k0_dev49 c, k0_dev49_lt c⟩ : Dev nD) = peer 0 c := by revert c; decide
theorem dev50_eq (c : Dev nD) : (⟨k0_dev50 c, k0_dev50_lt c⟩ : Dev nD) = peer 1 c := by revert c; decide
theorem dev51_eq (c : Dev nD) : (⟨k0_dev51 c, k0_dev51_lt c⟩ : Dev nD) = peer 2 c := by revert c; decide
theorem dev52_eq (c : Dev nD) : (⟨k0_dev52 c, k0_dev52_lt c⟩ : Dev nD) = peer 0 c := by revert c; decide
theorem dev53_eq (c : Dev nD) : (⟨k0_dev53 c, k0_dev53_lt c⟩ : Dev nD) = peer 1 c := by revert c; decide
theorem dev54_eq (c : Dev nD) : (⟨k0_dev54 c, k0_dev54_lt c⟩ : Dev nD) = peer 2 c := by revert c; decide
theorem dev55_eq (c : Dev nD) : (⟨k0_dev55 c, k0_dev55_lt c⟩ : Dev nD) = peer 3 c := by revert c; decide
theorem dev56_eq (c : Dev nD) : (⟨k0_dev56 c, k0_dev56_lt c⟩ : Dev nD) = peer 4 c := by revert c; decide
theorem dev57_eq (c : Dev nD) : (⟨k0_dev57 c, k0_dev57_lt c⟩ : Dev nD) = peer 5 c := by revert c; decide
theorem dev58_eq (c : Dev nD) : (⟨k0_dev58 c, k0_dev58_lt c⟩ : Dev nD) = peer 3 c := by revert c; decide
theorem dev59_eq (c : Dev nD) : (⟨k0_dev59 c, k0_dev59_lt c⟩ : Dev nD) = peer 4 c := by revert c; decide
theorem dev60_eq (c : Dev nD) : (⟨k0_dev60 c, k0_dev60_lt c⟩ : Dev nD) = peer 5 c := by revert c; decide
theorem dev61_eq (c : Dev nD) : (⟨k0_dev61 c, k0_dev61_lt c⟩ : Dev nD) = peer 3 c := by revert c; decide
theorem dev62_eq (c : Dev nD) : (⟨k0_dev62 c, k0_dev62_lt c⟩ : Dev nD) = peer 4 c := by revert c; decide
theorem dev63_eq (c : Dev nD) : (⟨k0_dev63 c, k0_dev63_lt c⟩ : Dev nD) = peer 5 c := by revert c; decide
theorem dev64_eq (c : Dev nD) : (⟨k0_dev64 c, k0_dev64_lt c⟩ : Dev nD) = peer 3 c := by revert c; decide
theorem dev65_eq (c : Dev nD) : (⟨k0_dev65 c, k0_dev65_lt c⟩ : Dev nD) = peer 4 c := by revert c; decide
theorem dev66_eq (c : Dev nD) : (⟨k0_dev66 c, k0_dev66_lt c⟩ : Dev nD) = peer 5 c := by revert c; decide
theorem dev67_eq (c : Dev nD) : (⟨k0_dev67 c, k0_dev67_lt c⟩ : Dev nD) = peer 0 c := by revert c; decide
theorem dev68_eq (c : Dev nD) : (⟨k0_dev68 c, k0_dev68_lt c⟩ : Dev nD) = peer 1 c := by revert c; decide
theorem dev69_eq (c : Dev nD) : (⟨k0_dev69 c, k0_dev69_lt c⟩ : Dev nD) = peer 2 c := by revert c; decide
theorem dev70_eq (c : Dev nD) : (⟨k0_dev70 c, k0_dev70_lt c⟩ : Dev nD) = peer 0 c := by revert c; decide
theorem dev71_eq (c : Dev nD) : (⟨k0_dev71 c, k0_dev71_lt c⟩ : Dev nD) = peer 1 c := by revert c; decide
theorem dev72_eq (c : Dev nD) : (⟨k0_dev72 c, k0_dev72_lt c⟩ : Dev nD) = peer 2 c := by revert c; decide
theorem dev73_eq (c : Dev nD) : (⟨k0_dev73 c, k0_dev73_lt c⟩ : Dev nD) = peer 0 c := by revert c; decide
theorem dev74_eq (c : Dev nD) : (⟨k0_dev74 c, k0_dev74_lt c⟩ : Dev nD) = peer 1 c := by revert c; decide
theorem dev75_eq (c : Dev nD) : (⟨k0_dev75 c, k0_dev75_lt c⟩ : Dev nD) = peer 2 c := by revert c; decide
theorem dev76_eq (c : Dev nD) : (⟨k0_dev76 c, k0_dev76_lt c⟩ : Dev nD) = peer 0 c := by revert c; decide
theorem dev77_eq (c : Dev nD) : (⟨k0_dev77 c, k0_dev77_lt c⟩ : Dev nD) = peer 1 c := by revert c; decide
theorem dev78_eq (c : Dev nD) : (⟨k0_dev78 c, k0_dev78_lt c⟩ : Dev nD) = peer 2 c := by revert c; decide

end Cert.Kernel.Hand

end
-- ==== Proof.Bits.Spec.lean ====
/-
  What each device holds at each stage, as pure terms of the devices' argument blocks.

  A layer on device `c` and row tile `g` (16 of the 64 rows): the device multiplies the tile by its 1024 columns of
  the first weight, clamps at zero, and multiplies by its 1024 rows of the second weight: a partial sum of the layer's
  output over the device's 1024 hidden units. The partial sums are then added across the sixteen devices in two steps:
  first over the four devices at the same position of the four planes (own value first, then the shifts 1, 2, 3),
  then over the four devices of the plane (again own first, then shifts 1, 2, 3). The result is the next layer's input.
-/
import proofs.«900461_g7700000000000462_dist_mlpseq_tp1d_rep_rep_b64_d512_h1024_v7x_i16_f32_1_alg».proof.Proof.Bits.Peers
import Idealize.ShloMosaic.Lib.ValueIdx

noncomputable section

namespace Cert.Kernel.Hand

open Cert.Kernel Cert.Kernel.Gen
open Idealize.ShloMosaic

variable {F : FTy → Type} [FloatOps F]

/-- A tile's share of one layer on one device: `max(x · Win, 0) · Wout` with zero accumulators. -/
def mlp (x : FVec F S16x512 .f32) (wi : Vec F S512x1024 .f32) (wo : Vec F S1024x512 .f32) : FVec F S16x512 .f32 :=
  matmul dot_S16x1024_S1024x512_S16x512_1_0_0_1_n_n none
    (maximumf
      (matmul dot_S16x512_S512x1024_S16x1024_1_0_0_1_n_n none x (shapeCast S512x1024 wi shapeCasts_S512x1024_S512x1024)
        (constant S16x1024 .f32 0x00000000#32))
      (broadcast S16x1024 (Scalar.ofBits .f32 0x00000000#32)))
    (shapeCast S1024x512 wo shapeCasts_S1024x512_S1024x512) (constant S16x512 .f32 0x00000000#32)

/-- Own value plus the values at shifts 1, 2, 3, added in that order. -/
def sum4 (a b c d : FVec F S16x512 .f32) : FVec F S16x512 .f32 := addf (addf (addf a b) c) d

/-- A value per device and row tile. -/
abbrev Tiles (F : FTy → Type) : Type := Dev nD → Fin 4 → FVec F S16x512 .f32

/-- The sum over the four devices at one position of the four planes. -/
def acrossPlanes (v : Tiles F) : Tiles F := fun c g => sum4 (v c g) (v (zp 1 c) g) (v (zp 2 c) g) (v (zp 3 c) g)
/-- The sum over the four devices of a plane. -/
def insidePlane (v : Tiles F) : Tiles F := fun c g => sum4 (v c g) (v (pp 1 c) g) (v (pp 2 c) g) (v (pp 3 c) g)

/-- The devices' argument blocks. -/
structure Blocks (F : FTy → Type) where
  x : Dev nD → Vec F S64x512 .f32
  wi : Fin 3 → Dev nD → Vec F S512x1024 .f32
  wo : Fin 3 → Dev nD → Vec F S1024x512 .f32

/-- Rows `16·g … 16·g + 15` of a device's copy of the input. -/
def xTile (B : Blocks F) : Tiles F := fun c g y => B.x c (ValueIdx.ix2 ⟨16 * g.val + (y 0).val, by have h0 : (y 0).val < 16 := (y 0).isLt; have := g.isLt; show _ < 64; omega⟩ (y 1))

/-- A layer's partial sums from its input tiles. -/
def partials (B : Blocks F) (l : Fin 3) (xin : Tiles F) : Tiles F := fun c g => mlp (xin c g) (B.wi l c) (B.wo l c)
/-- A layer: the partial sums added over all sixteen devices, planes first. -/
def layer (B : Blocks F) (l : Fin 3) (xin : Tiles F) : Tiles F := insidePlane (acrossPlanes (partials B l xin))

def x1 (B : Blocks F) : Tiles F := layer B 0 (xTile B)
def x2 (B : Blocks F) : Tiles F := layer B 1 (x1 B)
def x3 (B : Blocks F) : Tiles F := layer B 2 (x2 B)

/-- The result array a device ends with: the four row tiles of the third layer's output. -/
def result (B : Blocks F) (c : Dev nD) : Vec F S64x512 .f32 := fun i =>
  x3 B c ⟨(i 0).val / 16, by have := (i 0).isLt; show _ < 4; have h : (i 0).val < 64 := this; omega⟩
    (ValueIdx.ix2 ⟨(i 0).val % 16, Nat.mod_lt _ (by decide)⟩ (i 1))

end Cert.Kernel.Hand

end
-- ==== Proof.Bits.Sched.lean ====
/-
  The exchange protocol, cell by cell.

  Every device owns one barrier cell (the runtime's barrier semaphore) and, for each of the seventy-two copies it makes,
  a departure cell (credited on the device itself once the copy's source has been read) and an arrival cell (credited
  on the device once the matching neighbour's copy has landed in the device's landing slot of the same number). Each
  cell lives one round.
  * Barrier: six unit duties, one per neighbour. Neighbour `j`'s signal tells the device that this neighbour is inside
    the kernel and hands it the twelve landing slots of that neighbour which the device will write (one per layer and
    row tile, in the round and at the peer slot that address this neighbour).
  * Arrival of slot `s`: one duty, paid by the neighbour whose copy number `s` is addressed to the device; it hands the
    device its landing slot `s` holding what that neighbour sent: the neighbour's partial sum of the layer (first round)
    or its sum across the planes (second round) for the slot's row tile.
  * Departure of slot `s`: one duty, paid by the device's own copy; it returns the share of the source tile the copy read.
-/
import proofs.«900461_g7700000000000462_dist_mlpseq_tp1d_rep_rep_b64_d512_h1024_v7x_i16_f32_1_alg».proof.Proof.Bits.Spec
import proofs.«900461_g7700000000000462_dist_mlpseq_tp1d_rep_rep_b64_d512_h1024_v7x_i16_f32_1_alg».proof.Proof.Gen.Kernel.Skeleton
import proofs.«900461_g7700000000000462_dist_mlpseq_tp1d_rep_rep_b64_d512_h1024_v7x_i16_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's (duties numbered by neighbour) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slot numbers -/

/-- Slot `((layer·2 + round)·4 + tile)·3 + peer slot`. -/
def slotIx (l : Fin 3) (rnd : Fin 2) (g : Fin 4) (ps : Fin 3) : Fin 72 :=
  ⟨((l.val * 2 + rnd.val) * 4 + g.val) * 3 + ps.val, by have := l.isLt; have := rnd.isLt; have := g.isLt; have := ps.isLt; omega⟩
def lOf (s : Fin 72) : Fin 3 := ⟨s.val / 24, by have := s.isLt; omega⟩
def rndOf (s : Fin 72) : Fin 2 := ⟨s.val / 12 % 2, Nat.mod_lt _ (by decide)⟩
def gOf (s : Fin 72) : Fin 4 := ⟨s.val / 3 % 4, Nat.mod_lt _ (by decide)⟩
def psOf (s : Fin 72) : Fin 3 := ⟨s.val % 3, Nat.mod_lt _ (by decide)⟩

theorem slotIx_of (s : Fin 72) : slotIx (lOf s) (rndOf s) (gOf s) (psOf s) = s := by revert s; decide
theorem lOf_slotIx (l : Fin 3) (rnd : Fin 2) (g : Fin 4) (ps : Fin 3) : lOf (slotIx l rnd g ps) = l := by revert l rnd g ps; decide
theorem rndOf_slotIx (l : Fin 3) (rnd : Fin 2) (g : Fin 4) (ps : Fin 3) : rndOf (slotIx l rnd g ps) = rnd := by revert l rnd g ps; decide
theorem gOf_slotIx (l : Fin 3) (rnd : Fin 2) (g : Fin 4) (ps : Fin 3) : gOf (slotIx l rnd g ps) = g := by revert l rnd g ps; decide
theorem psOf_slotIx (l : Fin 3) (rnd : Fin 2) (g : Fin 4) (ps : Fin 3) : psOf (slotIx l rnd g ps) = ps := by revert l rnd g ps; decide

/-- The round and peer slot of the copies addressed to neighbour `j`. -/
def rndTo (j : Fin 6) : Fin 2 := match j with | 0 => 1 | 1 => 1 | 2 => 1 | 3 => 0 | 4 => 0 | 5 => 0
def psTo (j : Fin 6) : Fin 3 := match j with | 0 => 2 | 1 => 1 | 2 => 0 | 3 => 2 | 4 => 1 | 5 => 0
theorem sendTo_to (j : Fin 6) : sendTo (rndTo j) (psTo j) = j := by revert j; decide
theorem rndTo_sendTo (rnd : Fin 2) (ps : Fin 3) : rndTo (sendTo rnd ps) = rnd := by revert rnd ps; decide
theorem psTo_sendTo (rnd : Fin 2) (ps : Fin 3) : psTo (sendTo rnd ps) = ps := by revert rnd ps; decide

/-! ## The memrefs and cells -/

theorem acc_inb (g : Fin 4) : ∀ a, (![g.val, 0, 0] : Fin 3 → Nat) a + S1x16x512.size a ≤ S4x16x512.size a := by revert g; decide
theorem slot_inb (s : Fin 72) : ∀ a, (![s.val, 0, 0] : Fin 3 → Nat) a + S1x16x512.size a ≤ S72x16x512.size a := by revert s; decide
theorem sem_inb (s : Fin 72) : ∀ a, (![s.val] : Fin 1 → Nat) a + S1.size a ≤ S72.size a := by revert s; decide

/-- Row tile `g` of the accumulator scratch, as the copies' source. -/
abbrev accM (g : Fin 4) : Memref sig .tc .vmem S16x512 .f32 :=
  ((Memref.whole cc0_scratch0 : Memref sig .tc .vmem S4x16x512 .f32).slice (Rect.unit (s := S4x16x512) ![g.val, 0, 0] S1x16x512.size (acc_inb g)) (fun _ => rfl)).squeeze S16x512 squeezes_S1x16x512_S16x512
/-- Landing slot `s` of the receive scratch, as a copy's destination. -/
abbrev slotM (s : Fin 72) : Memref sig .tc .vmem S16x512 .f32 :=
  ((Memref.whole cc0_scratch1 : Memref sig .tc .vmem S72x16x512 .f32).slice (Rect.unit (s := S72x16x512) ![s.val, 0, 0] S1x16x512.size (slot_inb s)) (fun _ => rfl)).squeeze S16x512 squeezes_S1x16x512_S16x512

abbrev barS : Sem sig := (SemArray.scalar (sig.barrier 0 rfl) : Sems sig S_).sem
abbrev sendS (s : Fin 72) : DmaSem sig := ((cc0_scratch2.slice (Rect.unit (s := S72) ![s.val] S1.size (sem_inb s))).squeeze S_ squeezes_S1_S_).sem
abbrev recvS (s : Fin 72) : DmaSem sig := ((cc0_scratch3.slice (Rect.unit (s := S72) ![s.val] S1.size (sem_inb s))).squeeze S_ squeezes_S1_S_).sem

abbrev barCell (c : Dev nD) : GSem nD τ sig := ((c : Thread nD τ), .reg barS)
abbrev sendCell (c : Dev nD) (s : Fin 72) : GSem nD τ sig := ((c : Thread nD τ), .dma (sendS s))
abbrev recvCell (c : Dev nD) (s : Fin 72) : GSem nD τ sig := ((c : Thread nD τ), .dma (recvS s))

theorem sendS_val (s : Fin 72) : (sendS s).val = 8 + s.val := by revert s; decide
theorem recvS_val (s : Fin 72) : (recvS s).val = 80 + s.val := by revert s; decide

/-- The units one copy of a 16 × 512 tile credits. -/
abbrev Ncp : ℕ := (slotM 0).view.dmaCredit
theorem Ncp_pos : 0 < Ncp := View.dmaCredit_pos _ (by decide)

/-! ## Contents -/

variable (B : Blocks F)

/-- A layer's input tiles. -/
def xin : Fin 3 → Tiles F
  | 0 => xTile B
  | 1 => x1 B
  | 2 => x2 B

/-- What a device's copies of layer `l` and round `rnd` carry: its partial sums, then its sums across the planes. -/
def sentV (l : Fin 3) (rnd : Fin 2) : Tiles F :=
  match rnd with
  | 0 => partials B l (xin B l)
  | 1 => acrossPlanes (partials B l (xin B l))

/-- Landing slot `s` of device `c`, held by its own elements at contents `f`. -/
@[reducible] def slotPts (c : Dev nD) (s : Fin 72) (f : Buf (Elt F) ((slotM s).view.loc (c : Thread nD τ))) : sProp 𝕄 :=
  (slotM s).view.loc (c : Thread nD τ) ↦[(slotM s).view.set]{fullShare} f
/-- Row tile `g` of device `c`'s accumulator, held by its own elements at share `q` and contents `f`. -/
@[reducible] def accPts (c : Dev nD) (g : Fin 4) (q : PosShare TreeShare) (f : Buf (Elt F) ((accM g).view.loc (c : Thread nD τ))) : sProp 𝕄 :=
  (accM g).view.loc (c : Thread nD τ) ↦[(accM g).view.set]{q} f

/-- Landing slot `s` of device `c` holding the tile `V`. -/
def slotAt (c : Dev nD) (s : Fin 72) (V : FVec F S16x512 .f32) : sProp 𝕄 :=
  owns (c : Thread nD τ) (slotM s) fullShare V
/-- Row tile `g` of device `c`'s accumulator holding the tile `V`, at share `q`. -/
def accAt (c : Dev nD) (g : Fin 4) (q : PosShare TreeShare) (V : FVec F S16x512 .f32) : sProp 𝕄 :=
  owns (c : Thread nD τ) (accM g) q V

/-- The three shares under which a source tile is lent to its three copies, by peer slot. -/
def shareOf (ps : Fin 3) : PosShare TreeShare :=
  match ps with
  | 0 => fullShare.left
  | 1 => fullShare.right.left
  | 2 => fullShare.right.right

/-! ## The payloads -/

/-- Neighbour `j`'s signal: the twelve landing slots of that neighbour the device will write. -/
def barPay (c : Dev nD) (j : Fin 6) : sProp 𝕄 :=
  bigSep (Finset.univ : Finset (Fin 3 × Fin 4)) fun lg => iprop(∃ f, slotPts (peer j c) (slotIx lg.1 (rndTo j) lg.2 (psTo j)) f)
/-- A landing: the device's slot `s` holding what the sending neighbour's copy carried. -/
def recvPay (c : Dev nD) (s : Fin 72) : sProp 𝕄 :=
  slotAt c s (sentV B (lOf s) (rndOf s) (peer (recvFrom (rndOf s) (psOf s)) c) (gOf s))
/-- A departure read out: the source tile's share back. -/
def sendPay (c : Dev nD) (s : Fin 72) : sProp 𝕄 :=
  accAt c (gOf s) (shareOf (psOf s)) (sentV B (lOf s) (rndOf s) c (gOf s))

set_option synthInstance.maxHeartbeats 400000 in
instance barPay_storable (c : Dev nD) (j : Fin 6) : BI.Storable (upEmb : UEmb _ 𝕄) (barPay (F := F) c j) := by
  unfold barPay slotPts; infer_instance
instance recvPay_storable (c : Dev nD) (s : Fin 72) : BI.Storable (upEmb : UEmb _ 𝕄) (recvPay B c s) := by
  unfold recvPay slotAt; infer_instance
instance sendPay_storable (c : Dev nD) (s : Fin 72) : BI.Storable (upEmb : UEmb _ 𝕄) (sendPay B c s) := by
  unfold sendPay accAt; infer_instance

/-! ## The schedule -/

/-- Which of the exchange's cells a semaphore is. -/
inductive CellKind | bar | send (s : Fin 72) | recv (s : Fin 72) | other
  deriving DecidableEq

def kindOf : SemLoc sig → CellKind
  | .reg s => if s = barS then .bar else .other
  | .dma q => if h : 8 ≤ q.val ∧ q.val < 80 then .send ⟨q.val - 8, by omega⟩
      else if h : 80 ≤ q.val ∧ q.val < 152 then .recv ⟨q.val - 80, by omega⟩ else .other

theorem kindOf_bar : kindOf (.reg barS : SemLoc sig) = .bar := by decide
theorem kindOf_send (s : Fin 72) : kindOf (.dma (sendS s) : SemLoc sig) = .send s := by revert s; decide
theorem kindOf_recv (s : Fin 72) : kindOf (.dma (recvS s) : SemLoc sig) = .recv s := by revert s; decide

def exRd : Rounds.Schedule (GSem nD τ sig) (Fin 6) 𝕄 where
  duties g r :=
    if g.1.2 = .tc ∧ r = 0 then
      match kindOf g.2 with
      | .bar => Finset.univ
      | .send _ | .recv _ => {0}
      | .other => ∅
    else ∅
  unitless _ := False
  amount g _ _ := match kindOf g.2 with
    | .send _ | .recv _ => Ncp
    | _ => 1
  payload g _ d := match kindOf g.2 with
    | .bar => barPay g.1.1 d
    | .recv s => recvPay B g.1.1 s
    | .send s => sendPay B g.1.1 s
    | .other => iprop(emp)
  amount_pos g _ _ _ := by
    cases kindOf g.2 <;> first | exact Nat.one_pos | exact Ncp_pos

instance exRd_payload_storable (g : GSem nD τ sig) (r : ℕ) (d : Fin 6) :
    BI.Storable (upEmb : UEmb _ 𝕄) ((exRd (F := F) B).payload g r d) := by
  show BI.Storable upEmb (match kindOf g.2 with
    | .bar => barPay g.1.1 d
    | .recv s => recvPay B g.1.1 s
    | .send s => sendPay B g.1.1 s
    | .other => iprop(emp))
  split <;> infer_instance

/-! ## The tables, computed -/

section Tables
variable (c : Dev nD) (s : Fin 72)

theorem duties_bar : (exRd (F := F) B).duties (barCell c) 0 = Finset.univ := by
  simp only [exRd, kindOf_bar, and_self, if_true]
theorem duties_send : (exRd (F := F) B).duties (sendCell c s) 0 = {0} := by
  simp only [exRd, kindOf_send, and_self, if_true]
theorem duties_recv : (exRd (F := F) B).duties (recvCell c s) 0 = {0} := by
  simp only [exRd, kindOf_recv, and_self, if_true]
theorem duties_later (g : GSem nD τ sig) : ∀ r, 1 ≤ r → (exRd (F := F) B).duties g r = ∅ := fun r hr => by
  simp only [exRd]; rw [if_neg fun h => by omega]

theorem amount_bar (r : ℕ) (d : Fin 6) : (exRd (F := F) B).amount (barCell c) r d = 1 := by simp only [exRd, kindOf_bar]
theorem amount_send (r : ℕ) (d : Fin 6) : (exRd (F := F) B).amount (sendCell c s) r d = Ncp := by simp only [exRd, kindOf_send]
theorem amount_recv (r : ℕ) (d : Fin 6) : (exRd (F := F) B).amount (recvCell c s) r d = Ncp := by simp only [exRd, kindOf_recv]

theorem expect_bar : (exRd (F := F) B).expect (barCell c) 0 = 6 := by
  unfold Schedule.expect Schedule.amountOf
  rw [duties_bar, Finset.sum_congr rfl fun d _ => amount_bar B c 0 d, Finset.sum_const, Finset.card_univ, Fintype.card_fin, smul_eq_mul]
theorem expect_send : (exRd (F := F) B).expect (sendCell c s) 0 = Ncp := by
  unfold Schedule.expect Schedule.amountOf; rw [duties_send, Finset.sum_singleton, amount_send]
theorem expect_recv : (exRd (F := F) B).expect (recvCell c s) 0 = Ncp := by
  unfold Schedule.expect Schedule.amountOf; rw [duties_recv, Finset.sum_singleton, amount_recv]

theorem payload_bar (r : ℕ) (d : Fin 6) : (exRd (F := F) B).payload (barCell c) r d = barPay c d := by simp only [exRd, kindOf_bar]
theorem payload_send (r : ℕ) (d : Fin 6) : (exRd (F := F) B).payload (sendCell c s) r d = sendPay B c s := by simp only [exRd, kindOf_send]
theorem payload_recv (r : ℕ) (d : Fin 6) : (exRd (F := F) B).payload (recvCell c s) r d = recvPay B c s := by simp only [exRd, kindOf_recv]

/-- A wait for a whole round with no duty taken yet gets the round's payloads. -/
theorem rest_bar : bigSep ((exRd (F := F) B).duties (barCell c) 0 \ ∅) (fun d => (exRd (F := F) B).payload (barCell c) 0 d)
    = bigSep (Finset.univ : Finset (Fin 6)) (fun d => barPay (F := F) c d) := by
  rw [Finset.sdiff_empty, duties_bar]; exact bigSep_congr fun d _ => payload_bar B c 0 d
theorem rest_send : bigSep ((exRd (F := F) B).duties (sendCell c s) 0 \ ∅) (fun d => (exRd (F := F) B).payload (sendCell c s) 0 d) = sendPay B c s := by
  rw [Finset.sdiff_empty, duties_send, bigSep_singleton, payload_send]
theorem rest_recv : bigSep ((exRd (F := F) B).duties (recvCell c s) 0 \ ∅) (fun d => (exRd (F := F) B).payload (recvCell c s) 0 d) = recvPay B c s := by
  rw [Finset.sdiff_empty, duties_recv, bigSep_singleton, payload_recv]

end Tables

end Cert.Kernel.Hand

end
-- ==== Proof.Bits.Levels.lean ====
/-
  Who still owes what, and why no wait can block for ever.

  A device pays, in program order, six barrier units (one to each neighbour) and then the arrival credits of its
  seventy-two copies, issue group by issue group (a group is the three copies of one layer, round and row tile). Cells
  are ranked: the windows' staging cells and the departure cells lowest, the barrier cells above them, and the arrival
  cells of issue group `K` at rank `2 + K`. A device waits on a cell only while everything it still owes ranks higher:
  at its barrier wait it owes arrival credits only; when it waits for the arrivals of group `K` it has issued every
  group up to `K`, so what it still owes belongs to later groups.
-/
import proofs.«900461_g7700000000000462_dist_mlpseq_tp1d_rep_rep_b64_d512_h1024_v7x_i16_f32_1_alg».proof.Proof.Bits.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The neighbour a device's copy number `s` is addressed to. -/
def dest (c : Dev nD) (s : Fin 72) : Dev nD := peer (sendTo (rndOf s) (psOf s)) c

/-- The slot of the `i`-th copy in program order: groups in slot order, inside a group the peer slots 2, 1, 0. -/
def progSlot (i : ℕ) : Fin 72 := ⟨(3 * (i / 3) + (2 - i % 3)) % 72, Nat.mod_lt _ (by decide)⟩

/-- The `k`-th unit a device pays, in program order: the six barrier signals, then the seventy-two arrival credits. -/
def tallyK (c : Dev nD) (k : ℕ) : CellTallies nD τ sig Unit :=
  if h : k < 6 then tallyAt (barCell (peer ⟨k, h⟩ c)) () 1
  else tallyAt (recvCell (dest c (progSlot (k - 6))) (progSlot (k - 6))) () Ncp

/-- What is still owed when `n` payments remain, summed so that the next payment is the last summand. -/
def owedRev (c : Dev nD) : ℕ → CellTallies nD τ sig Unit
  | 0 => 0
  | n + 1 => owedRev c n + tallyK c (77 - n)

/-- Everything a device owes at launch. -/
def O₀ (c : Dev nD) : CellTallies nD τ sig Unit := owedRev c 78

theorem owedRev_pos {c : Dev nD} {n : ℕ} {g : GSem nD τ sig} {u : Unit} (h : 0 < owedRev c n g u) :
    ∃ k, 78 - n ≤ k ∧ k < 78 ∧ 0 < tallyK c k g u := by
  induction n with
  | zero => exact absurd h (Nat.lt_irrefl 0)
  | succ n ih =>
    unfold owedRev at h
    rw [Pi.add_apply, Finsupp.add_apply] at h
    rcases Nat.add_pos_iff_pos_or_pos.mp h with h1 | h2
    · obtain ⟨k, hk1, hk2, hk3⟩ := ih h1
      exact ⟨k, by omega, hk2, hk3⟩
    · by_cases hn : n ≤ 77
      · exact ⟨77 - n, by omega, by omega, h2⟩
      · have : 77 - n = 0 := by omega
        exact ⟨0, by omega, by omega, this ▸ h2⟩

/-- A positive entry of the `k`-th payment names its cell. -/
theorem tallyK_pos {c : Dev nD} {k : ℕ} {g : GSem nD τ sig} {u : Unit} (h : 0 < tallyK c k g u) :
    (∃ hk : k < 6, g = barCell (peer ⟨k, hk⟩ c)) ∨ (6 ≤ k ∧ g = recvCell (dest c (progSlot (k - 6))) (progSlot (k - 6))) := by
  unfold tallyK at h
  split at h
  · rename_i hk
    rw [tallyAt_apply] at h
    by_cases hg : g = barCell (peer ⟨k, hk⟩ c) ∧ u = ()
    · exact Or.inl ⟨hk, hg.1⟩
    · rw [if_neg hg] at h; exact absurd h (Nat.lt_irrefl 0)
  · rename_i hk
    rw [tallyAt_apply] at h
    by_cases hg : g = recvCell (dest c (progSlot (k - 6))) (progSlot (k - 6)) ∧ u = ()
    · exact Or.inr ⟨by omega, hg.1⟩
    · rw [if_neg hg] at h; exact absurd h (Nat.lt_irrefl 0)

/-! ## The ranks -/

def L (g : GSem nD τ sig) : Finset Unit := if g.1.2 = .tc then {()} else ∅
def lv (g : GSem nD τ sig) (_ : Unit) : ℕ :=
  match kindOf g.2 with
  | .bar => 1
  | .recv s => 2 + s.val / 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [kindOf_bar]
theorem lv_recv (c : Dev nD) (s : Fin 72) (u : Unit) : lv (recvCell c s) u = 2 + s.val / 3 := by unfold lv; rw [kindOf_recv]
theorem lv_send (c : Dev nD) (s : Fin 72) (u : Unit) : lv (sendCell c s) u = 0 := by unfold lv; rw [kindOf_send]

/-- Every cell a device may still owe is a barrier or an arrival cell: rank at least one. -/
theorem owed_rank {c : Dev nD} {n : ℕ} {g : GSem nD τ sig} {u : Unit} (h : 0 < owedRev c n g u) : () ∈ L g ∧ 1 ≤ lv g u := by
  obtain ⟨k, _, _, hk⟩ := owedRev_pos h
  rcases tallyK_pos hk with ⟨hk6, rfl⟩ | ⟨_, rfl⟩
  · exact ⟨by rw [L_tc]; exact Finset.mem_singleton_self _, by rw [lv_bar]⟩
  · exact ⟨by rw [L_tc]; exact Finset.mem_singleton_self _, by rw [lv_recv]; omega⟩

/-- A wait on a cell of rank zero (a staging cell, a departure cell) is always allowed. -/
theorem mayWait_low (c : Dev nD) (sm : SemLoc sig) (h0 : lv ((c : Thread nD τ), sm) () = 0) (n : ℕ) :
    (levAts L lv : sProp 𝕄) ⊢ MayWait (c : Thread nD τ) sm () (owedRev c n) :=
  MayOwe.of_cut (L := L) (lev := lv) 0 (fun p hp => by rw [Finset.mem_singleton.mp hp, L_tc]; exact Finset.mem_singleton_self _)
    (fun g u hg => (owed_rank hg).1)
    (fun p hp => by rw [Finset.mem_singleton.mp hp]; exact Nat.le_of_eq h0)
    (fun g u hg => (owed_rank hg).2)

/-- At its barrier wait a device has paid its six signals: what it owes are arrival credits. -/
theorem mayWait_bar (c : Dev nD) :
    (levAts L lv : sProp 𝕄) ⊢ MayWait (c : Thread nD τ) (.reg barS) () (owedRev c 72) :=
  MayOwe.of_cut (L := L) (lev := lv) 1 (fun p hp => by rw [Finset.mem_singleton.mp hp, L_tc]; exact Finset.mem_singleton_self _)
    (fun g u hg => (owed_rank hg).1)
    (fun p hp => by rw [Finset.mem_singleton.mp hp]; exact Nat.le_of_eq (lv_bar c ()))
    (fun g u hg => by
      obtain ⟨k, hk1, hk2, hk⟩ := owedRev_pos hg
      rcases tallyK_pos hk with ⟨hk6, _⟩ | ⟨_, rfl⟩
      · omega
      · rw [lv_recv]; omega)

/-- Waiting for an arrival of slot `s` with `n` payments left, all of them for later issue groups. -/
theorem mayWait_recv (c : Dev nD) (s : Fin 72) (n : ℕ) (hn : n ≤ 72) (h : ∀ i, 72 - n ≤ i → i < 72 → s.val / 3 < (progSlot i).val / 3) :
    (levAts L lv : sProp 𝕄) ⊢ MayWait (c : Thread nD τ) (.dma (recvS s)) () (owedRev c n) :=
  MayOwe.of_cut (L := L) (lev := lv) (2 + s.val / 3) (fun p hp => by rw [Finset.mem_singleton.mp hp, L_tc]; exact Finset.mem_singleton_self _)
    (fun g u hg => (owed_rank hg).1)
    (fun p hp => by rw [Finset.mem_singleton.mp hp]; exact Nat.le_of_eq (lv_recv c s ()))
    (fun g u hg => by
      obtain ⟨k, hk1, hk2, hk⟩ := owedRev_pos hg
      rcases tallyK_pos hk with ⟨hk6, _⟩ | ⟨hk6, rfl⟩
      · omega
      · rw [lv_recv]; have := h (k - 6) (by omega) (by omega); omega)

end Cert.Kernel.Hand

end
-- ==== Proof.Bits.Steps.lean ====
/-
  The kernel's remote statements as rules over the exchange's schedule: a barrier signal, the barrier wait, a copy into a
  neighbour's landing slot, and the two waits of a copy (its departure and the matching arrival).
-/
import proofs.«900461_g7700000000000462_dist_mlpseq_tp1d_rep_rep_b64_d512_h1024_v7x_i16_f32_1_alg».proof.Proof.Bits.Levels

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (B : Blocks F)

section Steps

variable {α : Type} {Q : α → sProp (MT nD τ sig Unit (Elt F) ℕ UU ℕ)} (c : Dev nD)

/-- The signal to neighbour `j`: it pays that neighbour's barrier duty numbered by the device as the neighbour sees it,
    with the twelve landing slots of the device's own buffer that this neighbour will write. -/
theorem wp_barsig (j : Fin 6) (n : Dev nD) (hn : n = peer j c) {k' : ℕ} (hk' : 1 = k')
    {k : PUnit → Prog (TpuEff nD τ sig (Elt F) Λ₀ .tc) α} {κ : ℕ}
    {O₁ : CellTallies nD τ sig Unit} (O : CellTallies nD τ sig Unit) (hO : O₁ = O + tallyAt (barCell (peer j c)) () k') {W : Waits sig Unit} :
    iprop(cellInv ER (exRd B) κ (barCell (peer j c)) ∗ owes (c : Thread nD τ) O₁ W ∗ dutyTok ER (barCell (peer j c)) 0 (back j)
        ∗ barPay (F := F) (peer j c) (back j) ∗ reached ER (barCell (peer j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n : Dev nD) : Thread nD τ) barS k') k) Q) := by
  subst hn
  iintro ⟨#HI, HO, Htok, Hpay, #Hr⟩ Hk
  iapply (Rounds.wp_signal 𝒱₀ ER (exRd B) (c : Thread nD τ) none (dst := ((peer j c : Dev nD) : Thread nD τ)) (κ := κ)
      (r := 0) (d := back j) (by rw [duties_bar]; exact Finset.mem_univ _) ((amount_bar B _ 0 (back j)).trans hk') () O hO)
    $$ [HO Htok Hpay]
  · isplitr; · iexact HI
    isplitl [HO]; · iexact HO
    isplitl [Htok]; · iexact Htok
    isplitl [Hpay]; · rw [payload_bar]; iexact Hpay
    iexact Hr
  iexact Hk

/-- The wait for the six neighbours' signals: with them come, from each neighbour, the landing slots of that neighbour the
    device will write. -/
theorem wp_barwait {k : PUnit → Prog (TpuEff nD τ sig (Elt F) Λ₀ .tc) α} {κ : ℕ}
    {O : CellTallies nD τ sig Unit} {W : Waits sig Unit} :
    iprop(cellInv ER (exRd B) κ (barCell c) ∗ cred (tallyAt (barCell c) () 6) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ bigSep (Finset.univ : Finset (Fin 6)) (fun d => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 6) k) Q) := by
  iintro ⟨#HI, Hc, HO, #Hmw, Hat⟩ Hk
  iapply (Rounds.wp_wait_rest_token 𝒱₀ ER (exRd B) (c : Thread nD τ) none (κ := κ) (k' := 6)
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_bar B c)) $$ Hpay
  isplitl [HO]; · iexact HO
  isplitl [Hat]; · iexact Hat
  isplitl [Hr]; · iexact Hr
  iexact Hp

/-- A copy of row tile `g` into slot `s` of the neighbour its number addresses. It pays that neighbour's arrival duty with
    the slot rewritten to the tile, and the device's own departure duty with the share of the tile it reads. The addressee
    is a variable `n` equal to the neighbour, as the program names it by its device chain. -/
theorem wp_copy (s : Fin 72) (n : Dev nD) (hn : n = dest c s)
    {hsc : (slotM s : Memref sig (Dev.tc n : Thread nD τ).2.kind .vmem S16x512 .f32).view.ref.isScScratch = false}
    {hsrc : (accM (gOf s)).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α} {κ₁ κ₂ : ℕ}
    (fs : Buf (Elt F) ((accM (gOf s)).view.loc (c : Thread nD τ)))
    (fd : Buf (Elt F) ((slotM s).view.loc ((dest c s : Dev nD) : Thread nD τ)))
    (hv : (accM (gOf s)).view.read (Elt F) fs = sentV B (lOf s) (rndOf s) c (gOf s))
    {O₁ : CellTallies nD τ sig Unit} (O : CellTallies nD τ sig Unit) (hO : O₁ = O + tallyAt (recvCell (dest c s) s) () Ncp) {W : Waits sig Unit} :
    iprop(cellInv ER (exRd B) κ₁ (sendCell c s) ∗ cellInv ER (exRd B) κ₂ (recvCell (dest c s) s)
        ∗ accPts c (gOf s) (shareOf (psOf s)) fs ∗ slotPts (dest c s) s fd
        ∗ owes (c : Thread nD τ) O₁ W
        ∗ dutyTok ER (sendCell c s) 0 (0 : Fin 6) ∗ reached ER (sendCell c s) 0
        ∗ dutyTok ER (recvCell (dest c s) s) 0 (0 : Fin 6) ∗ reached ER (recvCell (dest c s) s) 0)
      ⊢ iprop(((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM (gOf s)) (.remote (Dev.tc n : Thread nD τ) (slotM s) (.dma (sendS s)) hsc) (.dma (recvS s)) hsrc hdst hsem) k) Q) := by
  subst hn
  unfold slotPts accPts
  iintro ⟨#HI1, #HI2, Hs, Hd, HO, Ht1, #Hr1, Ht2, #Hr2⟩ Hk
  iapply (Rounds.wp_send_pointsTo 𝒱₀ ER (exRd B) (c : Thread nD τ) none (κ₁ := κ₁) (κ₂ := κ₂)
      (src := accM (gOf s)) (dst := slotM s) (c' := ((dest c s : Dev nD) : Thread nD τ)) (q := shareOf (psOf s))
      (r₁ := 0) (r₂ := 0) (d₁ := 0) (d₂ := 0) (fs := fs) (fd := fd)
      (by rw [duties_send]; exact Finset.mem_singleton_self _) (by rw [duties_recv]; exact Finset.mem_singleton_self _)
      () () Ncp rfl (amount_send B c s 0 0) (amount_recv B _ s 0 0) O hO (W := W)
      (by
        rw [payload_send]; unfold sendPay accAt owns
        iintro H; iexists fs
        isplitr; · ipureintro; exact hv
        iexact H)
      (by
        rw [payload_recv]; unfold recvPay slotAt owns
        rw [show peer (recvFrom (rndOf s) (psOf s)) (dest c s) = c from by
          unfold dest; rw [← back_sendTo]; exact peer_back _ c]
        iintro H
        iexists ((slotM s).view.write (Elt F) fd ((accM (gOf s)).view.read (Elt F) fs) Finset.univ)
        isplitr; · ipureintro; rw [View.read_write_univ]; exact hv
        iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The wait on the departure cell of copy `s`: the share of the source tile the copy read comes back. -/
theorem wp_sendwait (s : Fin 72) {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (sendCell c s) ∗ cred (tallyAt (sendCell c s) () Ncp) ∗ owes (c : Thread nD τ) O W
        ∗ MayWait (c : Thread nD τ) (.dma (sendS s)) () O ∗ atPos ER (sendCell c s) 0 ∅ 0)
      ⊢ iprop(((owes (c : Thread nD τ) O (insert (SemLoc.dma (sendS s), ()) W) ∗ atPos ER (sendCell c s) 1 ∅ 0 ∗ reached ER (sendCell c s) 1
              ∗ sendPay B c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  rw [← hd]
  iintro ⟨#HI, Hc, HO, #Hmw, Hat⟩ Hk
  iapply (Rounds.wp_wait_rest_token 𝒱₀ ER (exRd B) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_send])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_send B c s)) $$ Hpay
  isplitl [HO]; · iexact HO
  isplitl [Hat]; · iexact Hat
  isplitl [Hr]; · iexact Hr
  iexact Hp

/-- The wait on the arrival cell of slot `s`: the slot comes holding what the sending neighbour's copy carried. -/
theorem wp_recvwait (s : Fin 72) {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (recvCell c s) ∗ cred (tallyAt (recvCell c s) () Ncp) ∗ owes (c : Thread nD τ) O W
        ∗ MayWait (c : Thread nD τ) (.dma (recvS s)) () O ∗ atPos ER (recvCell c s) 0 ∅ 0)
      ⊢ iprop(((owes (c : Thread nD τ) O (insert (SemLoc.dma (recvS s), ()) W) ∗ atPos ER (recvCell c s) 1 ∅ 0 ∗ reached ER (recvCell c s) 1
              ∗ recvPay B c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  rw [← hd]
  iintro ⟨#HI, Hc, HO, #Hmw, Hat⟩ Hk
  iapply (Rounds.wp_wait_rest_token 𝒱₀ ER (exRd B) (c : Thread nD τ) none (κ := κ) (k' := dst.view.dmaCredit)
      (wpE_waitDma2_eq 𝒱₀ (c : Thread nD τ) none Set.univ) (Set.mem_univ _) () (O := O) (W := W) (R := 0) (m := 0) (T := ∅)
      (by rw [Nat.zero_add, hd, expect_recv])) $$ [Hc HO Hat]
  · isplitr; · iexact HI
    isplitl [Hc]; · iexact Hc
    isplitl [HO]; · iexact HO
    isplitr; · iexact Hmw
    iexact Hat
  iintro ⟨HO, Hat, Hr, Hpay⟩
  iapply Hk
  ihave Hp := (Entails.of_eq (rest_recv B c s)) $$ Hpay
  isplitl [HO]; · iexact HO
  isplitl [Hat]; · iexact Hat
  isplitl [Hr]; · iexact Hr
  iexact Hp

end Steps

end Cert.Kernel.Hand

end
-- ==== Proof.Bits.Inv.lean ====
/-
  The exchange's ghost state on one device, and the proof data of the one grid point.

  A device starts its body holding: the invariants of its own cells, of its six neighbours' barrier cells and of the
  seventy-two arrival cells its copies credit; its position at round 0 of each of its own cells; the one-shot tokens of
  the duties it pays (six barrier duties, seventy-two arrivals on its neighbours, its own seventy-two departures); the
  credit for what will be paid into its own barrier and arrival cells; and the two scratch buffers. It ends holding the
  scratch buffers again and every own copy cell closed at zero.
-/
import proofs.«900461_g7700000000000462_dist_mlpseq_tp1d_rep_rep_b64_d512_h1024_v7x_i16_f32_1_alg».proof.Proof.Bits.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The devices' argument blocks as the windows stage them: each window is its whole array. -/
def blocksOf : Blocks F where
  x c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg3))
    | 2 => (win0_5.blk (0 : Fin 1)).view.read (Elt F) (m ((c : Thread nD τ).loc main_arg5))
  wo l c := match l with
    | 0 => (win0_2.blk (0 : Fin 1)).view.read (Elt F) (m ((c : Thread nD τ).loc main_arg2))
    | 1 => (win0_4.blk (0 : Fin 1)).view.read (Elt F) (m ((c : Thread nD τ).loc main_arg4))
    | 2 => (win0_6.blk (0 : Fin 1)).view.read (Elt F) (m ((c : Thread nD τ).loc main_arg6))

local notation "Bm" => blocksOf m

/-! ## The ghost state -/

/-- The invariants device `c`'s body opens, under the names the launch allocated them at (`K` for a device's barrier
    cell, `KS` and `KR` for its departure and arrival cells). -/
def invs (K : Dev nD → ℕ) (KS KR : Dev nD → Fin 72 → ℕ) (c : Dev nD) : sProp 𝕄 :=
  iprop(cellInv ER (exRd Bm) (K c) (barCell c)
    ∗ (bigSep Finset.univ fun s : Fin 72 => cellInv ER (exRd Bm) (KS c s) (sendCell c s))
    ∗ (bigSep Finset.univ fun s : Fin 72 => cellInv ER (exRd Bm) (KR c s) (recvCell c s))
    ∗ (bigSep Finset.univ fun j : Fin 6 => cellInv ER (exRd Bm) (K (peer j c)) (barCell (peer j c)))
    ∗ (bigSep Finset.univ fun s : Fin 72 => cellInv ER (exRd Bm) (KR (dest c s) s) (recvCell (dest c s) s)))

instance invs_persistent (K : Dev nD → ℕ) (KS KR : Dev nD → Fin 72 → ℕ) (c : Dev nD) : BI.Persistent (invs m K KS KR c) := by
  unfold invs; infer_instance

/-- Round 0 of every cell the device pays into is reached (every cell opens at round 0). -/
def reachedAll (c : Dev nD) : sProp 𝕄 :=
  iprop((bigSep Finset.univ fun j : Fin 6 => reached ER (barCell (peer j c)) 0)
    ∗ (bigSep Finset.univ fun s : Fin 72 => reached ER (recvCell (dest c s) s) 0)
    ∗ (bigSep Finset.univ fun s : Fin 72 => reached ER (sendCell c s) 0))

instance reachedAll_persistent (c : Dev nD) : BI.Persistent (reachedAll (F := F) c) := by unfold reachedAll; infer_instance

/-- The device's positions: round 0 of each of its own cells, nothing consumed. -/
def positions (c : Dev nD) : sProp 𝕄 :=
  iprop(atPos ER (barCell c) 0 ∅ 0
    ∗ (bigSep Finset.univ fun s : Fin 72 => atPos ER (sendCell c s) 0 ∅ 0)
    ∗ (bigSep Finset.univ fun s : Fin 72 => atPos ER (recvCell c s) 0 ∅ 0))

/-- The tokens of the duties the device pays. -/
def payToks (c : Dev nD) : sProp 𝕄 :=
  iprop((bigSep Finset.univ fun j : Fin 6 => dutyTok ER (barCell (peer j c)) 0 (back j))
    ∗ (bigSep Finset.univ fun s : Fin 72 => dutyTok ER (recvCell (dest c s) s) 0 (0 : Fin 6))
    ∗ (bigSep Finset.univ fun s : Fin 72 => dutyTok ER (sendCell c s) 0 (0 : Fin 6)))

def ghost (K : Dev nD → ℕ) (KS KR : Dev nD → Fin 72 → ℕ) (c : Dev nD) : sProp 𝕄 :=
  iprop(invs m K KS KR c ∗ reachedAll c ∗ positions c ∗ payToks c)

/-- What the launch hands the body beside the buffers: the ghost state at some names, the credit for its own barrier
    cell (six units) and arrival cells (a copy's units each), and the ranks. -/
def start (c : Dev nD) : sProp 𝕄 :=
  iprop((∃ K KS KR, ghost m K KS KR c) ∗ cred (tallyAt (barCell c) () 6)
    ∗ (bigSep Finset.univ fun s : Fin 72 => cred (tallyAt (recvCell c s) () Ncp)) ∗ levAts L lv)

/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: the scratch buffers back, every own copy cell closed at zero. -/
def Φ₁ (c : Dev nD) : sProp 𝕄 :=
  iprop(scratch (F := F) c ∗ (bigSep Finset.univ fun s : Fin 72 => semVal (sendCell c s) 0)
    ∗ (bigSep Finset.univ fun s : Fin 72 => semVal (recvCell c s) 0))

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The result window's staging buffer after the body: the four row tiles of the third layer's output. -/
def outAt (c : Dev nD) : (cc0_stg7_0 : Ref sig .tc).ty.Contents (Elt F) := result Bm c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (Bm).x c
    | ⟨1, _⟩ => (Bm).wi 0 c
    | ⟨2, _⟩ => (Bm).wo 0 c
    | ⟨3, _⟩ => (Bm).wi 1 c
    | ⟨4, _⟩ => (Bm).wo 1 c
    | ⟨5, _⟩ => (Bm).wi 2 c
    | ⟨6, _⟩ => (Bm).wo 2 c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Hand

end
-- ==== Proof.Bits.LaunchSems.lean ====
/-
  The kernel's own semaphores at launch. The seventy-two departure cells and the seventy-two arrival cells are the
  kernel's scoped semaphores, pairwise distinct and none of them a staging semaphore of a window; the barrier cell is
  the one semaphore of a device that is not scoped.
-/
import proofs.«900461_g7700000000000462_dist_mlpseq_tp1d_rep_rep_b64_d512_h1024_v7x_i16_f32_1_alg».proof.Proof.Bits.Inv

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells are distinct -/

theorem reg_ne_dma (a : Sem sig) (b : DmaSem sig) : (SemLoc.reg a : SemLoc sig) ≠ .dma b := fun h => by cases h

theorem send_inj {s s' : Fin 72} (h : (SemLoc.dma (sendS s) : SemLoc sig) = .dma (sendS s')) : s = s' := by
  have h1 := congrArg Fin.val (SemLoc.dma.inj h)
  rw [sendS_val, sendS_val] at h1
  exact Fin.ext (by omega)

theorem recv_inj {s s' : Fin 72} (h : (SemLoc.dma (recvS s) : SemLoc sig) = .dma (recvS s')) : s = s' := by
  have h1 := congrArg Fin.val (SemLoc.dma.inj h)
  rw [recvS_val, recvS_val] at h1
  exact Fin.ext (by omega)

theorem send_ne_recv (s s' : Fin 72) : (SemLoc.dma (sendS s) : SemLoc sig) ≠ .dma (recvS s') := fun h => by
  have h1 := congrArg Fin.val (SemLoc.dma.inj h)
  rw [sendS_val, recvS_val] at h1
  have := s.isLt
  omega

/-- A window's staging semaphore is one of the first eight. -/
theorem stage_sem_lt : ∀ (w : Fin cfg0.W) (s : Fin (cfg0.spec w).nbuf), ((cfg0.spec w).sem s).val < 8 := by decide

/-! ## The kernel's own cells -/

/-- The kernel's own cells: the departure cells, then the arrival cells. -/
abbrev osem : Fin 72 ⊕ Fin 72 → SemLoc sig := Sum.elim (fun s => .dma (sendS s)) (fun s => .dma (recvS s))

theorem ownSemFacts : Pipeline.OwnSemFacts cfg0.spec osem where
  isScoped := by decide
  inj := by
    rintro (s | s) (s' | s') h
    · exact congrArg Sum.inl (send_inj h)
    · exact absurd h (send_ne_recv s s')
    · exact absurd h.symm (send_ne_recv s' s)
    · exact congrArg Sum.inr (recv_inj h)
  disj := by
    rintro (s | s) w b h
    · have h1 := congrArg Fin.val (SemLoc.dma.inj h)
      rw [sendS_val] at h1
      have := stage_sem_lt w b
      omega
    · have h1 := congrArg Fin.val (SemLoc.dma.inj h)
      rw [recvS_val] at h1
      have := stage_sem_lt w b
      omega

omit [FloatOps F] in
/-- The kernel's own cells at zero: the departure cells and the arrival cells. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 72 => semVal (sendCell c s) 0) ∗ (bigSep Finset.univ fun s : Fin 72 => semVal (recvCell c s) 0)) := by
  unfold Pipeline.ownSems0; rw [bigSep_univ_sum]; rfl

omit [FloatOps F] in
set_option maxRecDepth 8000 in
/-- The barrier semaphore is the one semaphore of a device that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.Kernel.Hand

end
-- ==== Proof.Bits.LaunchFund.lean ====
/-
  The exchange's launch element. Every device has one barrier cell, seventy-two departure cells and seventy-two arrival
  cells; a barrier cell's round has six duties and so six tokens, a copy cell's round one. The launch element is the
  rounds library's for these cells and tokens beside the pipeline library's own; funding it deals every device the
  round states of its own cells, that round 0 of each is reached, its positions there, and its own cells' tokens.
-/
import proofs.«900461_g7700000000000462_dist_mlpseq_tp1d_rep_rep_b64_d512_h1024_v7x_i16_f32_1_alg».proof.Proof.Bits.LaunchSems

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "Bm" => blocksOf m

/-! ## The cells and the tokens -/

/-- A device's cells: its barrier cell, its departure cells, its arrival cells. -/
abbrev Kx : Type := Unit ⊕ Fin 72 ⊕ Fin 72
abbrev csem : Kx → SemLoc sig := Sum.elim (fun _ => .reg barS) (Sum.elim (fun s => .dma (sendS s)) (fun s => .dma (recvS s)))
abbrev kcell (ck : Dev nD × Kx) : GSem nD τ sig := ((ck.1 : Thread nD τ), csem ck.2)

theorem csem_injective : Function.Injective csem := by
  rintro (u | s | s) (u' | s' | s') h
  · rfl
  · exact absurd h (reg_ne_dma _ _)
  · exact absurd h (reg_ne_dma _ _)
  · exact absurd h.symm (reg_ne_dma _ _)
  · exact congrArg (fun x => Sum.inr (Sum.inl x)) (send_inj h)
  · exact absurd h (send_ne_recv s s')
  · exact absurd h.symm (reg_ne_dma _ _)
  · exact absurd h.symm (send_ne_recv s' s)
  · exact congrArg (fun x => Sum.inr (Sum.inr x)) (recv_inj h)

theorem kcell_injective : Function.Injective (kcell : Dev nD × Kx → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- The exchange's cells, of all devices. -/
def exCells : Finset (GSem nD τ sig) := Finset.univ.map ⟨kcell, kcell_injective⟩

/-- A device's own cells' tokens as minted: the barrier cell's six, each departure cell's one, each arrival cell's one. -/
abbrev Tx : Type := Fin 6 ⊕ Fin 72 ⊕ Fin 72
abbrev tokOf (ct : Dev nD × Tx) : GSem nD τ sig × ℕ × Fin 6 := match ct.2 with
  | .inl j => (barCell ct.1, 0, j)
  | .inr (.inl s) => (sendCell ct.1 s, 0, 0)
  | .inr (.inr s) => (recvCell ct.1 s, 0, 0)

theorem tokOf_injective : Function.Injective (tokOf : Dev nD × Tx → GSem nD τ sig × ℕ × Fin 6) := by
  rintro ⟨c, t⟩ ⟨c', t'⟩ h
  have h1 : c = c' := by
    have := congrArg (fun x : GSem nD τ sig × ℕ × Fin 6 => x.1.1.1) h
    rcases t with j | s | s <;> rcases t' with j' | s' | s' <;> exact this
  subst h1
  have hs : (tokOf (c, t)).1.2 = (tokOf (c, t')).1.2 := congrArg (fun x : GSem nD τ sig × ℕ × Fin 6 => x.1.2) h
  have hd : (tokOf (c, t)).2.2 = (tokOf (c, t')).2.2 := congrArg (fun x : GSem nD τ sig × ℕ × Fin 6 => x.2.2) h
  rcases t with j | s | s <;> rcases t' with j' | s' | s'
  · have : j = j' := hd
    subst this; rfl
  · exact absurd hs (reg_ne_dma _ _)
  · exact absurd hs (reg_ne_dma _ _)
  · exact absurd hs.symm (reg_ne_dma _ _)
  · have : s = s' := send_inj hs
    subst this; rfl
  · exact absurd hs (send_ne_recv s s')
  · exact absurd hs.symm (reg_ne_dma _ _)
  · exact absurd hs.symm (send_ne_recv s' s)
  · have : s = s' := recv_inj hs
    subst this; rfl

/-- The exchange's tokens, of all devices. -/
def exToks : Finset (GSem nD τ sig × ℕ × Fin 6) := Finset.univ.map ⟨tokOf, tokOf_injective⟩

/-- The launch element: the pipeline library's for the staging cells, the exchange's for its own. -/
def u₀ : UU :=
  (initOf (Pipeline.cells cfgs cellOf_inj) (Pipeline.launchToks cfgs cellOf_inj), initOf exCells exToks)

/-! ## What funding deals a device -/

/-- One assertion per cell, over a device's cells. -/
def overCells (Φ : GSem nD τ sig → sProp 𝕄) (c : Dev nD) : sProp 𝕄 :=
  iprop(Φ (barCell c) ∗ (bigSep Finset.univ fun s : Fin 72 => Φ (sendCell c s)) ∗ (bigSep Finset.univ fun s : Fin 72 => Φ (recvCell c s)))

instance overCells_persistent (Φ : GSem nD τ sig → sProp 𝕄) [∀ g, BI.Persistent (Φ g)] (c : Dev nD) : BI.Persistent (overCells Φ c) := by
  unfold overCells; infer_instance

omit [FloatOps F] in
theorem bigSep_exCells (Φ : GSem nD τ sig → sProp 𝕄) : bigSep exCells Φ = bigSep Finset.univ (overCells Φ) := by
  unfold exCells; rw [bigSep_map, bigSep_univ_prod]
  refine bigSep_congr fun c _ => ?_
  rw [bigSep_univ_sum, bigSep_univ_sum, bigSep_univ_of_subsingleton ()]; rfl

/-- The tokens of a device's own cells. -/
def toks (c : Dev nD) : sProp 𝕄 :=
  iprop((bigSep Finset.univ fun j : Fin 6 => dutyTok ER (barCell c) 0 j)
    ∗ (bigSep Finset.univ fun s : Fin 72 => dutyTok ER (sendCell c s) 0 (0 : Fin 6))
    ∗ (bigSep Finset.univ fun s : Fin 72 => dutyTok ER (recvCell c s) 0 (0 : Fin 6)))

omit [FloatOps F] in
theorem bigSep_exToks : bigSep exToks (fun x => (dutyTok ER x.1 x.2.1 x.2.2 : sProp 𝕄)) = bigSep Finset.univ fun c : Dev nD => toks c := by
  unfold exToks; rw [bigSep_map, bigSep_univ_prod]
  refine bigSep_congr fun c _ => ?_
  unfold toks; rw [bigSep_univ_sum, bigSep_univ_sum]; rfl

/-- What the launch element deals device `c`: the round states of its own cells, round 0 of each reached, its positions,
    and its own cells' tokens. -/
def G (c : Dev nD) : sProp 𝕄 :=
  iprop(overCells (fun g => roundState ER (exRd Bm) g 0) c ∗ overCells (fun g => reached ER g 0) c
    ∗ overCells (fun g => atPos ER g 0 ∅ 0) c ∗ toks c)

theorem fund_ex : BI.own (ER (initOf exCells exToks)) ⊢ (|==> bigSep Finset.univ (G m) : sProp 𝕄) := by
  iintro HX
  imod (Rounds.fund ER (exRd Bm) exCells exToks) $$ HX with ⟨Hst, Hr, Hat, Htok⟩
  imodintro
  ihave Hst' := (Entails.of_eq (bigSep_exCells fun g => roundState ER (exRd Bm) g 0)) $$ Hst
  ihave Hr' := (Entails.of_eq (bigSep_exCells (F := F) fun g => reached ER g 0)) $$ Hr
  ihave Hat' := (Entails.of_eq (bigSep_exCells (F := F) fun g => atPos ER g 0 ∅ 0)) $$ Hat
  ihave Htok' := (Entails.of_eq (bigSep_exToks (F := F))) $$ Htok
  unfold G; simp only [bigSep_sep']
  isplitl [Hst']; · iexact Hst'
  isplitl [Hr']; · iexact Hr'
  isplitl [Hat']; · iexact Hat'
  iexact Htok'

/-- The launch element splits into the pipeline library's and the funded exchange. -/
theorem u₀_split : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ex m) $$ HX with HG
  imodintro
  isplitl [HP] <;> iassumption

end Cert.Kernel.Hand

end
-- ==== Proof.Bits.LaunchGlob.lean ====
/-
  The global step of the launch. Each device turns the counters and round states of its own cells into the cells'
  invariants; the invariants and the reached-round facts of all devices are then on record for everybody, and the tokens
  change hands: a device's barrier duty `d` is paid by its neighbour `peer d c`, so the token of duty `back j` of the
  barrier cell of `peer j c` goes to `c`; the arrival duty of slot `s` of device `dest c s` is paid by `c` (for a fixed
  slot, `c ↦ dest c s` is a shift of the devices, hence a bijection); a departure duty is paid by the device itself.
-/
import proofs.«900461_g7700000000000462_dist_mlpseq_tp1d_rep_rep_b64_d512_h1024_v7x_i16_f32_1_alg».proof.Proof.Bits.LaunchFund

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "Bm" => blocksOf m

/-! ## One assertion per cell of a device -/

omit [FloatOps F] in
theorem overCells_mono {Φ Ψ : GSem nD τ sig → sProp 𝕄} (h : ∀ g, Φ g ⊢ Ψ g) (c : Dev nD) : overCells Φ c ⊢ overCells Ψ c := by
  unfold overCells
  exact sep_mono (h _) (sep_mono (bigSep_mono fun s _ => h _) (bigSep_mono fun s _ => h _))

omit [FloatOps F] in
theorem overCells_sep_intro (Φ Ψ : GSem nD τ sig → sProp 𝕄) (c : Dev nD) :
    iprop(overCells Φ c ∗ overCells Ψ c) ⊢ overCells (fun g => iprop(Φ g ∗ Ψ g)) c := by
  unfold overCells
  rw [bigSep_sep', bigSep_sep']
  iintro ⟨⟨H1, H2, H3⟩, K1, K2, K3⟩
  isplitl [H1 K1]
  · isplitl [H1] <;> iassumption
  isplitl [H2 K2]
  · isplitl [H2] <;> iassumption
  · isplitl [H3] <;> iassumption

omit [FloatOps F] in
theorem overCells_fupd (Φ : GSem nD τ sig → sProp 𝕄) (c : Dev nD) :
    overCells (fun g => iprop(|={Set.univ}=> Φ g)) c ⊢ |={Set.univ}=> overCells Φ c := by
  unfold overCells
  iintro ⟨H1, H2, H3⟩
  imod H1 with H1
  imod (bigSep_fupd Finset.univ fun s : Fin 72 => Φ (sendCell c s)) $$ H2 with H2
  imod (bigSep_fupd Finset.univ fun s : Fin 72 => Φ (recvCell c s)) $$ H3 with H3
  imodintro
  isplitl [H1]; · iexact H1
  isplitl [H2] <;> iassumption

omit [FloatOps F] in
theorem overCells_bar (Φ : GSem nD τ sig → sProp 𝕄) (c : Dev nD) : overCells Φ c ⊢ Φ (barCell c) := by
  unfold overCells; iintro ⟨H, -⟩; iexact H
omit [FloatOps F] in
theorem overCells_send (Φ : GSem nD τ sig → sProp 𝕄) (c : Dev nD) (s : Fin 72) : overCells Φ c ⊢ Φ (sendCell c s) :=
  (show overCells Φ c ⊢ bigSep Finset.univ fun s : Fin 72 => Φ (sendCell c s) from by unfold overCells; iintro ⟨-, H, -⟩; iexact H).trans
    (bigSep_elim (Φ := fun s : Fin 72 => Φ (sendCell c s)) (Finset.mem_univ s))
omit [FloatOps F] in
theorem overCells_recv (Φ : GSem nD τ sig → sProp 𝕄) (c : Dev nD) (s : Fin 72) : overCells Φ c ⊢ Φ (recvCell c s) :=
  (show overCells Φ c ⊢ bigSep Finset.univ fun s : Fin 72 => Φ (recvCell c s) from by unfold overCells; iintro ⟨-, -, H⟩; iexact H).trans
    (bigSep_elim (Φ := fun s : Fin 72 => Φ (recvCell c s)) (Finset.mem_univ s))

/-! ## A device allocates its cells' invariants -/

omit [FloatOps F] in
theorem sems_over (c : Dev nD) :
    iprop(((bigSep Finset.univ fun s : Fin 72 => semVal (sendCell c s) 0) ∗ (bigSep Finset.univ fun s : Fin 72 => semVal (recvCell c s) 0))
        ∗ semVal (barCell c) 0)
      ⊢ (overCells (fun g => semVal g 0) c : sProp 𝕄) := by
  unfold overCells
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(overCells (fun g => iprop(∃ κ : ℕ, cellInv ER (exRd Bm) κ g)) c
          ∗ overCells (fun g => reached ER g 0) c ∗ overCells (fun g => atPos ER g 0 ∅ 0) c ∗ toks c) := by
  rw [ownSems0_eq, unscopedSems0_eq]
  unfold G
  iintro ⟨Hos, Hus, Hst, Hr, Hat, Htok⟩
  ihave Hv := (sems_over (F := F) c) $$ [Hos Hus]
  · isplitl [Hos] <;> iassumption
  ihave Hb := (overCells_sep_intro (fun g => semVal g 0) (fun g => roundState ER (exRd Bm) g 0) c) $$ [Hv Hst]
  · isplitl [Hv] <;> iassumption
  imod ((overCells_mono (Φ := fun g => iprop(semVal g 0 ∗ roundState ER (exRd Bm) g 0))
      (Ψ := fun g => iprop(|={Set.univ}=> ∃ κ : ℕ, cellInv ER (exRd Bm) κ g))
      (fun g => (Rounds.body_intro ER (exRd Bm) g).trans inv_alloc) c).trans
      (overCells_fupd (fun g => iprop(∃ κ : ℕ, cellInv ER (exRd Bm) κ g)) c)) $$ Hb with Hinv
  imodintro
  isplitl [Hinv]; · iexact Hinv
  isplitl [Hr]; · iexact Hr
  isplitl [Hat]; · iexact Hat
  iexact Htok

/-! ## What is on record for every device -/

/-- Every cell's invariant at chosen names, and round 0 of every cell reached. -/
def records (K : Dev nD → ℕ) (KS KR : Dev nD → Fin 72 → ℕ) : sProp 𝕄 :=
  iprop((bigSep Finset.univ fun c : Dev nD => cellInv ER (exRd Bm) (K c) (barCell c))
    ∗ (bigSep Finset.univ fun c : Dev nD => bigSep Finset.univ fun s : Fin 72 => cellInv ER (exRd Bm) (KS c s) (sendCell c s))
    ∗ (bigSep Finset.univ fun c : Dev nD => bigSep Finset.univ fun s : Fin 72 => cellInv ER (exRd Bm) (KR c s) (recvCell c s))
    ∗ (bigSep Finset.univ fun c : Dev nD => overCells (fun g => reached ER g 0) c))

instance records_persistent (K : Dev nD → ℕ) (KS KR : Dev nD → Fin 72 → ℕ) : BI.Persistent (records m K KS KR) := by
  unfold records; infer_instance

section Records
variable (K : Dev nD → ℕ) (KS KR : Dev nD → Fin 72 → ℕ)

theorem rec_bar (c : Dev nD) : records m K KS KR ⊢ cellInv ER (exRd Bm) (K c) (barCell c) :=
  (show records m K KS KR ⊢ bigSep Finset.univ fun c : Dev nD => cellInv ER (exRd Bm) (K c) (barCell c) from by
    unfold records; iintro ⟨H, -⟩; iexact H).trans
    (bigSep_elim (Φ := fun c : Dev nD => cellInv ER (exRd Bm) (K c) (barCell c)) (Finset.mem_univ c))
theorem rec_send (c : Dev nD) : records m K KS KR ⊢ bigSep Finset.univ fun s : Fin 72 => cellInv ER (exRd Bm) (KS c s) (sendCell c s) :=
  (show records m K KS KR ⊢ bigSep Finset.univ fun c : Dev nD => bigSep Finset.univ fun s : Fin 72 => cellInv ER (exRd Bm) (KS c s) (sendCell c s) from by
    unfold records; iintro ⟨-, H, -⟩; iexact H).trans
    (bigSep_elim (Φ := fun c : Dev nD => bigSep Finset.univ fun s : Fin 72 => cellInv ER (exRd Bm) (KS c s) (sendCell c s)) (Finset.mem_univ c))
theorem rec_recv (c : Dev nD) : records m K KS KR ⊢ bigSep Finset.univ fun s : Fin 72 => cellInv ER (exRd Bm) (KR c s) (recvCell c s) :=
  (show records m K KS KR ⊢ bigSep Finset.univ fun c : Dev nD => bigSep Finset.univ fun s : Fin 72 => cellInv ER (exRd Bm) (KR c s) (recvCell c s) from by
    unfold records; iintro ⟨-, -, H, -⟩; iexact H).trans
    (bigSep_elim (Φ := fun c : Dev nD => bigSep Finset.univ fun s : Fin 72 => cellInv ER (exRd Bm) (KR c s) (recvCell c s)) (Finset.mem_univ c))
theorem rec_recv1 (c : Dev nD) (s : Fin 72) : records m K KS KR ⊢ cellInv ER (exRd Bm) (KR c s) (recvCell c s) :=
  (rec_recv m K KS KR c).trans (bigSep_elim (Φ := fun s : Fin 72 => cellInv ER (exRd Bm) (KR c s) (recvCell c s)) (Finset.mem_univ s))
theorem rec_reached (c : Dev nD) : records m K KS KR ⊢ overCells (fun g => reached ER g 0) c :=
  (show records m K KS KR ⊢ bigSep Finset.univ fun c : Dev nD => overCells (fun g => reached ER g 0) c from by
    unfold records; iintro ⟨-, -, -, H⟩; iexact H).trans
    (bigSep_elim (Φ := fun c : Dev nD => overCells (fun g => reached ER g 0) c) (Finset.mem_univ c))

end Records

/-- What the global step makes of a device's deal. -/
def G' (c : Dev nD) : sProp 𝕄 := iprop(∃ K KS KR, ghost m K KS KR c)

theorem ghost_intro (K : Dev nD → ℕ) (KS KR : Dev nD → Fin 72 → ℕ) (c : Dev nD) :
    iprop(records m K KS KR ∗ (positions c ∗ payToks c)) ⊢ G' m c := by
  unfold G' ghost
  iintro ⟨#HR, Hpos, Htok⟩
  iexists K; iexists KS; iexists KR
  isplitr
  · unfold invs
    isplitr; · iapply (rec_bar m K KS KR c); iexact HR
    isplitr; · iapply (rec_send m K KS KR c); iexact HR
    isplitr; · iapply (rec_recv m K KS KR c); iexact HR
    isplitr
    · iapply (bigSep_intro_persistent (R := records m K KS KR) (Φ := fun j : Fin 6 => cellInv ER (exRd Bm) (K (peer j c)) (barCell (peer j c)))
        fun j _ => rec_bar m K KS KR (peer j c))
      iexact HR
    · iapply (bigSep_intro_persistent (R := records m K KS KR) (Φ := fun s : Fin 72 => cellInv ER (exRd Bm) (KR (dest c s) s) (recvCell (dest c s) s))
        fun s _ => rec_recv1 m K KS KR (dest c s) s)
      iexact HR
  isplitr
  · unfold reachedAll
    isplitr
    · iapply (bigSep_intro_persistent (R := records m K KS KR) (Φ := fun j : Fin 6 => reached ER (barCell (peer j c)) 0)
        fun j _ => (rec_reached m K KS KR (peer j c)).trans (overCells_bar (fun g => reached ER g 0) (peer j c)))
      iexact HR
    isplitr
    · iapply (bigSep_intro_persistent (R := records m K KS KR) (Φ := fun s : Fin 72 => reached ER (recvCell (dest c s) s) 0)
        fun s _ => (rec_reached m K KS KR (dest c s)).trans (overCells_recv (fun g => reached ER g 0) (dest c s) s))
      iexact HR
    · iapply (bigSep_intro_persistent (R := records m K KS KR) (Φ := fun s : Fin 72 => reached ER (sendCell c s) 0)
        fun s _ => (rec_reached m K KS KR c).trans (overCells_send (fun g => reached ER g 0) c s))
      iexact HR
  isplitl [Hpos]; · iexact Hpos
  iexact Htok

/-! ## The tokens change hands -/

/-- Shifting to neighbour `j` is a bijection of the devices; shifting back undoes it. -/
def peerEquiv (j : Fin 6) : Dev nD ≃ Dev nD where
  toFun := peer j
  invFun := peer (back j)
  left_inv := peer_back j
  right_inv c := by have h := peer_back (back j) c; rw [back_back] at h; exact h

def backEquiv : Fin 6 ≃ Fin 6 := ⟨back, back, back_back, back_back⟩

omit [FloatOps F] in
theorem bar_around :
    (bigSep Finset.univ fun c : Dev nD => bigSep Finset.univ fun j : Fin 6 => (dutyTok ER (barCell (peer j c)) 0 (back j) : sProp 𝕄))
      = bigSep Finset.univ fun c : Dev nD => bigSep Finset.univ fun j : Fin 6 => (dutyTok ER (barCell c) 0 j : sProp 𝕄) :=
  calc (bigSep Finset.univ fun c : Dev nD => bigSep Finset.univ fun j : Fin 6 => (dutyTok ER (barCell (peer j c)) 0 (back j) : sProp 𝕄))
      = bigSep Finset.univ fun j : Fin 6 => bigSep Finset.univ fun c : Dev nD => (dutyTok ER (barCell (peer j c)) 0 (back j) : sProp 𝕄) :=
        bigSep_univ_comm fun (c : Dev nD) (j : Fin 6) => (dutyTok ER (barCell (peer j c)) 0 (back j) : sProp 𝕄)
    _ = bigSep Finset.univ fun j : Fin 6 => bigSep Finset.univ fun c : Dev nD => (dutyTok ER (barCell c) 0 (back j) : sProp 𝕄) :=
        bigSep_congr fun j _ => (bigSep_univ_equiv (peerEquiv j) fun c : Dev nD => (dutyTok ER (barCell c) 0 (back j) : sProp 𝕄)).symm
    _ = bigSep Finset.univ fun j : Fin 6 => bigSep Finset.univ fun c : Dev nD => (dutyTok ER (barCell c) 0 j : sProp 𝕄) :=
        (bigSep_univ_equiv backEquiv fun j : Fin 6 => bigSep Finset.univ fun c : Dev nD => (dutyTok ER (barCell c) 0 j : sProp 𝕄)).symm
    _ = bigSep Finset.univ fun c : Dev nD => bigSep Finset.univ fun j : Fin 6 => (dutyTok ER (barCell c) 0 j : sProp 𝕄) :=
        bigSep_univ_comm fun (j : Fin 6) (c : Dev nD) => (dutyTok ER (barCell c) 0 j : sProp 𝕄)

omit [FloatOps F] in
theorem recv_around :
    (bigSep Finset.univ fun c : Dev nD => bigSep Finset.univ fun s : Fin 72 => (dutyTok ER (recvCell (dest c s) s) 0 (0 : Fin 6) : sProp 𝕄))
      = bigSep Finset.univ fun c : Dev nD => bigSep Finset.univ fun s : Fin 72 => (dutyTok ER (recvCell c s) 0 (0 : Fin 6) : sProp 𝕄) :=
  calc (bigSep Finset.univ fun c : Dev nD => bigSep Finset.univ fun s : Fin 72 => (dutyTok ER (recvCell (dest c s) s) 0 (0 : Fin 6) : sProp 𝕄))
      = bigSep Finset.univ fun s : Fin 72 => bigSep Finset.univ fun c : Dev nD => (dutyTok ER (recvCell (dest c s) s) 0 (0 : Fin 6) : sProp 𝕄) :=
        bigSep_univ_comm fun (c : Dev nD) (s : Fin 72) => (dutyTok ER (recvCell (dest c s) s) 0 (0 : Fin 6) : sProp 𝕄)
    _ = bigSep Finset.univ fun s : Fin 72 => bigSep Finset.univ fun c : Dev nD => (dutyTok ER (recvCell c s) 0 (0 : Fin 6) : sProp 𝕄) :=
        bigSep_congr fun s _ => (bigSep_univ_equiv (peerEquiv (sendTo (rndOf s) (psOf s))) fun c : Dev nD => (dutyTok ER (recvCell c s) 0 (0 : Fin 6) : sProp 𝕄)).symm
    _ = bigSep Finset.univ fun c : Dev nD => bigSep Finset.univ fun s : Fin 72 => (dutyTok ER (recvCell c s) 0 (0 : Fin 6) : sProp 𝕄) :=
        bigSep_univ_comm fun (s : Fin 72) (c : Dev nD) => (dutyTok ER (recvCell c s) 0 (0 : Fin 6) : sProp 𝕄)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  ihave H1' := (Entails.of_eq (bar_around (F := F)).symm) $$ H1
  ihave H3' := (Entails.of_eq (recv_around (F := F)).symm) $$ H3
  isplitl [H1']; · iexact H1'
  isplitl [H3'] <;> iassumption

/-! ## The regrouping -/

theorem names_intro :
    (bigSep Finset.univ fun c : Dev nD => overCells (fun g => iprop(∃ κ : ℕ, cellInv ER (exRd Bm) κ g)) c : sProp 𝕄)
      ⊢ iprop(∃ (K : Dev nD → ℕ) (KS KR : Dev nD → Fin 72 → ℕ),
          (bigSep Finset.univ fun c : Dev nD => cellInv ER (exRd Bm) (K c) (barCell c))
          ∗ (bigSep Finset.univ fun c : Dev nD => bigSep Finset.univ fun s : Fin 72 => cellInv ER (exRd Bm) (KS c s) (sendCell c s))
          ∗ (bigSep Finset.univ fun c : Dev nD => bigSep Finset.univ fun s : Fin 72 => cellInv ER (exRd Bm) (KR c s) (recvCell c s))) := by
  unfold overCells
  rw [bigSep_sep', bigSep_sep']
  iintro ⟨HB, HS, HV⟩
  ihave HB' := (bigSep_exists_pi Finset.univ (fun (c : Dev nD) (κ : ℕ) => (cellInv ER (exRd Bm) κ (barCell c) : sProp 𝕄))) $$ HB
  icases HB' with ⟨%K, HB⟩
  ihave HS1 := (Entails.of_eq (bigSep_univ_prod (fun cs : Dev nD × Fin 72 => iprop(∃ κ : ℕ, cellInv ER (exRd Bm) κ (sendCell cs.1 cs.2)))).symm) $$ HS
  ihave HS' := (bigSep_exists_pi Finset.univ (fun (cs : Dev nD × Fin 72) (κ : ℕ) => (cellInv ER (exRd Bm) κ (sendCell cs.1 cs.2) : sProp 𝕄))) $$ HS1
  icases HS' with ⟨%KS, HS⟩
  ihave HS2 := (Entails.of_eq (bigSep_univ_prod (fun cs : Dev nD × Fin 72 => (cellInv ER (exRd Bm) (KS cs) (sendCell cs.1 cs.2) : sProp 𝕄)))) $$ HS
  ihave HV1 := (Entails.of_eq (bigSep_univ_prod (fun cs : Dev nD × Fin 72 => iprop(∃ κ : ℕ, cellInv ER (exRd Bm) κ (recvCell cs.1 cs.2)))).symm) $$ HV
  ihave HV' := (bigSep_exists_pi Finset.univ (fun (cs : Dev nD × Fin 72) (κ : ℕ) => (cellInv ER (exRd Bm) κ (recvCell cs.1 cs.2) : sProp 𝕄))) $$ HV1
  icases HV' with ⟨%KR, HV⟩
  ihave HV2 := (Entails.of_eq (bigSep_univ_prod (fun cs : Dev nD × Fin 72 => (cellInv ER (exRd Bm) (KR cs) (recvCell cs.1 cs.2) : sProp 𝕄)))) $$ HV
  iexists K; iexists (fun c s => KS (c, s)); iexists (fun c s => KR (c, s))
  isplitl [HB]; · iexact HB
  isplitl [HS2] <;> iassumption

omit [FloatOps F] in
theorem positions_eq (c : Dev nD) : (overCells (fun g => atPos ER g 0 ∅ 0) c : sProp 𝕄) = positions c := by
  unfold overCells positions; rfl

omit [FloatOps F] in
theorem positions_intro :
    (bigSep Finset.univ fun c : Dev nD => (overCells (fun g => atPos ER g 0 ∅ 0) c : sProp 𝕄)) ⊢ bigSep Finset.univ fun c : Dev nD => (positions c : sProp 𝕄) :=
  bigSep_mono fun c _ => Entails.of_eq (positions_eq c)

theorem regroup :
    (bigSep Finset.univ fun c : Dev nD => iprop(overCells (fun g => iprop(∃ κ : ℕ, cellInv ER (exRd Bm) κ g)) c
          ∗ overCells (fun g => reached ER g 0) c ∗ overCells (fun g => atPos ER g 0 ∅ 0) c ∗ toks c) : sProp 𝕄)
      ⊢ bigSep Finset.univ (G' m) := by
  rw [bigSep_sep', bigSep_sep', bigSep_sep']
  iintro ⟨HI, #HR, Hat, Htok⟩
  ihave HK := (names_intro m) $$ HI
  icases HK with ⟨%K, %KS, %KR, #HB, #HS, #HV⟩
  ihave Htk := (toks_around (F := F)) $$ Htok
  iapply (bigSep_with_persistent (R := records m K KS KR) (Φ := fun c : Dev nD => iprop(positions c ∗ payToks c)) fun c _ => ghost_intro m K KS KR c)
  isplitr
  · unfold records
    isplitr; · iexact HB
    isplitr; · iexact HS
    isplitr; · iexact HV
    iexact HR
  · iapply (Entails.of_eq (bigSep_sep' Finset.univ (fun c : Dev nD => (positions c : sProp 𝕄)) payToks).symm)
    isplitl [Hat]
    · iapply (positions_intro (F := F))
      iexact Hat
    · iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Hand

end
-- ==== Proof.Bits.LaunchCred.lean ====
/-
  The launch credit. What all devices together owe a device's cells comes back to it as credit: its barrier cell is owed
  one unit by each of its six neighbours, and its arrival cell of slot `s` is owed one copy's units by the one device
  whose copy number `s` is addressed to it. A device's payments are the seventy-eight of `tallyK`; summed over the
  devices, the `k`-th payment credits every device's own cell of that kind once, since the addressee map is a shift of
  the devices.
-/
import proofs.«900461_g7700000000000462_dist_mlpseq_tp1d_rep_rep_b64_d512_h1024_v7x_i16_f32_1_alg».proof.Proof.Bits.LaunchGlob
import Mathlib.Algebra.BigOperators.Intervals
import Mathlib.Algebra.BigOperators.Fin

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's payments as a sum -/

omit [FloatOps F] in
theorem owedRev_sum (c : Dev nD) (n : ℕ) : owedRev c n = ∑ i ∈ Finset.range n, tallyK c (77 - i) := by
  induction n with
  | zero => rw [Finset.sum_range_zero]; rfl
  | succ n ih =>
    rw [Finset.sum_range_succ, ← ih]; rfl

omit [FloatOps F] in
theorem O₀_sum (c : Dev nD) : O₀ c = ∑ k ∈ Finset.range 78, tallyK c k := by
  unfold O₀; rw [owedRev_sum]; exact Finset.sum_range_reflect (fun k => tallyK c k) 78

/-- The order of the slots in the program is a permutation of the slots (it reverses each group of three). -/
def progEquiv : Fin 72 ≃ Fin 72 where
  toFun i := progSlot i.val
  invFun i := progSlot i.val
  left_inv := by intro i; revert i; decide
  right_inv := by intro i; revert i; decide

/-! ## The credit of one payment, summed over the devices -/

/-- The cell of a device that the `k`-th payments of all devices credit, and by how much. -/
def paidAt (c : Dev nD) (k : ℕ) : CellTallies nD τ sig Unit :=
  if k < 6 then tallyAt (barCell c) () 1 else tallyAt (recvCell c (progSlot (k - 6))) () Ncp

omit [FloatOps F] in
theorem cred_of_payment (c : Dev nD) (k : ℕ) :
    (Pipeline.launchCred (fun d => tallyK d k) c : sProp 𝕄) ⊢ cred (paidAt c k) := by
  unfold paidAt
  by_cases h : k < 6
  · rw [if_pos h, show (fun d : Dev nD => tallyK d k)
        = fun d : Dev nD => tallyAt (((peer ⟨k, h⟩ d : Dev nD) : Thread nD τ), SemLoc.reg barS) () 1 from
      funext fun d => by unfold tallyK; rw [dif_pos h]]
    exact Pipeline.launchCred_tallyAt (SemLoc.reg barS) (peer ⟨k, h⟩) (peer (back ⟨k, h⟩))
      (peerEquiv ⟨k, h⟩).right_inv (peerEquiv ⟨k, h⟩).left_inv () 1 c
  · rw [if_neg h, show (fun d : Dev nD => tallyK d k)
        = fun d : Dev nD => tallyAt (((dest d (progSlot (k - 6)) : Dev nD) : Thread nD τ), SemLoc.dma (recvS (progSlot (k - 6)))) () Ncp from
      funext fun d => by unfold tallyK; rw [dif_neg h]]
    exact Pipeline.launchCred_tallyAt (SemLoc.dma (recvS (progSlot (k - 6)))) (fun d => dest d (progSlot (k - 6)))
      (peer (back (sendTo (rndOf (progSlot (k - 6))) (psOf (progSlot (k - 6))))))
      (peerEquiv (sendTo (rndOf (progSlot (k - 6))) (psOf (progSlot (k - 6))))).right_inv
      (peerEquiv (sendTo (rndOf (progSlot (k - 6))) (psOf (progSlot (k - 6))))).left_inv () Ncp c

/-! ## Their sum -/

omit [FloatOps F] in
theorem tally_units (g : GSem nD τ sig) (n : ℕ) :
    (∑ _k ∈ Finset.range (n + 1), (tallyAt g () 1 : CellTallies nD τ sig Unit)) = tallyAt g () (n + 1) := by
  induction n with
  | zero => exact Finset.sum_range_one _
  | succ n ih => rw [Finset.sum_range_succ, ih, tallyAt_add]

omit [FloatOps F] in
theorem paid_sum (c : Dev nD) :
    (∑ k ∈ Finset.range 78, paidAt c k) = tallyAt (barCell c) () 6 + ∑ s : Fin 72, (tallyAt (recvCell c s) () Ncp : CellTallies nD τ sig Unit) := by
  have h1 : (∑ k ∈ Finset.range 6, paidAt c k) = tallyAt (barCell c) () 6 := by
    rw [Finset.sum_congr rfl fun k hk => show paidAt c k = tallyAt (barCell c) () 1 from by
      unfold paidAt; rw [if_pos (Finset.mem_range.mp hk)]]
    exact tally_units (barCell c) 5
  have h2 : (∑ i ∈ Finset.range 72, paidAt c (6 + i)) = ∑ s : Fin 72, (tallyAt (recvCell c s) () Ncp : CellTallies nD τ sig Unit) := by
    rw [Finset.sum_congr rfl fun i _ => show paidAt c (6 + i) = tallyAt (recvCell c (progSlot i)) () Ncp from by
      unfold paidAt; rw [if_neg (by omega), Nat.add_sub_cancel_left]]
    rw [Finset.sum_range fun i => (tallyAt (recvCell c (progSlot i)) () Ncp : CellTallies nD τ sig Unit)]
    exact Equiv.sum_comp progEquiv fun s : Fin 72 => (tallyAt (recvCell c s) () Ncp : CellTallies nD τ sig Unit)
  rw [show (78 : ℕ) = 6 + 72 from rfl, Finset.sum_range_add, h1, h2]

omit [FloatOps F] in
/-- The launch credit of a device: six units on its barrier cell, a copy's units on each of its arrival cells. -/
theorem creds (c : Dev nD) :
    (Pipeline.launchCred O₀ c : sProp 𝕄)
      ⊢ iprop(cred (tallyAt (barCell c) () 6) ∗ bigSep Finset.univ fun s : Fin 72 => cred (tallyAt (recvCell c s) () Ncp)) := by
  rw [show (O₀ : Dev nD → CellTallies nD τ sig Unit) = fun d => ∑ k ∈ Finset.range 78, tallyK d k from funext O₀_sum,
    Pipeline.launchCred_sum]
  refine (bigSep_mono fun k _ => cred_of_payment c k).trans ?_
  refine (Entails.of_eq (Pipeline.cred_finsetSum (Finset.range 78) (paidAt c)).symm).trans ?_
  rw [paid_sum c]
  refine (cred_add _ _).1.trans (sep_mono .rfl (Entails.of_eq ?_))
  exact Pipeline.cred_finsetSum Finset.univ fun s : Fin 72 => (tallyAt (recvCell c s) () Ncp : CellTallies nD τ sig Unit)

end Cert.Kernel.Hand

end
-- ==== Proof.Bits.Launch.lean ====
/-
  The launch. From a memory with every counter at zero, the sixteen devices' runs of @main — each the one kernel
  region — terminate, and every final state has each window's array at what the proof data says, provided one device's
  body meets its obligation: the launch funds the exchange's cells, records their invariants, deals every device the
  tokens of the duties it pays and the credit for what its own cells are owed, and hands the body the two scratch
  buffers; at the end the body returns them with its copy cells closed at zero.
-/
import proofs.«900461_g7700000000000462_dist_mlpseq_tp1d_rep_rep_b64_d512_h1024_v7x_i16_f32_1_alg».proof.Proof.Bits.LaunchCred

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "Bm" => blocksOf m

/-! ## The theorem's side conditions -/

theorem share_eq (c : Dev nD) (w : Fin cfg0.W) : (dats m ρ 0 c).share w = fullShare := by unfold Dat.share; split <;> rfl

/-- What the launch hands a device beside the buffers: its ghost state, its credit, the ranks. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- Entering the one grid point: the scoped buffers that are no staging buffer are the two scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- Leaving it: the scratch buffers go back, and the kernel's own cells at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  iintro ⟨Hr, HzS, HzV⟩
  isplitr; · iempintro
  isplitl [HzS HzV]
  · isplitl [HzS] <;> iassumption
  iexact Hr

omit [FloatOps F] in
/-- A window's staging cell has rank zero. -/
theorem lv_stage (c : Dev nD) (w : Fin cfg0.W) (s : Fin (cfg0.win w).nbuf) :
    lv ((c : Thread nD τ), SemLoc.dma ((cfg0.win w).sem s)) () = 0 := by
  have h : ∀ (w : Fin cfg0.W) (s : Fin (cfg0.win w).nbuf), kindOf (SemLoc.dma ((cfg0.win w).sem s) : SemLoc sig) = CellKind.other := by decide
  unfold lv; rw [h w s]

/-- The pipeline's waits on its staging cells are allowed: those cells rank below everything a device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage c w s) 78
    · exact mayWait_low c _ (lv_stage c w s) 0

/-! ## The run -/

/-- Every window's array of every device at what the proof data says it holds after the grid. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of sixteen devices, for any float values, from any memory with zero counters: if every device's
    body meets its obligation, every weakly fair execution of @main — the sixteen kernels handshaking on the barrier
    semaphore, then exchanging their partial sums — terminates, and every final state has each window's array of each
    device at the proof data's final contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := u₀_split m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

end Cert.Kernel.Hand

end
-- ==== Proof.Bits.Final.lean ====
/-
  The run with every array named: each device's result array ends at the third layer's output (`result` of the
  devices' argument blocks) and its seven argument arrays end as they were.
-/
import proofs.«900461_g7700000000000462_dist_mlpseq_tp1d_rep_rep_b64_d512_h1024_v7x_i16_f32_1_alg».proof.Proof.Bits.Launch

noncomputable section

namespace Cert.Kernel.Hand

open Cert.Kernel Cert.Kernel.Gen

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- An argument array is never written; the result array after the one write-back holds what the body left in the result
    window's staging buffer; and each window's block is its whole array. -/
theorem final_in (c : Dev nD) (w : Fin cfg0.W) (hw : (cfg0.win w).isOut = false) :
    (dats m ρ 0 c).arrAt w cfg0.N = m ((cfg0.win w).arr.view.loc (c : Thread nD τ)) :=
  (dats (F := F) m ρ 0 c).arrAt_in w hw _

theorem final_out (c : Dev nD) : (dats m ρ 0 c).arrAt (7 : Fin 8) cfg0.N = result (blocksOf m) c := by
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  refine (Memref.write_access_unit_zero_univ (Elt F) main_v1 (funext fun a => by fin_cases a <;> rfl) _ _ _).trans ?_
  rfl

theorem blocks_x (c : Dev nD) : (blocksOf m).x c = m ((c : Thread nD τ).loc main_arg0) := by
  show (win0_0.blk (0 : Fin 1)).view.read (Elt F) (m ((c : Thread nD τ).loc main_arg0)) = _
  exact Memref.read_access_unit_zero (Elt F) main_arg0 (funext fun a => by fin_cases a <;> rfl) _ _
theorem blocks_wi0 (c : Dev nD) : (blocksOf m).wi 0 c = m ((c : Thread nD τ).loc main_arg1) := by
  show (win0_1.blk (0 : Fin 1)).view.read (Elt F) (m ((c : Thread nD τ).loc main_arg1)) = _
  exact Memref.read_access_unit_zero (Elt F) main_arg1 (funext fun a => by fin_cases a <;> rfl) _ _
theorem blocks_wo0 (c : Dev nD) : (blocksOf m).wo 0 c = m ((c : Thread nD τ).loc main_arg2) := by
  show (win0_2.blk (0 : Fin 1)).view.read (Elt F) (m ((c : Thread nD τ).loc main_arg2)) = _
  exact Memref.read_access_unit_zero (Elt F) main_arg2 (funext fun a => by fin_cases a <;> rfl) _ _
theorem blocks_wi1 (c : Dev nD) : (blocksOf m).wi 1 c = m ((c : Thread nD τ).loc main_arg3) := by
  show (win0_3.blk (0 : Fin 1)).view.read (Elt F) (m ((c : Thread nD τ).loc main_arg3)) = _
  exact Memref.read_access_unit_zero (Elt F) main_arg3 (funext fun a => by fin_cases a <;> rfl) _ _
theorem blocks_wo1 (c : Dev nD) : (blocksOf m).wo 1 c = m ((c : Thread nD τ).loc main_arg4) := by
  show (win0_4.blk (0 : Fin 1)).view.read (Elt F) (m ((c : Thread nD τ).loc main_arg4)) = _
  exact Memref.read_access_unit_zero (Elt F) main_arg4 (funext fun a => by fin_cases a <;> rfl) _ _
theorem blocks_wi2 (c : Dev nD) : (blocksOf m).wi 2 c = m ((c : Thread nD τ).loc main_arg5) := by
  show (win0_5.blk (0 : Fin 1)).view.read (Elt F) (m ((c : Thread nD τ).loc main_arg5)) = _
  exact Memref.read_access_unit_zero (Elt F) main_arg5 (funext fun a => by fin_cases a <;> rfl) _ _
theorem blocks_wo2 (c : Dev nD) : (blocksOf m).wo 2 c = m ((c : Thread nD τ).loc main_arg6) := by
  show (win0_6.blk (0 : Fin 1)).view.read (Elt F) (m ((c : Thread nD τ).loc main_arg6)) = _
  exact Memref.read_access_unit_zero (Elt F) main_arg6 (funext fun a => by fin_cases a <;> rfl) _ _

/-- The run, every array named. -/
theorem run_named (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = result (blocksOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c 7).trans (final_out m ρ c),
      (h c 0).trans (final_in m ρ c 0 rfl), (h c 1).trans (final_in m ρ c 1 rfl), (h c 2).trans (final_in m ρ c 2 rfl),
      (h c 3).trans (final_in m ρ c 3 rfl), (h c 4).trans (final_in m ρ c 4 rfl), (h c 5).trans (final_in m ρ c 5 rfl),
      (h c 6).trans (final_in m ρ c 6 rfl)⟩)
    (run_main m ρ hbody)

end Cert.Kernel.Hand

end
-- ==== Proof.Bits.Slots.lean ====
/-
  The landing buffer is its seventy-two slots, and the accumulator its four row tiles: an element belongs to the slot, or the
  tile, its first coordinate names. So a whole buffer held at some contents is each of its slots held at some contents, and
  conversely.
-/
import proofs.«900461_g7700000000000462_dist_mlpseq_tp1d_rep_rep_b64_d512_h1024_v7x_i16_f32_1_alg».proof.Proof.Bits.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An element of the landing buffer belongs to slot `s` exactly when its first coordinate is `s`. -/
theorem mem_slot (s : Fin 72) (i : S72x16x512.Idx) : i ∈ (slotM s).view.set ↔ (i 0).val = s.val := by
  simp only [Memref.view_squeeze, Memref.view_slice, Memref.view_whole, View.set_reshape, View.set_slice, View.emb_whole,
    Finset.map_refl, Rect.mem_set_unit]
  constructor
  · intro h; have := h 0; simp only [Matrix.cons_val_zero] at this; omega
  · intro h a
    fin_cases a
    · simp only [Matrix.cons_val_zero]; show s.val ≤ (i 0).val ∧ (i 0).val < s.val + 1; omega
    · exact ⟨Nat.zero_le _, lt_of_lt_of_le (i 1).isLt (le_of_eq rfl)⟩
    · exact ⟨Nat.zero_le _, lt_of_lt_of_le (i 2).isLt (le_of_eq rfl)⟩

/-- The same for the accumulator's row tiles. -/
theorem mem_acc (g : Fin 4) (i : S4x16x512.Idx) : i ∈ (accM g).view.set ↔ (i 0).val = g.val := by
  simp only [Memref.view_squeeze, Memref.view_slice, Memref.view_whole, View.set_reshape, View.set_slice, View.emb_whole,
    Finset.map_refl, Rect.mem_set_unit]
  constructor
  · intro h; have := h 0; simp only [Matrix.cons_val_zero] at this; omega
  · intro h a
    fin_cases a
    · simp only [Matrix.cons_val_zero]; show g.val ≤ (i 0).val ∧ (i 0).val < g.val + 1; omega
    · exact ⟨Nat.zero_le _, lt_of_lt_of_le (i 1).isLt (le_of_eq rfl)⟩
    · exact ⟨Nat.zero_le _, lt_of_lt_of_le (i 2).isLt (le_of_eq rfl)⟩

/-- The landing slot a device hands neighbour `j` for layer and tile `lg`: the one this neighbour's copies of that layer and
    tile write, in the round and at the peer slot that address the device. -/
def handed (j : Fin 6) (lg : Fin 3 × Fin 4) : Fin 72 := slotIx lg.1 (rndTo (back j)) lg.2 (psTo (back j))

/-- Every slot is handed to exactly one neighbour. -/
def handedEquiv : Fin 6 × (Fin 3 × Fin 4) ≃ Fin 72 where
  toFun x := handed x.1 x.2
  invFun s := (back (sendTo (rndOf s) (psOf s)), (lOf s, gOf s))
  left_inv := by intro x; revert x; decide
  right_inv := by intro s; revert s; decide

theorem slots_cover : (Finset.univ : Finset S72x16x512.Idx) = (Finset.univ : Finset (Fin 72)).biUnion fun s => (slotM s).view.set := by
  ext i
  constructor
  · intro _; exact Finset.mem_biUnion.mpr ⟨⟨(i 0).val, (i 0).isLt⟩, Finset.mem_univ _, (mem_slot _ i).mpr rfl⟩
  · intro _; exact Finset.mem_univ _
theorem slots_disjoint (s s' : Fin 72) (h : s ≠ s') : Disjoint (slotM s).view.set (slotM s').view.set :=
  Finset.disjoint_left.mpr fun i hi hi' => h (Fin.ext (by rw [mem_slot] at hi hi'; omega))

/-- The whole landing buffer at contents `f` is each of its slots at `f`. -/
theorem slots_eq (c : Dev nD) (f : Buf (Elt F) ((c : Thread nD τ).loc cc0_scratch1)) :
    ((((c : Thread nD τ).loc cc0_scratch1) ↦{fullShare} f) : sProp 𝕄) = bigSep (Finset.univ : Finset (Fin 72)) fun s => slotPts c s f := by
  show (((c : Thread nD τ).loc cc0_scratch1) ↦[(Finset.univ : Finset S72x16x512.Idx)]{fullShare} f) = _
  rw [slots_cover]
  exact pointsTo_biUnion _ _ fun s _ s' _ h => slots_disjoint s s' h

theorem slots_split_at (c : Dev nD) (f : Buf (Elt F) ((c : Thread nD τ).loc cc0_scratch1)) :
    ((((c : Thread nD τ).loc cc0_scratch1) ↦{fullShare} f) : sProp 𝕄)
      ⊢ bigSep Finset.univ fun j : Fin 6 => barPay (F := F) (peer j c) (back j) :=
  (Entails.of_eq (slots_eq c f)).trans
    ((Entails.of_eq ((bigSep_univ_equiv handedEquiv (fun s => slotPts (F := F) c s f)).trans
      (bigSep_univ_prod (fun x : Fin 6 × (Fin 3 × Fin 4) => slotPts (F := F) c (handedEquiv x) f)))).trans
      (bigSep_mono fun j _ => by
        unfold barPay
        rw [peer_back]
        refine bigSep_mono fun lg _ => (show (slotPts (F := F) c (handedEquiv (j, lg)) f : sProp 𝕄)
          ⊢ iprop(∃ f', slotPts (F := F) c (handedEquiv (j, lg)) f') from ?_)
        iintro H; iexists f; iexact H))

/-- A device entering the kernel splits its landing buffer into what it hands each of its six neighbours. -/
theorem slots_split (c : Dev nD) :
    (iprop(∃ f : Buf (Elt F) ((c : Thread nD τ).loc cc0_scratch1), ((c : Thread nD τ).loc cc0_scratch1) ↦{fullShare} f) : sProp 𝕄)
      ⊢ bigSep Finset.univ fun j : Fin 6 => barPay (F := F) (peer j c) (back j) := by
  iintro ⟨%f, H⟩
  iapply (slots_split_at c f) $$ H

end Cert.Kernel.Hand

end
-- ==== Proof.Bits.Elems.lean ====
/-
  Taking one cell's resources out of a family indexed by slot or by neighbour, and a family over the seventy-two slots as
  its seventy-two members.
-/
import proofs.«900461_g7700000000000462_dist_mlpseq_tp1d_rep_rep_b64_d512_h1024_v7x_i16_f32_1_alg».proof.Proof.Bits.Slots
import proofs.«900461_g7700000000000462_dist_mlpseq_tp1d_rep_rep_b64_d512_h1024_v7x_i16_f32_1_alg».proof.Proof.Bits.Inv

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "Bm" => blocksOf m

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem bigSep_fin72 (Φ : Fin 72 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63 ∗ Φ 64 ∗ Φ 65 ∗ Φ 66 ∗ Φ 67 ∗ Φ 68 ∗ Φ 69 ∗ Φ 70 ∗ Φ 71) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] (by decide) (by decide) Φ

section Elems
variable (K : Dev nD → ℕ) (KS KR : Dev nD → Fin 72 → ℕ) (c : Dev nD)
theorem invS_at (s : Fin 72) : (bigSep Finset.univ fun s : Fin 72 => (cellInv ER (exRd Bm) (KS c s) (sendCell c s) : sProp 𝕄)) ⊢ cellInv ER (exRd Bm) (KS c s) (sendCell c s) :=
  bigSep_elim (Finset.mem_univ s)
theorem invR_at (s : Fin 72) : (bigSep Finset.univ fun s : Fin 72 => (cellInv ER (exRd Bm) (KR c s) (recvCell c s) : sProp 𝕄)) ⊢ cellInv ER (exRd Bm) (KR c s) (recvCell c s) :=
  bigSep_elim (Finset.mem_univ s)
theorem invBN_at (j : Fin 6) : (bigSep Finset.univ fun j : Fin 6 => (cellInv ER (exRd Bm) (K (peer j c)) (barCell (peer j c)) : sProp 𝕄)) ⊢ cellInv ER (exRd Bm) (K (peer j c)) (barCell (peer j c)) :=
  bigSep_elim (Finset.mem_univ j)
theorem invRD_at (s : Fin 72) : (bigSep Finset.univ fun s : Fin 72 => (cellInv ER (exRd Bm) (KR (dest c s) s) (recvCell (dest c s) s) : sProp 𝕄)) ⊢ cellInv ER (exRd Bm) (KR (dest c s) s) (recvCell (dest c s) s) :=
  bigSep_elim (Finset.mem_univ s)
omit [FloatOps F] in
theorem rB_at (j : Fin 6) : (bigSep Finset.univ fun j : Fin 6 => (reached ER (barCell (peer j c)) 0 : sProp 𝕄)) ⊢ reached ER (barCell (peer j c)) 0 :=
  bigSep_elim (Finset.mem_univ j)
omit [FloatOps F] in
theorem rR_at (s : Fin 72) : (bigSep Finset.univ fun s : Fin 72 => (reached ER (recvCell (dest c s) s) 0 : sProp 𝕄)) ⊢ reached ER (recvCell (dest c s) s) 0 :=
  bigSep_elim (Finset.mem_univ s)
omit [FloatOps F] in
theorem rS_at (s : Fin 72) : (bigSep Finset.univ fun s : Fin 72 => (reached ER (sendCell c s) 0 : sProp 𝕄)) ⊢ reached ER (sendCell c s) 0 :=
  bigSep_elim (Finset.mem_univ s)
end Elems

/-- The slot a device writes on neighbour `d` for layer and tile `lg`. -/
def written (d : Fin 6) (lg : Fin 3 × Fin 4) : Fin 72 := slotIx lg.1 (rndTo d) lg.2 (psTo d)

/-- Every copy is addressed to exactly one neighbour. -/
def writtenEquiv : Fin 6 × (Fin 3 × Fin 4) ≃ Fin 72 where
  toFun x := written x.1 x.2
  invFun s := (sendTo (rndOf s) (psOf s), (lOf s, gOf s))
  left_inv := by intro x; revert x; decide
  right_inv := by intro s; revert s; decide

theorem dest_written (c : Dev nD) (x : Fin 6 × (Fin 3 × Fin 4)) : dest c (writtenEquiv x) = peer x.1 c := by
  revert x c; decide

/-- What the six neighbours' signals hand a device, slot by slot: for each of its copies, the landing slot it writes. -/
theorem got_eq (c : Dev nD) :
    (bigSep (Finset.univ : Finset (Fin 6)) (fun d => barPay (F := F) c d))
      = bigSep (Finset.univ : Finset (Fin 72)) (fun s => iprop(∃ f, slotPts (F := F) (dest c s) s f)) := by
  rw [bigSep_univ_equiv writtenEquiv (fun s => iprop(∃ f, slotPts (F := F) (dest c s) s f)), bigSep_univ_prod]
  refine bigSep_congr fun d _ => ?_
  unfold barPay
  refine bigSep_congr fun lg _ => ?_
  rw [dest_written c (d, lg)]
  rfl

end Cert.Kernel.Hand

end
-- ==== Proof.Bits.Steps2.lean ====
/-
  The copy's rule over tiles and slots held at named values.
-/
import proofs.«900461_g7700000000000462_dist_mlpseq_tp1d_rep_rep_b64_d512_h1024_v7x_i16_f32_1_alg».proof.Proof.Bits.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

variable {α : Type} {Q : α → sProp (MT nD τ sig Unit (Elt F) ℕ UU ℕ)} (c : Dev nD)

/-- A copy of a row tile held (at the copy's share) at the value the schedule says the copy carries, into a landing slot of
    the addressed neighbour held at some contents. -/
theorem wp_copy' (s : Fin 72) (n : Dev nD) (hn : n = dest c s)
    {hsc : (slotM s : Memref sig (Dev.tc n : Thread nD τ).2.kind .vmem S16x512 .f32).view.ref.isScScratch = false}
    {hsrc : (accM (gOf s)).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α} {κ₁ κ₂ : ℕ}
    {O₁ : CellTallies nD τ sig Unit} (O : CellTallies nD τ sig Unit) (hO : O₁ = O + tallyAt (recvCell (dest c s) s) () Ncp) {W : Waits sig Unit} :
    iprop(cellInv ER (exRd B) κ₁ (sendCell c s) ∗ cellInv ER (exRd B) κ₂ (recvCell (dest c s) s)
        ∗ accAt c (gOf s) (shareOf (psOf s)) (sentV B (lOf s) (rndOf s) c (gOf s)) ∗ (∃ fd, slotPts (F := F) (dest c s) s fd)
        ∗ owes (c : Thread nD τ) O₁ W
        ∗ dutyTok ER (sendCell c s) 0 (0 : Fin 6) ∗ reached ER (sendCell c s) 0
        ∗ dutyTok ER (recvCell (dest c s) s) 0 (0 : Fin 6) ∗ reached ER (recvCell (dest c s) s) 0)
      ⊢ iprop(((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM (gOf s)) (.remote (Dev.tc n : Thread nD τ) (slotM s) (.dma (sendS s)) hsc) (.dma (recvS s)) hsrc hdst hsem) k) Q) := by
  unfold accAt owns
  iintro ⟨#HI1, #HI2, ⟨%fs, %hv, Hs⟩, ⟨%fd, Hd⟩, HO, Ht1, #Hr1, Ht2, #Hr2⟩ Hk
  iapply (wp_copy B c s n hn fs fd hv O hO) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The copy's rule with the slot's layer, round, tile and peer slot spelt out. -/
theorem wp_copyAt (s : Fin 72) (l : Fin 3) (rnd : Fin 2) (g : Fin 4) (ps : Fin 3)
    (hl : lOf s = l) (hr : rndOf s = rnd) (hg : gOf s = g) (hp : psOf s = ps) (n : Dev nD) (hn : n = dest c s)
    {hsc : (slotM s : Memref sig (Dev.tc n : Thread nD τ).2.kind .vmem S16x512 .f32).view.ref.isScScratch = false}
    {hsrc : (accM g).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α} {κ₁ κ₂ : ℕ}
    {O₁ : CellTallies nD τ sig Unit} (O : CellTallies nD τ sig Unit) (hO : O₁ = O + tallyAt (recvCell (dest c s) s) () Ncp) {W : Waits sig Unit} :
    iprop(cellInv ER (exRd B) κ₁ (sendCell c s) ∗ cellInv ER (exRd B) κ₂ (recvCell (dest c s) s)
        ∗ accAt c g (shareOf ps) (sentV B l rnd c g) ∗ (∃ fd, slotPts (F := F) (dest c s) s fd)
        ∗ owes (c : Thread nD τ) O₁ W
        ∗ dutyTok ER (sendCell c s) 0 (0 : Fin 6) ∗ reached ER (sendCell c s) 0
        ∗ dutyTok ER (recvCell (dest c s) s) 0 (0 : Fin 6) ∗ reached ER (recvCell (dest c s) s) 0)
      ⊢ iprop(((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM g) (.remote (Dev.tc n : Thread nD τ) (slotM s) (.dma (sendS s)) hsc) (.dma (recvS s)) hsrc hdst hsem) k) Q) := by
  subst hl hr hg hp
  exact wp_copy' B c s n hn O hO

/-- The departure wait's rule, the returned share spelt out. -/
theorem wp_sendwaitAt (s : Fin 72) (l : Fin 3) (rnd : Fin 2) (g : Fin 4) (ps : Fin 3)
    (hl : lOf s = l) (hr : rndOf s = rnd) (hg : gOf s = g) (hp : psOf s = ps)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (sendCell c s) ∗ cred (tallyAt (sendCell c s) () Ncp) ∗ owes (c : Thread nD τ) O W
        ∗ MayWait (c : Thread nD τ) (.dma (sendS s)) () O ∗ atPos ER (sendCell c s) 0 ∅ 0)
      ⊢ iprop(((owes (c : Thread nD τ) O (insert (SemLoc.dma (sendS s), ()) W) ∗ atPos ER (sendCell c s) 1 ∅ 0 ∗ reached ER (sendCell c s) 1
              ∗ accAt c g (shareOf ps) (sentV B l rnd c g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  subst hl hr hg hp
  exact wp_sendwait B c s hd

/-- The arrival wait's rule, the landed tile spelt out: it is what neighbour `j` sent. -/
theorem wp_recvwaitAt (s : Fin 72) (l : Fin 3) (rnd : Fin 2) (g : Fin 4) (j : Fin 6)
    (hl : lOf s = l) (hr : rndOf s = rnd) (hg : gOf s = g) (hj : recvFrom (rndOf s) (psOf s) = j)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {κ : ℕ} {O : CellTallies nD τ sig Unit} {W : Waits sig Unit} :
    iprop(cellInv ER (exRd B) κ (recvCell c s) ∗ cred (tallyAt (recvCell c s) () Ncp) ∗ owes (c : Thread nD τ) O W
        ∗ MayWait (c : Thread nD τ) (.dma (recvS s)) () O ∗ atPos ER (recvCell c s) 0 ∅ 0)
      ⊢ iprop(((owes (c : Thread nD τ) O (insert (SemLoc.dma (recvS s), ()) W) ∗ atPos ER (recvCell c s) 1 ∅ 0 ∗ reached ER (recvCell c s) 1
              ∗ slotAt c s (sentV B l rnd (peer j c) g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  subst hl hr hg hj
  exact wp_recvwait B c s hd

end Cert.Kernel.Hand

end
-- ==== Proof.Bits.Exit.lean ====
/-
  Leaving the kernel: every copy cell of the device has been consumed to the end of its one round, so it can be closed and
  its counter taken out at zero.
-/
import proofs.«900461_g7700000000000462_dist_mlpseq_tp1d_rep_rep_b64_d512_h1024_v7x_i16_f32_1_alg».proof.Proof.Bits.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

theorem close_send (KS : Dev nD → Fin 72 → ℕ) (c : Dev nD) :
    iprop((bigSep Finset.univ fun s : Fin 72 => cellInv ER (exRd B) (KS c s) (sendCell c s))
        ∗ bigSep Finset.univ fun s : Fin 72 => atPos ER (sendCell c s) 1 ∅ 0)
      ⊢ (|={Set.univ}=> bigSep Finset.univ fun s : Fin 72 => semVal (sendCell c s) 0 : sProp 𝕄) := by
  rw [← bigSep_sep']
  exact (bigSep_mono fun s _ => Rounds.cell_close ER (exRd B) (Set.mem_univ _) (fun h => h) (R := 1) (duties_later B (sendCell c s))).trans
    (bigSep_fupd _ _)

theorem close_recv (KR : Dev nD → Fin 72 → ℕ) (c : Dev nD) :
    iprop((bigSep Finset.univ fun s : Fin 72 => cellInv ER (exRd B) (KR c s) (recvCell c s))
        ∗ bigSep Finset.univ fun s : Fin 72 => atPos ER (recvCell c s) 1 ∅ 0)
      ⊢ (|={Set.univ}=> bigSep Finset.univ fun s : Fin 72 => semVal (recvCell c s) 0 : sProp 𝕄) := by
  rw [← bigSep_sep']
  exact (bigSep_mono fun s _ => Rounds.cell_close ER (exRd B) (Set.mem_univ _) (fun h => h) (R := 1) (duties_later B (recvCell c s))).trans
    (bigSep_fupd _ _)

end Cert.Kernel.Hand

end
-- ==== Proof.Bits.Values.lean ====
/-
  The vectors the body stores, as values of the specification: a shape cast there and back is the identity, so a tile stored
  as a 1 × 16 × 512 vector and read back as 16 × 512 is the tile; the sum stored by a wait-and-add step is the four tiles
  added in order; the vector stored by a layer's compute step is the layer's partial sum of the tile it read.
-/
import proofs.«900461_g7700000000000462_dist_mlpseq_tp1d_rep_rep_b64_d512_h1024_v7x_i16_f32_1_alg».proof.Proof.Bits.Spec
import Idealize.ShloMosaic.Lib.Pipeline.Value

noncomputable section

namespace Cert.Kernel.Hand

open Cert.Kernel Cert.Kernel.Gen
open Idealize.ShloMosaic

variable {F : FTy → Type} [FloatOps F]

abbrev sc (v : Vec F S1x16x512 .f32) : FVec F S16x512 .f32 := shapeCast S16x512 v shapeCasts_S1x16x512_S16x512

theorem cast_round (X : FVec F S16x512 .f32) :
    shapeCast S16x512 (shapeCast S1x16x512 X shapeCasts_S16x512_S1x16x512) shapeCasts_S1x16x512_S16x512 = X :=
  shapeCast_shapeCast X _ _

/-- The wait-and-add step's store: own tile plus the three landed tiles, in slot order. -/
theorem sum_payload (va v0 v1 v2 : Vec F S1x16x512 .f32) (A B C D : FVec F S16x512 .f32)
    (ha : sc va = A) (h0 : sc v0 = B) (h1 : sc v1 = C) (h2 : sc v2 = D) :
    shapeCast S16x512 (shapeCast S1x16x512 (addf (addf (addf (sc va) (sc v0)) (sc v1)) (sc v2)) shapeCasts_S16x512_S1x16x512)
      shapeCasts_S1x16x512_S16x512 = sum4 A B C D := by
  rw [cast_round, ha, h0, h1, h2]; rfl

/-- The first layer's compute step: the tile of the staged input through the layer. -/
theorem mlp_payload0 (vx : Vec F S16x512 .f32) (wi : Vec F S512x1024 .f32) (wo : Vec F S1024x512 .f32) (X : FVec F S16x512 .f32)
    (hx : shapeCast S16x512 vx shapeCasts_S16x512_S16x512 = X) :
    shapeCast S16x512 (shapeCast S1x16x512 (mlp (shapeCast S16x512 vx shapeCasts_S16x512_S16x512) wi wo) shapeCasts_S16x512_S1x16x512)
      shapeCasts_S1x16x512_S16x512 = mlp X wi wo := by
  rw [cast_round, hx]

/-- A later layer's compute step: the accumulator's tile through the layer. -/
theorem mlp_payload1 (vx : Vec F S1x16x512 .f32) (wi : Vec F S512x1024 .f32) (wo : Vec F S1024x512 .f32) (X : FVec F S16x512 .f32)
    (hx : sc vx = X) :
    shapeCast S16x512 (shapeCast S1x16x512 (mlp (sc vx) wi wo) shapeCasts_S16x512_S1x16x512)
      shapeCasts_S1x16x512_S16x512 = mlp X wi wo := by
  rw [cast_round, hx]

end Cert.Kernel.Hand

end
-- ==== Proof.Bits.Glue.lean ====
/-
  Small facts the body's steps use: a tile or slot held at a value is held at any equal value; the program-order slot of a
  copy lies in the copy's issue group; a wait for an arrival is allowed once the arrival's issue group has been issued.
-/
import proofs.«900461_g7700000000000462_dist_mlpseq_tp1d_rep_rep_b64_d512_h1024_v7x_i16_f32_1_alg».proof.Proof.Bits.Levels
import proofs.«900461_g7700000000000462_dist_mlpseq_tp1d_rep_rep_b64_d512_h1024_v7x_i16_f32_1_alg».proof.Proof.Bits.Values

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem accAt_congr (c : Dev nD) (g : Fin 4) (q : PosShare TreeShare) {V V' : FVec F S16x512 .f32} (h : V = V') :
    (accAt c g q V : sProp 𝕄) ⊢ accAt c g q V' := by subst h; exact .rfl
omit [FloatOps F] in
theorem slotAt_congr (c : Dev nD) (s : Fin 72) {V V' : FVec F S16x512 .f32} (h : V = V') :
    (slotAt c s V : sProp 𝕄) ⊢ slotAt c s V' := by subst h; exact .rfl

theorem progSlot_div (i : ℕ) (hi : i < 72) : (progSlot i).val / 3 = i / 3 := by
  unfold progSlot
  show (3 * (i / 3) + (2 - i % 3)) % 72 / 3 = i / 3
  omega

theorem mayWait_recv' (c : Dev nD) (s : Fin 72) (n : ℕ) (hn : n ≤ 72) (hK : s.val / 3 < (72 - n) / 3) :
    (levAts L lv : sProp 𝕄) ⊢ MayWait (c : Thread nD τ) (.dma (recvS s)) () (owedRev c n) :=
  mayWait_recv c s n hn fun i h1 h2 => by
    rw [progSlot_div i h2]
    have := Nat.div_le_div_right (c := 3) h1
    omega

end Cert.Kernel.Hand

end
-- ==== Proof.Bits.Local.lean ====
/-
  The body's local statements as rules. The accumulator scratch is its four row tiles and the landing scratch its
  seventy-two slots: a whole buffer held at some contents is each part held at some contents, and back; a tile held at
  the full share is the tile held at the three shares its three copies borrow. A load of a tile or of a slot reads, shape
  cast, what the part is owned at; a store of a tile leaves the part owned at the stored vector. The staged input is read
  row tile by row tile, and the staged result is written so.
-/
import proofs.«900461_g7700000000000462_dist_mlpseq_tp1d_rep_rep_b64_d512_h1024_v7x_i16_f32_1_alg».proof.Proof.Bits.Steps
import proofs.«900461_g7700000000000462_dist_mlpseq_tp1d_rep_rep_b64_d512_h1024_v7x_i16_f32_1_alg».proof.Proof.Bits.Slots
import Idealize.ShloMosaic.Lib.StableHlo.CollectiveRules
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The accumulator is its four row tiles, the landing buffer its seventy-two slots -/

theorem acc_cover : (Finset.univ : Finset S4x16x512.Idx) = (Finset.univ : Finset (Fin 4)).biUnion fun g => (accM g).view.set := by
  ext i
  constructor
  · intro _; exact Finset.mem_biUnion.mpr ⟨⟨(i 0).val, (i 0).isLt⟩, Finset.mem_univ _, (mem_acc _ i).mpr rfl⟩
  · intro _; exact Finset.mem_univ _
theorem acc_disjoint (g g' : Fin 4) (h : g ≠ g') : Disjoint (accM g).view.set (accM g').view.set :=
  Finset.disjoint_left.mpr fun i hi hi' => h (Fin.ext (by rw [mem_acc] at hi hi'; omega))

omit [FloatOps F] in
/-- The whole accumulator at contents `f` is each of its row tiles at `f`. -/
theorem acc_eq (c : Dev nD) (f : Buf (Elt F) ((c : Thread nD τ).loc cc0_scratch0)) :
    ((((c : Thread nD τ).loc cc0_scratch0) ↦{fullShare} f) : sProp 𝕄) = bigSep (Finset.univ : Finset (Fin 4)) fun g => accPts c g fullShare f := by
  show (((c : Thread nD τ).loc cc0_scratch0) ↦[(Finset.univ : Finset S4x16x512.Idx)]{fullShare} f) = _
  rw [acc_cover]
  exact pointsTo_biUnion _ _ fun g _ g' _ h => acc_disjoint g g' h

omit [FloatOps F] in
theorem acc_pts_intro (c : Dev nD) (g : Fin 4) (q : PosShare TreeShare) (f : Buf (Elt F) ((c : Thread nD τ).loc cc0_scratch0)) :
    (accPts c g q f : sProp 𝕄) ⊢ iprop(∃ V, accAt c g q V) := by
  iintro H
  iexists ((accM g).view.read (Elt F) f)
  unfold accAt
  iapply (owns_intro (c : Thread nD τ) (accM g) q f)
  iexact H
omit [FloatOps F] in
theorem acc_pts_elim (c : Dev nD) (g : Fin 4) (q : PosShare TreeShare) :
    (iprop(∃ V, accAt c g q V) : sProp 𝕄) ⊢ iprop(∃ f : Buf (Elt F) ((c : Thread nD τ).loc cc0_scratch0), accPts c g q f) := by
  unfold accAt owns
  iintro ⟨%V, %f, -, H⟩
  iexists f
  iexact H
omit [FloatOps F] in
theorem slot_pts_elim (c : Dev nD) (s : Fin 72) :
    (iprop(∃ V, slotAt c s V) : sProp 𝕄) ⊢ iprop(∃ f : Buf (Elt F) ((c : Thread nD τ).loc cc0_scratch1), slotPts c s f) := by
  unfold slotAt owns
  iintro ⟨%V, %f, -, H⟩
  iexists f
  iexact H

omit [FloatOps F] in
theorem acc_pts_elim_all (c : Dev nD) :
    (bigSep Finset.univ fun g : Fin 4 => iprop(∃ V, accAt c g fullShare V) : sProp 𝕄)
      ⊢ bigSep Finset.univ fun g : Fin 4 => iprop(∃ f : Buf (Elt F) ((c : Thread nD τ).loc cc0_scratch0), accPts c g fullShare f) :=
  bigSep_mono fun g _ => acc_pts_elim c g fullShare
omit [FloatOps F] in
theorem slot_pts_elim_all (c : Dev nD) :
    (bigSep Finset.univ fun s : Fin 72 => iprop(∃ V, slotAt c s V) : sProp 𝕄)
      ⊢ bigSep Finset.univ fun s : Fin 72 => iprop(∃ f : Buf (Elt F) ((c : Thread nD τ).loc cc0_scratch1), slotPts c s f) :=
  bigSep_mono fun s _ => slot_pts_elim c s

omit [FloatOps F] in
/-- A device entering the kernel splits its accumulator into its four row tiles, each at some contents. -/
theorem acc_split (c : Dev nD) :
    (iprop(∃ f : Buf (Elt F) ((c : Thread nD τ).loc cc0_scratch0), ((c : Thread nD τ).loc cc0_scratch0) ↦{fullShare} f) : sProp 𝕄)
      ⊢ bigSep Finset.univ fun g : Fin 4 => iprop(∃ V, accAt c g fullShare V) := by
  iintro ⟨%f, H⟩
  iapply ((Entails.of_eq (acc_eq c f)).trans (bigSep_mono fun g _ => acc_pts_intro c g fullShare f)) $$ H

/-- Four row tiles, each at some contents, are the whole accumulator at some contents. -/
theorem acc_join (c : Dev nD) :
    (bigSep Finset.univ fun g : Fin 4 => iprop(∃ V, accAt c g fullShare V) : sProp 𝕄)
      ⊢ iprop(∃ f : Buf (Elt F) ((c : Thread nD τ).loc cc0_scratch0), ((c : Thread nD τ).loc cc0_scratch0) ↦{fullShare} f) := by
  iintro H
  ihave H1 := (acc_pts_elim_all (F := F) c) $$ H
  ihave H2 := (bigSep_exists_pi Finset.univ (fun (g : Fin 4) (f : Buf (Elt F) ((c : Thread nD τ).loc cc0_scratch0)) => (accPts c g fullShare f : sProp 𝕄))) $$ H1
  icases H2 with ⟨%fs, H2⟩
  ihave H3 := (pointsTo_biUnion_join (Finset.univ : Finset (Fin 4)) (fun g => (accM g).view.set) fs (fs 0)
    fun g _ g' _ h => acc_disjoint g g' h) $$ H2
  icases H3 with ⟨%f, -, H3⟩
  iexists f
  iapply (Entails.of_eq (show ((((c : Thread nD τ).loc cc0_scratch0) ↦[(Finset.univ : Finset (Fin 4)).biUnion fun g => (accM g).view.set]{fullShare} f) : sProp 𝕄)
      = (((c : Thread nD τ).loc cc0_scratch0) ↦{fullShare} f) from by rw [← acc_cover]))
  iexact H3

/-- Seventy-two slots, each at some contents, are the whole landing buffer at some contents. -/
theorem slots_join (c : Dev nD) :
    (bigSep Finset.univ fun s : Fin 72 => iprop(∃ V, slotAt c s V) : sProp 𝕄)
      ⊢ iprop(∃ f : Buf (Elt F) ((c : Thread nD τ).loc cc0_scratch1), ((c : Thread nD τ).loc cc0_scratch1) ↦{fullShare} f) := by
  iintro H
  ihave H1 := (slot_pts_elim_all (F := F) c) $$ H
  ihave H2 := (bigSep_exists_pi Finset.univ (fun (s : Fin 72) (f : Buf (Elt F) ((c : Thread nD τ).loc cc0_scratch1)) => (slotPts c s f : sProp 𝕄))) $$ H1
  icases H2 with ⟨%fs, H2⟩
  ihave H3 := (pointsTo_biUnion_join (Finset.univ : Finset (Fin 72)) (fun s => (slotM s).view.set) fs (fs 0)
    fun s _ s' _ h => slots_disjoint s s' h) $$ H2
  icases H3 with ⟨%f, -, H3⟩
  iexists f
  iapply (Entails.of_eq (show ((((c : Thread nD τ).loc cc0_scratch1) ↦[(Finset.univ : Finset (Fin 72)).biUnion fun s => (slotM s).view.set]{fullShare} f) : sProp 𝕄)
      = (((c : Thread nD τ).loc cc0_scratch1) ↦{fullShare} f) from by rw [← slots_cover]))
  iexact H3

/-! ## The three shares of a row tile -/

omit [FloatOps F] in
/-- A row tile held whole is the tile held at the three shares its three copies borrow, at the same contents. -/
theorem acc_shares (c : Dev nD) (g : Fin 4) (V : FVec F S16x512 .f32) :
    (accAt c g fullShare V : sProp 𝕄) ⊣⊢ iprop(accAt c g (shareOf 0) V ∗ accAt c g (shareOf 1) V ∗ accAt c g (shareOf 2) V) := by
  unfold accAt
  have h1 := owns_share (Val := Elt F) (Ix := Unit) (Name := ℕ) (U := UU) (Lvl := ℕ) (c : Thread nD τ) (accM g) (PosShare.mem_left_op_right fullShare) V
  have h2 := owns_share (Val := Elt F) (Ix := Unit) (Name := ℕ) (U := UU) (Lvl := ℕ) (c : Thread nD τ) (accM g) (PosShare.mem_left_op_right fullShare.right) V
  exact ⟨h1.1.trans (sep_mono .rfl h2.1), (sep_mono .rfl h2.2).trans h1.2⟩

/-! ## Loads and stores of a row tile and of a landing slot -/

/-- The rectangle of row tile `g` in the accumulator, and of slot `s` in the landing buffer. -/
abbrev accR (g : Fin 4) : Rect S4x16x512 := Rect.unit (s := S4x16x512) ![g.val, 0, 0] S1x16x512.size (acc_inb g)
abbrev slotR (s : Fin 72) : Rect S72x16x512 := Rect.unit (s := S72x16x512) ![s.val, 0, 0] S1x16x512.size (slot_inb s)

/-- What a load or a store at a tile's rectangle touches is the tile. -/
theorem acc_setOn (g : Fin 4) :
    (Memref.whole cc0_scratch0 : Memref sig .tc .vmem S4x16x512 .f32).view.setOn (accR g).toLoadRect.set ⊆ (accM g).view.set := by
  intro i hi
  simp only [Memref.view_squeeze, Memref.view_slice, View.set_reshape, View.set_slice]
  exact hi
theorem slot_setOn (s : Fin 72) :
    (Memref.whole cc0_scratch1 : Memref sig .tc .vmem S72x16x512 .f32).view.setOn (slotR s).toLoadRect.set ⊆ (slotM s).view.set := by
  intro i hi
  simp only [Memref.view_squeeze, Memref.view_slice, View.set_reshape, View.set_slice]
  exact hi

section Rules

variable {α : Type} {Q : α → sProp (MT nD τ sig Unit (Elt F) ℕ UU ℕ)} (c : Dev nD)

/-- A load of row tile `g` of the accumulator, held at any share: the vector read is, shape cast, what the tile holds. -/
theorem wp_load_acc (g : Fin 4) (q : PosShare TreeShare) (V : FVec F S16x512 .f32)
    {hl : (Memref.whole cc0_scratch0 : Memref sig .tc .vmem S4x16x512 .f32).view.LoadsAt (accR g).toLoadRect}
    {k : Vec F S1x16x512 .f32 → Prog (TpuEff nD τ sig (Elt F) Λ₀ .tc) α} :
    accAt c g q V
      ⊢ iprop((∀ v : Vec F S1x16x512 .f32, ⌜shapeCast S16x512 v shapeCasts_S1x16x512_S16x512 = V⌝ -∗ accAt c g q V
              -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_scratch0) (accR g).toLoadRect hl) k) Q) := by
  unfold accAt owns
  iintro ⟨%f, %hf, H⟩ Hk
  iapply (wp_load 𝒱₀ (c : Thread nD τ) none Set.univ (m := (Memref.whole cc0_scratch0 : Memref sig .tc .vmem S4x16x512 .f32))
    (r := (accR g).toLoadRect) (S := (accM g).view.set) (q := q) (f := f) (acc_setOn g)) $$ H
  iintro H
  have hv : shapeCast S16x512 ((Memref.whole cc0_scratch0 : Memref sig .tc .vmem S4x16x512 .f32).view.readAt (Elt F) (accR g).toLoadRect f)
      shapeCasts_S1x16x512_S16x512 = V := hf
  iapply Hk $$ %_ %hv
  iexists f
  isplitr; · ipureintro; exact hf
  iexact H

/-- What a tile reads after a store through its rectangle: the stored vector, shape cast. -/
theorem acc_read_write (g : Fin 4) (f : Buf (Elt F) ((Memref.whole cc0_scratch0 : Memref sig .tc .vmem S4x16x512 .f32).view.loc (c : Thread nD τ)))
    (w : Vec F S1x16x512 .f32) :
    (accM g).view.read (Elt F) (((Memref.whole cc0_scratch0 : Memref sig .tc .vmem S4x16x512 .f32).access (accR g)).write (Elt F) f w Finset.univ)
      = shapeCast S16x512 w shapeCasts_S1x16x512_S16x512 := by
  show shapeCast S16x512 (((Memref.whole cc0_scratch0 : Memref sig .tc .vmem S4x16x512 .f32).access (accR g)).read (Elt F)
    (((Memref.whole cc0_scratch0 : Memref sig .tc .vmem S4x16x512 .f32).access (accR g)).write (Elt F) f w Finset.univ)) shapeCasts_S1x16x512_S16x512 = _
  rw [View.read_write_univ]

theorem acc_store_setOn (g : Fin 4) :
    ((Memref.whole cc0_scratch0 : Memref sig .tc .vmem S4x16x512 .f32).access (accR g)).setOn Finset.univ ⊆ (accM g).view.set := by
  intro i hi
  simp only [Memref.view_squeeze, Memref.view_slice, View.set_reshape]
  exact hi

/-- A store of a vector into row tile `g` of the accumulator, held whole: the tile then holds the vector, shape cast. -/
theorem wp_store_acc (g : Fin 4) (V : FVec F S16x512 .f32) (w : Vec F S1x16x512 .f32)
    {hx : ((Memref.whole cc0_scratch0 : Memref sig .tc .vmem S4x16x512 .f32).access (accR g)).Stores Finset.univ}
    {hm : (Finset.univ : Finset (accR g).shape.Idx) = Finset.univ ∨ ∀ a, (accR g).stride a = 1}
    {k : PUnit → Prog (TpuEff nD τ sig (Elt F) Λ₀ .tc) α} :
    accAt c g fullShare V
      ⊢ iprop((accAt c g fullShare (shapeCast S16x512 w shapeCasts_S1x16x512_S16x512)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch0) (accR g) w Finset.univ hx hm) k) Q) := by
  unfold accAt owns
  iintro ⟨%f, -, H⟩ Hk
  iapply (wp_store 𝒱₀ (c : Thread nD τ) none Set.univ (m := (Memref.whole cc0_scratch0 : Memref sig .tc .vmem S4x16x512 .f32))
    (r := accR g) (w := w) (Mk := Finset.univ) (S := (accM g).view.set) (f := f) (acc_store_setOn g)) $$ H
  iintro H
  iapply Hk
  iexists (((Memref.whole cc0_scratch0 : Memref sig .tc .vmem S4x16x512 .f32).access (accR g)).write (Elt F) f w Finset.univ)
  isplitr; · ipureintro; exact acc_read_write c g f w
  iexact H

/-- A load of landing slot `s`: the vector read is, shape cast, what the slot holds. -/
theorem wp_load_slot (s : Fin 72) (V : FVec F S16x512 .f32)
    {hl : (Memref.whole cc0_scratch1 : Memref sig .tc .vmem S72x16x512 .f32).view.LoadsAt (slotR s).toLoadRect}
    {k : Vec F S1x16x512 .f32 → Prog (TpuEff nD τ sig (Elt F) Λ₀ .tc) α} :
    slotAt c s V
      ⊢ iprop((∀ v : Vec F S1x16x512 .f32, ⌜shapeCast S16x512 v shapeCasts_S1x16x512_S16x512 = V⌝ -∗ slotAt c s V
              -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_scratch1) (slotR s).toLoadRect hl) k) Q) := by
  unfold slotAt owns
  iintro ⟨%f, %hf, H⟩ Hk
  iapply (wp_load 𝒱₀ (c : Thread nD τ) none Set.univ (m := (Memref.whole cc0_scratch1 : Memref sig .tc .vmem S72x16x512 .f32))
    (r := (slotR s).toLoadRect) (S := (slotM s).view.set) (q := fullShare) (f := f) (slot_setOn s)) $$ H
  iintro H
  have hv : shapeCast S16x512 ((Memref.whole cc0_scratch1 : Memref sig .tc .vmem S72x16x512 .f32).view.readAt (Elt F) (slotR s).toLoadRect f)
      shapeCasts_S1x16x512_S16x512 = V := hf
  iapply Hk $$ %_ %hv
  iexists f
  isplitr; · ipureintro; exact hf
  iexact H

/-! ## The staged input and the staged result, row tile by row tile -/

/-- The rectangle of rows `16·g … 16·g + 15` of a 64 × 512 array. -/
abbrev rowR (g : Fin 4) (inb : ∀ a, (![16 * g.val, 0] : Fin 2 → Nat) a + S16x512.size a ≤ S64x512.size a) : Rect S64x512 :=
  Rect.unit (s := S64x512) ![16 * g.val, 0] S16x512.size inb

/-- Rows `16·g … 16·g + 15` of an array. -/
def rowsOf (X : Vec F S64x512 .f32) (g : Fin 4) : Vec F S16x512 .f32 :=
  fun y => X (ValueIdx.ix2 ⟨16 * g.val + (y 0).val, by
    have := (y 0).isLt; have := g.isLt; have h16 : S16x512.size 0 = 16 := rfl; show _ < 64; omega⟩ (y 1))

/-- An array with its rows `16·g … 16·g + 15` replaced by a tile. -/
def putRows (Y : Vec F S64x512 .f32) (g : Fin 4) (w : Vec F S16x512 .f32) : Vec F S64x512 .f32 :=
  fun i => if (i 0).val / 16 = g.val then w (ValueIdx.ix2 ⟨(i 0).val % 16, Nat.mod_lt _ (by decide)⟩ (i 1)) else Y i

theorem putRows_of_eq (Y : Vec F S64x512 .f32) (g : Fin 4) (w : Vec F S16x512 .f32) (i : S64x512.Idx) (h : (i 0).val / 16 = g.val) :
    putRows Y g w i = w (ValueIdx.ix2 ⟨(i 0).val % 16, Nat.mod_lt _ (by decide)⟩ (i 1)) := by unfold putRows; rw [if_pos h]
theorem putRows_of_ne (Y : Vec F S64x512 .f32) (g : Fin 4) (w : Vec F S16x512 .f32) (i : S64x512.Idx) (h : (i 0).val / 16 ≠ g.val) :
    putRows Y g w i = Y i := by unfold putRows; rw [if_neg h]

/-- The rows of a device's copy of the input are its input tile. -/
theorem rowsOf_x (B : Blocks F) (c : Dev nD) (g : Fin 4) : rowsOf (B.x c) g = xTile B c g := rfl

/-- A load at a row tile's rectangle of the staged input reads the tile's rows. -/
theorem read_rows (g : Fin 4) (inb : ∀ a, (![16 * g.val, 0] : Fin 2 → Nat) a + S16x512.size a ≤ S64x512.size a) (X : Vec F S64x512 .f32) :
    (Memref.whole cc0_stg0_0 : Memref sig .tc .vmem S64x512 .f32).view.readAt (Elt F) (rowR g inb).toLoadRect X = rowsOf X g := by
  funext y
  show X ((rowR g inb).toLoadRect.idx y) = X _
  refine congrArg X (funext fun a => Fin.ext ?_)
  fin_cases a
  · show 16 * g.val + 1 * (y 0).val = 16 * g.val + (y 0).val
    rw [Nat.one_mul]
  · show 0 + 1 * (y 1).val = (y 1).val
    rw [Nat.one_mul, Nat.zero_add]

/-- A load of row tile `g` of the staged input: it reads the tile's rows. -/
theorem wp_load_x (g : Fin 4) (q : PosShare TreeShare) (X : Vec F S64x512 .f32)
    {inb : ∀ a, (![16 * g.val, 0] : Fin 2 → Nat) a + S16x512.size a ≤ S64x512.size a}
    {hl : (Memref.whole cc0_stg0_0 : Memref sig .tc .vmem S64x512 .f32).view.LoadsAt (rowR g inb).toLoadRect}
    {k : Vec F S16x512 .f32 → Prog (TpuEff nD τ sig (Elt F) Λ₀ .tc) α} :
    ((((c : Thread nD τ).loc cc0_stg0_0) ↦{q} X) : sProp 𝕄)
      ⊢ iprop((∀ v : Vec F S16x512 .f32, ⌜v = rowsOf X g⌝ -∗ (((c : Thread nD τ).loc cc0_stg0_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg0_0) (rowR g inb).toLoadRect hl) k) Q) := by
  iintro H Hk
  iapply (wp_load 𝒱₀ (c : Thread nD τ) none Set.univ (m := (Memref.whole cc0_stg0_0 : Memref sig .tc .vmem S64x512 .f32))
    (r := (rowR g inb).toLoadRect) (S := Finset.univ) (q := q) (f := X) (Finset.subset_univ _)) $$ H
  iintro H
  iapply Hk $$ %_ %(read_rows g inb X) H

/-- A load of row tile `g` of the staged result, whatever it reads. -/
theorem wp_load_out (g : Fin 4) (q : PosShare TreeShare) (Y : Vec F S64x512 .f32)
    {inb : ∀ a, (![16 * g.val, 0] : Fin 2 → Nat) a + S16x512.size a ≤ S64x512.size a}
    {hl : (Memref.whole cc0_stg7_0 : Memref sig .tc .vmem S64x512 .f32).view.LoadsAt (rowR g inb).toLoadRect}
    {k : Vec F S16x512 .f32 → Prog (TpuEff nD τ sig (Elt F) Λ₀ .tc) α} :
    ((((c : Thread nD τ).loc cc0_stg7_0) ↦{q} Y) : sProp 𝕄)
      ⊢ iprop((∀ v : Vec F S16x512 .f32, (((c : Thread nD τ).loc cc0_stg7_0) ↦{q} Y) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg7_0) (rowR g inb).toLoadRect hl) k) Q) := by
  iintro H Hk
  iapply (wp_load 𝒱₀ (c : Thread nD τ) none Set.univ (m := (Memref.whole cc0_stg7_0 : Memref sig .tc .vmem S64x512 .f32))
    (r := (rowR g inb).toLoadRect) (S := Finset.univ) (q := q) (f := Y) (Finset.subset_univ _)) $$ H
  iintro H
  iapply Hk $$ %_ H

/-- An element of a row tile's rectangle has its first coordinate in the tile. -/
theorem mem_rowR (g : Fin 4) (inb : ∀ a, (![16 * g.val, 0] : Fin 2 → Nat) a + S16x512.size a ≤ S64x512.size a) (i : S64x512.Idx) :
    i ∈ (rowR g inb).set ↔ (i 0).val / 16 = g.val := by
  rw [Rect.mem_set_unit]
  constructor
  · intro h; have := h 0; simp only [Matrix.cons_val_zero] at this
    have h16 : S16x512.size 0 = 16 := rfl
    omega
  · intro h a
    fin_cases a
    · simp only [Matrix.cons_val_zero]
      show 16 * g.val ≤ (i 0).val ∧ (i 0).val < 16 * g.val + 16
      omega
    · exact ⟨Nat.zero_le _, lt_of_lt_of_le (i 1).isLt (le_of_eq rfl)⟩

/-- A store at a row tile's rectangle of the staged result replaces the tile's rows. -/
theorem write_rows (g : Fin 4) (inb : ∀ a, (![16 * g.val, 0] : Fin 2 → Nat) a + S16x512.size a ≤ S64x512.size a)
    (Y : Vec F S64x512 .f32) (w : Vec F S16x512 .f32) :
    ((Memref.whole cc0_stg7_0 : Memref sig .tc .vmem S64x512 .f32).access (rowR g inb)).write (Elt F) Y w Finset.univ = putRows Y g w := by
  funext i
  by_cases hi : (i 0).val / 16 = g.val
  · have hx : ((Memref.whole cc0_stg7_0 : Memref sig .tc .vmem S64x512 .f32).access (rowR g inb)).emb
        (ValueIdx.ix2 ⟨(i 0).val % 16, Nat.mod_lt _ (by decide)⟩ (i 1)) = i := by
      funext a
      refine Fin.ext ?_
      fin_cases a
      · show 16 * g.val + 1 * ((i 0).val % 16) = (i 0).val
        omega
      · show 0 + 1 * (i 1).val = (i 1).val
        omega
    rw [putRows_of_eq Y g w i hi]
    conv_lhs => rw [← hx]
    rw [View.write_emb_of_mem _ _ (Finset.mem_univ _)]
    rfl
  · rw [putRows_of_ne Y g w i hi]
    refine View.write_of_not_mem _ _ _ (fun hm => hi ?_)
    rw [View.setOn_univ, View.set_slice] at hm
    obtain ⟨x, hx, rfl⟩ := Finset.mem_map.mp hm
    exact (mem_rowR g inb x).mp hx

/-- A store of a tile into rows `16·g … 16·g + 15` of the staged result. -/
theorem wp_store_out (g : Fin 4) (Y : Vec F S64x512 .f32) (w : Vec F S16x512 .f32)
    {inb : ∀ a, (![16 * g.val, 0] : Fin 2 → Nat) a + S16x512.size a ≤ S64x512.size a}
    {hx : ((Memref.whole cc0_stg7_0 : Memref sig .tc .vmem S64x512 .f32).access (rowR g inb)).Stores Finset.univ}
    {hm : (Finset.univ : Finset (rowR g inb).shape.Idx) = Finset.univ ∨ ∀ a, (rowR g inb).stride a = 1}
    {k : PUnit → Prog (TpuEff nD τ sig (Elt F) Λ₀ .tc) α} :
    ((((c : Thread nD τ).loc cc0_stg7_0) ↦{fullShare} Y) : sProp 𝕄)
      ⊢ iprop(((((c : Thread nD τ).loc cc0_stg7_0) ↦{fullShare} putRows Y g w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg7_0) (rowR g inb) w Finset.univ hx hm) k) Q) := by
  iintro H Hk
  iapply (wp_store 𝒱₀ (c : Thread nD τ) none Set.univ (m := (Memref.whole cc0_stg7_0 : Memref sig .tc .vmem S64x512 .f32))
    (r := rowR g inb) (w := w) (Mk := Finset.univ) (S := Finset.univ) (f := Y) (Finset.subset_univ _)) $$ H
  iintro H
  iapply Hk
  rw [write_rows g inb Y w]
  iexact H

/-- After the four stores of the third layer's output tiles the staged result is the result array. -/
theorem putRows_result (B : Blocks F) (Y : Vec F S64x512 .f32) :
    putRows (putRows (putRows (putRows Y 0 (x3 B c 0)) 1 (x3 B c 1)) 2 (x3 B c 2)) 3 (x3 B c 3) = result B c := by
  funext i
  have h64 : (i 0).val < 64 := (i 0).isLt
  have hres : ∀ g : Fin 4, (i 0).val / 16 = g.val →
      result B c i = x3 B c g (ValueIdx.ix2 ⟨(i 0).val % 16, Nat.mod_lt _ (by decide)⟩ (i 1)) := fun g hg => by
    have e : (⟨(i 0).val / 16, by omega⟩ : Fin 4) = g := Fin.ext hg
    show x3 B c ⟨(i 0).val / 16, _⟩ _ = _
    rw [e]
  have h4 : (i 0).val / 16 = 0 ∨ (i 0).val / 16 = 1 ∨ (i 0).val / 16 = 2 ∨ (i 0).val / 16 = 3 := by omega
  rcases h4 with h | h | h | h
  · rw [putRows_of_ne _ 3 _ i (by rw [h]; decide), putRows_of_ne _ 2 _ i (by rw [h]; decide), putRows_of_ne _ 1 _ i (by rw [h]; decide),
      putRows_of_eq _ 0 _ i h, hres 0 h]
  · rw [putRows_of_ne _ 3 _ i (by rw [h]; decide), putRows_of_ne _ 2 _ i (by rw [h]; decide), putRows_of_eq _ 1 _ i h, hres 1 h]
  · rw [putRows_of_ne _ 3 _ i (by rw [h]; decide), putRows_of_eq _ 2 _ i h, hres 2 h]
  · rw [putRows_of_eq _ 3 _ i h, hres 3 h]

/-! ## The weight windows, loaded whole -/

/-- A load of the whole staged window 1: it reads the window's contents. -/
theorem wp_load_w1 (q : PosShare TreeShare) (X : Vec F S512x1024 .f32) {inb : ∀ a, (![0, 0] : Fin 2 → Nat) a + S512x1024.size a ≤ S512x1024.size a}
    {hl : (Memref.whole cc0_stg1_0 : Memref sig .tc .vmem S512x1024 .f32).view.LoadsAt (Rect.unit (s := S512x1024) ![0, 0] S512x1024.size inb).toLoadRect}
    {k : Vec F S512x1024 .f32 → Prog (TpuEff nD τ sig (Elt F) Λ₀ .tc) α} :
    ((((c : Thread nD τ).loc cc0_stg1_0) ↦{q} X) : sProp 𝕄)
      ⊢ iprop((∀ v : Vec F S512x1024 .f32, ⌜v = X⌝ -∗ (((c : Thread nD τ).loc cc0_stg1_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg1_0) (Rect.unit (s := S512x1024) ![0, 0] S512x1024.size inb).toLoadRect hl) k) Q) := by
  iintro H Hk
  iapply (wp_load 𝒱₀ (c : Thread nD τ) none Set.univ (m := (Memref.whole cc0_stg1_0 : Memref sig .tc .vmem S512x1024 .f32))
    (r := (Rect.unit (s := S512x1024) ![0, 0] S512x1024.size inb).toLoadRect) (S := Finset.univ) (q := q) (f := X) (Finset.subset_univ _)) $$ H
  iintro H
  have hv : (Memref.whole cc0_stg1_0 : Memref sig .tc .vmem S512x1024 .f32).view.readAt (Elt F) (Rect.unit (s := S512x1024) ![0, 0] S512x1024.size inb).toLoadRect X = X :=
    Memref.readAt_unit_zero (Elt F) cc0_stg1_0 (funext fun a => by fin_cases a <;> rfl) inb X
  iapply Hk $$ %_ %hv H

/-- A load of the whole staged window 2: it reads the window's contents. -/
theorem wp_load_w2 (q : PosShare TreeShare) (X : Vec F S1024x512 .f32) {inb : ∀ a, (![0, 0] : Fin 2 → Nat) a + S1024x512.size a ≤ S1024x512.size a}
    {hl : (Memref.whole cc0_stg2_0 : Memref sig .tc .vmem S1024x512 .f32).view.LoadsAt (Rect.unit (s := S1024x512) ![0, 0] S1024x512.size inb).toLoadRect}
    {k : Vec F S1024x512 .f32 → Prog (TpuEff nD τ sig (Elt F) Λ₀ .tc) α} :
    ((((c : Thread nD τ).loc cc0_stg2_0) ↦{q} X) : sProp 𝕄)
      ⊢ iprop((∀ v : Vec F S1024x512 .f32, ⌜v = X⌝ -∗ (((c : Thread nD τ).loc cc0_stg2_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg2_0) (Rect.unit (s := S1024x512) ![0, 0] S1024x512.size inb).toLoadRect hl) k) Q) := by
  iintro H Hk
  iapply (wp_load 𝒱₀ (c : Thread nD τ) none Set.univ (m := (Memref.whole cc0_stg2_0 : Memref sig .tc .vmem S1024x512 .f32))
    (r := (Rect.unit (s := S1024x512) ![0, 0] S1024x512.size inb).toLoadRect) (S := Finset.univ) (q := q) (f := X) (Finset.subset_univ _)) $$ H
  iintro H
  have hv : (Memref.whole cc0_stg2_0 : Memref sig .tc .vmem S1024x512 .f32).view.readAt (Elt F) (Rect.unit (s := S1024x512) ![0, 0] S1024x512.size inb).toLoadRect X = X :=
    Memref.readAt_unit_zero (Elt F) cc0_stg2_0 (funext fun a => by fin_cases a <;> rfl) inb X
  iapply Hk $$ %_ %hv H

/-- A load of the whole staged window 3: it reads the window's contents. -/
theorem wp_load_w3 (q : PosShare TreeShare) (X : Vec F S512x1024 .f32) {inb : ∀ a, (![0, 0] : Fin 2 → Nat) a + S512x1024.size a ≤ S512x1024.size a}
    {hl : (Memref.whole cc0_stg3_0 : Memref sig .tc .vmem S512x1024 .f32).view.LoadsAt (Rect.unit (s := S512x1024) ![0, 0] S512x1024.size inb).toLoadRect}
    {k : Vec F S512x1024 .f32 → Prog (TpuEff nD τ sig (Elt F) Λ₀ .tc) α} :
    ((((c : Thread nD τ).loc cc0_stg3_0) ↦{q} X) : sProp 𝕄)
      ⊢ iprop((∀ v : Vec F S512x1024 .f32, ⌜v = X⌝ -∗ (((c : Thread nD τ).loc cc0_stg3_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg3_0) (Rect.unit (s := S512x1024) ![0, 0] S512x1024.size inb).toLoadRect hl) k) Q) := by
  iintro H Hk
  iapply (wp_load 𝒱₀ (c : Thread nD τ) none Set.univ (m := (Memref.whole cc0_stg3_0 : Memref sig .tc .vmem S512x1024 .f32))
    (r := (Rect.unit (s := S512x1024) ![0, 0] S512x1024.size inb).toLoadRect) (S := Finset.univ) (q := q) (f := X) (Finset.subset_univ _)) $$ H
  iintro H
  have hv : (Memref.whole cc0_stg3_0 : Memref sig .tc .vmem S512x1024 .f32).view.readAt (Elt F) (Rect.unit (s := S512x1024) ![0, 0] S512x1024.size inb).toLoadRect X = X :=
    Memref.readAt_unit_zero (Elt F) cc0_stg3_0 (funext fun a => by fin_cases a <;> rfl) inb X
  iapply Hk $$ %_ %hv H

/-- A load of the whole staged window 4: it reads the window's contents. -/
theorem wp_load_w4 (q : PosShare TreeShare) (X : Vec F S1024x512 .f32) {inb : ∀ a, (![0, 0] : Fin 2 → Nat) a + S1024x512.size a ≤ S1024x512.size a}
    {hl : (Memref.whole cc0_stg4_0 : Memref sig .tc .vmem S1024x512 .f32).view.LoadsAt (Rect.unit (s := S1024x512) ![0, 0] S1024x512.size inb).toLoadRect}
    {k : Vec F S1024x512 .f32 → Prog (TpuEff nD τ sig (Elt F) Λ₀ .tc) α} :
    ((((c : Thread nD τ).loc cc0_stg4_0) ↦{q} X) : sProp 𝕄)
      ⊢ iprop((∀ v : Vec F S1024x512 .f32, ⌜v = X⌝ -∗ (((c : Thread nD τ).loc cc0_stg4_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg4_0) (Rect.unit (s := S1024x512) ![0, 0] S1024x512.size inb).toLoadRect hl) k) Q) := by
  iintro H Hk
  iapply (wp_load 𝒱₀ (c : Thread nD τ) none Set.univ (m := (Memref.whole cc0_stg4_0 : Memref sig .tc .vmem S1024x512 .f32))
    (r := (Rect.unit (s := S1024x512) ![0, 0] S1024x512.size inb).toLoadRect) (S := Finset.univ) (q := q) (f := X) (Finset.subset_univ _)) $$ H
  iintro H
  have hv : (Memref.whole cc0_stg4_0 : Memref sig .tc .vmem S1024x512 .f32).view.readAt (Elt F) (Rect.unit (s := S1024x512) ![0, 0] S1024x512.size inb).toLoadRect X = X :=
    Memref.readAt_unit_zero (Elt F) cc0_stg4_0 (funext fun a => by fin_cases a <;> rfl) inb X
  iapply Hk $$ %_ %hv H

/-- A load of the whole staged window 5: it reads the window's contents. -/
theorem wp_load_w5 (q : PosShare TreeShare) (X : Vec F S512x1024 .f32) {inb : ∀ a, (![0, 0] : Fin 2 → Nat) a + S512x1024.size a ≤ S512x1024.size a}
    {hl : (Memref.whole cc0_stg5_0 : Memref sig .tc .vmem S512x1024 .f32).view.LoadsAt (Rect.unit (s := S512x1024) ![0, 0] S512x1024.size inb).toLoadRect}
    {k : Vec F S512x1024 .f32 → Prog (TpuEff nD τ sig (Elt F) Λ₀ .tc) α} :
    ((((c : Thread nD τ).loc cc0_stg5_0) ↦{q} X) : sProp 𝕄)
      ⊢ iprop((∀ v : Vec F S512x1024 .f32, ⌜v = X⌝ -∗ (((c : Thread nD τ).loc cc0_stg5_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg5_0) (Rect.unit (s := S512x1024) ![0, 0] S512x1024.size inb).toLoadRect hl) k) Q) := by
  iintro H Hk
  iapply (wp_load 𝒱₀ (c : Thread nD τ) none Set.univ (m := (Memref.whole cc0_stg5_0 : Memref sig .tc .vmem S512x1024 .f32))
    (r := (Rect.unit (s := S512x1024) ![0, 0] S512x1024.size inb).toLoadRect) (S := Finset.univ) (q := q) (f := X) (Finset.subset_univ _)) $$ H
  iintro H
  have hv : (Memref.whole cc0_stg5_0 : Memref sig .tc .vmem S512x1024 .f32).view.readAt (Elt F) (Rect.unit (s := S512x1024) ![0, 0] S512x1024.size inb).toLoadRect X = X :=
    Memref.readAt_unit_zero (Elt F) cc0_stg5_0 (funext fun a => by fin_cases a <;> rfl) inb X
  iapply Hk $$ %_ %hv H

/-- A load of the whole staged window 6: it reads the window's contents. -/
theorem wp_load_w6 (q : PosShare TreeShare) (X : Vec F S1024x512 .f32) {inb : ∀ a, (![0, 0] : Fin 2 → Nat) a + S1024x512.size a ≤ S1024x512.size a}
    {hl : (Memref.whole cc0_stg6_0 : Memref sig .tc .vmem S1024x512 .f32).view.LoadsAt (Rect.unit (s := S1024x512) ![0, 0] S1024x512.size inb).toLoadRect}
    {k : Vec F S1024x512 .f32 → Prog (TpuEff nD τ sig (Elt F) Λ₀ .tc) α} :
    ((((c : Thread nD τ).loc cc0_stg6_0) ↦{q} X) : sProp 𝕄)
      ⊢ iprop((∀ v : Vec F S1024x512 .f32, ⌜v = X⌝ -∗ (((c : Thread nD τ).loc cc0_stg6_0) ↦{q} X) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_stg6_0) (Rect.unit (s := S1024x512) ![0, 0] S1024x512.size inb).toLoadRect hl) k) Q) := by
  iintro H Hk
  iapply (wp_load 𝒱₀ (c : Thread nD τ) none Set.univ (m := (Memref.whole cc0_stg6_0 : Memref sig .tc .vmem S1024x512 .f32))
    (r := (Rect.unit (s := S1024x512) ![0, 0] S1024x512.size inb).toLoadRect) (S := Finset.univ) (q := q) (f := X) (Finset.subset_univ _)) $$ H
  iintro H
  have hv : (Memref.whole cc0_stg6_0 : Memref sig .tc .vmem S1024x512 .f32).view.readAt (Elt F) (Rect.unit (s := S1024x512) ![0, 0] S1024x512.size inb).toLoadRect X = X :=
    Memref.readAt_unit_zero (Elt F) cc0_stg6_0 (funext fun a => by fin_cases a <;> rfl) inb X
  iapply Hk $$ %_ %hv H

/-! ## Shape casts of a loaded vector -/

/-- A cast to the vector's own shape is the vector. -/
theorem cast_id_16x512 (v : FVec F S16x512 .f32) : shapeCast S16x512 v shapeCasts_S16x512_S16x512 = v := shapeCast_self v _
theorem cast_id_512x1024 (v : FVec F S512x1024 .f32) : shapeCast S512x1024 v shapeCasts_S512x1024_S512x1024 = v := shapeCast_self v _
theorem cast_id_1024x512 (v : FVec F S1024x512 .f32) : shapeCast S1024x512 v shapeCasts_S1024x512_S1024x512 = v := shapeCast_self v _

end Rules

end Cert.Kernel.Hand

end
-- ==== Proof.Bits.ExitAll.lean ====
/-
  Leaving the one grid point. A device that holds its four accumulator tiles and its seventy-two landing slots, each at
  some contents, and has consumed every one of its copy cells to the end of its round, closes those cells and takes
  their counters out at zero: with the two scratch buffers whole again, that is what the point hands back.
-/
import proofs.«900461_g7700000000000462_dist_mlpseq_tp1d_rep_rep_b64_d512_h1024_v7x_i16_f32_1_alg».proof.Proof.Bits.Inv
import proofs.«900461_g7700000000000462_dist_mlpseq_tp1d_rep_rep_b64_d512_h1024_v7x_i16_f32_1_alg».proof.Proof.Bits.Exit
import proofs.«900461_g7700000000000462_dist_mlpseq_tp1d_rep_rep_b64_d512_h1024_v7x_i16_f32_1_alg».proof.Proof.Bits.Local

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Blocks F)

omit [FloatOps F] in
theorem tile_some (c : Dev nD) (g : Fin 4) (V : FVec F S16x512 .f32) : (accAt c g fullShare V : sProp 𝕄) ⊢ iprop(∃ V, accAt c g fullShare V) := by
  iintro H; iexists V; iexact H
omit [FloatOps F] in
theorem slot_some (c : Dev nD) (s : Fin 72) (V : FVec F S16x512 .f32) : (slotAt c s V : sProp 𝕄) ⊢ iprop(∃ V, slotAt c s V) := by
  iintro H; iexists V; iexact H

omit [FloatOps F] in
theorem tiles_some (c : Dev nD) (Vg : Fin 4 → FVec F S16x512 .f32) :
    (bigSep Finset.univ fun g : Fin 4 => accAt c g fullShare (Vg g) : sProp 𝕄) ⊢ bigSep Finset.univ fun g : Fin 4 => iprop(∃ V, accAt c g fullShare V) :=
  bigSep_mono fun g _ => tile_some c g (Vg g)
omit [FloatOps F] in
theorem slots_some (c : Dev nD) (Vs : Fin 72 → FVec F S16x512 .f32) :
    (bigSep Finset.univ fun s : Fin 72 => slotAt c s (Vs s) : sProp 𝕄) ⊢ bigSep Finset.univ fun s : Fin 72 => iprop(∃ V, slotAt c s V) :=
  bigSep_mono fun s _ => slot_some c s (Vs s)

/-- The tiles and the slots at some contents, the copy cells consumed: what the point hands back. -/
theorem phi1_intro_some (KS KR : Dev nD → Fin 72 → ℕ) (c : Dev nD) :
    iprop((bigSep Finset.univ fun g : Fin 4 => iprop(∃ V, accAt c g fullShare V))
        ∗ (bigSep Finset.univ fun s : Fin 72 => iprop(∃ V, slotAt c s V))
        ∗ (bigSep Finset.univ fun s : Fin 72 => cellInv ER (exRd B) (KS c s) (sendCell c s))
        ∗ (bigSep Finset.univ fun s : Fin 72 => atPos ER (sendCell c s) 1 ∅ 0)
        ∗ (bigSep Finset.univ fun s : Fin 72 => cellInv ER (exRd B) (KR c s) (recvCell c s))
        ∗ (bigSep Finset.univ fun s : Fin 72 => atPos ER (recvCell c s) 1 ∅ 0))
      ⊢ (|={Set.univ}=> Φ₁ (F := F) c : sProp 𝕄) := by
  iintro ⟨Ha, Hs, HIS, HPS, HIR, HPR⟩
  imod (close_send B KS c) $$ [HIS HPS] with HzS
  · isplitl [HIS] <;> iassumption
  imod (close_recv B KR c) $$ [HIR HPR] with HzR
  · isplitl [HIR] <;> iassumption
  imodintro
  unfold Φ₁ scratch
  isplitl [Ha Hs]
  · isplitl [Ha]
    · iapply (acc_join c); iexact Ha
    · iapply (slots_join c); iexact Hs
  isplitl [HzS] <;> iassumption

/-- The same from the tiles and the slots at named contents. -/
theorem phi1_intro (KS KR : Dev nD → Fin 72 → ℕ) (c : Dev nD) (Vg : Fin 4 → FVec F S16x512 .f32) (Vs : Fin 72 → FVec F S16x512 .f32) :
    iprop((bigSep Finset.univ fun g : Fin 4 => accAt c g fullShare (Vg g))
        ∗ (bigSep Finset.univ fun s : Fin 72 => slotAt c s (Vs s))
        ∗ (bigSep Finset.univ fun s : Fin 72 => cellInv ER (exRd B) (KS c s) (sendCell c s))
        ∗ (bigSep Finset.univ fun s : Fin 72 => atPos ER (sendCell c s) 1 ∅ 0)
        ∗ (bigSep Finset.univ fun s : Fin 72 => cellInv ER (exRd B) (KR c s) (recvCell c s))
        ∗ (bigSep Finset.univ fun s : Fin 72 => atPos ER (recvCell c s) 1 ∅ 0))
      ⊢ (|={Set.univ}=> Φ₁ (F := F) c : sProp 𝕄) := by
  iintro ⟨Ha, Hs, Hrest⟩
  iapply (phi1_intro_some B KS KR c)
  isplitl [Ha]; · iapply (tiles_some c Vg); iexact Ha
  isplitl [Hs]; · iapply (slots_some c Vs); iexact Hs
  iexact Hrest

end Cert.Kernel.Hand

end
-- ==== Proof.Bits.Steps3.lean ====
/-
  The copy's and the waits' rules in the form the body's chain uses: the families of cell invariants and of reached rounds
  are taken whole, and every premise is handed over one after the other.
-/
import proofs.«900461_g7700000000000462_dist_mlpseq_tp1d_rep_rep_b64_d512_h1024_v7x_i16_f32_1_alg».proof.Proof.Bits.Steps2
import proofs.«900461_g7700000000000462_dist_mlpseq_tp1d_rep_rep_b64_d512_h1024_v7x_i16_f32_1_alg».proof.Proof.Bits.Glue
import proofs.«900461_g7700000000000462_dist_mlpseq_tp1d_rep_rep_b64_d512_h1024_v7x_i16_f32_1_alg».proof.Proof.Bits.Local

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

variable {α : Type} {Q : α → sProp (MT nD τ sig Unit (Elt F) ℕ UU ℕ)} (c : Dev nD) (KS KR : Dev nD → Fin 72 → ℕ)

theorem famS_at (s : Fin 72) : (bigSep Finset.univ fun s : Fin 72 => (cellInv ER (exRd B) (KS c s) (sendCell c s) : sProp 𝕄)) ⊢ cellInv ER (exRd B) (KS c s) (sendCell c s) :=
  bigSep_elim (Finset.mem_univ s)
theorem famR_at (s : Fin 72) : (bigSep Finset.univ fun s : Fin 72 => (cellInv ER (exRd B) (KR c s) (recvCell c s) : sProp 𝕄)) ⊢ cellInv ER (exRd B) (KR c s) (recvCell c s) :=
  bigSep_elim (Finset.mem_univ s)
theorem famRD_at (s : Fin 72) : (bigSep Finset.univ fun s : Fin 72 => (cellInv ER (exRd B) (KR (dest c s) s) (recvCell (dest c s) s) : sProp 𝕄)) ⊢ cellInv ER (exRd B) (KR (dest c s) s) (recvCell (dest c s) s) :=
  bigSep_elim (Finset.mem_univ s)
omit [FloatOps F] in
theorem famrR_at (s : Fin 72) : (bigSep Finset.univ fun s : Fin 72 => (reached ER (recvCell (dest c s) s) 0 : sProp 𝕄)) ⊢ reached ER (recvCell (dest c s) s) 0 :=
  bigSep_elim (Finset.mem_univ s)
omit [FloatOps F] in
theorem famrS_at (s : Fin 72) : (bigSep Finset.univ fun s : Fin 72 => (reached ER (sendCell c s) 0 : sProp 𝕄)) ⊢ reached ER (sendCell c s) 0 :=
  bigSep_elim (Finset.mem_univ s)

/-- A copy, premise by premise. -/
theorem wp_copyC (s : Fin 72) (l : Fin 3) (rnd : Fin 2) (g : Fin 4) (ps : Fin 3)
    (hl : lOf s = l) (hr : rndOf s = rnd) (hg : gOf s = g) (hp : psOf s = ps) (n : Dev nD) (hn : n = dest c s)
    {hsc : (slotM s : Memref sig (Dev.tc n : Thread nD τ).2.kind .vmem S16x512 .f32).view.ref.isScScratch = false}
    {hsrc : (accM g).view.WordExact} {hdst : (slotM s).view.WordExact}
    {hsem : DmaTarget.Typed .vmem (.dma (recvS s)) (.remote (Dev.tc n : Thread nD τ) (slotM s) (.dma (sendS s)) hsc)}
    {k : PUnit → Prog (TpuEff nD τ sig (Elt F) Λ₀ .tc) α}
    {O₁ : CellTallies nD τ sig Unit} (O : CellTallies nD τ sig Unit) (hO : O₁ = O + tallyAt (recvCell (dest c s) s) () Ncp) {W : Waits sig Unit} :
    (bigSep Finset.univ fun s : Fin 72 => (cellInv ER (exRd B) (KS c s) (sendCell c s) : sProp 𝕄))
      ⊢ iprop((bigSep Finset.univ fun s : Fin 72 => cellInv ER (exRd B) (KR (dest c s) s) (recvCell (dest c s) s))
          -∗ accAt c g (shareOf ps) (sentV B l rnd c g) -∗ (∃ fd, slotPts (F := F) (dest c s) s fd)
          -∗ owes (c : Thread nD τ) O₁ W
          -∗ dutyTok ER (sendCell c s) 0 (0 : Fin 6) -∗ (bigSep Finset.univ fun s : Fin 72 => reached ER (sendCell c s) 0)
          -∗ dutyTok ER (recvCell (dest c s) s) 0 (0 : Fin 6) -∗ (bigSep Finset.univ fun s : Fin 72 => reached ER (recvCell (dest c s) s) 0)
          -∗ ((cred (tallyAt (sendCell c s) () Ncp) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM g) (.remote (Dev.tc n : Thread nD τ) (slotM s) (.dma (sendS s)) hsc) (.dma (recvS s)) hsrc hdst hsem) k) Q) := by
  iintro #HIS #HIRD Hq Hd HO HtS #HrS HtR #HrR Hk
  iapply (wp_copyAt B c s l rnd g ps hl hr hg hp n hn (κ₁ := KS c s) (κ₂ := KR (dest c s) s) O hO) $$ [Hq Hd HO HtS HtR]
  · isplitr; · iapply (famS_at B c KS s); iexact HIS
    isplitr; · iapply (famRD_at B c KR s); iexact HIRD
    isplitl [Hq]; · iexact Hq
    isplitl [Hd]; · iexact Hd
    isplitl [HO]; · iexact HO
    isplitl [HtS]; · iexact HtS
    isplitr; · iapply (famrS_at (F := F) c s); iexact HrS
    isplitl [HtR]; · iexact HtR
    iapply (famrR_at (F := F) c s); iexact HrR
  iexact Hk

/-- The departure wait, premise by premise. -/
theorem wp_sendwaitC (s : Fin 72) (l : Fin 3) (rnd : Fin 2) (g : Fin 4) (ps : Fin 3)
    (hl : lOf s = l) (hr : rndOf s = rnd) (hg : gOf s = g) (hp : psOf s = ps) (n : ℕ)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {W : Waits sig Unit} :
    (bigSep Finset.univ fun s : Fin 72 => (cellInv ER (exRd B) (KS c s) (sendCell c s) : sProp 𝕄))
      ⊢ iprop(cred (tallyAt (sendCell c s) () Ncp) -∗ owes (c : Thread nD τ) (owedRev c n) W -∗ levAts L lv -∗ atPos ER (sendCell c s) 0 ∅ 0
          -∗ ((owes (c : Thread nD τ) (owedRev c n) (insert (SemLoc.dma (sendS s), ()) W) ∗ atPos ER (sendCell c s) 1 ∅ 0
              ∗ accAt c g (shareOf ps) (sentV B l rnd c g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) src dst hsrc hdst) k) Q) := by
  iintro #HIS Hc HO #Hlev Hat Hk
  iapply (wp_sendwaitAt B c s l rnd g ps hl hr hg hp hd (κ := KS c s) (O := owedRev c n)) $$ [Hc HO Hat]
  · isplitr; · iapply (famS_at B c KS s); iexact HIS
    isplitl [Hc]; · iexact Hc
    isplitl [HO]; · iexact HO
    isplitr; · iapply (mayWait_low (F := F) c (.dma (sendS s)) (lv_send c s ()) n); iexact Hlev
    iexact Hat
  iintro ⟨HO, Hat, -, Hsh⟩
  iapply Hk
  isplitl [HO]; · iexact HO
  isplitl [Hat]; · iexact Hat
  iexact Hsh

/-- The arrival wait, premise by premise: allowed once the slot's issue group has been issued. -/
theorem wp_recvwaitC (s : Fin 72) (l : Fin 3) (rnd : Fin 2) (g : Fin 4) (j : Fin 6)
    (hl : lOf s = l) (hr : rndOf s = rnd) (hg : gOf s = g) (hj : recvFrom (rndOf s) (psOf s) = j)
    (n : ℕ) (hn : n ≤ 72) (hK : s.val / 3 < (72 - n) / 3)
    {sp' : Space} {s' : Shape} {e' : EltTy} {src : Memref sig .tc sp' s' e'} {κ' : Idealize.ShloMosaic.Kind}
    {dst : Memref sig κ' .vmem S16x512 .f32} (hd : dst.view.dmaCredit = Ncp) {hsrc : src.view.WordExact} {hdst : dst.view.WordExact}
    {k : PUnit → Prog (TpuEff nD τ sig (Elt F) Λ₀ .tc) α} {W : Waits sig Unit} :
    (bigSep Finset.univ fun s : Fin 72 => (cellInv ER (exRd B) (KR c s) (recvCell c s) : sProp 𝕄))
      ⊢ iprop(cred (tallyAt (recvCell c s) () Ncp) -∗ owes (c : Thread nD τ) (owedRev c n) W -∗ levAts L lv -∗ atPos ER (recvCell c s) 0 ∅ 0
          -∗ ((owes (c : Thread nD τ) (owedRev c n) (insert (SemLoc.dma (recvS s), ()) W) ∗ atPos ER (recvCell c s) 1 ∅ 0
              ∗ slotAt c s (sentV B l rnd (peer j c) g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src dst hsrc hdst) k) Q) := by
  iintro #HIR Hc HO #Hlev Hat Hk
  iapply (wp_recvwaitAt B c s l rnd g j hl hr hg hj hd (κ := KR c s) (O := owedRev c n)) $$ [Hc HO Hat]
  · isplitr; · iapply (famR_at B c KR s); iexact HIR
    isplitl [Hc]; · iexact Hc
    isplitl [HO]; · iexact HO
    isplitr; · iapply (mayWait_recv' (F := F) c s n hn hK); iexact Hlev
    iexact Hat
  iintro ⟨HO, Hat, -, Hsl⟩
  iapply Hk
  isplitl [HO]; · iexact HO
  isplitl [Hat]; · iexact Hat
  iexact Hsl

/-- The three shares of a tile back together. -/
theorem acc_join3 (g : Fin 4) (V : FVec F S16x512 .f32) :
    (accAt c g (shareOf 0) V : sProp 𝕄) ⊢ iprop(accAt c g (shareOf 1) V -∗ accAt c g (shareOf 2) V -∗ accAt c g fullShare V) := by
  iintro H0 H1 H2
  iapply (acc_shares (F := F) c g V).2
  isplitl [H0]; · iexact H0
  isplitl [H1]; · iexact H1
  iexact H2

end Cert.Kernel.Hand

end
-- ==== Proof.Bits.Body.lean ====
/-
  One device's body, stepped statement by statement from the exchange's ghost state.
-/
import proofs.«900461_g7700000000000462_dist_mlpseq_tp1d_rep_rep_b64_d512_h1024_v7x_i16_f32_1_alg».proof.Proof.Bits.Inv
import proofs.«900461_g7700000000000462_dist_mlpseq_tp1d_rep_rep_b64_d512_h1024_v7x_i16_f32_1_alg».proof.Proof.Bits.Slots
import proofs.«900461_g7700000000000462_dist_mlpseq_tp1d_rep_rep_b64_d512_h1024_v7x_i16_f32_1_alg».proof.Proof.Bits.Elems
import proofs.«900461_g7700000000000462_dist_mlpseq_tp1d_rep_rep_b64_d512_h1024_v7x_i16_f32_1_alg».proof.Proof.Bits.Steps2
import proofs.«900461_g7700000000000462_dist_mlpseq_tp1d_rep_rep_b64_d512_h1024_v7x_i16_f32_1_alg».proof.Proof.Bits.Exit
import proofs.«900461_g7700000000000462_dist_mlpseq_tp1d_rep_rep_b64_d512_h1024_v7x_i16_f32_1_alg».proof.Proof.Bits.Glue
import proofs.«900461_g7700000000000462_dist_mlpseq_tp1d_rep_rep_b64_d512_h1024_v7x_i16_f32_1_alg».proof.Proof.Bits.Local
import proofs.«900461_g7700000000000462_dist_mlpseq_tp1d_rep_rep_b64_d512_h1024_v7x_i16_f32_1_alg».proof.Proof.Bits.ExitAll
import proofs.«900461_g7700000000000462_dist_mlpseq_tp1d_rep_rep_b64_d512_h1024_v7x_i16_f32_1_alg».proof.Proof.Bits.Steps3

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "Bm" => blocksOf m

set_option allowUnsafeReducibility true in
attribute [local reducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 mlp sum4

theorem owesAt_intro (c : Dev nD) (W' : Waits sig Unit) :
    (owes (c : Thread nD τ) (0 : CellTallies nD τ sig Unit) W' : sProp 𝕄) ⊢ (dats m ρ 0 c).owesAt () t₀.succ := by
  unfold Dat.owesAt Pipeline.owesWithin
  rw [show (dats m ρ 0 c).owed t₀.succ = 0 from rfl]
  iintro H
  iexists W'
  isplitr; · ipureintro; exact fun _ _ => Or.inl trivial
  iexact H

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem out_congr (c : Dev nD) {Y Y' : Vec F S64x512 .f32} (h : Y = Y') :
    ((((c : Thread nD τ).loc cc0_stg7_0) ↦{fullShare} Y) : sProp 𝕄) ⊢ (((c : Thread nD τ).loc cc0_stg7_0) ↦{fullShare} Y') := by
  subst h; exact .rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD → ℕ) (KS KR : Dev nD → Fin 72 → ℕ) (c : Dev nD) : sProp 𝕄 :=
  iprop((ghost m K KS KR c ∗ cred (tallyAt (barCell c) () 6)
      ∗ (bigSep Finset.univ fun s : Fin 72 => cred (tallyAt (recvCell c s) () Ncp)) ∗ levAts L lv ∗ scratch c)
    ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

def bodyPost (c : Dev nD) : sProp 𝕄 :=
  iprop(Φ₁ c ∗ (dats m ρ 0 c).owesAt () t₀.succ
    ∗ stg c cc0_stg0_0 ((Bm).x c) ∗ stg c cc0_stg1_0 ((Bm).wi 0 c) ∗ stg c cc0_stg2_0 ((Bm).wo 0 c)
    ∗ stg c cc0_stg3_0 ((Bm).wi 1 c) ∗ stg c cc0_stg4_0 ((Bm).wo 1 c) ∗ stg c cc0_stg5_0 ((Bm).wi 2 c)
    ∗ stg c cc0_stg6_0 ((Bm).wo 2 c) ∗ stg c cc0_stg7_0 (outAt m c))

set_option maxHeartbeats 0 in
/-- The body from its ghost state. -/
theorem sound_body (K : Dev nD → ℕ) (KS KR : Dev nD → Fin 72 → ℕ) (c : Dev nD) (Kt : PUnit → sProp 𝕄) :
    iprop(bodyPre m ρ K KS KR c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part87_eq_skeleton]; unfold k0_part87_skel
  simp only [k0_part1_eq_skeleton]; unfold k0_part1_skel
  simp only [semSignalWord, semWaitWord, Prog.lift, Prog.bind_op, Prog.bind_ret, Prog.pure_eq_ret, wp_deviceId]
  unfold bodyPre ghost invs reachedAll positions payToks
  iintro ⟨⟨⟨⟨⟨#HIbar, #HIS, #HIR, #HIBN, #HIRD⟩, ⟨#HrB, #HrR, #HrS⟩, ⟨HatB, HatS, HatR⟩, ⟨HtB, HtR, HtS⟩⟩, HcB, HcR, #Hlev, Hscr⟩,
    Ho, Hx0, Hx1, Hx2, Hx3, Hx4, Hx5, Hx6, Hx7⟩, Hk⟩
  unfold Dat.owesAt Pipeline.owesWithin scratch
  icases Ho with ⟨%W, %hW, HO⟩
  icases Hscr with ⟨Hacc, Hrcv⟩
  rw [show (dats m ρ 0 c).owed t₀.castSucc = O₀ c from rfl]
  simp only [dev1_eq c, dev2_eq c, dev3_eq c]
  -- the landing buffer, split into what each neighbour gets
  ihave Hgive := (slots_split (F := F) c) $$ Hrcv
  ihave Hgive := (Entails.of_eq (bigSep_fin6 _)) $$ Hgive
  icases Hgive with ⟨Hg0, Hg1, Hg2, Hg3, Hg4, Hg5⟩
  ihave HtB := (Entails.of_eq (bigSep_fin6 _)) $$ HtB
  icases HtB with ⟨Ht0, Ht1, Ht2, Ht3, Ht4, Ht5⟩
  -- the six signals
  iapply (wp_barsig (Bm) c 0 (peer 0 c) rfl (k' := (1#32).toNat) (by decide) (O := owedRev c 77) rfl) $$ [HO Ht0 Hg0]
  · isplitr; · iapply (invBN_at m K c 0); iexact HIBN
    isplitl [HO]; · iexact HO
    isplitl [Ht0]; · iexact Ht0
    isplitl [Hg0]; · iexact Hg0
    iapply (rB_at (F := F) c 0); iexact HrB
  iintro HO
  iapply (wp_barsig (Bm) c 1 (peer 1 c) rfl (k' := (1#32).toNat) (by decide) (O := owedRev c 76) rfl) $$ [HO Ht1 Hg1]
  · isplitr; · iapply (invBN_at m K c 1); iexact HIBN
    isplitl [HO]; · iexact HO
    isplitl [Ht1]; · iexact Ht1
    isplitl [Hg1]; · iexact Hg1
    iapply (rB_at (F := F) c 1); iexact HrB
  iintro HO
  iapply (wp_barsig (Bm) c 2 (peer 2 c) rfl (k' := (1#32).toNat) (by decide) (O := owedRev c 75) rfl) $$ [HO Ht2 Hg2]
  · isplitr; · iapply (invBN_at m K c 2); iexact HIBN
    isplitl [HO]; · iexact HO
    isplitl [Ht2]; · iexact Ht2
    isplitl [Hg2]; · iexact Hg2
    iapply (rB_at (F := F) c 2); iexact HrB
  iintro HO
  -- the rest of the signals are in the next printed part
  simp only [k0_part2_eq_skeleton]; unfold k0_part2_skel
  simp only [semSignalWord, semWaitWord, Prog.lift, Prog.bind_op, Prog.bind_ret, Prog.pure_eq_ret, Prog.bind_assoc, dev4_eq c, dev5_eq c, dev6_eq c]
  iapply (wp_barsig (Bm) c 3 (peer 3 c) rfl (k' := (1#32).toNat) (by decide) (O := owedRev c 74) rfl) $$ [HO Ht3 Hg3]
  · isplitr; · iapply (invBN_at m K c 3); iexact HIBN
    isplitl [HO]; · iexact HO
    isplitl [Ht3]; · iexact Ht3
    isplitl [Hg3]; · iexact Hg3
    iapply (rB_at (F := F) c 3); iexact HrB
  iintro HO
  iapply (wp_barsig (Bm) c 4 (peer 4 c) rfl (k' := (1#32).toNat) (by decide) (O := owedRev c 73) rfl) $$ [HO Ht4 Hg4]
  · isplitr; · iapply (invBN_at m K c 4); iexact HIBN
    isplitl [HO]; · iexact HO
    isplitl [Ht4]; · iexact Ht4
    isplitl [Hg4]; · iexact Hg4
    iapply (rB_at (F := F) c 4); iexact HrB
  iintro HO
  iapply (wp_barsig (Bm) c 5 (peer 5 c) rfl (k' := (1#32).toNat) (by decide) (O := owedRev c 72) rfl) $$ [HO Ht5 Hg5]
  · isplitr; · iapply (invBN_at m K c 5); iexact HIBN
    isplitl [HO]; · iexact HO
    isplitl [Ht5]; · iexact Ht5
    isplitl [Hg5]; · iexact Hg5
    iapply (rB_at (F := F) c 5); iexact HrB
  iintro HO
  -- the wait for the six neighbours
  iapply (wp_barwait (Bm) c (κ := K c) (O := owedRev c 72) (W := W)) $$ [HcB HO HatB]
  · isplitr; · iexact HIbar
    isplitl [HcB]; · iexact HcB
    isplitl [HO]; · iexact HO
    isplitr; · iapply (mayWait_bar (F := F) c); iexact Hlev
    iexact HatB
  iintro ⟨HO, HatB, #HrB1, Hgot⟩
  -- the staged windows hold the device's argument blocks
  icases Hx0 with ⟨%d0, %g0, %hg0, Hx0⟩
  have e0 : g0 = (Bm).x c := by rw [hg0]; unfold Dat.before; rw [if_pos (by decide : (cfg0.win (0 : Fin 8)).fetch t₀ = true)]; rfl
  subst e0
  icases Hx1 with ⟨%d1, %g1, %hg1, Hx1⟩
  have e1 : g1 = (Bm).wi 0 c := by rw [hg1]; unfold Dat.before; rw [if_pos (by decide : (cfg0.win (1 : Fin 8)).fetch t₀ = true)]; rfl
  subst e1
  icases Hx2 with ⟨%d2, %g2, %hg2, Hx2⟩
  have e2 : g2 = (Bm).wo 0 c := by rw [hg2]; unfold Dat.before; rw [if_pos (by decide : (cfg0.win (2 : Fin 8)).fetch t₀ = true)]; rfl
  subst e2
  icases Hx3 with ⟨%d3, %g3, %hg3, Hx3⟩
  have e3 : g3 = (Bm).wi 1 c := by rw [hg3]; unfold Dat.before; rw [if_pos (by decide : (cfg0.win (3 : Fin 8)).fetch t₀ = true)]; rfl
  subst e3
  icases Hx4 with ⟨%d4, %g4, %hg4, Hx4⟩
  have e4 : g4 = (Bm).wo 1 c := by rw [hg4]; unfold Dat.before; rw [if_pos (by decide : (cfg0.win (4 : Fin 8)).fetch t₀ = true)]; rfl
  subst e4
  icases Hx5 with ⟨%d5, %g5, %hg5, Hx5⟩
  have e5 : g5 = (Bm).wi 2 c := by rw [hg5]; unfold Dat.before; rw [if_pos (by decide : (cfg0.win (5 : Fin 8)).fetch t₀ = true)]; rfl
  subst e5
  icases Hx6 with ⟨%d6, %g6, %hg6, Hx6⟩
  have e6 : g6 = (Bm).wo 2 c := by rw [hg6]; unfold Dat.before; rw [if_pos (by decide : (cfg0.win (6 : Fin 8)).fetch t₀ = true)]; rfl
  subst e6
  icases Hx7 with ⟨%d7, %g7, %hg7, Hx7⟩
  -- the families over the seventy-two slots, member by member
  ihave Hgot := (Entails.of_eq ((got_eq (F := F) c).trans (bigSep_fin72 _))) $$ Hgot
  icases Hgot with ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63, Hd64, Hd65, Hd66, Hd67, Hd68, Hd69, Hd70, Hd71⟩
  ihave HatS := (Entails.of_eq (bigSep_fin72 _)) $$ HatS
  icases HatS with ⟨HaS0, HaS1, HaS2, HaS3, HaS4, HaS5, HaS6, HaS7, HaS8, HaS9, HaS10, HaS11, HaS12, HaS13, HaS14, HaS15, HaS16, HaS17, HaS18, HaS19, HaS20, HaS21, HaS22, HaS23, HaS24, HaS25, HaS26, HaS27, HaS28, HaS29, HaS30, HaS31, HaS32, HaS33, HaS34, HaS35, HaS36, HaS37, HaS38, HaS39, HaS40, HaS41, HaS42, HaS43, HaS44, HaS45, HaS46, HaS47, HaS48, HaS49, HaS50, HaS51, HaS52, HaS53, HaS54, HaS55, HaS56, HaS57, HaS58, HaS59, HaS60, HaS61, HaS62, HaS63, HaS64, HaS65, HaS66, HaS67, HaS68, HaS69, HaS70, HaS71⟩
  ihave HatR := (Entails.of_eq (bigSep_fin72 _)) $$ HatR
  icases HatR with ⟨HaR0, HaR1, HaR2, HaR3, HaR4, HaR5, HaR6, HaR7, HaR8, HaR9, HaR10, HaR11, HaR12, HaR13, HaR14, HaR15, HaR16, HaR17, HaR18, HaR19, HaR20, HaR21, HaR22, HaR23, HaR24, HaR25, HaR26, HaR27, HaR28, HaR29, HaR30, HaR31, HaR32, HaR33, HaR34, HaR35, HaR36, HaR37, HaR38, HaR39, HaR40, HaR41, HaR42, HaR43, HaR44, HaR45, HaR46, HaR47, HaR48, HaR49, HaR50, HaR51, HaR52, HaR53, HaR54, HaR55, HaR56, HaR57, HaR58, HaR59, HaR60, HaR61, HaR62, HaR63, HaR64, HaR65, HaR66, HaR67, HaR68, HaR69, HaR70, HaR71⟩
  ihave HtR := (Entails.of_eq (bigSep_fin72 _)) $$ HtR
  icases HtR with ⟨HtR0, HtR1, HtR2, HtR3, HtR4, HtR5, HtR6, HtR7, HtR8, HtR9, HtR10, HtR11, HtR12, HtR13, HtR14, HtR15, HtR16, HtR17, HtR18, HtR19, HtR20, HtR21, HtR22, HtR23, HtR24, HtR25, HtR26, HtR27, HtR28, HtR29, HtR30, HtR31, HtR32, HtR33, HtR34, HtR35, HtR36, HtR37, HtR38, HtR39, HtR40, HtR41, HtR42, HtR43, HtR44, HtR45, HtR46, HtR47, HtR48, HtR49, HtR50, HtR51, HtR52, HtR53, HtR54, HtR55, HtR56, HtR57, HtR58, HtR59, HtR60, HtR61, HtR62, HtR63, HtR64, HtR65, HtR66, HtR67, HtR68, HtR69, HtR70, HtR71⟩
  ihave HtS := (Entails.of_eq (bigSep_fin72 _)) $$ HtS
  icases HtS with ⟨HtS0, HtS1, HtS2, HtS3, HtS4, HtS5, HtS6, HtS7, HtS8, HtS9, HtS10, HtS11, HtS12, HtS13, HtS14, HtS15, HtS16, HtS17, HtS18, HtS19, HtS20, HtS21, HtS22, HtS23, HtS24, HtS25, HtS26, HtS27, HtS28, HtS29, HtS30, HtS31, HtS32, HtS33, HtS34, HtS35, HtS36, HtS37, HtS38, HtS39, HtS40, HtS41, HtS42, HtS43, HtS44, HtS45, HtS46, HtS47, HtS48, HtS49, HtS50, HtS51, HtS52, HtS53, HtS54, HtS55, HtS56, HtS57, HtS58, HtS59, HtS60, HtS61, HtS62, HtS63, HtS64, HtS65, HtS66, HtS67, HtS68, HtS69, HtS70, HtS71⟩
  ihave HcR := (Entails.of_eq (bigSep_fin72 _)) $$ HcR
  icases HcR with ⟨HcR0, HcR1, HcR2, HcR3, HcR4, HcR5, HcR6, HcR7, HcR8, HcR9, HcR10, HcR11, HcR12, HcR13, HcR14, HcR15, HcR16, HcR17, HcR18, HcR19, HcR20, HcR21, HcR22, HcR23, HcR24, HcR25, HcR26, HcR27, HcR28, HcR29, HcR30, HcR31, HcR32, HcR33, HcR34, HcR35, HcR36, HcR37, HcR38, HcR39, HcR40, HcR41, HcR42, HcR43, HcR44, HcR45, HcR46, HcR47, HcR48, HcR49, HcR50, HcR51, HcR52, HcR53, HcR54, HcR55, HcR56, HcR57, HcR58, HcR59, HcR60, HcR61, HcR62, HcR63, HcR64, HcR65, HcR66, HcR67, HcR68, HcR69, HcR70, HcR71⟩
  -- the accumulator's four row tiles
  ihave Htl := (acc_split (F := F) c) $$ Hacc
  ihave Htl := (Entails.of_eq (bigSep_fin4 _)) $$ Htl
  icases Htl with ⟨⟨%V0, Hac0⟩, ⟨%V1, Hac1⟩, ⟨%V2, Hac2⟩, ⟨%V3, Hac3⟩⟩
  iapply (wp_load_x c 0 fullShare ((Bm).x c)) $$ Hx0
  iintro %v1 %hv1 Hx0
  subst hv1
  iapply (wp_load_w1 c fullShare _) $$ Hx1
  iintro %v2 %hv2 Hx1
  subst hv2
  iapply (wp_load_w2 c fullShare _) $$ Hx2
  iintro %v3 %hv3 Hx2
  subst hv3
  iapply (wp_load_acc c 0 fullShare _) $$ Hac0
  iintro %v4 %hv4 Hac0
  iapply (wp_store_acc c 0 _ _) $$ Hac0
  iintro Hac0
  ihave Hac0 := (accAt_congr c 0 fullShare (show _ = sentV (Bm) 0 0 c 0 from mlp_payload0 (rowsOf ((Bm).x c) 0) ((Bm).wi 0 c) ((Bm).wo 0 c) _ (cast_id_16x512 _))) $$ Hac0
  -- k0_part3
  simp only [k0_part3_eq_skeleton]; unfold k0_part3_skel
  simp only [Prog.lift, Prog.bind_op, Prog.bind_ret, Prog.pure_eq_ret, Prog.bind_assoc, dev7_eq c, dev8_eq c, dev9_eq c]
  -- issue group 0: layer 0, round 0, tile 0
  ihave Hsp := (acc_shares (F := F) c 0 (sentV (Bm) 0 0 c 0)).1 $$ Hac0
  icases Hsp with ⟨Hq0_0, Hq0_1, Hq0_2⟩
  iapply (wp_copyC (Bm) c KS KR 2 0 0 0 2 rfl rfl rfl rfl ⟨k0_dev7 c, k0_dev7_lt c⟩ (dev7_eq c) (O₁ := owedRev c 72) (O := owedRev c 71) rfl) $$ HIS HIRD Hq0_2 Hd2 HO HtS2 HrS HtR2 HrR
  iintro ⟨Hcs2, HO⟩
  iapply (wp_copyC (Bm) c KS KR 1 0 0 0 1 rfl rfl rfl rfl ⟨k0_dev8 c, k0_dev8_lt c⟩ (dev8_eq c) (O₁ := owedRev c 71) (O := owedRev c 70) rfl) $$ HIS HIRD Hq0_1 Hd1 HO HtS1 HrS HtR1 HrR
  iintro ⟨Hcs1, HO⟩
  iapply (wp_copyC (Bm) c KS KR 0 0 0 0 0 rfl rfl rfl rfl ⟨k0_dev9 c, k0_dev9_lt c⟩ (dev9_eq c) (O₁ := owedRev c 70) (O := owedRev c 69) rfl) $$ HIS HIRD Hq0_0 Hd0 HO HtS0 HrS HtR0 HrR
  iintro ⟨Hcs0, HO⟩
  iapply (wp_load_x c 1 fullShare ((Bm).x c)) $$ Hx0
  iintro %v5 %hv5 Hx0
  subst hv5
  iapply (wp_load_w1 c fullShare _) $$ Hx1
  iintro %v6 %hv6 Hx1
  subst hv6
  -- k0_part4
  simp only [k0_part4_eq_skeleton]; unfold k0_part4_skel
  simp only [Prog.lift, Prog.bind_op, Prog.bind_ret, Prog.pure_eq_ret, Prog.bind_assoc, dev10_eq c, dev11_eq c]
  iapply (wp_load_w2 c fullShare _) $$ Hx2
  iintro %v7 %hv7 Hx2
  subst hv7
  iapply (wp_load_acc c 1 fullShare _) $$ Hac1
  iintro %v8 %hv8 Hac1
  iapply (wp_store_acc c 1 _ _) $$ Hac1
  iintro Hac1
  ihave Hac1 := (accAt_congr c 1 fullShare (show _ = sentV (Bm) 0 0 c 1 from mlp_payload0 (rowsOf ((Bm).x c) 1) ((Bm).wi 0 c) ((Bm).wo 0 c) _ (cast_id_16x512 _))) $$ Hac1
  -- issue group 1: layer 0, round 0, tile 1
  ihave Hsp := (acc_shares (F := F) c 1 (sentV (Bm) 0 0 c 1)).1 $$ Hac1
  icases Hsp with ⟨Hq1_0, Hq1_1, Hq1_2⟩
  iapply (wp_copyC (Bm) c KS KR 5 0 0 1 2 rfl rfl rfl rfl ⟨k0_dev10 c, k0_dev10_lt c⟩ (dev10_eq c) (O₁ := owedRev c 69) (O := owedRev c 68) rfl) $$ HIS HIRD Hq1_2 Hd5 HO HtS5 HrS HtR5 HrR
  iintro ⟨Hcs5, HO⟩
  iapply (wp_copyC (Bm) c KS KR 4 0 0 1 1 rfl rfl rfl rfl ⟨k0_dev11 c, k0_dev11_lt c⟩ (dev11_eq c) (O₁ := owedRev c 68) (O := owedRev c 67) rfl) $$ HIS HIRD Hq1_1 Hd4 HO HtS4 HrS HtR4 HrR
  iintro ⟨Hcs4, HO⟩
  -- k0_part5
  simp only [k0_part5_eq_skeleton]; unfold k0_part5_skel
  simp only [Prog.lift, Prog.bind_op, Prog.bind_ret, Prog.pure_eq_ret, Prog.bind_assoc, dev12_eq c]
  iapply (wp_copyC (Bm) c KS KR 3 0 0 1 0 rfl rfl rfl rfl ⟨k0_dev12 c, k0_dev12_lt c⟩ (dev12_eq c) (O₁ := owedRev c 67) (O := owedRev c 66) rfl) $$ HIS HIRD Hq1_0 Hd3 HO HtS3 HrS HtR3 HrR
  iintro ⟨Hcs3, HO⟩
  iapply (wp_load_x c 2 fullShare ((Bm).x c)) $$ Hx0
  iintro %v9 %hv9 Hx0
  subst hv9
  iapply (wp_load_w1 c fullShare _) $$ Hx1
  iintro %v10 %hv10 Hx1
  subst hv10
  iapply (wp_load_w2 c fullShare _) $$ Hx2
  iintro %v11 %hv11 Hx2
  subst hv11
  iapply (wp_load_acc c 2 fullShare _) $$ Hac2
  iintro %v12 %hv12 Hac2
  iapply (wp_store_acc c 2 _ _) $$ Hac2
  iintro Hac2
  ihave Hac2 := (accAt_congr c 2 fullShare (show _ = sentV (Bm) 0 0 c 2 from mlp_payload0 (rowsOf ((Bm).x c) 2) ((Bm).wi 0 c) ((Bm).wo 0 c) _ (cast_id_16x512 _))) $$ Hac2
  -- k0_part6
  simp only [k0_part6_eq_skeleton]; unfold k0_part6_skel
  simp only [Prog.lift, Prog.bind_op, Prog.bind_ret, Prog.pure_eq_ret, Prog.bind_assoc, dev13_eq c, dev14_eq c, dev15_eq c]
  -- issue group 2: layer 0, round 0, tile 2
  ihave Hsp := (acc_shares (F := F) c 2 (sentV (Bm) 0 0 c 2)).1 $$ Hac2
  icases Hsp with ⟨Hq2_0, Hq2_1, Hq2_2⟩
  iapply (wp_copyC (Bm) c KS KR 8 0 0 2 2 rfl rfl rfl rfl ⟨k0_dev13 c, k0_dev13_lt c⟩ (dev13_eq c) (O₁ := owedRev c 66) (O := owedRev c 65) rfl) $$ HIS HIRD Hq2_2 Hd8 HO HtS8 HrS HtR8 HrR
  iintro ⟨Hcs8, HO⟩
  iapply (wp_copyC (Bm) c KS KR 7 0 0 2 1 rfl rfl rfl rfl ⟨k0_dev14 c, k0_dev14_lt c⟩ (dev14_eq c) (O₁ := owedRev c 65) (O := owedRev c 64) rfl) $$ HIS HIRD Hq2_1 Hd7 HO HtS7 HrS HtR7 HrR
  iintro ⟨Hcs7, HO⟩
  iapply (wp_copyC (Bm) c KS KR 6 0 0 2 0 rfl rfl rfl rfl ⟨k0_dev15 c, k0_dev15_lt c⟩ (dev15_eq c) (O₁ := owedRev c 64) (O := owedRev c 63) rfl) $$ HIS HIRD Hq2_0 Hd6 HO HtS6 HrS HtR6 HrR
  iintro ⟨Hcs6, HO⟩
  iapply (wp_load_x c 3 fullShare ((Bm).x c)) $$ Hx0
  iintro %v13 %hv13 Hx0
  subst hv13
  iapply (wp_load_w1 c fullShare _) $$ Hx1
  iintro %v14 %hv14 Hx1
  subst hv14
  iapply (wp_load_w2 c fullShare _) $$ Hx2
  iintro %v15 %hv15 Hx2
  subst hv15
  -- k0_part7
  simp only [k0_part7_eq_skeleton]; unfold k0_part7_skel
  simp only [Prog.lift, Prog.bind_op, Prog.bind_ret, Prog.pure_eq_ret, Prog.bind_assoc, dev16_eq c, dev17_eq c]
  iapply (wp_load_acc c 3 fullShare _) $$ Hac3
  iintro %v16 %hv16 Hac3
  iapply (wp_store_acc c 3 _ _) $$ Hac3
  iintro Hac3
  ihave Hac3 := (accAt_congr c 3 fullShare (show _ = sentV (Bm) 0 0 c 3 from mlp_payload0 (rowsOf ((Bm).x c) 3) ((Bm).wi 0 c) ((Bm).wo 0 c) _ (cast_id_16x512 _))) $$ Hac3
  -- issue group 3: layer 0, round 0, tile 3
  ihave Hsp := (acc_shares (F := F) c 3 (sentV (Bm) 0 0 c 3)).1 $$ Hac3
  icases Hsp with ⟨Hq3_0, Hq3_1, Hq3_2⟩
  iapply (wp_copyC (Bm) c KS KR 11 0 0 3 2 rfl rfl rfl rfl ⟨k0_dev16 c, k0_dev16_lt c⟩ (dev16_eq c) (O₁ := owedRev c 63) (O := owedRev c 62) rfl) $$ HIS HIRD Hq3_2 Hd11 HO HtS11 HrS HtR11 HrR
  iintro ⟨Hcs11, HO⟩
  iapply (wp_copyC (Bm) c KS KR 10 0 0 3 1 rfl rfl rfl rfl ⟨k0_dev17 c, k0_dev17_lt c⟩ (dev17_eq c) (O₁ := owedRev c 62) (O := owedRev c 61) rfl) $$ HIS HIRD Hq3_1 Hd10 HO HtS10 HrS HtR10 HrR
  iintro ⟨Hcs10, HO⟩
  -- k0_part8
  simp only [k0_part8_eq_skeleton]; unfold k0_part8_skel
  simp only [Prog.lift, Prog.bind_op, Prog.bind_ret, Prog.pure_eq_ret, Prog.bind_assoc, dev18_eq c]
  iapply (wp_copyC (Bm) c KS KR 9 0 0 3 0 rfl rfl rfl rfl ⟨k0_dev18 c, k0_dev18_lt c⟩ (dev18_eq c) (O₁ := owedRev c 61) (O := owedRev c 60) rfl) $$ HIS HIRD Hq3_0 Hd9 HO HtS9 HrS HtR9 HrR
  iintro ⟨Hcs9, HO⟩
  iapply (wp_sendwaitC (Bm) c KS 2 0 0 0 2 rfl rfl rfl rfl 60 (src := slotM 2) (dst := accM 0) rfl) $$ HIS Hcs2 HO Hlev HaS2
  iintro ⟨HO, HaS2, Hsh2⟩
  iapply (wp_recvwaitC (Bm) c KR 2 0 0 0 5 rfl rfl rfl rfl 60 (by decide) (by decide) (src := accM 0) (dst := slotM 2) rfl) $$ HIR HcR2 HO Hlev HaR2
  iintro ⟨HO, HaR2, Hsl2⟩
  -- k0_part9
  simp only [k0_part9_eq_skeleton]; unfold k0_part9_skel
  simp only [Prog.lift, Prog.bind_op, Prog.bind_ret, Prog.pure_eq_ret, Prog.bind_assoc]
  iapply (wp_sendwaitC (Bm) c KS 1 0 0 0 1 rfl rfl rfl rfl 60 (src := slotM 1) (dst := accM 0) rfl) $$ HIS Hcs1 HO Hlev HaS1
  iintro ⟨HO, HaS1, Hsh1⟩
  iapply (wp_recvwaitC (Bm) c KR 1 0 0 0 4 rfl rfl rfl rfl 60 (by decide) (by decide) (src := accM 0) (dst := slotM 1) rfl) $$ HIR HcR1 HO Hlev HaR1
  iintro ⟨HO, HaR1, Hsl1⟩
  iapply (wp_sendwaitC (Bm) c KS 0 0 0 0 0 rfl rfl rfl rfl 60 (src := slotM 0) (dst := accM 0) rfl) $$ HIS Hcs0 HO Hlev HaS0
  iintro ⟨HO, HaS0, Hsh0⟩
  iapply (wp_recvwaitC (Bm) c KR 0 0 0 0 3 rfl rfl rfl rfl 60 (by decide) (by decide) (src := accM 0) (dst := slotM 0) rfl) $$ HIR HcR0 HO Hlev HaR0
  iintro ⟨HO, HaR0, Hsl0⟩
  ihave Hac0 := (acc_join3 (F := F) c 0 (sentV (Bm) 0 0 c 0)) $$ Hsh0 Hsh1 Hsh2
  -- k0_part10
  simp only [k0_part10_eq_skeleton]; unfold k0_part10_skel
  simp only [Prog.lift, Prog.bind_op, Prog.bind_ret, Prog.pure_eq_ret, Prog.bind_assoc, dev19_eq c]
  iapply (wp_load_acc c 0 fullShare _) $$ Hac0
  iintro %v17 %hv17 Hac0
  iapply (wp_load_slot c 0 _) $$ Hsl0
  iintro %v18 %hv18 Hsl0
  iapply (wp_load_slot c 1 _) $$ Hsl1
  iintro %v19 %hv19 Hsl1
  iapply (wp_load_slot c 2 _) $$ Hsl2
  iintro %v20 %hv20 Hsl2
  iapply (wp_load_acc c 0 fullShare _) $$ Hac0
  iintro %v21 %hv21 Hac0
  iapply (wp_store_acc c 0 _ _) $$ Hac0
  iintro Hac0
  ihave Hac0 := (accAt_congr c 0 fullShare (show _ = sentV (Bm) 0 1 c 0 from sum_payload _ _ _ _ _ _ _ _ hv17 hv18 hv19 hv20)) $$ Hac0
  -- issue group 4: layer 0, round 1, tile 0
  ihave Hsp := (acc_shares (F := F) c 0 (sentV (Bm) 0 1 c 0)).1 $$ Hac0
  icases Hsp with ⟨Hq0_0, Hq0_1, Hq0_2⟩
  iapply (wp_copyC (Bm) c KS KR 14 0 1 0 2 rfl rfl rfl rfl ⟨k0_dev19 c, k0_dev19_lt c⟩ (dev19_eq c) (O₁ := owedRev c 60) (O := owedRev c 59) rfl) $$ HIS HIRD Hq0_2 Hd14 HO HtS14 HrS HtR14 HrR
  iintro ⟨Hcs14, HO⟩
  -- k0_part11
  simp only [k0_part11_eq_skeleton]; unfold k0_part11_skel
  simp only [Prog.lift, Prog.bind_op, Prog.bind_ret, Prog.pure_eq_ret, Prog.bind_assoc, dev20_eq c, dev21_eq c]
  iapply (wp_copyC (Bm) c KS KR 13 0 1 0 1 rfl rfl rfl rfl ⟨k0_dev20 c, k0_dev20_lt c⟩ (dev20_eq c) (O₁ := owedRev c 59) (O := owedRev c 58) rfl) $$ HIS HIRD Hq0_1 Hd13 HO HtS13 HrS HtR13 HrR
  iintro ⟨Hcs13, HO⟩
  iapply (wp_copyC (Bm) c KS KR 12 0 1 0 0 rfl rfl rfl rfl ⟨k0_dev21 c, k0_dev21_lt c⟩ (dev21_eq c) (O₁ := owedRev c 58) (O := owedRev c 57) rfl) $$ HIS HIRD Hq0_0 Hd12 HO HtS12 HrS HtR12 HrR
  iintro ⟨Hcs12, HO⟩
  iapply (wp_sendwaitC (Bm) c KS 5 0 0 1 2 rfl rfl rfl rfl 57 (src := slotM 5) (dst := accM 1) rfl) $$ HIS Hcs5 HO Hlev HaS5
  iintro ⟨HO, HaS5, Hsh5⟩
  -- k0_part12
  simp only [k0_part12_eq_skeleton]; unfold k0_part12_skel
  simp only [Prog.lift, Prog.bind_op, Prog.bind_ret, Prog.pure_eq_ret, Prog.bind_assoc]
  iapply (wp_recvwaitC (Bm) c KR 5 0 0 1 5 rfl rfl rfl rfl 57 (by decide) (by decide) (src := accM 1) (dst := slotM 5) rfl) $$ HIR HcR5 HO Hlev HaR5
  iintro ⟨HO, HaR5, Hsl5⟩
  iapply (wp_sendwaitC (Bm) c KS 4 0 0 1 1 rfl rfl rfl rfl 57 (src := slotM 4) (dst := accM 1) rfl) $$ HIS Hcs4 HO Hlev HaS4
  iintro ⟨HO, HaS4, Hsh4⟩
  iapply (wp_recvwaitC (Bm) c KR 4 0 0 1 4 rfl rfl rfl rfl 57 (by decide) (by decide) (src := accM 1) (dst := slotM 4) rfl) $$ HIR HcR4 HO Hlev HaR4
  iintro ⟨HO, HaR4, Hsl4⟩
  iapply (wp_sendwaitC (Bm) c KS 3 0 0 1 0 rfl rfl rfl rfl 57 (src := slotM 3) (dst := accM 1) rfl) $$ HIS Hcs3 HO Hlev HaS3
  iintro ⟨HO, HaS3, Hsh3⟩
  -- k0_part13
  simp only [k0_part13_eq_skeleton]; unfold k0_part13_skel
  simp only [Prog.lift, Prog.bind_op, Prog.bind_ret, Prog.pure_eq_ret, Prog.bind_assoc]
  iapply (wp_recvwaitC (Bm) c KR 3 0 0 1 3 rfl rfl rfl rfl 57 (by decide) (by decide) (src := accM 1) (dst := slotM 3) rfl) $$ HIR HcR3 HO Hlev HaR3
  iintro ⟨HO, HaR3, Hsl3⟩
  ihave Hac1 := (acc_join3 (F := F) c 1 (sentV (Bm) 0 0 c 1)) $$ Hsh3 Hsh4 Hsh5
  iapply (wp_load_acc c 1 fullShare _) $$ Hac1
  iintro %v22 %hv22 Hac1
  iapply (wp_load_slot c 3 _) $$ Hsl3
  iintro %v23 %hv23 Hsl3
  iapply (wp_load_slot c 4 _) $$ Hsl4
  iintro %v24 %hv24 Hsl4
  iapply (wp_load_slot c 5 _) $$ Hsl5
  iintro %v25 %hv25 Hsl5
  iapply (wp_load_acc c 1 fullShare _) $$ Hac1
  iintro %v26 %hv26 Hac1
  iapply (wp_store_acc c 1 _ _) $$ Hac1
  iintro Hac1
  ihave Hac1 := (accAt_congr c 1 fullShare (show _ = sentV (Bm) 0 1 c 1 from sum_payload _ _ _ _ _ _ _ _ hv22 hv23 hv24 hv25)) $$ Hac1
  -- k0_part14
  simp only [k0_part14_eq_skeleton]; unfold k0_part14_skel
  simp only [Prog.lift, Prog.bind_op, Prog.bind_ret, Prog.pure_eq_ret, Prog.bind_assoc, dev22_eq c, dev23_eq c, dev24_eq c]
  -- issue group 5: layer 0, round 1, tile 1
  ihave Hsp := (acc_shares (F := F) c 1 (sentV (Bm) 0 1 c 1)).1 $$ Hac1
  icases Hsp with ⟨Hq1_0, Hq1_1, Hq1_2⟩
  iapply (wp_copyC (Bm) c KS KR 17 0 1 1 2 rfl rfl rfl rfl ⟨k0_dev22 c, k0_dev22_lt c⟩ (dev22_eq c) (O₁ := owedRev c 57) (O := owedRev c 56) rfl) $$ HIS HIRD Hq1_2 Hd17 HO HtS17 HrS HtR17 HrR
  iintro ⟨Hcs17, HO⟩
  iapply (wp_copyC (Bm) c KS KR 16 0 1 1 1 rfl rfl rfl rfl ⟨k0_dev23 c, k0_dev23_lt c⟩ (dev23_eq c) (O₁ := owedRev c 56) (O := owedRev c 55) rfl) $$ HIS HIRD Hq1_1 Hd16 HO HtS16 HrS HtR16 HrR
  iintro ⟨Hcs16, HO⟩
  iapply (wp_copyC (Bm) c KS KR 15 0 1 1 0 rfl rfl rfl rfl ⟨k0_dev24 c, k0_dev24_lt c⟩ (dev24_eq c) (O₁ := owedRev c 55) (O := owedRev c 54) rfl) $$ HIS HIRD Hq1_0 Hd15 HO HtS15 HrS HtR15 HrR
  iintro ⟨Hcs15, HO⟩
  -- k0_part15
  simp only [k0_part15_eq_skeleton]; unfold k0_part15_skel
  simp only [Prog.lift, Prog.bind_op, Prog.bind_ret, Prog.pure_eq_ret, Prog.bind_assoc]
  iapply (wp_sendwaitC (Bm) c KS 8 0 0 2 2 rfl rfl rfl rfl 54 (src := slotM 8) (dst := accM 2) rfl) $$ HIS Hcs8 HO Hlev HaS8
  iintro ⟨HO, HaS8, Hsh8⟩
  iapply (wp_recvwaitC (Bm) c KR 8 0 0 2 5 rfl rfl rfl rfl 54 (by decide) (by decide) (src := accM 2) (dst := slotM 8) rfl) $$ HIR HcR8 HO Hlev HaR8
  iintro ⟨HO, HaR8, Hsl8⟩
  iapply (wp_sendwaitC (Bm) c KS 7 0 0 2 1 rfl rfl rfl rfl 54 (src := slotM 7) (dst := accM 2) rfl) $$ HIS Hcs7 HO Hlev HaS7
  iintro ⟨HO, HaS7, Hsh7⟩
  iapply (wp_recvwaitC (Bm) c KR 7 0 0 2 4 rfl rfl rfl rfl 54 (by decide) (by decide) (src := accM 2) (dst := slotM 7) rfl) $$ HIR HcR7 HO Hlev HaR7
  iintro ⟨HO, HaR7, Hsl7⟩
  -- k0_part16
  simp only [k0_part16_eq_skeleton]; unfold k0_part16_skel
  simp only [Prog.lift, Prog.bind_op, Prog.bind_ret, Prog.pure_eq_ret, Prog.bind_assoc]
  iapply (wp_sendwaitC (Bm) c KS 6 0 0 2 0 rfl rfl rfl rfl 54 (src := slotM 6) (dst := accM 2) rfl) $$ HIS Hcs6 HO Hlev HaS6
  iintro ⟨HO, HaS6, Hsh6⟩
  iapply (wp_recvwaitC (Bm) c KR 6 0 0 2 3 rfl rfl rfl rfl 54 (by decide) (by decide) (src := accM 2) (dst := slotM 6) rfl) $$ HIR HcR6 HO Hlev HaR6
  iintro ⟨HO, HaR6, Hsl6⟩
  ihave Hac2 := (acc_join3 (F := F) c 2 (sentV (Bm) 0 0 c 2)) $$ Hsh6 Hsh7 Hsh8
  iapply (wp_load_acc c 2 fullShare _) $$ Hac2
  iintro %v27 %hv27 Hac2
  iapply (wp_load_slot c 6 _) $$ Hsl6
  iintro %v28 %hv28 Hsl6
  iapply (wp_load_slot c 7 _) $$ Hsl7
  iintro %v29 %hv29 Hsl7
  iapply (wp_load_slot c 8 _) $$ Hsl8
  iintro %v30 %hv30 Hsl8
  iapply (wp_load_acc c 2 fullShare _) $$ Hac2
  iintro %v31 %hv31 Hac2
  -- k0_part17
  simp only [k0_part17_eq_skeleton]; unfold k0_part17_skel
  simp only [Prog.lift, Prog.bind_op, Prog.bind_ret, Prog.pure_eq_ret, Prog.bind_assoc, dev25_eq c, dev26_eq c]
  iapply (wp_store_acc c 2 _ _) $$ Hac2
  iintro Hac2
  ihave Hac2 := (accAt_congr c 2 fullShare (show _ = sentV (Bm) 0 1 c 2 from sum_payload _ _ _ _ _ _ _ _ hv27 hv28 hv29 hv30)) $$ Hac2
  -- issue group 6: layer 0, round 1, tile 2
  ihave Hsp := (acc_shares (F := F) c 2 (sentV (Bm) 0 1 c 2)).1 $$ Hac2
  icases Hsp with ⟨Hq2_0, Hq2_1, Hq2_2⟩
  iapply (wp_copyC (Bm) c KS KR 20 0 1 2 2 rfl rfl rfl rfl ⟨k0_dev25 c, k0_dev25_lt c⟩ (dev25_eq c) (O₁ := owedRev c 54) (O := owedRev c 53) rfl) $$ HIS HIRD Hq2_2 Hd20 HO HtS20 HrS HtR20 HrR
  iintro ⟨Hcs20, HO⟩
  iapply (wp_copyC (Bm) c KS KR 19 0 1 2 1 rfl rfl rfl rfl ⟨k0_dev26 c, k0_dev26_lt c⟩ (dev26_eq c) (O₁ := owedRev c 53) (O := owedRev c 52) rfl) $$ HIS HIRD Hq2_1 Hd19 HO HtS19 HrS HtR19 HrR
  iintro ⟨Hcs19, HO⟩
  -- k0_part18
  simp only [k0_part18_eq_skeleton]; unfold k0_part18_skel
  simp only [Prog.lift, Prog.bind_op, Prog.bind_ret, Prog.pure_eq_ret, Prog.bind_assoc, dev27_eq c]
  iapply (wp_copyC (Bm) c KS KR 18 0 1 2 0 rfl rfl rfl rfl ⟨k0_dev27 c, k0_dev27_lt c⟩ (dev27_eq c) (O₁ := owedRev c 52) (O := owedRev c 51) rfl) $$ HIS HIRD Hq2_0 Hd18 HO HtS18 HrS HtR18 HrR
  iintro ⟨Hcs18, HO⟩
  iapply (wp_sendwaitC (Bm) c KS 11 0 0 3 2 rfl rfl rfl rfl 51 (src := slotM 11) (dst := accM 3) rfl) $$ HIS Hcs11 HO Hlev HaS11
  iintro ⟨HO, HaS11, Hsh11⟩
  iapply (wp_recvwaitC (Bm) c KR 11 0 0 3 5 rfl rfl rfl rfl 51 (by decide) (by decide) (src := accM 3) (dst := slotM 11) rfl) $$ HIR HcR11 HO Hlev HaR11
  iintro ⟨HO, HaR11, Hsl11⟩
  iapply (wp_sendwaitC (Bm) c KS 10 0 0 3 1 rfl rfl rfl rfl 51 (src := slotM 10) (dst := accM 3) rfl) $$ HIS Hcs10 HO Hlev HaS10
  iintro ⟨HO, HaS10, Hsh10⟩
  -- k0_part19
  simp only [k0_part19_eq_skeleton]; unfold k0_part19_skel
  simp only [Prog.lift, Prog.bind_op, Prog.bind_ret, Prog.pure_eq_ret, Prog.bind_assoc]
  iapply (wp_recvwaitC (Bm) c KR 10 0 0 3 4 rfl rfl rfl rfl 51 (by decide) (by decide) (src := accM 3) (dst := slotM 10) rfl) $$ HIR HcR10 HO Hlev HaR10
  iintro ⟨HO, HaR10, Hsl10⟩
  iapply (wp_sendwaitC (Bm) c KS 9 0 0 3 0 rfl rfl rfl rfl 51 (src := slotM 9) (dst := accM 3) rfl) $$ HIS Hcs9 HO Hlev HaS9
  iintro ⟨HO, HaS9, Hsh9⟩
  iapply (wp_recvwaitC (Bm) c KR 9 0 0 3 3 rfl rfl rfl rfl 51 (by decide) (by decide) (src := accM 3) (dst := slotM 9) rfl) $$ HIR HcR9 HO Hlev HaR9
  iintro ⟨HO, HaR9, Hsl9⟩
  ihave Hac3 := (acc_join3 (F := F) c 3 (sentV (Bm) 0 0 c 3)) $$ Hsh9 Hsh10 Hsh11
  iapply (wp_load_acc c 3 fullShare _) $$ Hac3
  iintro %v32 %hv32 Hac3
  iapply (wp_load_slot c 9 _) $$ Hsl9
  iintro %v33 %hv33 Hsl9
  -- k0_part20
  simp only [k0_part20_eq_skeleton]; unfold k0_part20_skel
  simp only [Prog.lift, Prog.bind_op, Prog.bind_ret, Prog.pure_eq_ret, Prog.bind_assoc, dev28_eq c]
  iapply (wp_load_slot c 10 _) $$ Hsl10
  iintro %v34 %hv34 Hsl10
  iapply (wp_load_slot c 11 _) $$ Hsl11
  iintro %v35 %hv35 Hsl11
  iapply (wp_load_acc c 3 fullShare _) $$ Hac3
  iintro %v36 %hv36 Hac3
  iapply (wp_store_acc c 3 _ _) $$ Hac3
  iintro Hac3
  ihave Hac3 := (accAt_congr c 3 fullShare (show _ = sentV (Bm) 0 1 c 3 from sum_payload _ _ _ _ _ _ _ _ hv32 hv33 hv34 hv35)) $$ Hac3
  -- issue group 7: layer 0, round 1, tile 3
  ihave Hsp := (acc_shares (F := F) c 3 (sentV (Bm) 0 1 c 3)).1 $$ Hac3
  icases Hsp with ⟨Hq3_0, Hq3_1, Hq3_2⟩
  iapply (wp_copyC (Bm) c KS KR 23 0 1 3 2 rfl rfl rfl rfl ⟨k0_dev28 c, k0_dev28_lt c⟩ (dev28_eq c) (O₁ := owedRev c 51) (O := owedRev c 50) rfl) $$ HIS HIRD Hq3_2 Hd23 HO HtS23 HrS HtR23 HrR
  iintro ⟨Hcs23, HO⟩
  -- k0_part21
  simp only [k0_part21_eq_skeleton]; unfold k0_part21_skel
  simp only [Prog.lift, Prog.bind_op, Prog.bind_ret, Prog.pure_eq_ret, Prog.bind_assoc, dev29_eq c, dev30_eq c]
  iapply (wp_copyC (Bm) c KS KR 22 0 1 3 1 rfl rfl rfl rfl ⟨k0_dev29 c, k0_dev29_lt c⟩ (dev29_eq c) (O₁ := owedRev c 50) (O := owedRev c 49) rfl) $$ HIS HIRD Hq3_1 Hd22 HO HtS22 HrS HtR22 HrR
  iintro ⟨Hcs22, HO⟩
  iapply (wp_copyC (Bm) c KS KR 21 0 1 3 0 rfl rfl rfl rfl ⟨k0_dev30 c, k0_dev30_lt c⟩ (dev30_eq c) (O₁ := owedRev c 49) (O := owedRev c 48) rfl) $$ HIS HIRD Hq3_0 Hd21 HO HtS21 HrS HtR21 HrR
  iintro ⟨Hcs21, HO⟩
  iapply (wp_sendwaitC (Bm) c KS 14 0 1 0 2 rfl rfl rfl rfl 48 (src := slotM 14) (dst := accM 0) rfl) $$ HIS Hcs14 HO Hlev HaS14
  iintro ⟨HO, HaS14, Hsh14⟩
  iapply (wp_recvwaitC (Bm) c KR 14 0 1 0 2 rfl rfl rfl rfl 48 (by decide) (by decide) (src := accM 0) (dst := slotM 14) rfl) $$ HIR HcR14 HO Hlev HaR14
  iintro ⟨HO, HaR14, Hsl14⟩
  -- k0_part22
  simp only [k0_part22_eq_skeleton]; unfold k0_part22_skel
  simp only [Prog.lift, Prog.bind_op, Prog.bind_ret, Prog.pure_eq_ret, Prog.bind_assoc]
  iapply (wp_sendwaitC (Bm) c KS 13 0 1 0 1 rfl rfl rfl rfl 48 (src := slotM 13) (dst := accM 0) rfl) $$ HIS Hcs13 HO Hlev HaS13
  iintro ⟨HO, HaS13, Hsh13⟩
  iapply (wp_recvwaitC (Bm) c KR 13 0 1 0 1 rfl rfl rfl rfl 48 (by decide) (by decide) (src := accM 0) (dst := slotM 13) rfl) $$ HIR HcR13 HO Hlev HaR13
  iintro ⟨HO, HaR13, Hsl13⟩
  iapply (wp_sendwaitC (Bm) c KS 12 0 1 0 0 rfl rfl rfl rfl 48 (src := slotM 12) (dst := accM 0) rfl) $$ HIS Hcs12 HO Hlev HaS12
  iintro ⟨HO, HaS12, Hsh12⟩
  -- k0_part23
  simp only [k0_part23_eq_skeleton]; unfold k0_part23_skel
  simp only [Prog.lift, Prog.bind_op, Prog.bind_ret, Prog.pure_eq_ret, Prog.bind_assoc]
  iapply (wp_recvwaitC (Bm) c KR 12 0 1 0 0 rfl rfl rfl rfl 48 (by decide) (by decide) (src := accM 0) (dst := slotM 12) rfl) $$ HIR HcR12 HO Hlev HaR12
  iintro ⟨HO, HaR12, Hsl12⟩
  ihave Hac0 := (acc_join3 (F := F) c 0 (sentV (Bm) 0 1 c 0)) $$ Hsh12 Hsh13 Hsh14
  iapply (wp_load_acc c 0 fullShare _) $$ Hac0
  iintro %v37 %hv37 Hac0
  iapply (wp_load_slot c 12 _) $$ Hsl12
  iintro %v38 %hv38 Hsl12
  iapply (wp_load_slot c 13 _) $$ Hsl13
  iintro %v39 %hv39 Hsl13
  iapply (wp_load_slot c 14 _) $$ Hsl14
  iintro %v40 %hv40 Hsl14
  iapply (wp_load_acc c 0 fullShare _) $$ Hac0
  iintro %v41 %hv41 Hac0
  iapply (wp_store_acc c 0 _ _) $$ Hac0
  iintro Hac0
  ihave Hac0 := (accAt_congr c 0 fullShare (show _ = xin (Bm) 1 c 0 from sum_payload _ _ _ _ _ _ _ _ hv37 hv38 hv39 hv40)) $$ Hac0
  iapply (wp_load_acc c 0 fullShare _) $$ Hac0
  iintro %v42 %hv42 Hac0
  iapply (wp_load_w3 c fullShare _) $$ Hx3
  iintro %v43 %hv43 Hx3
  subst hv43
  iapply (wp_load_w4 c fullShare _) $$ Hx4
  iintro %v44 %hv44 Hx4
  subst hv44
  -- k0_part24
  simp only [k0_part24_eq_skeleton]; unfold k0_part24_skel
  simp only [Prog.lift, Prog.bind_op, Prog.bind_ret, Prog.pure_eq_ret, Prog.bind_assoc, dev31_eq c, dev32_eq c]
  iapply (wp_load_acc c 0 fullShare _) $$ Hac0
  iintro %v45 %hv45 Hac0
  iapply (wp_store_acc c 0 _ _) $$ Hac0
  iintro Hac0
  ihave Hac0 := (accAt_congr c 0 fullShare (show _ = sentV (Bm) 1 0 c 0 from mlp_payload1 v42 ((Bm).wi 1 c) ((Bm).wo 1 c) _ hv42)) $$ Hac0
  -- issue group 8: layer 1, round 0, tile 0
  ihave Hsp := (acc_shares (F := F) c 0 (sentV (Bm) 1 0 c 0)).1 $$ Hac0
  icases Hsp with ⟨Hq0_0, Hq0_1, Hq0_2⟩
  iapply (wp_copyC (Bm) c KS KR 26 1 0 0 2 rfl rfl rfl rfl ⟨k0_dev31 c, k0_dev31_lt c⟩ (dev31_eq c) (O₁ := owedRev c 48) (O := owedRev c 47) rfl) $$ HIS HIRD Hq0_2 Hd26 HO HtS26 HrS HtR26 HrR
  iintro ⟨Hcs26, HO⟩
  iapply (wp_copyC (Bm) c KS KR 25 1 0 0 1 rfl rfl rfl rfl ⟨k0_dev32 c, k0_dev32_lt c⟩ (dev32_eq c) (O₁ := owedRev c 47) (O := owedRev c 46) rfl) $$ HIS HIRD Hq0_1 Hd25 HO HtS25 HrS HtR25 HrR
  iintro ⟨Hcs25, HO⟩
  -- k0_part25
  simp only [k0_part25_eq_skeleton]; unfold k0_part25_skel
  simp only [Prog.lift, Prog.bind_op, Prog.bind_ret, Prog.pure_eq_ret, Prog.bind_assoc, dev33_eq c]
  iapply (wp_copyC (Bm) c KS KR 24 1 0 0 0 rfl rfl rfl rfl ⟨k0_dev33 c, k0_dev33_lt c⟩ (dev33_eq c) (O₁ := owedRev c 46) (O := owedRev c 45) rfl) $$ HIS HIRD Hq0_0 Hd24 HO HtS24 HrS HtR24 HrR
  iintro ⟨Hcs24, HO⟩
  iapply (wp_sendwaitC (Bm) c KS 17 0 1 1 2 rfl rfl rfl rfl 45 (src := slotM 17) (dst := accM 1) rfl) $$ HIS Hcs17 HO Hlev HaS17
  iintro ⟨HO, HaS17, Hsh17⟩
  iapply (wp_recvwaitC (Bm) c KR 17 0 1 1 2 rfl rfl rfl rfl 45 (by decide) (by decide) (src := accM 1) (dst := slotM 17) rfl) $$ HIR HcR17 HO Hlev HaR17
  iintro ⟨HO, HaR17, Hsl17⟩
  iapply (wp_sendwaitC (Bm) c KS 16 0 1 1 1 rfl rfl rfl rfl 45 (src := slotM 16) (dst := accM 1) rfl) $$ HIS Hcs16 HO Hlev HaS16
  iintro ⟨HO, HaS16, Hsh16⟩
  -- k0_part26
  simp only [k0_part26_eq_skeleton]; unfold k0_part26_skel
  simp only [Prog.lift, Prog.bind_op, Prog.bind_ret, Prog.pure_eq_ret, Prog.bind_assoc]
  iapply (wp_recvwaitC (Bm) c KR 16 0 1 1 1 rfl rfl rfl rfl 45 (by decide) (by decide) (src := accM 1) (dst := slotM 16) rfl) $$ HIR HcR16 HO Hlev HaR16
  iintro ⟨HO, HaR16, Hsl16⟩
  iapply (wp_sendwaitC (Bm) c KS 15 0 1 1 0 rfl rfl rfl rfl 45 (src := slotM 15) (dst := accM 1) rfl) $$ HIS Hcs15 HO Hlev HaS15
  iintro ⟨HO, HaS15, Hsh15⟩
  iapply (wp_recvwaitC (Bm) c KR 15 0 1 1 0 rfl rfl rfl rfl 45 (by decide) (by decide) (src := accM 1) (dst := slotM 15) rfl) $$ HIR HcR15 HO Hlev HaR15
  iintro ⟨HO, HaR15, Hsl15⟩
  ihave Hac1 := (acc_join3 (F := F) c 1 (sentV (Bm) 0 1 c 1)) $$ Hsh15 Hsh16 Hsh17
  iapply (wp_load_acc c 1 fullShare _) $$ Hac1
  iintro %v46 %hv46 Hac1
  -- k0_part27
  simp only [k0_part27_eq_skeleton]; unfold k0_part27_skel
  simp only [Prog.lift, Prog.bind_op, Prog.bind_ret, Prog.pure_eq_ret, Prog.bind_assoc]
  iapply (wp_load_slot c 15 _) $$ Hsl15
  iintro %v47 %hv47 Hsl15
  iapply (wp_load_slot c 16 _) $$ Hsl16
  iintro %v48 %hv48 Hsl16
  iapply (wp_load_slot c 17 _) $$ Hsl17
  iintro %v49 %hv49 Hsl17
  iapply (wp_load_acc c 1 fullShare _) $$ Hac1
  iintro %v50 %hv50 Hac1
  iapply (wp_store_acc c 1 _ _) $$ Hac1
  iintro Hac1
  ihave Hac1 := (accAt_congr c 1 fullShare (show _ = xin (Bm) 1 c 1 from sum_payload _ _ _ _ _ _ _ _ hv46 hv47 hv48 hv49)) $$ Hac1
  iapply (wp_load_acc c 1 fullShare _) $$ Hac1
  iintro %v51 %hv51 Hac1
  iapply (wp_load_w3 c fullShare _) $$ Hx3
  iintro %v52 %hv52 Hx3
  subst hv52
  iapply (wp_load_w4 c fullShare _) $$ Hx4
  iintro %v53 %hv53 Hx4
  subst hv53
  iapply (wp_load_acc c 1 fullShare _) $$ Hac1
  iintro %v54 %hv54 Hac1
  iapply (wp_store_acc c 1 _ _) $$ Hac1
  iintro Hac1
  ihave Hac1 := (accAt_congr c 1 fullShare (show _ = sentV (Bm) 1 0 c 1 from mlp_payload1 v51 ((Bm).wi 1 c) ((Bm).wo 1 c) _ hv51)) $$ Hac1
  -- k0_part28
  simp only [k0_part28_eq_skeleton]; unfold k0_part28_skel
  simp only [Prog.lift, Prog.bind_op, Prog.bind_ret, Prog.pure_eq_ret, Prog.bind_assoc, dev34_eq c, dev35_eq c, dev36_eq c]
  -- issue group 9: layer 1, round 0, tile 1
  ihave Hsp := (acc_shares (F := F) c 1 (sentV (Bm) 1 0 c 1)).1 $$ Hac1
  icases Hsp with ⟨Hq1_0, Hq1_1, Hq1_2⟩
  iapply (wp_copyC (Bm) c KS KR 29 1 0 1 2 rfl rfl rfl rfl ⟨k0_dev34 c, k0_dev34_lt c⟩ (dev34_eq c) (O₁ := owedRev c 45) (O := owedRev c 44) rfl) $$ HIS HIRD Hq1_2 Hd29 HO HtS29 HrS HtR29 HrR
  iintro ⟨Hcs29, HO⟩
  iapply (wp_copyC (Bm) c KS KR 28 1 0 1 1 rfl rfl rfl rfl ⟨k0_dev35 c, k0_dev35_lt c⟩ (dev35_eq c) (O₁ := owedRev c 44) (O := owedRev c 43) rfl) $$ HIS HIRD Hq1_1 Hd28 HO HtS28 HrS HtR28 HrR
  iintro ⟨Hcs28, HO⟩
  iapply (wp_copyC (Bm) c KS KR 27 1 0 1 0 rfl rfl rfl rfl ⟨k0_dev36 c, k0_dev36_lt c⟩ (dev36_eq c) (O₁ := owedRev c 43) (O := owedRev c 42) rfl) $$ HIS HIRD Hq1_0 Hd27 HO HtS27 HrS HtR27 HrR
  iintro ⟨Hcs27, HO⟩
  -- k0_part29
  simp only [k0_part29_eq_skeleton]; unfold k0_part29_skel
  simp only [Prog.lift, Prog.bind_op, Prog.bind_ret, Prog.pure_eq_ret, Prog.bind_assoc]
  iapply (wp_sendwaitC (Bm) c KS 20 0 1 2 2 rfl rfl rfl rfl 42 (src := slotM 20) (dst := accM 2) rfl) $$ HIS Hcs20 HO Hlev HaS20
  iintro ⟨HO, HaS20, Hsh20⟩
  iapply (wp_recvwaitC (Bm) c KR 20 0 1 2 2 rfl rfl rfl rfl 42 (by decide) (by decide) (src := accM 2) (dst := slotM 20) rfl) $$ HIR HcR20 HO Hlev HaR20
  iintro ⟨HO, HaR20, Hsl20⟩
  iapply (wp_sendwaitC (Bm) c KS 19 0 1 2 1 rfl rfl rfl rfl 42 (src := slotM 19) (dst := accM 2) rfl) $$ HIS Hcs19 HO Hlev HaS19
  iintro ⟨HO, HaS19, Hsh19⟩
  -- k0_part30
  simp only [k0_part30_eq_skeleton]; unfold k0_part30_skel
  simp only [Prog.lift, Prog.bind_op, Prog.bind_ret, Prog.pure_eq_ret, Prog.bind_assoc]
  iapply (wp_recvwaitC (Bm) c KR 19 0 1 2 1 rfl rfl rfl rfl 42 (by decide) (by decide) (src := accM 2) (dst := slotM 19) rfl) $$ HIR HcR19 HO Hlev HaR19
  iintro ⟨HO, HaR19, Hsl19⟩
  iapply (wp_sendwaitC (Bm) c KS 18 0 1 2 0 rfl rfl rfl rfl 42 (src := slotM 18) (dst := accM 2) rfl) $$ HIS Hcs18 HO Hlev HaS18
  iintro ⟨HO, HaS18, Hsh18⟩
  iapply (wp_recvwaitC (Bm) c KR 18 0 1 2 0 rfl rfl rfl rfl 42 (by decide) (by decide) (src := accM 2) (dst := slotM 18) rfl) $$ HIR HcR18 HO Hlev HaR18
  iintro ⟨HO, HaR18, Hsl18⟩
  ihave Hac2 := (acc_join3 (F := F) c 2 (sentV (Bm) 0 1 c 2)) $$ Hsh18 Hsh19 Hsh20
  iapply (wp_load_acc c 2 fullShare _) $$ Hac2
  iintro %v55 %hv55 Hac2
  iapply (wp_load_slot c 18 _) $$ Hsl18
  iintro %v56 %hv56 Hsl18
  iapply (wp_load_slot c 19 _) $$ Hsl19
  iintro %v57 %hv57 Hsl19
  iapply (wp_load_slot c 20 _) $$ Hsl20
  iintro %v58 %hv58 Hsl20
  -- k0_part31
  simp only [k0_part31_eq_skeleton]; unfold k0_part31_skel
  simp only [Prog.lift, Prog.bind_op, Prog.bind_ret, Prog.pure_eq_ret, Prog.bind_assoc, dev37_eq c]
  iapply (wp_load_acc c 2 fullShare _) $$ Hac2
  iintro %v59 %hv59 Hac2
  iapply (wp_store_acc c 2 _ _) $$ Hac2
  iintro Hac2
  ihave Hac2 := (accAt_congr c 2 fullShare (show _ = xin (Bm) 1 c 2 from sum_payload _ _ _ _ _ _ _ _ hv55 hv56 hv57 hv58)) $$ Hac2
  iapply (wp_load_acc c 2 fullShare _) $$ Hac2
  iintro %v60 %hv60 Hac2
  iapply (wp_load_w3 c fullShare _) $$ Hx3
  iintro %v61 %hv61 Hx3
  subst hv61
  iapply (wp_load_w4 c fullShare _) $$ Hx4
  iintro %v62 %hv62 Hx4
  subst hv62
  iapply (wp_load_acc c 2 fullShare _) $$ Hac2
  iintro %v63 %hv63 Hac2
  iapply (wp_store_acc c 2 _ _) $$ Hac2
  iintro Hac2
  ihave Hac2 := (accAt_congr c 2 fullShare (show _ = sentV (Bm) 1 0 c 2 from mlp_payload1 v60 ((Bm).wi 1 c) ((Bm).wo 1 c) _ hv60)) $$ Hac2
  -- issue group 10: layer 1, round 0, tile 2
  ihave Hsp := (acc_shares (F := F) c 2 (sentV (Bm) 1 0 c 2)).1 $$ Hac2
  icases Hsp with ⟨Hq2_0, Hq2_1, Hq2_2⟩
  iapply (wp_copyC (Bm) c KS KR 32 1 0 2 2 rfl rfl rfl rfl ⟨k0_dev37 c, k0_dev37_lt c⟩ (dev37_eq c) (O₁ := owedRev c 42) (O := owedRev c 41) rfl) $$ HIS HIRD Hq2_2 Hd32 HO HtS32 HrS HtR32 HrR
  iintro ⟨Hcs32, HO⟩
  -- k0_part32
  simp only [k0_part32_eq_skeleton]; unfold k0_part32_skel
  simp only [Prog.lift, Prog.bind_op, Prog.bind_ret, Prog.pure_eq_ret, Prog.bind_assoc, dev38_eq c, dev39_eq c]
  iapply (wp_copyC (Bm) c KS KR 31 1 0 2 1 rfl rfl rfl rfl ⟨k0_dev38 c, k0_dev38_lt c⟩ (dev38_eq c) (O₁ := owedRev c 41) (O := owedRev c 40) rfl) $$ HIS HIRD Hq2_1 Hd31 HO HtS31 HrS HtR31 HrR
  iintro ⟨Hcs31, HO⟩
  iapply (wp_copyC (Bm) c KS KR 30 1 0 2 0 rfl rfl rfl rfl ⟨k0_dev39 c, k0_dev39_lt c⟩ (dev39_eq c) (O₁ := owedRev c 40) (O := owedRev c 39) rfl) $$ HIS HIRD Hq2_0 Hd30 HO HtS30 HrS HtR30 HrR
  iintro ⟨Hcs30, HO⟩
  iapply (wp_sendwaitC (Bm) c KS 23 0 1 3 2 rfl rfl rfl rfl 39 (src := slotM 23) (dst := accM 3) rfl) $$ HIS Hcs23 HO Hlev HaS23
  iintro ⟨HO, HaS23, Hsh23⟩
  -- k0_part33
  simp only [k0_part33_eq_skeleton]; unfold k0_part33_skel
  simp only [Prog.lift, Prog.bind_op, Prog.bind_ret, Prog.pure_eq_ret, Prog.bind_assoc]
  iapply (wp_recvwaitC (Bm) c KR 23 0 1 3 2 rfl rfl rfl rfl 39 (by decide) (by decide) (src := accM 3) (dst := slotM 23) rfl) $$ HIR HcR23 HO Hlev HaR23
  iintro ⟨HO, HaR23, Hsl23⟩
  iapply (wp_sendwaitC (Bm) c KS 22 0 1 3 1 rfl rfl rfl rfl 39 (src := slotM 22) (dst := accM 3) rfl) $$ HIS Hcs22 HO Hlev HaS22
  iintro ⟨HO, HaS22, Hsh22⟩
  iapply (wp_recvwaitC (Bm) c KR 22 0 1 3 1 rfl rfl rfl rfl 39 (by decide) (by decide) (src := accM 3) (dst := slotM 22) rfl) $$ HIR HcR22 HO Hlev HaR22
  iintro ⟨HO, HaR22, Hsl22⟩
  -- k0_part34
  simp only [k0_part34_eq_skeleton]; unfold k0_part34_skel
  simp only [Prog.lift, Prog.bind_op, Prog.bind_ret, Prog.pure_eq_ret, Prog.bind_assoc]
  iapply (wp_sendwaitC (Bm) c KS 21 0 1 3 0 rfl rfl rfl rfl 39 (src := slotM 21) (dst := accM 3) rfl) $$ HIS Hcs21 HO Hlev HaS21
  iintro ⟨HO, HaS21, Hsh21⟩
  iapply (wp_recvwaitC (Bm) c KR 21 0 1 3 0 rfl rfl rfl rfl 39 (by decide) (by decide) (src := accM 3) (dst := slotM 21) rfl) $$ HIR HcR21 HO Hlev HaR21
  iintro ⟨HO, HaR21, Hsl21⟩
  ihave Hac3 := (acc_join3 (F := F) c 3 (sentV (Bm) 0 1 c 3)) $$ Hsh21 Hsh22 Hsh23
  iapply (wp_load_acc c 3 fullShare _) $$ Hac3
  iintro %v64 %hv64 Hac3
  iapply (wp_load_slot c 21 _) $$ Hsl21
  iintro %v65 %hv65 Hsl21
  iapply (wp_load_slot c 22 _) $$ Hsl22
  iintro %v66 %hv66 Hsl22
  iapply (wp_load_slot c 23 _) $$ Hsl23
  iintro %v67 %hv67 Hsl23
  iapply (wp_load_acc c 3 fullShare _) $$ Hac3
  iintro %v68 %hv68 Hac3
  iapply (wp_store_acc c 3 _ _) $$ Hac3
  iintro Hac3
  ihave Hac3 := (accAt_congr c 3 fullShare (show _ = xin (Bm) 1 c 3 from sum_payload _ _ _ _ _ _ _ _ hv64 hv65 hv66 hv67)) $$ Hac3
  iapply (wp_load_acc c 3 fullShare _) $$ Hac3
  iintro %v69 %hv69 Hac3
  -- k0_part35
  simp only [k0_part35_eq_skeleton]; unfold k0_part35_skel
  simp only [Prog.lift, Prog.bind_op, Prog.bind_ret, Prog.pure_eq_ret, Prog.bind_assoc, dev40_eq c]
  iapply (wp_load_w3 c fullShare _) $$ Hx3
  iintro %v70 %hv70 Hx3
  subst hv70
  iapply (wp_load_w4 c fullShare _) $$ Hx4
  iintro %v71 %hv71 Hx4
  subst hv71
  iapply (wp_load_acc c 3 fullShare _) $$ Hac3
  iintro %v72 %hv72 Hac3
  iapply (wp_store_acc c 3 _ _) $$ Hac3
  iintro Hac3
  ihave Hac3 := (accAt_congr c 3 fullShare (show _ = sentV (Bm) 1 0 c 3 from mlp_payload1 v69 ((Bm).wi 1 c) ((Bm).wo 1 c) _ hv69)) $$ Hac3
  -- issue group 11: layer 1, round 0, tile 3
  ihave Hsp := (acc_shares (F := F) c 3 (sentV (Bm) 1 0 c 3)).1 $$ Hac3
  icases Hsp with ⟨Hq3_0, Hq3_1, Hq3_2⟩
  iapply (wp_copyC (Bm) c KS KR 35 1 0 3 2 rfl rfl rfl rfl ⟨k0_dev40 c, k0_dev40_lt c⟩ (dev40_eq c) (O₁ := owedRev c 39) (O := owedRev c 38) rfl) $$ HIS HIRD Hq3_2 Hd35 HO HtS35 HrS HtR35 HrR
  iintro ⟨Hcs35, HO⟩
  -- k0_part36
  simp only [k0_part36_eq_skeleton]; unfold k0_part36_skel
  simp only [Prog.lift, Prog.bind_op, Prog.bind_ret, Prog.pure_eq_ret, Prog.bind_assoc, dev41_eq c, dev42_eq c]
  iapply (wp_copyC (Bm) c KS KR 34 1 0 3 1 rfl rfl rfl rfl ⟨k0_dev41 c, k0_dev41_lt c⟩ (dev41_eq c) (O₁ := owedRev c 38) (O := owedRev c 37) rfl) $$ HIS HIRD Hq3_1 Hd34 HO HtS34 HrS HtR34 HrR
  iintro ⟨Hcs34, HO⟩
  iapply (wp_copyC (Bm) c KS KR 33 1 0 3 0 rfl rfl rfl rfl ⟨k0_dev42 c, k0_dev42_lt c⟩ (dev42_eq c) (O₁ := owedRev c 37) (O := owedRev c 36) rfl) $$ HIS HIRD Hq3_0 Hd33 HO HtS33 HrS HtR33 HrR
  iintro ⟨Hcs33, HO⟩
  iapply (wp_sendwaitC (Bm) c KS 26 1 0 0 2 rfl rfl rfl rfl 36 (src := slotM 26) (dst := accM 0) rfl) $$ HIS Hcs26 HO Hlev HaS26
  iintro ⟨HO, HaS26, Hsh26⟩
  iapply (wp_recvwaitC (Bm) c KR 26 1 0 0 5 rfl rfl rfl rfl 36 (by decide) (by decide) (src := accM 0) (dst := slotM 26) rfl) $$ HIR HcR26 HO Hlev HaR26
  iintro ⟨HO, HaR26, Hsl26⟩
  -- k0_part37
  simp only [k0_part37_eq_skeleton]; unfold k0_part37_skel
  simp only [Prog.lift, Prog.bind_op, Prog.bind_ret, Prog.pure_eq_ret, Prog.bind_assoc]
  iapply (wp_sendwaitC (Bm) c KS 25 1 0 0 1 rfl rfl rfl rfl 36 (src := slotM 25) (dst := accM 0) rfl) $$ HIS Hcs25 HO Hlev HaS25
  iintro ⟨HO, HaS25, Hsh25⟩
  iapply (wp_recvwaitC (Bm) c KR 25 1 0 0 4 rfl rfl rfl rfl 36 (by decide) (by decide) (src := accM 0) (dst := slotM 25) rfl) $$ HIR HcR25 HO Hlev HaR25
  iintro ⟨HO, HaR25, Hsl25⟩
  iapply (wp_sendwaitC (Bm) c KS 24 1 0 0 0 rfl rfl rfl rfl 36 (src := slotM 24) (dst := accM 0) rfl) $$ HIS Hcs24 HO Hlev HaS24
  iintro ⟨HO, HaS24, Hsh24⟩
  -- k0_part38
  simp only [k0_part38_eq_skeleton]; unfold k0_part38_skel
  simp only [Prog.lift, Prog.bind_op, Prog.bind_ret, Prog.pure_eq_ret, Prog.bind_assoc, dev43_eq c]
  iapply (wp_recvwaitC (Bm) c KR 24 1 0 0 3 rfl rfl rfl rfl 36 (by decide) (by decide) (src := accM 0) (dst := slotM 24) rfl) $$ HIR HcR24 HO Hlev HaR24
  iintro ⟨HO, HaR24, Hsl24⟩
  ihave Hac0 := (acc_join3 (F := F) c 0 (sentV (Bm) 1 0 c 0)) $$ Hsh24 Hsh25 Hsh26
  iapply (wp_load_acc c 0 fullShare _) $$ Hac0
  iintro %v73 %hv73 Hac0
  iapply (wp_load_slot c 24 _) $$ Hsl24
  iintro %v74 %hv74 Hsl24
  iapply (wp_load_slot c 25 _) $$ Hsl25
  iintro %v75 %hv75 Hsl25
  iapply (wp_load_slot c 26 _) $$ Hsl26
  iintro %v76 %hv76 Hsl26
  iapply (wp_load_acc c 0 fullShare _) $$ Hac0
  iintro %v77 %hv77 Hac0
  iapply (wp_store_acc c 0 _ _) $$ Hac0
  iintro Hac0
  ihave Hac0 := (accAt_congr c 0 fullShare (show _ = sentV (Bm) 1 1 c 0 from sum_payload _ _ _ _ _ _ _ _ hv73 hv74 hv75 hv76)) $$ Hac0
  -- issue group 12: layer 1, round 1, tile 0
  ihave Hsp := (acc_shares (F := F) c 0 (sentV (Bm) 1 1 c 0)).1 $$ Hac0
  icases Hsp with ⟨Hq0_0, Hq0_1, Hq0_2⟩
  iapply (wp_copyC (Bm) c KS KR 38 1 1 0 2 rfl rfl rfl rfl ⟨k0_dev43 c, k0_dev43_lt c⟩ (dev43_eq c) (O₁ := owedRev c 36) (O := owedRev c 35) rfl) $$ HIS HIRD Hq0_2 Hd38 HO HtS38 HrS HtR38 HrR
  iintro ⟨Hcs38, HO⟩
  -- k0_part39
  simp only [k0_part39_eq_skeleton]; unfold k0_part39_skel
  simp only [Prog.lift, Prog.bind_op, Prog.bind_ret, Prog.pure_eq_ret, Prog.bind_assoc, dev44_eq c, dev45_eq c]
  iapply (wp_copyC (Bm) c KS KR 37 1 1 0 1 rfl rfl rfl rfl ⟨k0_dev44 c, k0_dev44_lt c⟩ (dev44_eq c) (O₁ := owedRev c 35) (O := owedRev c 34) rfl) $$ HIS HIRD Hq0_1 Hd37 HO HtS37 HrS HtR37 HrR
  iintro ⟨Hcs37, HO⟩
  iapply (wp_copyC (Bm) c KS KR 36 1 1 0 0 rfl rfl rfl rfl ⟨k0_dev45 c, k0_dev45_lt c⟩ (dev45_eq c) (O₁ := owedRev c 34) (O := owedRev c 33) rfl) $$ HIS HIRD Hq0_0 Hd36 HO HtS36 HrS HtR36 HrR
  iintro ⟨Hcs36, HO⟩
  iapply (wp_sendwaitC (Bm) c KS 29 1 0 1 2 rfl rfl rfl rfl 33 (src := slotM 29) (dst := accM 1) rfl) $$ HIS Hcs29 HO Hlev HaS29
  iintro ⟨HO, HaS29, Hsh29⟩
  -- k0_part40
  simp only [k0_part40_eq_skeleton]; unfold k0_part40_skel
  simp only [Prog.lift, Prog.bind_op, Prog.bind_ret, Prog.pure_eq_ret, Prog.bind_assoc]
  iapply (wp_recvwaitC (Bm) c KR 29 1 0 1 5 rfl rfl rfl rfl 33 (by decide) (by decide) (src := accM 1) (dst := slotM 29) rfl) $$ HIR HcR29 HO Hlev HaR29
  iintro ⟨HO, HaR29, Hsl29⟩
  iapply (wp_sendwaitC (Bm) c KS 28 1 0 1 1 rfl rfl rfl rfl 33 (src := slotM 28) (dst := accM 1) rfl) $$ HIS Hcs28 HO Hlev HaS28
  iintro ⟨HO, HaS28, Hsh28⟩
  iapply (wp_recvwaitC (Bm) c KR 28 1 0 1 4 rfl rfl rfl rfl 33 (by decide) (by decide) (src := accM 1) (dst := slotM 28) rfl) $$ HIR HcR28 HO Hlev HaR28
  iintro ⟨HO, HaR28, Hsl28⟩
  -- k0_part41
  simp only [k0_part41_eq_skeleton]; unfold k0_part41_skel
  simp only [Prog.lift, Prog.bind_op, Prog.bind_ret, Prog.pure_eq_ret, Prog.bind_assoc]
  iapply (wp_sendwaitC (Bm) c KS 27 1 0 1 0 rfl rfl rfl rfl 33 (src := slotM 27) (dst := accM 1) rfl) $$ HIS Hcs27 HO Hlev HaS27
  iintro ⟨HO, HaS27, Hsh27⟩
  iapply (wp_recvwaitC (Bm) c KR 27 1 0 1 3 rfl rfl rfl rfl 33 (by decide) (by decide) (src := accM 1) (dst := slotM 27) rfl) $$ HIR HcR27 HO Hlev HaR27
  iintro ⟨HO, HaR27, Hsl27⟩
  ihave Hac1 := (acc_join3 (F := F) c 1 (sentV (Bm) 1 0 c 1)) $$ Hsh27 Hsh28 Hsh29
  iapply (wp_load_acc c 1 fullShare _) $$ Hac1
  iintro %v78 %hv78 Hac1
  iapply (wp_load_slot c 27 _) $$ Hsl27
  iintro %v79 %hv79 Hsl27
  iapply (wp_load_slot c 28 _) $$ Hsl28
  iintro %v80 %hv80 Hsl28
  iapply (wp_load_slot c 29 _) $$ Hsl29
  iintro %v81 %hv81 Hsl29
  iapply (wp_load_acc c 1 fullShare _) $$ Hac1
  iintro %v82 %hv82 Hac1
  iapply (wp_store_acc c 1 _ _) $$ Hac1
  iintro Hac1
  ihave Hac1 := (accAt_congr c 1 fullShare (show _ = sentV (Bm) 1 1 c 1 from sum_payload _ _ _ _ _ _ _ _ hv78 hv79 hv80 hv81)) $$ Hac1
  -- k0_part42
  simp only [k0_part42_eq_skeleton]; unfold k0_part42_skel
  simp only [Prog.lift, Prog.bind_op, Prog.bind_ret, Prog.pure_eq_ret, Prog.bind_assoc, dev46_eq c, dev47_eq c, dev48_eq c]
  -- issue group 13: layer 1, round 1, tile 1
  ihave Hsp := (acc_shares (F := F) c 1 (sentV (Bm) 1 1 c 1)).1 $$ Hac1
  icases Hsp with ⟨Hq1_0, Hq1_1, Hq1_2⟩
  iapply (wp_copyC (Bm) c KS KR 41 1 1 1 2 rfl rfl rfl rfl ⟨k0_dev46 c, k0_dev46_lt c⟩ (dev46_eq c) (O₁ := owedRev c 33) (O := owedRev c 32) rfl) $$ HIS HIRD Hq1_2 Hd41 HO HtS41 HrS HtR41 HrR
  iintro ⟨Hcs41, HO⟩
  iapply (wp_copyC (Bm) c KS KR 40 1 1 1 1 rfl rfl rfl rfl ⟨k0_dev47 c, k0_dev47_lt c⟩ (dev47_eq c) (O₁ := owedRev c 32) (O := owedRev c 31) rfl) $$ HIS HIRD Hq1_1 Hd40 HO HtS40 HrS HtR40 HrR
  iintro ⟨Hcs40, HO⟩
  iapply (wp_copyC (Bm) c KS KR 39 1 1 1 0 rfl rfl rfl rfl ⟨k0_dev48 c, k0_dev48_lt c⟩ (dev48_eq c) (O₁ := owedRev c 31) (O := owedRev c 30) rfl) $$ HIS HIRD Hq1_0 Hd39 HO HtS39 HrS HtR39 HrR
  iintro ⟨Hcs39, HO⟩
  -- k0_part43
  simp only [k0_part43_eq_skeleton]; unfold k0_part43_skel
  simp only [Prog.lift, Prog.bind_op, Prog.bind_ret, Prog.pure_eq_ret, Prog.bind_assoc]
  iapply (wp_sendwaitC (Bm) c KS 32 1 0 2 2 rfl rfl rfl rfl 30 (src := slotM 32) (dst := accM 2) rfl) $$ HIS Hcs32 HO Hlev HaS32
  iintro ⟨HO, HaS32, Hsh32⟩
  iapply (wp_recvwaitC (Bm) c KR 32 1 0 2 5 rfl rfl rfl rfl 30 (by decide) (by decide) (src := accM 2) (dst := slotM 32) rfl) $$ HIR HcR32 HO Hlev HaR32
  iintro ⟨HO, HaR32, Hsl32⟩
  iapply (wp_sendwaitC (Bm) c KS 31 1 0 2 1 rfl rfl rfl rfl 30 (src := slotM 31) (dst := accM 2) rfl) $$ HIS Hcs31 HO Hlev HaS31
  iintro ⟨HO, HaS31, Hsh31⟩
  -- k0_part44
  simp only [k0_part44_eq_skeleton]; unfold k0_part44_skel
  simp only [Prog.lift, Prog.bind_op, Prog.bind_ret, Prog.pure_eq_ret, Prog.bind_assoc]
  iapply (wp_recvwaitC (Bm) c KR 31 1 0 2 4 rfl rfl rfl rfl 30 (by decide) (by decide) (src := accM 2) (dst := slotM 31) rfl) $$ HIR HcR31 HO Hlev HaR31
  iintro ⟨HO, HaR31, Hsl31⟩
  iapply (wp_sendwaitC (Bm) c KS 30 1 0 2 0 rfl rfl rfl rfl 30 (src := slotM 30) (dst := accM 2) rfl) $$ HIS Hcs30 HO Hlev HaS30
  iintro ⟨HO, HaS30, Hsh30⟩
  iapply (wp_recvwaitC (Bm) c KR 30 1 0 2 3 rfl rfl rfl rfl 30 (by decide) (by decide) (src := accM 2) (dst := slotM 30) rfl) $$ HIR HcR30 HO Hlev HaR30
  iintro ⟨HO, HaR30, Hsl30⟩
  ihave Hac2 := (acc_join3 (F := F) c 2 (sentV (Bm) 1 0 c 2)) $$ Hsh30 Hsh31 Hsh32
  iapply (wp_load_acc c 2 fullShare _) $$ Hac2
  iintro %v83 %hv83 Hac2
  iapply (wp_load_slot c 30 _) $$ Hsl30
  iintro %v84 %hv84 Hsl30
  iapply (wp_load_slot c 31 _) $$ Hsl31
  iintro %v85 %hv85 Hsl31
  -- k0_part45
  simp only [k0_part45_eq_skeleton]; unfold k0_part45_skel
  simp only [Prog.lift, Prog.bind_op, Prog.bind_ret, Prog.pure_eq_ret, Prog.bind_assoc, dev49_eq c, dev50_eq c]
  iapply (wp_load_slot c 32 _) $$ Hsl32
  iintro %v86 %hv86 Hsl32
  iapply (wp_load_acc c 2 fullShare _) $$ Hac2
  iintro %v87 %hv87 Hac2
  iapply (wp_store_acc c 2 _ _) $$ Hac2
  iintro Hac2
  ihave Hac2 := (accAt_congr c 2 fullShare (show _ = sentV (Bm) 1 1 c 2 from sum_payload _ _ _ _ _ _ _ _ hv83 hv84 hv85 hv86)) $$ Hac2
  -- issue group 14: layer 1, round 1, tile 2
  ihave Hsp := (acc_shares (F := F) c 2 (sentV (Bm) 1 1 c 2)).1 $$ Hac2
  icases Hsp with ⟨Hq2_0, Hq2_1, Hq2_2⟩
  iapply (wp_copyC (Bm) c KS KR 44 1 1 2 2 rfl rfl rfl rfl ⟨k0_dev49 c, k0_dev49_lt c⟩ (dev49_eq c) (O₁ := owedRev c 30) (O := owedRev c 29) rfl) $$ HIS HIRD Hq2_2 Hd44 HO HtS44 HrS HtR44 HrR
  iintro ⟨Hcs44, HO⟩
  iapply (wp_copyC (Bm) c KS KR 43 1 1 2 1 rfl rfl rfl rfl ⟨k0_dev50 c, k0_dev50_lt c⟩ (dev50_eq c) (O₁ := owedRev c 29) (O := owedRev c 28) rfl) $$ HIS HIRD Hq2_1 Hd43 HO HtS43 HrS HtR43 HrR
  iintro ⟨Hcs43, HO⟩
  -- k0_part46
  simp only [k0_part46_eq_skeleton]; unfold k0_part46_skel
  simp only [Prog.lift, Prog.bind_op, Prog.bind_ret, Prog.pure_eq_ret, Prog.bind_assoc, dev51_eq c]
  iapply (wp_copyC (Bm) c KS KR 42 1 1 2 0 rfl rfl rfl rfl ⟨k0_dev51 c, k0_dev51_lt c⟩ (dev51_eq c) (O₁ := owedRev c 28) (O := owedRev c 27) rfl) $$ HIS HIRD Hq2_0 Hd42 HO HtS42 HrS HtR42 HrR
  iintro ⟨Hcs42, HO⟩
  iapply (wp_sendwaitC (Bm) c KS 35 1 0 3 2 rfl rfl rfl rfl 27 (src := slotM 35) (dst := accM 3) rfl) $$ HIS Hcs35 HO Hlev HaS35
  iintro ⟨HO, HaS35, Hsh35⟩
  iapply (wp_recvwaitC (Bm) c KR 35 1 0 3 5 rfl rfl rfl rfl 27 (by decide) (by decide) (src := accM 3) (dst := slotM 35) rfl) $$ HIR HcR35 HO Hlev HaR35
  iintro ⟨HO, HaR35, Hsl35⟩
  -- k0_part47
  simp only [k0_part47_eq_skeleton]; unfold k0_part47_skel
  simp only [Prog.lift, Prog.bind_op, Prog.bind_ret, Prog.pure_eq_ret, Prog.bind_assoc]
  iapply (wp_sendwaitC (Bm) c KS 34 1 0 3 1 rfl rfl rfl rfl 27 (src := slotM 34) (dst := accM 3) rfl) $$ HIS Hcs34 HO Hlev HaS34
  iintro ⟨HO, HaS34, Hsh34⟩
  iapply (wp_recvwaitC (Bm) c KR 34 1 0 3 4 rfl rfl rfl rfl 27 (by decide) (by decide) (src := accM 3) (dst := slotM 34) rfl) $$ HIR HcR34 HO Hlev HaR34
  iintro ⟨HO, HaR34, Hsl34⟩
  iapply (wp_sendwaitC (Bm) c KS 33 1 0 3 0 rfl rfl rfl rfl 27 (src := slotM 33) (dst := accM 3) rfl) $$ HIS Hcs33 HO Hlev HaS33
  iintro ⟨HO, HaS33, Hsh33⟩
  -- k0_part48
  simp only [k0_part48_eq_skeleton]; unfold k0_part48_skel
  simp only [Prog.lift, Prog.bind_op, Prog.bind_ret, Prog.pure_eq_ret, Prog.bind_assoc, dev52_eq c]
  iapply (wp_recvwaitC (Bm) c KR 33 1 0 3 3 rfl rfl rfl rfl 27 (by decide) (by decide) (src := accM 3) (dst := slotM 33) rfl) $$ HIR HcR33 HO Hlev HaR33
  iintro ⟨HO, HaR33, Hsl33⟩
  ihave Hac3 := (acc_join3 (F := F) c 3 (sentV (Bm) 1 0 c 3)) $$ Hsh33 Hsh34 Hsh35
  iapply (wp_load_acc c 3 fullShare _) $$ Hac3
  iintro %v88 %hv88 Hac3
  iapply (wp_load_slot c 33 _) $$ Hsl33
  iintro %v89 %hv89 Hsl33
  iapply (wp_load_slot c 34 _) $$ Hsl34
  iintro %v90 %hv90 Hsl34
  iapply (wp_load_slot c 35 _) $$ Hsl35
  iintro %v91 %hv91 Hsl35
  iapply (wp_load_acc c 3 fullShare _) $$ Hac3
  iintro %v92 %hv92 Hac3
  iapply (wp_store_acc c 3 _ _) $$ Hac3
  iintro Hac3
  ihave Hac3 := (accAt_congr c 3 fullShare (show _ = sentV (Bm) 1 1 c 3 from sum_payload _ _ _ _ _ _ _ _ hv88 hv89 hv90 hv91)) $$ Hac3
  -- issue group 15: layer 1, round 1, tile 3
  ihave Hsp := (acc_shares (F := F) c 3 (sentV (Bm) 1 1 c 3)).1 $$ Hac3
  icases Hsp with ⟨Hq3_0, Hq3_1, Hq3_2⟩
  iapply (wp_copyC (Bm) c KS KR 47 1 1 3 2 rfl rfl rfl rfl ⟨k0_dev52 c, k0_dev52_lt c⟩ (dev52_eq c) (O₁ := owedRev c 27) (O := owedRev c 26) rfl) $$ HIS HIRD Hq3_2 Hd47 HO HtS47 HrS HtR47 HrR
  iintro ⟨Hcs47, HO⟩
  -- k0_part49
  simp only [k0_part49_eq_skeleton]; unfold k0_part49_skel
  simp only [Prog.lift, Prog.bind_op, Prog.bind_ret, Prog.pure_eq_ret, Prog.bind_assoc, dev53_eq c, dev54_eq c]
  iapply (wp_copyC (Bm) c KS KR 46 1 1 3 1 rfl rfl rfl rfl ⟨k0_dev53 c, k0_dev53_lt c⟩ (dev53_eq c) (O₁ := owedRev c 26) (O := owedRev c 25) rfl) $$ HIS HIRD Hq3_1 Hd46 HO HtS46 HrS HtR46 HrR
  iintro ⟨Hcs46, HO⟩
  iapply (wp_copyC (Bm) c KS KR 45 1 1 3 0 rfl rfl rfl rfl ⟨k0_dev54 c, k0_dev54_lt c⟩ (dev54_eq c) (O₁ := owedRev c 25) (O := owedRev c 24) rfl) $$ HIS HIRD Hq3_0 Hd45 HO HtS45 HrS HtR45 HrR
  iintro ⟨Hcs45, HO⟩
  iapply (wp_sendwaitC (Bm) c KS 38 1 1 0 2 rfl rfl rfl rfl 24 (src := slotM 38) (dst := accM 0) rfl) $$ HIS Hcs38 HO Hlev HaS38
  iintro ⟨HO, HaS38, Hsh38⟩
  -- k0_part50
  simp only [k0_part50_eq_skeleton]; unfold k0_part50_skel
  simp only [Prog.lift, Prog.bind_op, Prog.bind_ret, Prog.pure_eq_ret, Prog.bind_assoc]
  iapply (wp_recvwaitC (Bm) c KR 38 1 1 0 2 rfl rfl rfl rfl 24 (by decide) (by decide) (src := accM 0) (dst := slotM 38) rfl) $$ HIR HcR38 HO Hlev HaR38
  iintro ⟨HO, HaR38, Hsl38⟩
  iapply (wp_sendwaitC (Bm) c KS 37 1 1 0 1 rfl rfl rfl rfl 24 (src := slotM 37) (dst := accM 0) rfl) $$ HIS Hcs37 HO Hlev HaS37
  iintro ⟨HO, HaS37, Hsh37⟩
  iapply (wp_recvwaitC (Bm) c KR 37 1 1 0 1 rfl rfl rfl rfl 24 (by decide) (by decide) (src := accM 0) (dst := slotM 37) rfl) $$ HIR HcR37 HO Hlev HaR37
  iintro ⟨HO, HaR37, Hsl37⟩
  -- k0_part51
  simp only [k0_part51_eq_skeleton]; unfold k0_part51_skel
  simp only [Prog.lift, Prog.bind_op, Prog.bind_ret, Prog.pure_eq_ret, Prog.bind_assoc]
  iapply (wp_sendwaitC (Bm) c KS 36 1 1 0 0 rfl rfl rfl rfl 24 (src := slotM 36) (dst := accM 0) rfl) $$ HIS Hcs36 HO Hlev HaS36
  iintro ⟨HO, HaS36, Hsh36⟩
  iapply (wp_recvwaitC (Bm) c KR 36 1 1 0 0 rfl rfl rfl rfl 24 (by decide) (by decide) (src := accM 0) (dst := slotM 36) rfl) $$ HIR HcR36 HO Hlev HaR36
  iintro ⟨HO, HaR36, Hsl36⟩
  ihave Hac0 := (acc_join3 (F := F) c 0 (sentV (Bm) 1 1 c 0)) $$ Hsh36 Hsh37 Hsh38
  iapply (wp_load_acc c 0 fullShare _) $$ Hac0
  iintro %v93 %hv93 Hac0
  iapply (wp_load_slot c 36 _) $$ Hsl36
  iintro %v94 %hv94 Hsl36
  iapply (wp_load_slot c 37 _) $$ Hsl37
  iintro %v95 %hv95 Hsl37
  iapply (wp_load_slot c 38 _) $$ Hsl38
  iintro %v96 %hv96 Hsl38
  iapply (wp_load_acc c 0 fullShare _) $$ Hac0
  iintro %v97 %hv97 Hac0
  iapply (wp_store_acc c 0 _ _) $$ Hac0
  iintro Hac0
  ihave Hac0 := (accAt_congr c 0 fullShare (show _ = xin (Bm) 2 c 0 from sum_payload _ _ _ _ _ _ _ _ hv93 hv94 hv95 hv96)) $$ Hac0
  iapply (wp_load_acc c 0 fullShare _) $$ Hac0
  iintro %v98 %hv98 Hac0
  iapply (wp_load_w5 c fullShare _) $$ Hx5
  iintro %v99 %hv99 Hx5
  subst hv99
  -- k0_part52
  simp only [k0_part52_eq_skeleton]; unfold k0_part52_skel
  simp only [Prog.lift, Prog.bind_op, Prog.bind_ret, Prog.pure_eq_ret, Prog.bind_assoc, dev55_eq c, dev56_eq c]
  iapply (wp_load_w6 c fullShare _) $$ Hx6
  iintro %v100 %hv100 Hx6
  subst hv100
  iapply (wp_load_acc c 0 fullShare _) $$ Hac0
  iintro %v101 %hv101 Hac0
  iapply (wp_store_acc c 0 _ _) $$ Hac0
  iintro Hac0
  ihave Hac0 := (accAt_congr c 0 fullShare (show _ = sentV (Bm) 2 0 c 0 from mlp_payload1 v98 ((Bm).wi 2 c) ((Bm).wo 2 c) _ hv98)) $$ Hac0
  -- issue group 16: layer 2, round 0, tile 0
  ihave Hsp := (acc_shares (F := F) c 0 (sentV (Bm) 2 0 c 0)).1 $$ Hac0
  icases Hsp with ⟨Hq0_0, Hq0_1, Hq0_2⟩
  iapply (wp_copyC (Bm) c KS KR 50 2 0 0 2 rfl rfl rfl rfl ⟨k0_dev55 c, k0_dev55_lt c⟩ (dev55_eq c) (O₁ := owedRev c 24) (O := owedRev c 23) rfl) $$ HIS HIRD Hq0_2 Hd50 HO HtS50 HrS HtR50 HrR
  iintro ⟨Hcs50, HO⟩
  iapply (wp_copyC (Bm) c KS KR 49 2 0 0 1 rfl rfl rfl rfl ⟨k0_dev56 c, k0_dev56_lt c⟩ (dev56_eq c) (O₁ := owedRev c 23) (O := owedRev c 22) rfl) $$ HIS HIRD Hq0_1 Hd49 HO HtS49 HrS HtR49 HrR
  iintro ⟨Hcs49, HO⟩
  -- k0_part53
  simp only [k0_part53_eq_skeleton]; unfold k0_part53_skel
  simp only [Prog.lift, Prog.bind_op, Prog.bind_ret, Prog.pure_eq_ret, Prog.bind_assoc, dev57_eq c]
  iapply (wp_copyC (Bm) c KS KR 48 2 0 0 0 rfl rfl rfl rfl ⟨k0_dev57 c, k0_dev57_lt c⟩ (dev57_eq c) (O₁ := owedRev c 22) (O := owedRev c 21) rfl) $$ HIS HIRD Hq0_0 Hd48 HO HtS48 HrS HtR48 HrR
  iintro ⟨Hcs48, HO⟩
  iapply (wp_sendwaitC (Bm) c KS 41 1 1 1 2 rfl rfl rfl rfl 21 (src := slotM 41) (dst := accM 1) rfl) $$ HIS Hcs41 HO Hlev HaS41
  iintro ⟨HO, HaS41, Hsh41⟩
  iapply (wp_recvwaitC (Bm) c KR 41 1 1 1 2 rfl rfl rfl rfl 21 (by decide) (by decide) (src := accM 1) (dst := slotM 41) rfl) $$ HIR HcR41 HO Hlev HaR41
  iintro ⟨HO, HaR41, Hsl41⟩
  -- k0_part54
  simp only [k0_part54_eq_skeleton]; unfold k0_part54_skel
  simp only [Prog.lift, Prog.bind_op, Prog.bind_ret, Prog.pure_eq_ret, Prog.bind_assoc]
  iapply (wp_sendwaitC (Bm) c KS 40 1 1 1 1 rfl rfl rfl rfl 21 (src := slotM 40) (dst := accM 1) rfl) $$ HIS Hcs40 HO Hlev HaS40
  iintro ⟨HO, HaS40, Hsh40⟩
  iapply (wp_recvwaitC (Bm) c KR 40 1 1 1 1 rfl rfl rfl rfl 21 (by decide) (by decide) (src := accM 1) (dst := slotM 40) rfl) $$ HIR HcR40 HO Hlev HaR40
  iintro ⟨HO, HaR40, Hsl40⟩
  iapply (wp_sendwaitC (Bm) c KS 39 1 1 1 0 rfl rfl rfl rfl 21 (src := slotM 39) (dst := accM 1) rfl) $$ HIS Hcs39 HO Hlev HaS39
  iintro ⟨HO, HaS39, Hsh39⟩
  -- k0_part55
  simp only [k0_part55_eq_skeleton]; unfold k0_part55_skel
  simp only [Prog.lift, Prog.bind_op, Prog.bind_ret, Prog.pure_eq_ret, Prog.bind_assoc]
  iapply (wp_recvwaitC (Bm) c KR 39 1 1 1 0 rfl rfl rfl rfl 21 (by decide) (by decide) (src := accM 1) (dst := slotM 39) rfl) $$ HIR HcR39 HO Hlev HaR39
  iintro ⟨HO, HaR39, Hsl39⟩
  ihave Hac1 := (acc_join3 (F := F) c 1 (sentV (Bm) 1 1 c 1)) $$ Hsh39 Hsh40 Hsh41
  iapply (wp_load_acc c 1 fullShare _) $$ Hac1
  iintro %v102 %hv102 Hac1
  iapply (wp_load_slot c 39 _) $$ Hsl39
  iintro %v103 %hv103 Hsl39
  iapply (wp_load_slot c 40 _) $$ Hsl40
  iintro %v104 %hv104 Hsl40
  iapply (wp_load_slot c 41 _) $$ Hsl41
  iintro %v105 %hv105 Hsl41
  iapply (wp_load_acc c 1 fullShare _) $$ Hac1
  iintro %v106 %hv106 Hac1
  iapply (wp_store_acc c 1 _ _) $$ Hac1
  iintro Hac1
  ihave Hac1 := (accAt_congr c 1 fullShare (show _ = xin (Bm) 2 c 1 from sum_payload _ _ _ _ _ _ _ _ hv102 hv103 hv104 hv105)) $$ Hac1
  iapply (wp_load_acc c 1 fullShare _) $$ Hac1
  iintro %v107 %hv107 Hac1
  iapply (wp_load_w5 c fullShare _) $$ Hx5
  iintro %v108 %hv108 Hx5
  subst hv108
  iapply (wp_load_w6 c fullShare _) $$ Hx6
  iintro %v109 %hv109 Hx6
  subst hv109
  iapply (wp_load_acc c 1 fullShare _) $$ Hac1
  iintro %v110 %hv110 Hac1
  -- k0_part56
  simp only [k0_part56_eq_skeleton]; unfold k0_part56_skel
  simp only [Prog.lift, Prog.bind_op, Prog.bind_ret, Prog.pure_eq_ret, Prog.bind_assoc, dev58_eq c, dev59_eq c]
  iapply (wp_store_acc c 1 _ _) $$ Hac1
  iintro Hac1
  ihave Hac1 := (accAt_congr c 1 fullShare (show _ = sentV (Bm) 2 0 c 1 from mlp_payload1 v107 ((Bm).wi 2 c) ((Bm).wo 2 c) _ hv107)) $$ Hac1
  -- issue group 17: layer 2, round 0, tile 1
  ihave Hsp := (acc_shares (F := F) c 1 (sentV (Bm) 2 0 c 1)).1 $$ Hac1
  icases Hsp with ⟨Hq1_0, Hq1_1, Hq1_2⟩
  iapply (wp_copyC (Bm) c KS KR 53 2 0 1 2 rfl rfl rfl rfl ⟨k0_dev58 c, k0_dev58_lt c⟩ (dev58_eq c) (O₁ := owedRev c 21) (O := owedRev c 20) rfl) $$ HIS HIRD Hq1_2 Hd53 HO HtS53 HrS HtR53 HrR
  iintro ⟨Hcs53, HO⟩
  iapply (wp_copyC (Bm) c KS KR 52 2 0 1 1 rfl rfl rfl rfl ⟨k0_dev59 c, k0_dev59_lt c⟩ (dev59_eq c) (O₁ := owedRev c 20) (O := owedRev c 19) rfl) $$ HIS HIRD Hq1_1 Hd52 HO HtS52 HrS HtR52 HrR
  iintro ⟨Hcs52, HO⟩
  -- k0_part57
  simp only [k0_part57_eq_skeleton]; unfold k0_part57_skel
  simp only [Prog.lift, Prog.bind_op, Prog.bind_ret, Prog.pure_eq_ret, Prog.bind_assoc, dev60_eq c]
  iapply (wp_copyC (Bm) c KS KR 51 2 0 1 0 rfl rfl rfl rfl ⟨k0_dev60 c, k0_dev60_lt c⟩ (dev60_eq c) (O₁ := owedRev c 19) (O := owedRev c 18) rfl) $$ HIS HIRD Hq1_0 Hd51 HO HtS51 HrS HtR51 HrR
  iintro ⟨Hcs51, HO⟩
  iapply (wp_sendwaitC (Bm) c KS 44 1 1 2 2 rfl rfl rfl rfl 18 (src := slotM 44) (dst := accM 2) rfl) $$ HIS Hcs44 HO Hlev HaS44
  iintro ⟨HO, HaS44, Hsh44⟩
  iapply (wp_recvwaitC (Bm) c KR 44 1 1 2 2 rfl rfl rfl rfl 18 (by decide) (by decide) (src := accM 2) (dst := slotM 44) rfl) $$ HIR HcR44 HO Hlev HaR44
  iintro ⟨HO, HaR44, Hsl44⟩
  iapply (wp_sendwaitC (Bm) c KS 43 1 1 2 1 rfl rfl rfl rfl 18 (src := slotM 43) (dst := accM 2) rfl) $$ HIS Hcs43 HO Hlev HaS43
  iintro ⟨HO, HaS43, Hsh43⟩
  -- k0_part58
  simp only [k0_part58_eq_skeleton]; unfold k0_part58_skel
  simp only [Prog.lift, Prog.bind_op, Prog.bind_ret, Prog.pure_eq_ret, Prog.bind_assoc]
  iapply (wp_recvwaitC (Bm) c KR 43 1 1 2 1 rfl rfl rfl rfl 18 (by decide) (by decide) (src := accM 2) (dst := slotM 43) rfl) $$ HIR HcR43 HO Hlev HaR43
  iintro ⟨HO, HaR43, Hsl43⟩
  iapply (wp_sendwaitC (Bm) c KS 42 1 1 2 0 rfl rfl rfl rfl 18 (src := slotM 42) (dst := accM 2) rfl) $$ HIS Hcs42 HO Hlev HaS42
  iintro ⟨HO, HaS42, Hsh42⟩
  iapply (wp_recvwaitC (Bm) c KR 42 1 1 2 0 rfl rfl rfl rfl 18 (by decide) (by decide) (src := accM 2) (dst := slotM 42) rfl) $$ HIR HcR42 HO Hlev HaR42
  iintro ⟨HO, HaR42, Hsl42⟩
  ihave Hac2 := (acc_join3 (F := F) c 2 (sentV (Bm) 1 1 c 2)) $$ Hsh42 Hsh43 Hsh44
  iapply (wp_load_acc c 2 fullShare _) $$ Hac2
  iintro %v111 %hv111 Hac2
  iapply (wp_load_slot c 42 _) $$ Hsl42
  iintro %v112 %hv112 Hsl42
  -- k0_part59
  simp only [k0_part59_eq_skeleton]; unfold k0_part59_skel
  simp only [Prog.lift, Prog.bind_op, Prog.bind_ret, Prog.pure_eq_ret, Prog.bind_assoc]
  iapply (wp_load_slot c 43 _) $$ Hsl43
  iintro %v113 %hv113 Hsl43
  iapply (wp_load_slot c 44 _) $$ Hsl44
  iintro %v114 %hv114 Hsl44
  iapply (wp_load_acc c 2 fullShare _) $$ Hac2
  iintro %v115 %hv115 Hac2
  iapply (wp_store_acc c 2 _ _) $$ Hac2
  iintro Hac2
  ihave Hac2 := (accAt_congr c 2 fullShare (show _ = xin (Bm) 2 c 2 from sum_payload _ _ _ _ _ _ _ _ hv111 hv112 hv113 hv114)) $$ Hac2
  iapply (wp_load_acc c 2 fullShare _) $$ Hac2
  iintro %v116 %hv116 Hac2
  iapply (wp_load_w5 c fullShare _) $$ Hx5
  iintro %v117 %hv117 Hx5
  subst hv117
  iapply (wp_load_w6 c fullShare _) $$ Hx6
  iintro %v118 %hv118 Hx6
  subst hv118
  iapply (wp_load_acc c 2 fullShare _) $$ Hac2
  iintro %v119 %hv119 Hac2
  iapply (wp_store_acc c 2 _ _) $$ Hac2
  iintro Hac2
  ihave Hac2 := (accAt_congr c 2 fullShare (show _ = sentV (Bm) 2 0 c 2 from mlp_payload1 v116 ((Bm).wi 2 c) ((Bm).wo 2 c) _ hv116)) $$ Hac2
  -- k0_part60
  simp only [k0_part60_eq_skeleton]; unfold k0_part60_skel
  simp only [Prog.lift, Prog.bind_op, Prog.bind_ret, Prog.pure_eq_ret, Prog.bind_assoc, dev61_eq c, dev62_eq c, dev63_eq c]
  -- issue group 18: layer 2, round 0, tile 2
  ihave Hsp := (acc_shares (F := F) c 2 (sentV (Bm) 2 0 c 2)).1 $$ Hac2
  icases Hsp with ⟨Hq2_0, Hq2_1, Hq2_2⟩
  iapply (wp_copyC (Bm) c KS KR 56 2 0 2 2 rfl rfl rfl rfl ⟨k0_dev61 c, k0_dev61_lt c⟩ (dev61_eq c) (O₁ := owedRev c 18) (O := owedRev c 17) rfl) $$ HIS HIRD Hq2_2 Hd56 HO HtS56 HrS HtR56 HrR
  iintro ⟨Hcs56, HO⟩
  iapply (wp_copyC (Bm) c KS KR 55 2 0 2 1 rfl rfl rfl rfl ⟨k0_dev62 c, k0_dev62_lt c⟩ (dev62_eq c) (O₁ := owedRev c 17) (O := owedRev c 16) rfl) $$ HIS HIRD Hq2_1 Hd55 HO HtS55 HrS HtR55 HrR
  iintro ⟨Hcs55, HO⟩
  iapply (wp_copyC (Bm) c KS KR 54 2 0 2 0 rfl rfl rfl rfl ⟨k0_dev63 c, k0_dev63_lt c⟩ (dev63_eq c) (O₁ := owedRev c 16) (O := owedRev c 15) rfl) $$ HIS HIRD Hq2_0 Hd54 HO HtS54 HrS HtR54 HrR
  iintro ⟨Hcs54, HO⟩
  -- k0_part61
  simp only [k0_part61_eq_skeleton]; unfold k0_part61_skel
  simp only [Prog.lift, Prog.bind_op, Prog.bind_ret, Prog.pure_eq_ret, Prog.bind_assoc]
  iapply (wp_sendwaitC (Bm) c KS 47 1 1 3 2 rfl rfl rfl rfl 15 (src := slotM 47) (dst := accM 3) rfl) $$ HIS Hcs47 HO Hlev HaS47
  iintro ⟨HO, HaS47, Hsh47⟩
  iapply (wp_recvwaitC (Bm) c KR 47 1 1 3 2 rfl rfl rfl rfl 15 (by decide) (by decide) (src := accM 3) (dst := slotM 47) rfl) $$ HIR HcR47 HO Hlev HaR47
  iintro ⟨HO, HaR47, Hsl47⟩
  iapply (wp_sendwaitC (Bm) c KS 46 1 1 3 1 rfl rfl rfl rfl 15 (src := slotM 46) (dst := accM 3) rfl) $$ HIS Hcs46 HO Hlev HaS46
  iintro ⟨HO, HaS46, Hsh46⟩
  -- k0_part62
  simp only [k0_part62_eq_skeleton]; unfold k0_part62_skel
  simp only [Prog.lift, Prog.bind_op, Prog.bind_ret, Prog.pure_eq_ret, Prog.bind_assoc]
  iapply (wp_recvwaitC (Bm) c KR 46 1 1 3 1 rfl rfl rfl rfl 15 (by decide) (by decide) (src := accM 3) (dst := slotM 46) rfl) $$ HIR HcR46 HO Hlev HaR46
  iintro ⟨HO, HaR46, Hsl46⟩
  iapply (wp_sendwaitC (Bm) c KS 45 1 1 3 0 rfl rfl rfl rfl 15 (src := slotM 45) (dst := accM 3) rfl) $$ HIS Hcs45 HO Hlev HaS45
  iintro ⟨HO, HaS45, Hsh45⟩
  iapply (wp_recvwaitC (Bm) c KR 45 1 1 3 0 rfl rfl rfl rfl 15 (by decide) (by decide) (src := accM 3) (dst := slotM 45) rfl) $$ HIR HcR45 HO Hlev HaR45
  iintro ⟨HO, HaR45, Hsl45⟩
  ihave Hac3 := (acc_join3 (F := F) c 3 (sentV (Bm) 1 1 c 3)) $$ Hsh45 Hsh46 Hsh47
  iapply (wp_load_acc c 3 fullShare _) $$ Hac3
  iintro %v120 %hv120 Hac3
  iapply (wp_load_slot c 45 _) $$ Hsl45
  iintro %v121 %hv121 Hsl45
  iapply (wp_load_slot c 46 _) $$ Hsl46
  iintro %v122 %hv122 Hsl46
  iapply (wp_load_slot c 47 _) $$ Hsl47
  iintro %v123 %hv123 Hsl47
  -- k0_part63
  simp only [k0_part63_eq_skeleton]; unfold k0_part63_skel
  simp only [Prog.lift, Prog.bind_op, Prog.bind_ret, Prog.pure_eq_ret, Prog.bind_assoc, dev64_eq c]
  iapply (wp_load_acc c 3 fullShare _) $$ Hac3
  iintro %v124 %hv124 Hac3
  iapply (wp_store_acc c 3 _ _) $$ Hac3
  iintro Hac3
  ihave Hac3 := (accAt_congr c 3 fullShare (show _ = xin (Bm) 2 c 3 from sum_payload _ _ _ _ _ _ _ _ hv120 hv121 hv122 hv123)) $$ Hac3
  iapply (wp_load_acc c 3 fullShare _) $$ Hac3
  iintro %v125 %hv125 Hac3
  iapply (wp_load_w5 c fullShare _) $$ Hx5
  iintro %v126 %hv126 Hx5
  subst hv126
  iapply (wp_load_w6 c fullShare _) $$ Hx6
  iintro %v127 %hv127 Hx6
  subst hv127
  iapply (wp_load_acc c 3 fullShare _) $$ Hac3
  iintro %v128 %hv128 Hac3
  iapply (wp_store_acc c 3 _ _) $$ Hac3
  iintro Hac3
  ihave Hac3 := (accAt_congr c 3 fullShare (show _ = sentV (Bm) 2 0 c 3 from mlp_payload1 v125 ((Bm).wi 2 c) ((Bm).wo 2 c) _ hv125)) $$ Hac3
  -- issue group 19: layer 2, round 0, tile 3
  ihave Hsp := (acc_shares (F := F) c 3 (sentV (Bm) 2 0 c 3)).1 $$ Hac3
  icases Hsp with ⟨Hq3_0, Hq3_1, Hq3_2⟩
  iapply (wp_copyC (Bm) c KS KR 59 2 0 3 2 rfl rfl rfl rfl ⟨k0_dev64 c, k0_dev64_lt c⟩ (dev64_eq c) (O₁ := owedRev c 15) (O := owedRev c 14) rfl) $$ HIS HIRD Hq3_2 Hd59 HO HtS59 HrS HtR59 HrR
  iintro ⟨Hcs59, HO⟩
  -- k0_part64
  simp only [k0_part64_eq_skeleton]; unfold k0_part64_skel
  simp only [Prog.lift, Prog.bind_op, Prog.bind_ret, Prog.pure_eq_ret, Prog.bind_assoc, dev65_eq c, dev66_eq c]
  iapply (wp_copyC (Bm) c KS KR 58 2 0 3 1 rfl rfl rfl rfl ⟨k0_dev65 c, k0_dev65_lt c⟩ (dev65_eq c) (O₁ := owedRev c 14) (O := owedRev c 13) rfl) $$ HIS HIRD Hq3_1 Hd58 HO HtS58 HrS HtR58 HrR
  iintro ⟨Hcs58, HO⟩
  iapply (wp_copyC (Bm) c KS KR 57 2 0 3 0 rfl rfl rfl rfl ⟨k0_dev66 c, k0_dev66_lt c⟩ (dev66_eq c) (O₁ := owedRev c 13) (O := owedRev c 12) rfl) $$ HIS HIRD Hq3_0 Hd57 HO HtS57 HrS HtR57 HrR
  iintro ⟨Hcs57, HO⟩
  iapply (wp_sendwaitC (Bm) c KS 50 2 0 0 2 rfl rfl rfl rfl 12 (src := slotM 50) (dst := accM 0) rfl) $$ HIS Hcs50 HO Hlev HaS50
  iintro ⟨HO, HaS50, Hsh50⟩
  -- k0_part65
  simp only [k0_part65_eq_skeleton]; unfold k0_part65_skel
  simp only [Prog.lift, Prog.bind_op, Prog.bind_ret, Prog.pure_eq_ret, Prog.bind_assoc]
  iapply (wp_recvwaitC (Bm) c KR 50 2 0 0 5 rfl rfl rfl rfl 12 (by decide) (by decide) (src := accM 0) (dst := slotM 50) rfl) $$ HIR HcR50 HO Hlev HaR50
  iintro ⟨HO, HaR50, Hsl50⟩
  iapply (wp_sendwaitC (Bm) c KS 49 2 0 0 1 rfl rfl rfl rfl 12 (src := slotM 49) (dst := accM 0) rfl) $$ HIS Hcs49 HO Hlev HaS49
  iintro ⟨HO, HaS49, Hsh49⟩
  iapply (wp_recvwaitC (Bm) c KR 49 2 0 0 4 rfl rfl rfl rfl 12 (by decide) (by decide) (src := accM 0) (dst := slotM 49) rfl) $$ HIR HcR49 HO Hlev HaR49
  iintro ⟨HO, HaR49, Hsl49⟩
  -- k0_part66
  simp only [k0_part66_eq_skeleton]; unfold k0_part66_skel
  simp only [Prog.lift, Prog.bind_op, Prog.bind_ret, Prog.pure_eq_ret, Prog.bind_assoc]
  iapply (wp_sendwaitC (Bm) c KS 48 2 0 0 0 rfl rfl rfl rfl 12 (src := slotM 48) (dst := accM 0) rfl) $$ HIS Hcs48 HO Hlev HaS48
  iintro ⟨HO, HaS48, Hsh48⟩
  iapply (wp_recvwaitC (Bm) c KR 48 2 0 0 3 rfl rfl rfl rfl 12 (by decide) (by decide) (src := accM 0) (dst := slotM 48) rfl) $$ HIR HcR48 HO Hlev HaR48
  iintro ⟨HO, HaR48, Hsl48⟩
  ihave Hac0 := (acc_join3 (F := F) c 0 (sentV (Bm) 2 0 c 0)) $$ Hsh48 Hsh49 Hsh50
  iapply (wp_load_acc c 0 fullShare _) $$ Hac0
  iintro %v129 %hv129 Hac0
  iapply (wp_load_slot c 48 _) $$ Hsl48
  iintro %v130 %hv130 Hsl48
  iapply (wp_load_slot c 49 _) $$ Hsl49
  iintro %v131 %hv131 Hsl49
  iapply (wp_load_slot c 50 _) $$ Hsl50
  iintro %v132 %hv132 Hsl50
  iapply (wp_load_acc c 0 fullShare _) $$ Hac0
  iintro %v133 %hv133 Hac0
  iapply (wp_store_acc c 0 _ _) $$ Hac0
  iintro Hac0
  ihave Hac0 := (accAt_congr c 0 fullShare (show _ = sentV (Bm) 2 1 c 0 from sum_payload _ _ _ _ _ _ _ _ hv129 hv130 hv131 hv132)) $$ Hac0
  -- k0_part67
  simp only [k0_part67_eq_skeleton]; unfold k0_part67_skel
  simp only [Prog.lift, Prog.bind_op, Prog.bind_ret, Prog.pure_eq_ret, Prog.bind_assoc, dev67_eq c, dev68_eq c, dev69_eq c]
  -- issue group 20: layer 2, round 1, tile 0
  ihave Hsp := (acc_shares (F := F) c 0 (sentV (Bm) 2 1 c 0)).1 $$ Hac0
  icases Hsp with ⟨Hq0_0, Hq0_1, Hq0_2⟩
  iapply (wp_copyC (Bm) c KS KR 62 2 1 0 2 rfl rfl rfl rfl ⟨k0_dev67 c, k0_dev67_lt c⟩ (dev67_eq c) (O₁ := owedRev c 12) (O := owedRev c 11) rfl) $$ HIS HIRD Hq0_2 Hd62 HO HtS62 HrS HtR62 HrR
  iintro ⟨Hcs62, HO⟩
  iapply (wp_copyC (Bm) c KS KR 61 2 1 0 1 rfl rfl rfl rfl ⟨k0_dev68 c, k0_dev68_lt c⟩ (dev68_eq c) (O₁ := owedRev c 11) (O := owedRev c 10) rfl) $$ HIS HIRD Hq0_1 Hd61 HO HtS61 HrS HtR61 HrR
  iintro ⟨Hcs61, HO⟩
  iapply (wp_copyC (Bm) c KS KR 60 2 1 0 0 rfl rfl rfl rfl ⟨k0_dev69 c, k0_dev69_lt c⟩ (dev69_eq c) (O₁ := owedRev c 10) (O := owedRev c 9) rfl) $$ HIS HIRD Hq0_0 Hd60 HO HtS60 HrS HtR60 HrR
  iintro ⟨Hcs60, HO⟩
  -- k0_part68
  simp only [k0_part68_eq_skeleton]; unfold k0_part68_skel
  simp only [Prog.lift, Prog.bind_op, Prog.bind_ret, Prog.pure_eq_ret, Prog.bind_assoc]
  iapply (wp_sendwaitC (Bm) c KS 53 2 0 1 2 rfl rfl rfl rfl 9 (src := slotM 53) (dst := accM 1) rfl) $$ HIS Hcs53 HO Hlev HaS53
  iintro ⟨HO, HaS53, Hsh53⟩
  iapply (wp_recvwaitC (Bm) c KR 53 2 0 1 5 rfl rfl rfl rfl 9 (by decide) (by decide) (src := accM 1) (dst := slotM 53) rfl) $$ HIR HcR53 HO Hlev HaR53
  iintro ⟨HO, HaR53, Hsl53⟩
  iapply (wp_sendwaitC (Bm) c KS 52 2 0 1 1 rfl rfl rfl rfl 9 (src := slotM 52) (dst := accM 1) rfl) $$ HIS Hcs52 HO Hlev HaS52
  iintro ⟨HO, HaS52, Hsh52⟩
  -- k0_part69
  simp only [k0_part69_eq_skeleton]; unfold k0_part69_skel
  simp only [Prog.lift, Prog.bind_op, Prog.bind_ret, Prog.pure_eq_ret, Prog.bind_assoc]
  iapply (wp_recvwaitC (Bm) c KR 52 2 0 1 4 rfl rfl rfl rfl 9 (by decide) (by decide) (src := accM 1) (dst := slotM 52) rfl) $$ HIR HcR52 HO Hlev HaR52
  iintro ⟨HO, HaR52, Hsl52⟩
  iapply (wp_sendwaitC (Bm) c KS 51 2 0 1 0 rfl rfl rfl rfl 9 (src := slotM 51) (dst := accM 1) rfl) $$ HIS Hcs51 HO Hlev HaS51
  iintro ⟨HO, HaS51, Hsh51⟩
  iapply (wp_recvwaitC (Bm) c KR 51 2 0 1 3 rfl rfl rfl rfl 9 (by decide) (by decide) (src := accM 1) (dst := slotM 51) rfl) $$ HIR HcR51 HO Hlev HaR51
  iintro ⟨HO, HaR51, Hsl51⟩
  ihave Hac1 := (acc_join3 (F := F) c 1 (sentV (Bm) 2 0 c 1)) $$ Hsh51 Hsh52 Hsh53
  iapply (wp_load_acc c 1 fullShare _) $$ Hac1
  iintro %v134 %hv134 Hac1
  iapply (wp_load_slot c 51 _) $$ Hsl51
  iintro %v135 %hv135 Hsl51
  iapply (wp_load_slot c 52 _) $$ Hsl52
  iintro %v136 %hv136 Hsl52
  iapply (wp_load_slot c 53 _) $$ Hsl53
  iintro %v137 %hv137 Hsl53
  -- k0_part70
  simp only [k0_part70_eq_skeleton]; unfold k0_part70_skel
  simp only [Prog.lift, Prog.bind_op, Prog.bind_ret, Prog.pure_eq_ret, Prog.bind_assoc, dev70_eq c, dev71_eq c]
  iapply (wp_load_acc c 1 fullShare _) $$ Hac1
  iintro %v138 %hv138 Hac1
  iapply (wp_store_acc c 1 _ _) $$ Hac1
  iintro Hac1
  ihave Hac1 := (accAt_congr c 1 fullShare (show _ = sentV (Bm) 2 1 c 1 from sum_payload _ _ _ _ _ _ _ _ hv134 hv135 hv136 hv137)) $$ Hac1
  -- issue group 21: layer 2, round 1, tile 1
  ihave Hsp := (acc_shares (F := F) c 1 (sentV (Bm) 2 1 c 1)).1 $$ Hac1
  icases Hsp with ⟨Hq1_0, Hq1_1, Hq1_2⟩
  iapply (wp_copyC (Bm) c KS KR 65 2 1 1 2 rfl rfl rfl rfl ⟨k0_dev70 c, k0_dev70_lt c⟩ (dev70_eq c) (O₁ := owedRev c 9) (O := owedRev c 8) rfl) $$ HIS HIRD Hq1_2 Hd65 HO HtS65 HrS HtR65 HrR
  iintro ⟨Hcs65, HO⟩
  iapply (wp_copyC (Bm) c KS KR 64 2 1 1 1 rfl rfl rfl rfl ⟨k0_dev71 c, k0_dev71_lt c⟩ (dev71_eq c) (O₁ := owedRev c 8) (O := owedRev c 7) rfl) $$ HIS HIRD Hq1_1 Hd64 HO HtS64 HrS HtR64 HrR
  iintro ⟨Hcs64, HO⟩
  -- k0_part71
  simp only [k0_part71_eq_skeleton]; unfold k0_part71_skel
  simp only [Prog.lift, Prog.bind_op, Prog.bind_ret, Prog.pure_eq_ret, Prog.bind_assoc, dev72_eq c]
  iapply (wp_copyC (Bm) c KS KR 63 2 1 1 0 rfl rfl rfl rfl ⟨k0_dev72 c, k0_dev72_lt c⟩ (dev72_eq c) (O₁ := owedRev c 7) (O := owedRev c 6) rfl) $$ HIS HIRD Hq1_0 Hd63 HO HtS63 HrS HtR63 HrR
  iintro ⟨Hcs63, HO⟩
  iapply (wp_sendwaitC (Bm) c KS 56 2 0 2 2 rfl rfl rfl rfl 6 (src := slotM 56) (dst := accM 2) rfl) $$ HIS Hcs56 HO Hlev HaS56
  iintro ⟨HO, HaS56, Hsh56⟩
  iapply (wp_recvwaitC (Bm) c KR 56 2 0 2 5 rfl rfl rfl rfl 6 (by decide) (by decide) (src := accM 2) (dst := slotM 56) rfl) $$ HIR HcR56 HO Hlev HaR56
  iintro ⟨HO, HaR56, Hsl56⟩
  -- k0_part72
  simp only [k0_part72_eq_skeleton]; unfold k0_part72_skel
  simp only [Prog.lift, Prog.bind_op, Prog.bind_ret, Prog.pure_eq_ret, Prog.bind_assoc]
  iapply (wp_sendwaitC (Bm) c KS 55 2 0 2 1 rfl rfl rfl rfl 6 (src := slotM 55) (dst := accM 2) rfl) $$ HIS Hcs55 HO Hlev HaS55
  iintro ⟨HO, HaS55, Hsh55⟩
  iapply (wp_recvwaitC (Bm) c KR 55 2 0 2 4 rfl rfl rfl rfl 6 (by decide) (by decide) (src := accM 2) (dst := slotM 55) rfl) $$ HIR HcR55 HO Hlev HaR55
  iintro ⟨HO, HaR55, Hsl55⟩
  iapply (wp_sendwaitC (Bm) c KS 54 2 0 2 0 rfl rfl rfl rfl 6 (src := slotM 54) (dst := accM 2) rfl) $$ HIS Hcs54 HO Hlev HaS54
  iintro ⟨HO, HaS54, Hsh54⟩
  iapply (wp_recvwaitC (Bm) c KR 54 2 0 2 3 rfl rfl rfl rfl 6 (by decide) (by decide) (src := accM 2) (dst := slotM 54) rfl) $$ HIR HcR54 HO Hlev HaR54
  iintro ⟨HO, HaR54, Hsl54⟩
  ihave Hac2 := (acc_join3 (F := F) c 2 (sentV (Bm) 2 0 c 2)) $$ Hsh54 Hsh55 Hsh56
  -- k0_part73
  simp only [k0_part73_eq_skeleton]; unfold k0_part73_skel
  simp only [Prog.lift, Prog.bind_op, Prog.bind_ret, Prog.pure_eq_ret, Prog.bind_assoc, dev73_eq c]
  iapply (wp_load_acc c 2 fullShare _) $$ Hac2
  iintro %v139 %hv139 Hac2
  iapply (wp_load_slot c 54 _) $$ Hsl54
  iintro %v140 %hv140 Hsl54
  iapply (wp_load_slot c 55 _) $$ Hsl55
  iintro %v141 %hv141 Hsl55
  iapply (wp_load_slot c 56 _) $$ Hsl56
  iintro %v142 %hv142 Hsl56
  iapply (wp_load_acc c 2 fullShare _) $$ Hac2
  iintro %v143 %hv143 Hac2
  iapply (wp_store_acc c 2 _ _) $$ Hac2
  iintro Hac2
  ihave Hac2 := (accAt_congr c 2 fullShare (show _ = sentV (Bm) 2 1 c 2 from sum_payload _ _ _ _ _ _ _ _ hv139 hv140 hv141 hv142)) $$ Hac2
  -- issue group 22: layer 2, round 1, tile 2
  ihave Hsp := (acc_shares (F := F) c 2 (sentV (Bm) 2 1 c 2)).1 $$ Hac2
  icases Hsp with ⟨Hq2_0, Hq2_1, Hq2_2⟩
  iapply (wp_copyC (Bm) c KS KR 68 2 1 2 2 rfl rfl rfl rfl ⟨k0_dev73 c, k0_dev73_lt c⟩ (dev73_eq c) (O₁ := owedRev c 6) (O := owedRev c 5) rfl) $$ HIS HIRD Hq2_2 Hd68 HO HtS68 HrS HtR68 HrR
  iintro ⟨Hcs68, HO⟩
  -- k0_part74
  simp only [k0_part74_eq_skeleton]; unfold k0_part74_skel
  simp only [Prog.lift, Prog.bind_op, Prog.bind_ret, Prog.pure_eq_ret, Prog.bind_assoc, dev74_eq c, dev75_eq c]
  iapply (wp_copyC (Bm) c KS KR 67 2 1 2 1 rfl rfl rfl rfl ⟨k0_dev74 c, k0_dev74_lt c⟩ (dev74_eq c) (O₁ := owedRev c 5) (O := owedRev c 4) rfl) $$ HIS HIRD Hq2_1 Hd67 HO HtS67 HrS HtR67 HrR
  iintro ⟨Hcs67, HO⟩
  iapply (wp_copyC (Bm) c KS KR 66 2 1 2 0 rfl rfl rfl rfl ⟨k0_dev75 c, k0_dev75_lt c⟩ (dev75_eq c) (O₁ := owedRev c 4) (O := owedRev c 3) rfl) $$ HIS HIRD Hq2_0 Hd66 HO HtS66 HrS HtR66 HrR
  iintro ⟨Hcs66, HO⟩
  iapply (wp_sendwaitC (Bm) c KS 59 2 0 3 2 rfl rfl rfl rfl 3 (src := slotM 59) (dst := accM 3) rfl) $$ HIS Hcs59 HO Hlev HaS59
  iintro ⟨HO, HaS59, Hsh59⟩
  -- k0_part75
  simp only [k0_part75_eq_skeleton]; unfold k0_part75_skel
  simp only [Prog.lift, Prog.bind_op, Prog.bind_ret, Prog.pure_eq_ret, Prog.bind_assoc]
  iapply (wp_recvwaitC (Bm) c KR 59 2 0 3 5 rfl rfl rfl rfl 3 (by decide) (by decide) (src := accM 3) (dst := slotM 59) rfl) $$ HIR HcR59 HO Hlev HaR59
  iintro ⟨HO, HaR59, Hsl59⟩
  iapply (wp_sendwaitC (Bm) c KS 58 2 0 3 1 rfl rfl rfl rfl 3 (src := slotM 58) (dst := accM 3) rfl) $$ HIS Hcs58 HO Hlev HaS58
  iintro ⟨HO, HaS58, Hsh58⟩
  iapply (wp_recvwaitC (Bm) c KR 58 2 0 3 4 rfl rfl rfl rfl 3 (by decide) (by decide) (src := accM 3) (dst := slotM 58) rfl) $$ HIR HcR58 HO Hlev HaR58
  iintro ⟨HO, HaR58, Hsl58⟩
  iapply (wp_sendwaitC (Bm) c KS 57 2 0 3 0 rfl rfl rfl rfl 3 (src := slotM 57) (dst := accM 3) rfl) $$ HIS Hcs57 HO Hlev HaS57
  iintro ⟨HO, HaS57, Hsh57⟩
  -- k0_part76
  simp only [k0_part76_eq_skeleton]; unfold k0_part76_skel
  simp only [Prog.lift, Prog.bind_op, Prog.bind_ret, Prog.pure_eq_ret, Prog.bind_assoc]
  iapply (wp_recvwaitC (Bm) c KR 57 2 0 3 3 rfl rfl rfl rfl 3 (by decide) (by decide) (src := accM 3) (dst := slotM 57) rfl) $$ HIR HcR57 HO Hlev HaR57
  iintro ⟨HO, HaR57, Hsl57⟩
  ihave Hac3 := (acc_join3 (F := F) c 3 (sentV (Bm) 2 0 c 3)) $$ Hsh57 Hsh58 Hsh59
  iapply (wp_load_acc c 3 fullShare _) $$ Hac3
  iintro %v144 %hv144 Hac3
  iapply (wp_load_slot c 57 _) $$ Hsl57
  iintro %v145 %hv145 Hsl57
  iapply (wp_load_slot c 58 _) $$ Hsl58
  iintro %v146 %hv146 Hsl58
  iapply (wp_load_slot c 59 _) $$ Hsl59
  iintro %v147 %hv147 Hsl59
  iapply (wp_load_acc c 3 fullShare _) $$ Hac3
  iintro %v148 %hv148 Hac3
  iapply (wp_store_acc c 3 _ _) $$ Hac3
  iintro Hac3
  ihave Hac3 := (accAt_congr c 3 fullShare (show _ = sentV (Bm) 2 1 c 3 from sum_payload _ _ _ _ _ _ _ _ hv144 hv145 hv146 hv147)) $$ Hac3
  -- k0_part77
  simp only [k0_part77_eq_skeleton]; unfold k0_part77_skel
  simp only [Prog.lift, Prog.bind_op, Prog.bind_ret, Prog.pure_eq_ret, Prog.bind_assoc, dev76_eq c, dev77_eq c, dev78_eq c]
  -- issue group 23: layer 2, round 1, tile 3
  ihave Hsp := (acc_shares (F := F) c 3 (sentV (Bm) 2 1 c 3)).1 $$ Hac3
  icases Hsp with ⟨Hq3_0, Hq3_1, Hq3_2⟩
  iapply (wp_copyC (Bm) c KS KR 71 2 1 3 2 rfl rfl rfl rfl ⟨k0_dev76 c, k0_dev76_lt c⟩ (dev76_eq c) (O₁ := owedRev c 3) (O := owedRev c 2) rfl) $$ HIS HIRD Hq3_2 Hd71 HO HtS71 HrS HtR71 HrR
  iintro ⟨Hcs71, HO⟩
  iapply (wp_copyC (Bm) c KS KR 70 2 1 3 1 rfl rfl rfl rfl ⟨k0_dev77 c, k0_dev77_lt c⟩ (dev77_eq c) (O₁ := owedRev c 2) (O := owedRev c 1) rfl) $$ HIS HIRD Hq3_1 Hd70 HO HtS70 HrS HtR70 HrR
  iintro ⟨Hcs70, HO⟩
  iapply (wp_copyC (Bm) c KS KR 69 2 1 3 0 rfl rfl rfl rfl ⟨k0_dev78 c, k0_dev78_lt c⟩ (dev78_eq c) (O₁ := owedRev c 1) (O := owedRev c 0) rfl) $$ HIS HIRD Hq3_0 Hd69 HO HtS69 HrS HtR69 HrR
  iintro ⟨Hcs69, HO⟩
  -- k0_part78
  simp only [k0_part78_eq_skeleton]; unfold k0_part78_skel
  simp only [Prog.lift, Prog.bind_op, Prog.bind_ret, Prog.pure_eq_ret, Prog.bind_assoc]
  iapply (wp_sendwaitC (Bm) c KS 62 2 1 0 2 rfl rfl rfl rfl 0 (src := slotM 62) (dst := accM 0) rfl) $$ HIS Hcs62 HO Hlev HaS62
  iintro ⟨HO, HaS62, Hsh62⟩
  iapply (wp_recvwaitC (Bm) c KR 62 2 1 0 2 rfl rfl rfl rfl 0 (by decide) (by decide) (src := accM 0) (dst := slotM 62) rfl) $$ HIR HcR62 HO Hlev HaR62
  iintro ⟨HO, HaR62, Hsl62⟩
  iapply (wp_sendwaitC (Bm) c KS 61 2 1 0 1 rfl rfl rfl rfl 0 (src := slotM 61) (dst := accM 0) rfl) $$ HIS Hcs61 HO Hlev HaS61
  iintro ⟨HO, HaS61, Hsh61⟩
  iapply (wp_recvwaitC (Bm) c KR 61 2 1 0 1 rfl rfl rfl rfl 0 (by decide) (by decide) (src := accM 0) (dst := slotM 61) rfl) $$ HIR HcR61 HO Hlev HaR61
  iintro ⟨HO, HaR61, Hsl61⟩
  -- k0_part79
  simp only [k0_part79_eq_skeleton]; unfold k0_part79_skel
  simp only [Prog.lift, Prog.bind_op, Prog.bind_ret, Prog.pure_eq_ret, Prog.bind_assoc]
  iapply (wp_sendwaitC (Bm) c KS 60 2 1 0 0 rfl rfl rfl rfl 0 (src := slotM 60) (dst := accM 0) rfl) $$ HIS Hcs60 HO Hlev HaS60
  iintro ⟨HO, HaS60, Hsh60⟩
  iapply (wp_recvwaitC (Bm) c KR 60 2 1 0 0 rfl rfl rfl rfl 0 (by decide) (by decide) (src := accM 0) (dst := slotM 60) rfl) $$ HIR HcR60 HO Hlev HaR60
  iintro ⟨HO, HaR60, Hsl60⟩
  ihave Hac0 := (acc_join3 (F := F) c 0 (sentV (Bm) 2 1 c 0)) $$ Hsh60 Hsh61 Hsh62
  iapply (wp_load_acc c 0 fullShare _) $$ Hac0
  iintro %v149 %hv149 Hac0
  iapply (wp_load_slot c 60 _) $$ Hsl60
  iintro %v150 %hv150 Hsl60
  iapply (wp_load_slot c 61 _) $$ Hsl61
  iintro %v151 %hv151 Hsl61
  iapply (wp_load_slot c 62 _) $$ Hsl62
  iintro %v152 %hv152 Hsl62
  iapply (wp_load_acc c 0 fullShare _) $$ Hac0
  iintro %v153 %hv153 Hac0
  -- k0_part80
  simp only [k0_part80_eq_skeleton]; unfold k0_part80_skel
  simp only [Prog.lift, Prog.bind_op, Prog.bind_ret, Prog.pure_eq_ret, Prog.bind_assoc]
  iapply (wp_store_acc c 0 _ _) $$ Hac0
  iintro Hac0
  ihave Hac0 := (accAt_congr c 0 fullShare (show _ = x3 (Bm) c 0 from sum_payload _ _ _ _ _ _ _ _ hv149 hv150 hv151 hv152)) $$ Hac0
  iapply (wp_load_acc c 0 fullShare _) $$ Hac0
  iintro %v154 %hv154 Hac0
  iapply (wp_load_out c 0 fullShare _) $$ Hx7
  iintro %v155 Hx7
  iapply (wp_store_out c 0 _ _) $$ Hx7
  iintro Hx7
  ihave Hx7 := (out_congr c (congrArg (putRows _ 0) (show shapeCast S16x512 v154 shapeCasts_S1x16x512_S16x512 = x3 (Bm) c 0 from hv154))) $$ Hx7
  iapply (wp_sendwaitC (Bm) c KS 65 2 1 1 2 rfl rfl rfl rfl 0 (src := slotM 65) (dst := accM 1) rfl) $$ HIS Hcs65 HO Hlev HaS65
  iintro ⟨HO, HaS65, Hsh65⟩
  iapply (wp_recvwaitC (Bm) c KR 65 2 1 1 2 rfl rfl rfl rfl 0 (by decide) (by decide) (src := accM 1) (dst := slotM 65) rfl) $$ HIR HcR65 HO Hlev HaR65
  iintro ⟨HO, HaR65, Hsl65⟩
  -- k0_part81
  simp only [k0_part81_eq_skeleton]; unfold k0_part81_skel
  simp only [Prog.lift, Prog.bind_op, Prog.bind_ret, Prog.pure_eq_ret, Prog.bind_assoc]
  iapply (wp_sendwaitC (Bm) c KS 64 2 1 1 1 rfl rfl rfl rfl 0 (src := slotM 64) (dst := accM 1) rfl) $$ HIS Hcs64 HO Hlev HaS64
  iintro ⟨HO, HaS64, Hsh64⟩
  iapply (wp_recvwaitC (Bm) c KR 64 2 1 1 1 rfl rfl rfl rfl 0 (by decide) (by decide) (src := accM 1) (dst := slotM 64) rfl) $$ HIR HcR64 HO Hlev HaR64
  iintro ⟨HO, HaR64, Hsl64⟩
  iapply (wp_sendwaitC (Bm) c KS 63 2 1 1 0 rfl rfl rfl rfl 0 (src := slotM 63) (dst := accM 1) rfl) $$ HIS Hcs63 HO Hlev HaS63
  iintro ⟨HO, HaS63, Hsh63⟩
  iapply (wp_recvwaitC (Bm) c KR 63 2 1 1 0 rfl rfl rfl rfl 0 (by decide) (by decide) (src := accM 1) (dst := slotM 63) rfl) $$ HIR HcR63 HO Hlev HaR63
  iintro ⟨HO, HaR63, Hsl63⟩
  ihave Hac1 := (acc_join3 (F := F) c 1 (sentV (Bm) 2 1 c 1)) $$ Hsh63 Hsh64 Hsh65
  -- k0_part82
  simp only [k0_part82_eq_skeleton]; unfold k0_part82_skel
  simp only [Prog.lift, Prog.bind_op, Prog.bind_ret, Prog.pure_eq_ret, Prog.bind_assoc]
  iapply (wp_load_acc c 1 fullShare _) $$ Hac1
  iintro %v156 %hv156 Hac1
  iapply (wp_load_slot c 63 _) $$ Hsl63
  iintro %v157 %hv157 Hsl63
  iapply (wp_load_slot c 64 _) $$ Hsl64
  iintro %v158 %hv158 Hsl64
  iapply (wp_load_slot c 65 _) $$ Hsl65
  iintro %v159 %hv159 Hsl65
  iapply (wp_load_acc c 1 fullShare _) $$ Hac1
  iintro %v160 %hv160 Hac1
  iapply (wp_store_acc c 1 _ _) $$ Hac1
  iintro Hac1
  ihave Hac1 := (accAt_congr c 1 fullShare (show _ = x3 (Bm) c 1 from sum_payload _ _ _ _ _ _ _ _ hv156 hv157 hv158 hv159)) $$ Hac1
  iapply (wp_load_acc c 1 fullShare _) $$ Hac1
  iintro %v161 %hv161 Hac1
  iapply (wp_load_out c 1 fullShare _) $$ Hx7
  iintro %v162 Hx7
  iapply (wp_store_out c 1 _ _) $$ Hx7
  iintro Hx7
  ihave Hx7 := (out_congr c (congrArg (putRows _ 1) (show shapeCast S16x512 v161 shapeCasts_S1x16x512_S16x512 = x3 (Bm) c 1 from hv161))) $$ Hx7
  iapply (wp_sendwaitC (Bm) c KS 68 2 1 2 2 rfl rfl rfl rfl 0 (src := slotM 68) (dst := accM 2) rfl) $$ HIS Hcs68 HO Hlev HaS68
  iintro ⟨HO, HaS68, Hsh68⟩
  -- k0_part83
  simp only [k0_part83_eq_skeleton]; unfold k0_part83_skel
  simp only [Prog.lift, Prog.bind_op, Prog.bind_ret, Prog.pure_eq_ret, Prog.bind_assoc]
  iapply (wp_recvwaitC (Bm) c KR 68 2 1 2 2 rfl rfl rfl rfl 0 (by decide) (by decide) (src := accM 2) (dst := slotM 68) rfl) $$ HIR HcR68 HO Hlev HaR68
  iintro ⟨HO, HaR68, Hsl68⟩
  iapply (wp_sendwaitC (Bm) c KS 67 2 1 2 1 rfl rfl rfl rfl 0 (src := slotM 67) (dst := accM 2) rfl) $$ HIS Hcs67 HO Hlev HaS67
  iintro ⟨HO, HaS67, Hsh67⟩
  iapply (wp_recvwaitC (Bm) c KR 67 2 1 2 1 rfl rfl rfl rfl 0 (by decide) (by decide) (src := accM 2) (dst := slotM 67) rfl) $$ HIR HcR67 HO Hlev HaR67
  iintro ⟨HO, HaR67, Hsl67⟩
  -- k0_part84
  simp only [k0_part84_eq_skeleton]; unfold k0_part84_skel
  simp only [Prog.lift, Prog.bind_op, Prog.bind_ret, Prog.pure_eq_ret, Prog.bind_assoc]
  iapply (wp_sendwaitC (Bm) c KS 66 2 1 2 0 rfl rfl rfl rfl 0 (src := slotM 66) (dst := accM 2) rfl) $$ HIS Hcs66 HO Hlev HaS66
  iintro ⟨HO, HaS66, Hsh66⟩
  iapply (wp_recvwaitC (Bm) c KR 66 2 1 2 0 rfl rfl rfl rfl 0 (by decide) (by decide) (src := accM 2) (dst := slotM 66) rfl) $$ HIR HcR66 HO Hlev HaR66
  iintro ⟨HO, HaR66, Hsl66⟩
  ihave Hac2 := (acc_join3 (F := F) c 2 (sentV (Bm) 2 1 c 2)) $$ Hsh66 Hsh67 Hsh68
  iapply (wp_load_acc c 2 fullShare _) $$ Hac2
  iintro %v163 %hv163 Hac2
  iapply (wp_load_slot c 66 _) $$ Hsl66
  iintro %v164 %hv164 Hsl66
  iapply (wp_load_slot c 67 _) $$ Hsl67
  iintro %v165 %hv165 Hsl67
  iapply (wp_load_slot c 68 _) $$ Hsl68
  iintro %v166 %hv166 Hsl68
  iapply (wp_load_acc c 2 fullShare _) $$ Hac2
  iintro %v167 %hv167 Hac2
  iapply (wp_store_acc c 2 _ _) $$ Hac2
  iintro Hac2
  ihave Hac2 := (accAt_congr c 2 fullShare (show _ = x3 (Bm) c 2 from sum_payload _ _ _ _ _ _ _ _ hv163 hv164 hv165 hv166)) $$ Hac2
  iapply (wp_load_acc c 2 fullShare _) $$ Hac2
  iintro %v168 %hv168 Hac2
  iapply (wp_load_out c 2 fullShare _) $$ Hx7
  iintro %v169 Hx7
  iapply (wp_store_out c 2 _ _) $$ Hx7
  iintro Hx7
  ihave Hx7 := (out_congr c (congrArg (putRows _ 2) (show shapeCast S16x512 v168 shapeCasts_S1x16x512_S16x512 = x3 (Bm) c 2 from hv168))) $$ Hx7
  -- k0_part85
  simp only [k0_part85_eq_skeleton]; unfold k0_part85_skel
  simp only [Prog.lift, Prog.bind_op, Prog.bind_ret, Prog.pure_eq_ret, Prog.bind_assoc]
  iapply (wp_sendwaitC (Bm) c KS 71 2 1 3 2 rfl rfl rfl rfl 0 (src := slotM 71) (dst := accM 3) rfl) $$ HIS Hcs71 HO Hlev HaS71
  iintro ⟨HO, HaS71, Hsh71⟩
  iapply (wp_recvwaitC (Bm) c KR 71 2 1 3 2 rfl rfl rfl rfl 0 (by decide) (by decide) (src := accM 3) (dst := slotM 71) rfl) $$ HIR HcR71 HO Hlev HaR71
  iintro ⟨HO, HaR71, Hsl71⟩
  iapply (wp_sendwaitC (Bm) c KS 70 2 1 3 1 rfl rfl rfl rfl 0 (src := slotM 70) (dst := accM 3) rfl) $$ HIS Hcs70 HO Hlev HaS70
  iintro ⟨HO, HaS70, Hsh70⟩
  -- k0_part86
  simp only [k0_part86_eq_skeleton]; unfold k0_part86_skel
  simp only [Prog.lift, Prog.bind_op, Prog.bind_ret, Prog.pure_eq_ret, Prog.bind_assoc]
  iapply (wp_recvwaitC (Bm) c KR 70 2 1 3 1 rfl rfl rfl rfl 0 (by decide) (by decide) (src := accM 3) (dst := slotM 70) rfl) $$ HIR HcR70 HO Hlev HaR70
  iintro ⟨HO, HaR70, Hsl70⟩
  iapply (wp_sendwaitC (Bm) c KS 69 2 1 3 0 rfl rfl rfl rfl 0 (src := slotM 69) (dst := accM 3) rfl) $$ HIS Hcs69 HO Hlev HaS69
  iintro ⟨HO, HaS69, Hsh69⟩
  iapply (wp_recvwaitC (Bm) c KR 69 2 1 3 0 rfl rfl rfl rfl 0 (by decide) (by decide) (src := accM 3) (dst := slotM 69) rfl) $$ HIR HcR69 HO Hlev HaR69
  iintro ⟨HO, HaR69, Hsl69⟩
  ihave Hac3 := (acc_join3 (F := F) c 3 (sentV (Bm) 2 1 c 3)) $$ Hsh69 Hsh70 Hsh71
  iapply (wp_load_acc c 3 fullShare _) $$ Hac3
  iintro %v170 %hv170 Hac3
  iapply (wp_load_slot c 69 _) $$ Hsl69
  iintro %v171 %hv171 Hsl69
  iapply (wp_load_slot c 70 _) $$ Hsl70
  iintro %v172 %hv172 Hsl70
  iapply (wp_load_slot c 71 _) $$ Hsl71
  iintro %v173 %hv173 Hsl71
  iapply (wp_load_acc c 3 fullShare _) $$ Hac3
  iintro %v174 %hv174 Hac3
  iapply (wp_store_acc c 3 _ _) $$ Hac3
  iintro Hac3
  ihave Hac3 := (accAt_congr c 3 fullShare (show _ = x3 (Bm) c 3 from sum_payload _ _ _ _ _ _ _ _ hv170 hv171 hv172 hv173)) $$ Hac3
  iapply (wp_load_acc c 3 fullShare _) $$ Hac3
  iintro %v175 %hv175 Hac3
  iapply (wp_load_out c 3 fullShare _) $$ Hx7
  iintro %v176 Hx7
  iapply (wp_store_out c 3 _ _) $$ Hx7
  iintro Hx7
  ihave Hx7 := (out_congr c (congrArg (putRows _ 3) (show shapeCast S16x512 v175 shapeCasts_S1x16x512_S16x512 = x3 (Bm) c 3 from hv175))) $$ Hx7
  -- leaving: every copy cell closes at zero and the scratch buffers come back whole
  imod (phi1_intro_some (Bm) KS KR c) $$ [Hac0 Hac1 Hac2 Hac3 Hsl0 Hsl1 Hsl2 Hsl3 Hsl4 Hsl5 Hsl6 Hsl7 Hsl8 Hsl9 Hsl10 Hsl11 Hsl12 Hsl13 Hsl14 Hsl15 Hsl16 Hsl17 Hsl18 Hsl19 Hsl20 Hsl21 Hsl22 Hsl23 Hsl24 Hsl25 Hsl26 Hsl27 Hsl28 Hsl29 Hsl30 Hsl31 Hsl32 Hsl33 Hsl34 Hsl35 Hsl36 Hsl37 Hsl38 Hsl39 Hsl40 Hsl41 Hsl42 Hsl43 Hsl44 Hsl45 Hsl46 Hsl47 Hsl48 Hsl49 Hsl50 Hsl51 Hsl52 Hsl53 Hsl54 Hsl55 Hsl56 Hsl57 Hsl58 Hsl59 Hsl60 Hsl61 Hsl62 Hsl63 Hsl64 Hsl65 Hsl66 Hsl67 Hsl68 Hsl69 Hsl70 Hsl71 HaS0 HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30 HaS31 HaS32 HaS33 HaS34 HaS35 HaS36 HaS37 HaS38 HaS39 HaS40 HaS41 HaS42 HaS43 HaS44 HaS45 HaS46 HaS47 HaS48 HaS49 HaS50 HaS51 HaS52 HaS53 HaS54 HaS55 HaS56 HaS57 HaS58 HaS59 HaS60 HaS61 HaS62 HaS63 HaS64 HaS65 HaS66 HaS67 HaS68 HaS69 HaS70 HaS71 HaR0 HaR1 HaR2 HaR3 HaR4 HaR5 HaR6 HaR7 HaR8 HaR9 HaR10 HaR11 HaR12 HaR13 HaR14 HaR15 HaR16 HaR17 HaR18 HaR19 HaR20 HaR21 HaR22 HaR23 HaR24 HaR25 HaR26 HaR27 HaR28 HaR29 HaR30 HaR31 HaR32 HaR33 HaR34 HaR35 HaR36 HaR37 HaR38 HaR39 HaR40 HaR41 HaR42 HaR43 HaR44 HaR45 HaR46 HaR47 HaR48 HaR49 HaR50 HaR51 HaR52 HaR53 HaR54 HaR55 HaR56 HaR57 HaR58 HaR59 HaR60 HaR61 HaR62 HaR63 HaR64 HaR65 HaR66 HaR67 HaR68 HaR69 HaR70 HaR71] with HΦ
  · isplitl [Hac0 Hac1 Hac2 Hac3]
    · iapply (Entails.of_eq (bigSep_fin4 _).symm)
      isplitl [Hac0]; · iexists _; iexact Hac0
      isplitl [Hac1]; · iexists _; iexact Hac1
      isplitl [Hac2]; · iexists _; iexact Hac2
      iexists _; iexact Hac3
    isplitl [Hsl0 Hsl1 Hsl2 Hsl3 Hsl4 Hsl5 Hsl6 Hsl7 Hsl8 Hsl9 Hsl10 Hsl11 Hsl12 Hsl13 Hsl14 Hsl15 Hsl16 Hsl17 Hsl18 Hsl19 Hsl20 Hsl21 Hsl22 Hsl23 Hsl24 Hsl25 Hsl26 Hsl27 Hsl28 Hsl29 Hsl30 Hsl31 Hsl32 Hsl33 Hsl34 Hsl35 Hsl36 Hsl37 Hsl38 Hsl39 Hsl40 Hsl41 Hsl42 Hsl43 Hsl44 Hsl45 Hsl46 Hsl47 Hsl48 Hsl49 Hsl50 Hsl51 Hsl52 Hsl53 Hsl54 Hsl55 Hsl56 Hsl57 Hsl58 Hsl59 Hsl60 Hsl61 Hsl62 Hsl63 Hsl64 Hsl65 Hsl66 Hsl67 Hsl68 Hsl69 Hsl70 Hsl71]
    · iapply (Entails.of_eq (bigSep_fin72 _).symm)
      isplitl [Hsl0]; · iexists _; iexact Hsl0
      isplitl [Hsl1]; · iexists _; iexact Hsl1
      isplitl [Hsl2]; · iexists _; iexact Hsl2
      isplitl [Hsl3]; · iexists _; iexact Hsl3
      isplitl [Hsl4]; · iexists _; iexact Hsl4
      isplitl [Hsl5]; · iexists _; iexact Hsl5
      isplitl [Hsl6]; · iexists _; iexact Hsl6
      isplitl [Hsl7]; · iexists _; iexact Hsl7
      isplitl [Hsl8]; · iexists _; iexact Hsl8
      isplitl [Hsl9]; · iexists _; iexact Hsl9
      isplitl [Hsl10]; · iexists _; iexact Hsl10
      isplitl [Hsl11]; · iexists _; iexact Hsl11
      isplitl [Hsl12]; · iexists _; iexact Hsl12
      isplitl [Hsl13]; · iexists _; iexact Hsl13
      isplitl [Hsl14]; · iexists _; iexact Hsl14
      isplitl [Hsl15]; · iexists _; iexact Hsl15
      isplitl [Hsl16]; · iexists _; iexact Hsl16
      isplitl [Hsl17]; · iexists _; iexact Hsl17
      isplitl [Hsl18]; · iexists _; iexact Hsl18
      isplitl [Hsl19]; · iexists _; iexact Hsl19
      isplitl [Hsl20]; · iexists _; iexact Hsl20
      isplitl [Hsl21]; · iexists _; iexact Hsl21
      isplitl [Hsl22]; · iexists _; iexact Hsl22
      isplitl [Hsl23]; · iexists _; iexact Hsl23
      isplitl [Hsl24]; · iexists _; iexact Hsl24
      isplitl [Hsl25]; · iexists _; iexact Hsl25
      isplitl [Hsl26]; · iexists _; iexact Hsl26
      isplitl [Hsl27]; · iexists _; iexact Hsl27
      isplitl [Hsl28]; · iexists _; iexact Hsl28
      isplitl [Hsl29]; · iexists _; iexact Hsl29
      isplitl [Hsl30]; · iexists _; iexact Hsl30
      isplitl [Hsl31]; · iexists _; iexact Hsl31
      isplitl [Hsl32]; · iexists _; iexact Hsl32
      isplitl [Hsl33]; · iexists _; iexact Hsl33
      isplitl [Hsl34]; · iexists _; iexact Hsl34
      isplitl [Hsl35]; · iexists _; iexact Hsl35
      isplitl [Hsl36]; · iexists _; iexact Hsl36
      isplitl [Hsl37]; · iexists _; iexact Hsl37
      isplitl [Hsl38]; · iexists _; iexact Hsl38
      isplitl [Hsl39]; · iexists _; iexact Hsl39
      isplitl [Hsl40]; · iexists _; iexact Hsl40
      isplitl [Hsl41]; · iexists _; iexact Hsl41
      isplitl [Hsl42]; · iexists _; iexact Hsl42
      isplitl [Hsl43]; · iexists _; iexact Hsl43
      isplitl [Hsl44]; · iexists _; iexact Hsl44
      isplitl [Hsl45]; · iexists _; iexact Hsl45
      isplitl [Hsl46]; · iexists _; iexact Hsl46
      isplitl [Hsl47]; · iexists _; iexact Hsl47
      isplitl [Hsl48]; · iexists _; iexact Hsl48
      isplitl [Hsl49]; · iexists _; iexact Hsl49
      isplitl [Hsl50]; · iexists _; iexact Hsl50
      isplitl [Hsl51]; · iexists _; iexact Hsl51
      isplitl [Hsl52]; · iexists _; iexact Hsl52
      isplitl [Hsl53]; · iexists _; iexact Hsl53
      isplitl [Hsl54]; · iexists _; iexact Hsl54
      isplitl [Hsl55]; · iexists _; iexact Hsl55
      isplitl [Hsl56]; · iexists _; iexact Hsl56
      isplitl [Hsl57]; · iexists _; iexact Hsl57
      isplitl [Hsl58]; · iexists _; iexact Hsl58
      isplitl [Hsl59]; · iexists _; iexact Hsl59
      isplitl [Hsl60]; · iexists _; iexact Hsl60
      isplitl [Hsl61]; · iexists _; iexact Hsl61
      isplitl [Hsl62]; · iexists _; iexact Hsl62
      isplitl [Hsl63]; · iexists _; iexact Hsl63
      isplitl [Hsl64]; · iexists _; iexact Hsl64
      isplitl [Hsl65]; · iexists _; iexact Hsl65
      isplitl [Hsl66]; · iexists _; iexact Hsl66
      isplitl [Hsl67]; · iexists _; iexact Hsl67
      isplitl [Hsl68]; · iexists _; iexact Hsl68
      isplitl [Hsl69]; · iexists _; iexact Hsl69
      isplitl [Hsl70]; · iexists _; iexact Hsl70
      iexists _; iexact Hsl71
    isplitr; · iexact HIS
    isplitl [HaS0 HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30 HaS31 HaS32 HaS33 HaS34 HaS35 HaS36 HaS37 HaS38 HaS39 HaS40 HaS41 HaS42 HaS43 HaS44 HaS45 HaS46 HaS47 HaS48 HaS49 HaS50 HaS51 HaS52 HaS53 HaS54 HaS55 HaS56 HaS57 HaS58 HaS59 HaS60 HaS61 HaS62 HaS63 HaS64 HaS65 HaS66 HaS67 HaS68 HaS69 HaS70 HaS71]
    · iapply (Entails.of_eq (bigSep_fin72 _).symm)
      isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      isplitl [HaS6]; · iexact HaS6
      isplitl [HaS7]; · iexact HaS7
      isplitl [HaS8]; · iexact HaS8
      isplitl [HaS9]; · iexact HaS9
      isplitl [HaS10]; · iexact HaS10
      isplitl [HaS11]; · iexact HaS11
      isplitl [HaS12]; · iexact HaS12
      isplitl [HaS13]; · iexact HaS13
      isplitl [HaS14]; · iexact HaS14
      isplitl [HaS15]; · iexact HaS15
      isplitl [HaS16]; · iexact HaS16
      isplitl [HaS17]; · iexact HaS17
      isplitl [HaS18]; · iexact HaS18
      isplitl [HaS19]; · iexact HaS19
      isplitl [HaS20]; · iexact HaS20
      isplitl [HaS21]; · iexact HaS21
      isplitl [HaS22]; · iexact HaS22
      isplitl [HaS23]; · iexact HaS23
      isplitl [HaS24]; · iexact HaS24
      isplitl [HaS25]; · iexact HaS25
      isplitl [HaS26]; · iexact HaS26
      isplitl [HaS27]; · iexact HaS27
      isplitl [HaS28]; · iexact HaS28
      isplitl [HaS29]; · iexact HaS29
      isplitl [HaS30]; · iexact HaS30
      isplitl [HaS31]; · iexact HaS31
      isplitl [HaS32]; · iexact HaS32
      isplitl [HaS33]; · iexact HaS33
      isplitl [HaS34]; · iexact HaS34
      isplitl [HaS35]; · iexact HaS35
      isplitl [HaS36]; · iexact HaS36
      isplitl [HaS37]; · iexact HaS37
      isplitl [HaS38]; · iexact HaS38
      isplitl [HaS39]; · iexact HaS39
      isplitl [HaS40]; · iexact HaS40
      isplitl [HaS41]; · iexact HaS41
      isplitl [HaS42]; · iexact HaS42
      isplitl [HaS43]; · iexact HaS43
      isplitl [HaS44]; · iexact HaS44
      isplitl [HaS45]; · iexact HaS45
      isplitl [HaS46]; · iexact HaS46
      isplitl [HaS47]; · iexact HaS47
      isplitl [HaS48]; · iexact HaS48
      isplitl [HaS49]; · iexact HaS49
      isplitl [HaS50]; · iexact HaS50
      isplitl [HaS51]; · iexact HaS51
      isplitl [HaS52]; · iexact HaS52
      isplitl [HaS53]; · iexact HaS53
      isplitl [HaS54]; · iexact HaS54
      isplitl [HaS55]; · iexact HaS55
      isplitl [HaS56]; · iexact HaS56
      isplitl [HaS57]; · iexact HaS57
      isplitl [HaS58]; · iexact HaS58
      isplitl [HaS59]; · iexact HaS59
      isplitl [HaS60]; · iexact HaS60
      isplitl [HaS61]; · iexact HaS61
      isplitl [HaS62]; · iexact HaS62
      isplitl [HaS63]; · iexact HaS63
      isplitl [HaS64]; · iexact HaS64
      isplitl [HaS65]; · iexact HaS65
      isplitl [HaS66]; · iexact HaS66
      isplitl [HaS67]; · iexact HaS67
      isplitl [HaS68]; · iexact HaS68
      isplitl [HaS69]; · iexact HaS69
      isplitl [HaS70]; · iexact HaS70
      iexact HaS71
    isplitr; · iexact HIR
    iapply (Entails.of_eq (bigSep_fin72 _).symm)
    isplitl [HaR0]; · iexact HaR0
    isplitl [HaR1]; · iexact HaR1
    isplitl [HaR2]; · iexact HaR2
    isplitl [HaR3]; · iexact HaR3
    isplitl [HaR4]; · iexact HaR4
    isplitl [HaR5]; · iexact HaR5
    isplitl [HaR6]; · iexact HaR6
    isplitl [HaR7]; · iexact HaR7
    isplitl [HaR8]; · iexact HaR8
    isplitl [HaR9]; · iexact HaR9
    isplitl [HaR10]; · iexact HaR10
    isplitl [HaR11]; · iexact HaR11
    isplitl [HaR12]; · iexact HaR12
    isplitl [HaR13]; · iexact HaR13
    isplitl [HaR14]; · iexact HaR14
    isplitl [HaR15]; · iexact HaR15
    isplitl [HaR16]; · iexact HaR16
    isplitl [HaR17]; · iexact HaR17
    isplitl [HaR18]; · iexact HaR18
    isplitl [HaR19]; · iexact HaR19
    isplitl [HaR20]; · iexact HaR20
    isplitl [HaR21]; · iexact HaR21
    isplitl [HaR22]; · iexact HaR22
    isplitl [HaR23]; · iexact HaR23
    isplitl [HaR24]; · iexact HaR24
    isplitl [HaR25]; · iexact HaR25
    isplitl [HaR26]; · iexact HaR26
    isplitl [HaR27]; · iexact HaR27
    isplitl [HaR28]; · iexact HaR28
    isplitl [HaR29]; · iexact HaR29
    isplitl [HaR30]; · iexact HaR30
    isplitl [HaR31]; · iexact HaR31
    isplitl [HaR32]; · iexact HaR32
    isplitl [HaR33]; · iexact HaR33
    isplitl [HaR34]; · iexact HaR34
    isplitl [HaR35]; · iexact HaR35
    isplitl [HaR36]; · iexact HaR36
    isplitl [HaR37]; · iexact HaR37
    isplitl [HaR38]; · iexact HaR38
    isplitl [HaR39]; · iexact HaR39
    isplitl [HaR40]; · iexact HaR40
    isplitl [HaR41]; · iexact HaR41
    isplitl [HaR42]; · iexact HaR42
    isplitl [HaR43]; · iexact HaR43
    isplitl [HaR44]; · iexact HaR44
    isplitl [HaR45]; · iexact HaR45
    isplitl [HaR46]; · iexact HaR46
    isplitl [HaR47]; · iexact HaR47
    isplitl [HaR48]; · iexact HaR48
    isplitl [HaR49]; · iexact HaR49
    isplitl [HaR50]; · iexact HaR50
    isplitl [HaR51]; · iexact HaR51
    isplitl [HaR52]; · iexact HaR52
    isplitl [HaR53]; · iexact HaR53
    isplitl [HaR54]; · iexact HaR54
    isplitl [HaR55]; · iexact HaR55
    isplitl [HaR56]; · iexact HaR56
    isplitl [HaR57]; · iexact HaR57
    isplitl [HaR58]; · iexact HaR58
    isplitl [HaR59]; · iexact HaR59
    isplitl [HaR60]; · iexact HaR60
    isplitl [HaR61]; · iexact HaR61
    isplitl [HaR62]; · iexact HaR62
    isplitl [HaR63]; · iexact HaR63
    isplitl [HaR64]; · iexact HaR64
    isplitl [HaR65]; · iexact HaR65
    isplitl [HaR66]; · iexact HaR66
    isplitl [HaR67]; · iexact HaR67
    isplitl [HaR68]; · iexact HaR68
    isplitl [HaR69]; · iexact HaR69
    isplitl [HaR70]; · iexact HaR70
    iexact HaR71
  rw [putRows_result c (Bm) g7, wp_ret, show owedRev c 0 = (0 : CellTallies nD τ sig Unit) from rfl]; imodintro
  iapply Hk
  unfold bodyPost
  isplitl [HΦ]; · iexact HΦ
  isplitl [HO]; · iapply (owesAt_intro m ρ c _) $$ HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  iexists _; isplitr; · (ipureintro; rfl)
  iexact Hx7

def bodyPre' (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))

set_option maxRecDepth 100000 in
/-- The library's body obligation on device `c`. -/
theorem body_obligation' (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3) (fun _ => bodyPost m ρ c)
  unfold bodyPre' Φ₀ start
  iintro ⟨⟨⟨⟨%K, %KS, %KR, Hg⟩, Hrest⟩, Hscr⟩, Ho, Hx⟩
  iapply (sound_body m ρ K KS KR c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    iexact Hx
  · iintro H; iexact H

end Cert.Kernel.Hand

end
-- ==== Proof.Bits.BodyObl.lean ====
/-
  The body obligation of the one grid point on every device.
-/
import proofs.«900461_g7700000000000462_dist_mlpseq_tp1d_rep_rep_b64_d512_h1024_v7x_i16_f32_1_alg».proof.Proof.Bits.Body

noncomputable section

namespace Cert.Kernel.Hand

open Cert.Kernel Cert.Kernel.Gen
open Idealize.ShloMosaic Idealize.ShloMosaic.TcCoe
open Idealize.ShloMosaic.Pipeline (Dat Cfg Window BodyObligation cellOf)

variable {F : FTy → Type} [FloatOps F]
variable (m : (ℓ : Loc nD τ sig) → Buf (Elt F) ℓ) (ρ : Dev nD → PrngReg)

theorem body_obligation (c : Dev nD) : BodyObligation (dats (F := F) m ρ 0 c) (defs₀ (F := F)) 𝒱₀ () Set.univ :=
  body_obligation' m ρ c

end Cert.Kernel.Hand

end
-- ==== Proof.Claims.lean ====
/-
  The five conjuncts from the runs.
-/
import proofs.«900461_g7700000000000462_dist_mlpseq_tp1d_rep_rep_b64_d512_h1024_v7x_i16_f32_1_alg».proof.Defs
import proofs.«900461_g7700000000000462_dist_mlpseq_tp1d_rep_rep_b64_d512_h1024_v7x_i16_f32_1_alg».proof.Proof.RefFrame
import proofs.«900461_g7700000000000462_dist_mlpseq_tp1d_rep_rep_b64_d512_h1024_v7x_i16_f32_1_alg».proof.Proof.Final
import proofs.«900461_g7700000000000462_dist_mlpseq_tp1d_rep_rep_b64_d512_h1024_v7x_i16_f32_1_alg».proof.Proof.BodyObl
import proofs.«900461_g7700000000000462_dist_mlpseq_tp1d_rep_rep_b64_d512_h1024_v7x_i16_f32_1_alg».proof.Proof.Value
import proofs.«900461_g7700000000000462_dist_mlpseq_tp1d_rep_rep_b64_d512_h1024_v7x_i16_f32_1_alg».proof.Proof.Bits.Final
import proofs.«900461_g7700000000000462_dist_mlpseq_tp1d_rep_rep_b64_d512_h1024_v7x_i16_f32_1_alg».proof.Proof.Bits.BodyObl

noncomputable section

namespace Cert.Proof.KClaims

open Idealize.ShloMosaic Idealize.SL.Sem

theorem frame_p [Cert.Kernel.Facts] [Cert.Pre_finite_inputs_Kernel.Facts] : Cert.frame_Kernel := fun m ρ _ =>
  (θ_run Cert.Kernel.defs _ _).mono (fun _ h c => (h c).2)
    (Cert.Kernel.Hand.run_named (F := Bits) m ρ (Cert.Kernel.Hand.body_obligation m ρ))

theorem frame_pi [Cert.KernelIdeal.Facts] [Cert.Pre_finite_inputs_Kernel.Facts] : Cert.frame_KernelIdeal := fun m ρ _ =>
  (θ_run Cert.KernelIdeal.defs _ _).mono (fun _ h c => (h c).2)
    (Cert.KernelIdeal.Hand.run_named (F := Ideal) m ρ (Cert.KernelIdeal.Hand.body_obligation m ρ))

/-- At the ideal instance every device's result array ends at the reference's result: the devices' blocks are the blocks of
    the reference's arrays, and the sum of the sixteen partial sums is the whole sum. -/
theorem algebraic [Cert.KernelIdeal.Facts] [Cert.ReferenceIdeal.Facts] [Cert.Pre_finite_inputs_Kernel.Facts] :
    Cert.algebraic_KernelIdeal_ReferenceIdeal := by
  intro m ρ m' ρ' _ hagree
  refine ⟨_, ?_, Cert.ReferenceIdeal.Value.run (F := Ideal) m' ρ' |>.mono (fun _ h => h 0)⟩
  refine (θ_run Cert.KernelIdeal.defs _ _).mono (fun _ h c => ⟨(h c).1.trans ?_, (h c).2⟩)
    (Cert.KernelIdeal.Hand.run_named (F := Ideal) m ρ (Cert.KernelIdeal.Hand.body_obligation m ρ))
  refine Cert.KernelIdeal.Hand.result_eq_reference _ _ _ _ _ _ _ (Cert.KernelIdeal.Hand.blocksOf m)
    (fun c => (Cert.KernelIdeal.Hand.blocks_x m c).trans (hagree c).1)
    (fun c => ⟨(Cert.KernelIdeal.Hand.blocks_wi0 m c).trans (hagree c).2.1,
      (Cert.KernelIdeal.Hand.blocks_wi1 m c).trans (hagree c).2.2.2.1,
      (Cert.KernelIdeal.Hand.blocks_wi2 m c).trans (hagree c).2.2.2.2.2.1⟩)
    (fun c => ⟨(Cert.KernelIdeal.Hand.blocks_wo0 m c).trans (hagree c).2.2.1,
      (Cert.KernelIdeal.Hand.blocks_wo1 m c).trans (hagree c).2.2.2.2.1,
      (Cert.KernelIdeal.Hand.blocks_wo2 m c).trans (hagree c).2.2.2.2.2.2⟩) c

end Cert.Proof.KClaims

end
-- ==== Proof.lean ====
/-
  The certificate of a three-layer MLP whose hidden dimension is cut over sixteen devices.

  Each device holds a full copy of the 64 × 512 input and, of every layer, 1024 of the 16384 columns of the first weight and
  the matching 1024 rows of the second. Per layer and per tile of sixteen rows it computes its partial sum
  `max(x · Win_block, 0) · Wout_block`; the partial sums are added over the sixteen devices by two rounds of copies into the
  neighbours' landing slots (first across the four planes of the mesh, then inside the plane), after an entry handshake on
  the barrier semaphore. The reference computes `max(x · Win, 0) · Wout` over the whole arrays on one device.

  At the ideal instance a matrix product into a zero accumulator is a plain sum of products and addition of extended reals is
  commutative and associative, so the sum over the 16384 hidden units is the sum, over the sixteen devices, of the sums over
  their 1024 units, in whatever order the devices add them: every device ends with the reference's result.
  The frames (termination under weak fairness, no fault, arguments unchanged) follow from the exchange's protocol: every wait
  is on a cell ranked below everything the waiting device still owes (the barrier below the arrivals, the arrivals in issue
  order), so some device can always move.
-/
import proofs.«900461_g7700000000000462_dist_mlpseq_tp1d_rep_rep_b64_d512_h1024_v7x_i16_f32_1_alg».proof.Defs
import proofs.«900461_g7700000000000462_dist_mlpseq_tp1d_rep_rep_b64_d512_h1024_v7x_i16_f32_1_alg».proof.Proof.Gen.Kernel
import proofs.«900461_g7700000000000462_dist_mlpseq_tp1d_rep_rep_b64_d512_h1024_v7x_i16_f32_1_alg».proof.Proof.Gen.KernelIdeal
import proofs.«900461_g7700000000000462_dist_mlpseq_tp1d_rep_rep_b64_d512_h1024_v7x_i16_f32_1_alg».proof.Proof.Gen.ReferenceIdeal
import proofs.«900461_g7700000000000462_dist_mlpseq_tp1d_rep_rep_b64_d512_h1024_v7x_i16_f32_1_alg».proof.Proof.Gen.Pre_finite_inputs_Kernel
import proofs.«900461_g7700000000000462_dist_mlpseq_tp1d_rep_rep_b64_d512_h1024_v7x_i16_f32_1_alg».proof.Proof.Gen.Pre_finite_inputs_ReferenceIdeal
import proofs.«900461_g7700000000000462_dist_mlpseq_tp1d_rep_rep_b64_d512_h1024_v7x_i16_f32_1_alg».proof.Proof.RefFrame
import proofs.«900461_g7700000000000462_dist_mlpseq_tp1d_rep_rep_b64_d512_h1024_v7x_i16_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  exact ⟨Cert.Proof.KClaims.frame_p, Cert.Proof.KClaims.frame_pi, Cert.Proof.RefClaims.frame_ri, trivial, Cert.Proof.KClaims.algebraic⟩⟩

end Cert.Proof

end
